-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v99)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v99) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v167) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S800000x128 : Shape := ⟨2, ![800000, 128]⟩
abbrev S2x800000 : Shape := ⟨2, ![2, 800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S5x128 : Shape := ⟨2, ![5, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S800000x128 : S_.BroadcastsInDim S800000x128 (![] : Fin 0 → Fin S800000x128.rank)
  reducesTo_S800000x128_S_d0_1 : S800000x128.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S5x128 : S_.BroadcastsInDim S5x128 (![] : Fin 0 → Fin S5x128.rank)
  reducesTo_S5x128_S_d0_1 : S5x128.ReducesTo [0, 1] S_

variable [Facts]

def fn_part4 {F : FTy → Type} [FloatOps F] (main_arg18 : FVec F S128 .f32) (main_arg19 : FVec F S5x128 .f32) (main_v63 : IVec S_ 1) (main_v67 : IVec S_ 1) : IVec S_ 1 :=
  let main_v68 : IVec S_ 1 := andi main_v63 main_v67
  let main_v69 : FVec F S128 .f32 := Host.absf main_arg18
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S5x128 .f32 := Host.absf main_arg19
  let main_cst_28 : FVec F S_ .f32 := constant S_ .f32 0x7F800000#32
  let main_v75 : FVec F S5x128 .f32 := broadcastInDim S5x128 ![] bcast_S_S5x128 main_cst_28
  let main_v76 : IVec S5x128 1 := cmpf .olt main_v74 main_v75
  let main_c_29 : IVec S_ 1 := constantI S_ 1 1#1
  let main_v77 : IVec S_ 1 := (fun x v => Host.reduce IntOp.andi x v reducesTo_S5x128_S_d0_1 h_S_) main_v76 main_c_29
  let main_v78 : IVec S_ 1 := andi main_v73 main_v77
  main_v78

def fn_part3 {F : FTy → Type} [FloatOps F] (main_arg15 : FVec F S128 .f32) (main_arg16 : FVec F S128 .f32) (main_arg17 : FVec F S128 .f32) (main_arg18 : FVec F S128 .f32) (main_arg19 : FVec F S5x128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg15
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg16
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg17
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg18 main_arg19 main_v63 main_v67

def fn_part2 {F : FTy → Type} [FloatOps F] (main_arg11 : FVec F S256 .f32) (main_arg12 : FVec F S256 .f32) (main_arg13 : FVec F S256x128 .f32) (main_arg14 : FVec F S128 .f32) (main_arg15 : FVec F S128 .f32) (main_arg16 : FVec F S128 .f32) (main_arg17 : FVec F S128 .f32) (main_arg18 : FVec F S128 .f32) (main_arg19 : FVec F S5x128 .f32) (main_v33 : IVec S_ 1) : IVec S_ 1 :=
  let main_v34 : FVec F S256 .f32 := Host.absf main_arg11
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg12
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x128 .f32 := Host.absf main_arg13
  let main_cst_16 : FVec F S_ .f32 := constant S_ .f32 0x7F800000#32
  let main_v45 : FVec F S256x128 .f32 := broadcastInDim S256x128 ![] bcast_S_S256x128 main_cst_16
  let main_v46 : IVec S256x128 1 := cmpf .olt main_v44 main_v45
  let main_c_17 : IVec S_ 1 := constantI S_ 1 1#1
  let main_v47 : IVec S_ 1 := (fun x v => Host.reduce IntOp.andi x v reducesTo_S256x128_S_d0_1 h_S_) main_v46 main_c_17
  let main_v48 : IVec S_ 1 := andi main_v43 main_v47
  let main_v49 : FVec F S128 .f32 := Host.absf main_arg14
  let main_cst_18 : FVec F S_ .f32 := constant S_ .f32 0x7F800000#32
  let main_v50 : FVec F S128 .f32 := broadcastInDim S128 ![] bcast_S_S128 main_cst_18
  fn_part3 (F := F) main_arg15 main_arg16 main_arg17 main_arg18 main_arg19 main_v48 main_v49 main_v50

def fn_part1 {F : FTy → Type} [FloatOps F] (main_arg4 : FVec F S800000x128 .f32) (main_arg9 : FVec F S128x256 .f32) (main_arg10 : FVec F S256 .f32) (main_arg11 : FVec F S256 .f32) (main_arg12 : FVec F S256 .f32) (main_arg13 : FVec F S256x128 .f32) (main_arg14 : FVec F S128 .f32) (main_arg15 : FVec F S128 .f32) (main_arg16 : FVec F S128 .f32) (main_arg17 : FVec F S128 .f32) (main_arg18 : FVec F S128 .f32) (main_arg19 : FVec F S5x128 .f32) (main_v13 : IVec S_ 1) (main_v16 : IVec S100000x128 1) : IVec S_ 1 :=
  let main_c_5 : IVec S_ 1 := constantI S_ 1 1#1
  let main_v17 : IVec S_ 1 := (fun x v => Host.reduce IntOp.andi x v reducesTo_S100000x128_S_d0_1 h_S_) main_v16 main_c_5
  let main_v18 : IVec S_ 1 := andi main_v13 main_v17
  let main_v19 : FVec F S800000x128 .f32 := Host.absf main_arg4
  let main_cst_6 : FVec F S_ .f32 := constant S_ .f32 0x7F800000#32
  let main_v20 : FVec F S800000x128 .f32 := broadcastInDim S800000x128 ![] bcast_S_S800000x128 main_cst_6
  let main_v21 : IVec S800000x128 1 := cmpf .olt main_v19 main_v20
  let main_c_7 : IVec S_ 1 := constantI S_ 1 1#1
  let main_v22 : IVec S_ 1 := (fun x v => Host.reduce IntOp.andi x v reducesTo_S800000x128_S_d0_1 h_S_) main_v21 main_c_7
  let main_v23 : IVec S_ 1 := andi main_v18 main_v22
  let main_v24 : FVec F S128x256 .f32 := Host.absf main_arg9
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S256 .f32 := Host.absf main_arg10
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg11 main_arg12 main_arg13 main_arg14 main_arg15 main_arg16 main_arg17 main_arg18 main_arg19 main_v33

def fn {F : FTy → Type} [FloatOps F] (main_arg0 : FVec F S100000x128 .f32) (main_arg1 : FVec F S100000x128 .f32) (main_arg2 : FVec F S100000x128 .f32) (main_arg3 : FVec F S100000x128 .f32) (main_arg4 : FVec F S800000x128 .f32) (main_arg5 : IVec S2x800000 32) (main_arg6 : IVec S2x800000 32) (main_arg7 : IVec S2x800000 32) (main_arg8 : IVec S2x800000 32) (main_arg9 : FVec F S128x256 .f32) (main_arg10 : FVec F S256 .f32) (main_arg11 : FVec F S256 .f32) (main_arg12 : FVec F S256 .f32) (main_arg13 : FVec F S256x128 .f32) (main_arg14 : FVec F S128 .f32) (main_arg15 : FVec F S128 .f32) (main_arg16 : FVec F S128 .f32) (main_arg17 : FVec F S128 .f32) (main_arg18 : FVec F S128 .f32) (main_arg19 : FVec F S5x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S100000x128 .f32 := Host.absf main_arg2
  let main_cst_2 : FVec F S_ .f32 := constant S_ .f32 0x7F800000#32
  let main_v10 : FVec F S100000x128 .f32 := broadcastInDim S100000x128 ![] bcast_S_S100000x128 main_cst_2
  let main_v11 : IVec S100000x128 1 := cmpf .olt main_v9 main_v10
  let main_c_3 : IVec S_ 1 := constantI S_ 1 1#1
  let main_v12 : IVec S_ 1 := (fun x v => Host.reduce IntOp.andi x v reducesTo_S100000x128_S_d0_1 h_S_) main_v11 main_c_3
  let main_v13 : IVec S_ 1 := andi main_v8 main_v12
  let main_v14 : FVec F S100000x128 .f32 := Host.absf main_arg3
  let main_cst_4 : FVec F S_ .f32 := constant S_ .f32 0x7F800000#32
  let main_v15 : FVec F S100000x128 .f32 := broadcastInDim S100000x128 ![] bcast_S_S100000x128 main_cst_4
  let main_v16 : IVec S100000x128 1 := cmpf .olt main_v14 main_v15
  fn_part1 (F := F) main_arg4 main_arg9 main_arg10 main_arg11 main_arg12 main_arg13 main_arg14 main_arg15 main_arg16 main_arg17 main_arg18 main_arg19 main_v13 main_v16
-- ==== Kernel.lean ====
abbrev S100000x128 : Shape := ⟨2, ![100000, 128]⟩
abbrev S800000x128 : Shape := ⟨2, ![800000, 128]⟩
abbrev S2x800000 : Shape := ⟨2, ![2, 800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S5x128 : Shape := ⟨2, ![5, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S5000x128 : Shape := ⟨2, ![5000, 128]⟩
abbrev S1x128 : Shape := ⟨2, ![1, 128]⟩
abbrev S1x256 : Shape := ⟨2, ![1, 256]⟩
abbrev S100000x256 : Shape := ⟨2, ![100000, 256]⟩
abbrev S2x256 : Shape := ⟨2, ![2, 256]⟩
abbrev S5000x256 : Shape := ⟨2, ![5000, 256]⟩
abbrev S2x128 : Shape := ⟨2, ![2, 128]⟩

abbrev nBuf : Space → Nat
  | .hbm => 149
  | .vmem => 54
  | .smem => 0
  | _ => 0

abbrev hbmTy0_0 (i : Nat) : BufTy := match i % 128 with
  | 0 => ⟨S100000x128, .f32⟩
  | 1 => ⟨S100000x128, .f32⟩
  | 2 => ⟨S100000x128, .f32⟩
  | 3 => ⟨S100000x128, .f32⟩
  | 4 => ⟨S800000x128, .f32⟩
  | 5 => ⟨S2x800000, .i32⟩
  | 6 => ⟨S2x800000, .i32⟩
  | 7 => ⟨S2x800000, .i32⟩
  | 8 => ⟨S2x800000, .i32⟩
  | 9 => ⟨S128x256, .f32⟩
  | 10 => ⟨S256, .f32⟩
  | 11 => ⟨S256, .f32⟩
  | 12 => ⟨S256, .f32⟩
  | 13 => ⟨S256x128, .f32⟩
  | 14 => ⟨S128, .f32⟩
  | 15 => ⟨S128, .f32⟩
  | 16 => ⟨S128, .f32⟩
  | 17 => ⟨S128, .f32⟩
  | 18 => ⟨S128, .f32⟩
  | 19 => ⟨S5x128, .f32⟩
  | 20 => ⟨S1x800000, .i32⟩
  | 21 => ⟨S800000, .i32⟩
  | 22 => ⟨S_, .i32⟩
  | 23 => ⟨S800000, .i32⟩
  | 24 => ⟨S800000, .i1⟩
  | 25 => ⟨S_, .i32⟩
  | 26 => ⟨S800000, .i32⟩
  | 27 => ⟨S800000, .i32⟩
  | 28 => ⟨S800000, .i32⟩
  | 29 => ⟨S800000x1, .i32⟩
  | 30 => ⟨S800000x128, .f32⟩
  | 31 => ⟨S800000x128, .f32⟩
  | 32 => ⟨S_, .f32⟩
  | 33 => ⟨S800000x128, .f32⟩
  | 34 => ⟨S800000x128, .f32⟩
  | 35 => ⟨S1x800000, .i32⟩
  | 36 => ⟨S800000, .i32⟩
  | 37 => ⟨S_, .f32⟩
  | 38 => ⟨S100000x128, .f32⟩
  | 39 => ⟨S800000x1, .i32⟩
  | 40 => ⟨S100000x128, .f32⟩
  | 41 => ⟨S1x800000, .i32⟩
  | 42 => ⟨S800000, .i32⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S800000x128, .f32⟩
  | 52 => ⟨S_, .f32⟩
  | 53 => ⟨S800000x128, .f32⟩
  | 54 => ⟨S800000x128, .f32⟩
  | 55 => ⟨S1x800000, .i32⟩
  | 56 => ⟨S800000, .i32⟩
  | 57 => ⟨S_, .f32⟩
  | 58 => ⟨S100000x128, .f32⟩
  | 59 => ⟨S800000x1, .i32⟩
  | 60 => ⟨S100000x128, .f32⟩
  | 61 => ⟨S1x800000, .i32⟩
  | 62 => ⟨S800000, .i32⟩
  | 63 => ⟨S_, .i32⟩
  | 64 => ⟨S800000, .i32⟩
  | 65 => ⟨S800000, .i1⟩
  | 66 => ⟨S_, .i32⟩
  | 67 => ⟨S800000, .i32⟩
  | 68 => ⟨S800000, .i32⟩
  | 69 => ⟨S800000, .i32⟩
  | 70 => ⟨S800000x1, .i32⟩
  | 71 => ⟨S800000x128, .f32⟩
  | 72 => ⟨S_, .f32⟩
  | 73 => ⟨S800000x128, .f32⟩
  | 74 => ⟨S800000x128, .f32⟩
  | 75 => ⟨S1x800000, .i32⟩
  | 76 => ⟨S800000, .i32⟩
  | 77 => ⟨S_, .f32⟩
  | 78 => ⟨S100000x128, .f32⟩
  | 79 => ⟨S800000x1, .i32⟩
  | 80 => ⟨S100000x128, .f32⟩
  | 81 => ⟨S1x800000, .i32⟩
  | 82 => ⟨S800000, .i32⟩
  | 83 => ⟨S_, .i32⟩
  | 84 => ⟨S800000, .i32⟩
  | 85 => ⟨S800000, .i1⟩
  | 86 => ⟨S_, .i32⟩
  | 87 => ⟨S800000, .i32⟩
  | 88 => ⟨S800000, .i32⟩
  | 89 => ⟨S800000, .i32⟩
  | 90 => ⟨S800000x1, .i32⟩
  | 91 => ⟨S800000x128, .f32⟩
  | 92 => ⟨S_, .f32⟩
  | 93 => ⟨S800000x128, .f32⟩
  | 94 => ⟨S800000x128, .f32⟩
  | 95 => ⟨S1x800000, .i32⟩
  | 96 => ⟨S800000, .i32⟩
  | 97 => ⟨S_, .f32⟩
  | 98 => ⟨S100000x128, .f32⟩
  | 99 => ⟨S800000x1, .i32⟩
  | 100 => ⟨S100000x128, .f32⟩
  | 101 => ⟨S100000x128, .f32⟩
  | 102 => ⟨S128x256, .bf16⟩
  | 103 => ⟨S256x128, .bf16⟩
  | 104 => ⟨S1x256, .f32⟩
  | 105 => ⟨S1x128, .f32⟩
  | 106 => ⟨S1x256, .f32⟩
  | 107 => ⟨S1x256, .f32⟩
  | 108 => ⟨S1x128, .f32⟩
  | 109 => ⟨S1x128, .f32⟩
  | 110 => ⟨S1x128, .f32⟩
  | 111 => ⟨S1x128, .f32⟩
  | 112 => ⟨S100000x256, .f32⟩
  | 113 => ⟨S2x256, .f32⟩
  | 114 => ⟨S1x256, .f32⟩
  | 115 => ⟨S_, .f32⟩
  | 116 => ⟨S1x256, .f32⟩
  | 117 => ⟨S1x256, .f32⟩
  | 118 => ⟨S1x256, .f32⟩
  | 119 => ⟨S_, .f32⟩
  | 120 => ⟨S1x256, .f32⟩
  | 121 => ⟨S1x256, .f32⟩
  | 122 => ⟨S1x256, .f32⟩
  | 123 => ⟨S1x256, .f32⟩
  | 124 => ⟨S100000x128, .f32⟩
  | 125 => ⟨S2x128, .f32⟩
  | 126 => ⟨S1x128, .f32⟩
  | 127 => ⟨S_, .f32⟩
  | _ => ⟨S100000x128, .f32⟩

abbrev hbmTy0_1 (i : Nat) : BufTy := match i % 128 with
  | 0 => ⟨S1x128, .f32⟩
  | 1 => ⟨S1x128, .f32⟩
  | 2 => ⟨S1x128, .f32⟩
  | 3 => ⟨S_, .f32⟩
  | 4 => ⟨S1x128, .f32⟩
  | 5 => ⟨S1x128, .f32⟩
  | 6 => ⟨S1x128, .f32⟩
  | 7 => ⟨S1x128, .f32⟩
  | 8 => ⟨S100000x128, .f32⟩
  | 9 => ⟨S2x128, .f32⟩
  | 10 => ⟨S1x128, .f32⟩
  | 11 => ⟨S_, .f32⟩
  | 12 => ⟨S1x128, .f32⟩
  | 13 => ⟨S1x128, .f32⟩
  | 14 => ⟨S1x128, .f32⟩
  | 15 => ⟨S_, .f32⟩
  | 16 => ⟨S1x128, .f32⟩
  | 17 => ⟨S1x128, .f32⟩
  | 18 => ⟨S1x128, .f32⟩
  | 19 => ⟨S1x128, .f32⟩
  | 20 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S128x256, .bf16⟩
  | .local _ .vmem, ⟨16, _⟩ => ⟨S1x256, .f32⟩
  | .local _ .vmem, ⟨17, _⟩ => ⟨S5000x256, .f32⟩
  | .local _ .vmem, ⟨18, _⟩ => ⟨S5000x256, .f32⟩
  | .local _ .vmem, ⟨19, _⟩ => ⟨S2x256, .f32⟩
  | .local _ .vmem, ⟨20, _⟩ => ⟨S1x256, .f32⟩
  | .local _ .vmem, ⟨21, _⟩ => ⟨S1x256, .f32⟩
  | .local _ .vmem, ⟨22, _⟩ => ⟨S5000x256, .f32⟩
  | .local _ .vmem, ⟨23, _⟩ => ⟨S5000x256, .f32⟩
  | .local _ .vmem, ⟨24, _⟩ => ⟨S1x256, .f32⟩
  | .local _ .vmem, ⟨25, _⟩ => ⟨S1x256, .f32⟩
  | .local _ .vmem, ⟨26, _⟩ => ⟨S1x256, .f32⟩
  | .local _ .vmem, ⟨27, _⟩ => ⟨S1x256, .f32⟩
  | .local _ .vmem, ⟨28, _⟩ => ⟨S256x128, .bf16⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | .local _ .vmem, ⟨32, _⟩ => ⟨S2x128, .f32⟩
  | .local _ .vmem, ⟨33, _⟩ => ⟨S1x128, .f32⟩
  | .local _ .vmem, ⟨34, _⟩ => ⟨S1x128, .f32⟩
  | .local _ .vmem, ⟨35, _⟩ => ⟨S5000x128, .f32⟩
  | .local _ .vmem, ⟨36, _⟩ => ⟨S5000x128, .f32⟩
  | .local _ .vmem, ⟨37, _⟩ => ⟨S1x128, .f32⟩
  | .local _ .vmem, ⟨38, _⟩ => ⟨S1x128, .f32⟩
  | .local _ .vmem, ⟨39, _⟩ => ⟨S1x128, .f32⟩
  | .local _ .vmem, ⟨40, _⟩ => ⟨S1x128, .f32⟩
  | .local _ .vmem, ⟨41, _⟩ => ⟨S5000x128, .f32⟩
  | .local _ .vmem, ⟨42, _⟩ => ⟨S5000x128, .f32⟩
  | .local _ .vmem, ⟨43, _⟩ => ⟨S2x128, .f32⟩
  | .local _ .vmem, ⟨44, _⟩ => ⟨S1x128, .f32⟩
  | .local _ .vmem, ⟨45, _⟩ => ⟨S1x128, .f32⟩
  | .local _ .vmem, ⟨46, _⟩ => ⟨S5000x128, .f32⟩
  | .local _ .vmem, ⟨47, _⟩ => ⟨S5000x128, .f32⟩
  | .local _ .vmem, ⟨48, _⟩ => ⟨S1x128, .f32⟩
  | .local _ .vmem, ⟨49, _⟩ => ⟨S1x128, .f32⟩
  | .local _ .vmem, ⟨50, _⟩ => ⟨S1x128, .f32⟩
  | .local _ .vmem, ⟨51, _⟩ => ⟨S1x128, .f32⟩
  | .local _ .vmem, ⟨52, _⟩ => ⟨S5000x128, .f32⟩
  | .local _ .vmem, ⟨53, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_c : Ref sig .tc := ⟨.hbm, 22, rfl⟩
abbrev main_v2 : Ref sig .tc := ⟨.hbm, 23, rfl⟩
abbrev main_v3 : Ref sig .tc := ⟨.hbm, 24, rfl⟩
abbrev main_c_0 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_call0_cst : Ref sig .tc := ⟨.hbm, 32, rfl⟩
abbrev main_call0_v0 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_cst : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_c_1 : Ref sig .tc := ⟨.hbm, 43, rfl⟩
abbrev main_v18 : Ref sig .tc := ⟨.hbm, 44, rfl⟩
abbrev main_v19 : Ref sig .tc := ⟨.hbm, 45, rfl⟩
abbrev main_c_2 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_call1_cst : Ref sig .tc := ⟨.hbm, 52, rfl⟩
abbrev main_call1_v0 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_cst_3 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_c_4 : Ref sig .tc := ⟨.hbm, 63, rfl⟩
abbrev main_v33 : Ref sig .tc := ⟨.hbm, 64, rfl⟩
abbrev main_v34 : Ref sig .tc := ⟨.hbm, 65, rfl⟩
abbrev main_c_5 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_call2_cst : Ref sig .tc := ⟨.hbm, 72, rfl⟩
abbrev main_call2_v0 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_cst_6 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_c_7 : Ref sig .tc := ⟨.hbm, 83, rfl⟩
abbrev main_v48 : Ref sig .tc := ⟨.hbm, 84, rfl⟩
abbrev main_v49 : Ref sig .tc := ⟨.hbm, 85, rfl⟩
abbrev main_c_8 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_call3_cst : Ref sig .tc := ⟨.hbm, 92, rfl⟩
abbrev main_call3_v0 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_cst_9 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72_0 : Ref sig .tc := ⟨.hbm, 112, rfl⟩
abbrev main_v72_1 : Ref sig .tc := ⟨.hbm, 113, rfl⟩
abbrev main_v73 : Ref sig .tc := ⟨.hbm, 114, rfl⟩
abbrev main_cst_10 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_cst_11 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81_0 : Ref sig .tc := ⟨.hbm, 124, rfl⟩
abbrev main_v81_1 : Ref sig .tc := ⟨.hbm, 125, rfl⟩
abbrev main_v82 : Ref sig .tc := ⟨.hbm, 126, rfl⟩
abbrev main_cst_12 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_cst_13 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90_0 : Ref sig .tc := ⟨.hbm, 136, rfl⟩
abbrev main_v90_1 : Ref sig .tc := ⟨.hbm, 137, rfl⟩
abbrev main_v91 : Ref sig .tc := ⟨.hbm, 138, rfl⟩
abbrev main_cst_14 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_cst_15 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_scratch0 : Ref sig .tc := ⟨.vmem, 20, rfl⟩
abbrev cc1_scratch1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg6_0 : Ref sig .tc := ⟨.vmem, 29, rfl⟩
abbrev cc2_stg7_0 : Ref sig .tc := ⟨.vmem, 30, rfl⟩
abbrev cc2_stg7_1 : Ref sig .tc := ⟨.vmem, 31, rfl⟩
abbrev cc2_stg8_0 : Ref sig .tc := ⟨.vmem, 32, rfl⟩
abbrev cc2_scratch0 : Ref sig .tc := ⟨.vmem, 33, rfl⟩
abbrev cc2_scratch1 : Ref sig .tc := ⟨.vmem, 34, rfl⟩
abbrev cc3_stg0_0 : Ref sig .tc := ⟨.vmem, 35, rfl⟩
abbrev cc3_stg0_1 : Ref sig .tc := ⟨.vmem, 36, rfl⟩
abbrev cc3_stg1_0 : Ref sig .tc := ⟨.vmem, 37, rfl⟩
abbrev cc3_stg2_0 : Ref sig .tc := ⟨.vmem, 38, rfl⟩
abbrev cc3_stg3_0 : Ref sig .tc := ⟨.vmem, 39, rfl⟩
abbrev cc3_stg4_0 : Ref sig .tc := ⟨.vmem, 40, rfl⟩
abbrev cc3_stg5_0 : Ref sig .tc := ⟨.vmem, 41, rfl⟩
abbrev cc3_stg5_1 : Ref sig .tc := ⟨.vmem, 42, rfl⟩
abbrev cc3_stg6_0 : Ref sig .tc := ⟨.vmem, 43, rfl⟩
abbrev cc3_scratch0 : Ref sig .tc := ⟨.vmem, 44, rfl⟩
abbrev cc3_scratch1 : Ref sig .tc := ⟨.vmem, 45, rfl⟩
abbrev cc4_stg0_0 : Ref sig .tc := ⟨.vmem, 46, rfl⟩
abbrev cc4_stg0_1 : Ref sig .tc := ⟨.vmem, 47, rfl⟩
abbrev cc4_stg1_0 : Ref sig .tc := ⟨.vmem, 48, rfl⟩
abbrev cc4_stg2_0 : Ref sig .tc := ⟨.vmem, 49, rfl⟩
abbrev cc4_stg3_0 : Ref sig .tc := ⟨.vmem, 50, rfl⟩
abbrev cc4_stg4_0 : Ref sig .tc := ⟨.vmem, 51, rfl⟩
abbrev cc4_stg5_0 : Ref sig .tc := ⟨.vmem, 52, rfl⟩
abbrev cc4_stg5_1 : Ref sig .tc := ⟨.vmem, 53, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem3_0 : DmaSem sig := 17
abbrev cc1_sem3_1 : DmaSem sig := 18
abbrev cc1_sem4_0 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem6_0 : DmaSem sig := 27
abbrev cc2_sem7_0 : DmaSem sig := 28
abbrev cc2_sem7_1 : DmaSem sig := 29
abbrev cc2_sem8_0 : DmaSem sig := 30
abbrev cc3_sem0_0 : DmaSem sig := 31
abbrev cc3_sem0_1 : DmaSem sig := 32
abbrev cc3_sem1_0 : DmaSem sig := 33
abbrev cc3_sem2_0 : DmaSem sig := 34
abbrev cc3_sem3_0 : DmaSem sig := 35
abbrev cc3_sem4_0 : DmaSem sig := 36
abbrev cc3_sem5_0 : DmaSem sig := 37
abbrev cc3_sem5_1 : DmaSem sig := 38
abbrev cc3_sem6_0 : DmaSem sig := 39
abbrev cc4_sem0_0 : DmaSem sig := 40
abbrev cc4_sem0_1 : DmaSem sig := 41
abbrev cc4_sem1_0 : DmaSem sig := 42
abbrev cc4_sem2_0 : DmaSem sig := 43
abbrev cc4_sem3_0 : DmaSem sig := 44
abbrev cc4_sem4_0 : DmaSem sig := 45
abbrev cc4_sem5_0 : DmaSem sig := 46
abbrev cc4_sem5_1 : DmaSem sig := 47

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S5x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def k1_cond2 (i : grid1.Coords) : BitVec 1 :=
  let arg0 : BitVec 32 := BitVec.ofNat 32 (i 0).val
  let c19_i32 : BitVec 32 := 19#32
  let v29 : BitVec 1 := Scalar.cmpi .eq arg0 c19_i32
  let v30 : BitVec 32 := Scalar.extui v29
  let c0_i32_18 : BitVec 32 := 0#32
  let v31 : BitVec 1 := Scalar.cmpi .ne v30 c0_i32_18
  v31

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S2x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨1, ![20], ![false]⟩

def k2_cond2 (i : grid2.Coords) : BitVec 1 :=
  let arg0 : BitVec 32 := BitVec.ofNat 32 (i 0).val
  let c19_i32 : BitVec 32 := 19#32
  let v50 : BitVec 1 := Scalar.cmpi .eq arg0 c19_i32
  let v51 : BitVec 32 := Scalar.extui v50
  let c0_i32_28 : BitVec 32 := 0#32
  let v52 : BitVec 1 := Scalar.cmpi .ne v51 c0_i32_28
  v52

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x128 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 1 → Memref sig .tc .vmem S2x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev grid3 : Pipeline.Grid := ⟨1, ![20], ![false]⟩

def k3_cond2 (i : grid3.Coords) : BitVec 1 :=
  let arg0 : BitVec 32 := BitVec.ofNat 32 (i 0).val
  let c19_i32 : BitVec 32 := 19#32
  let v42 : BitVec 1 := Scalar.cmpi .eq arg0 c19_i32
  let v43 : BitVec 32 := Scalar.extui v42
  let c0_i32_23 : BitVec 32 := 0#32
  let v44 : BitVec 1 := Scalar.cmpi .ne v43 c0_i32_23
  v44

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 1 → Memref sig .tc .vmem S2x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x128 : S_.BroadcastsInDim S800000x128 (![] : Fin 0 → Fin S800000x128.rank)
  slices_S2x800000_S1x800000_1_0 : S2x800000.Slices ![1, 0] S1x800000
  bcast_S_S100000x128 : S_.BroadcastsInDim S100000x128 (![] : Fin 0 → Fin S100000x128.rank)
  inb_S5x128_S5x128_0_0 : ∀ a, (![0, 0] : Fin 2 → Nat) a + S5x128.size a ≤ S5x128.size a
  h_S5x128 : 0 < S5x128.numel
  slices_S5x128_o0_0_S1x128 : S5x128.Slices ![0, 0] S1x128
  inb_S5000x128_S5000x128_0_0 : ∀ a, (![0, 0] : Fin 2 → Nat) a + S5000x128.size a ≤ S5000x128.size a
  h_S5000x128 : 0 < S5000x128.numel
  broadcasts_S1x128_S5000x128 : S1x128.Broadcasts S5000x128
  slices_S5x128_o1_0_S1x128 : S5x128.Slices ![1, 0] S1x128
  shapeCasts_S5000x128_S5000x128 : S5000x128.ShapeCasts S5000x128
  slices_S5x128_o2_0_S1x128 : S5x128.Slices ![2, 0] S1x128
  slices_S5x128_o3_0_S1x128 : S5x128.Slices ![3, 0] S1x128
  slices_S5x128_o4_0_S1x128 : S5x128.Slices ![4, 0] S1x128
  bitsLt_bf16_f32 : FTy.bits .bf16 < FTy.bits .f32
  shapeCasts_S256_S1x256 : S256.ShapeCasts S1x256
  shapeCasts_S128_S1x128 : S128.ShapeCasts S1x128
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S128x256_S128x256_0_0 : ∀ a, (![0, 0] : Fin 2 → Nat) a + S128x256.size a ≤ S128x256.size a
  h_S128x256 : 0 < S128x256.numel
  shapeCasts_S128x256_S128x256 : S128x256.ShapeCasts S128x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  reduces_S5000x256_S256 : S5000x256.Reduces [0] S256
  inb_S2x256_S1x256_0_0 : ∀ a, (![0, 0] : Fin 2 → Nat) a + S1x256.size a ≤ S2x256.size a
  inb_S2x256_S1x256_1_0 : ∀ a, (![1, 0] : Fin 2 → Nat) a + S1x256.size a ≤ S2x256.size a
  slices_S2x256_S1x256_0_0 : S2x256.Slices ![0, 0] S1x256
  bcast_S_S1x256 : S_.BroadcastsInDim S1x256 (![] : Fin 0 → Fin S1x256.rank)
  slices_S2x256_S1x256_1_0 : S2x256.Slices ![1, 0] S1x256
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S5000x256_S5000x256 : S5000x256.ShapeCasts S5000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  reduces_S5000x128_S128 : S5000x128.Reduces [0] S128
  inb_S2x128_S1x128_0_0 : ∀ a, (![0, 0] : Fin 2 → Nat) a + S1x128.size a ≤ S2x128.size a
  inb_S2x128_S1x128_1_0 : ∀ a, (![1, 0] : Fin 2 → Nat) a + S1x128.size a ≤ S2x128.size a
  slices_S2x128_S1x128_0_0 : S2x128.Slices ![0, 0] S1x128
  bcast_S_S1x128 : S_.BroadcastsInDim S1x128 (![] : Fin 0 → Fin S1x128.rank)
  slices_S2x128_S1x128_1_0 : S2x128.Slices ![1, 0] S1x128
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S5000x128_S128x256_S5000x256_1_0_0_1_n_n_wf : DotDims.WF S5000x128 S128x256 S5000x256 [1] [0] [0] [1] [] []
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S5x128.size a ≤ S5x128.size a
  hwx0_5 : ∀ i : grid0.Coords, EltTy.bits .f32 = 32 ∨ (Rect.block (s := S5x128) S5x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x256.size a ≤ S128x256.size a
  hwx1_1 : ∀ i : grid1.Coords, EltTy.bits .bf16 = 32 ∨ (Rect.block (s := S128x256) S128x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x256.size a ≤ S100000x256.size a
  hwx1_3 : ∀ i : grid1.Coords, EltTy.bits .f32 = 32 ∨ (Rect.block (s := S100000x256) S5000x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S2x256.size a ≤ S2x256.size a
  hwx1_4 : ∀ i : grid1.Coords, EltTy.bits .f32 = 32 ∨ (Rect.block (s := S2x256) S2x256.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S100000x256.size a
  hwx2_0 : ∀ i : grid2.Coords, EltTy.bits .f32 = 32 ∨ (Rect.block (s := S100000x256) S5000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x256.size a ≤ S1x256.size a
  hwx2_1 : ∀ i : grid2.Coords, EltTy.bits .f32 = 32 ∨ (Rect.block (s := S1x256) S1x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x128.size a ≤ S256x128.size a
  hwx2_5 : ∀ i : grid2.Coords, EltTy.bits .bf16 = 32 ∨ (Rect.block (s := S256x128) S256x128.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x128.size a ≤ S100000x128.size a
  hwx2_7 : ∀ i : grid2.Coords, EltTy.bits .f32 = 32 ∨ (Rect.block (s := S100000x128) S5000x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S2x128.size a ≤ S2x128.size a
  hwx2_8 : ∀ i : grid2.Coords, EltTy.bits .f32 = 32 ∨ (Rect.block (s := S2x128) S2x128.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S100000x128.size a
  hwx3_5 : ∀ i : grid3.Coords, EltTy.bits .f32 = 32 ∨ (Rect.block (s := S100000x128) S5000x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S2x128.size a ≤ S2x128.size a
  hwx3_6 : ∀ i : grid3.Coords, EltTy.bits .f32 = 32 ∨ (Rect.block (s := S2x128) S2x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S100000x128.size a
  hwx4_5 : ∀ i : grid4.Coords, EltTy.bits .f32 = 32 ∨ (Rect.block (s := S100000x128) S5000x128.size (cc4_transform_5 i) (hinb4_5 i)).WholeWords (EltTy.packing .f32)

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v45) S5000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v60) S5000x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg19) S5x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v61) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v61) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v62) S128x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v64) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v72_0) S5000x256.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v72_1) S2x256.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

abbrev win2_0 : Pipeline.Window sig grid2 :=
  Pipeline.Window.ofSpec (Memref.whole main_v72_0) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v75) S1x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v80) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v66) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v67) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v63) S256x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v65) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v81_0) S5000x128.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v81_1) S2x128.size cc2_transform_8 reads2_8 true true 1 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev idle2 : Fin 9 → grid2.Coords → Bool := fun | 0 => fun _ => false | 1 => fun _ => false | 2 => fun _ => false | 3 => fun _ => false | 4 => fun _ => false | 5 => fun _ => false | 6 => fun _ => false | 7 => fun _ => false | 8 => fun i => !(k2_cond2 i == 1#1) | ⟨_ + 9, h⟩ => absurd h (Nat.not_lt.2 (Nat.le_add_left _ _))

abbrev win3_0 : Pipeline.Window sig grid3 :=
  Pipeline.Window.ofSpec (Memref.whole main_v81_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v84) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v89) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v68) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v69) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v90_0) S5000x128.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v90_1) S2x128.size cc3_transform_6 reads3_6 true true 1 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev idle3 : Fin 7 → grid3.Coords → Bool := fun | 0 => fun _ => false | 1 => fun _ => false | 2 => fun _ => false | 3 => fun _ => false | 4 => fun _ => false | 5 => fun _ => false | 6 => fun i => !(k3_cond2 i == 1#1) | ⟨_ + 7, h⟩ => absurd h (Nat.not_lt.2 (Nat.le_add_left _ _))

abbrev win4_0 : Pipeline.Window sig grid4 :=
  Pipeline.Window.ofSpec (Memref.whole main_v90_0) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v93) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v98) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v70) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v71) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v99) S5000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S100000x128 : Shape := ⟨2, ![100000, 128]⟩
abbrev S800000x128 : Shape := ⟨2, ![800000, 128]⟩
abbrev S2x800000 : Shape := ⟨2, ![2, 800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S5x128 : Shape := ⟨2, ![5, 128]⟩
abbrev S1x128 : Shape := ⟨2, ![1, 128]⟩
abbrev S_ : Shape := ⟨0, ![]⟩
abbrev S1x800000 : Shape := ⟨2, ![1, 800000]⟩
abbrev S800000 : Shape := ⟨1, ![800000]⟩
abbrev S800000x1 : Shape := ⟨2, ![800000, 1]⟩
abbrev S100000x256 : Shape := ⟨2, ![100000, 256]⟩
abbrev S1x256 : Shape := ⟨2, ![1, 256]⟩

abbrev nBuf : Space → Nat
  | .hbm => 294
  | .vmem => 0
  | .smem => 0
  | _ => 0

abbrev hbmTy0_0 (i : Nat) : BufTy := match i % 128 with
  | 0 => ⟨S100000x128, .f32⟩
  | 1 => ⟨S100000x128, .f32⟩
  | 2 => ⟨S100000x128, .f32⟩
  | 3 => ⟨S100000x128, .f32⟩
  | 4 => ⟨S800000x128, .f32⟩
  | 5 => ⟨S2x800000, .i32⟩
  | 6 => ⟨S2x800000, .i32⟩
  | 7 => ⟨S2x800000, .i32⟩
  | 8 => ⟨S2x800000, .i32⟩
  | 9 => ⟨S128x256, .f32⟩
  | 10 => ⟨S256, .f32⟩
  | 11 => ⟨S256, .f32⟩
  | 12 => ⟨S256, .f32⟩
  | 13 => ⟨S256x128, .f32⟩
  | 14 => ⟨S128, .f32⟩
  | 15 => ⟨S128, .f32⟩
  | 16 => ⟨S128, .f32⟩
  | 17 => ⟨S128, .f32⟩
  | 18 => ⟨S128, .f32⟩
  | 19 => ⟨S5x128, .f32⟩
  | 20 => ⟨S1x128, .f32⟩
  | 21 => ⟨S128, .f32⟩
  | 22 => ⟨S_, .f32⟩
  | 23 => ⟨S128, .f32⟩
  | 24 => ⟨S128, .f32⟩
  | 25 => ⟨S1x128, .f32⟩
  | 26 => ⟨S100000x128, .f32⟩
  | 27 => ⟨S100000x128, .f32⟩
  | 28 => ⟨S1x128, .f32⟩
  | 29 => ⟨S128, .f32⟩
  | 30 => ⟨S_, .f32⟩
  | 31 => ⟨S128, .f32⟩
  | 32 => ⟨S128, .f32⟩
  | 33 => ⟨S1x800000, .i32⟩
  | 34 => ⟨S800000, .i32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000x128, .f32⟩
  | 44 => ⟨S800000x128, .f32⟩
  | 45 => ⟨S_, .f32⟩
  | 46 => ⟨S800000x128, .f32⟩
  | 47 => ⟨S800000x128, .f32⟩
  | 48 => ⟨S1x800000, .i32⟩
  | 49 => ⟨S800000, .i32⟩
  | 50 => ⟨S_, .f32⟩
  | 51 => ⟨S100000x128, .f32⟩
  | 52 => ⟨S800000x1, .i32⟩
  | 53 => ⟨S100000x128, .f32⟩
  | 54 => ⟨S1x128, .f32⟩
  | 55 => ⟨S100000x128, .f32⟩
  | 56 => ⟨S100000x128, .f32⟩
  | 57 => ⟨S100000x128, .f32⟩
  | 58 => ⟨S1x128, .f32⟩
  | 59 => ⟨S128, .f32⟩
  | 60 => ⟨S_, .f32⟩
  | 61 => ⟨S128, .f32⟩
  | 62 => ⟨S128, .f32⟩
  | 63 => ⟨S1x800000, .i32⟩
  | 64 => ⟨S800000, .i32⟩
  | 65 => ⟨S_, .i32⟩
  | 66 => ⟨S800000, .i32⟩
  | 67 => ⟨S800000, .i1⟩
  | 68 => ⟨S_, .i32⟩
  | 69 => ⟨S800000, .i32⟩
  | 70 => ⟨S800000, .i32⟩
  | 71 => ⟨S800000, .i32⟩
  | 72 => ⟨S800000x1, .i32⟩
  | 73 => ⟨S800000x128, .f32⟩
  | 74 => ⟨S_, .f32⟩
  | 75 => ⟨S800000x128, .f32⟩
  | 76 => ⟨S800000x128, .f32⟩
  | 77 => ⟨S1x800000, .i32⟩
  | 78 => ⟨S800000, .i32⟩
  | 79 => ⟨S_, .f32⟩
  | 80 => ⟨S100000x128, .f32⟩
  | 81 => ⟨S800000x1, .i32⟩
  | 82 => ⟨S100000x128, .f32⟩
  | 83 => ⟨S1x128, .f32⟩
  | 84 => ⟨S100000x128, .f32⟩
  | 85 => ⟨S100000x128, .f32⟩
  | 86 => ⟨S100000x128, .f32⟩
  | 87 => ⟨S1x128, .f32⟩
  | 88 => ⟨S128, .f32⟩
  | 89 => ⟨S_, .f32⟩
  | 90 => ⟨S128, .f32⟩
  | 91 => ⟨S128, .f32⟩
  | 92 => ⟨S1x800000, .i32⟩
  | 93 => ⟨S800000, .i32⟩
  | 94 => ⟨S_, .i32⟩
  | 95 => ⟨S800000, .i32⟩
  | 96 => ⟨S800000, .i1⟩
  | 97 => ⟨S_, .i32⟩
  | 98 => ⟨S800000, .i32⟩
  | 99 => ⟨S800000, .i32⟩
  | 100 => ⟨S800000, .i32⟩
  | 101 => ⟨S800000x1, .i32⟩
  | 102 => ⟨S800000x128, .f32⟩
  | 103 => ⟨S_, .f32⟩
  | 104 => ⟨S800000x128, .f32⟩
  | 105 => ⟨S800000x128, .f32⟩
  | 106 => ⟨S1x800000, .i32⟩
  | 107 => ⟨S800000, .i32⟩
  | 108 => ⟨S_, .f32⟩
  | 109 => ⟨S100000x128, .f32⟩
  | 110 => ⟨S800000x1, .i32⟩
  | 111 => ⟨S100000x128, .f32⟩
  | 112 => ⟨S1x128, .f32⟩
  | 113 => ⟨S100000x128, .f32⟩
  | 114 => ⟨S100000x128, .f32⟩
  | 115 => ⟨S100000x128, .f32⟩
  | 116 => ⟨S1x128, .f32⟩
  | 117 => ⟨S128, .f32⟩
  | 118 => ⟨S_, .f32⟩
  | 119 => ⟨S128, .f32⟩
  | 120 => ⟨S128, .f32⟩
  | 121 => ⟨S1x800000, .i32⟩
  | 122 => ⟨S800000, .i32⟩
  | 123 => ⟨S_, .i32⟩
  | 124 => ⟨S800000, .i32⟩
  | 125 => ⟨S800000, .i1⟩
  | 126 => ⟨S_, .i32⟩
  | 127 => ⟨S800000, .i32⟩
  | _ => ⟨S100000x128, .f32⟩

abbrev hbmTy0_1 (i : Nat) : BufTy := match i % 128 with
  | 0 => ⟨S800000, .i32⟩
  | 1 => ⟨S800000, .i32⟩
  | 2 => ⟨S800000x1, .i32⟩
  | 3 => ⟨S800000x128, .f32⟩
  | 4 => ⟨S_, .f32⟩
  | 5 => ⟨S800000x128, .f32⟩
  | 6 => ⟨S800000x128, .f32⟩
  | 7 => ⟨S1x800000, .i32⟩
  | 8 => ⟨S800000, .i32⟩
  | 9 => ⟨S_, .f32⟩
  | 10 => ⟨S100000x128, .f32⟩
  | 11 => ⟨S800000x1, .i32⟩
  | 12 => ⟨S100000x128, .f32⟩
  | 13 => ⟨S1x128, .f32⟩
  | 14 => ⟨S100000x128, .f32⟩
  | 15 => ⟨S100000x128, .f32⟩
  | 16 => ⟨S100000x128, .f32⟩
  | 17 => ⟨S100000x256, .f32⟩
  | 18 => ⟨S1x256, .f32⟩
  | 19 => ⟨S100000x256, .f32⟩
  | 20 => ⟨S100000x256, .f32⟩
  | 21 => ⟨S_, .f32⟩
  | 22 => ⟨S256, .f32⟩
  | 23 => ⟨S_, .f32⟩
  | 24 => ⟨S256, .f32⟩
  | 25 => ⟨S256, .f32⟩
  | 26 => ⟨S_, .i32⟩
  | 27 => ⟨S_, .f32⟩
  | 28 => ⟨S256, .f32⟩
  | 29 => ⟨S1x256, .f32⟩
  | 30 => ⟨S_, .f32⟩
  | 31 => ⟨S1x256, .f32⟩
  | 32 => ⟨S1x256, .f32⟩
  | 33 => ⟨S100000x256, .f32⟩
  | 34 => ⟨S100000x256, .f32⟩
  | 35 => ⟨S100000x256, .f32⟩
  | 36 => ⟨S_, .f32⟩
  | 37 => ⟨S_, .f32⟩
  | 38 => ⟨S_, .f32⟩
  | 39 => ⟨S_, .f32⟩
  | 40 => ⟨S256, .f32⟩
  | 41 => ⟨S256, .f32⟩
  | 42 => ⟨S256, .f32⟩
  | 43 => ⟨S_, .f32⟩
  | 44 => ⟨S_, .i1⟩
  | 45 => ⟨S_, .f32⟩
  | 46 => ⟨S_, .f32⟩
  | 47 => ⟨S256, .f32⟩
  | 48 => ⟨S256, .f32⟩
  | 49 => ⟨S1x256, .f32⟩
  | 50 => ⟨S100000x256, .f32⟩
  | 51 => ⟨S100000x256, .f32⟩
  | 52 => ⟨S1x256, .f32⟩
  | 53 => ⟨S100000x256, .f32⟩
  | 54 => ⟨S100000x256, .f32⟩
  | 55 => ⟨S_, .f32⟩
  | 56 => ⟨S256, .f32⟩
  | 57 => ⟨S256, .f32⟩
  | 58 => ⟨S256, .f32⟩
  | 59 => ⟨S1x256, .f32⟩
  | 60 => ⟨S100000x256, .f32⟩
  | 61 => ⟨S100000x256, .f32⟩
  | 62 => ⟨S1x256, .f32⟩
  | 63 => ⟨S100000x256, .f32⟩
  | 64 => ⟨S100000x256, .f32⟩
  | 65 => ⟨S_, .f32⟩
  | 66 => ⟨S100000x256, .f32⟩
  | 67 => ⟨S100000x256, .f32⟩
  | 68 => ⟨S100000x128, .f32⟩
  | 69 => ⟨S1x128, .f32⟩
  | 70 => ⟨S100000x128, .f32⟩
  | 71 => ⟨S100000x128, .f32⟩
  | 72 => ⟨S_, .f32⟩
  | 73 => ⟨S128, .f32⟩
  | 74 => ⟨S_, .f32⟩
  | 75 => ⟨S128, .f32⟩
  | 76 => ⟨S128, .f32⟩
  | 77 => ⟨S_, .i32⟩
  | 78 => ⟨S_, .f32⟩
  | 79 => ⟨S128, .f32⟩
  | 80 => ⟨S1x128, .f32⟩
  | 81 => ⟨S_, .f32⟩
  | 82 => ⟨S1x128, .f32⟩
  | 83 => ⟨S1x128, .f32⟩
  | 84 => ⟨S100000x128, .f32⟩
  | 85 => ⟨S100000x128, .f32⟩
  | 86 => ⟨S100000x128, .f32⟩
  | 87 => ⟨S_, .f32⟩
  | 88 => ⟨S_, .f32⟩
  | 89 => ⟨S_, .f32⟩
  | 90 => ⟨S_, .f32⟩
  | 91 => ⟨S128, .f32⟩
  | 92 => ⟨S128, .f32⟩
  | 93 => ⟨S128, .f32⟩
  | 94 => ⟨S_, .f32⟩
  | 95 => ⟨S_, .i1⟩
  | 96 => ⟨S_, .f32⟩
  | 97 => ⟨S_, .f32⟩
  | 98 => ⟨S128, .f32⟩
  | 99 => ⟨S128, .f32⟩
  | 100 => ⟨S1x128, .f32⟩
  | 101 => ⟨S100000x128, .f32⟩
  | 102 => ⟨S100000x128, .f32⟩
  | 103 => ⟨S1x128, .f32⟩
  | 104 => ⟨S100000x128, .f32⟩
  | 105 => ⟨S100000x128, .f32⟩
  | 106 => ⟨S_, .f32⟩
  | 107 => ⟨S128, .f32⟩
  | 108 => ⟨S128, .f32⟩
  | 109 => ⟨S128, .f32⟩
  | 110 => ⟨S1x128, .f32⟩
  | 111 => ⟨S100000x128, .f32⟩
  | 112 => ⟨S100000x128, .f32⟩
  | 113 => ⟨S1x128, .f32⟩
  | 114 => ⟨S100000x128, .f32⟩
  | 115 => ⟨S100000x128, .f32⟩
  | 116 => ⟨S_, .f32⟩
  | 117 => ⟨S100000x128, .f32⟩
  | 118 => ⟨S100000x128, .f32⟩
  | 119 => ⟨S_, .f32⟩
  | 120 => ⟨S128, .f32⟩
  | 121 => ⟨S_, .f32⟩
  | 122 => ⟨S128, .f32⟩
  | 123 => ⟨S128, .f32⟩
  | 124 => ⟨S_, .i32⟩
  | 125 => ⟨S_, .f32⟩
  | 126 => ⟨S128, .f32⟩
  | 127 => ⟨S1x128, .f32⟩
  | _ => ⟨S100000x128, .f32⟩

abbrev hbmTy0_2 (i : Nat) : BufTy := match i % 128 with
  | 0 => ⟨S_, .f32⟩
  | 1 => ⟨S1x128, .f32⟩
  | 2 => ⟨S1x128, .f32⟩
  | 3 => ⟨S100000x128, .f32⟩
  | 4 => ⟨S100000x128, .f32⟩
  | 5 => ⟨S100000x128, .f32⟩
  | 6 => ⟨S_, .f32⟩
  | 7 => ⟨S_, .f32⟩
  | 8 => ⟨S_, .f32⟩
  | 9 => ⟨S_, .f32⟩
  | 10 => ⟨S128, .f32⟩
  | 11 => ⟨S128, .f32⟩
  | 12 => ⟨S128, .f32⟩
  | 13 => ⟨S_, .f32⟩
  | 14 => ⟨S_, .i1⟩
  | 15 => ⟨S_, .f32⟩
  | 16 => ⟨S_, .f32⟩
  | 17 => ⟨S128, .f32⟩
  | 18 => ⟨S128, .f32⟩
  | 19 => ⟨S1x128, .f32⟩
  | 20 => ⟨S100000x128, .f32⟩
  | 21 => ⟨S100000x128, .f32⟩
  | 22 => ⟨S1x128, .f32⟩
  | 23 => ⟨S100000x128, .f32⟩
  | 24 => ⟨S100000x128, .f32⟩
  | 25 => ⟨S_, .f32⟩
  | 26 => ⟨S128, .f32⟩
  | 27 => ⟨S128, .f32⟩
  | 28 => ⟨S128, .f32⟩
  | 29 => ⟨S1x128, .f32⟩
  | 30 => ⟨S100000x128, .f32⟩
  | 31 => ⟨S100000x128, .f32⟩
  | 32 => ⟨S1x128, .f32⟩
  | 33 => ⟨S100000x128, .f32⟩
  | 34 => ⟨S100000x128, .f32⟩
  | 35 => ⟨S_, .f32⟩
  | 36 => ⟨S100000x128, .f32⟩
  | 37 => ⟨S100000x128, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_cst : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_cst_0 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_c : Ref sig .tc := ⟨.hbm, 35, rfl⟩
abbrev main_v13 : Ref sig .tc := ⟨.hbm, 36, rfl⟩
abbrev main_v14 : Ref sig .tc := ⟨.hbm, 37, rfl⟩
abbrev main_c_1 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_call0_cst : Ref sig .tc := ⟨.hbm, 45, rfl⟩
abbrev main_call0_v0 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_cst_2 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_cst_3 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_c_4 : Ref sig .tc := ⟨.hbm, 65, rfl⟩
abbrev main_v37 : Ref sig .tc := ⟨.hbm, 66, rfl⟩
abbrev main_v38 : Ref sig .tc := ⟨.hbm, 67, rfl⟩
abbrev main_c_5 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_call1_cst : Ref sig .tc := ⟨.hbm, 74, rfl⟩
abbrev main_call1_v0 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_cst_6 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_7 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_c_8 : Ref sig .tc := ⟨.hbm, 94, rfl⟩
abbrev main_v60 : Ref sig .tc := ⟨.hbm, 95, rfl⟩
abbrev main_v61 : Ref sig .tc := ⟨.hbm, 96, rfl⟩
abbrev main_c_9 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_call2_cst : Ref sig .tc := ⟨.hbm, 103, rfl⟩
abbrev main_call2_v0 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_10 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_cst_11 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_c_12 : Ref sig .tc := ⟨.hbm, 123, rfl⟩
abbrev main_v83 : Ref sig .tc := ⟨.hbm, 124, rfl⟩
abbrev main_v84 : Ref sig .tc := ⟨.hbm, 125, rfl⟩
abbrev main_c_13 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_call3_cst : Ref sig .tc := ⟨.hbm, 132, rfl⟩
abbrev main_call3_v0 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_cst_14 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_cst_15 : Ref sig .tc := ⟨.hbm, 149, rfl⟩
abbrev main_v104 : Ref sig .tc := ⟨.hbm, 150, rfl⟩
abbrev main_cst_16 : Ref sig .tc := ⟨.hbm, 151, rfl⟩
abbrev main_v105 : Ref sig .tc := ⟨.hbm, 152, rfl⟩
abbrev main_v106 : Ref sig .tc := ⟨.hbm, 153, rfl⟩
abbrev main_c_17 : Ref sig .tc := ⟨.hbm, 154, rfl⟩
abbrev main_call4_cst : Ref sig .tc := ⟨.hbm, 155, rfl⟩
abbrev main_call4_v0 : Ref sig .tc := ⟨.hbm, 156, rfl⟩
abbrev main_call4_v1 : Ref sig .tc := ⟨.hbm, 157, rfl⟩
abbrev main_call4_cst_0 : Ref sig .tc := ⟨.hbm, 158, rfl⟩
abbrev main_call4_v2 : Ref sig .tc := ⟨.hbm, 159, rfl⟩
abbrev main_call4_v3 : Ref sig .tc := ⟨.hbm, 160, rfl⟩
abbrev main_call4_v4 : Ref sig .tc := ⟨.hbm, 161, rfl⟩
abbrev main_call4_v5 : Ref sig .tc := ⟨.hbm, 162, rfl⟩
abbrev main_call4_v6 : Ref sig .tc := ⟨.hbm, 163, rfl⟩
abbrev main_call4_v7 : Ref sig .tc := ⟨.hbm, 164, rfl⟩
abbrev main_call4_cst_1 : Ref sig .tc := ⟨.hbm, 165, rfl⟩
abbrev main_call4_v8 : Ref sig .tc := ⟨.hbm, 166, rfl⟩
abbrev main_call4_cst_2 : Ref sig .tc := ⟨.hbm, 167, rfl⟩
abbrev main_call4_v9 : Ref sig .tc := ⟨.hbm, 168, rfl⟩
abbrev main_call4_v10 : Ref sig .tc := ⟨.hbm, 169, rfl⟩
abbrev main_call4_v11 : Ref sig .tc := ⟨.hbm, 170, rfl⟩
abbrev main_call4_cst_3 : Ref sig .tc := ⟨.hbm, 171, rfl⟩
abbrev main_call4_v12 : Ref sig .tc := ⟨.hbm, 172, rfl⟩
abbrev main_call4_cst_4 : Ref sig .tc := ⟨.hbm, 173, rfl⟩
abbrev main_call4_call0_v0 : Ref sig .tc := ⟨.hbm, 174, rfl⟩
abbrev main_call4_call0_v1 : Ref sig .tc := ⟨.hbm, 175, rfl⟩
abbrev main_v107 : Ref sig .tc := ⟨.hbm, 176, rfl⟩
abbrev main_v108 : Ref sig .tc := ⟨.hbm, 177, rfl⟩
abbrev main_v109 : Ref sig .tc := ⟨.hbm, 178, rfl⟩
abbrev main_v110 : Ref sig .tc := ⟨.hbm, 179, rfl⟩
abbrev main_v111 : Ref sig .tc := ⟨.hbm, 180, rfl⟩
abbrev main_v112 : Ref sig .tc := ⟨.hbm, 181, rfl⟩
abbrev main_v113 : Ref sig .tc := ⟨.hbm, 182, rfl⟩
abbrev main_cst_18 : Ref sig .tc := ⟨.hbm, 183, rfl⟩
abbrev main_v114 : Ref sig .tc := ⟨.hbm, 184, rfl⟩
abbrev main_v115 : Ref sig .tc := ⟨.hbm, 185, rfl⟩
abbrev main_v116 : Ref sig .tc := ⟨.hbm, 186, rfl⟩
abbrev main_v117 : Ref sig .tc := ⟨.hbm, 187, rfl⟩
abbrev main_v118 : Ref sig .tc := ⟨.hbm, 188, rfl⟩
abbrev main_v119 : Ref sig .tc := ⟨.hbm, 189, rfl⟩
abbrev main_v120 : Ref sig .tc := ⟨.hbm, 190, rfl⟩
abbrev main_v121 : Ref sig .tc := ⟨.hbm, 191, rfl⟩
abbrev main_v122 : Ref sig .tc := ⟨.hbm, 192, rfl⟩
abbrev main_call5_cst : Ref sig .tc := ⟨.hbm, 193, rfl⟩
abbrev main_call5_v0 : Ref sig .tc := ⟨.hbm, 194, rfl⟩
abbrev main_v123 : Ref sig .tc := ⟨.hbm, 195, rfl⟩
abbrev main_v124 : Ref sig .tc := ⟨.hbm, 196, rfl⟩
abbrev main_v125 : Ref sig .tc := ⟨.hbm, 197, rfl⟩
abbrev main_v126 : Ref sig .tc := ⟨.hbm, 198, rfl⟩
abbrev main_v127 : Ref sig .tc := ⟨.hbm, 199, rfl⟩
abbrev main_cst_19 : Ref sig .tc := ⟨.hbm, 200, rfl⟩
abbrev main_v128 : Ref sig .tc := ⟨.hbm, 201, rfl⟩
abbrev main_cst_20 : Ref sig .tc := ⟨.hbm, 202, rfl⟩
abbrev main_v129 : Ref sig .tc := ⟨.hbm, 203, rfl⟩
abbrev main_v130 : Ref sig .tc := ⟨.hbm, 204, rfl⟩
abbrev main_c_21 : Ref sig .tc := ⟨.hbm, 205, rfl⟩
abbrev main_call6_cst : Ref sig .tc := ⟨.hbm, 206, rfl⟩
abbrev main_call6_v0 : Ref sig .tc := ⟨.hbm, 207, rfl⟩
abbrev main_call6_v1 : Ref sig .tc := ⟨.hbm, 208, rfl⟩
abbrev main_call6_cst_0 : Ref sig .tc := ⟨.hbm, 209, rfl⟩
abbrev main_call6_v2 : Ref sig .tc := ⟨.hbm, 210, rfl⟩
abbrev main_call6_v3 : Ref sig .tc := ⟨.hbm, 211, rfl⟩
abbrev main_call6_v4 : Ref sig .tc := ⟨.hbm, 212, rfl⟩
abbrev main_call6_v5 : Ref sig .tc := ⟨.hbm, 213, rfl⟩
abbrev main_call6_v6 : Ref sig .tc := ⟨.hbm, 214, rfl⟩
abbrev main_call6_v7 : Ref sig .tc := ⟨.hbm, 215, rfl⟩
abbrev main_call6_cst_1 : Ref sig .tc := ⟨.hbm, 216, rfl⟩
abbrev main_call6_v8 : Ref sig .tc := ⟨.hbm, 217, rfl⟩
abbrev main_call6_cst_2 : Ref sig .tc := ⟨.hbm, 218, rfl⟩
abbrev main_call6_v9 : Ref sig .tc := ⟨.hbm, 219, rfl⟩
abbrev main_call6_v10 : Ref sig .tc := ⟨.hbm, 220, rfl⟩
abbrev main_call6_v11 : Ref sig .tc := ⟨.hbm, 221, rfl⟩
abbrev main_call6_cst_3 : Ref sig .tc := ⟨.hbm, 222, rfl⟩
abbrev main_call6_v12 : Ref sig .tc := ⟨.hbm, 223, rfl⟩
abbrev main_call6_cst_4 : Ref sig .tc := ⟨.hbm, 224, rfl⟩
abbrev main_call6_call0_v0 : Ref sig .tc := ⟨.hbm, 225, rfl⟩
abbrev main_call6_call0_v1 : Ref sig .tc := ⟨.hbm, 226, rfl⟩
abbrev main_v131 : Ref sig .tc := ⟨.hbm, 227, rfl⟩
abbrev main_v132 : Ref sig .tc := ⟨.hbm, 228, rfl⟩
abbrev main_v133 : Ref sig .tc := ⟨.hbm, 229, rfl⟩
abbrev main_v134 : Ref sig .tc := ⟨.hbm, 230, rfl⟩
abbrev main_v135 : Ref sig .tc := ⟨.hbm, 231, rfl⟩
abbrev main_v136 : Ref sig .tc := ⟨.hbm, 232, rfl⟩
abbrev main_v137 : Ref sig .tc := ⟨.hbm, 233, rfl⟩
abbrev main_cst_22 : Ref sig .tc := ⟨.hbm, 234, rfl⟩
abbrev main_v138 : Ref sig .tc := ⟨.hbm, 235, rfl⟩
abbrev main_v139 : Ref sig .tc := ⟨.hbm, 236, rfl⟩
abbrev main_v140 : Ref sig .tc := ⟨.hbm, 237, rfl⟩
abbrev main_v141 : Ref sig .tc := ⟨.hbm, 238, rfl⟩
abbrev main_v142 : Ref sig .tc := ⟨.hbm, 239, rfl⟩
abbrev main_v143 : Ref sig .tc := ⟨.hbm, 240, rfl⟩
abbrev main_v144 : Ref sig .tc := ⟨.hbm, 241, rfl⟩
abbrev main_v145 : Ref sig .tc := ⟨.hbm, 242, rfl⟩
abbrev main_v146 : Ref sig .tc := ⟨.hbm, 243, rfl⟩
abbrev main_call7_cst : Ref sig .tc := ⟨.hbm, 244, rfl⟩
abbrev main_call7_v0 : Ref sig .tc := ⟨.hbm, 245, rfl⟩
abbrev main_v147 : Ref sig .tc := ⟨.hbm, 246, rfl⟩
abbrev main_cst_23 : Ref sig .tc := ⟨.hbm, 247, rfl⟩
abbrev main_v148 : Ref sig .tc := ⟨.hbm, 248, rfl⟩
abbrev main_cst_24 : Ref sig .tc := ⟨.hbm, 249, rfl⟩
abbrev main_v149 : Ref sig .tc := ⟨.hbm, 250, rfl⟩
abbrev main_v150 : Ref sig .tc := ⟨.hbm, 251, rfl⟩
abbrev main_c_25 : Ref sig .tc := ⟨.hbm, 252, rfl⟩
abbrev main_call8_cst : Ref sig .tc := ⟨.hbm, 253, rfl⟩
abbrev main_call8_v0 : Ref sig .tc := ⟨.hbm, 254, rfl⟩
abbrev main_call8_v1 : Ref sig .tc := ⟨.hbm, 255, rfl⟩
abbrev main_call8_cst_0 : Ref sig .tc := ⟨.hbm, 256, rfl⟩
abbrev main_call8_v2 : Ref sig .tc := ⟨.hbm, 257, rfl⟩
abbrev main_call8_v3 : Ref sig .tc := ⟨.hbm, 258, rfl⟩
abbrev main_call8_v4 : Ref sig .tc := ⟨.hbm, 259, rfl⟩
abbrev main_call8_v5 : Ref sig .tc := ⟨.hbm, 260, rfl⟩
abbrev main_call8_v6 : Ref sig .tc := ⟨.hbm, 261, rfl⟩
abbrev main_call8_v7 : Ref sig .tc := ⟨.hbm, 262, rfl⟩
abbrev main_call8_cst_1 : Ref sig .tc := ⟨.hbm, 263, rfl⟩
abbrev main_call8_v8 : Ref sig .tc := ⟨.hbm, 264, rfl⟩
abbrev main_call8_cst_2 : Ref sig .tc := ⟨.hbm, 265, rfl⟩
abbrev main_call8_v9 : Ref sig .tc := ⟨.hbm, 266, rfl⟩
abbrev main_call8_v10 : Ref sig .tc := ⟨.hbm, 267, rfl⟩
abbrev main_call8_v11 : Ref sig .tc := ⟨.hbm, 268, rfl⟩
abbrev main_call8_cst_3 : Ref sig .tc := ⟨.hbm, 269, rfl⟩
abbrev main_call8_v12 : Ref sig .tc := ⟨.hbm, 270, rfl⟩
abbrev main_call8_cst_4 : Ref sig .tc := ⟨.hbm, 271, rfl⟩
abbrev main_call8_call0_v0 : Ref sig .tc := ⟨.hbm, 272, rfl⟩
abbrev main_call8_call0_v1 : Ref sig .tc := ⟨.hbm, 273, rfl⟩
abbrev main_v151 : Ref sig .tc := ⟨.hbm, 274, rfl⟩
abbrev main_v152 : Ref sig .tc := ⟨.hbm, 275, rfl⟩
abbrev main_v153 : Ref sig .tc := ⟨.hbm, 276, rfl⟩
abbrev main_v154 : Ref sig .tc := ⟨.hbm, 277, rfl⟩
abbrev main_v155 : Ref sig .tc := ⟨.hbm, 278, rfl⟩
abbrev main_v156 : Ref sig .tc := ⟨.hbm, 279, rfl⟩
abbrev main_v157 : Ref sig .tc := ⟨.hbm, 280, rfl⟩
abbrev main_cst_26 : Ref sig .tc := ⟨.hbm, 281, rfl⟩
abbrev main_v158 : Ref sig .tc := ⟨.hbm, 282, rfl⟩
abbrev main_v159 : Ref sig .tc := ⟨.hbm, 283, rfl⟩
abbrev main_v160 : Ref sig .tc := ⟨.hbm, 284, rfl⟩
abbrev main_v161 : Ref sig .tc := ⟨.hbm, 285, rfl⟩
abbrev main_v162 : Ref sig .tc := ⟨.hbm, 286, rfl⟩
abbrev main_v163 : Ref sig .tc := ⟨.hbm, 287, rfl⟩
abbrev main_v164 : Ref sig .tc := ⟨.hbm, 288, rfl⟩
abbrev main_v165 : Ref sig .tc := ⟨.hbm, 289, rfl⟩
abbrev main_v166 : Ref sig .tc := ⟨.hbm, 290, rfl⟩
abbrev main_call9_cst : Ref sig .tc := ⟨.hbm, 291, rfl⟩
abbrev main_call9_v0 : Ref sig .tc := ⟨.hbm, 292, rfl⟩
abbrev main_v167 : Ref sig .tc := ⟨.hbm, 293, rfl⟩

abbrev nD : Nat := 1
abbrev τ : Topo := Topo.v7x

variable {F : FTy → Type} [FloatOps F]

class Facts₀ : Prop where
  slices_S5x128_S1x128_0_0 : S5x128.Slices ![0, 0] S1x128
  shapeCasts_S1x128_S128 : S1x128.ShapeCasts S128
  bcast_S_S128 : S_.BroadcastsInDim S128 (![] : Fin 0 → Fin S128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S5x128_S1x128_1_0 : S5x128.Slices ![1, 0] S1x128
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x128 : S_.BroadcastsInDim S800000x128 (![] : Fin 0 → Fin S800000x128.rank)
  slices_S2x800000_S1x800000_1_0 : S2x800000.Slices ![1, 0] S1x800000
  bcast_S_S100000x128 : S_.BroadcastsInDim S100000x128 (![] : Fin 0 → Fin S100000x128.rank)
  slices_S5x128_S1x128_2_0 : S5x128.Slices ![2, 0] S1x128
  slices_S5x128_S1x128_3_0 : S5x128.Slices ![3, 0] S1x128
  slices_S5x128_S1x128_4_0 : S5x128.Slices ![4, 0] S1x128
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  reducesTo_S100000x256_S256_d0 : S100000x256.ReducesTo [0] S256
  h_S_ : 0 < S_.numel
  bcast_S_S256 : S_.BroadcastsInDim S256 (![] : Fin 0 → Fin S256.rank)
  bcast_S_S1x256 : S_.BroadcastsInDim S1x256 (![] : Fin 0 → Fin S1x256.rank)
  bcast_S_S100000x256 : S_.BroadcastsInDim S100000x256 (![] : Fin 0 → Fin S100000x256.rank)
  reducesTo_S100000x128_S128_d0 : S100000x128.ReducesTo [0] S128
  bcast_S_S1x128 : S_.BroadcastsInDim S1x128 (![] : Fin 0 → Fin S1x128.rank)
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S100000x128_S128x256_S100000x256_1_0_0_1_n_n_wf : DotDims.WF S100000x128 S128x256 S100000x256 [1] [0] [0] [1] [] []
  dot_S100000x256_S256x128_S100000x128_1_0_0_1_n_n_wf : DotDims.WF S100000x256 S256x128 S100000x128 [1] [0] [0] [1] [] []

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf

class Facts : Prop extends Facts₀ where

variable [Facts]
-- ==== Proof.KB.Reg0.lean ====
import proofs.«164503_j82721070121701_1_alg».proof.Proof.Gen.Kernel.Launch
import proofs.«164503_j82721070121701_1_alg».proof.Proof.Gen.Kernel.Skeleton
import proofs.«164503_j82721070121701_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the structural look recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # Region 0: the pointwise combine over row blocks, at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): where the window is
    not fetched its block index has not moved, and the buffer still holds the previous point's block, which is
    this point's; the window is uncut and never idle. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s (`hA`) and whose body leaves the block in place (`hafter`): where the window is
    not fetched its block index has not moved, and the buffer still holds the previous point's block, which is
    this point's; the window is uncut and never idle. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s (`hA`) and whose body leaves the block in place (`hafter`): where the window is
    not fetched its block index has not moved, and the buffer still holds the previous point's block, which is
    this point's; the window is uncut and never idle. -/
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s (`hA`) and whose body leaves the block in place (`hafter`): where the window is
    not fetched its block index has not moved, and the buffer still holds the previous point's block, which is
    this point's; the window is uncut and never idle. -/
theorem before0_3_of {c : Dev nD} (dat : Dat τ (Elt F) Unit ℕ (Pipeline.UD sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof
    data whose array is `V`'s (`hA`) and whose body leaves the block in place (`hafter`): where the window is
    not fetched its block index has not moved, and the buffer still holds the previous point's block, which is
    this point's; the window is uncut and never idle. -/
theorem before0_4_of {c : Dev nD} (dat : Dat τ (Elt F) Unit ℕ (Pipeline.UD sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not, for any proof
    data whose array is `V`'s (`hA`) and whose body leaves the block in place (`hafter`): where the window is
    not fetched its block index has not moved, and the buffer still holds the previous point's block, which is
    this point's; the window is uncut and never idle. -/
theorem before0_5_of {c : Dev nD} (dat : Dat τ (Elt F) Unit ℕ (Pipeline.UD sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole row block, and the whole coefficient table. -/
abbrev r0_0 : Rect S5000x128 := Rect.unit (s := S5000x128) ![0, 0] S5000x128.size inb_S5000x128_S5000x128_0_0
abbrev r0_1 : Rect S5x128 := Rect.unit (s := S5x128) ![0, 0] S5x128.size inb_S5x128_S5x128_0_0

/-! ## What the body leaves in the output window's buffer -/

/-- Window 6's staging buffer after the body, from the input windows' blocks: its one store, of the whole block. -/
def out0_6 (x0 x1 x2 x3 x4 : Vec F S5000x128 .f32) (x5 : Vec F S5x128 .f32) : Vec F S5000x128 .f32 :=
  View.canon [⟨r0_0, k0_pay1 (View.ld x5 r0_1) (View.ld x0 r0_0) (View.ld x1 r0_0) (View.ld x2 r0_0) (View.ld x3 r0_0) (View.ld x4 r0_0)⟩]

/-- The one store is of the whole buffer, so it covers it. -/
theorem cover0_6 (p0 : Vec F S5000x128 .f32) (y : S5000x128.Idx) :
    ∃ pc ∈ ([⟨r0_0, p0⟩] : List (View.Piece (Elt F) S5000x128 .f32)), y ∈ pc.1.set :=
  View.cover_of_tiled [⟨r0_0, p0⟩] S5000x128.size (by rfl) y

/-! ## The body's triple -/

set_option maxHeartbeats 1000000 in
/-- The kernel body on whole staging memrefs, the inputs' at read contents `xW` and the output's at anything, runs to
    the continuation holding the inputs' as they were and the output's at `out0_6` of the inputs'. -/
theorem sound_kernel0 (c : Dev nD) (E : Set ℕ) (i : grid0.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S5000x128 .f32) (harg4 : arg4.IsWhole) (arg5 : Memref sig .tc .vmem S5000x128 .f32) (harg5 : arg5.IsWhole) (arg6 : Memref sig .tc .vmem S5x128 .f32) (harg6 : arg6.IsWhole) (arg7 : Memref sig .tc .vmem S5000x128 .f32) (harg7 : arg7.IsWhole)
    (x0 x1 x2 x3 x4 : Vec F S5000x128 .f32) (x5 : Vec F S5x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5)) -∗ K ⟨⟩))
      ⊢ wp frame (wpE (defs₀ (F := F)) Variants.none c none) E (cc0__combine_kernel i arg1 harg1 arg2 harg2 arg3 harg3 arg4 harg4 arg5 harg5 arg6 harg6 arg7 harg7) K := by
  simp only [cc0__combine_kernel_eq_skeleton]; unfold cc0__combine_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The pipeline's proof data -/

/-- The proof data of region 0 on core `c`: the arrays as the region finds them (`V`); after the body at point `t`
    each input's buffer at its block and the output's at `out0_6` of the input blocks; the invariant is the scoped
    rest and the generator register, untouched; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so `sound_kernel0` applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.Reg1.lean ====
import proofs.«164503_j82721070121701_1_alg».proof.Proof.Gen.Kernel.Launch
import proofs.«164503_j82721070121701_1_alg».proof.Proof.Gen.Kernel.Skeleton
import proofs.«164503_j82721070121701_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # Region 1: the stage-A kernel (matrix product plus bias; two carried rows of column sums) -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (an unfetched
    window's index has not moved), for any proof data whose array is `V`'s and whose body leaves the block in place. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's first conditional (the reset of the two carried rows), from the grid coordinates. -/
abbrev cond1_0 (i : grid1.Coords) : Prop := (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val % 20 = 0 :=
  (by decide +kernel : ∀ t : Fin grid1.N, cond1_0 (grid1.coords t) ↔ t.val % 20 = 0)

/-- The condition of the body's second conditional (the store of the two rows into the statistics block). -/
abbrev cond1_1 (i : grid1.Coords) : Prop := k1_cond2 i = 1#1
/-- It holds at the last point only. -/
theorem hcond1_1 : ∀ t : Fin cfg1.N, cond1_1 (grid1.coords t) ↔ t.val % 20 = 19 :=
  (by decide +kernel : ∀ t : Fin grid1.N, cond1_1 (grid1.coords t) ↔ t.val % 20 = 19)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- The statistics block is idle at every point but the last: nothing is stored into it there, -/
theorem idleAt1_4 : ∀ t : Fin cfg1.N, ¬ t.val % 20 = 19 → cfg1.idle 4 (grid1.coords t) = true := by decide +kernel
/-- and it is not written back there; -/
theorem noFlush1_4 : ∀ t : Fin cfg1.N, ¬ t.val % 20 = 19 → (cfg1.win 4).flush t = false := by decide +kernel
/-- at the last point it is live. -/
theorem liveAt1_4 : ∀ t : Fin cfg1.N, t.val % 20 = 19 → cfg1.idle 4 (grid1.coords t) = false := by decide +kernel

/-! ## The memrefs the body is called with -/

abbrev ms1_0 (t : Fin cfg1.N) : Memref sig .tc .vmem S5000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S5000x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2x256 .f32 := win1_4.stage (cfg1.slots t 4)
abbrev hs1_4 (t : Fin cfg1.N) : (ms1_4 t).IsWhole := hstage1_4 ((cfg1.slots t 4).cast nbuf1_4)
/-- The two carried rows: whole scoped buffers of the kernel's own, passed beside the windows. -/
abbrev scM1_0 : Memref sig .tc .vmem S1x256 .f32 := Memref.whole cc1_scratch0
abbrev scM1_1 : Memref sig .tc .vmem S1x256 .f32 := Memref.whole cc1_scratch1

/-- The region's invariant with the two carried rows as memrefs owned at some contents, the other scoped buffers
    unopened, and the generator register at some state. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d))
          ∗ Pipeline.scopedRestBut (Ix := Unit) (Name := ℕ) (U := Pipeline.UD sig nD τ) (Lvl := ℕ) (Val := Elt F) spec1 c [cc1_scratch0, cc1_scratch1]) ∗ (∃ r, prngReg c r)) := by
  unfold Pipeline.ΦA; rw [scopedRest1_split]; simp only [scM1_0, scM1_1, owns_whole]; try rfl

/-! ## The body's accesses -/

abbrev r1_x : Rect S5000x128 := Rect.unit (s := S5000x128) ![0, 0] S5000x128.size inb_S5000x128_S5000x128_0_0
abbrev r1_w : Rect S128x256 := Rect.unit (s := S128x256) ![0, 0] S128x256.size inb_S128x256_S128x256_0_0
abbrev r1_b : Rect S1x256 := Rect.unit (s := S1x256) ![0, 0] S1x256.size inb_S1x256_S1x256_0_0
abbrev r1_h : Rect S5000x256 := Rect.unit (s := S5000x256) ![0, 0] S5000x256.size inb_S5000x256_S5000x256_0_0
abbrev r1_s0 : Rect S2x256 := Rect.unit (s := S2x256) ![0, 0] S1x256.size inb_S2x256_S1x256_0_0
abbrev r1_s1 : Rect S2x256 := Rect.unit (s := S2x256) ![1, 0] S1x256.size inb_S2x256_S1x256_1_0

/-! ## What the body leaves in each buffer it stores into -/

/-- The row-block output after the body: the product-plus-bias payload of the three input blocks, stored whole. -/
def hOut1 (x0 : Vec F S5000x128 .f32) (x1 : Vec F S128x256 .bf16) (x2 : Vec F S1x256 .f32) : Vec F S5000x256 .f32 :=
  View.canon [⟨r1_h, k1_pay3 (View.ld x0 r1_x) (View.ld x1 r1_w) (View.ld x2 r1_b)⟩]
/-- The first carried row (column sums) after the body, from what it held before. -/
def acc1_0 (x0 : Vec F S5000x128 .f32) (x1 : Vec F S128x256 .bf16) (x2 : Vec F S1x256 .f32) (s : Vec F S1x256 .f32) : Vec F S1x256 .f32 :=
  View.canon [⟨r1_b, k1_pay4 (View.ld x0 r1_x) (View.ld x1 r1_w) (View.ld x2 r1_b) (View.ld s r1_b)⟩]
/-- The second carried row (column sums of squares) after the body, from what it held before. -/
def acc1_1 (x0 : Vec F S5000x128 .f32) (x1 : Vec F S128x256 .bf16) (x2 : Vec F S1x256 .f32) (s : Vec F S1x256 .f32) : Vec F S1x256 .f32 :=
  View.canon [⟨r1_b, k1_pay5 (View.ld x0 r1_x) (View.ld x1 r1_w) (View.ld x2 r1_b) (View.ld s r1_b)⟩]
/-- The two carried rows as the first point's reset leaves them. -/
def reset1_0 : Vec F S1x256 .f32 := View.canon [⟨r1_b, k1_pay1 (F := F)⟩]
def reset1_1 : Vec F S1x256 .f32 := View.canon [⟨r1_b, k1_pay2 (F := F)⟩]
/-- The statistics block after the last point's two row stores (last first): row 0 the first carried row, row 1 the second. -/
def stats1 (s0 s1 : Vec F S1x256 .f32) : Vec F S2x256 .f32 :=
  View.canon [⟨r1_s1, View.ld s1 r1_b⟩, ⟨r1_s0, View.ld s0 r1_b⟩]

theorem cover1_h (p : Vec F S5000x256 .f32) (y : S5000x256.Idx) :
    ∃ pc ∈ ([⟨r1_h, p⟩] : List (View.Piece (Elt F) S5000x256 .f32)), y ∈ pc.1.set :=
  View.cover_of_tiled [⟨r1_h, p⟩] S5000x256.size (by rfl) y
theorem cover1_b (p : Vec F S1x256 .f32) (y : S1x256.Idx) :
    ∃ pc ∈ ([⟨r1_b, p⟩] : List (View.Piece (Elt F) S1x256 .f32)), y ∈ pc.1.set :=
  View.cover_of_tiled [⟨r1_b, p⟩] S1x256.size (by rfl) y
theorem cover1_s (p q : Vec F S1x256 .f32) (y : S2x256.Idx) :
    ∃ pc ∈ ([⟨r1_s1, q⟩, ⟨r1_s0, p⟩] : List (View.Piece (Elt F) S2x256 .f32)), y ∈ pc.1.set :=
  View.cover_of_tiledL [⟨r1_s1, q⟩, ⟨r1_s0, p⟩] S1x256.size (by sl_kernel_rfl) y

/-- Under a last write that fills the whole buffer, the earlier writes do not show. -/
theorem canon_cons_whole {s : Shape} {e : EltTy} (r : Rect s) (w : r.shape.Idx → Elt F e) (L : List (View.Piece (Elt F) s e))
    (hr : ∀ y : s.Idx, ∃ pc ∈ ([⟨r, w⟩] : List (View.Piece (Elt F) s e)), y ∈ pc.1.set) :
    View.canon (⟨r, w⟩ :: L) = View.canon [⟨r, w⟩] := by
  funext y
  obtain ⟨pc, hpc, hy⟩ := hr y
  rw [List.mem_singleton] at hpc; subst hpc
  obtain ⟨x, rfl⟩ : ∃ x, r.emb x = y := r.exists_idx_of_mem hy
  rw [View.canon_cons_emb, View.canon_cons_emb]

theorem cover1_bb (p q : Vec F S1x256 .f32) (y : S1x256.Idx) :
    ∃ pc ∈ ([⟨r1_b, p⟩, ⟨r1_b, q⟩] : List (View.Piece (Elt F) S1x256 .f32)), y ∈ pc.1.set := by
  obtain ⟨pc, hpc, hy⟩ := cover1_b p y
  exact ⟨pc, List.mem_cons.mpr (Or.inl (List.mem_singleton.mp hpc)), hy⟩

/-! ## The body's triple, case by case

On whole memrefs — the three inputs' at read contents, the row-block output's at anything, the two carried rows'
at what the point before left (at anything at the first point, which resets them), the statistics block's handed back
as it came except at the last point — the body runs to the continuation holding each buffer at its stated contents. -/

set_option maxHeartbeats 1000000 in
theorem sound_kernel1_A (c : Dev nD) (E : Set ℕ) (i : grid1.Coords) (arg1 : Memref sig .tc .vmem S5000x128 .f32) (harg1 : arg1.IsWhole) (arg2 : Memref sig .tc .vmem S128x256 .bf16) (harg2 : arg2.IsWhole) (arg3 : Memref sig .tc .vmem S1x256 .f32) (harg3 : arg3.IsWhole) (arg4 : Memref sig .tc .vmem S5000x256 .f32) (harg4 : arg4.IsWhole) (arg5 : Memref sig .tc .vmem S2x256 .f32) (harg5 : arg5.IsWhole) (arg6 : Memref sig .tc .vmem S1x256 .f32) (harg6 : arg6.IsWhole) (arg7 : Memref sig .tc .vmem S1x256 .f32) (harg7 : arg7.IsWhole)
    (hc0 : cond1_0 i) (hc1 : ¬cond1_1 i)
    (x0 : Vec F S5000x128 .f32) (x1 : Vec F S128x256 .bf16) (x2 : Vec F S1x256 .f32) (xi4 : Vec F S2x256 .f32)
    (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare xi4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (hOut1 x0 x1 x2) ∗ owns (c : Thread nD τ) arg5 fullShare xi4
            ∗ owns (c : Thread nD τ) arg6 fullShare (acc1_0 x0 x1 x2 reset1_0) ∗ owns (c : Thread nD τ) arg7 fullShare (acc1_1 x0 x1 x2 reset1_1)) -∗ K ⟨⟩))
      ⊢ wp frame (wpE (defs₀ (F := F)) Variants.none c none) E (cc1__stageA_kernel i arg1 harg1 arg2 harg2 arg3 harg3 arg4 harg4 arg5 harg5 arg6 harg6 arg7 harg7) K := by
  simp only [cc1__stageA_kernel_eq_skeleton]; unfold cc1__stageA_kernel_skel
  simp only [k1_part1_eq_skeleton]
  unfold owns
  iintro ⟨⟨%f0, %hf0, H0⟩, ⟨%f1, %hf1, H1⟩, ⟨%f2, %hf2, H2⟩, ⟨%d3, %f3, -, H3⟩, ⟨%f4, %hf4, H4⟩, ⟨%d5, %f5, -, H5⟩, ⟨%d6, %f6, -, H6⟩, Hk⟩
  subst hf0; subst hf1; subst hf2; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_h _)
  isplitl [H4]
  · iexists f4; isplitr; · ipureintro; rfl
    iexact H4
  isplitl [H5]
  · iexists _; isplitr
    swap; · iexact H5
    ipureintro
    sl_unfold_run_names
    unfold acc1_0 reset1_0
    rw [View.readCov_eq_canon_ld _ _ _ (cover1_b _)]
    exact (View.read_writes_eq_canon _ _ _ (cover1_bb _ _)).trans (canon_cons_whole _ _ _ (cover1_b _))
  iexists _; isplitr
  swap; · iexact H6
  ipureintro
  sl_unfold_run_names
  unfold acc1_1 reset1_1
  rw [View.readCov_eq_canon_ld _ _ _ (cover1_b _)]
  exact (View.read_writes_eq_canon _ _ _ (cover1_bb _ _)).trans (canon_cons_whole _ _ _ (cover1_b _))

set_option maxHeartbeats 1000000 in
theorem sound_kernel1_B (c : Dev nD) (E : Set ℕ) (i : grid1.Coords) (arg1 : Memref sig .tc .vmem S5000x128 .f32) (harg1 : arg1.IsWhole) (arg2 : Memref sig .tc .vmem S128x256 .bf16) (harg2 : arg2.IsWhole) (arg3 : Memref sig .tc .vmem S1x256 .f32) (harg3 : arg3.IsWhole) (arg4 : Memref sig .tc .vmem S5000x256 .f32) (harg4 : arg4.IsWhole) (arg5 : Memref sig .tc .vmem S2x256 .f32) (harg5 : arg5.IsWhole) (arg6 : Memref sig .tc .vmem S1x256 .f32) (harg6 : arg6.IsWhole) (arg7 : Memref sig .tc .vmem S1x256 .f32) (harg7 : arg7.IsWhole)
    (hc0 : ¬cond1_0 i) (hc1 : ¬cond1_1 i)
    (x0 : Vec F S5000x128 .f32) (x1 : Vec F S128x256 .bf16) (x2 : Vec F S1x256 .f32) (xi4 : Vec F S2x256 .f32)
    (s0 s1 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare xi4
        ∗ owns (c : Thread nD τ) arg6 fullShare s0 ∗ owns (c : Thread nD τ) arg7 fullShare s1
        ∗ (iprop(owns (c : Thread nD τ) arg1 fullShare x0 ∗ owns (c : Thread nD τ) arg2 fullShare x1 ∗ owns (c : Thread nD τ) arg3 fullShare x2
            ∗ owns (c : Thread nD τ) arg4 fullShare (hOut1 x0 x1 x2) ∗ owns (c : Thread nD τ) arg5 fullShare xi4
            ∗ owns (c : Thread nD τ) arg6 fullShare (acc1_0 x0 x1 x2 s0) ∗ owns (c : Thread nD τ) arg7 fullShare (acc1_1 x0 x1 x2 s1)) -∗ K ⟨⟩))
      ⊢ wp frame (wpE (defs₀ (F := F)) Variants.none c none) E (cc1__stageA_kernel i arg1 harg1 arg2 harg2 arg3 harg3 arg4 harg4 arg5 harg5 arg6 harg6 arg7 harg7) K := by
  simp only [cc1__stageA_kernel_eq_skeleton]; unfold cc1__stageA_kernel_skel
  simp only [k1_part1_eq_skeleton]
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%f6, %hf6, H6⟩, Hk⟩
  subst hf0; subst hf1; subst hf2; subst hf4; subst hf5; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_h _)
  isplitl [H4]
  · iexists f4; isplitr; · ipureintro; rfl
    iexact H4
  isplitl [H5]
  · iexists _; isplitr
    swap; · iexact H5
    ipureintro
    exact View.read_writes_eq_canon _ _ _ (cover1_b _)
  iexists _; isplitr
  swap; · iexact H6
  ipureintro
  exact View.read_writes_eq_canon _ _ _ (cover1_b _)

set_option maxHeartbeats 1000000 in
theorem sound_kernel1_C (c : Dev nD) (E : Set ℕ) (i : grid1.Coords) (arg1 : Memref sig .tc .vmem S5000x128 .f32) (harg1 : arg1.IsWhole) (arg2 : Memref sig .tc .vmem S128x256 .bf16) (harg2 : arg2.IsWhole) (arg3 : Memref sig .tc .vmem S1x256 .f32) (harg3 : arg3.IsWhole) (arg4 : Memref sig .tc .vmem S5000x256 .f32) (harg4 : arg4.IsWhole) (arg5 : Memref sig .tc .vmem S2x256 .f32) (harg5 : arg5.IsWhole) (arg6 : Memref sig .tc .vmem S1x256 .f32) (harg6 : arg6.IsWhole) (arg7 : Memref sig .tc .vmem S1x256 .f32) (harg7 : arg7.IsWhole)
    (hc0 : ¬cond1_0 i) (hc1 : cond1_1 i)
    (x0 : Vec F S5000x128 .f32) (x1 : Vec F S128x256 .bf16) (x2 : Vec F S1x256 .f32)
    (s0 s1 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ owns (c : Thread nD τ) arg6 fullShare s0 ∗ owns (c : Thread nD τ) arg7 fullShare s1
        ∗ (iprop(owns (c : Thread nD τ) arg1 fullShare x0 ∗ owns (c : Thread nD τ) arg2 fullShare x1 ∗ owns (c : Thread nD τ) arg3 fullShare x2
            ∗ owns (c : Thread nD τ) arg4 fullShare (hOut1 x0 x1 x2) ∗ owns (c : Thread nD τ) arg5 fullShare (stats1 (acc1_0 x0 x1 x2 s0) (acc1_1 x0 x1 x2 s1))
            ∗ owns (c : Thread nD τ) arg6 fullShare (acc1_0 x0 x1 x2 s0) ∗ owns (c : Thread nD τ) arg7 fullShare (acc1_1 x0 x1 x2 s1)) -∗ K ⟨⟩))
      ⊢ wp frame (wpE (defs₀ (F := F)) Variants.none c none) E (cc1__stageA_kernel i arg1 harg1 arg2 harg2 arg3 harg3 arg4 harg4 arg5 harg5 arg6 harg6 arg7 harg7) K := by
  simp only [cc1__stageA_kernel_eq_skeleton]; unfold cc1__stageA_kernel_skel
  simp only [k1_part1_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%f5, %hf5, H5⟩, ⟨%f6, %hf6, H6⟩, Hk⟩
  subst hf0; subst hf1; subst hf2; subst hf5; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_h _)
  isplitl [H4]
  · iexists _; isplitr
    swap; · iexact H4
    ipureintro
    sl_unfold_run_names
    unfold stats1 acc1_0 acc1_1
    rw [View.readCov_eq_canon_ld _ _ _ (cover1_b _), View.readCov_eq_canon_ld _ _ _ (cover1_b _)]
    exact View.read_writes_eq_canon _ _ _ (cover1_s _ _)
  isplitl [H5]
  · iexists _; isplitr
    swap; · iexact H5
    ipureintro
    exact View.read_writes_eq_canon _ _ _ (cover1_b _)
  iexists _; isplitr
  swap; · iexact H6
  ipureintro
  exact View.read_writes_eq_canon _ _ _ (cover1_b _)

/-! ## What the outputs and the two carried rows hold after each point -/

/-- One point's outcome from its three input blocks and the two rows as the point finds them: the row-block output,
    the statistics block (the two rows as this point leaves them, row 0 the first: what the last point stores; at
    the other points nothing consults it), and the two rows after the point. -/
def pt1 (x0 : Vec F S5000x128 .f32) (x1 : Vec F S128x256 .bf16) (x2 : Vec F S1x256 .f32) (s0 s1 : Vec F S1x256 .f32) :
    Vec F S5000x256 .f32 × Vec F S2x256 .f32 × Vec F S1x256 .f32 × Vec F S1x256 .f32 :=
  (hOut1 x0 x1 x2, stats1 (acc1_0 x0 x1 x2 s0) (acc1_1 x0 x1 x2 s1), acc1_0 x0 x1 x2 s0, acc1_1 x0 x1 x2 s1)

/-- THE ACCUMULATION. After the body at position `n`: the first point starts from the reset rows, every later
    point from the rows the point before left. -/
def outsAt1 (c : Dev nD) : (n : ℕ) → n < cfg1.N → Vec F S5000x256 .f32 × Vec F S2x256 .f32 × Vec F S1x256 .f32 × Vec F S1x256 .f32
  | 0, hn => pt1 (iblk1 V c 0 ⟨0, hn⟩) (iblk1 V c 1 ⟨0, hn⟩) (iblk1 V c 2 ⟨0, hn⟩) reset1_0 reset1_1
  | n + 1, hn => pt1 (iblk1 V c 0 ⟨n + 1, hn⟩) (iblk1 V c 1 ⟨n + 1, hn⟩) (iblk1 V c 2 ⟨n + 1, hn⟩)
      (outsAt1 c n (Nat.lt_of_succ_lt hn)).2.2.1 (outsAt1 c n (Nat.lt_of_succ_lt hn)).2.2.2

/-- `outsAt1` at the first point. -/
theorem outsAt1_zero (c : Dev nD) (t : Fin cfg1.N) (h : t.val = 0) :
    outsAt1 V c t.val t.isLt = pt1 (iblk1 V c 0 t) (iblk1 V c 1 t) (iblk1 V c 2 t) reset1_0 reset1_1 := by
  obtain ⟨n, hn⟩ := t
  cases n with
  | zero => rfl
  | succ n => exact absurd h (Nat.succ_ne_zero n)

/-- `outsAt1` at a later point: over what the point before left in the two rows. -/
theorem outsAt1_pos (c : Dev nD) (t : Fin cfg1.N) (h : ¬ t.val = 0) :
    outsAt1 V c t.val t.isLt = pt1 (iblk1 V c 0 t) (iblk1 V c 1 t) (iblk1 V c 2 t)
      (outsAt1 V c (t.val - 1) (Nat.lt_of_le_of_lt (Nat.sub_le _ _) t.isLt)).2.2.1
      (outsAt1 V c (t.val - 1) (Nat.lt_of_le_of_lt (Nat.sub_le _ _) t.isLt)).2.2.2 := by
  obtain ⟨n, hn⟩ := t
  cases n with
  | zero => exact absurd rfl h
  | succ n => rfl

/-- The same as a step from `n` to `n + 1`. -/
theorem outsAt1_succ (c : Dev nD) (n : ℕ) (hn : n + 1 < cfg1.N) :
    outsAt1 V c (n + 1) hn = pt1 (iblk1 V c 0 ⟨n + 1, hn⟩) (iblk1 V c 1 ⟨n + 1, hn⟩) (iblk1 V c 2 ⟨n + 1, hn⟩)
      (outsAt1 V c n (Nat.lt_of_succ_lt hn)).2.2.1 (outsAt1 V c n (Nat.lt_of_succ_lt hn)).2.2.2 := rfl

/-- The rest of the scoped buffers, the two carried rows apart. -/
abbrev rest1 (c : Dev nD) : sProp 𝕄 :=
  Pipeline.scopedRestBut (Ix := Unit) (Name := ℕ) (U := Pipeline.UD sig nD τ) (Lvl := ℕ) (Val := Elt F) spec1 c [cc1_scratch0, cc1_scratch1]

/-- The region's invariant before position `n`: before the first point the launch's (every scoped buffer at anything);
    afterwards the two carried rows at what the point before left in them, the other scoped buffers unopened, the
    generator register at some state. -/
def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2.2.1) ∗ owns (c : Thread nD τ) scM1_1 fullShare ((outsAt1 V c n hn).2.2.2)) ∗ rest1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare ((outsAt1 V c n hn).2.2.1) ∗ owns (c : Thread nD τ) scM1_1 fullShare ((outsAt1 V c n hn).2.2.2)) ∗ rest1 c) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2.2.1) ∗ owns (c : Thread nD τ) scM1_1 fullShare ((outsAt1 V c (n - 1) (by omega)).2.2.2)) ∗ rest1 c) ∗ (∃ r, prngReg c r)) := by
  cases n with
  | zero => exact absurd rfl hz
  | succ n => rfl

/-! ## The pipeline's proof data -/

/-- The proof data of this region on core `c`: the arrays as the region finds them (`V`); after the body at point
    `t` each input's buffer at its block, the outputs' at `outsAt1`'s components; the invariant `PhiS1`; nothing owed;
    full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
    | ⟨4, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem after1_4 (c : Dev nD) (t : Fin cfg1.N) : (dat1 V c).after 4 t = (outsAt1 V c t.val t.isLt).2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: the inputs' memrefs hold their blocks; the point is the first, a middle one or the last,
    which decides the two conditionals, so that case's triple applies; the invariant hands the body the two carried
    rows (at anything at the first point, afterwards at what the point before left) and takes them back at this
    point's contents; at every point but the last the statistics block goes back as it came. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 20 := lt_of_lt_of_eq t.isLt (show cfg1.N = 20 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h0 : t.val = 0
  · have h19 : ¬ t.val % 20 = 19 := by omega
    rw [Dat.leavesExact_idle (dat1 V c) 4 t (idleAt1_4 t h19) (noFlush1_4 t h19)]
    rw [outsAt1_zero V c t h0]
    unfold pt1; dsimp only
    rw [PhiS1_castSucc V c t, PhiS1_zero V c _ _ h0, PhiA1_eq]
    iintro ⟨⟨⟨⟨HS0, HS1⟩, Hrest⟩, Hg⟩, Ho, ⟨%d0, H0⟩, ⟨%d1, H1⟩, ⟨%d2, H2⟩, ⟨%d3, H3⟩, ⟨%d4, H4⟩⟩
    iapply (sound_kernel1_A c Set.univ (grid1.coords t) _ _ _ _ _ _ _ _ _ _ _ _ _ _ ((hcond1_0 t).mpr (by omega)) (fun h => h19 ((hcond1_1 t).mp h)) (iblk1 V c 0 t) (iblk1 V c 1 t) (iblk1 V c 2 t) _ _)
    isplitl [H0]; · iexact H0
    isplitl [H1]; · iexact H1
    isplitl [H2]; · iexact H2
    isplitl [H3]; · iexists _; iexact H3
    isplitl [H4]; · iexact H4
    isplitl [HS0]; · iexact HS0
    isplitl [HS1]; · iexact HS1
    iintro ⟨H0, H1, H2, H3, H4, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    iexists _; iexact H4
  · by_cases h19 : t.val % 20 = 19
    · rw [show (dat1 V c).leavesExact 4 t = owns (c : Thread nD τ) (ms1_4 t) fullShare ((dat1 V c).after 4 t) from by
        unfold Dat.leavesExact; rw [liveAt1_4 t h19], after1_4]
      rw [outsAt1_pos V c t h0]
      unfold pt1; dsimp only
      rw [PhiS1_castSucc V c t, PhiS1_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply (sound_kernel1_C c Set.univ (grid1.coords t) _ _ _ _ _ _ _ _ _ _ _ _ _ _ (fun h => h0 (by have := (hcond1_0 t).mp h; omega)) ((hcond1_1 t).mpr h19) (iblk1 V c 0 t) (iblk1 V c 1 t) (iblk1 V c 2 t) _ _ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, H3, H4, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      iexact H4
    · rw [Dat.leavesExact_idle (dat1 V c) 4 t (idleAt1_4 t h19) (noFlush1_4 t h19)]
      rw [outsAt1_pos V c t h0]
      unfold pt1; dsimp only
      rw [PhiS1_castSucc V c t, PhiS1_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply (sound_kernel1_B c Set.univ (grid1.coords t) _ _ _ _ _ _ _ _ _ _ _ _ _ _ (fun h => h0 (by have := (hcond1_0 t).mp h; omega)) (fun h => h19 ((hcond1_1 t).mp h)) (iblk1 V c 0 t) (iblk1 V c 1 t) (iblk1 V c 2 t) _ _ _ _)
      isplitl [H0]; · iexact H0
      isplitl [H1]; · iexact H1
      isplitl [H2]; · iexact H2
      isplitl [H3]; · iexists _; iexact H3
      isplitl [H4]; · iexact H4
      isplitl [HS0]; · iexact HS0
      isplitl [HS1]; · iexact HS1
      iintro ⟨H0, H1, H2, H3, H4, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's back: the rows' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1⟩, Hrest⟩, Hg⟩
  isplitl [HS0 HS1 Hrest]
  · isplitl [HS0 HS1]
    · isplitl [HS0]; · iexists _; iexact HS0
      iexists _; iexact HS1
    iexact Hrest
  iexact Hg

/-- The same after the last point. -/
theorem hout1 (c : Dev nD) : (dat1 V c).Φ (Fin.last cfg1.N) ⊢ Pipeline.ΦA spec1 c :=
  Phi_out1 V c _ (by rw [Fin.val_last]; have : cfg1.N = 20 := N_1; omega)

end Cert.Kernel.Hand

end
-- ==== Proof.KB.Reg2.lean ====
import proofs.«164503_j82721070121701_1_alg».proof.Proof.Gen.Kernel.Launch
import proofs.«164503_j82721070121701_1_alg».proof.Proof.Gen.Kernel.Skeleton
import proofs.«164503_j82721070121701_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

-- the buffer contents when the region is entered: the parameter the region's half is stated at
variable (V : (c : Dev nD) → (b : Ref sig .tc) → Buf (Elt F) ((c : Thread nD τ).loc b))

/-! # REGION 2 of @main: custom_call 2, `cc2__stageB_kernel` (pipeline 2), at the entry contents `V`

The body normalises the row block of the first layer's pre-activation, applies relu, multiplies by the second
layer's weight and adds its bias; it stores that block, and adds the block's column sums and the column sums of its
squares into two scratch rows that it zeroes at the first point and copies into the 2-row output at the last. -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s and whose body leaves the block in place. -/
theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s and whose body leaves the block in place. -/
theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s and whose body leaves the block in place. -/
theorem before2_2_of {c : Dev nD} (dat : Dat τ (Elt F) Unit ℕ (Pipeline.UD sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof
    data whose array is `V`'s and whose body leaves the block in place. -/
theorem before2_3_of {c : Dev nD} (dat : Dat τ (Elt F) Unit ℕ (Pipeline.UD sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof
    data whose array is `V`'s and whose body leaves the block in place. -/
theorem before2_4_of {c : Dev nD} (dat : Dat τ (Elt F) Unit ℕ (Pipeline.UD sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not, for any proof
    data whose array is `V`'s and whose body leaves the block in place. -/
theorem before2_5_of {c : Dev nD} (dat : Dat τ (Elt F) Unit ℕ (Pipeline.UD sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, fetched there or not, for any proof
    data whose array is `V`'s and whose body leaves the block in place. -/
theorem before2_6_of {c : Dev nD} (dat : Dat τ (Elt F) Unit ℕ (Pipeline.UD sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions -/

/-- The condition of the body's first `scf.if` (the reset of the two scratch rows), from the grid coordinates. -/
abbrev cond2_0 (i : grid2.Coords) : Prop := (Scalar.cmpi .ne (Scalar.extui (Scalar.cmpi .eq (BitVec.ofNat 32 (i 0).val) 0#32)) 0#32) = 1#1
/-- It holds at the first point only — decided over the grid. -/
theorem hcond2_0 : ∀ t : Fin cfg2.N, cond2_0 (grid2.coords t) ↔ t.val % 20 = 0 :=
  (by decide +kernel : ∀ t : Fin grid2.N, cond2_0 (grid2.coords t) ↔ t.val % 20 = 0)

/-- The condition of the body's second `scf.if` (the copy of the scratch rows into the 2-row output). -/
abbrev cond2_1 (i : grid2.Coords) : Prop := k2_cond2 i = 1#1
/-- It holds at the last point only — decided over the grid. -/
theorem hcond2_1 : ∀ t : Fin cfg2.N, cond2_1 (grid2.coords t) ↔ t.val % 20 = 19 :=
  (by decide +kernel : ∀ t : Fin grid2.N, cond2_1 (grid2.coords t) ↔ t.val % 20 = 19)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel
theorem liveAt2_6 : ∀ t : Fin cfg2.N, cfg2.idle 6 (grid2.coords t) = false := by decide +kernel
theorem liveAt2_7 : ∀ t : Fin cfg2.N, cfg2.idle 7 (grid2.coords t) = false := by decide +kernel
/-- Away from the last point the 2-row output is idle (nothing is stored into it) and is not written back. -/
theorem idleAt2_8 : ∀ t : Fin cfg2.N, ¬cond2_1 (grid2.coords t) → cfg2.idle 8 (grid2.coords t) = true := by decide +kernel
theorem noFlush2_8 : ∀ t : Fin cfg2.N, ¬cond2_1 (grid2.coords t) → (cfg2.win 8).flush t = false := by decide +kernel
/-- At the last point it is live. -/
theorem liveAt2_8 : ∀ t : Fin cfg2.N, cond2_1 (grid2.coords t) → cfg2.idle 8 (grid2.coords t) = false := by decide +kernel

/-! ## The staging and scratch memrefs -/

abbrev ms2_0 (t : Fin cfg2.N) : Memref sig .tc .vmem S5000x256 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x256 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x256 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x256 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x256 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S256x128 .bf16 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x128 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S5000x128 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S2x128 .f32 := win2_8.stage (cfg2.slots t 8)
abbrev hs2_8 (t : Fin cfg2.N) : (ms2_8 t).IsWhole := hstage2_8 ((cfg2.slots t 8).cast nbuf2_8)
/-- The two scratch rows the kernel carries between points: whole scoped buffers of its own. -/
abbrev scM2_0 : Memref sig .tc .vmem S1x128 .f32 := Memref.whole cc2_scratch0
abbrev scM2_1 : Memref sig .tc .vmem S1x128 .f32 := Memref.whole cc2_scratch1

/-- The region's invariant with the two scratch rows as memrefs owned at some contents, the other scoped buffers
    unopened, the generator register at some state. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := Pipeline.UD sig nD τ) (Lvl := ℕ) (Val := Elt F) spec2 c [cc2_scratch0, cc2_scratch1])
          ∗ (∃ r, prngReg c r)) := by
  unfold Pipeline.ΦA; rw [scopedRest2_split]; simp only [scM2_0, scM2_1, owns_whole]; try rfl

/-! ## The body's accesses and what it leaves -/

abbrev r2_in : Rect S5000x256 := Rect.unit (s := S5000x256) ![0, 0] S5000x256.size inb_S5000x256_S5000x256_0_0
abbrev r2_row256 : Rect S1x256 := Rect.unit (s := S1x256) ![0, 0] S1x256.size inb_S1x256_S1x256_0_0
abbrev r2_wt : Rect S256x128 := Rect.unit (s := S256x128) ![0, 0] S256x128.size inb_S256x128_S256x128_0_0
abbrev r2_row128 : Rect S1x128 := Rect.unit (s := S1x128) ![0, 0] S1x128.size inb_S1x128_S1x128_0_0
abbrev r2_out : Rect S5000x128 := Rect.unit (s := S5000x128) ![0, 0] S5000x128.size inb_S5000x128_S5000x128_0_0
abbrev r2_st0 : Rect S2x128 := Rect.unit (s := S2x128) ![0, 0] S1x128.size inb_S2x128_S1x128_0_0
abbrev r2_st1 : Rect S2x128 := Rect.unit (s := S2x128) ![1, 0] S1x128.size inb_S2x128_S1x128_1_0

/-- The block of the second layer's pre-activation, from the input windows' blocks (row block, mean, variance, gain,
    bias, weight, bias row). -/
def blk2 (x0 : Vec F S5000x256 .f32) (x1 x2 x3 x4 : Vec F S1x256 .f32) (x5 : Vec F S256x128 .bf16) (x6 : Vec F S1x128 .f32) : FVec F S5000x128 .f32 :=
  k2_pay5 (View.ld x0 r2_in) (View.ld x2 r2_row256) (View.ld x3 r2_row256) (View.ld x1 r2_row256) (View.ld x4 r2_row256) (View.ld x5 r2_wt) (View.ld x6 r2_row128)

/-- The row-block output's staging buffer after the body: its one store. -/
def out2_7 (x0 : Vec F S5000x256 .f32) (x1 x2 x3 x4 : Vec F S1x256 .f32) (x5 : Vec F S256x128 .bf16) (x6 : Vec F S1x128 .f32) : Vec F S5000x128 .f32 :=
  View.canon [⟨r2_out, blk2 x0 x1 x2 x3 x4 x5 x6⟩]

/-- The first scratch row after the body, over what it held (`s`): the block's column sums added. -/
def sc2_0 (x0 : Vec F S5000x256 .f32) (x1 x2 x3 x4 : Vec F S1x256 .f32) (x5 : Vec F S256x128 .bf16) (x6 : Vec F S1x128 .f32) (s : Vec F S1x128 .f32) : Vec F S1x128 .f32 :=
  View.canon [⟨r2_row128, k2_pay1 (blk2 x0 x1 x2 x3 x4 x5 x6) (View.ld s r2_row128)⟩]

/-- The second scratch row after the body, over what it held: the column sums of the block's squares added. -/
def sc2_1 (x0 : Vec F S5000x256 .f32) (x1 x2 x3 x4 : Vec F S1x256 .f32) (x5 : Vec F S256x128 .bf16) (x6 : Vec F S1x128 .f32) (s : Vec F S1x128 .f32) : Vec F S1x128 .f32 :=
  View.canon [⟨r2_row128, k2_pay2 (blk2 x0 x1 x2 x3 x4 x5 x6) (View.ld s r2_row128)⟩]

/-- The scratch rows after the first point's reset. -/
def zero2_0 : Vec F S1x128 .f32 := View.canon [⟨r2_row128, k2_pay3 (F := F)⟩]
def zero2_1 : Vec F S1x128 .f32 := View.canon [⟨r2_row128, k2_pay4 (F := F)⟩]

/-- The 2-row output's staging buffer after the last point's two row stores: row 0 the first scratch row, row 1 the second. -/
def out2_8 (s0 s1 : Vec F S1x128 .f32) : Vec F S2x128 .f32 :=
  View.canon [⟨r2_st1, View.ld s1 r2_row128⟩, ⟨r2_st0, View.ld s0 r2_row128⟩]

theorem cover2_out (p0 : r2_out.shape.Idx → Elt F .f32) (y : S5000x128.Idx) :
    ∃ pc ∈ ([⟨r2_out, p0⟩] : List (View.Piece (Elt F) S5000x128 .f32)), y ∈ pc.1.set :=
  View.cover_of_tiled [⟨r2_out, p0⟩] S5000x128.size (by rfl) y

theorem cover2_row (p0 : r2_row128.shape.Idx → Elt F .f32) (y : S1x128.Idx) :
    ∃ pc ∈ ([⟨r2_row128, p0⟩] : List (View.Piece (Elt F) S1x128 .f32)), y ∈ pc.1.set :=
  View.cover_of_tiled [⟨r2_row128, p0⟩] S1x128.size (by rfl) y

theorem cover2_st (p0 : r2_st0.shape.Idx → Elt F .f32) (p1 : r2_st1.shape.Idx → Elt F .f32) (y : S2x128.Idx) :
    ∃ pc ∈ ([⟨r2_st1, p1⟩, ⟨r2_st0, p0⟩] : List (View.Piece (Elt F) S2x128 .f32)), y ∈ pc.1.set :=
  View.cover_of_tiled [⟨r2_st1, p1⟩, ⟨r2_st0, p0⟩] S1x128.size (by rfl) y

/-! ## The body's triples, one per control case -/

set_option maxHeartbeats 1000000 in
/-- The kernel body on whole memrefs at the first point (the reset branch taken, the copy branch not): the scratch rows, found at anything, are zeroed first; the inputs' buffers at read contents `xW` come back as they were,
    the row-block output's at its one store. -/
theorem sound_kernel2_A (c : Dev nD) (E : Set ℕ) (i : grid2.Coords) (arg1 : Memref sig .tc .vmem S5000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x128 .bf16) (harg6 : arg6.IsWhole) (arg7 : Memref sig .tc .vmem S1x128 .f32) (harg7 : arg7.IsWhole) (arg8 : Memref sig .tc .vmem S5000x128 .f32) (harg8 : arg8.IsWhole) (arg9 : Memref sig .tc .vmem S2x128 .f32) (harg9 : arg9.IsWhole) (arg10 : Memref sig .tc .vmem S1x128 .f32) (harg10 : arg10.IsWhole) (arg11 : Memref sig .tc .vmem S1x128 .f32) (harg11 : arg11.IsWhole)
    (hc0 : cond2_0 i) (hc1 : ¬cond2_1 i) (x0 : Vec F S5000x256 .f32) (x1 x2 x3 x4 : Vec F S1x256 .f32) (x5 : Vec F S256x128 .bf16) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out2_7 x0 x1 x2 x3 x4 x5 x6) ∗ owns (c : Thread nD τ) arg10 fullShare (sc2_0 x0 x1 x2 x3 x4 x5 x6 (zero2_0 (F := F))) ∗ owns (c : Thread nD τ) arg11 fullShare (sc2_1 x0 x1 x2 x3 x4 x5 x6 (zero2_1 (F := F)))) -∗ K ⟨⟩))
      ⊢ wp frame (wpE (defs₀ (F := F)) Variants.none c none) E (cc2__stageB_kernel i arg1 harg1 arg2 harg2 arg3 harg3 arg4 harg4 arg5 harg5 arg6 harg6 arg7 harg7 arg8 harg8 arg9 harg9 arg10 harg10 arg11 harg11) K := by
  simp only [cc2__stageB_kernel_eq_skeleton]; unfold cc2__stageB_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, Hk⟩
  subst hf0 hf1 hf2 hf3 hf4 hf5 hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr; swap; · iexact H7
    ipureintro; exact View.read_writes_eq_canon _ _ _ (cover2_out _)
  isplitl [HS0]
  · iexists _; isplitr; swap; · iexact HS0
    ipureintro
    sl_unfold_run_names
    rw [View.writes_cons_drop _ _ _ _ _ _ (fun y hy => hy), View.readCov_eq_canon_ld _ _ _ (cover2_row _)]
    exact View.read_writes_eq_canon _ _ _ (cover2_row _)
  iexists _; isplitr; swap; · iexact HS1
  ipureintro
  sl_unfold_run_names
  rw [View.writes_cons_drop _ _ _ _ _ _ (fun y hy => hy), View.readCov_eq_canon_ld _ _ _ (cover2_row _)]
  exact View.read_writes_eq_canon _ _ _ (cover2_row _)

set_option maxHeartbeats 1000000 in
/-- The kernel body on whole memrefs at a middle point (neither branch taken): the scratch rows, found at `xs0`, `xs1`, are accumulated into; the inputs' buffers at read contents `xW` come back as they were,
    the row-block output's at its one store. -/
theorem sound_kernel2_B (c : Dev nD) (E : Set ℕ) (i : grid2.Coords) (arg1 : Memref sig .tc .vmem S5000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x128 .bf16) (harg6 : arg6.IsWhole) (arg7 : Memref sig .tc .vmem S1x128 .f32) (harg7 : arg7.IsWhole) (arg8 : Memref sig .tc .vmem S5000x128 .f32) (harg8 : arg8.IsWhole) (arg9 : Memref sig .tc .vmem S2x128 .f32) (harg9 : arg9.IsWhole) (arg10 : Memref sig .tc .vmem S1x128 .f32) (harg10 : arg10.IsWhole) (arg11 : Memref sig .tc .vmem S1x128 .f32) (harg11 : arg11.IsWhole)
    (hc0 : ¬cond2_0 i) (hc1 : ¬cond2_1 i) (x0 : Vec F S5000x256 .f32) (x1 x2 x3 x4 : Vec F S1x256 .f32) (x5 : Vec F S256x128 .bf16) (x6 : Vec F S1x128 .f32) (xs0 xs1 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ owns (c : Thread nD τ) arg10 fullShare xs0 ∗ owns (c : Thread nD τ) arg11 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out2_7 x0 x1 x2 x3 x4 x5 x6) ∗ owns (c : Thread nD τ) arg10 fullShare (sc2_0 x0 x1 x2 x3 x4 x5 x6 xs0) ∗ owns (c : Thread nD τ) arg11 fullShare (sc2_1 x0 x1 x2 x3 x4 x5 x6 xs1)) -∗ K ⟨⟩))
      ⊢ wp frame (wpE (defs₀ (F := F)) Variants.none c none) E (cc2__stageB_kernel i arg1 harg1 arg2 harg2 arg3 harg3 arg4 harg4 arg5 harg5 arg6 harg6 arg7 harg7 arg8 harg8 arg9 harg9 arg10 harg10 arg11 harg11) K := by
  simp only [cc2__stageB_kernel_eq_skeleton]; unfold cc2__stageB_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, Hk⟩
  subst hf0 hf1 hf2 hf3 hf4 hf5 hf6 hfs0 hfs1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr; swap; · iexact H7
    ipureintro; exact View.read_writes_eq_canon _ _ _ (cover2_out _)
  isplitl [HS0]
  · iexists _; isplitr; swap; · iexact HS0
    ipureintro; exact View.read_writes_eq_canon _ _ _ (cover2_row _)
  iexists _; isplitr; swap; · iexact HS1
  ipureintro; exact View.read_writes_eq_canon _ _ _ (cover2_row _)

set_option maxHeartbeats 1000000 in
/-- The kernel body on whole memrefs at the last point (the reset branch not taken, the copy branch taken): the scratch rows, found at `xs0`, `xs1`, are accumulated into and then copied into the 2-row output's rows; the inputs' buffers at read contents `xW` come back as they were,
    the row-block output's at its one store. -/
theorem sound_kernel2_C (c : Dev nD) (E : Set ℕ) (i : grid2.Coords) (arg1 : Memref sig .tc .vmem S5000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x128 .bf16) (harg6 : arg6.IsWhole) (arg7 : Memref sig .tc .vmem S1x128 .f32) (harg7 : arg7.IsWhole) (arg8 : Memref sig .tc .vmem S5000x128 .f32) (harg8 : arg8.IsWhole) (arg9 : Memref sig .tc .vmem S2x128 .f32) (harg9 : arg9.IsWhole) (arg10 : Memref sig .tc .vmem S1x128 .f32) (harg10 : arg10.IsWhole) (arg11 : Memref sig .tc .vmem S1x128 .f32) (harg11 : arg11.IsWhole)
    (hc0 : ¬cond2_0 i) (hc1 : cond2_1 i) (x0 : Vec F S5000x256 .f32) (x1 x2 x3 x4 : Vec F S1x256 .f32) (x5 : Vec F S256x128 .bf16) (x6 : Vec F S1x128 .f32) (xs0 xs1 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ owns (c : Thread nD τ) arg10 fullShare xs0 ∗ owns (c : Thread nD τ) arg11 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out2_7 x0 x1 x2 x3 x4 x5 x6) ∗ owns (c : Thread nD τ) arg9 fullShare (out2_8 (sc2_0 x0 x1 x2 x3 x4 x5 x6 xs0) (sc2_1 x0 x1 x2 x3 x4 x5 x6 xs1)) ∗ owns (c : Thread nD τ) arg10 fullShare (sc2_0 x0 x1 x2 x3 x4 x5 x6 xs0) ∗ owns (c : Thread nD τ) arg11 fullShare (sc2_1 x0 x1 x2 x3 x4 x5 x6 xs1)) -∗ K ⟨⟩))
      ⊢ wp frame (wpE (defs₀ (F := F)) Variants.none c none) E (cc2__stageB_kernel i arg1 harg1 arg2 harg2 arg3 harg3 arg4 harg4 arg5 harg5 arg6 harg6 arg7 harg7 arg8 harg8 arg9 harg9 arg10 harg10 arg11 harg11) K := by
  simp only [cc2__stageB_kernel_eq_skeleton]; unfold cc2__stageB_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs0, %hfs0, HS0⟩, ⟨%fs1, %hfs1, HS1⟩, Hk⟩
  subst hf0 hf1 hf2 hf3 hf4 hf5 hf6 hfs0 hfs1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr; swap; · iexact H7
    ipureintro; exact View.read_writes_eq_canon _ _ _ (cover2_out _)
  isplitl [H8]
  · iexists _; isplitr; swap; · iexact H8
    ipureintro
    sl_unfold_run_names
    rw [View.readCov_eq_canon_ld _ _ _ (cover2_row _), View.readCov_eq_canon_ld _ _ _ (cover2_row _)]
    exact View.read_writes_eq_canon _ _ _ (cover2_st _ _)
  isplitl [HS0]
  · iexists _; isplitr; swap; · iexact HS0
    ipureintro; exact View.read_writes_eq_canon _ _ _ (cover2_row _)
  iexists _; isplitr; swap; · iexact HS1
  ipureintro; exact View.read_writes_eq_canon _ _ _ (cover2_row _)

/-! ## What the outputs and the carried scratch hold after each point -/

/-- One point's effect: from the input blocks and the two scratch rows as the point finds them (`s`), the row-block
    output's buffer, the 2-row output's buffer as the last point's copy leaves it (consulted at the last point only:
    elsewhere the window is idle), and the two scratch rows. -/
def step2 (x0 : Vec F S5000x256 .f32) (x1 x2 x3 x4 : Vec F S1x256 .f32) (x5 : Vec F S256x128 .bf16) (x6 : Vec F S1x128 .f32) (s : Vec F S1x128 .f32 × Vec F S1x128 .f32) : Vec F S5000x128 .f32 × Vec F S2x128 .f32 × Vec F S1x128 .f32 × Vec F S1x128 .f32 :=
  (out2_7 x0 x1 x2 x3 x4 x5 x6, out2_8 (sc2_0 x0 x1 x2 x3 x4 x5 x6 s.1) (sc2_1 x0 x1 x2 x3 x4 x5 x6 s.2), sc2_0 x0 x1 x2 x3 x4 x5 x6 s.1, sc2_1 x0 x1 x2 x3 x4 x5 x6 s.2)

/-- THE ACCUMULATION. What the two outputs' staging buffers and the two carried scratch rows hold after the body at
    position `n`: the point's step from its input blocks, over the scratch rows the point before left (the zeroed
    rows at the first point). -/
def outsAt2 (c : Dev nD) : (n : ℕ) → n < cfg2.N → Vec F S5000x128 .f32 × Vec F S2x128 .f32 × Vec F S1x128 .f32 × Vec F S1x128 .f32
  | 0, hn => step2 (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (zero2_0, zero2_1)
  | n + 1, hn => step2 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩)
      ((outsAt2 c n (Nat.lt_of_succ_lt hn)).2.2.1, (outsAt2 c n (Nat.lt_of_succ_lt hn)).2.2.2)

/-- `outsAt2` at the first point. -/
theorem outsAt2_zero (c : Dev nD) (hn : 0 < cfg2.N) :
    outsAt2 V c 0 hn = step2 (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (zero2_0, zero2_1) := rfl

/-- `outsAt2` at a later point, over what the point before left. -/
theorem outsAt2_succ (c : Dev nD) (n : ℕ) (hn : n + 1 < cfg2.N) :
    outsAt2 V c (n + 1) hn = step2 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩)
      ((outsAt2 V c n (Nat.lt_of_succ_lt hn)).2.2.1, (outsAt2 V c n (Nat.lt_of_succ_lt hn)).2.2.2) := rfl

/-- The same at a point `t`: the first, -/
theorem outsAt2_first (c : Dev nD) (t : Fin cfg2.N) (h0 : t.val = 0) :
    outsAt2 V c t.val t.isLt = step2 (iblk2 V c 0 t) (iblk2 V c 1 t) (iblk2 V c 2 t) (iblk2 V c 3 t) (iblk2 V c 4 t) (iblk2 V c 5 t) (iblk2 V c 6 t) (zero2_0, zero2_1) := by
  obtain ⟨n, hn⟩ := t
  cases n with
  | zero => rfl
  | succ n => exact absurd h0 (Nat.succ_ne_zero n)

/-- or a later one. -/
theorem outsAt2_later (c : Dev nD) (t : Fin cfg2.N) (h0 : t.val ≠ 0) :
    outsAt2 V c t.val t.isLt = step2 (iblk2 V c 0 t) (iblk2 V c 1 t) (iblk2 V c 2 t) (iblk2 V c 3 t) (iblk2 V c 4 t) (iblk2 V c 5 t) (iblk2 V c 6 t)
      ((outsAt2 V c (t.val - 1) (Nat.lt_of_le_of_lt (Nat.sub_le _ _) t.isLt)).2.2.1,
       (outsAt2 V c (t.val - 1) (Nat.lt_of_le_of_lt (Nat.sub_le _ _) t.isLt)).2.2.2) := by
  obtain ⟨n, hn⟩ := t
  cases n with
  | zero => exact absurd rfl h0
  | succ n => rfl

/-! ## The invariant with the carried scratch -/

/-- The region invariant before position `n`: before the first point the launch's (every scoped buffer at anything);
    afterwards the two scratch rows at what the point before left in them, the other scoped buffers unopened, the
    generator register at some state. -/
def PhiS2 (c : Dev nD) : (n : ℕ) → n ≤ cfg2.N → sProp 𝕄
  | 0, _ => Pipeline.ΦA spec2 c
  | n + 1, hn => iprop(iprop(iprop(owns (c : Thread nD τ) scM2_0 fullShare ((outsAt2 V c n hn).2.2.1) ∗ owns (c : Thread nD τ) scM2_1 fullShare ((outsAt2 V c n hn).2.2.2))
          ∗ Pipeline.scopedRestBut (Ix := Unit) (Name := ℕ) (U := Pipeline.UD sig nD τ) (Lvl := ℕ) (Val := Elt F) spec2 c [cc2_scratch0, cc2_scratch1])
          ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2_0 fullShare ((outsAt2 V c n hn).2.2.1) ∗ owns (c : Thread nD τ) scM2_1 fullShare ((outsAt2 V c n hn).2.2.2))
          ∗ Pipeline.scopedRestBut (Ix := Unit) (Name := ℕ) (U := Pipeline.UD sig nD τ) (Lvl := ℕ) (Val := Elt F) spec2 c [cc2_scratch0, cc2_scratch1])
          ∗ (∃ r, prngReg c r)) := rfl

theorem PhiS2_pos (c : Dev nD) (n : ℕ) (h : n ≤ cfg2.N) (hz : n ≠ 0) :
    PhiS2 V c n h = iprop(iprop(iprop(owns (c : Thread nD τ) scM2_0 fullShare ((outsAt2 V c (n - 1) (by omega)).2.2.1) ∗ owns (c : Thread nD τ) scM2_1 fullShare ((outsAt2 V c (n - 1) (by omega)).2.2.2))
          ∗ Pipeline.scopedRestBut (Ix := Unit) (Name := ℕ) (U := Pipeline.UD sig nD τ) (Lvl := ℕ) (Val := Elt F) spec2 c [cc2_scratch0, cc2_scratch1])
          ∗ (∃ r, prngReg c r)) := by
  cases n with
  | zero => exact absurd rfl hz
  | succ n => rfl

/-! ## The pipeline's proof data -/

/-- The proof data of pipeline 2 on core `c`: the arrays as the region finds them (`V`); after the body at point `t`
    each input's buffer at its block and the outputs' at `outsAt2`'s components; the invariant `PhiS2`; nothing owed;
    full shares. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => (outsAt2 V c t.val t.isLt).1
    | ⟨8, _⟩ => (outsAt2 V c t.val t.isLt).2.1
  Φ t := PhiS2 V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

/-- The invariant at a point's start, restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = (outsAt2 V c t.val t.isLt).1 := by dsimp only [dat2]
theorem after2_8 (c : Dev nD) (t : Fin cfg2.N) : (dat2 V c).after 8 t = (outsAt2 V c t.val t.isLt).2.1 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t)

set_option maxHeartbeats 4800000 in
/-- The body at any point: the inputs' memrefs hold their blocks; the closed forms of the two conditions say which control
    case the point is in, so that case's triple applies; the invariant hands the body the two scratch rows at what the point
    before left (at anything at the first point) and takes them back at this point's contents; the other scoped buffers, the
    generator register and the core's debts pass through; the 2-row output's buffer is handed back untouched wherever
    the window is idle. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).owesAt () t.succ = (dat2 V c).owesAt () t.castSucc from rfl]
  rw [show (dat2 V c).Φ t.succ = PhiS2 V c (t.val + 1) t.isLt from rfl, PhiS2_succ]
  have hN : t.val < 20 := lt_of_lt_of_eq t.isLt (show cfg2.N = 20 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  rw [show (dat2 V c).leavesExact 5 t = owns (c : Thread nD τ) (ms2_5 t) fullShare ((dat2 V c).after 5 t) from by
    unfold Dat.leavesExact; rw [liveAt2_5 t], after2_5]
  rw [show (dat2 V c).leavesExact 6 t = owns (c : Thread nD τ) (ms2_6 t) fullShare ((dat2 V c).after 6 t) from by
    unfold Dat.leavesExact; rw [liveAt2_6 t], after2_6]
  rw [show (dat2 V c).leavesExact 7 t = owns (c : Thread nD τ) (ms2_7 t) fullShare ((dat2 V c).after 7 t) from by
    unfold Dat.leavesExact; rw [liveAt2_7 t], after2_7]
  by_cases h0 : t.val % 20 = 0
  · have hc0 : cond2_0 (grid2.coords t) := (hcond2_0 t).mpr h0
    have hc1 : ¬cond2_1 (grid2.coords t) := fun h => by have := (hcond2_1 t).mp h; omega
    have hz : t.val = 0 := by omega
    rw [Dat.leavesExact_idle (dat2 V c) 8 t (idleAt2_8 t hc1) (noFlush2_8 t hc1)]
    rw [outsAt2_first V c t hz]
    unfold step2; (try dsimp only)
    rw [PhiS2_castSucc V c t, PhiS2_zero V c _ _ hz, PhiA2_eq]
    iintro ⟨⟨⟨⟨⟨%ds0, HS0⟩, ⟨%ds1, HS1⟩⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (sound_kernel2_A c Set.univ (grid2.coords t) _ _ _ _ _ _ _ _ _ _ _ _ _ _ _ _ _ _ _ _ _ _ hc0 hc1 (iblk2 V c 0 t) (iblk2 V c 1 t) (iblk2 V c 2 t) (iblk2 V c 3 t) (iblk2 V c 4 t) (iblk2 V c 5 t) (iblk2 V c 6 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexists _; iexact HS0
    isplitl [HS1]; · iexists _; iexact HS1
    iintro ⟨H0, H1, H2, H3, H4, H5, H6, H7, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists _; iexact H8
  · have hc0 : ¬cond2_0 (grid2.coords t) := fun h => h0 ((hcond2_0 t).mp h)
    have hz : t.val ≠ 0 := by omega
    by_cases h1 : t.val % 20 = 19
    · have hc1 : cond2_1 (grid2.coords t) := (hcond2_1 t).mpr h1
      rw [show (dat2 V c).leavesExact 8 t = owns (c : Thread nD τ) (ms2_8 t) fullShare ((dat2 V c).after 8 t) from by
        unfold Dat.leavesExact; rw [liveAt2_8 t hc1], after2_8]
      rw [outsAt2_later V c t hz]
      unfold step2; (try dsimp only)
      rw [PhiS2_castSucc V c t, PhiS2_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (sound_kernel2_C c Set.univ (grid2.coords t) _ _ _ _ _ _ _ _ _ _ _ _ _ _ _ _ _ _ _ _ _ _ hc0 hc1 (iblk2 V c 0 t) (iblk2 V c 1 t) (iblk2 V c 2 t) (iblk2 V c 3 t) (iblk2 V c 4 t) (iblk2 V c 5 t) (iblk2 V c 6 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [HS0]; · iexact HS0
      isplitl [HS1]; · iexact HS1
      iintro ⟨H0, H1, H2, H3, H4, H5, H6, H7, H8, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · have hc1 : ¬cond2_1 (grid2.coords t) := fun h => h1 ((hcond2_1 t).mp h)
      rw [Dat.leavesExact_idle (dat2 V c) 8 t (idleAt2_8 t hc1) (noFlush2_8 t hc1)]
      rw [outsAt2_later V c t hz]
      unfold step2; (try dsimp only)
      rw [PhiS2_castSucc V c t, PhiS2_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (sound_kernel2_B c Set.univ (grid2.coords t) _ _ _ _ _ _ _ _ _ _ _ _ _ _ _ _ _ _ _ _ _ _ hc0 hc1 (iblk2 V c 0 t) (iblk2 V c 1 t) (iblk2 V c 2 t) (iblk2 V c 3 t) (iblk2 V c 4 t) (iblk2 V c 5 t) (iblk2 V c 6 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      iintro ⟨H0, H1, H2, H3, H4, H5, H6, H7, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the launch's back: the scratch rows' named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨⟨HS0, HS1⟩, HR⟩, Hg⟩
  isplitl [HS0 HS1 HR]
  · isplitl [HS0 HS1]
    · isplitl [HS0]; · iexists _; iexact HS0
      iexists _; iexact HS1
    iexact HR
  iexact Hg

/-- The same after the last point. -/
theorem hout2 (c : Dev nD) : (dat2 V c).Φ (Fin.last cfg2.N) ⊢ Pipeline.ΦA spec2 c :=
  Phi_out2 V c _ (by rw [Fin.val_last]; have : cfg2.N = 20 := N_2; omega)

end Cert.Kernel.Hand

end
-- ==== Proof.KB.Reg3a.lean ====
import proofs.«164503_j82721070121701_1_alg».proof.Proof.Gen.Kernel.Launch
import proofs.«164503_j82721070121701_1_alg».proof.Proof.Gen.Kernel.Skeleton
import proofs.«164503_j82721070121701_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

/-! # The second normalisation pass (region 3): what the three control cases share

The pass visits the 20 row blocks in order.  At the first block it zeroes two accumulator rows; at every block it
normalises the block with the layer's mean, variance, gain and bias rows, clamps at zero, stores the block, and adds
the block's column sums of the result and of its square to the two accumulator rows; at the last block it copies the
two accumulator rows into the two rows of the statistics output. -/

variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! Each input's current staging buffer holds its block at every point, fetched there or not, for any proof data
whose array is `V`'s and whose body leaves the block in place: unfetched, the block index has not moved. -/

theorem before3_0_of {c : Dev nD} (dat : Dat τ (Elt F) Unit ℕ (Pipeline.UD sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (Pipeline.UD sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (Pipeline.UD sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (Pipeline.UD sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

theorem before3_4_of {c : Dev nD} (dat : Dat τ (Elt F) Unit ℕ (Pipeline.UD sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's two branch conditions -/

/-- "This is the first block": the condition under which the accumulator rows are zeroed. -/
abbrev cond3_0 (i : grid3.Coords) : Prop := (Scalar.cmpi .ne (Scalar.extui (Scalar.cmpi .eq (BitVec.ofNat 32 (i 0).val) 0#32)) 0#32) = 1#1
/-- It holds at point 0 only — decided over the 20 points. -/
theorem hcond3_0 : ∀ t : Fin cfg3.N, cond3_0 (grid3.coords t) ↔ t.val % 20 = 0 :=
  (by decide +kernel : ∀ t : Fin grid3.N, cond3_0 (grid3.coords t) ↔ t.val % 20 = 0)

/-- "This is the last block": the condition under which the statistics rows are stored. -/
abbrev cond3_1 (i : grid3.Coords) : Prop := k3_cond2 i = 1#1
/-- It holds at point 19 only — decided over the 20 points. -/
theorem hcond3_1 : ∀ t : Fin cfg3.N, cond3_1 (grid3.coords t) ↔ t.val % 20 = 19 :=
  (by decide +kernel : ∀ t : Fin grid3.N, cond3_1 (grid3.coords t) ↔ t.val % 20 = 19)

/-! ## Where the windows are idle -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
theorem liveAt3_4 : ∀ t : Fin cfg3.N, cfg3.idle 4 (grid3.coords t) = false := by decide +kernel
theorem liveAt3_5 : ∀ t : Fin cfg3.N, cfg3.idle 5 (grid3.coords t) = false := by decide +kernel
/-- Away from the last block nothing is stored into the statistics output: the window is idle there -/
theorem idleAt3_6 : ∀ t : Fin cfg3.N, ¬cond3_1 (grid3.coords t) → cfg3.idle 6 (grid3.coords t) = true := by decide +kernel
/-- and not written back. -/
theorem noFlush3_6 : ∀ t : Fin cfg3.N, ¬cond3_1 (grid3.coords t) → (cfg3.win 6).flush t = false := by decide +kernel
/-- At the last block it is live. -/
theorem liveAt3_6 : ∀ t : Fin cfg3.N, cond3_1 (grid3.coords t) → cfg3.idle 6 (grid3.coords t) = false := by decide +kernel

/-! ## The memrefs the body is called with -/

/-- One staging buffer of each output window, through which its contents are stated (the choice does not matter). -/
abbrev VO3_5 : View sig .tc .vmem S5000x128 .f32 := (Memref.whole cc3_stg5_0 : Memref sig .tc .vmem S5000x128 .f32).view
abbrev VO3_6 : View sig .tc .vmem S2x128 .f32 := (Memref.whole cc3_stg6_0 : Memref sig .tc .vmem S2x128 .f32).view
/-- Each window's current staging memref at point `t`, as the pipeline passes it, and its wholeness. -/
abbrev ms3_0 (t : Fin cfg3.N) : Memref sig .tc .vmem S5000x128 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x128 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x128 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x128 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x128 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S5000x128 .f32 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S2x128 .f32 := win3_6.stage (cfg3.slots t 6)
abbrev hs3_6 (t : Fin cfg3.N) : (ms3_6 t).IsWhole := hstage3_6 ((cfg3.slots t 6).cast nbuf3_6)
/-- The two accumulator rows: whole scoped buffers of the kernel's own, passed beside the windows, -/
abbrev scM3_0 : Memref sig .tc .vmem S1x128 .f32 := Memref.whole cc3_scratch0
abbrev scM3_1 : Memref sig .tc .vmem S1x128 .f32 := Memref.whole cc3_scratch1
/-- and as views: what they hold is stated through these. -/
abbrev VS3_0 : View sig .tc .vmem S1x128 .f32 := scM3_0.view
abbrev VS3_1 : View sig .tc .vmem S1x128 .f32 := scM3_1.view

/-- The region's invariant with the two accumulator rows as memrefs owned at some contents, the other scoped
    buffers unopened, and the generator register at some state. -/
theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d))
          ∗ Pipeline.scopedRestBut spec3 c [cc3_scratch0, cc3_scratch1]) ∗ (∃ r, prngReg c r)) := by
  unfold Pipeline.ΦA; rw [scopedRest3_split]; simp only [scM3_0, scM3_1, owns_whole]; try rfl

end Cert.Kernel.Hand

end
-- ==== Proof.KB.Reg3b.lean ====
import proofs.«164503_j82721070121701_1_alg».proof.Proof.KB.Reg3a

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

/-! # The second normalisation pass at its first block

Both accumulator rows are zeroed, then the block is normalised, clamped and stored, and its column sums are added
to the zeroed rows.  Nothing is stored into the statistics output. -/

set_option maxHeartbeats 4000000 in
/-- What the body's stores leave in each buffer at the first block, as pieces (last first), with the proof that on
    whole memrefs — the five inputs at their contents, the block output and the two accumulator rows at anything, the
    statistics output at contents `xi6` handed back untouched — the body runs to the continuation holding the inputs
    as they were, the block output and both accumulator rows with their pieces written. -/
noncomputable def kernelRun3_A (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : cond3_0 i) (hc1 : ¬cond3_1 i)
    (x0 : Vec F S5000x128 .f32) (x1 : Vec F S1x128 .f32) (x2 : Vec F S1x128 .f32) (x3 : Vec F S1x128 .f32) (x4 : Vec F S1x128 .f32) :
    Σ' (L5 : List (View.Piece (Elt F) S5000x128 .f32)) (L6 : List (View.Piece (Elt F) S2x128 .f32)) (LS0 : List (View.Piece (Elt F) S1x128 .f32)), { LS1 : List (View.Piece (Elt F) S1x128 .f32) //
      ∀ (xi6 : Vec F S2x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc3__stageC_kernel i arg1 harg1 arg2 harg2 arg3 harg3 arg4 harg4 arg5 harg5 arg6 harg6 arg7 harg7 arg8 harg8 arg9 harg9) K } := by
  refine ⟨?_, [], ?_, ?_, fun xi6 E K => ?run⟩
  case run =>
    simp only [cc3__stageC_kernel_eq_skeleton]; unfold cc3__stageC_kernel_skel
    simp only [k3_part1_eq_skeleton]; unfold k3_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [HS0]; · iexists _; iexact HS0
    iexists _; iexact HS1

/-! # The second normalisation pass at a middle block

The block is normalised, clamped and stored, and its column sums are added to the accumulator rows as the block
before left them.  Nothing is stored into the statistics output. -/

set_option maxHeartbeats 4000000 in
/-- What the body's stores leave in each buffer at a middle block, as pieces (last first), with the proof that on
    whole memrefs — the five inputs at their contents, the block output at anything, the statistics output at contents
    `xi6` handed back untouched, the accumulator rows at what the block before left (`xs0`, `xs1`) — the body runs to
    the continuation holding the inputs as they were, the block output and both accumulator rows with their pieces
    written. -/
noncomputable def kernelRun3_B (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : ¬cond3_1 i)
    (x0 : Vec F S5000x128 .f32) (x1 : Vec F S1x128 .f32) (x2 : Vec F S1x128 .f32) (x3 : Vec F S1x128 .f32) (x4 : Vec F S1x128 .f32) (xs0 : Vec F S1x128 .f32) (xs1 : Vec F S1x128 .f32) :
    Σ' (L5 : List (View.Piece (Elt F) S5000x128 .f32)) (L6 : List (View.Piece (Elt F) S2x128 .f32)) (LS0 : List (View.Piece (Elt F) S1x128 .f32)), { LS1 : List (View.Piece (Elt F) S1x128 .f32) //
      ∀ (xi6 : Vec F S2x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc3__stageC_kernel i arg1 harg1 arg2 harg2 arg3 harg3 arg4 harg4 arg5 harg5 arg6 harg6 arg7 harg7 arg8 harg8 arg9 harg9) K } := by
  refine ⟨?_, [], ?_, ?_, fun xi6 E K => ?run⟩
  case run =>
    simp only [cc3__stageC_kernel_eq_skeleton]; unfold cc3__stageC_kernel_skel
    simp only [k3_part1_eq_skeleton]; unfold k3_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6; obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [HS0]; · iexists _; iexact HS0
    iexists _; iexact HS1

/-! # The second normalisation pass at its last block

The block is normalised, clamped and stored, its column sums are added to the accumulator rows as the block before
left them, and the two accumulator rows are then copied into rows 0 and 1 of the statistics output. -/

set_option maxHeartbeats 4000000 in
/-- What the body's stores leave in each buffer at the last block, as pieces (last first), with the proof that on
    whole memrefs — the five inputs at their contents, both outputs at anything, the accumulator rows at what the
    block before left (`xs0`, `xs1`) — the body runs to the continuation holding the inputs as they were, both
    outputs and both accumulator rows with their pieces written. -/
noncomputable def kernelRun3_C (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : cond3_1 i)
    (x0 : Vec F S5000x128 .f32) (x1 : Vec F S1x128 .f32) (x2 : Vec F S1x128 .f32) (x3 : Vec F S1x128 .f32) (x4 : Vec F S1x128 .f32) (xs0 : Vec F S1x128 .f32) (xs1 : Vec F S1x128 .f32) :
    Σ' (L5 : List (View.Piece (Elt F) S5000x128 .f32)) (L6 : List (View.Piece (Elt F) S2x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc3__stageC_kernel i arg1 harg1 arg2 harg2 arg3 harg3 arg4 harg4 arg5 harg5 arg6 harg6 arg7 harg7 arg8 harg8 arg9 harg9) K } := by
  refine ⟨?_, ?_, ?_, ?_, fun E K => ?run⟩
  case run =>
    simp only [cc3__stageC_kernel_eq_skeleton]; unfold cc3__stageC_kernel_skel
    simp only [k3_part1_eq_skeleton]; unfold k3_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [HS0]; · iexists _; iexact HS0
    iexists _; iexact HS1

end Cert.Kernel.Hand

end
-- ==== Proof.KB.Reg3.lean ====
import proofs.«164503_j82721070121701_1_alg».proof.Proof.KB.Reg3b

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

/-! # The second normalisation pass (region 3): proof data and body obligation -/

variable (V : (c : Dev nD) → (b : Ref sig .tc) → Buf (Elt F) ((c : Thread nD τ).loc b))

/-- Case A: the one store into the block output covers it. -/
theorem cover3_A_5 (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : cond3_0 i) (hc1 : ¬cond3_1 i)
    (x0 : Vec F S5000x128 .f32) (x1 : Vec F S1x128 .f32) (x2 : Vec F S1x128 .f32) (x3 : Vec F S1x128 .f32) (x4 : Vec F S1x128 .f32) (y : S5000x128.Idx) :
    ∃ pc ∈ (kernelRun3_A c i arg1 harg1 arg2 harg2 arg3 harg3 arg4 harg4 arg5 harg5 arg6 harg6 arg7 harg7 arg8 harg8 arg9 harg9 hc0 hc1 x0 x1 x2 x3 x4).1, y ∈ pc.1.set :=
  View.cover_of_tiledL (kernelRun3_A c i arg1 harg1 arg2 harg2 arg3 harg3 arg4 harg4 arg5 harg5 arg6 harg6 arg7 harg7 arg8 harg8 arg9 harg9 hc0 hc1 x0 x1 x2 x3 x4).1 S5000x128.size (by sl_kernel_rfl) y
/-- Case A: the stores into the first accumulator row cover it. -/
theorem scover3_A_0 (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : cond3_0 i) (hc1 : ¬cond3_1 i)
    (x0 : Vec F S5000x128 .f32) (x1 : Vec F S1x128 .f32) (x2 : Vec F S1x128 .f32) (x3 : Vec F S1x128 .f32) (x4 : Vec F S1x128 .f32) (y : S1x128.Idx) :
    ∃ pc ∈ (kernelRun3_A c i arg1 harg1 arg2 harg2 arg3 harg3 arg4 harg4 arg5 harg5 arg6 harg6 arg7 harg7 arg8 harg8 arg9 harg9 hc0 hc1 x0 x1 x2 x3 x4).2.2.1, y ∈ pc.1.set :=
  View.cover_of_tiledL (kernelRun3_A c i arg1 harg1 arg2 harg2 arg3 harg3 arg4 harg4 arg5 harg5 arg6 harg6 arg7 harg7 arg8 harg8 arg9 harg9 hc0 hc1 x0 x1 x2 x3 x4).2.2.1 S1x128.size (by sl_kernel_rfl) y
/-- Case A: the stores into the second accumulator row cover it. -/
theorem scover3_A_1 (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : cond3_0 i) (hc1 : ¬cond3_1 i)
    (x0 : Vec F S5000x128 .f32) (x1 : Vec F S1x128 .f32) (x2 : Vec F S1x128 .f32) (x3 : Vec F S1x128 .f32) (x4 : Vec F S1x128 .f32) (y : S1x128.Idx) :
    ∃ pc ∈ (kernelRun3_A c i arg1 harg1 arg2 harg2 arg3 harg3 arg4 harg4 arg5 harg5 arg6 harg6 arg7 harg7 arg8 harg8 arg9 harg9 hc0 hc1 x0 x1 x2 x3 x4).2.2.2.1, y ∈ pc.1.set :=
  View.cover_of_tiledL (kernelRun3_A c i arg1 harg1 arg2 harg2 arg3 harg3 arg4 harg4 arg5 harg5 arg6 harg6 arg7 harg7 arg8 harg8 arg9 harg9 hc0 hc1 x0 x1 x2 x3 x4).2.2.2.1 S1x128.size (by sl_kernel_rfl) y

/-- What case A leaves: the block output, the statistics output (nothing stored: a placeholder nothing consults), the two accumulator rows — each buffer's
    pieces read back. -/
def outs3_A (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : cond3_0 i) (hc1 : ¬cond3_1 i)
    (x0 : Vec F S5000x128 .f32) (x1 : Vec F S1x128 .f32) (x2 : Vec F S1x128 .f32) (x3 : Vec F S1x128 .f32) (x4 : Vec F S1x128 .f32) : Vec F S5000x128 .f32 × Vec F S2x128 .f32 × Vec F S1x128 .f32 × Vec F S1x128 .f32 :=
  (VO3_5.read (Elt F) (VO3_5.writes (Elt F) VO3_5.junk (kernelRun3_A c i arg1 harg1 arg2 harg2 arg3 harg3 arg4 harg4 arg5 harg5 arg6 harg6 arg7 harg7 arg8 harg8 arg9 harg9 hc0 hc1 x0 x1 x2 x3 x4).1),
   VO3_6.read (Elt F) (VO3_6.writes (Elt F) VO3_6.junk (kernelRun3_A c i arg1 harg1 arg2 harg2 arg3 harg3 arg4 harg4 arg5 harg5 arg6 harg6 arg7 harg7 arg8 harg8 arg9 harg9 hc0 hc1 x0 x1 x2 x3 x4).2.1),
   VS3_0.read (Elt F) (VS3_0.writes (Elt F) VS3_0.junk (kernelRun3_A c i arg1 harg1 arg2 harg2 arg3 harg3 arg4 harg4 arg5 harg5 arg6 harg6 arg7 harg7 arg8 harg8 arg9 harg9 hc0 hc1 x0 x1 x2 x3 x4).2.2.1),
   VS3_1.read (Elt F) (VS3_1.writes (Elt F) VS3_1.junk (kernelRun3_A c i arg1 harg1 arg2 harg2 arg3 harg3 arg4 harg4 arg5 harg5 arg6 harg6 arg7 harg7 arg8 harg8 arg9 harg9 hc0 hc1 x0 x1 x2 x3 x4).2.2.2.1))

/-- Case B: the one store into the block output covers it. -/
theorem cover3_B_5 (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : ¬cond3_1 i)
    (x0 : Vec F S5000x128 .f32) (x1 : Vec F S1x128 .f32) (x2 : Vec F S1x128 .f32) (x3 : Vec F S1x128 .f32) (x4 : Vec F S1x128 .f32) (xs0 : Vec F S1x128 .f32) (xs1 : Vec F S1x128 .f32) (y : S5000x128.Idx) :
    ∃ pc ∈ (kernelRun3_B c i arg1 harg1 arg2 harg2 arg3 harg3 arg4 harg4 arg5 harg5 arg6 harg6 arg7 harg7 arg8 harg8 arg9 harg9 hc0 hc1 x0 x1 x2 x3 x4 xs0 xs1).1, y ∈ pc.1.set :=
  View.cover_of_tiledL (kernelRun3_B c i arg1 harg1 arg2 harg2 arg3 harg3 arg4 harg4 arg5 harg5 arg6 harg6 arg7 harg7 arg8 harg8 arg9 harg9 hc0 hc1 x0 x1 x2 x3 x4 xs0 xs1).1 S5000x128.size (by sl_kernel_rfl) y
/-- Case B: the stores into the first accumulator row cover it. -/
theorem scover3_B_0 (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : ¬cond3_1 i)
    (x0 : Vec F S5000x128 .f32) (x1 : Vec F S1x128 .f32) (x2 : Vec F S1x128 .f32) (x3 : Vec F S1x128 .f32) (x4 : Vec F S1x128 .f32) (xs0 : Vec F S1x128 .f32) (xs1 : Vec F S1x128 .f32) (y : S1x128.Idx) :
    ∃ pc ∈ (kernelRun3_B c i arg1 harg1 arg2 harg2 arg3 harg3 arg4 harg4 arg5 harg5 arg6 harg6 arg7 harg7 arg8 harg8 arg9 harg9 hc0 hc1 x0 x1 x2 x3 x4 xs0 xs1).2.2.1, y ∈ pc.1.set :=
  View.cover_of_tiledL (kernelRun3_B c i arg1 harg1 arg2 harg2 arg3 harg3 arg4 harg4 arg5 harg5 arg6 harg6 arg7 harg7 arg8 harg8 arg9 harg9 hc0 hc1 x0 x1 x2 x3 x4 xs0 xs1).2.2.1 S1x128.size (by sl_kernel_rfl) y
/-- Case B: the stores into the second accumulator row cover it. -/
theorem scover3_B_1 (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : ¬cond3_1 i)
    (x0 : Vec F S5000x128 .f32) (x1 : Vec F S1x128 .f32) (x2 : Vec F S1x128 .f32) (x3 : Vec F S1x128 .f32) (x4 : Vec F S1x128 .f32) (xs0 : Vec F S1x128 .f32) (xs1 : Vec F S1x128 .f32) (y : S1x128.Idx) :
    ∃ pc ∈ (kernelRun3_B c i arg1 harg1 arg2 harg2 arg3 harg3 arg4 harg4 arg5 harg5 arg6 harg6 arg7 harg7 arg8 harg8 arg9 harg9 hc0 hc1 x0 x1 x2 x3 x4 xs0 xs1).2.2.2.1, y ∈ pc.1.set :=
  View.cover_of_tiledL (kernelRun3_B c i arg1 harg1 arg2 harg2 arg3 harg3 arg4 harg4 arg5 harg5 arg6 harg6 arg7 harg7 arg8 harg8 arg9 harg9 hc0 hc1 x0 x1 x2 x3 x4 xs0 xs1).2.2.2.1 S1x128.size (by sl_kernel_rfl) y

/-- What case B leaves: the block output, the statistics output (nothing stored: a placeholder nothing consults), the two accumulator rows — each buffer's
    pieces read back. -/
def outs3_B (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : ¬cond3_1 i)
    (x0 : Vec F S5000x128 .f32) (x1 : Vec F S1x128 .f32) (x2 : Vec F S1x128 .f32) (x3 : Vec F S1x128 .f32) (x4 : Vec F S1x128 .f32) (xs0 : Vec F S1x128 .f32) (xs1 : Vec F S1x128 .f32) : Vec F S5000x128 .f32 × Vec F S2x128 .f32 × Vec F S1x128 .f32 × Vec F S1x128 .f32 :=
  (VO3_5.read (Elt F) (VO3_5.writes (Elt F) VO3_5.junk (kernelRun3_B c i arg1 harg1 arg2 harg2 arg3 harg3 arg4 harg4 arg5 harg5 arg6 harg6 arg7 harg7 arg8 harg8 arg9 harg9 hc0 hc1 x0 x1 x2 x3 x4 xs0 xs1).1),
   VO3_6.read (Elt F) (VO3_6.writes (Elt F) VO3_6.junk (kernelRun3_B c i arg1 harg1 arg2 harg2 arg3 harg3 arg4 harg4 arg5 harg5 arg6 harg6 arg7 harg7 arg8 harg8 arg9 harg9 hc0 hc1 x0 x1 x2 x3 x4 xs0 xs1).2.1),
   VS3_0.read (Elt F) (VS3_0.writes (Elt F) VS3_0.junk (kernelRun3_B c i arg1 harg1 arg2 harg2 arg3 harg3 arg4 harg4 arg5 harg5 arg6 harg6 arg7 harg7 arg8 harg8 arg9 harg9 hc0 hc1 x0 x1 x2 x3 x4 xs0 xs1).2.2.1),
   VS3_1.read (Elt F) (VS3_1.writes (Elt F) VS3_1.junk (kernelRun3_B c i arg1 harg1 arg2 harg2 arg3 harg3 arg4 harg4 arg5 harg5 arg6 harg6 arg7 harg7 arg8 harg8 arg9 harg9 hc0 hc1 x0 x1 x2 x3 x4 xs0 xs1).2.2.2.1))

/-- Case C: the one store into the block output covers it. -/
theorem cover3_C_5 (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : cond3_1 i)
    (x0 : Vec F S5000x128 .f32) (x1 : Vec F S1x128 .f32) (x2 : Vec F S1x128 .f32) (x3 : Vec F S1x128 .f32) (x4 : Vec F S1x128 .f32) (xs0 : Vec F S1x128 .f32) (xs1 : Vec F S1x128 .f32) (y : S5000x128.Idx) :
    ∃ pc ∈ (kernelRun3_C c i arg1 harg1 arg2 harg2 arg3 harg3 arg4 harg4 arg5 harg5 arg6 harg6 arg7 harg7 arg8 harg8 arg9 harg9 hc0 hc1 x0 x1 x2 x3 x4 xs0 xs1).1, y ∈ pc.1.set :=
  View.cover_of_tiledL (kernelRun3_C c i arg1 harg1 arg2 harg2 arg3 harg3 arg4 harg4 arg5 harg5 arg6 harg6 arg7 harg7 arg8 harg8 arg9 harg9 hc0 hc1 x0 x1 x2 x3 x4 xs0 xs1).1 S5000x128.size (by sl_kernel_rfl) y
/-- Case C: the stores into the first accumulator row cover it. -/
theorem scover3_C_0 (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : cond3_1 i)
    (x0 : Vec F S5000x128 .f32) (x1 : Vec F S1x128 .f32) (x2 : Vec F S1x128 .f32) (x3 : Vec F S1x128 .f32) (x4 : Vec F S1x128 .f32) (xs0 : Vec F S1x128 .f32) (xs1 : Vec F S1x128 .f32) (y : S1x128.Idx) :
    ∃ pc ∈ (kernelRun3_C c i arg1 harg1 arg2 harg2 arg3 harg3 arg4 harg4 arg5 harg5 arg6 harg6 arg7 harg7 arg8 harg8 arg9 harg9 hc0 hc1 x0 x1 x2 x3 x4 xs0 xs1).2.2.1, y ∈ pc.1.set :=
  View.cover_of_tiledL (kernelRun3_C c i arg1 harg1 arg2 harg2 arg3 harg3 arg4 harg4 arg5 harg5 arg6 harg6 arg7 harg7 arg8 harg8 arg9 harg9 hc0 hc1 x0 x1 x2 x3 x4 xs0 xs1).2.2.1 S1x128.size (by sl_kernel_rfl) y
/-- Case C: the stores into the second accumulator row cover it. -/
theorem scover3_C_1 (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : cond3_1 i)
    (x0 : Vec F S5000x128 .f32) (x1 : Vec F S1x128 .f32) (x2 : Vec F S1x128 .f32) (x3 : Vec F S1x128 .f32) (x4 : Vec F S1x128 .f32) (xs0 : Vec F S1x128 .f32) (xs1 : Vec F S1x128 .f32) (y : S1x128.Idx) :
    ∃ pc ∈ (kernelRun3_C c i arg1 harg1 arg2 harg2 arg3 harg3 arg4 harg4 arg5 harg5 arg6 harg6 arg7 harg7 arg8 harg8 arg9 harg9 hc0 hc1 x0 x1 x2 x3 x4 xs0 xs1).2.2.2.1, y ∈ pc.1.set :=
  View.cover_of_tiledL (kernelRun3_C c i arg1 harg1 arg2 harg2 arg3 harg3 arg4 harg4 arg5 harg5 arg6 harg6 arg7 harg7 arg8 harg8 arg9 harg9 hc0 hc1 x0 x1 x2 x3 x4 xs0 xs1).2.2.2.1 S1x128.size (by sl_kernel_rfl) y
/-- Case C: the two row stores into the statistics output tile it. -/
theorem cover3_C_6 (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : cond3_1 i)
    (x0 : Vec F S5000x128 .f32) (x1 : Vec F S1x128 .f32) (x2 : Vec F S1x128 .f32) (x3 : Vec F S1x128 .f32) (x4 : Vec F S1x128 .f32) (xs0 : Vec F S1x128 .f32) (xs1 : Vec F S1x128 .f32) (y : S2x128.Idx) :
    ∃ pc ∈ (kernelRun3_C c i arg1 harg1 arg2 harg2 arg3 harg3 arg4 harg4 arg5 harg5 arg6 harg6 arg7 harg7 arg8 harg8 arg9 harg9 hc0 hc1 x0 x1 x2 x3 x4 xs0 xs1).2.1, y ∈ pc.1.set :=
  View.cover_of_tiledL (kernelRun3_C c i arg1 harg1 arg2 harg2 arg3 harg3 arg4 harg4 arg5 harg5 arg6 harg6 arg7 harg7 arg8 harg8 arg9 harg9 hc0 hc1 x0 x1 x2 x3 x4 xs0 xs1).2.1 S1x128.size (by sl_kernel_rfl) y

/-- What case C leaves: the block output, the statistics output, the two accumulator rows — each buffer's
    pieces read back. -/
def outs3_C (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : cond3_1 i)
    (x0 : Vec F S5000x128 .f32) (x1 : Vec F S1x128 .f32) (x2 : Vec F S1x128 .f32) (x3 : Vec F S1x128 .f32) (x4 : Vec F S1x128 .f32) (xs0 : Vec F S1x128 .f32) (xs1 : Vec F S1x128 .f32) : Vec F S5000x128 .f32 × Vec F S2x128 .f32 × Vec F S1x128 .f32 × Vec F S1x128 .f32 :=
  (VO3_5.read (Elt F) (VO3_5.writes (Elt F) VO3_5.junk (kernelRun3_C c i arg1 harg1 arg2 harg2 arg3 harg3 arg4 harg4 arg5 harg5 arg6 harg6 arg7 harg7 arg8 harg8 arg9 harg9 hc0 hc1 x0 x1 x2 x3 x4 xs0 xs1).1),
   VO3_6.read (Elt F) (VO3_6.writes (Elt F) VO3_6.junk (kernelRun3_C c i arg1 harg1 arg2 harg2 arg3 harg3 arg4 harg4 arg5 harg5 arg6 harg6 arg7 harg7 arg8 harg8 arg9 harg9 hc0 hc1 x0 x1 x2 x3 x4 xs0 xs1).2.1),
   VS3_0.read (Elt F) (VS3_0.writes (Elt F) VS3_0.junk (kernelRun3_C c i arg1 harg1 arg2 harg2 arg3 harg3 arg4 harg4 arg5 harg5 arg6 harg6 arg7 harg7 arg8 harg8 arg9 harg9 hc0 hc1 x0 x1 x2 x3 x4 xs0 xs1).2.2.1),
   VS3_1.read (Elt F) (VS3_1.writes (Elt F) VS3_1.junk (kernelRun3_C c i arg1 harg1 arg2 harg2 arg3 harg3 arg4 harg4 arg5 harg5 arg6 harg6 arg7 harg7 arg8 harg8 arg9 harg9 hc0 hc1 x0 x1 x2 x3 x4 xs0 xs1).2.2.2.1))

/-! ## The conditions at a point, from its position -/

theorem N3' : cfg3.N = 20 := N_3
theorem c0_3 (t : Fin cfg3.N) (h : t.val = 0) : cond3_0 (grid3.coords t) := (hcond3_0 t).mpr (by rw [h])
theorem nc0_3 (t : Fin cfg3.N) (h : t.val ≠ 0) : ¬cond3_0 (grid3.coords t) := fun hc => by
  have := (hcond3_0 t).mp hc; have := lt_of_lt_of_eq t.isLt N3'; omega
theorem c1_3 (t : Fin cfg3.N) (h : t.val = 19) : cond3_1 (grid3.coords t) := (hcond3_1 t).mpr (by rw [h])
theorem nc1_3 (t : Fin cfg3.N) (h : t.val ≠ 19) : ¬cond3_1 (grid3.coords t) := fun hc => by
  have := (hcond3_1 t).mp hc; have := lt_of_lt_of_eq t.isLt N3'; omega

/-! ## What the buffers hold after each point -/

/-- The first block's contents at the point's memrefs and input blocks. -/
def outsA3 (c : Dev nD) (t : Fin cfg3.N) (h0 : t.val = 0) : Vec F S5000x128 .f32 × Vec F S2x128 .f32 × Vec F S1x128 .f32 × Vec F S1x128 .f32 :=
  outs3_A c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) (c0_3 t h0) (nc1_3 t (by omega)) (iblk3 V c 0 t) (iblk3 V c 1 t) (iblk3 V c 2 t) (iblk3 V c 3 t) (iblk3 V c 4 t)
/-- A middle block's, over what the block before left in the accumulator rows. -/
def outsB3 (c : Dev nD) (t : Fin cfg3.N) (h0 : t.val ≠ 0) (h1 : t.val ≠ 19) (xs0 xs1 : Vec F S1x128 .f32) : Vec F S5000x128 .f32 × Vec F S2x128 .f32 × Vec F S1x128 .f32 × Vec F S1x128 .f32 :=
  outs3_B c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) (nc0_3 t h0) (nc1_3 t h1) (iblk3 V c 0 t) (iblk3 V c 1 t) (iblk3 V c 2 t) (iblk3 V c 3 t) (iblk3 V c 4 t) xs0 xs1
/-- The last block's, over what the block before left in the accumulator rows. -/
def outsC3 (c : Dev nD) (t : Fin cfg3.N) (h1 : t.val = 19) (xs0 xs1 : Vec F S1x128 .f32) : Vec F S5000x128 .f32 × Vec F S2x128 .f32 × Vec F S1x128 .f32 × Vec F S1x128 .f32 :=
  outs3_C c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) (nc0_3 t (by omega)) (c1_3 t h1) (iblk3 V c 0 t) (iblk3 V c 1 t) (iblk3 V c 2 t) (iblk3 V c 3 t) (iblk3 V c 4 t) xs0 xs1

/-- THE ACCUMULATION.  What the block output's buffer, the statistics output's buffer and the two accumulator rows
    hold after the body at position `n`: the first block's contents at `n = 0`; afterwards the middle (or, at 19, the
    last) block's contents over the accumulator rows as position `n - 1` left them. -/
def outsAt3 (c : Dev nD) : (n : ℕ) → n < cfg3.N → Vec F S5000x128 .f32 × Vec F S2x128 .f32 × Vec F S1x128 .f32 × Vec F S1x128 .f32
  | 0, hn => outsA3 V c ⟨0, hn⟩ rfl
  | n + 1, hn =>
    if h1 : n + 1 = 19 then
      outsC3 V c ⟨n + 1, hn⟩ h1 (outsAt3 c n (Nat.lt_of_succ_lt hn)).2.2.1 (outsAt3 c n (Nat.lt_of_succ_lt hn)).2.2.2
    else
      outsB3 V c ⟨n + 1, hn⟩ (Nat.succ_ne_zero n) h1 (outsAt3 c n (Nat.lt_of_succ_lt hn)).2.2.1 (outsAt3 c n (Nat.lt_of_succ_lt hn)).2.2.2

/-- `outsAt3` at position 0. -/
theorem outsAt3_zero (c : Dev nD) (h : 0 < cfg3.N) : outsAt3 V c 0 h = outsA3 V c ⟨0, h⟩ rfl := rfl
/-- `outsAt3` at a later position that is not the last. -/
theorem outsAt3_succ_B (c : Dev nD) (n : ℕ) (h : n + 1 < cfg3.N) (h1 : n + 1 ≠ 19) :
    outsAt3 V c (n + 1) h = outsB3 V c ⟨n + 1, h⟩ (Nat.succ_ne_zero n) h1 (outsAt3 V c n (Nat.lt_of_succ_lt h)).2.2.1 (outsAt3 V c n (Nat.lt_of_succ_lt h)).2.2.2 :=
  (dif_neg h1).trans rfl
/-- `outsAt3` at the last position. -/
theorem outsAt3_succ_C (c : Dev nD) (n : ℕ) (h : n + 1 < cfg3.N) (h1 : n + 1 = 19) :
    outsAt3 V c (n + 1) h = outsC3 V c ⟨n + 1, h⟩ h1 (outsAt3 V c n (Nat.lt_of_succ_lt h)).2.2.1 (outsAt3 V c n (Nat.lt_of_succ_lt h)).2.2.2 :=
  (dif_pos h1).trans rfl

/-- The same three, at a point of the grid. -/
theorem outsAt3_A (c : Dev nD) (t : Fin cfg3.N) (h0 : t.val = 0) : outsAt3 V c t.val t.isLt = outsA3 V c t h0 := by
  obtain ⟨n, hn⟩ := t
  cases n with
  | zero => rfl
  | succ n => exact absurd h0 (Nat.succ_ne_zero n)
theorem outsAt3_B (c : Dev nD) (t : Fin cfg3.N) (h0 : t.val ≠ 0) (h1 : t.val ≠ 19) :
    outsAt3 V c t.val t.isLt = outsB3 V c t h0 h1 (outsAt3 V c (t.val - 1) (Nat.lt_of_le_of_lt (Nat.sub_le _ _) t.isLt)).2.2.1 (outsAt3 V c (t.val - 1) (Nat.lt_of_le_of_lt (Nat.sub_le _ _) t.isLt)).2.2.2 := by
  obtain ⟨n, hn⟩ := t
  cases n with
  | zero => exact absurd rfl h0
  | succ n => exact (dif_neg h1).trans rfl
theorem outsAt3_C (c : Dev nD) (t : Fin cfg3.N) (h1 : t.val = 19) :
    outsAt3 V c t.val t.isLt = outsC3 V c t h1 (outsAt3 V c (t.val - 1) (Nat.lt_of_le_of_lt (Nat.sub_le _ _) t.isLt)).2.2.1 (outsAt3 V c (t.val - 1) (Nat.lt_of_le_of_lt (Nat.sub_le _ _) t.isLt)).2.2.2 := by
  obtain ⟨n, hn⟩ := t
  cases n with
  | zero => exact absurd h1 (show (0 : ℕ) ≠ 19 by decide)
  | succ n => exact (dif_pos h1).trans rfl

/-! ## The invariant -/

/-- The region's invariant before position `n`: before the first block the class's (both accumulator rows at anything);
    afterwards both accumulator rows at what the block before left in them, the other scoped buffers unopened, the
    generator register at some state. -/
def PhiS3 (c : Dev nD) : (n : ℕ) → n ≤ cfg3.N → sProp 𝕄
  | 0, _ => Pipeline.ΦA spec3 c
  | n + 1, hn => iprop(iprop(iprop(owns (c : Thread nD τ) scM3_0 fullShare ((outsAt3 V c n hn).2.2.1) ∗ owns (c : Thread nD τ) scM3_1 fullShare ((outsAt3 V c n hn).2.2.2))
      ∗ Pipeline.scopedRestBut spec3 c [cc3_scratch0, cc3_scratch1]) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(iprop(owns (c : Thread nD τ) scM3_0 fullShare ((outsAt3 V c n hn).2.2.1) ∗ owns (c : Thread nD τ) scM3_1 fullShare ((outsAt3 V c n hn).2.2.2))
      ∗ Pipeline.scopedRestBut spec3 c [cc3_scratch0, cc3_scratch1]) ∗ (∃ r, prngReg c r)) := rfl

theorem PhiS3_pos (c : Dev nD) (n : ℕ) (h : n ≤ cfg3.N) (hz : n ≠ 0) :
    PhiS3 V c n h = iprop(iprop(iprop(owns (c : Thread nD τ) scM3_0 fullShare ((outsAt3 V c (n - 1) (by omega)).2.2.1) ∗ owns (c : Thread nD τ) scM3_1 fullShare ((outsAt3 V c (n - 1) (by omega)).2.2.2))
      ∗ Pipeline.scopedRestBut spec3 c [cc3_scratch0, cc3_scratch1]) ∗ (∃ r, prngReg c r)) := by
  cases n with
  | zero => exact absurd rfl hz
  | succ n => rfl

/-! ## The proof data -/

/-- The proof data of the pass on core `c`: the arrays as the region finds them; after the body at point `t` each
    input's buffer at its block, the block output's and the statistics output's at `outsAt3`'s first two components;
    the invariant `PhiS3`; nothing owed; full shares. -/
def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => (outsAt3 V c t.val t.isLt).1
    | ⟨6, _⟩ => (outsAt3 V c t.val t.isLt).2.1
  Φ t := PhiS3 V c t.val (Nat.le_of_lt_succ t.isLt)
  q _ := fullShare
  owed _ := 0

/-- The proof data's arrays are the region-entry contents. -/
theorem A_eq3 (c : Dev nD) (w : Fin cfg3.W) : (dat3 V c).A w = V c (Pipeline.arrRef spec3 w) := by
  dsimp only [dat3]

/-- The invariant at a point's start, restated at `t.val`. -/
theorem PhiS3_castSucc (c : Dev nD) (t : Fin cfg3.N) :
    (dat3 V c).Φ t.castSucc = PhiS3 V c t.val (Nat.le_of_lt t.isLt) := by
  dsimp only [dat3]; simp only [Fin.coe_castSucc]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = (outsAt3 V c t.val t.isLt).1 := by dsimp only [dat3]
theorem after3_6 (c : Dev nD) (t : Fin cfg3.N) : (dat3 V c).after 6 t = (outsAt3 V c t.val t.isLt).2.1 := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d))
    ∗ (∃ d, owns (c : Thread nD τ) (ms3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t)

set_option maxHeartbeats 4800000 in
/-- The body at any point.  The inputs' memrefs hold their blocks; the point's position says which of the three
    cases it is in; that case's run applies: the invariant hands the body the accumulator rows at what the block before
    left (at anything at the first block) and takes them back at this block's contents; the statistics output's buffer
    is handed back untouched except at the last block; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  rw [show (dat3 V c).leavesExact 3 t = owns (c : Thread nD τ) (ms3_3 t) fullShare ((dat3 V c).after 3 t) from by
    unfold Dat.leavesExact; rw [liveAt3_3 t], after3_3]
  rw [show (dat3 V c).leavesExact 4 t = owns (c : Thread nD τ) (ms3_4 t) fullShare ((dat3 V c).after 4 t) from by
    unfold Dat.leavesExact; rw [liveAt3_4 t], after3_4]
  rw [show (dat3 V c).leavesExact 5 t = owns (c : Thread nD τ) (ms3_5 t) fullShare ((dat3 V c).after 5 t) from by
    unfold Dat.leavesExact; rw [liveAt3_5 t], after3_5]
  have hN : t.val < 20 := lt_of_lt_of_eq t.isLt N3'
  by_cases h0 : t.val = 0
  · rw [Dat.leavesExact_idle (dat3 V c) 6 t (idleAt3_6 t (nc1_3 t (by omega))) (noFlush3_6 t (nc1_3 t (by omega)))]
    rw [outsAt3_A V c t h0]
    unfold outsA3 outs3_A; (try dsimp only)
    rw [PhiS3_castSucc V c t, PhiS3_zero V c _ _ h0, PhiA3_eq]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun3_A c (grid3.coords t) _ _ _ _ _ _ _ _ _ _ _ _ _ _ _ _ _ _ (c0_3 t h0) (nc1_3 t (by omega)) (iblk3 V c 0 t) (iblk3 V c 1 t) (iblk3 V c 2 t) (iblk3 V c 3 t) (iblk3 V c 4 t)).2.2.2.2 _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [HS0]; · iexact HS0
    isplitl [HS1]; · iexact HS1
    iintro ⟨H0, H1, H2, H3, H4, ⟨%e5, H5⟩, H6, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_of_cover _ _ _ _ _ (scover3_A_0 c _ _ _ _ _ _ _ _ _ _ _ _ _ _ _ _ _ _ _ _ _ _ _ _ _ _)
          unfold owns; iexists _; isplitr
          swap; · iexact HS1
          ipureintro; exact View.read_writes_of_cover _ _ _ _ _ (scover3_A_1 c _ _ _ _ _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover3_A_5 c _ _ _ _ _ _ _ _ _ _ _ _ _ _ _ _ _ _ _ _ _ _ _ _ _ _)
    iexists _; iexact H6
  · by_cases h1 : t.val = 19
    · rw [show (dat3 V c).leavesExact 6 t = owns (c : Thread nD τ) (ms3_6 t) fullShare ((dat3 V c).after 6 t) from by
        unfold Dat.leavesExact; rw [liveAt3_6 t (c1_3 t h1)], after3_6]
      rw [outsAt3_C V c t h1]
      unfold outsC3 outs3_C; (try dsimp only)
      rw [PhiS3_castSucc V c t, PhiS3_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun3_C c (grid3.coords t) _ _ _ _ _ _ _ _ _ _ _ _ _ _ _ _ _ _ (nc0_3 t (by omega)) (c1_3 t h1) (iblk3 V c 0 t) (iblk3 V c 1 t) (iblk3 V c 2 t) (iblk3 V c 3 t) (iblk3 V c 4 t) _ _).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HS1]; · iexact HS1
      iintro ⟨H0, H1, H2, H3, H4, ⟨%e5, H5⟩, ⟨%e6, H6⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover3_C_0 c _ _ _ _ _ _ _ _ _ _ _ _ _ _ _ _ _ _ _ _ _ _ _ _ _ _ _ _)
            unfold owns; iexists _; isplitr
            swap; · iexact HS1
            ipureintro; exact View.read_writes_of_cover _ _ _ _ _ (scover3_C_1 c _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover3_C_5 c _ _ _ _ _ _ _ _ _ _ _ _ _ _ _ _ _ _ _ _ _ _ _ _ _ _ _ _)
      unfold owns; iexists _; isplitr
      swap; · iexact H6
      ipureintro; exact View.read_writes_of_cover _ _ _ _ _ (cover3_C_6 c _ _ _ _ _ _ _ _ _ _ _ _ _ _ _ _ _ _ _ _ _ _ _ _ _ _ _ _)
    · rw [Dat.leavesExact_idle (dat3 V c) 6 t (idleAt3_6 t (nc1_3 t h1)) (noFlush3_6 t (nc1_3 t h1))]
      rw [outsAt3_B V c t h0 h1]
      unfold outsB3 outs3_B; (try dsimp only)
      rw [PhiS3_castSucc V c t, PhiS3_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun3_B c (grid3.coords t) _ _ _ _ _ _ _ _ _ _ _ _ _ _ _ _ _ _ (nc0_3 t h0) (nc1_3 t h1) (iblk3 V c 0 t) (iblk3 V c 1 t) (iblk3 V c 2 t) (iblk3 V c 3 t) (iblk3 V c 4 t) _ _).2.2.2.2 _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS0]; · iexact HS0
      isplitl [HS1]; · iexact HS1
      iintro ⟨H0, H1, H2, H3, H4, ⟨%e5, H5⟩, H6, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover3_B_0 c _ _ _ _ _ _ _ _ _ _ _ _ _ _ _ _ _ _ _ _ _ _ _ _ _ _ _ _)
            unfold owns; iexists _; isplitr
            swap; · iexact HS1
            ipureintro; exact View.read_writes_of_cover _ _ _ _ _ (scover3_B_1 c _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover3_B_5 c _ _ _ _ _ _ _ _ _ _ _ _ _ _ _ _ _ _ _ _ _ _ _ _ _ _ _ _)
      iexists _; iexact H6

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first block. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any block the invariant gives the class's back: the accumulator rows' named contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

/-- The same after the last block. -/
theorem hout3 (c : Dev nD) : (dat3 V c).Φ (Fin.last cfg3.N) ⊢ Pipeline.ΦA spec3 c :=
  Phi_out3 V c _ (by rw [Fin.val_last]; have : cfg3.N = 20 := N3'; omega)

end Cert.Kernel.Hand

end
-- ==== Proof.KB.Reg4.lean ====
import proofs.«164503_j82721070121701_1_alg».proof.Proof.Gen.Kernel.Launch
import proofs.«164503_j82721070121701_1_alg».proof.Proof.Gen.Kernel.Skeleton
import proofs.«164503_j82721070121701_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the structural look recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # Region 4: the pointwise normalise-and-clamp over row blocks, at the entry contents `V` -/

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for any proof
    data whose array is `V`'s (`hA`) and whose body leaves the block in place (`hafter`): where the window is
    not fetched its block index has not moved, and the buffer still holds the previous point's block, which is
    this point's; the window is uncut and never idle. -/
theorem before4_0_of {c : Dev nD} (dat : Dat τ (Elt F) Unit ℕ (Pipeline.UD sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not, for any proof
    data whose array is `V`'s (`hA`) and whose body leaves the block in place (`hafter`): where the window is
    not fetched its block index has not moved, and the buffer still holds the previous point's block, which is
    this point's; the window is uncut and never idle. -/
theorem before4_1_of {c : Dev nD} (dat : Dat τ (Elt F) Unit ℕ (Pipeline.UD sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not, for any proof
    data whose array is `V`'s (`hA`) and whose body leaves the block in place (`hafter`): where the window is
    not fetched its block index has not moved, and the buffer still holds the previous point's block, which is
    this point's; the window is uncut and never idle. -/
theorem before4_2_of {c : Dev nD} (dat : Dat τ (Elt F) Unit ℕ (Pipeline.UD sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not, for any proof
    data whose array is `V`'s (`hA`) and whose body leaves the block in place (`hafter`): where the window is
    not fetched its block index has not moved, and the buffer still holds the previous point's block, which is
    this point's; the window is uncut and never idle. -/
theorem before4_3_of {c : Dev nD} (dat : Dat τ (Elt F) Unit ℕ (Pipeline.UD sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current staging buffer holds its block at every point, fetched there or not, for any proof
    data whose array is `V`'s (`hA`) and whose body leaves the block in place (`hafter`): where the window is
    not fetched its block index has not moved, and the buffer still holds the previous point's block, which is
    this point's; the window is uncut and never idle. -/
theorem before4_4_of {c : Dev nD} (dat : Dat τ (Elt F) Unit ℕ (Pipeline.UD sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

/-- The whole row block, and the whole one-row table. -/
abbrev r4_0 : Rect S5000x128 := Rect.unit (s := S5000x128) ![0, 0] S5000x128.size inb_S5000x128_S5000x128_0_0
abbrev r4_1 : Rect S1x128 := Rect.unit (s := S1x128) ![0, 0] S1x128.size inb_S1x128_S1x128_0_0

/-! ## What the body leaves in the output window's buffer -/

/-- Window 5's staging buffer after the body, from the input windows' blocks: its one store, of the whole block.
    The payload reads the row block, then the rows of windows 2, 3, 1 and 4, in that order. -/
def out4_5 (x0 : Vec F S5000x128 .f32) (x1 x2 x3 x4 : Vec F S1x128 .f32) : Vec F S5000x128 .f32 :=
  View.canon [⟨r4_0, k4_pay1 (View.ld x0 r4_0) (View.ld x2 r4_1) (View.ld x3 r4_1) (View.ld x1 r4_1) (View.ld x4 r4_1)⟩]

/-- The one store is of the whole buffer, so it covers it. -/
theorem cover4_5 (p0 : Vec F S5000x128 .f32) (y : S5000x128.Idx) :
    ∃ pc ∈ ([⟨r4_0, p0⟩] : List (View.Piece (Elt F) S5000x128 .f32)), y ∈ pc.1.set :=
  View.cover_of_tiled [⟨r4_0, p0⟩] S5000x128.size (by rfl) y

/-! ## The body's triple -/

set_option maxHeartbeats 1000000 in
/-- The kernel body on whole staging memrefs, the inputs' at read contents `xW` and the output's at anything, runs to
    the continuation holding the inputs' as they were and the output's at `out4_5` of the inputs'. -/
theorem sound_kernel4 (c : Dev nD) (E : Set ℕ) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out4_5 x0 x1 x2 x3 x4)) -∗ K ⟨⟩))
      ⊢ wp frame (wpE (defs₀ (F := F)) Variants.none c none) E (cc4__stageD_kernel i arg1 harg1 arg2 harg2 arg3 harg3 arg4 harg4 arg5 harg5 arg6 harg6) K := by
  simp only [cc4__stageD_kernel_eq_skeleton]; unfold cc4__stageD_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

/-! ## The pipeline's proof data -/

/-- The proof data of region 4 on core `c`: the arrays as the region finds them (`V`); after the body at point `t`
    each input's buffer at its block and the output's at `out4_5` of the input blocks; the invariant is the scoped
    rest and the generator register, untouched; nothing owed; full shares. -/
def dat4 (c : Dev nD) : Dat τ (Elt F) Unit ℕ (Pipeline.UD sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = out4_5 (iblk4 V c 0 t) (iblk4 V c 1 t) (iblk4 V c 2 t) (iblk4 V c 3 t) (iblk4 V c 4 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

/-- The body at any point: the inputs' memrefs hold their blocks, so `sound_kernel4` applies; the invariant and
    the core's debts pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ (grid4.coords t) _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.KB.Run.lean ====
/-
  The kernel program's run, assembled.  @main is eighteen items: nine stretches of host operations (the four
  neighbour aggregates), then five row-tiled kernel regions, each followed or preceded by a short host stretch.
  Between two items the TensorCore holds every unscoped buffer at a known valuation: the launch contents, folded
  through each host stretch, with each region's output arrays replaced by what its write-backs leave over its twenty
  grid points.  Each region is entered from the valuation before it and left at the one after it: its windowed
  arrays are split out of the unscoped buffers, handed to the pipeline, and put back with the outputs at their
  folded write-backs; a region's scratch rows live in its own scoped buffers and are forgotten at its end.  No core
  owes anything and the kernels have no semaphores of their own.  From these five records the program's run follows:
  it terminates, the argument arrays end as launched, and the result array ends at what region 4 leaves.
-/
import proofs.«164503_j82721070121701_1_alg».proof.Proof.Gen.Kernel.Launch
import proofs.«164503_j82721070121701_1_alg».proof.Proof.Gen.Kernel.Skeleton
import proofs.«164503_j82721070121701_1_alg».proof.Proof.Gen.Kernel.Points
import proofs.«164503_j82721070121701_1_alg».proof.Proof.Gen.Kernel.Regions
import proofs.«164503_j82721070121701_1_alg».proof.Proof.KB.Reg0
import proofs.«164503_j82721070121701_1_alg».proof.Proof.KB.Reg1
import proofs.«164503_j82721070121701_1_alg».proof.Proof.KB.Reg2
import proofs.«164503_j82721070121701_1_alg».proof.Proof.KB.Reg3
import proofs.«164503_j82721070121701_1_alg».proof.Proof.KB.Reg4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What each region leaves: the contents the generated valuations are written over

The generated valuations between @main's items take, as unknowns, what each region leaves in its output
arrays. They are chosen here stage by stage: region K's outputs are its write-backs folded over the grid
(`Dat.arrAt … N`) from the contents it is entered with, which mention only the earlier regions' outputs. -/

/-- The contents region 0 is entered from, read at the TensorCore's references. -/
abbrev Ve0 : (c : Dev nD) → (b : Ref sig .tc) → Buf (Elt F) ((c : Thread nD τ).loc b) := fun c b => V9 m c b
def o10 (c : Dev nD) : Buf (Elt F) ((c : Thread nD τ).loc main_v61) := (dat0 (Ve0 m) c).arrAt 6 cfg0.N
def outsA : Outs (F := F) := fun _ r c => if h : r = main_v61 then h ▸ o10 m c else m ((c : Thread nD τ).loc r)

abbrev Ve1 : (c : Dev nD) → (b : Ref sig .tc) → Buf (Elt F) ((c : Thread nD τ).loc b) := fun c b => V11 m (outsA m) c b
def o12_0 (c : Dev nD) : Buf (Elt F) ((c : Thread nD τ).loc main_v72_0) := (dat1 (Ve1 m) c).arrAt 3 cfg1.N
def o12_1 (c : Dev nD) : Buf (Elt F) ((c : Thread nD τ).loc main_v72_1) := (dat1 (Ve1 m) c).arrAt 4 cfg1.N
def outsB : Outs (F := F) := fun J r c =>
  if h : r = main_v72_0 then h ▸ o12_0 m c else if h : r = main_v72_1 then h ▸ o12_1 m c else outsA m J r c

abbrev Ve2 : (c : Dev nD) → (b : Ref sig .tc) → Buf (Elt F) ((c : Thread nD τ).loc b) := fun c b => V13 m (outsB m) c b
def o14_0 (c : Dev nD) : Buf (Elt F) ((c : Thread nD τ).loc main_v81_0) := (dat2 (Ve2 m) c).arrAt 7 cfg2.N
def o14_1 (c : Dev nD) : Buf (Elt F) ((c : Thread nD τ).loc main_v81_1) := (dat2 (Ve2 m) c).arrAt 8 cfg2.N
def outsC : Outs (F := F) := fun J r c =>
  if h : r = main_v81_0 then h ▸ o14_0 m c else if h : r = main_v81_1 then h ▸ o14_1 m c else outsB m J r c

abbrev Ve3 : (c : Dev nD) → (b : Ref sig .tc) → Buf (Elt F) ((c : Thread nD τ).loc b) := fun c b => V15 m (outsC m) c b
def o16_0 (c : Dev nD) : Buf (Elt F) ((c : Thread nD τ).loc main_v90_0) := (dat3 (Ve3 m) c).arrAt 5 cfg3.N
def o16_1 (c : Dev nD) : Buf (Elt F) ((c : Thread nD τ).loc main_v90_1) := (dat3 (Ve3 m) c).arrAt 6 cfg3.N
def outsD : Outs (F := F) := fun J r c =>
  if h : r = main_v90_0 then h ▸ o16_0 m c else if h : r = main_v90_1 then h ▸ o16_1 m c else outsC m J r c

abbrev Ve4 : (c : Dev nD) → (b : Ref sig .tc) → Buf (Elt F) ((c : Thread nD τ).loc b) := fun c b => V17 m (outsD m) c b
def o18 (c : Dev nD) : Buf (Elt F) ((c : Thread nD τ).loc main_v99) := (dat4 (Ve4 m) c).arrAt 5 cfg4.N
/-- Every region's outputs, chosen. -/
def outs : Outs (F := F) := fun J r c => if h : r = main_v99 then h ▸ o18 m c else outsD m J r c

theorem outs_v61 (J : ℕ) (c : Dev nD) : outs m J main_v61 c = o10 m c := by
  unfold outs outsD outsC outsB outsA
  rw [dif_neg (by decide), dif_neg (by decide), dif_neg (by decide), dif_neg (by decide), dif_neg (by decide), dif_neg (by decide), dif_neg (by decide), dif_pos rfl]
theorem outsA_v61 (J : ℕ) (c : Dev nD) : outsA m J main_v61 c = o10 m c := by
  unfold outsA; rw [dif_pos rfl]

theorem outs_v72_0 (J : ℕ) (c : Dev nD) : outs m J main_v72_0 c = o12_0 m c := by
  unfold outs outsD outsC outsB
  rw [dif_neg (by decide), dif_neg (by decide), dif_neg (by decide), dif_neg (by decide), dif_neg (by decide), dif_pos rfl]
theorem outs_v72_1 (J : ℕ) (c : Dev nD) : outs m J main_v72_1 c = o12_1 m c := by
  unfold outs outsD outsC outsB
  rw [dif_neg (by decide), dif_neg (by decide), dif_neg (by decide), dif_neg (by decide), dif_neg (by decide), dif_neg (by decide), dif_pos rfl]
theorem outs_v81_0 (J : ℕ) (c : Dev nD) : outs m J main_v81_0 c = o14_0 m c := by
  unfold outs outsD outsC
  rw [dif_neg (by decide), dif_neg (by decide), dif_neg (by decide), dif_pos rfl]
theorem outs_v81_1 (J : ℕ) (c : Dev nD) : outs m J main_v81_1 c = o14_1 m c := by
  unfold outs outsD outsC
  rw [dif_neg (by decide), dif_neg (by decide), dif_neg (by decide), dif_neg (by decide), dif_pos rfl]
theorem outs_v90_0 (J : ℕ) (c : Dev nD) : outs m J main_v90_0 c = o16_0 m c := by
  unfold outs outsD
  rw [dif_neg (by decide), dif_pos rfl]
theorem outs_v90_1 (J : ℕ) (c : Dev nD) : outs m J main_v90_1 c = o16_1 m c := by
  unfold outs outsD
  rw [dif_neg (by decide), dif_neg (by decide), dif_pos rfl]
theorem outs_v99 (J : ℕ) (c : Dev nD) : outs m J main_v99 c = o18 m c := by
  unfold outs; rw [dif_pos rfl]
theorem outsB_v72_0 (J : ℕ) (c : Dev nD) : outsB m J main_v72_0 c = o12_0 m c := by
  unfold outsB; rw [dif_pos rfl]
theorem outsB_v72_1 (J : ℕ) (c : Dev nD) : outsB m J main_v72_1 c = o12_1 m c := by
  unfold outsB; rw [dif_neg (by decide), dif_pos rfl]
theorem outsB_v61 (J : ℕ) (c : Dev nD) : outsB m J main_v61 c = o10 m c := by
  unfold outsB outsA; rw [dif_neg (by decide), dif_neg (by decide), dif_pos rfl]
theorem outsC_v61 (J : ℕ) (c : Dev nD) : outsC m J main_v61 c = o10 m c := by
  unfold outsC; rw [dif_neg (by decide), dif_neg (by decide)]; exact outsB_v61 m J c
theorem outsC_v72_0 (J : ℕ) (c : Dev nD) : outsC m J main_v72_0 c = o12_0 m c := by
  unfold outsC; rw [dif_neg (by decide), dif_neg (by decide)]; exact outsB_v72_0 m J c
theorem outsC_v72_1 (J : ℕ) (c : Dev nD) : outsC m J main_v72_1 c = o12_1 m c := by
  unfold outsC; rw [dif_neg (by decide), dif_neg (by decide)]; exact outsB_v72_1 m J c
theorem outsC_v81_0 (J : ℕ) (c : Dev nD) : outsC m J main_v81_0 c = o14_0 m c := by
  unfold outsC; rw [dif_pos rfl]
theorem outsC_v81_1 (J : ℕ) (c : Dev nD) : outsC m J main_v81_1 c = o14_1 m c := by
  unfold outsC; rw [dif_neg (by decide), dif_pos rfl]
theorem outsD_v61 (J : ℕ) (c : Dev nD) : outsD m J main_v61 c = o10 m c := by
  unfold outsD; rw [dif_neg (by decide), dif_neg (by decide)]; exact outsC_v61 m J c
theorem outsD_v72_0 (J : ℕ) (c : Dev nD) : outsD m J main_v72_0 c = o12_0 m c := by
  unfold outsD; rw [dif_neg (by decide), dif_neg (by decide)]; exact outsC_v72_0 m J c
theorem outsD_v72_1 (J : ℕ) (c : Dev nD) : outsD m J main_v72_1 c = o12_1 m c := by
  unfold outsD; rw [dif_neg (by decide), dif_neg (by decide)]; exact outsC_v72_1 m J c
theorem outsD_v81_0 (J : ℕ) (c : Dev nD) : outsD m J main_v81_0 c = o14_0 m c := by
  unfold outsD; rw [dif_neg (by decide), dif_neg (by decide)]; exact outsC_v81_0 m J c
theorem outsD_v81_1 (J : ℕ) (c : Dev nD) : outsD m J main_v81_1 c = o14_1 m c := by
  unfold outsD; rw [dif_neg (by decide), dif_neg (by decide)]; exact outsC_v81_1 m J c
theorem outsD_v90_0 (J : ℕ) (c : Dev nD) : outsD m J main_v90_0 c = o16_0 m c := by
  unfold outsD; rw [dif_pos rfl]
theorem outsD_v90_1 (J : ℕ) (c : Dev nD) : outsD m J main_v90_1 c = o16_1 m c := by
  unfold outsD; rw [dif_neg (by decide), dif_pos rfl]

/-- The valuations between items read only the earlier regions' outputs: at the final choice they are the staged ones. -/
theorem V10_outs (c : Dev nD) : V10 m (outs m) c = V10 m (outsA m) c := by
  show Function.update (V9 m c) main_v61 (outs m 10 main_v61 c) = Function.update (V9 m c) main_v61 (outsA m 10 main_v61 c)
  rw [outs_v61, outsA_v61]
theorem V11_outs (c : Dev nD) : V11 m (outs m) c = V11 m (outsA m) c := by
  show StableHlo.after hostOps1 (V10 m (outs m) c) = StableHlo.after hostOps1 (V10 m (outsA m) c)
  rw [V10_outs]
theorem V10_outsB (c : Dev nD) : V10 m (outsB m) c = V10 m (outs m) c := by
  show Function.update (V9 m c) main_v61 (outsB m 10 main_v61 c) = Function.update (V9 m c) main_v61 (outs m 10 main_v61 c)
  rw [outs_v61, outsB_v61]
theorem V12_outsB (c : Dev nD) : V12 m (outsB m) c = V12 m (outs m) c := by
  show Function.update (Function.update (StableHlo.after hostOps1 (V10 m (outsB m) c)) main_v72_0 (outsB m 12 main_v72_0 c)) main_v72_1 (outsB m 12 main_v72_1 c)
    = Function.update (Function.update (StableHlo.after hostOps1 (V10 m (outs m) c)) main_v72_0 (outs m 12 main_v72_0 c)) main_v72_1 (outs m 12 main_v72_1 c)
  rw [V10_outsB, outs_v72_0, outs_v72_1, outsB_v72_0, outsB_v72_1]
theorem V13_outs (c : Dev nD) : V13 m (outs m) c = V13 m (outsB m) c := by
  show StableHlo.after hostOps2 (V12 m (outs m) c) = StableHlo.after hostOps2 (V12 m (outsB m) c)
  rw [V12_outsB]
theorem V10_outsC (c : Dev nD) : V10 m (outsC m) c = V10 m (outs m) c := by
  show Function.update (V9 m c) main_v61 (outsC m 10 main_v61 c) = Function.update (V9 m c) main_v61 (outs m 10 main_v61 c)
  rw [outs_v61, outsC_v61]
theorem V12_outsC (c : Dev nD) : V12 m (outsC m) c = V12 m (outs m) c := by
  show Function.update (Function.update (StableHlo.after hostOps1 (V10 m (outsC m) c)) main_v72_0 (outsC m 12 main_v72_0 c)) main_v72_1 (outsC m 12 main_v72_1 c)
    = Function.update (Function.update (StableHlo.after hostOps1 (V10 m (outs m) c)) main_v72_0 (outs m 12 main_v72_0 c)) main_v72_1 (outs m 12 main_v72_1 c)
  rw [V10_outsC, outs_v72_0, outs_v72_1, outsC_v72_0, outsC_v72_1]
theorem V14_outsC (c : Dev nD) : V14 m (outsC m) c = V14 m (outs m) c := by
  show Function.update (Function.update (StableHlo.after hostOps2 (V12 m (outsC m) c)) main_v81_0 (outsC m 14 main_v81_0 c)) main_v81_1 (outsC m 14 main_v81_1 c)
    = Function.update (Function.update (StableHlo.after hostOps2 (V12 m (outs m) c)) main_v81_0 (outs m 14 main_v81_0 c)) main_v81_1 (outs m 14 main_v81_1 c)
  rw [V12_outsC, outs_v81_0, outs_v81_1, outsC_v81_0, outsC_v81_1]
theorem V15_outs (c : Dev nD) : V15 m (outs m) c = V15 m (outsC m) c := by
  show StableHlo.after hostOps3 (V14 m (outs m) c) = StableHlo.after hostOps3 (V14 m (outsC m) c)
  rw [V14_outsC]
theorem V10_outsD (c : Dev nD) : V10 m (outsD m) c = V10 m (outs m) c := by
  show Function.update (V9 m c) main_v61 (outsD m 10 main_v61 c) = Function.update (V9 m c) main_v61 (outs m 10 main_v61 c)
  rw [outs_v61, outsD_v61]
theorem V12_outsD (c : Dev nD) : V12 m (outsD m) c = V12 m (outs m) c := by
  show Function.update (Function.update (StableHlo.after hostOps1 (V10 m (outsD m) c)) main_v72_0 (outsD m 12 main_v72_0 c)) main_v72_1 (outsD m 12 main_v72_1 c)
    = Function.update (Function.update (StableHlo.after hostOps1 (V10 m (outs m) c)) main_v72_0 (outs m 12 main_v72_0 c)) main_v72_1 (outs m 12 main_v72_1 c)
  rw [V10_outsD, outs_v72_0, outs_v72_1, outsD_v72_0, outsD_v72_1]
theorem V14_outsD (c : Dev nD) : V14 m (outsD m) c = V14 m (outs m) c := by
  show Function.update (Function.update (StableHlo.after hostOps2 (V12 m (outsD m) c)) main_v81_0 (outsD m 14 main_v81_0 c)) main_v81_1 (outsD m 14 main_v81_1 c)
    = Function.update (Function.update (StableHlo.after hostOps2 (V12 m (outs m) c)) main_v81_0 (outs m 14 main_v81_0 c)) main_v81_1 (outs m 14 main_v81_1 c)
  rw [V12_outsD, outs_v81_0, outs_v81_1, outsD_v81_0, outsD_v81_1]
theorem V16_outsD (c : Dev nD) : V16 m (outsD m) c = V16 m (outs m) c := by
  show Function.update (Function.update (StableHlo.after hostOps3 (V14 m (outsD m) c)) main_v90_0 (outsD m 16 main_v90_0 c)) main_v90_1 (outsD m 16 main_v90_1 c)
    = Function.update (Function.update (StableHlo.after hostOps3 (V14 m (outs m) c)) main_v90_0 (outs m 16 main_v90_0 c)) main_v90_1 (outs m 16 main_v90_1 c)
  rw [V14_outsD, outs_v90_0, outs_v90_1, outsD_v90_0, outsD_v90_1]
theorem V17_outs (c : Dev nD) : V17 m (outs m) c = V17 m (outsD m) c := by
  show StableHlo.after hostOps4 (V16 m (outs m) c) = StableHlo.after hostOps4 (V16 m (outsD m) c)
  rw [V16_outsD]

/-- Each output array after its region: the chosen contents. -/
theorem V10_out_main_v61 (c : Dev nD) : V10 m (outs m) c main_v61 = o10 m c := by
  show Function.update (V9 m c) main_v61 (outs m 10 main_v61 c) main_v61 = _
  rw [Function.update_self, outs_v61]
theorem V12_out_main_v72_1 (c : Dev nD) : V12 m (outs m) c main_v72_1 = o12_1 m c := by
  show Function.update (Function.update (V11 m (outs m) c) main_v72_0 (outs m 12 main_v72_0 c)) main_v72_1 (outs m 12 main_v72_1 c) main_v72_1 = _
  rw [Function.update_self, outs_v72_1]
theorem V12_out_main_v72_0 (c : Dev nD) : V12 m (outs m) c main_v72_0 = o12_0 m c := by
  show Function.update (Function.update (V11 m (outs m) c) main_v72_0 (outs m 12 main_v72_0 c)) main_v72_1 (outs m 12 main_v72_1 c) main_v72_0 = _
  rw [Function.update_of_ne (StableHlo.devRef_ne_of_ne (by decide : main_v72_0 ≠ main_v72_1)), Function.update_self, outs_v72_0]
theorem V14_out_main_v81_1 (c : Dev nD) : V14 m (outs m) c main_v81_1 = o14_1 m c := by
  show Function.update (Function.update (V13 m (outs m) c) main_v81_0 (outs m 14 main_v81_0 c)) main_v81_1 (outs m 14 main_v81_1 c) main_v81_1 = _
  rw [Function.update_self, outs_v81_1]
theorem V14_out_main_v81_0 (c : Dev nD) : V14 m (outs m) c main_v81_0 = o14_0 m c := by
  show Function.update (Function.update (V13 m (outs m) c) main_v81_0 (outs m 14 main_v81_0 c)) main_v81_1 (outs m 14 main_v81_1 c) main_v81_0 = _
  rw [Function.update_of_ne (StableHlo.devRef_ne_of_ne (by decide : main_v81_0 ≠ main_v81_1)), Function.update_self, outs_v81_0]
theorem V16_out_main_v90_1 (c : Dev nD) : V16 m (outs m) c main_v90_1 = o16_1 m c := by
  show Function.update (Function.update (V15 m (outs m) c) main_v90_0 (outs m 16 main_v90_0 c)) main_v90_1 (outs m 16 main_v90_1 c) main_v90_1 = _
  rw [Function.update_self, outs_v90_1]
theorem V16_out_main_v90_0 (c : Dev nD) : V16 m (outs m) c main_v90_0 = o16_0 m c := by
  show Function.update (Function.update (V15 m (outs m) c) main_v90_0 (outs m 16 main_v90_0 c)) main_v90_1 (outs m 16 main_v90_1 c) main_v90_0 = _
  rw [Function.update_of_ne (StableHlo.devRef_ne_of_ne (by decide : main_v90_0 ≠ main_v90_1)), Function.update_self, outs_v90_0]
theorem V18_out_main_v99 (c : Dev nD) : V18 m (outs m) c main_v99 = o18 m c := by
  show Function.update (V17 m (outs m) c) main_v99 (outs m 18 main_v99 c) main_v99 = _
  rw [Function.update_self, outs_v99]

/-- The contents region 0 leaves, read at the TensorCore's references. -/
abbrev Vx0 : (c : Dev nD) → (b : Ref sig .tc) → Buf (Elt F) ((c : Thread nD τ).loc b) := fun c b => V10 m (outs m) c b
set_option maxHeartbeats 4000000 in
theorem hF0_0 (c : Dev nD) : (dat0 (Ve0 m) c).arrAt 0 cfg0.N = Vx0 m c main_arg0 := by
  refine Eq.trans ((dat0 (Ve0 m) c).arrAt_in 0 rfl _) ?_
  show V9 m c main_arg0 = V10 m (outs m) c main_arg0
  rw [V10_of m (outs m) c main_arg0 (by decide)]
set_option maxHeartbeats 4000000 in
theorem hF0_1 (c : Dev nD) : (dat0 (Ve0 m) c).arrAt 1 cfg0.N = Vx0 m c main_v15 := by
  refine Eq.trans ((dat0 (Ve0 m) c).arrAt_in 1 rfl _) ?_
  show V9 m c main_v15 = V10 m (outs m) c main_v15
  rw [V10_of m (outs m) c main_v15 (by decide)]
set_option maxHeartbeats 4000000 in
theorem hF0_2 (c : Dev nD) : (dat0 (Ve0 m) c).arrAt 2 cfg0.N = Vx0 m c main_v30 := by
  refine Eq.trans ((dat0 (Ve0 m) c).arrAt_in 2 rfl _) ?_
  show V9 m c main_v30 = V10 m (outs m) c main_v30
  rw [V10_of m (outs m) c main_v30 (by decide)]
set_option maxHeartbeats 4000000 in
theorem hF0_3 (c : Dev nD) : (dat0 (Ve0 m) c).arrAt 3 cfg0.N = Vx0 m c main_v45 := by
  refine Eq.trans ((dat0 (Ve0 m) c).arrAt_in 3 rfl _) ?_
  show V9 m c main_v45 = V10 m (outs m) c main_v45
  rw [V10_of m (outs m) c main_v45 (by decide)]
set_option maxHeartbeats 4000000 in
theorem hF0_4 (c : Dev nD) : (dat0 (Ve0 m) c).arrAt 4 cfg0.N = Vx0 m c main_v60 := by
  refine Eq.trans ((dat0 (Ve0 m) c).arrAt_in 4 rfl _) ?_
  show V9 m c main_v60 = V10 m (outs m) c main_v60
  rw [V10_of m (outs m) c main_v60 (by decide)]
set_option maxHeartbeats 4000000 in
theorem hF0_5 (c : Dev nD) : (dat0 (Ve0 m) c).arrAt 5 cfg0.N = Vx0 m c main_arg19 := by
  refine Eq.trans ((dat0 (Ve0 m) c).arrAt_in 5 rfl _) ?_
  show V9 m c main_arg19 = V10 m (outs m) c main_arg19
  rw [V10_of m (outs m) c main_arg19 (by decide)]
theorem hF0_6 (c : Dev nD) : (dat0 (Ve0 m) c).arrAt 6 cfg0.N = Vx0 m c main_v61 :=
  (V10_out_main_v61 m c).symm
set_option maxHeartbeats 4000000 in
/-- After region 0 each of its arrays holds what the pipeline leaves: an input array what it held (never written), an output its folded write-backs. -/
theorem hF0 (c : Dev nD) (w : Fin cfg0.W) : (dat0 (Ve0 m) c).arrAt w cfg0.N = Vx0 m c (Pipeline.arrRef spec0 w) :=
  match w with
  | ⟨0, _⟩ => hF0_0 m c
  | ⟨1, _⟩ => hF0_1 m c
  | ⟨2, _⟩ => hF0_2 m c
  | ⟨3, _⟩ => hF0_3 m c
  | ⟨4, _⟩ => hF0_4 m c
  | ⟨5, _⟩ => hF0_5 m c
  | ⟨6, _⟩ => hF0_6 m c

/-- Every buffer that is none of region 0's output arrays holds after it what it held before. -/
theorem hrest0 (c : Dev nD) : ∀ b, b ∉ Finset.univ.image (Pipeline.arrRef spec0) → Vx0 m c b = Ve0 m c b := fun b hb =>
  (V10_of m (outs m) c b (by
      intro hmem
      have : b = main_v61 := by simpa using hmem
      exact hb (Finset.mem_image.mpr ⟨6, Finset.mem_univ _, this.symm⟩)))

/-- The contents region 1 leaves, read at the TensorCore's references. -/
abbrev Vx1 : (c : Dev nD) → (b : Ref sig .tc) → Buf (Elt F) ((c : Thread nD τ).loc b) := fun c b => V12 m (outs m) c b
set_option maxHeartbeats 4000000 in
theorem hF1_0 (c : Dev nD) : (dat1 (Ve1 m) c).arrAt 0 cfg1.N = Vx1 m c main_v61 := by
  refine Eq.trans ((dat1 (Ve1 m) c).arrAt_in 0 rfl _) ?_
  show V11 m (outsA m) c main_v61 = V12 m (outs m) c main_v61
  rw [V12_of m (outs m) c main_v61 (by decide), V11_outs]
set_option maxHeartbeats 4000000 in
theorem hF1_1 (c : Dev nD) : (dat1 (Ve1 m) c).arrAt 1 cfg1.N = Vx1 m c main_v62 := by
  refine Eq.trans ((dat1 (Ve1 m) c).arrAt_in 1 rfl _) ?_
  show V11 m (outsA m) c main_v62 = V12 m (outs m) c main_v62
  rw [V12_of m (outs m) c main_v62 (by decide), V11_outs]
set_option maxHeartbeats 4000000 in
theorem hF1_2 (c : Dev nD) : (dat1 (Ve1 m) c).arrAt 2 cfg1.N = Vx1 m c main_v64 := by
  refine Eq.trans ((dat1 (Ve1 m) c).arrAt_in 2 rfl _) ?_
  show V11 m (outsA m) c main_v64 = V12 m (outs m) c main_v64
  rw [V12_of m (outs m) c main_v64 (by decide), V11_outs]
theorem hF1_3 (c : Dev nD) : (dat1 (Ve1 m) c).arrAt 3 cfg1.N = Vx1 m c main_v72_0 :=
  (V12_out_main_v72_0 m c).symm
theorem hF1_4 (c : Dev nD) : (dat1 (Ve1 m) c).arrAt 4 cfg1.N = Vx1 m c main_v72_1 :=
  (V12_out_main_v72_1 m c).symm
set_option maxHeartbeats 4000000 in
/-- After region 1 each of its arrays holds what the pipeline leaves: an input array what it held (never written), an output its folded write-backs. -/
theorem hF1 (c : Dev nD) (w : Fin cfg1.W) : (dat1 (Ve1 m) c).arrAt w cfg1.N = Vx1 m c (Pipeline.arrRef spec1 w) :=
  match w with
  | ⟨0, _⟩ => hF1_0 m c
  | ⟨1, _⟩ => hF1_1 m c
  | ⟨2, _⟩ => hF1_2 m c
  | ⟨3, _⟩ => hF1_3 m c
  | ⟨4, _⟩ => hF1_4 m c

/-- Every buffer that is none of region 1's output arrays holds after it what it held before. -/
theorem hrest1 (c : Dev nD) : ∀ b, b ∉ Finset.univ.image (Pipeline.arrRef spec1) → Vx1 m c b = Ve1 m c b := fun b hb =>
  (V12_of m (outs m) c b (by
      intro hmem
      have : b = main_v72_0 ∨ b = main_v72_1 := by simpa using hmem
      rcases this with h | h
      · exact hb (Finset.mem_image.mpr ⟨3, Finset.mem_univ _, h.symm⟩)
      · exact hb (Finset.mem_image.mpr ⟨4, Finset.mem_univ _, h.symm⟩))).trans (congrFun (V11_outs m c) _)

/-- The contents region 2 leaves, read at the TensorCore's references. -/
abbrev Vx2 : (c : Dev nD) → (b : Ref sig .tc) → Buf (Elt F) ((c : Thread nD τ).loc b) := fun c b => V14 m (outs m) c b
set_option maxHeartbeats 4000000 in
theorem hF2_0 (c : Dev nD) : (dat2 (Ve2 m) c).arrAt 0 cfg2.N = Vx2 m c main_v72_0 := by
  refine Eq.trans ((dat2 (Ve2 m) c).arrAt_in 0 rfl _) ?_
  show V13 m (outsB m) c main_v72_0 = V14 m (outs m) c main_v72_0
  rw [V14_of m (outs m) c main_v72_0 (by decide), V13_outs]
set_option maxHeartbeats 4000000 in
theorem hF2_1 (c : Dev nD) : (dat2 (Ve2 m) c).arrAt 1 cfg2.N = Vx2 m c main_v75 := by
  refine Eq.trans ((dat2 (Ve2 m) c).arrAt_in 1 rfl _) ?_
  show V13 m (outsB m) c main_v75 = V14 m (outs m) c main_v75
  rw [V14_of m (outs m) c main_v75 (by decide), V13_outs]
set_option maxHeartbeats 4000000 in
theorem hF2_2 (c : Dev nD) : (dat2 (Ve2 m) c).arrAt 2 cfg2.N = Vx2 m c main_v80 := by
  refine Eq.trans ((dat2 (Ve2 m) c).arrAt_in 2 rfl _) ?_
  show V13 m (outsB m) c main_v80 = V14 m (outs m) c main_v80
  rw [V14_of m (outs m) c main_v80 (by decide), V13_outs]
set_option maxHeartbeats 4000000 in
theorem hF2_3 (c : Dev nD) : (dat2 (Ve2 m) c).arrAt 3 cfg2.N = Vx2 m c main_v66 := by
  refine Eq.trans ((dat2 (Ve2 m) c).arrAt_in 3 rfl _) ?_
  show V13 m (outsB m) c main_v66 = V14 m (outs m) c main_v66
  rw [V14_of m (outs m) c main_v66 (by decide), V13_outs]
set_option maxHeartbeats 4000000 in
theorem hF2_4 (c : Dev nD) : (dat2 (Ve2 m) c).arrAt 4 cfg2.N = Vx2 m c main_v67 := by
  refine Eq.trans ((dat2 (Ve2 m) c).arrAt_in 4 rfl _) ?_
  show V13 m (outsB m) c main_v67 = V14 m (outs m) c main_v67
  rw [V14_of m (outs m) c main_v67 (by decide), V13_outs]
set_option maxHeartbeats 4000000 in
theorem hF2_5 (c : Dev nD) : (dat2 (Ve2 m) c).arrAt 5 cfg2.N = Vx2 m c main_v63 := by
  refine Eq.trans ((dat2 (Ve2 m) c).arrAt_in 5 rfl _) ?_
  show V13 m (outsB m) c main_v63 = V14 m (outs m) c main_v63
  rw [V14_of m (outs m) c main_v63 (by decide), V13_outs]
set_option maxHeartbeats 4000000 in
theorem hF2_6 (c : Dev nD) : (dat2 (Ve2 m) c).arrAt 6 cfg2.N = Vx2 m c main_v65 := by
  refine Eq.trans ((dat2 (Ve2 m) c).arrAt_in 6 rfl _) ?_
  show V13 m (outsB m) c main_v65 = V14 m (outs m) c main_v65
  rw [V14_of m (outs m) c main_v65 (by decide), V13_outs]
theorem hF2_7 (c : Dev nD) : (dat2 (Ve2 m) c).arrAt 7 cfg2.N = Vx2 m c main_v81_0 :=
  (V14_out_main_v81_0 m c).symm
theorem hF2_8 (c : Dev nD) : (dat2 (Ve2 m) c).arrAt 8 cfg2.N = Vx2 m c main_v81_1 :=
  (V14_out_main_v81_1 m c).symm
set_option maxHeartbeats 4000000 in
/-- After region 2 each of its arrays holds what the pipeline leaves: an input array what it held (never written), an output its folded write-backs. -/
theorem hF2 (c : Dev nD) (w : Fin cfg2.W) : (dat2 (Ve2 m) c).arrAt w cfg2.N = Vx2 m c (Pipeline.arrRef spec2 w) :=
  match w with
  | ⟨0, _⟩ => hF2_0 m c
  | ⟨1, _⟩ => hF2_1 m c
  | ⟨2, _⟩ => hF2_2 m c
  | ⟨3, _⟩ => hF2_3 m c
  | ⟨4, _⟩ => hF2_4 m c
  | ⟨5, _⟩ => hF2_5 m c
  | ⟨6, _⟩ => hF2_6 m c
  | ⟨7, _⟩ => hF2_7 m c
  | ⟨8, _⟩ => hF2_8 m c

/-- Every buffer that is none of region 2's output arrays holds after it what it held before. -/
theorem hrest2 (c : Dev nD) : ∀ b, b ∉ Finset.univ.image (Pipeline.arrRef spec2) → Vx2 m c b = Ve2 m c b := fun b hb =>
  (V14_of m (outs m) c b (by
      intro hmem
      have : b = main_v81_0 ∨ b = main_v81_1 := by simpa using hmem
      rcases this with h | h
      · exact hb (Finset.mem_image.mpr ⟨7, Finset.mem_univ _, h.symm⟩)
      · exact hb (Finset.mem_image.mpr ⟨8, Finset.mem_univ _, h.symm⟩))).trans (congrFun (V13_outs m c) _)

/-- The contents region 3 leaves, read at the TensorCore's references. -/
abbrev Vx3 : (c : Dev nD) → (b : Ref sig .tc) → Buf (Elt F) ((c : Thread nD τ).loc b) := fun c b => V16 m (outs m) c b
set_option maxHeartbeats 4000000 in
theorem hF3_0 (c : Dev nD) : (dat3 (Ve3 m) c).arrAt 0 cfg3.N = Vx3 m c main_v81_0 := by
  refine Eq.trans ((dat3 (Ve3 m) c).arrAt_in 0 rfl _) ?_
  show V15 m (outsC m) c main_v81_0 = V16 m (outs m) c main_v81_0
  rw [V16_of m (outs m) c main_v81_0 (by decide), V15_outs]
set_option maxHeartbeats 4000000 in
theorem hF3_1 (c : Dev nD) : (dat3 (Ve3 m) c).arrAt 1 cfg3.N = Vx3 m c main_v84 := by
  refine Eq.trans ((dat3 (Ve3 m) c).arrAt_in 1 rfl _) ?_
  show V15 m (outsC m) c main_v84 = V16 m (outs m) c main_v84
  rw [V16_of m (outs m) c main_v84 (by decide), V15_outs]
set_option maxHeartbeats 4000000 in
theorem hF3_2 (c : Dev nD) : (dat3 (Ve3 m) c).arrAt 2 cfg3.N = Vx3 m c main_v89 := by
  refine Eq.trans ((dat3 (Ve3 m) c).arrAt_in 2 rfl _) ?_
  show V15 m (outsC m) c main_v89 = V16 m (outs m) c main_v89
  rw [V16_of m (outs m) c main_v89 (by decide), V15_outs]
set_option maxHeartbeats 4000000 in
theorem hF3_3 (c : Dev nD) : (dat3 (Ve3 m) c).arrAt 3 cfg3.N = Vx3 m c main_v68 := by
  refine Eq.trans ((dat3 (Ve3 m) c).arrAt_in 3 rfl _) ?_
  show V15 m (outsC m) c main_v68 = V16 m (outs m) c main_v68
  rw [V16_of m (outs m) c main_v68 (by decide), V15_outs]
set_option maxHeartbeats 4000000 in
theorem hF3_4 (c : Dev nD) : (dat3 (Ve3 m) c).arrAt 4 cfg3.N = Vx3 m c main_v69 := by
  refine Eq.trans ((dat3 (Ve3 m) c).arrAt_in 4 rfl _) ?_
  show V15 m (outsC m) c main_v69 = V16 m (outs m) c main_v69
  rw [V16_of m (outs m) c main_v69 (by decide), V15_outs]
theorem hF3_5 (c : Dev nD) : (dat3 (Ve3 m) c).arrAt 5 cfg3.N = Vx3 m c main_v90_0 :=
  (V16_out_main_v90_0 m c).symm
theorem hF3_6 (c : Dev nD) : (dat3 (Ve3 m) c).arrAt 6 cfg3.N = Vx3 m c main_v90_1 :=
  (V16_out_main_v90_1 m c).symm
set_option maxHeartbeats 4000000 in
/-- After region 3 each of its arrays holds what the pipeline leaves: an input array what it held (never written), an output its folded write-backs. -/
theorem hF3 (c : Dev nD) (w : Fin cfg3.W) : (dat3 (Ve3 m) c).arrAt w cfg3.N = Vx3 m c (Pipeline.arrRef spec3 w) :=
  match w with
  | ⟨0, _⟩ => hF3_0 m c
  | ⟨1, _⟩ => hF3_1 m c
  | ⟨2, _⟩ => hF3_2 m c
  | ⟨3, _⟩ => hF3_3 m c
  | ⟨4, _⟩ => hF3_4 m c
  | ⟨5, _⟩ => hF3_5 m c
  | ⟨6, _⟩ => hF3_6 m c

/-- Every buffer that is none of region 3's output arrays holds after it what it held before. -/
theorem hrest3 (c : Dev nD) : ∀ b, b ∉ Finset.univ.image (Pipeline.arrRef spec3) → Vx3 m c b = Ve3 m c b := fun b hb =>
  (V16_of m (outs m) c b (by
      intro hmem
      have : b = main_v90_0 ∨ b = main_v90_1 := by simpa using hmem
      rcases this with h | h
      · exact hb (Finset.mem_image.mpr ⟨5, Finset.mem_univ _, h.symm⟩)
      · exact hb (Finset.mem_image.mpr ⟨6, Finset.mem_univ _, h.symm⟩))).trans (congrFun (V15_outs m c) _)

/-- The contents region 4 leaves, read at the TensorCore's references. -/
abbrev Vx4 : (c : Dev nD) → (b : Ref sig .tc) → Buf (Elt F) ((c : Thread nD τ).loc b) := fun c b => V18 m (outs m) c b
set_option maxHeartbeats 4000000 in
theorem hF4_0 (c : Dev nD) : (dat4 (Ve4 m) c).arrAt 0 cfg4.N = Vx4 m c main_v90_0 := by
  refine Eq.trans ((dat4 (Ve4 m) c).arrAt_in 0 rfl _) ?_
  show V17 m (outsD m) c main_v90_0 = V18 m (outs m) c main_v90_0
  rw [V18_of m (outs m) c main_v90_0 (by decide), V17_outs]
set_option maxHeartbeats 4000000 in
theorem hF4_1 (c : Dev nD) : (dat4 (Ve4 m) c).arrAt 1 cfg4.N = Vx4 m c main_v93 := by
  refine Eq.trans ((dat4 (Ve4 m) c).arrAt_in 1 rfl _) ?_
  show V17 m (outsD m) c main_v93 = V18 m (outs m) c main_v93
  rw [V18_of m (outs m) c main_v93 (by decide), V17_outs]
set_option maxHeartbeats 4000000 in
theorem hF4_2 (c : Dev nD) : (dat4 (Ve4 m) c).arrAt 2 cfg4.N = Vx4 m c main_v98 := by
  refine Eq.trans ((dat4 (Ve4 m) c).arrAt_in 2 rfl _) ?_
  show V17 m (outsD m) c main_v98 = V18 m (outs m) c main_v98
  rw [V18_of m (outs m) c main_v98 (by decide), V17_outs]
set_option maxHeartbeats 4000000 in
theorem hF4_3 (c : Dev nD) : (dat4 (Ve4 m) c).arrAt 3 cfg4.N = Vx4 m c main_v70 := by
  refine Eq.trans ((dat4 (Ve4 m) c).arrAt_in 3 rfl _) ?_
  show V17 m (outsD m) c main_v70 = V18 m (outs m) c main_v70
  rw [V18_of m (outs m) c main_v70 (by decide), V17_outs]
set_option maxHeartbeats 4000000 in
theorem hF4_4 (c : Dev nD) : (dat4 (Ve4 m) c).arrAt 4 cfg4.N = Vx4 m c main_v71 := by
  refine Eq.trans ((dat4 (Ve4 m) c).arrAt_in 4 rfl _) ?_
  show V17 m (outsD m) c main_v71 = V18 m (outs m) c main_v71
  rw [V18_of m (outs m) c main_v71 (by decide), V17_outs]
theorem hF4_5 (c : Dev nD) : (dat4 (Ve4 m) c).arrAt 5 cfg4.N = Vx4 m c main_v99 :=
  (V18_out_main_v99 m c).symm
set_option maxHeartbeats 4000000 in
/-- After region 4 each of its arrays holds what the pipeline leaves: an input array what it held (never written), an output its folded write-backs. -/
theorem hF4 (c : Dev nD) (w : Fin cfg4.W) : (dat4 (Ve4 m) c).arrAt w cfg4.N = Vx4 m c (Pipeline.arrRef spec4 w) :=
  match w with
  | ⟨0, _⟩ => hF4_0 m c
  | ⟨1, _⟩ => hF4_1 m c
  | ⟨2, _⟩ => hF4_2 m c
  | ⟨3, _⟩ => hF4_3 m c
  | ⟨4, _⟩ => hF4_4 m c
  | ⟨5, _⟩ => hF4_5 m c

/-- Every buffer that is none of region 4's output arrays holds after it what it held before. -/
theorem hrest4 (c : Dev nD) : ∀ b, b ∉ Finset.univ.image (Pipeline.arrRef spec4) → Vx4 m c b = Ve4 m c b := fun b hb =>
  (V18_of m (outs m) c b (by
      intro hmem
      have : b = main_v99 := by simpa using hmem
      exact hb (Finset.mem_image.mpr ⟨5, Finset.mem_univ _, this.symm⟩))).trans (congrFun (V17_outs m c) _)

/-! ## The proof data family, the thread state -/

/-- Every pipeline's proof data, each at its region's entry contents (a literal match on the pipeline). -/
def pdats : (p : Fin 5) → (c : Dev nD) → Dat τ (Elt F) Unit ℕ (Pipeline.UD sig nD τ) ℕ (cfgs p) c
  | ⟨0, _⟩ => fun c => dat0 (Ve0 m) c
  | ⟨1, _⟩ => fun c => dat1 (Ve1 m) c
  | ⟨2, _⟩ => fun c => dat2 (Ve2 m) c
  | ⟨3, _⟩ => fun c => dat3 (Ve3 m) c
  | ⟨4, _⟩ => fun c => dat4 (Ve4 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)

set_option backward.isDefEq.respectTransparency.types false in
/-- REGION 0 over the thread state: entered from every unscoped buffer at the contents before it, left with its output
    arrays at what its write-backs leave; its arrays split out of the unscoped buffers and put back; the generator
    register into the region's invariant and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ve0 m) c).loose
  hwaits := Pipeline.hwaits_of_owed_zero _ _ _ _ L lv 0 fun _ _ => rfl
  pre c := iprop(StableHlo.held (c : Thread nD τ) (Pipeline.ucRefs τ sig) (V9 m c) ∗ R c)
  post c := iprop(StableHlo.held (c : Thread nD τ) (Pipeline.ucRefs τ sig) (V10 m (outs m) c) ∗ R c)
  X c := iprop(∃ r, prngReg c r)
  Y c := iprop(∃ r, prngReg c r)
  Z c := Pipeline.unscopedRest (Ix := Unit) (Name := ℕ) (U := Pipeline.UD sig nD τ) (Lvl := ℕ) spec0 c (Ve0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Ve0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (Ve0 m c) (Vx0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at the contents before it, left with its output
    arrays at what its write-backs leave; its arrays split out of the unscoped buffers and put back; the generator
    register into the region's invariant and out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Ve1 m) c).loose
  hwaits := Pipeline.hwaits_of_owed_zero _ _ _ _ L lv 1 fun _ _ => rfl
  pre c := iprop(StableHlo.held (c : Thread nD τ) (Pipeline.ucRefs τ sig) (V11 m (outsA m) c) ∗ R c)
  post c := iprop(StableHlo.held (c : Thread nD τ) (Pipeline.ucRefs τ sig) (V12 m (outs m) c) ∗ R c)
  X c := iprop(∃ r, prngReg c r)
  Y c := iprop(∃ r, prngReg c r)
  Z c := Pipeline.unscopedRest (Ix := Unit) (Name := ℕ) (U := Pipeline.UD sig nD τ) (Lvl := ℕ) spec1 c (Ve1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Ve1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (Ve1 m) c).Φ 0 from rfl]
    iintro ⟨Hp, -, Hr⟩
    iapply (hin1 (Ve1 m) c)
    unfold Pipeline.ΦA
    isplitl [Hr]; · iexact Hr
    iexact Hp
  hout c := by
    rw [Pipeline.ownSems0_none, show (pdats m 1 c).Φ (Fin.last _) = (dat1 (Ve1 m) c).Φ (Fin.last cfg1.N) from rfl]
    iintro H
    ihave H' := (hout1 (Ve1 m) c) $$ H
    unfold Pipeline.ΦA
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (Ve1 m c) (Vx1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at the contents before it, left with its output
    arrays at what its write-backs leave; its arrays split out of the unscoped buffers and put back; the generator
    register into the region's invariant and out; nothing owed; no semaphore of the kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Ve2 m) c).loose
  hwaits := Pipeline.hwaits_of_owed_zero _ _ _ _ L lv 2 fun _ _ => rfl
  pre c := iprop(StableHlo.held (c : Thread nD τ) (Pipeline.ucRefs τ sig) (V13 m (outsB m) c) ∗ R c)
  post c := iprop(StableHlo.held (c : Thread nD τ) (Pipeline.ucRefs τ sig) (V14 m (outs m) c) ∗ R c)
  X c := iprop(∃ r, prngReg c r)
  Y c := iprop(∃ r, prngReg c r)
  Z c := Pipeline.unscopedRest (Ix := Unit) (Name := ℕ) (U := Pipeline.UD sig nD τ) (Lvl := ℕ) spec2 c (Ve2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Ve2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = (dat2 (Ve2 m) c).Φ 0 from rfl]
    iintro ⟨Hp, -, Hr⟩
    iapply (hin2 (Ve2 m) c)
    unfold Pipeline.ΦA
    isplitl [Hr]; · iexact Hr
    iexact Hp
  hout c := by
    rw [Pipeline.ownSems0_none, show (pdats m 2 c).Φ (Fin.last _) = (dat2 (Ve2 m) c).Φ (Fin.last cfg2.N) from rfl]
    iintro H
    ihave H' := (hout2 (Ve2 m) c) $$ H
    unfold Pipeline.ΦA
    icases H' with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m) ((pdats m 2 c).share_full fun _ => rfl)
      (Ve2 m c) (Vx2 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 over the thread state: entered from every unscoped buffer at the contents before it, left with its output
    arrays at what its write-backs leave; its arrays split out of the unscoped buffers and put back; the generator
    register into the region's invariant and out; nothing owed; no semaphore of the kernel's own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Ve3 m) c).loose
  hwaits := Pipeline.hwaits_of_owed_zero _ _ _ _ L lv 3 fun _ _ => rfl
  pre c := iprop(StableHlo.held (c : Thread nD τ) (Pipeline.ucRefs τ sig) (V15 m (outsC m) c) ∗ R c)
  post c := iprop(StableHlo.held (c : Thread nD τ) (Pipeline.ucRefs τ sig) (V16 m (outs m) c) ∗ R c)
  X c := iprop(∃ r, prngReg c r)
  Y c := iprop(∃ r, prngReg c r)
  Z c := Pipeline.unscopedRest (Ix := Unit) (Name := ℕ) (U := Pipeline.UD sig nD τ) (Lvl := ℕ) spec3 c (Ve3 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (Ve3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = (dat3 (Ve3 m) c).Φ 0 from rfl]
    iintro ⟨Hp, -, Hr⟩
    iapply (hin3 (Ve3 m) c)
    unfold Pipeline.ΦA
    isplitl [Hr]; · iexact Hr
    iexact Hp
  hout c := by
    rw [Pipeline.ownSems0_none, show (pdats m 3 c).Φ (Fin.last _) = (dat3 (Ve3 m) c).Φ (Fin.last cfg3.N) from rfl]
    iintro H
    ihave H' := (hout3 (Ve3 m) c) $$ H
    unfold Pipeline.ΦA
    icases H' with ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := Pipeline.UD sig nD τ) (Lvl := ℕ)
      launch3.win launch3.arr_whole c (pdats m) ((pdats m 3 c).share_full fun _ => rfl)
      (Ve3 m c) (Vx3 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 4 over the thread state: entered from every unscoped buffer at the contents before it, left with its output
    arrays at what its write-backs leave; its arrays split out of the unscoped buffers and put back; the generator
    register into the region's invariant and out; nothing owed; no semaphore of the kernel's own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (Ve4 m) c).loose
  hwaits := Pipeline.hwaits_of_owed_zero _ _ _ _ L lv 4 fun _ _ => rfl
  pre c := iprop(StableHlo.held (c : Thread nD τ) (Pipeline.ucRefs τ sig) (V17 m (outsD m) c) ∗ R c)
  post c := iprop(StableHlo.held (c : Thread nD τ) (Pipeline.ucRefs τ sig) (V18 m (outs m) c) ∗ R c)
  X c := iprop(∃ r, prngReg c r)
  Y c := iprop(∃ r, prngReg c r)
  Z c := Pipeline.unscopedRest (Ix := Unit) (Name := ℕ) (U := Pipeline.UD sig nD τ) (Lvl := ℕ) spec4 c (Ve4 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (Ve4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := Pipeline.UD sig nD τ) (Lvl := ℕ)
      launch4.win launch4.arr_whole c (pdats m) ((pdats m 4 c).share_full fun _ => rfl)
      (Ve4 m c) (Vx4 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

open Idealize.ShloMosaic.Pipeline (Seg HostSeg RegionSeg) in
set_option backward.isDefEq.respectTransparency.types false in
/-- The run with every unscoped buffer named at the end: given the five regions' segment records entered from and left
    at the generated valuations, every weakly fair execution of @main terminates and every final memory holds each
    unscoped buffer at the last valuation — in particular the result array at what region 4 leaves and each argument
    as launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 5) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 6 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE5 : ∀ c : Dev nD, E 5 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V9 m c) ∗ E 0 c) ⊢ R0.pre c)
    (hpost0 : ∀ c : Dev nD, R0.post c ⊢ iprop(StableHlo.held (c : Thread nD τ) (Pipeline.ucRefs τ sig) (V10 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V11 m outs c) ∗ E 1 c) ⊢ R1.pre c)
    (hpost1 : ∀ c : Dev nD, R1.post c ⊢ iprop(StableHlo.held (c : Thread nD τ) (Pipeline.ucRefs τ sig) (V12 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V13 m outs c) ∗ E 2 c) ⊢ R2.pre c)
    (hpost2 : ∀ c : Dev nD, R2.post c ⊢ iprop(StableHlo.held (c : Thread nD τ) (Pipeline.ucRefs τ sig) (V14 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V15 m outs c) ∗ E 3 c) ⊢ R3.pre c)
    (hpost3 : ∀ c : Dev nD, R3.post c ⊢ iprop(StableHlo.held (c : Thread nD τ) (Pipeline.ucRefs τ sig) (V16 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V17 m outs c) ∗ E 4 c) ⊢ R4.pre c)
    (hpost4 : ∀ c : Dev nD, R4.post c ⊢ iprop(StableHlo.held (c : Thread nD τ) (Pipeline.ucRefs τ sig) (V18 m outs c) ∗ E 5 c)) :
    θ_run defs (onTc (τ := τ) (main (F := F))) ⟨m, fun _ => 0, ρ⟩ (fun r => ∀ c : Dev nD,
      ∀ b ∈ Pipeline.ucRefs τ sig, r.2.mem ((c : Thread nD τ).1, b) = V18 m outs c b) := by
  refine Pipeline.θ_run_regions_kit_dev (pcfgs (F := F)) adm pdats ι cellOf_inj EP defs₀ 𝒱₀ L lv m ρ main
    (segs m outs 𝒱₀ L lv E ι pdats R0 R1 R2 R3 R4)
    (fun c Q => by
      rewrite [main_chain c, Seg.run_eq_chain,
        show (segs m outs 𝒱₀ L lv E ι pdats R0 R1 R2 R3 R4 c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V18 m outs c))
    (hch := fun c => ⟨.rfl, .rfl, .rfl, .rfl, .rfl, .rfl, .rfl, .rfl, .rfl, hpre0 c, hpost0 c, hpre1 c, hpost1 c, hpre2 c, hpost2 c, hpre3 c, hpost3 c, hpre4 c, (hpost4 c).trans (sep_mono .rfl (hE5 c))⟩)
    (hinit := ?_) (QY := fun c s => ∀ b ∈ Pipeline.ucRefs τ sig, s.mem ((c : Thread nD τ).1, b) = V18 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    ihave Hr := (pointsTo_read_all (Pipeline.ucRefs τ sig) (fun b => ((c : Thread nD τ).1, b)) (V18 m outs c) s') $$ [Hh HSI]
    · isplitl [Hh] <;> iassumption
    icases Hr with ⟨%h, HSI⟩
    imodintro
    isplitr
    · ipureintro; exact h
    · iexact HSI

/-! ## The frame and the run -/

set_option backward.isDefEq.respectTransparency.types false in
/-- THE FRAME: from any memory with zero counters every weakly fair execution of @main on the TensorCore terminates,
    nothing faulting, and every final state has the twenty argument arrays as launched. -/
theorem frame :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  frame_cond (F := F) m embL () 𝒱₀ L lv (fun _ _ => rfl) ρ (outs m) (pdats m) 0 (fun _ => iprop(emp))
    (initOf (Pipeline.cells cfgs cellOf_inj) (Pipeline.launchToks cfgs cellOf_inj), 1)
    (by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (fun _ c => R c)
    (Pipeline.initEach L lv fun c => by
      iintro ⟨⟨-, HO, -, Hp, -⟩, -⟩
      imodintro
      isplitl [Hp]; · iexists _; iexact Hp
      iexists ∅; iexact HO)
    (fun c => by iintro ⟨-, HO⟩; iexact HO)
    (reg0 m) (fun _ => .rfl) (fun _ => .rfl)
    (reg1 m) (fun c => by rw [V11_outs]; exact .rfl) (fun _ => .rfl)
    (reg2 m) (fun c => by rw [V13_outs]; exact .rfl) (fun _ => .rfl)
    (reg3 m) (fun c => by rw [V15_outs]; exact .rfl) (fun _ => .rfl)
    (reg4 m) (fun c => by rw [V17_outs]; exact .rfl) (fun _ => .rfl)

set_option backward.isDefEq.respectTransparency.types false in
/-- THE RUN WITH VALUES: the same executions end with every unscoped buffer at the last valuation, the result array
    among them at what region 4's write-backs leave. -/
theorem run_vals : θ_run defs (onTc (τ := τ) (main (F := F))) ⟨m, fun _ => 0, ρ⟩ (fun r => ∀ c : Dev nD,
      ∀ b ∈ Pipeline.ucRefs τ sig, r.2.mem ((c : Thread nD τ).1, b) = V18 m (outs m) c b) :=
  run_cond (F := F) m embL () 𝒱₀ L lv (fun _ _ => rfl) ρ (outs m) (pdats m) 0 (fun _ => iprop(emp))
    (initOf (Pipeline.cells cfgs cellOf_inj) (Pipeline.launchToks cfgs cellOf_inj), 1)
    (by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (fun _ c => R c)
    (Pipeline.initEach L lv fun c => by
      iintro ⟨⟨-, HO, -, Hp, -⟩, -⟩
      imodintro
      isplitl [Hp]; · iexists _; iexact Hp
      iexists ∅; iexact HO)
    (fun c => by iintro ⟨-, HO⟩; iexact HO)
    (reg0 m) (fun _ => .rfl) (fun _ => .rfl)
    (reg1 m) (fun c => by rw [V11_outs]; exact .rfl) (fun _ => .rfl)
    (reg2 m) (fun c => by rw [V13_outs]; exact .rfl) (fun _ => .rfl)
    (reg3 m) (fun c => by rw [V15_outs]; exact .rfl) (fun _ => .rfl)
    (reg4 m) (fun c => by rw [V17_outs]; exact .rfl) (fun _ => .rfl)

end Cert.Kernel.Hand

end
-- ==== Proof.KI.Reg0.lean ====
import proofs.«164503_j82721070121701_1_alg».proof.Proof.Gen.KernelIdeal.Launch
import proofs.«164503_j82721070121701_1_alg».proof.Proof.Gen.KernelIdeal.Skeleton
import proofs.«164503_j82721070121701_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the structural look recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # Region 0: the pointwise combine over row blocks, at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): where the window is
    not fetched its block index has not moved, and the buffer still holds the previous point's block, which is
    this point's; the window is uncut and never idle. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s (`hA`) and whose body leaves the block in place (`hafter`): where the window is
    not fetched its block index has not moved, and the buffer still holds the previous point's block, which is
    this point's; the window is uncut and never idle. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s (`hA`) and whose body leaves the block in place (`hafter`): where the window is
    not fetched its block index has not moved, and the buffer still holds the previous point's block, which is
    this point's; the window is uncut and never idle. -/
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s (`hA`) and whose body leaves the block in place (`hafter`): where the window is
    not fetched its block index has not moved, and the buffer still holds the previous point's block, which is
    this point's; the window is uncut and never idle. -/
theorem before0_3_of {c : Dev nD} (dat : Dat τ (Elt F) Unit ℕ (Pipeline.UD sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof
    data whose array is `V`'s (`hA`) and whose body leaves the block in place (`hafter`): where the window is
    not fetched its block index has not moved, and the buffer still holds the previous point's block, which is
    this point's; the window is uncut and never idle. -/
theorem before0_4_of {c : Dev nD} (dat : Dat τ (Elt F) Unit ℕ (Pipeline.UD sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not, for any proof
    data whose array is `V`'s (`hA`) and whose body leaves the block in place (`hafter`): where the window is
    not fetched its block index has not moved, and the buffer still holds the previous point's block, which is
    this point's; the window is uncut and never idle. -/
theorem before0_5_of {c : Dev nD} (dat : Dat τ (Elt F) Unit ℕ (Pipeline.UD sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole row block, and the whole coefficient table. -/
abbrev r0_0 : Rect S5000x128 := Rect.unit (s := S5000x128) ![0, 0] S5000x128.size inb_S5000x128_S5000x128_0_0
abbrev r0_1 : Rect S5x128 := Rect.unit (s := S5x128) ![0, 0] S5x128.size inb_S5x128_S5x128_0_0

/-! ## What the body leaves in the output window's buffer -/

/-- Window 6's staging buffer after the body, from the input windows' blocks: its one store, of the whole block. -/
def out0_6 (x0 x1 x2 x3 x4 : Vec F S5000x128 .f32) (x5 : Vec F S5x128 .f32) : Vec F S5000x128 .f32 :=
  View.canon [⟨r0_0, k0_pay1 (View.ld x5 r0_1) (View.ld x0 r0_0) (View.ld x1 r0_0) (View.ld x2 r0_0) (View.ld x3 r0_0) (View.ld x4 r0_0)⟩]

/-- The one store is of the whole buffer, so it covers it. -/
theorem cover0_6 (p0 : Vec F S5000x128 .f32) (y : S5000x128.Idx) :
    ∃ pc ∈ ([⟨r0_0, p0⟩] : List (View.Piece (Elt F) S5000x128 .f32)), y ∈ pc.1.set :=
  View.cover_of_tiled [⟨r0_0, p0⟩] S5000x128.size (by rfl) y

/-! ## The body's triple -/

set_option maxHeartbeats 1000000 in
/-- The kernel body on whole staging memrefs, the inputs' at read contents `xW` and the output's at anything, runs to
    the continuation holding the inputs' as they were and the output's at `out0_6` of the inputs'. -/
theorem sound_kernel0 (c : Dev nD) (E : Set ℕ) (i : grid0.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S5000x128 .f32) (harg4 : arg4.IsWhole) (arg5 : Memref sig .tc .vmem S5000x128 .f32) (harg5 : arg5.IsWhole) (arg6 : Memref sig .tc .vmem S5x128 .f32) (harg6 : arg6.IsWhole) (arg7 : Memref sig .tc .vmem S5000x128 .f32) (harg7 : arg7.IsWhole)
    (x0 x1 x2 x3 x4 : Vec F S5000x128 .f32) (x5 : Vec F S5x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5)) -∗ K ⟨⟩))
      ⊢ wp frame (wpE (defs₀ (F := F)) Variants.none c none) E (cc0__combine_kernel i arg1 harg1 arg2 harg2 arg3 harg3 arg4 harg4 arg5 harg5 arg6 harg6 arg7 harg7) K := by
  simp only [cc0__combine_kernel_eq_skeleton]; unfold cc0__combine_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The pipeline's proof data -/

/-- The proof data of region 0 on core `c`: the arrays as the region finds them (`V`); after the body at point `t`
    each input's buffer at its block and the output's at `out0_6` of the input blocks; the invariant is the scoped
    rest and the generator register, untouched; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so `sound_kernel0` applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
import proofs.«164503_j82721070121701_1_alg».proof.Proof.Gen.KernelIdeal.Launch
import proofs.«164503_j82721070121701_1_alg».proof.Proof.Gen.KernelIdeal.Skeleton
import proofs.«164503_j82721070121701_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # Region 1: the stage-A kernel (matrix product plus bias; two carried rows of column sums) -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (an unfetched
    window's index has not moved), for any proof data whose array is `V`'s and whose body leaves the block in place. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's first conditional (the reset of the two carried rows), from the grid coordinates. -/
abbrev cond1_0 (i : grid1.Coords) : Prop := (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val % 20 = 0 :=
  (by decide +kernel : ∀ t : Fin grid1.N, cond1_0 (grid1.coords t) ↔ t.val % 20 = 0)

/-- The condition of the body's second conditional (the store of the two rows into the statistics block). -/
abbrev cond1_1 (i : grid1.Coords) : Prop := k1_cond2 i = 1#1
/-- It holds at the last point only. -/
theorem hcond1_1 : ∀ t : Fin cfg1.N, cond1_1 (grid1.coords t) ↔ t.val % 20 = 19 :=
  (by decide +kernel : ∀ t : Fin grid1.N, cond1_1 (grid1.coords t) ↔ t.val % 20 = 19)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- The statistics block is idle at every point but the last: nothing is stored into it there, -/
theorem idleAt1_4 : ∀ t : Fin cfg1.N, ¬ t.val % 20 = 19 → cfg1.idle 4 (grid1.coords t) = true := by decide +kernel
/-- and it is not written back there; -/
theorem noFlush1_4 : ∀ t : Fin cfg1.N, ¬ t.val % 20 = 19 → (cfg1.win 4).flush t = false := by decide +kernel
/-- at the last point it is live. -/
theorem liveAt1_4 : ∀ t : Fin cfg1.N, t.val % 20 = 19 → cfg1.idle 4 (grid1.coords t) = false := by decide +kernel

/-! ## The memrefs the body is called with -/

abbrev ms1_0 (t : Fin cfg1.N) : Memref sig .tc .vmem S5000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S5000x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2x256 .f32 := win1_4.stage (cfg1.slots t 4)
abbrev hs1_4 (t : Fin cfg1.N) : (ms1_4 t).IsWhole := hstage1_4 ((cfg1.slots t 4).cast nbuf1_4)
/-- The two carried rows: whole scoped buffers of the kernel's own, passed beside the windows. -/
abbrev scM1_0 : Memref sig .tc .vmem S1x256 .f32 := Memref.whole cc1_scratch0
abbrev scM1_1 : Memref sig .tc .vmem S1x256 .f32 := Memref.whole cc1_scratch1

/-- The region's invariant with the two carried rows as memrefs owned at some contents, the other scoped buffers
    unopened, and the generator register at some state. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d))
          ∗ Pipeline.scopedRestBut (Ix := Unit) (Name := ℕ) (U := Pipeline.UD sig nD τ) (Lvl := ℕ) (Val := Elt F) spec1 c [cc1_scratch0, cc1_scratch1]) ∗ (∃ r, prngReg c r)) := by
  unfold Pipeline.ΦA; rw [scopedRest1_split]; simp only [scM1_0, scM1_1, owns_whole]; try rfl

/-! ## The body's accesses -/

abbrev r1_x : Rect S5000x128 := Rect.unit (s := S5000x128) ![0, 0] S5000x128.size inb_S5000x128_S5000x128_0_0
abbrev r1_w : Rect S128x256 := Rect.unit (s := S128x256) ![0, 0] S128x256.size inb_S128x256_S128x256_0_0
abbrev r1_b : Rect S1x256 := Rect.unit (s := S1x256) ![0, 0] S1x256.size inb_S1x256_S1x256_0_0
abbrev r1_h : Rect S5000x256 := Rect.unit (s := S5000x256) ![0, 0] S5000x256.size inb_S5000x256_S5000x256_0_0
abbrev r1_s0 : Rect S2x256 := Rect.unit (s := S2x256) ![0, 0] S1x256.size inb_S2x256_S1x256_0_0
abbrev r1_s1 : Rect S2x256 := Rect.unit (s := S2x256) ![1, 0] S1x256.size inb_S2x256_S1x256_1_0

/-! ## What the body leaves in each buffer it stores into -/

/-- The row-block output after the body: the product-plus-bias payload of the three input blocks, stored whole. -/
def hOut1 (x0 : Vec F S5000x128 .f32) (x1 : Vec F S128x256 .bf16) (x2 : Vec F S1x256 .f32) : Vec F S5000x256 .f32 :=
  View.canon [⟨r1_h, k1_pay3 (View.ld x0 r1_x) (View.ld x1 r1_w) (View.ld x2 r1_b)⟩]
/-- The first carried row (column sums) after the body, from what it held before. -/
def acc1_0 (x0 : Vec F S5000x128 .f32) (x1 : Vec F S128x256 .bf16) (x2 : Vec F S1x256 .f32) (s : Vec F S1x256 .f32) : Vec F S1x256 .f32 :=
  View.canon [⟨r1_b, k1_pay4 (View.ld x0 r1_x) (View.ld x1 r1_w) (View.ld x2 r1_b) (View.ld s r1_b)⟩]
/-- The second carried row (column sums of squares) after the body, from what it held before. -/
def acc1_1 (x0 : Vec F S5000x128 .f32) (x1 : Vec F S128x256 .bf16) (x2 : Vec F S1x256 .f32) (s : Vec F S1x256 .f32) : Vec F S1x256 .f32 :=
  View.canon [⟨r1_b, k1_pay5 (View.ld x0 r1_x) (View.ld x1 r1_w) (View.ld x2 r1_b) (View.ld s r1_b)⟩]
/-- The two carried rows as the first point's reset leaves them. -/
def reset1_0 : Vec F S1x256 .f32 := View.canon [⟨r1_b, k1_pay1 (F := F)⟩]
def reset1_1 : Vec F S1x256 .f32 := View.canon [⟨r1_b, k1_pay2 (F := F)⟩]
/-- The statistics block after the last point's two row stores (last first): row 0 the first carried row, row 1 the second. -/
def stats1 (s0 s1 : Vec F S1x256 .f32) : Vec F S2x256 .f32 :=
  View.canon [⟨r1_s1, View.ld s1 r1_b⟩, ⟨r1_s0, View.ld s0 r1_b⟩]

theorem cover1_h (p : Vec F S5000x256 .f32) (y : S5000x256.Idx) :
    ∃ pc ∈ ([⟨r1_h, p⟩] : List (View.Piece (Elt F) S5000x256 .f32)), y ∈ pc.1.set :=
  View.cover_of_tiled [⟨r1_h, p⟩] S5000x256.size (by rfl) y
theorem cover1_b (p : Vec F S1x256 .f32) (y : S1x256.Idx) :
    ∃ pc ∈ ([⟨r1_b, p⟩] : List (View.Piece (Elt F) S1x256 .f32)), y ∈ pc.1.set :=
  View.cover_of_tiled [⟨r1_b, p⟩] S1x256.size (by rfl) y
theorem cover1_s (p q : Vec F S1x256 .f32) (y : S2x256.Idx) :
    ∃ pc ∈ ([⟨r1_s1, q⟩, ⟨r1_s0, p⟩] : List (View.Piece (Elt F) S2x256 .f32)), y ∈ pc.1.set :=
  View.cover_of_tiledL [⟨r1_s1, q⟩, ⟨r1_s0, p⟩] S1x256.size (by sl_kernel_rfl) y

/-- Under a last write that fills the whole buffer, the earlier writes do not show. -/
theorem canon_cons_whole {s : Shape} {e : EltTy} (r : Rect s) (w : r.shape.Idx → Elt F e) (L : List (View.Piece (Elt F) s e))
    (hr : ∀ y : s.Idx, ∃ pc ∈ ([⟨r, w⟩] : List (View.Piece (Elt F) s e)), y ∈ pc.1.set) :
    View.canon (⟨r, w⟩ :: L) = View.canon [⟨r, w⟩] := by
  funext y
  obtain ⟨pc, hpc, hy⟩ := hr y
  rw [List.mem_singleton] at hpc; subst hpc
  obtain ⟨x, rfl⟩ : ∃ x, r.emb x = y := r.exists_idx_of_mem hy
  rw [View.canon_cons_emb, View.canon_cons_emb]

theorem cover1_bb (p q : Vec F S1x256 .f32) (y : S1x256.Idx) :
    ∃ pc ∈ ([⟨r1_b, p⟩, ⟨r1_b, q⟩] : List (View.Piece (Elt F) S1x256 .f32)), y ∈ pc.1.set := by
  obtain ⟨pc, hpc, hy⟩ := cover1_b p y
  exact ⟨pc, List.mem_cons.mpr (Or.inl (List.mem_singleton.mp hpc)), hy⟩

/-! ## The body's triple, case by case

On whole memrefs — the three inputs' at read contents, the row-block output's at anything, the two carried rows'
at what the point before left (at anything at the first point, which resets them), the statistics block's handed back
as it came except at the last point — the body runs to the continuation holding each buffer at its stated contents. -/

set_option maxHeartbeats 1000000 in
theorem sound_kernel1_A (c : Dev nD) (E : Set ℕ) (i : grid1.Coords) (arg1 : Memref sig .tc .vmem S5000x128 .f32) (harg1 : arg1.IsWhole) (arg2 : Memref sig .tc .vmem S128x256 .bf16) (harg2 : arg2.IsWhole) (arg3 : Memref sig .tc .vmem S1x256 .f32) (harg3 : arg3.IsWhole) (arg4 : Memref sig .tc .vmem S5000x256 .f32) (harg4 : arg4.IsWhole) (arg5 : Memref sig .tc .vmem S2x256 .f32) (harg5 : arg5.IsWhole) (arg6 : Memref sig .tc .vmem S1x256 .f32) (harg6 : arg6.IsWhole) (arg7 : Memref sig .tc .vmem S1x256 .f32) (harg7 : arg7.IsWhole)
    (hc0 : cond1_0 i) (hc1 : ¬cond1_1 i)
    (x0 : Vec F S5000x128 .f32) (x1 : Vec F S128x256 .bf16) (x2 : Vec F S1x256 .f32) (xi4 : Vec F S2x256 .f32)
    (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare xi4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (hOut1 x0 x1 x2) ∗ owns (c : Thread nD τ) arg5 fullShare xi4
            ∗ owns (c : Thread nD τ) arg6 fullShare (acc1_0 x0 x1 x2 reset1_0) ∗ owns (c : Thread nD τ) arg7 fullShare (acc1_1 x0 x1 x2 reset1_1)) -∗ K ⟨⟩))
      ⊢ wp frame (wpE (defs₀ (F := F)) Variants.none c none) E (cc1__stageA_kernel i arg1 harg1 arg2 harg2 arg3 harg3 arg4 harg4 arg5 harg5 arg6 harg6 arg7 harg7) K := by
  simp only [cc1__stageA_kernel_eq_skeleton]; unfold cc1__stageA_kernel_skel
  simp only [k1_part1_eq_skeleton]
  unfold owns
  iintro ⟨⟨%f0, %hf0, H0⟩, ⟨%f1, %hf1, H1⟩, ⟨%f2, %hf2, H2⟩, ⟨%d3, %f3, -, H3⟩, ⟨%f4, %hf4, H4⟩, ⟨%d5, %f5, -, H5⟩, ⟨%d6, %f6, -, H6⟩, Hk⟩
  subst hf0; subst hf1; subst hf2; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_h _)
  isplitl [H4]
  · iexists f4; isplitr; · ipureintro; rfl
    iexact H4
  isplitl [H5]
  · iexists _; isplitr
    swap; · iexact H5
    ipureintro
    sl_unfold_run_names
    unfold acc1_0 reset1_0
    rw [View.readCov_eq_canon_ld _ _ _ (cover1_b _)]
    exact (View.read_writes_eq_canon _ _ _ (cover1_bb _ _)).trans (canon_cons_whole _ _ _ (cover1_b _))
  iexists _; isplitr
  swap; · iexact H6
  ipureintro
  sl_unfold_run_names
  unfold acc1_1 reset1_1
  rw [View.readCov_eq_canon_ld _ _ _ (cover1_b _)]
  exact (View.read_writes_eq_canon _ _ _ (cover1_bb _ _)).trans (canon_cons_whole _ _ _ (cover1_b _))

set_option maxHeartbeats 1000000 in
theorem sound_kernel1_B (c : Dev nD) (E : Set ℕ) (i : grid1.Coords) (arg1 : Memref sig .tc .vmem S5000x128 .f32) (harg1 : arg1.IsWhole) (arg2 : Memref sig .tc .vmem S128x256 .bf16) (harg2 : arg2.IsWhole) (arg3 : Memref sig .tc .vmem S1x256 .f32) (harg3 : arg3.IsWhole) (arg4 : Memref sig .tc .vmem S5000x256 .f32) (harg4 : arg4.IsWhole) (arg5 : Memref sig .tc .vmem S2x256 .f32) (harg5 : arg5.IsWhole) (arg6 : Memref sig .tc .vmem S1x256 .f32) (harg6 : arg6.IsWhole) (arg7 : Memref sig .tc .vmem S1x256 .f32) (harg7 : arg7.IsWhole)
    (hc0 : ¬cond1_0 i) (hc1 : ¬cond1_1 i)
    (x0 : Vec F S5000x128 .f32) (x1 : Vec F S128x256 .bf16) (x2 : Vec F S1x256 .f32) (xi4 : Vec F S2x256 .f32)
    (s0 s1 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare xi4
        ∗ owns (c : Thread nD τ) arg6 fullShare s0 ∗ owns (c : Thread nD τ) arg7 fullShare s1
        ∗ (iprop(owns (c : Thread nD τ) arg1 fullShare x0 ∗ owns (c : Thread nD τ) arg2 fullShare x1 ∗ owns (c : Thread nD τ) arg3 fullShare x2
            ∗ owns (c : Thread nD τ) arg4 fullShare (hOut1 x0 x1 x2) ∗ owns (c : Thread nD τ) arg5 fullShare xi4
            ∗ owns (c : Thread nD τ) arg6 fullShare (acc1_0 x0 x1 x2 s0) ∗ owns (c : Thread nD τ) arg7 fullShare (acc1_1 x0 x1 x2 s1)) -∗ K ⟨⟩))
      ⊢ wp frame (wpE (defs₀ (F := F)) Variants.none c none) E (cc1__stageA_kernel i arg1 harg1 arg2 harg2 arg3 harg3 arg4 harg4 arg5 harg5 arg6 harg6 arg7 harg7) K := by
  simp only [cc1__stageA_kernel_eq_skeleton]; unfold cc1__stageA_kernel_skel
  simp only [k1_part1_eq_skeleton]
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%f6, %hf6, H6⟩, Hk⟩
  subst hf0; subst hf1; subst hf2; subst hf4; subst hf5; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_h _)
  isplitl [H4]
  · iexists f4; isplitr; · ipureintro; rfl
    iexact H4
  isplitl [H5]
  · iexists _; isplitr
    swap; · iexact H5
    ipureintro
    exact View.read_writes_eq_canon _ _ _ (cover1_b _)
  iexists _; isplitr
  swap; · iexact H6
  ipureintro
  exact View.read_writes_eq_canon _ _ _ (cover1_b _)

set_option maxHeartbeats 1000000 in
theorem sound_kernel1_C (c : Dev nD) (E : Set ℕ) (i : grid1.Coords) (arg1 : Memref sig .tc .vmem S5000x128 .f32) (harg1 : arg1.IsWhole) (arg2 : Memref sig .tc .vmem S128x256 .bf16) (harg2 : arg2.IsWhole) (arg3 : Memref sig .tc .vmem S1x256 .f32) (harg3 : arg3.IsWhole) (arg4 : Memref sig .tc .vmem S5000x256 .f32) (harg4 : arg4.IsWhole) (arg5 : Memref sig .tc .vmem S2x256 .f32) (harg5 : arg5.IsWhole) (arg6 : Memref sig .tc .vmem S1x256 .f32) (harg6 : arg6.IsWhole) (arg7 : Memref sig .tc .vmem S1x256 .f32) (harg7 : arg7.IsWhole)
    (hc0 : ¬cond1_0 i) (hc1 : cond1_1 i)
    (x0 : Vec F S5000x128 .f32) (x1 : Vec F S128x256 .bf16) (x2 : Vec F S1x256 .f32)
    (s0 s1 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ owns (c : Thread nD τ) arg6 fullShare s0 ∗ owns (c : Thread nD τ) arg7 fullShare s1
        ∗ (iprop(owns (c : Thread nD τ) arg1 fullShare x0 ∗ owns (c : Thread nD τ) arg2 fullShare x1 ∗ owns (c : Thread nD τ) arg3 fullShare x2
            ∗ owns (c : Thread nD τ) arg4 fullShare (hOut1 x0 x1 x2) ∗ owns (c : Thread nD τ) arg5 fullShare (stats1 (acc1_0 x0 x1 x2 s0) (acc1_1 x0 x1 x2 s1))
            ∗ owns (c : Thread nD τ) arg6 fullShare (acc1_0 x0 x1 x2 s0) ∗ owns (c : Thread nD τ) arg7 fullShare (acc1_1 x0 x1 x2 s1)) -∗ K ⟨⟩))
      ⊢ wp frame (wpE (defs₀ (F := F)) Variants.none c none) E (cc1__stageA_kernel i arg1 harg1 arg2 harg2 arg3 harg3 arg4 harg4 arg5 harg5 arg6 harg6 arg7 harg7) K := by
  simp only [cc1__stageA_kernel_eq_skeleton]; unfold cc1__stageA_kernel_skel
  simp only [k1_part1_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%f5, %hf5, H5⟩, ⟨%f6, %hf6, H6⟩, Hk⟩
  subst hf0; subst hf1; subst hf2; subst hf5; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_h _)
  isplitl [H4]
  · iexists _; isplitr
    swap; · iexact H4
    ipureintro
    sl_unfold_run_names
    unfold stats1 acc1_0 acc1_1
    rw [View.readCov_eq_canon_ld _ _ _ (cover1_b _), View.readCov_eq_canon_ld _ _ _ (cover1_b _)]
    exact View.read_writes_eq_canon _ _ _ (cover1_s _ _)
  isplitl [H5]
  · iexists _; isplitr
    swap; · iexact H5
    ipureintro
    exact View.read_writes_eq_canon _ _ _ (cover1_b _)
  iexists _; isplitr
  swap; · iexact H6
  ipureintro
  exact View.read_writes_eq_canon _ _ _ (cover1_b _)

/-! ## What the outputs and the two carried rows hold after each point -/

/-- One point's outcome from its three input blocks and the two rows as the point finds them: the row-block output,
    the statistics block (the two rows as this point leaves them, row 0 the first: what the last point stores; at
    the other points nothing consults it), and the two rows after the point. -/
def pt1 (x0 : Vec F S5000x128 .f32) (x1 : Vec F S128x256 .bf16) (x2 : Vec F S1x256 .f32) (s0 s1 : Vec F S1x256 .f32) :
    Vec F S5000x256 .f32 × Vec F S2x256 .f32 × Vec F S1x256 .f32 × Vec F S1x256 .f32 :=
  (hOut1 x0 x1 x2, stats1 (acc1_0 x0 x1 x2 s0) (acc1_1 x0 x1 x2 s1), acc1_0 x0 x1 x2 s0, acc1_1 x0 x1 x2 s1)

/-- THE ACCUMULATION. After the body at position `n`: the first point starts from the reset rows, every later
    point from the rows the point before left. -/
def outsAt1 (c : Dev nD) : (n : ℕ) → n < cfg1.N → Vec F S5000x256 .f32 × Vec F S2x256 .f32 × Vec F S1x256 .f32 × Vec F S1x256 .f32
  | 0, hn => pt1 (iblk1 V c 0 ⟨0, hn⟩) (iblk1 V c 1 ⟨0, hn⟩) (iblk1 V c 2 ⟨0, hn⟩) reset1_0 reset1_1
  | n + 1, hn => pt1 (iblk1 V c 0 ⟨n + 1, hn⟩) (iblk1 V c 1 ⟨n + 1, hn⟩) (iblk1 V c 2 ⟨n + 1, hn⟩)
      (outsAt1 c n (Nat.lt_of_succ_lt hn)).2.2.1 (outsAt1 c n (Nat.lt_of_succ_lt hn)).2.2.2

/-- `outsAt1` at the first point. -/
theorem outsAt1_zero (c : Dev nD) (t : Fin cfg1.N) (h : t.val = 0) :
    outsAt1 V c t.val t.isLt = pt1 (iblk1 V c 0 t) (iblk1 V c 1 t) (iblk1 V c 2 t) reset1_0 reset1_1 := by
  obtain ⟨n, hn⟩ := t
  cases n with
  | zero => rfl
  | succ n => exact absurd h (Nat.succ_ne_zero n)

/-- `outsAt1` at a later point: over what the point before left in the two rows. -/
theorem outsAt1_pos (c : Dev nD) (t : Fin cfg1.N) (h : ¬ t.val = 0) :
    outsAt1 V c t.val t.isLt = pt1 (iblk1 V c 0 t) (iblk1 V c 1 t) (iblk1 V c 2 t)
      (outsAt1 V c (t.val - 1) (Nat.lt_of_le_of_lt (Nat.sub_le _ _) t.isLt)).2.2.1
      (outsAt1 V c (t.val - 1) (Nat.lt_of_le_of_lt (Nat.sub_le _ _) t.isLt)).2.2.2 := by
  obtain ⟨n, hn⟩ := t
  cases n with
  | zero => exact absurd rfl h
  | succ n => rfl

/-- The same as a step from `n` to `n + 1`. -/
theorem outsAt1_succ (c : Dev nD) (n : ℕ) (hn : n + 1 < cfg1.N) :
    outsAt1 V c (n + 1) hn = pt1 (iblk1 V c 0 ⟨n + 1, hn⟩) (iblk1 V c 1 ⟨n + 1, hn⟩) (iblk1 V c 2 ⟨n + 1, hn⟩)
      (outsAt1 V c n (Nat.lt_of_succ_lt hn)).2.2.1 (outsAt1 V c n (Nat.lt_of_succ_lt hn)).2.2.2 := rfl

/-- The rest of the scoped buffers, the two carried rows apart. -/
abbrev rest1 (c : Dev nD) : sProp 𝕄 :=
  Pipeline.scopedRestBut (Ix := Unit) (Name := ℕ) (U := Pipeline.UD sig nD τ) (Lvl := ℕ) (Val := Elt F) spec1 c [cc1_scratch0, cc1_scratch1]

/-- The region's invariant before position `n`: before the first point the launch's (every scoped buffer at anything);
    afterwards the two carried rows at what the point before left in them, the other scoped buffers unopened, the
    generator register at some state. -/
def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2.2.1) ∗ owns (c : Thread nD τ) scM1_1 fullShare ((outsAt1 V c n hn).2.2.2)) ∗ rest1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare ((outsAt1 V c n hn).2.2.1) ∗ owns (c : Thread nD τ) scM1_1 fullShare ((outsAt1 V c n hn).2.2.2)) ∗ rest1 c) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2.2.1) ∗ owns (c : Thread nD τ) scM1_1 fullShare ((outsAt1 V c (n - 1) (by omega)).2.2.2)) ∗ rest1 c) ∗ (∃ r, prngReg c r)) := by
  cases n with
  | zero => exact absurd rfl hz
  | succ n => rfl

/-! ## The pipeline's proof data -/

/-- The proof data of this region on core `c`: the arrays as the region finds them (`V`); after the body at point
    `t` each input's buffer at its block, the outputs' at `outsAt1`'s components; the invariant `PhiS1`; nothing owed;
    full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
    | ⟨4, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem after1_4 (c : Dev nD) (t : Fin cfg1.N) : (dat1 V c).after 4 t = (outsAt1 V c t.val t.isLt).2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: the inputs' memrefs hold their blocks; the point is the first, a middle one or the last,
    which decides the two conditionals, so that case's triple applies; the invariant hands the body the two carried
    rows (at anything at the first point, afterwards at what the point before left) and takes them back at this
    point's contents; at every point but the last the statistics block goes back as it came. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 20 := lt_of_lt_of_eq t.isLt (show cfg1.N = 20 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h0 : t.val = 0
  · have h19 : ¬ t.val % 20 = 19 := by omega
    rw [Dat.leavesExact_idle (dat1 V c) 4 t (idleAt1_4 t h19) (noFlush1_4 t h19)]
    rw [outsAt1_zero V c t h0]
    unfold pt1; dsimp only
    rw [PhiS1_castSucc V c t, PhiS1_zero V c _ _ h0, PhiA1_eq]
    iintro ⟨⟨⟨⟨HS0, HS1⟩, Hrest⟩, Hg⟩, Ho, ⟨%d0, H0⟩, ⟨%d1, H1⟩, ⟨%d2, H2⟩, ⟨%d3, H3⟩, ⟨%d4, H4⟩⟩
    iapply (sound_kernel1_A c Set.univ (grid1.coords t) _ _ _ _ _ _ _ _ _ _ _ _ _ _ ((hcond1_0 t).mpr (by omega)) (fun h => h19 ((hcond1_1 t).mp h)) (iblk1 V c 0 t) (iblk1 V c 1 t) (iblk1 V c 2 t) _ _)
    isplitl [H0]; · iexact H0
    isplitl [H1]; · iexact H1
    isplitl [H2]; · iexact H2
    isplitl [H3]; · iexists _; iexact H3
    isplitl [H4]; · iexact H4
    isplitl [HS0]; · iexact HS0
    isplitl [HS1]; · iexact HS1
    iintro ⟨H0, H1, H2, H3, H4, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    iexists _; iexact H4
  · by_cases h19 : t.val % 20 = 19
    · rw [show (dat1 V c).leavesExact 4 t = owns (c : Thread nD τ) (ms1_4 t) fullShare ((dat1 V c).after 4 t) from by
        unfold Dat.leavesExact; rw [liveAt1_4 t h19], after1_4]
      rw [outsAt1_pos V c t h0]
      unfold pt1; dsimp only
      rw [PhiS1_castSucc V c t, PhiS1_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply (sound_kernel1_C c Set.univ (grid1.coords t) _ _ _ _ _ _ _ _ _ _ _ _ _ _ (fun h => h0 (by have := (hcond1_0 t).mp h; omega)) ((hcond1_1 t).mpr h19) (iblk1 V c 0 t) (iblk1 V c 1 t) (iblk1 V c 2 t) _ _ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, H3, H4, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      iexact H4
    · rw [Dat.leavesExact_idle (dat1 V c) 4 t (idleAt1_4 t h19) (noFlush1_4 t h19)]
      rw [outsAt1_pos V c t h0]
      unfold pt1; dsimp only
      rw [PhiS1_castSucc V c t, PhiS1_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply (sound_kernel1_B c Set.univ (grid1.coords t) _ _ _ _ _ _ _ _ _ _ _ _ _ _ (fun h => h0 (by have := (hcond1_0 t).mp h; omega)) (fun h => h19 ((hcond1_1 t).mp h)) (iblk1 V c 0 t) (iblk1 V c 1 t) (iblk1 V c 2 t) _ _ _ _)
      isplitl [H0]; · iexact H0
      isplitl [H1]; · iexact H1
      isplitl [H2]; · iexact H2
      isplitl [H3]; · iexists _; iexact H3
      isplitl [H4]; · iexact H4
      isplitl [HS0]; · iexact HS0
      isplitl [HS1]; · iexact HS1
      iintro ⟨H0, H1, H2, H3, H4, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's back: the rows' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1⟩, Hrest⟩, Hg⟩
  isplitl [HS0 HS1 Hrest]
  · isplitl [HS0 HS1]
    · isplitl [HS0]; · iexists _; iexact HS0
      iexists _; iexact HS1
    iexact Hrest
  iexact Hg

/-- The same after the last point. -/
theorem hout1 (c : Dev nD) : (dat1 V c).Φ (Fin.last cfg1.N) ⊢ Pipeline.ΦA spec1 c :=
  Phi_out1 V c _ (by rw [Fin.val_last]; have : cfg1.N = 20 := N_1; omega)

end Cert.KernelIdeal.Hand

end
-- ==== Proof.KI.Reg2.lean ====
import proofs.«164503_j82721070121701_1_alg».proof.Proof.Gen.KernelIdeal.Launch
import proofs.«164503_j82721070121701_1_alg».proof.Proof.Gen.KernelIdeal.Skeleton
import proofs.«164503_j82721070121701_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

-- the buffer contents when the region is entered: the parameter the region's half is stated at
variable (V : (c : Dev nD) → (b : Ref sig .tc) → Buf (Elt F) ((c : Thread nD τ).loc b))

/-! # REGION 2 of @main: custom_call 2, `cc2__stageB_kernel` (pipeline 2), at the entry contents `V`

The body normalises the row block of the first layer's pre-activation, applies relu, multiplies by the second
layer's weight and adds its bias; it stores that block, and adds the block's column sums and the column sums of its
squares into two scratch rows that it zeroes at the first point and copies into the 2-row output at the last. -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s and whose body leaves the block in place. -/
theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s and whose body leaves the block in place. -/
theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s and whose body leaves the block in place. -/
theorem before2_2_of {c : Dev nD} (dat : Dat τ (Elt F) Unit ℕ (Pipeline.UD sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof
    data whose array is `V`'s and whose body leaves the block in place. -/
theorem before2_3_of {c : Dev nD} (dat : Dat τ (Elt F) Unit ℕ (Pipeline.UD sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof
    data whose array is `V`'s and whose body leaves the block in place. -/
theorem before2_4_of {c : Dev nD} (dat : Dat τ (Elt F) Unit ℕ (Pipeline.UD sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not, for any proof
    data whose array is `V`'s and whose body leaves the block in place. -/
theorem before2_5_of {c : Dev nD} (dat : Dat τ (Elt F) Unit ℕ (Pipeline.UD sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, fetched there or not, for any proof
    data whose array is `V`'s and whose body leaves the block in place. -/
theorem before2_6_of {c : Dev nD} (dat : Dat τ (Elt F) Unit ℕ (Pipeline.UD sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions -/

/-- The condition of the body's first `scf.if` (the reset of the two scratch rows), from the grid coordinates. -/
abbrev cond2_0 (i : grid2.Coords) : Prop := (Scalar.cmpi .ne (Scalar.extui (Scalar.cmpi .eq (BitVec.ofNat 32 (i 0).val) 0#32)) 0#32) = 1#1
/-- It holds at the first point only — decided over the grid. -/
theorem hcond2_0 : ∀ t : Fin cfg2.N, cond2_0 (grid2.coords t) ↔ t.val % 20 = 0 :=
  (by decide +kernel : ∀ t : Fin grid2.N, cond2_0 (grid2.coords t) ↔ t.val % 20 = 0)

/-- The condition of the body's second `scf.if` (the copy of the scratch rows into the 2-row output). -/
abbrev cond2_1 (i : grid2.Coords) : Prop := k2_cond2 i = 1#1
/-- It holds at the last point only — decided over the grid. -/
theorem hcond2_1 : ∀ t : Fin cfg2.N, cond2_1 (grid2.coords t) ↔ t.val % 20 = 19 :=
  (by decide +kernel : ∀ t : Fin grid2.N, cond2_1 (grid2.coords t) ↔ t.val % 20 = 19)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel
theorem liveAt2_6 : ∀ t : Fin cfg2.N, cfg2.idle 6 (grid2.coords t) = false := by decide +kernel
theorem liveAt2_7 : ∀ t : Fin cfg2.N, cfg2.idle 7 (grid2.coords t) = false := by decide +kernel
/-- Away from the last point the 2-row output is idle (nothing is stored into it) and is not written back. -/
theorem idleAt2_8 : ∀ t : Fin cfg2.N, ¬cond2_1 (grid2.coords t) → cfg2.idle 8 (grid2.coords t) = true := by decide +kernel
theorem noFlush2_8 : ∀ t : Fin cfg2.N, ¬cond2_1 (grid2.coords t) → (cfg2.win 8).flush t = false := by decide +kernel
/-- At the last point it is live. -/
theorem liveAt2_8 : ∀ t : Fin cfg2.N, cond2_1 (grid2.coords t) → cfg2.idle 8 (grid2.coords t) = false := by decide +kernel

/-! ## The staging and scratch memrefs -/

abbrev ms2_0 (t : Fin cfg2.N) : Memref sig .tc .vmem S5000x256 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x256 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x256 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x256 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x256 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S256x128 .bf16 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x128 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S5000x128 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S2x128 .f32 := win2_8.stage (cfg2.slots t 8)
abbrev hs2_8 (t : Fin cfg2.N) : (ms2_8 t).IsWhole := hstage2_8 ((cfg2.slots t 8).cast nbuf2_8)
/-- The two scratch rows the kernel carries between points: whole scoped buffers of its own. -/
abbrev scM2_0 : Memref sig .tc .vmem S1x128 .f32 := Memref.whole cc2_scratch0
abbrev scM2_1 : Memref sig .tc .vmem S1x128 .f32 := Memref.whole cc2_scratch1

/-- The region's invariant with the two scratch rows as memrefs owned at some contents, the other scoped buffers
    unopened, the generator register at some state. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := Pipeline.UD sig nD τ) (Lvl := ℕ) (Val := Elt F) spec2 c [cc2_scratch0, cc2_scratch1])
          ∗ (∃ r, prngReg c r)) := by
  unfold Pipeline.ΦA; rw [scopedRest2_split]; simp only [scM2_0, scM2_1, owns_whole]; try rfl

/-! ## The body's accesses and what it leaves -/

abbrev r2_in : Rect S5000x256 := Rect.unit (s := S5000x256) ![0, 0] S5000x256.size inb_S5000x256_S5000x256_0_0
abbrev r2_row256 : Rect S1x256 := Rect.unit (s := S1x256) ![0, 0] S1x256.size inb_S1x256_S1x256_0_0
abbrev r2_wt : Rect S256x128 := Rect.unit (s := S256x128) ![0, 0] S256x128.size inb_S256x128_S256x128_0_0
abbrev r2_row128 : Rect S1x128 := Rect.unit (s := S1x128) ![0, 0] S1x128.size inb_S1x128_S1x128_0_0
abbrev r2_out : Rect S5000x128 := Rect.unit (s := S5000x128) ![0, 0] S5000x128.size inb_S5000x128_S5000x128_0_0
abbrev r2_st0 : Rect S2x128 := Rect.unit (s := S2x128) ![0, 0] S1x128.size inb_S2x128_S1x128_0_0
abbrev r2_st1 : Rect S2x128 := Rect.unit (s := S2x128) ![1, 0] S1x128.size inb_S2x128_S1x128_1_0

/-- The block of the second layer's pre-activation, from the input windows' blocks (row block, mean, variance, gain,
    bias, weight, bias row). -/
def blk2 (x0 : Vec F S5000x256 .f32) (x1 x2 x3 x4 : Vec F S1x256 .f32) (x5 : Vec F S256x128 .bf16) (x6 : Vec F S1x128 .f32) : FVec F S5000x128 .f32 :=
  k2_pay5 (View.ld x0 r2_in) (View.ld x2 r2_row256) (View.ld x3 r2_row256) (View.ld x1 r2_row256) (View.ld x4 r2_row256) (View.ld x5 r2_wt) (View.ld x6 r2_row128)

/-- The row-block output's staging buffer after the body: its one store. -/
def out2_7 (x0 : Vec F S5000x256 .f32) (x1 x2 x3 x4 : Vec F S1x256 .f32) (x5 : Vec F S256x128 .bf16) (x6 : Vec F S1x128 .f32) : Vec F S5000x128 .f32 :=
  View.canon [⟨r2_out, blk2 x0 x1 x2 x3 x4 x5 x6⟩]

/-- The first scratch row after the body, over what it held (`s`): the block's column sums added. -/
def sc2_0 (x0 : Vec F S5000x256 .f32) (x1 x2 x3 x4 : Vec F S1x256 .f32) (x5 : Vec F S256x128 .bf16) (x6 : Vec F S1x128 .f32) (s : Vec F S1x128 .f32) : Vec F S1x128 .f32 :=
  View.canon [⟨r2_row128, k2_pay1 (blk2 x0 x1 x2 x3 x4 x5 x6) (View.ld s r2_row128)⟩]

/-- The second scratch row after the body, over what it held: the column sums of the block's squares added. -/
def sc2_1 (x0 : Vec F S5000x256 .f32) (x1 x2 x3 x4 : Vec F S1x256 .f32) (x5 : Vec F S256x128 .bf16) (x6 : Vec F S1x128 .f32) (s : Vec F S1x128 .f32) : Vec F S1x128 .f32 :=
  View.canon [⟨r2_row128, k2_pay2 (blk2 x0 x1 x2 x3 x4 x5 x6) (View.ld s r2_row128)⟩]

/-- The scratch rows after the first point's reset. -/
def zero2_0 : Vec F S1x128 .f32 := View.canon [⟨r2_row128, k2_pay3 (F := F)⟩]
def zero2_1 : Vec F S1x128 .f32 := View.canon [⟨r2_row128, k2_pay4 (F := F)⟩]

/-- The 2-row output's staging buffer after the last point's two row stores: row 0 the first scratch row, row 1 the second. -/
def out2_8 (s0 s1 : Vec F S1x128 .f32) : Vec F S2x128 .f32 :=
  View.canon [⟨r2_st1, View.ld s1 r2_row128⟩, ⟨r2_st0, View.ld s0 r2_row128⟩]

theorem cover2_out (p0 : r2_out.shape.Idx → Elt F .f32) (y : S5000x128.Idx) :
    ∃ pc ∈ ([⟨r2_out, p0⟩] : List (View.Piece (Elt F) S5000x128 .f32)), y ∈ pc.1.set :=
  View.cover_of_tiled [⟨r2_out, p0⟩] S5000x128.size (by rfl) y

theorem cover2_row (p0 : r2_row128.shape.Idx → Elt F .f32) (y : S1x128.Idx) :
    ∃ pc ∈ ([⟨r2_row128, p0⟩] : List (View.Piece (Elt F) S1x128 .f32)), y ∈ pc.1.set :=
  View.cover_of_tiled [⟨r2_row128, p0⟩] S1x128.size (by rfl) y

theorem cover2_st (p0 : r2_st0.shape.Idx → Elt F .f32) (p1 : r2_st1.shape.Idx → Elt F .f32) (y : S2x128.Idx) :
    ∃ pc ∈ ([⟨r2_st1, p1⟩, ⟨r2_st0, p0⟩] : List (View.Piece (Elt F) S2x128 .f32)), y ∈ pc.1.set :=
  View.cover_of_tiled [⟨r2_st1, p1⟩, ⟨r2_st0, p0⟩] S1x128.size (by rfl) y

/-! ## The body's triples, one per control case -/

set_option maxHeartbeats 1000000 in
/-- The kernel body on whole memrefs at the first point (the reset branch taken, the copy branch not): the scratch rows, found at anything, are zeroed first; the inputs' buffers at read contents `xW` come back as they were,
    the row-block output's at its one store. -/
theorem sound_kernel2_A (c : Dev nD) (E : Set ℕ) (i : grid2.Coords) (arg1 : Memref sig .tc .vmem S5000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x128 .bf16) (harg6 : arg6.IsWhole) (arg7 : Memref sig .tc .vmem S1x128 .f32) (harg7 : arg7.IsWhole) (arg8 : Memref sig .tc .vmem S5000x128 .f32) (harg8 : arg8.IsWhole) (arg9 : Memref sig .tc .vmem S2x128 .f32) (harg9 : arg9.IsWhole) (arg10 : Memref sig .tc .vmem S1x128 .f32) (harg10 : arg10.IsWhole) (arg11 : Memref sig .tc .vmem S1x128 .f32) (harg11 : arg11.IsWhole)
    (hc0 : cond2_0 i) (hc1 : ¬cond2_1 i) (x0 : Vec F S5000x256 .f32) (x1 x2 x3 x4 : Vec F S1x256 .f32) (x5 : Vec F S256x128 .bf16) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out2_7 x0 x1 x2 x3 x4 x5 x6) ∗ owns (c : Thread nD τ) arg10 fullShare (sc2_0 x0 x1 x2 x3 x4 x5 x6 (zero2_0 (F := F))) ∗ owns (c : Thread nD τ) arg11 fullShare (sc2_1 x0 x1 x2 x3 x4 x5 x6 (zero2_1 (F := F)))) -∗ K ⟨⟩))
      ⊢ wp frame (wpE (defs₀ (F := F)) Variants.none c none) E (cc2__stageB_kernel i arg1 harg1 arg2 harg2 arg3 harg3 arg4 harg4 arg5 harg5 arg6 harg6 arg7 harg7 arg8 harg8 arg9 harg9 arg10 harg10 arg11 harg11) K := by
  simp only [cc2__stageB_kernel_eq_skeleton]; unfold cc2__stageB_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, Hk⟩
  subst hf0 hf1 hf2 hf3 hf4 hf5 hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr; swap; · iexact H7
    ipureintro; exact View.read_writes_eq_canon _ _ _ (cover2_out _)
  isplitl [HS0]
  · iexists _; isplitr; swap; · iexact HS0
    ipureintro
    sl_unfold_run_names
    rw [View.writes_cons_drop _ _ _ _ _ _ (fun y hy => hy), View.readCov_eq_canon_ld _ _ _ (cover2_row _)]
    exact View.read_writes_eq_canon _ _ _ (cover2_row _)
  iexists _; isplitr; swap; · iexact HS1
  ipureintro
  sl_unfold_run_names
  rw [View.writes_cons_drop _ _ _ _ _ _ (fun y hy => hy), View.readCov_eq_canon_ld _ _ _ (cover2_row _)]
  exact View.read_writes_eq_canon _ _ _ (cover2_row _)

set_option maxHeartbeats 1000000 in
/-- The kernel body on whole memrefs at a middle point (neither branch taken): the scratch rows, found at `xs0`, `xs1`, are accumulated into; the inputs' buffers at read contents `xW` come back as they were,
    the row-block output's at its one store. -/
theorem sound_kernel2_B (c : Dev nD) (E : Set ℕ) (i : grid2.Coords) (arg1 : Memref sig .tc .vmem S5000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x128 .bf16) (harg6 : arg6.IsWhole) (arg7 : Memref sig .tc .vmem S1x128 .f32) (harg7 : arg7.IsWhole) (arg8 : Memref sig .tc .vmem S5000x128 .f32) (harg8 : arg8.IsWhole) (arg9 : Memref sig .tc .vmem S2x128 .f32) (harg9 : arg9.IsWhole) (arg10 : Memref sig .tc .vmem S1x128 .f32) (harg10 : arg10.IsWhole) (arg11 : Memref sig .tc .vmem S1x128 .f32) (harg11 : arg11.IsWhole)
    (hc0 : ¬cond2_0 i) (hc1 : ¬cond2_1 i) (x0 : Vec F S5000x256 .f32) (x1 x2 x3 x4 : Vec F S1x256 .f32) (x5 : Vec F S256x128 .bf16) (x6 : Vec F S1x128 .f32) (xs0 xs1 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ owns (c : Thread nD τ) arg10 fullShare xs0 ∗ owns (c : Thread nD τ) arg11 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out2_7 x0 x1 x2 x3 x4 x5 x6) ∗ owns (c : Thread nD τ) arg10 fullShare (sc2_0 x0 x1 x2 x3 x4 x5 x6 xs0) ∗ owns (c : Thread nD τ) arg11 fullShare (sc2_1 x0 x1 x2 x3 x4 x5 x6 xs1)) -∗ K ⟨⟩))
      ⊢ wp frame (wpE (defs₀ (F := F)) Variants.none c none) E (cc2__stageB_kernel i arg1 harg1 arg2 harg2 arg3 harg3 arg4 harg4 arg5 harg5 arg6 harg6 arg7 harg7 arg8 harg8 arg9 harg9 arg10 harg10 arg11 harg11) K := by
  simp only [cc2__stageB_kernel_eq_skeleton]; unfold cc2__stageB_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, Hk⟩
  subst hf0 hf1 hf2 hf3 hf4 hf5 hf6 hfs0 hfs1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr; swap; · iexact H7
    ipureintro; exact View.read_writes_eq_canon _ _ _ (cover2_out _)
  isplitl [HS0]
  · iexists _; isplitr; swap; · iexact HS0
    ipureintro; exact View.read_writes_eq_canon _ _ _ (cover2_row _)
  iexists _; isplitr; swap; · iexact HS1
  ipureintro; exact View.read_writes_eq_canon _ _ _ (cover2_row _)

set_option maxHeartbeats 1000000 in
/-- The kernel body on whole memrefs at the last point (the reset branch not taken, the copy branch taken): the scratch rows, found at `xs0`, `xs1`, are accumulated into and then copied into the 2-row output's rows; the inputs' buffers at read contents `xW` come back as they were,
    the row-block output's at its one store. -/
theorem sound_kernel2_C (c : Dev nD) (E : Set ℕ) (i : grid2.Coords) (arg1 : Memref sig .tc .vmem S5000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x128 .bf16) (harg6 : arg6.IsWhole) (arg7 : Memref sig .tc .vmem S1x128 .f32) (harg7 : arg7.IsWhole) (arg8 : Memref sig .tc .vmem S5000x128 .f32) (harg8 : arg8.IsWhole) (arg9 : Memref sig .tc .vmem S2x128 .f32) (harg9 : arg9.IsWhole) (arg10 : Memref sig .tc .vmem S1x128 .f32) (harg10 : arg10.IsWhole) (arg11 : Memref sig .tc .vmem S1x128 .f32) (harg11 : arg11.IsWhole)
    (hc0 : ¬cond2_0 i) (hc1 : cond2_1 i) (x0 : Vec F S5000x256 .f32) (x1 x2 x3 x4 : Vec F S1x256 .f32) (x5 : Vec F S256x128 .bf16) (x6 : Vec F S1x128 .f32) (xs0 xs1 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ owns (c : Thread nD τ) arg10 fullShare xs0 ∗ owns (c : Thread nD τ) arg11 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out2_7 x0 x1 x2 x3 x4 x5 x6) ∗ owns (c : Thread nD τ) arg9 fullShare (out2_8 (sc2_0 x0 x1 x2 x3 x4 x5 x6 xs0) (sc2_1 x0 x1 x2 x3 x4 x5 x6 xs1)) ∗ owns (c : Thread nD τ) arg10 fullShare (sc2_0 x0 x1 x2 x3 x4 x5 x6 xs0) ∗ owns (c : Thread nD τ) arg11 fullShare (sc2_1 x0 x1 x2 x3 x4 x5 x6 xs1)) -∗ K ⟨⟩))
      ⊢ wp frame (wpE (defs₀ (F := F)) Variants.none c none) E (cc2__stageB_kernel i arg1 harg1 arg2 harg2 arg3 harg3 arg4 harg4 arg5 harg5 arg6 harg6 arg7 harg7 arg8 harg8 arg9 harg9 arg10 harg10 arg11 harg11) K := by
  simp only [cc2__stageB_kernel_eq_skeleton]; unfold cc2__stageB_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs0, %hfs0, HS0⟩, ⟨%fs1, %hfs1, HS1⟩, Hk⟩
  subst hf0 hf1 hf2 hf3 hf4 hf5 hf6 hfs0 hfs1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr; swap; · iexact H7
    ipureintro; exact View.read_writes_eq_canon _ _ _ (cover2_out _)
  isplitl [H8]
  · iexists _; isplitr; swap; · iexact H8
    ipureintro
    sl_unfold_run_names
    rw [View.readCov_eq_canon_ld _ _ _ (cover2_row _), View.readCov_eq_canon_ld _ _ _ (cover2_row _)]
    exact View.read_writes_eq_canon _ _ _ (cover2_st _ _)
  isplitl [HS0]
  · iexists _; isplitr; swap; · iexact HS0
    ipureintro; exact View.read_writes_eq_canon _ _ _ (cover2_row _)
  iexists _; isplitr; swap; · iexact HS1
  ipureintro; exact View.read_writes_eq_canon _ _ _ (cover2_row _)

/-! ## What the outputs and the carried scratch hold after each point -/

/-- One point's effect: from the input blocks and the two scratch rows as the point finds them (`s`), the row-block
    output's buffer, the 2-row output's buffer as the last point's copy leaves it (consulted at the last point only:
    elsewhere the window is idle), and the two scratch rows. -/
def step2 (x0 : Vec F S5000x256 .f32) (x1 x2 x3 x4 : Vec F S1x256 .f32) (x5 : Vec F S256x128 .bf16) (x6 : Vec F S1x128 .f32) (s : Vec F S1x128 .f32 × Vec F S1x128 .f32) : Vec F S5000x128 .f32 × Vec F S2x128 .f32 × Vec F S1x128 .f32 × Vec F S1x128 .f32 :=
  (out2_7 x0 x1 x2 x3 x4 x5 x6, out2_8 (sc2_0 x0 x1 x2 x3 x4 x5 x6 s.1) (sc2_1 x0 x1 x2 x3 x4 x5 x6 s.2), sc2_0 x0 x1 x2 x3 x4 x5 x6 s.1, sc2_1 x0 x1 x2 x3 x4 x5 x6 s.2)

/-- THE ACCUMULATION. What the two outputs' staging buffers and the two carried scratch rows hold after the body at
    position `n`: the point's step from its input blocks, over the scratch rows the point before left (the zeroed
    rows at the first point). -/
def outsAt2 (c : Dev nD) : (n : ℕ) → n < cfg2.N → Vec F S5000x128 .f32 × Vec F S2x128 .f32 × Vec F S1x128 .f32 × Vec F S1x128 .f32
  | 0, hn => step2 (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (zero2_0, zero2_1)
  | n + 1, hn => step2 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩)
      ((outsAt2 c n (Nat.lt_of_succ_lt hn)).2.2.1, (outsAt2 c n (Nat.lt_of_succ_lt hn)).2.2.2)

/-- `outsAt2` at the first point. -/
theorem outsAt2_zero (c : Dev nD) (hn : 0 < cfg2.N) :
    outsAt2 V c 0 hn = step2 (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (zero2_0, zero2_1) := rfl

/-- `outsAt2` at a later point, over what the point before left. -/
theorem outsAt2_succ (c : Dev nD) (n : ℕ) (hn : n + 1 < cfg2.N) :
    outsAt2 V c (n + 1) hn = step2 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩)
      ((outsAt2 V c n (Nat.lt_of_succ_lt hn)).2.2.1, (outsAt2 V c n (Nat.lt_of_succ_lt hn)).2.2.2) := rfl

/-- The same at a point `t`: the first, -/
theorem outsAt2_first (c : Dev nD) (t : Fin cfg2.N) (h0 : t.val = 0) :
    outsAt2 V c t.val t.isLt = step2 (iblk2 V c 0 t) (iblk2 V c 1 t) (iblk2 V c 2 t) (iblk2 V c 3 t) (iblk2 V c 4 t) (iblk2 V c 5 t) (iblk2 V c 6 t) (zero2_0, zero2_1) := by
  obtain ⟨n, hn⟩ := t
  cases n with
  | zero => rfl
  | succ n => exact absurd h0 (Nat.succ_ne_zero n)

/-- or a later one. -/
theorem outsAt2_later (c : Dev nD) (t : Fin cfg2.N) (h0 : t.val ≠ 0) :
    outsAt2 V c t.val t.isLt = step2 (iblk2 V c 0 t) (iblk2 V c 1 t) (iblk2 V c 2 t) (iblk2 V c 3 t) (iblk2 V c 4 t) (iblk2 V c 5 t) (iblk2 V c 6 t)
      ((outsAt2 V c (t.val - 1) (Nat.lt_of_le_of_lt (Nat.sub_le _ _) t.isLt)).2.2.1,
       (outsAt2 V c (t.val - 1) (Nat.lt_of_le_of_lt (Nat.sub_le _ _) t.isLt)).2.2.2) := by
  obtain ⟨n, hn⟩ := t
  cases n with
  | zero => exact absurd rfl h0
  | succ n => rfl

/-! ## The invariant with the carried scratch -/

/-- The region invariant before position `n`: before the first point the launch's (every scoped buffer at anything);
    afterwards the two scratch rows at what the point before left in them, the other scoped buffers unopened, the
    generator register at some state. -/
def PhiS2 (c : Dev nD) : (n : ℕ) → n ≤ cfg2.N → sProp 𝕄
  | 0, _ => Pipeline.ΦA spec2 c
  | n + 1, hn => iprop(iprop(iprop(owns (c : Thread nD τ) scM2_0 fullShare ((outsAt2 V c n hn).2.2.1) ∗ owns (c : Thread nD τ) scM2_1 fullShare ((outsAt2 V c n hn).2.2.2))
          ∗ Pipeline.scopedRestBut (Ix := Unit) (Name := ℕ) (U := Pipeline.UD sig nD τ) (Lvl := ℕ) (Val := Elt F) spec2 c [cc2_scratch0, cc2_scratch1])
          ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2_0 fullShare ((outsAt2 V c n hn).2.2.1) ∗ owns (c : Thread nD τ) scM2_1 fullShare ((outsAt2 V c n hn).2.2.2))
          ∗ Pipeline.scopedRestBut (Ix := Unit) (Name := ℕ) (U := Pipeline.UD sig nD τ) (Lvl := ℕ) (Val := Elt F) spec2 c [cc2_scratch0, cc2_scratch1])
          ∗ (∃ r, prngReg c r)) := rfl

theorem PhiS2_pos (c : Dev nD) (n : ℕ) (h : n ≤ cfg2.N) (hz : n ≠ 0) :
    PhiS2 V c n h = iprop(iprop(iprop(owns (c : Thread nD τ) scM2_0 fullShare ((outsAt2 V c (n - 1) (by omega)).2.2.1) ∗ owns (c : Thread nD τ) scM2_1 fullShare ((outsAt2 V c (n - 1) (by omega)).2.2.2))
          ∗ Pipeline.scopedRestBut (Ix := Unit) (Name := ℕ) (U := Pipeline.UD sig nD τ) (Lvl := ℕ) (Val := Elt F) spec2 c [cc2_scratch0, cc2_scratch1])
          ∗ (∃ r, prngReg c r)) := by
  cases n with
  | zero => exact absurd rfl hz
  | succ n => rfl

/-! ## The pipeline's proof data -/

/-- The proof data of pipeline 2 on core `c`: the arrays as the region finds them (`V`); after the body at point `t`
    each input's buffer at its block and the outputs' at `outsAt2`'s components; the invariant `PhiS2`; nothing owed;
    full shares. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => (outsAt2 V c t.val t.isLt).1
    | ⟨8, _⟩ => (outsAt2 V c t.val t.isLt).2.1
  Φ t := PhiS2 V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

/-- The invariant at a point's start, restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = (outsAt2 V c t.val t.isLt).1 := by dsimp only [dat2]
theorem after2_8 (c : Dev nD) (t : Fin cfg2.N) : (dat2 V c).after 8 t = (outsAt2 V c t.val t.isLt).2.1 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t)

set_option maxHeartbeats 4800000 in
/-- The body at any point: the inputs' memrefs hold their blocks; the closed forms of the two conditions say which control
    case the point is in, so that case's triple applies; the invariant hands the body the two scratch rows at what the point
    before left (at anything at the first point) and takes them back at this point's contents; the other scoped buffers, the
    generator register and the core's debts pass through; the 2-row output's buffer is handed back untouched wherever
    the window is idle. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).owesAt () t.succ = (dat2 V c).owesAt () t.castSucc from rfl]
  rw [show (dat2 V c).Φ t.succ = PhiS2 V c (t.val + 1) t.isLt from rfl, PhiS2_succ]
  have hN : t.val < 20 := lt_of_lt_of_eq t.isLt (show cfg2.N = 20 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  rw [show (dat2 V c).leavesExact 5 t = owns (c : Thread nD τ) (ms2_5 t) fullShare ((dat2 V c).after 5 t) from by
    unfold Dat.leavesExact; rw [liveAt2_5 t], after2_5]
  rw [show (dat2 V c).leavesExact 6 t = owns (c : Thread nD τ) (ms2_6 t) fullShare ((dat2 V c).after 6 t) from by
    unfold Dat.leavesExact; rw [liveAt2_6 t], after2_6]
  rw [show (dat2 V c).leavesExact 7 t = owns (c : Thread nD τ) (ms2_7 t) fullShare ((dat2 V c).after 7 t) from by
    unfold Dat.leavesExact; rw [liveAt2_7 t], after2_7]
  by_cases h0 : t.val % 20 = 0
  · have hc0 : cond2_0 (grid2.coords t) := (hcond2_0 t).mpr h0
    have hc1 : ¬cond2_1 (grid2.coords t) := fun h => by have := (hcond2_1 t).mp h; omega
    have hz : t.val = 0 := by omega
    rw [Dat.leavesExact_idle (dat2 V c) 8 t (idleAt2_8 t hc1) (noFlush2_8 t hc1)]
    rw [outsAt2_first V c t hz]
    unfold step2; (try dsimp only)
    rw [PhiS2_castSucc V c t, PhiS2_zero V c _ _ hz, PhiA2_eq]
    iintro ⟨⟨⟨⟨⟨%ds0, HS0⟩, ⟨%ds1, HS1⟩⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (sound_kernel2_A c Set.univ (grid2.coords t) _ _ _ _ _ _ _ _ _ _ _ _ _ _ _ _ _ _ _ _ _ _ hc0 hc1 (iblk2 V c 0 t) (iblk2 V c 1 t) (iblk2 V c 2 t) (iblk2 V c 3 t) (iblk2 V c 4 t) (iblk2 V c 5 t) (iblk2 V c 6 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexists _; iexact HS0
    isplitl [HS1]; · iexists _; iexact HS1
    iintro ⟨H0, H1, H2, H3, H4, H5, H6, H7, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists _; iexact H8
  · have hc0 : ¬cond2_0 (grid2.coords t) := fun h => h0 ((hcond2_0 t).mp h)
    have hz : t.val ≠ 0 := by omega
    by_cases h1 : t.val % 20 = 19
    · have hc1 : cond2_1 (grid2.coords t) := (hcond2_1 t).mpr h1
      rw [show (dat2 V c).leavesExact 8 t = owns (c : Thread nD τ) (ms2_8 t) fullShare ((dat2 V c).after 8 t) from by
        unfold Dat.leavesExact; rw [liveAt2_8 t hc1], after2_8]
      rw [outsAt2_later V c t hz]
      unfold step2; (try dsimp only)
      rw [PhiS2_castSucc V c t, PhiS2_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (sound_kernel2_C c Set.univ (grid2.coords t) _ _ _ _ _ _ _ _ _ _ _ _ _ _ _ _ _ _ _ _ _ _ hc0 hc1 (iblk2 V c 0 t) (iblk2 V c 1 t) (iblk2 V c 2 t) (iblk2 V c 3 t) (iblk2 V c 4 t) (iblk2 V c 5 t) (iblk2 V c 6 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [HS0]; · iexact HS0
      isplitl [HS1]; · iexact HS1
      iintro ⟨H0, H1, H2, H3, H4, H5, H6, H7, H8, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · have hc1 : ¬cond2_1 (grid2.coords t) := fun h => h1 ((hcond2_1 t).mp h)
      rw [Dat.leavesExact_idle (dat2 V c) 8 t (idleAt2_8 t hc1) (noFlush2_8 t hc1)]
      rw [outsAt2_later V c t hz]
      unfold step2; (try dsimp only)
      rw [PhiS2_castSucc V c t, PhiS2_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (sound_kernel2_B c Set.univ (grid2.coords t) _ _ _ _ _ _ _ _ _ _ _ _ _ _ _ _ _ _ _ _ _ _ hc0 hc1 (iblk2 V c 0 t) (iblk2 V c 1 t) (iblk2 V c 2 t) (iblk2 V c 3 t) (iblk2 V c 4 t) (iblk2 V c 5 t) (iblk2 V c 6 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      iintro ⟨H0, H1, H2, H3, H4, H5, H6, H7, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the launch's back: the scratch rows' named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨⟨HS0, HS1⟩, HR⟩, Hg⟩
  isplitl [HS0 HS1 HR]
  · isplitl [HS0 HS1]
    · isplitl [HS0]; · iexists _; iexact HS0
      iexists _; iexact HS1
    iexact HR
  iexact Hg

/-- The same after the last point. -/
theorem hout2 (c : Dev nD) : (dat2 V c).Φ (Fin.last cfg2.N) ⊢ Pipeline.ΦA spec2 c :=
  Phi_out2 V c _ (by rw [Fin.val_last]; have : cfg2.N = 20 := N_2; omega)

end Cert.KernelIdeal.Hand

end
-- ==== Proof.KI.Reg3a.lean ====
import proofs.«164503_j82721070121701_1_alg».proof.Proof.Gen.KernelIdeal.Launch
import proofs.«164503_j82721070121701_1_alg».proof.Proof.Gen.KernelIdeal.Skeleton
import proofs.«164503_j82721070121701_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-! # The second normalisation pass (region 3): what the three control cases share

The pass visits the 20 row blocks in order.  At the first block it zeroes two accumulator rows; at every block it
normalises the block with the layer's mean, variance, gain and bias rows, clamps at zero, stores the block, and adds
the block's column sums of the result and of its square to the two accumulator rows; at the last block it copies the
two accumulator rows into the two rows of the statistics output. -/

variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! Each input's current staging buffer holds its block at every point, fetched there or not, for any proof data
whose array is `V`'s and whose body leaves the block in place: unfetched, the block index has not moved. -/

theorem before3_0_of {c : Dev nD} (dat : Dat τ (Elt F) Unit ℕ (Pipeline.UD sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (Pipeline.UD sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (Pipeline.UD sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (Pipeline.UD sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

theorem before3_4_of {c : Dev nD} (dat : Dat τ (Elt F) Unit ℕ (Pipeline.UD sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's two branch conditions -/

/-- "This is the first block": the condition under which the accumulator rows are zeroed. -/
abbrev cond3_0 (i : grid3.Coords) : Prop := (Scalar.cmpi .ne (Scalar.extui (Scalar.cmpi .eq (BitVec.ofNat 32 (i 0).val) 0#32)) 0#32) = 1#1
/-- It holds at point 0 only — decided over the 20 points. -/
theorem hcond3_0 : ∀ t : Fin cfg3.N, cond3_0 (grid3.coords t) ↔ t.val % 20 = 0 :=
  (by decide +kernel : ∀ t : Fin grid3.N, cond3_0 (grid3.coords t) ↔ t.val % 20 = 0)

/-- "This is the last block": the condition under which the statistics rows are stored. -/
abbrev cond3_1 (i : grid3.Coords) : Prop := k3_cond2 i = 1#1
/-- It holds at point 19 only — decided over the 20 points. -/
theorem hcond3_1 : ∀ t : Fin cfg3.N, cond3_1 (grid3.coords t) ↔ t.val % 20 = 19 :=
  (by decide +kernel : ∀ t : Fin grid3.N, cond3_1 (grid3.coords t) ↔ t.val % 20 = 19)

/-! ## Where the windows are idle -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
theorem liveAt3_4 : ∀ t : Fin cfg3.N, cfg3.idle 4 (grid3.coords t) = false := by decide +kernel
theorem liveAt3_5 : ∀ t : Fin cfg3.N, cfg3.idle 5 (grid3.coords t) = false := by decide +kernel
/-- Away from the last block nothing is stored into the statistics output: the window is idle there -/
theorem idleAt3_6 : ∀ t : Fin cfg3.N, ¬cond3_1 (grid3.coords t) → cfg3.idle 6 (grid3.coords t) = true := by decide +kernel
/-- and not written back. -/
theorem noFlush3_6 : ∀ t : Fin cfg3.N, ¬cond3_1 (grid3.coords t) → (cfg3.win 6).flush t = false := by decide +kernel
/-- At the last block it is live. -/
theorem liveAt3_6 : ∀ t : Fin cfg3.N, cond3_1 (grid3.coords t) → cfg3.idle 6 (grid3.coords t) = false := by decide +kernel

/-! ## The memrefs the body is called with -/

/-- One staging buffer of each output window, through which its contents are stated (the choice does not matter). -/
abbrev VO3_5 : View sig .tc .vmem S5000x128 .f32 := (Memref.whole cc3_stg5_0 : Memref sig .tc .vmem S5000x128 .f32).view
abbrev VO3_6 : View sig .tc .vmem S2x128 .f32 := (Memref.whole cc3_stg6_0 : Memref sig .tc .vmem S2x128 .f32).view
/-- Each window's current staging memref at point `t`, as the pipeline passes it, and its wholeness. -/
abbrev ms3_0 (t : Fin cfg3.N) : Memref sig .tc .vmem S5000x128 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x128 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x128 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x128 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x128 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S5000x128 .f32 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S2x128 .f32 := win3_6.stage (cfg3.slots t 6)
abbrev hs3_6 (t : Fin cfg3.N) : (ms3_6 t).IsWhole := hstage3_6 ((cfg3.slots t 6).cast nbuf3_6)
/-- The two accumulator rows: whole scoped buffers of the kernel's own, passed beside the windows, -/
abbrev scM3_0 : Memref sig .tc .vmem S1x128 .f32 := Memref.whole cc3_scratch0
abbrev scM3_1 : Memref sig .tc .vmem S1x128 .f32 := Memref.whole cc3_scratch1
/-- and as views: what they hold is stated through these. -/
abbrev VS3_0 : View sig .tc .vmem S1x128 .f32 := scM3_0.view
abbrev VS3_1 : View sig .tc .vmem S1x128 .f32 := scM3_1.view

/-- The region's invariant with the two accumulator rows as memrefs owned at some contents, the other scoped
    buffers unopened, and the generator register at some state. -/
theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d))
          ∗ Pipeline.scopedRestBut spec3 c [cc3_scratch0, cc3_scratch1]) ∗ (∃ r, prngReg c r)) := by
  unfold Pipeline.ΦA; rw [scopedRest3_split]; simp only [scM3_0, scM3_1, owns_whole]; try rfl

end Cert.KernelIdeal.Hand

end
-- ==== Proof.KI.Reg3b.lean ====
import proofs.«164503_j82721070121701_1_alg».proof.Proof.KI.Reg3a

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-! # The second normalisation pass at its first block

Both accumulator rows are zeroed, then the block is normalised, clamped and stored, and its column sums are added
to the zeroed rows.  Nothing is stored into the statistics output. -/

set_option maxHeartbeats 4000000 in
/-- What the body's stores leave in each buffer at the first block, as pieces (last first), with the proof that on
    whole memrefs — the five inputs at their contents, the block output and the two accumulator rows at anything, the
    statistics output at contents `xi6` handed back untouched — the body runs to the continuation holding the inputs
    as they were, the block output and both accumulator rows with their pieces written. -/
noncomputable def kernelRun3_A (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : cond3_0 i) (hc1 : ¬cond3_1 i)
    (x0 : Vec F S5000x128 .f32) (x1 : Vec F S1x128 .f32) (x2 : Vec F S1x128 .f32) (x3 : Vec F S1x128 .f32) (x4 : Vec F S1x128 .f32) :
    Σ' (L5 : List (View.Piece (Elt F) S5000x128 .f32)) (L6 : List (View.Piece (Elt F) S2x128 .f32)) (LS0 : List (View.Piece (Elt F) S1x128 .f32)), { LS1 : List (View.Piece (Elt F) S1x128 .f32) //
      ∀ (xi6 : Vec F S2x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc3__stageC_kernel i arg1 harg1 arg2 harg2 arg3 harg3 arg4 harg4 arg5 harg5 arg6 harg6 arg7 harg7 arg8 harg8 arg9 harg9) K } := by
  refine ⟨?_, [], ?_, ?_, fun xi6 E K => ?run⟩
  case run =>
    simp only [cc3__stageC_kernel_eq_skeleton]; unfold cc3__stageC_kernel_skel
    simp only [k3_part1_eq_skeleton]; unfold k3_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [HS0]; · iexists _; iexact HS0
    iexists _; iexact HS1

/-! # The second normalisation pass at a middle block

The block is normalised, clamped and stored, and its column sums are added to the accumulator rows as the block
before left them.  Nothing is stored into the statistics output. -/

set_option maxHeartbeats 4000000 in
/-- What the body's stores leave in each buffer at a middle block, as pieces (last first), with the proof that on
    whole memrefs — the five inputs at their contents, the block output at anything, the statistics output at contents
    `xi6` handed back untouched, the accumulator rows at what the block before left (`xs0`, `xs1`) — the body runs to
    the continuation holding the inputs as they were, the block output and both accumulator rows with their pieces
    written. -/
noncomputable def kernelRun3_B (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : ¬cond3_1 i)
    (x0 : Vec F S5000x128 .f32) (x1 : Vec F S1x128 .f32) (x2 : Vec F S1x128 .f32) (x3 : Vec F S1x128 .f32) (x4 : Vec F S1x128 .f32) (xs0 : Vec F S1x128 .f32) (xs1 : Vec F S1x128 .f32) :
    Σ' (L5 : List (View.Piece (Elt F) S5000x128 .f32)) (L6 : List (View.Piece (Elt F) S2x128 .f32)) (LS0 : List (View.Piece (Elt F) S1x128 .f32)), { LS1 : List (View.Piece (Elt F) S1x128 .f32) //
      ∀ (xi6 : Vec F S2x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc3__stageC_kernel i arg1 harg1 arg2 harg2 arg3 harg3 arg4 harg4 arg5 harg5 arg6 harg6 arg7 harg7 arg8 harg8 arg9 harg9) K } := by
  refine ⟨?_, [], ?_, ?_, fun xi6 E K => ?run⟩
  case run =>
    simp only [cc3__stageC_kernel_eq_skeleton]; unfold cc3__stageC_kernel_skel
    simp only [k3_part1_eq_skeleton]; unfold k3_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6; obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [HS0]; · iexists _; iexact HS0
    iexists _; iexact HS1

/-! # The second normalisation pass at its last block

The block is normalised, clamped and stored, its column sums are added to the accumulator rows as the block before
left them, and the two accumulator rows are then copied into rows 0 and 1 of the statistics output. -/

set_option maxHeartbeats 4000000 in
/-- What the body's stores leave in each buffer at the last block, as pieces (last first), with the proof that on
    whole memrefs — the five inputs at their contents, both outputs at anything, the accumulator rows at what the
    block before left (`xs0`, `xs1`) — the body runs to the continuation holding the inputs as they were, both
    outputs and both accumulator rows with their pieces written. -/
noncomputable def kernelRun3_C (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : cond3_1 i)
    (x0 : Vec F S5000x128 .f32) (x1 : Vec F S1x128 .f32) (x2 : Vec F S1x128 .f32) (x3 : Vec F S1x128 .f32) (x4 : Vec F S1x128 .f32) (xs0 : Vec F S1x128 .f32) (xs1 : Vec F S1x128 .f32) :
    Σ' (L5 : List (View.Piece (Elt F) S5000x128 .f32)) (L6 : List (View.Piece (Elt F) S2x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc3__stageC_kernel i arg1 harg1 arg2 harg2 arg3 harg3 arg4 harg4 arg5 harg5 arg6 harg6 arg7 harg7 arg8 harg8 arg9 harg9) K } := by
  refine ⟨?_, ?_, ?_, ?_, fun E K => ?run⟩
  case run =>
    simp only [cc3__stageC_kernel_eq_skeleton]; unfold cc3__stageC_kernel_skel
    simp only [k3_part1_eq_skeleton]; unfold k3_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [HS0]; · iexists _; iexact HS0
    iexists _; iexact HS1

end Cert.KernelIdeal.Hand

end
-- ==== Proof.KI.Reg3.lean ====
import proofs.«164503_j82721070121701_1_alg».proof.Proof.KI.Reg3b

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-! # The second normalisation pass (region 3): proof data and body obligation -/

variable (V : (c : Dev nD) → (b : Ref sig .tc) → Buf (Elt F) ((c : Thread nD τ).loc b))

/-- Case A: the one store into the block output covers it. -/
theorem cover3_A_5 (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : cond3_0 i) (hc1 : ¬cond3_1 i)
    (x0 : Vec F S5000x128 .f32) (x1 : Vec F S1x128 .f32) (x2 : Vec F S1x128 .f32) (x3 : Vec F S1x128 .f32) (x4 : Vec F S1x128 .f32) (y : S5000x128.Idx) :
    ∃ pc ∈ (kernelRun3_A c i arg1 harg1 arg2 harg2 arg3 harg3 arg4 harg4 arg5 harg5 arg6 harg6 arg7 harg7 arg8 harg8 arg9 harg9 hc0 hc1 x0 x1 x2 x3 x4).1, y ∈ pc.1.set :=
  View.cover_of_tiledL (kernelRun3_A c i arg1 harg1 arg2 harg2 arg3 harg3 arg4 harg4 arg5 harg5 arg6 harg6 arg7 harg7 arg8 harg8 arg9 harg9 hc0 hc1 x0 x1 x2 x3 x4).1 S5000x128.size (by sl_kernel_rfl) y
/-- Case A: the stores into the first accumulator row cover it. -/
theorem scover3_A_0 (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : cond3_0 i) (hc1 : ¬cond3_1 i)
    (x0 : Vec F S5000x128 .f32) (x1 : Vec F S1x128 .f32) (x2 : Vec F S1x128 .f32) (x3 : Vec F S1x128 .f32) (x4 : Vec F S1x128 .f32) (y : S1x128.Idx) :
    ∃ pc ∈ (kernelRun3_A c i arg1 harg1 arg2 harg2 arg3 harg3 arg4 harg4 arg5 harg5 arg6 harg6 arg7 harg7 arg8 harg8 arg9 harg9 hc0 hc1 x0 x1 x2 x3 x4).2.2.1, y ∈ pc.1.set :=
  View.cover_of_tiledL (kernelRun3_A c i arg1 harg1 arg2 harg2 arg3 harg3 arg4 harg4 arg5 harg5 arg6 harg6 arg7 harg7 arg8 harg8 arg9 harg9 hc0 hc1 x0 x1 x2 x3 x4).2.2.1 S1x128.size (by sl_kernel_rfl) y
/-- Case A: the stores into the second accumulator row cover it. -/
theorem scover3_A_1 (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : cond3_0 i) (hc1 : ¬cond3_1 i)
    (x0 : Vec F S5000x128 .f32) (x1 : Vec F S1x128 .f32) (x2 : Vec F S1x128 .f32) (x3 : Vec F S1x128 .f32) (x4 : Vec F S1x128 .f32) (y : S1x128.Idx) :
    ∃ pc ∈ (kernelRun3_A c i arg1 harg1 arg2 harg2 arg3 harg3 arg4 harg4 arg5 harg5 arg6 harg6 arg7 harg7 arg8 harg8 arg9 harg9 hc0 hc1 x0 x1 x2 x3 x4).2.2.2.1, y ∈ pc.1.set :=
  View.cover_of_tiledL (kernelRun3_A c i arg1 harg1 arg2 harg2 arg3 harg3 arg4 harg4 arg5 harg5 arg6 harg6 arg7 harg7 arg8 harg8 arg9 harg9 hc0 hc1 x0 x1 x2 x3 x4).2.2.2.1 S1x128.size (by sl_kernel_rfl) y

/-- What case A leaves: the block output, the statistics output (nothing stored: a placeholder nothing consults), the two accumulator rows — each buffer's
    pieces read back. -/
def outs3_A (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : cond3_0 i) (hc1 : ¬cond3_1 i)
    (x0 : Vec F S5000x128 .f32) (x1 : Vec F S1x128 .f32) (x2 : Vec F S1x128 .f32) (x3 : Vec F S1x128 .f32) (x4 : Vec F S1x128 .f32) : Vec F S5000x128 .f32 × Vec F S2x128 .f32 × Vec F S1x128 .f32 × Vec F S1x128 .f32 :=
  (VO3_5.read (Elt F) (VO3_5.writes (Elt F) VO3_5.junk (kernelRun3_A c i arg1 harg1 arg2 harg2 arg3 harg3 arg4 harg4 arg5 harg5 arg6 harg6 arg7 harg7 arg8 harg8 arg9 harg9 hc0 hc1 x0 x1 x2 x3 x4).1),
   VO3_6.read (Elt F) (VO3_6.writes (Elt F) VO3_6.junk (kernelRun3_A c i arg1 harg1 arg2 harg2 arg3 harg3 arg4 harg4 arg5 harg5 arg6 harg6 arg7 harg7 arg8 harg8 arg9 harg9 hc0 hc1 x0 x1 x2 x3 x4).2.1),
   VS3_0.read (Elt F) (VS3_0.writes (Elt F) VS3_0.junk (kernelRun3_A c i arg1 harg1 arg2 harg2 arg3 harg3 arg4 harg4 arg5 harg5 arg6 harg6 arg7 harg7 arg8 harg8 arg9 harg9 hc0 hc1 x0 x1 x2 x3 x4).2.2.1),
   VS3_1.read (Elt F) (VS3_1.writes (Elt F) VS3_1.junk (kernelRun3_A c i arg1 harg1 arg2 harg2 arg3 harg3 arg4 harg4 arg5 harg5 arg6 harg6 arg7 harg7 arg8 harg8 arg9 harg9 hc0 hc1 x0 x1 x2 x3 x4).2.2.2.1))

/-- Case B: the one store into the block output covers it. -/
theorem cover3_B_5 (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : ¬cond3_1 i)
    (x0 : Vec F S5000x128 .f32) (x1 : Vec F S1x128 .f32) (x2 : Vec F S1x128 .f32) (x3 : Vec F S1x128 .f32) (x4 : Vec F S1x128 .f32) (xs0 : Vec F S1x128 .f32) (xs1 : Vec F S1x128 .f32) (y : S5000x128.Idx) :
    ∃ pc ∈ (kernelRun3_B c i arg1 harg1 arg2 harg2 arg3 harg3 arg4 harg4 arg5 harg5 arg6 harg6 arg7 harg7 arg8 harg8 arg9 harg9 hc0 hc1 x0 x1 x2 x3 x4 xs0 xs1).1, y ∈ pc.1.set :=
  View.cover_of_tiledL (kernelRun3_B c i arg1 harg1 arg2 harg2 arg3 harg3 arg4 harg4 arg5 harg5 arg6 harg6 arg7 harg7 arg8 harg8 arg9 harg9 hc0 hc1 x0 x1 x2 x3 x4 xs0 xs1).1 S5000x128.size (by sl_kernel_rfl) y
/-- Case B: the stores into the first accumulator row cover it. -/
theorem scover3_B_0 (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : ¬cond3_1 i)
    (x0 : Vec F S5000x128 .f32) (x1 : Vec F S1x128 .f32) (x2 : Vec F S1x128 .f32) (x3 : Vec F S1x128 .f32) (x4 : Vec F S1x128 .f32) (xs0 : Vec F S1x128 .f32) (xs1 : Vec F S1x128 .f32) (y : S1x128.Idx) :
    ∃ pc ∈ (kernelRun3_B c i arg1 harg1 arg2 harg2 arg3 harg3 arg4 harg4 arg5 harg5 arg6 harg6 arg7 harg7 arg8 harg8 arg9 harg9 hc0 hc1 x0 x1 x2 x3 x4 xs0 xs1).2.2.1, y ∈ pc.1.set :=
  View.cover_of_tiledL (kernelRun3_B c i arg1 harg1 arg2 harg2 arg3 harg3 arg4 harg4 arg5 harg5 arg6 harg6 arg7 harg7 arg8 harg8 arg9 harg9 hc0 hc1 x0 x1 x2 x3 x4 xs0 xs1).2.2.1 S1x128.size (by sl_kernel_rfl) y
/-- Case B: the stores into the second accumulator row cover it. -/
theorem scover3_B_1 (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : ¬cond3_1 i)
    (x0 : Vec F S5000x128 .f32) (x1 : Vec F S1x128 .f32) (x2 : Vec F S1x128 .f32) (x3 : Vec F S1x128 .f32) (x4 : Vec F S1x128 .f32) (xs0 : Vec F S1x128 .f32) (xs1 : Vec F S1x128 .f32) (y : S1x128.Idx) :
    ∃ pc ∈ (kernelRun3_B c i arg1 harg1 arg2 harg2 arg3 harg3 arg4 harg4 arg5 harg5 arg6 harg6 arg7 harg7 arg8 harg8 arg9 harg9 hc0 hc1 x0 x1 x2 x3 x4 xs0 xs1).2.2.2.1, y ∈ pc.1.set :=
  View.cover_of_tiledL (kernelRun3_B c i arg1 harg1 arg2 harg2 arg3 harg3 arg4 harg4 arg5 harg5 arg6 harg6 arg7 harg7 arg8 harg8 arg9 harg9 hc0 hc1 x0 x1 x2 x3 x4 xs0 xs1).2.2.2.1 S1x128.size (by sl_kernel_rfl) y

/-- What case B leaves: the block output, the statistics output (nothing stored: a placeholder nothing consults), the two accumulator rows — each buffer's
    pieces read back. -/
def outs3_B (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : ¬cond3_1 i)
    (x0 : Vec F S5000x128 .f32) (x1 : Vec F S1x128 .f32) (x2 : Vec F S1x128 .f32) (x3 : Vec F S1x128 .f32) (x4 : Vec F S1x128 .f32) (xs0 : Vec F S1x128 .f32) (xs1 : Vec F S1x128 .f32) : Vec F S5000x128 .f32 × Vec F S2x128 .f32 × Vec F S1x128 .f32 × Vec F S1x128 .f32 :=
  (VO3_5.read (Elt F) (VO3_5.writes (Elt F) VO3_5.junk (kernelRun3_B c i arg1 harg1 arg2 harg2 arg3 harg3 arg4 harg4 arg5 harg5 arg6 harg6 arg7 harg7 arg8 harg8 arg9 harg9 hc0 hc1 x0 x1 x2 x3 x4 xs0 xs1).1),
   VO3_6.read (Elt F) (VO3_6.writes (Elt F) VO3_6.junk (kernelRun3_B c i arg1 harg1 arg2 harg2 arg3 harg3 arg4 harg4 arg5 harg5 arg6 harg6 arg7 harg7 arg8 harg8 arg9 harg9 hc0 hc1 x0 x1 x2 x3 x4 xs0 xs1).2.1),
   VS3_0.read (Elt F) (VS3_0.writes (Elt F) VS3_0.junk (kernelRun3_B c i arg1 harg1 arg2 harg2 arg3 harg3 arg4 harg4 arg5 harg5 arg6 harg6 arg7 harg7 arg8 harg8 arg9 harg9 hc0 hc1 x0 x1 x2 x3 x4 xs0 xs1).2.2.1),
   VS3_1.read (Elt F) (VS3_1.writes (Elt F) VS3_1.junk (kernelRun3_B c i arg1 harg1 arg2 harg2 arg3 harg3 arg4 harg4 arg5 harg5 arg6 harg6 arg7 harg7 arg8 harg8 arg9 harg9 hc0 hc1 x0 x1 x2 x3 x4 xs0 xs1).2.2.2.1))

/-- Case C: the one store into the block output covers it. -/
theorem cover3_C_5 (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : cond3_1 i)
    (x0 : Vec F S5000x128 .f32) (x1 : Vec F S1x128 .f32) (x2 : Vec F S1x128 .f32) (x3 : Vec F S1x128 .f32) (x4 : Vec F S1x128 .f32) (xs0 : Vec F S1x128 .f32) (xs1 : Vec F S1x128 .f32) (y : S5000x128.Idx) :
    ∃ pc ∈ (kernelRun3_C c i arg1 harg1 arg2 harg2 arg3 harg3 arg4 harg4 arg5 harg5 arg6 harg6 arg7 harg7 arg8 harg8 arg9 harg9 hc0 hc1 x0 x1 x2 x3 x4 xs0 xs1).1, y ∈ pc.1.set :=
  View.cover_of_tiledL (kernelRun3_C c i arg1 harg1 arg2 harg2 arg3 harg3 arg4 harg4 arg5 harg5 arg6 harg6 arg7 harg7 arg8 harg8 arg9 harg9 hc0 hc1 x0 x1 x2 x3 x4 xs0 xs1).1 S5000x128.size (by sl_kernel_rfl) y
/-- Case C: the stores into the first accumulator row cover it. -/
theorem scover3_C_0 (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : cond3_1 i)
    (x0 : Vec F S5000x128 .f32) (x1 : Vec F S1x128 .f32) (x2 : Vec F S1x128 .f32) (x3 : Vec F S1x128 .f32) (x4 : Vec F S1x128 .f32) (xs0 : Vec F S1x128 .f32) (xs1 : Vec F S1x128 .f32) (y : S1x128.Idx) :
    ∃ pc ∈ (kernelRun3_C c i arg1 harg1 arg2 harg2 arg3 harg3 arg4 harg4 arg5 harg5 arg6 harg6 arg7 harg7 arg8 harg8 arg9 harg9 hc0 hc1 x0 x1 x2 x3 x4 xs0 xs1).2.2.1, y ∈ pc.1.set :=
  View.cover_of_tiledL (kernelRun3_C c i arg1 harg1 arg2 harg2 arg3 harg3 arg4 harg4 arg5 harg5 arg6 harg6 arg7 harg7 arg8 harg8 arg9 harg9 hc0 hc1 x0 x1 x2 x3 x4 xs0 xs1).2.2.1 S1x128.size (by sl_kernel_rfl) y
/-- Case C: the stores into the second accumulator row cover it. -/
theorem scover3_C_1 (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : cond3_1 i)
    (x0 : Vec F S5000x128 .f32) (x1 : Vec F S1x128 .f32) (x2 : Vec F S1x128 .f32) (x3 : Vec F S1x128 .f32) (x4 : Vec F S1x128 .f32) (xs0 : Vec F S1x128 .f32) (xs1 : Vec F S1x128 .f32) (y : S1x128.Idx) :
    ∃ pc ∈ (kernelRun3_C c i arg1 harg1 arg2 harg2 arg3 harg3 arg4 harg4 arg5 harg5 arg6 harg6 arg7 harg7 arg8 harg8 arg9 harg9 hc0 hc1 x0 x1 x2 x3 x4 xs0 xs1).2.2.2.1, y ∈ pc.1.set :=
  View.cover_of_tiledL (kernelRun3_C c i arg1 harg1 arg2 harg2 arg3 harg3 arg4 harg4 arg5 harg5 arg6 harg6 arg7 harg7 arg8 harg8 arg9 harg9 hc0 hc1 x0 x1 x2 x3 x4 xs0 xs1).2.2.2.1 S1x128.size (by sl_kernel_rfl) y
/-- Case C: the two row stores into the statistics output tile it. -/
theorem cover3_C_6 (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : cond3_1 i)
    (x0 : Vec F S5000x128 .f32) (x1 : Vec F S1x128 .f32) (x2 : Vec F S1x128 .f32) (x3 : Vec F S1x128 .f32) (x4 : Vec F S1x128 .f32) (xs0 : Vec F S1x128 .f32) (xs1 : Vec F S1x128 .f32) (y : S2x128.Idx) :
    ∃ pc ∈ (kernelRun3_C c i arg1 harg1 arg2 harg2 arg3 harg3 arg4 harg4 arg5 harg5 arg6 harg6 arg7 harg7 arg8 harg8 arg9 harg9 hc0 hc1 x0 x1 x2 x3 x4 xs0 xs1).2.1, y ∈ pc.1.set :=
  View.cover_of_tiledL (kernelRun3_C c i arg1 harg1 arg2 harg2 arg3 harg3 arg4 harg4 arg5 harg5 arg6 harg6 arg7 harg7 arg8 harg8 arg9 harg9 hc0 hc1 x0 x1 x2 x3 x4 xs0 xs1).2.1 S1x128.size (by sl_kernel_rfl) y

/-- What case C leaves: the block output, the statistics output, the two accumulator rows — each buffer's
    pieces read back. -/
def outs3_C (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : cond3_1 i)
    (x0 : Vec F S5000x128 .f32) (x1 : Vec F S1x128 .f32) (x2 : Vec F S1x128 .f32) (x3 : Vec F S1x128 .f32) (x4 : Vec F S1x128 .f32) (xs0 : Vec F S1x128 .f32) (xs1 : Vec F S1x128 .f32) : Vec F S5000x128 .f32 × Vec F S2x128 .f32 × Vec F S1x128 .f32 × Vec F S1x128 .f32 :=
  (VO3_5.read (Elt F) (VO3_5.writes (Elt F) VO3_5.junk (kernelRun3_C c i arg1 harg1 arg2 harg2 arg3 harg3 arg4 harg4 arg5 harg5 arg6 harg6 arg7 harg7 arg8 harg8 arg9 harg9 hc0 hc1 x0 x1 x2 x3 x4 xs0 xs1).1),
   VO3_6.read (Elt F) (VO3_6.writes (Elt F) VO3_6.junk (kernelRun3_C c i arg1 harg1 arg2 harg2 arg3 harg3 arg4 harg4 arg5 harg5 arg6 harg6 arg7 harg7 arg8 harg8 arg9 harg9 hc0 hc1 x0 x1 x2 x3 x4 xs0 xs1).2.1),
   VS3_0.read (Elt F) (VS3_0.writes (Elt F) VS3_0.junk (kernelRun3_C c i arg1 harg1 arg2 harg2 arg3 harg3 arg4 harg4 arg5 harg5 arg6 harg6 arg7 harg7 arg8 harg8 arg9 harg9 hc0 hc1 x0 x1 x2 x3 x4 xs0 xs1).2.2.1),
   VS3_1.read (Elt F) (VS3_1.writes (Elt F) VS3_1.junk (kernelRun3_C c i arg1 harg1 arg2 harg2 arg3 harg3 arg4 harg4 arg5 harg5 arg6 harg6 arg7 harg7 arg8 harg8 arg9 harg9 hc0 hc1 x0 x1 x2 x3 x4 xs0 xs1).2.2.2.1))

/-! ## The conditions at a point, from its position -/

theorem N3' : cfg3.N = 20 := N_3
theorem c0_3 (t : Fin cfg3.N) (h : t.val = 0) : cond3_0 (grid3.coords t) := (hcond3_0 t).mpr (by rw [h])
theorem nc0_3 (t : Fin cfg3.N) (h : t.val ≠ 0) : ¬cond3_0 (grid3.coords t) := fun hc => by
  have := (hcond3_0 t).mp hc; have := lt_of_lt_of_eq t.isLt N3'; omega
theorem c1_3 (t : Fin cfg3.N) (h : t.val = 19) : cond3_1 (grid3.coords t) := (hcond3_1 t).mpr (by rw [h])
theorem nc1_3 (t : Fin cfg3.N) (h : t.val ≠ 19) : ¬cond3_1 (grid3.coords t) := fun hc => by
  have := (hcond3_1 t).mp hc; have := lt_of_lt_of_eq t.isLt N3'; omega

/-! ## What the buffers hold after each point -/

/-- The first block's contents at the point's memrefs and input blocks. -/
def outsA3 (c : Dev nD) (t : Fin cfg3.N) (h0 : t.val = 0) : Vec F S5000x128 .f32 × Vec F S2x128 .f32 × Vec F S1x128 .f32 × Vec F S1x128 .f32 :=
  outs3_A c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) (c0_3 t h0) (nc1_3 t (by omega)) (iblk3 V c 0 t) (iblk3 V c 1 t) (iblk3 V c 2 t) (iblk3 V c 3 t) (iblk3 V c 4 t)
/-- A middle block's, over what the block before left in the accumulator rows. -/
def outsB3 (c : Dev nD) (t : Fin cfg3.N) (h0 : t.val ≠ 0) (h1 : t.val ≠ 19) (xs0 xs1 : Vec F S1x128 .f32) : Vec F S5000x128 .f32 × Vec F S2x128 .f32 × Vec F S1x128 .f32 × Vec F S1x128 .f32 :=
  outs3_B c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) (nc0_3 t h0) (nc1_3 t h1) (iblk3 V c 0 t) (iblk3 V c 1 t) (iblk3 V c 2 t) (iblk3 V c 3 t) (iblk3 V c 4 t) xs0 xs1
/-- The last block's, over what the block before left in the accumulator rows. -/
def outsC3 (c : Dev nD) (t : Fin cfg3.N) (h1 : t.val = 19) (xs0 xs1 : Vec F S1x128 .f32) : Vec F S5000x128 .f32 × Vec F S2x128 .f32 × Vec F S1x128 .f32 × Vec F S1x128 .f32 :=
  outs3_C c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) (nc0_3 t (by omega)) (c1_3 t h1) (iblk3 V c 0 t) (iblk3 V c 1 t) (iblk3 V c 2 t) (iblk3 V c 3 t) (iblk3 V c 4 t) xs0 xs1

/-- THE ACCUMULATION.  What the block output's buffer, the statistics output's buffer and the two accumulator rows
    hold after the body at position `n`: the first block's contents at `n = 0`; afterwards the middle (or, at 19, the
    last) block's contents over the accumulator rows as position `n - 1` left them. -/
def outsAt3 (c : Dev nD) : (n : ℕ) → n < cfg3.N → Vec F S5000x128 .f32 × Vec F S2x128 .f32 × Vec F S1x128 .f32 × Vec F S1x128 .f32
  | 0, hn => outsA3 V c ⟨0, hn⟩ rfl
  | n + 1, hn =>
    if h1 : n + 1 = 19 then
      outsC3 V c ⟨n + 1, hn⟩ h1 (outsAt3 c n (Nat.lt_of_succ_lt hn)).2.2.1 (outsAt3 c n (Nat.lt_of_succ_lt hn)).2.2.2
    else
      outsB3 V c ⟨n + 1, hn⟩ (Nat.succ_ne_zero n) h1 (outsAt3 c n (Nat.lt_of_succ_lt hn)).2.2.1 (outsAt3 c n (Nat.lt_of_succ_lt hn)).2.2.2

/-- `outsAt3` at position 0. -/
theorem outsAt3_zero (c : Dev nD) (h : 0 < cfg3.N) : outsAt3 V c 0 h = outsA3 V c ⟨0, h⟩ rfl := rfl
/-- `outsAt3` at a later position that is not the last. -/
theorem outsAt3_succ_B (c : Dev nD) (n : ℕ) (h : n + 1 < cfg3.N) (h1 : n + 1 ≠ 19) :
    outsAt3 V c (n + 1) h = outsB3 V c ⟨n + 1, h⟩ (Nat.succ_ne_zero n) h1 (outsAt3 V c n (Nat.lt_of_succ_lt h)).2.2.1 (outsAt3 V c n (Nat.lt_of_succ_lt h)).2.2.2 :=
  (dif_neg h1).trans rfl
/-- `outsAt3` at the last position. -/
theorem outsAt3_succ_C (c : Dev nD) (n : ℕ) (h : n + 1 < cfg3.N) (h1 : n + 1 = 19) :
    outsAt3 V c (n + 1) h = outsC3 V c ⟨n + 1, h⟩ h1 (outsAt3 V c n (Nat.lt_of_succ_lt h)).2.2.1 (outsAt3 V c n (Nat.lt_of_succ_lt h)).2.2.2 :=
  (dif_pos h1).trans rfl

/-- The same three, at a point of the grid. -/
theorem outsAt3_A (c : Dev nD) (t : Fin cfg3.N) (h0 : t.val = 0) : outsAt3 V c t.val t.isLt = outsA3 V c t h0 := by
  obtain ⟨n, hn⟩ := t
  cases n with
  | zero => rfl
  | succ n => exact absurd h0 (Nat.succ_ne_zero n)
theorem outsAt3_B (c : Dev nD) (t : Fin cfg3.N) (h0 : t.val ≠ 0) (h1 : t.val ≠ 19) :
    outsAt3 V c t.val t.isLt = outsB3 V c t h0 h1 (outsAt3 V c (t.val - 1) (Nat.lt_of_le_of_lt (Nat.sub_le _ _) t.isLt)).2.2.1 (outsAt3 V c (t.val - 1) (Nat.lt_of_le_of_lt (Nat.sub_le _ _) t.isLt)).2.2.2 := by
  obtain ⟨n, hn⟩ := t
  cases n with
  | zero => exact absurd rfl h0
  | succ n => exact (dif_neg h1).trans rfl
theorem outsAt3_C (c : Dev nD) (t : Fin cfg3.N) (h1 : t.val = 19) :
    outsAt3 V c t.val t.isLt = outsC3 V c t h1 (outsAt3 V c (t.val - 1) (Nat.lt_of_le_of_lt (Nat.sub_le _ _) t.isLt)).2.2.1 (outsAt3 V c (t.val - 1) (Nat.lt_of_le_of_lt (Nat.sub_le _ _) t.isLt)).2.2.2 := by
  obtain ⟨n, hn⟩ := t
  cases n with
  | zero => exact absurd h1 (show (0 : ℕ) ≠ 19 by decide)
  | succ n => exact (dif_pos h1).trans rfl

/-! ## The invariant -/

/-- The region's invariant before position `n`: before the first block the class's (both accumulator rows at anything);
    afterwards both accumulator rows at what the block before left in them, the other scoped buffers unopened, the
    generator register at some state. -/
def PhiS3 (c : Dev nD) : (n : ℕ) → n ≤ cfg3.N → sProp 𝕄
  | 0, _ => Pipeline.ΦA spec3 c
  | n + 1, hn => iprop(iprop(iprop(owns (c : Thread nD τ) scM3_0 fullShare ((outsAt3 V c n hn).2.2.1) ∗ owns (c : Thread nD τ) scM3_1 fullShare ((outsAt3 V c n hn).2.2.2))
      ∗ Pipeline.scopedRestBut spec3 c [cc3_scratch0, cc3_scratch1]) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(iprop(owns (c : Thread nD τ) scM3_0 fullShare ((outsAt3 V c n hn).2.2.1) ∗ owns (c : Thread nD τ) scM3_1 fullShare ((outsAt3 V c n hn).2.2.2))
      ∗ Pipeline.scopedRestBut spec3 c [cc3_scratch0, cc3_scratch1]) ∗ (∃ r, prngReg c r)) := rfl

theorem PhiS3_pos (c : Dev nD) (n : ℕ) (h : n ≤ cfg3.N) (hz : n ≠ 0) :
    PhiS3 V c n h = iprop(iprop(iprop(owns (c : Thread nD τ) scM3_0 fullShare ((outsAt3 V c (n - 1) (by omega)).2.2.1) ∗ owns (c : Thread nD τ) scM3_1 fullShare ((outsAt3 V c (n - 1) (by omega)).2.2.2))
      ∗ Pipeline.scopedRestBut spec3 c [cc3_scratch0, cc3_scratch1]) ∗ (∃ r, prngReg c r)) := by
  cases n with
  | zero => exact absurd rfl hz
  | succ n => rfl

/-! ## The proof data -/

/-- The proof data of the pass on core `c`: the arrays as the region finds them; after the body at point `t` each
    input's buffer at its block, the block output's and the statistics output's at `outsAt3`'s first two components;
    the invariant `PhiS3`; nothing owed; full shares. -/
def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => (outsAt3 V c t.val t.isLt).1
    | ⟨6, _⟩ => (outsAt3 V c t.val t.isLt).2.1
  Φ t := PhiS3 V c t.val (Nat.le_of_lt_succ t.isLt)
  q _ := fullShare
  owed _ := 0

/-- The proof data's arrays are the region-entry contents. -/
theorem A_eq3 (c : Dev nD) (w : Fin cfg3.W) : (dat3 V c).A w = V c (Pipeline.arrRef spec3 w) := by
  dsimp only [dat3]

/-- The invariant at a point's start, restated at `t.val`. -/
theorem PhiS3_castSucc (c : Dev nD) (t : Fin cfg3.N) :
    (dat3 V c).Φ t.castSucc = PhiS3 V c t.val (Nat.le_of_lt t.isLt) := by
  dsimp only [dat3]; simp only [Fin.coe_castSucc]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = (outsAt3 V c t.val t.isLt).1 := by dsimp only [dat3]
theorem after3_6 (c : Dev nD) (t : Fin cfg3.N) : (dat3 V c).after 6 t = (outsAt3 V c t.val t.isLt).2.1 := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d))
    ∗ (∃ d, owns (c : Thread nD τ) (ms3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t)

set_option maxHeartbeats 4800000 in
/-- The body at any point.  The inputs' memrefs hold their blocks; the point's position says which of the three
    cases it is in; that case's run applies: the invariant hands the body the accumulator rows at what the block before
    left (at anything at the first block) and takes them back at this block's contents; the statistics output's buffer
    is handed back untouched except at the last block; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  rw [show (dat3 V c).leavesExact 3 t = owns (c : Thread nD τ) (ms3_3 t) fullShare ((dat3 V c).after 3 t) from by
    unfold Dat.leavesExact; rw [liveAt3_3 t], after3_3]
  rw [show (dat3 V c).leavesExact 4 t = owns (c : Thread nD τ) (ms3_4 t) fullShare ((dat3 V c).after 4 t) from by
    unfold Dat.leavesExact; rw [liveAt3_4 t], after3_4]
  rw [show (dat3 V c).leavesExact 5 t = owns (c : Thread nD τ) (ms3_5 t) fullShare ((dat3 V c).after 5 t) from by
    unfold Dat.leavesExact; rw [liveAt3_5 t], after3_5]
  have hN : t.val < 20 := lt_of_lt_of_eq t.isLt N3'
  by_cases h0 : t.val = 0
  · rw [Dat.leavesExact_idle (dat3 V c) 6 t (idleAt3_6 t (nc1_3 t (by omega))) (noFlush3_6 t (nc1_3 t (by omega)))]
    rw [outsAt3_A V c t h0]
    unfold outsA3 outs3_A; (try dsimp only)
    rw [PhiS3_castSucc V c t, PhiS3_zero V c _ _ h0, PhiA3_eq]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun3_A c (grid3.coords t) _ _ _ _ _ _ _ _ _ _ _ _ _ _ _ _ _ _ (c0_3 t h0) (nc1_3 t (by omega)) (iblk3 V c 0 t) (iblk3 V c 1 t) (iblk3 V c 2 t) (iblk3 V c 3 t) (iblk3 V c 4 t)).2.2.2.2 _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [HS0]; · iexact HS0
    isplitl [HS1]; · iexact HS1
    iintro ⟨H0, H1, H2, H3, H4, ⟨%e5, H5⟩, H6, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_of_cover _ _ _ _ _ (scover3_A_0 c _ _ _ _ _ _ _ _ _ _ _ _ _ _ _ _ _ _ _ _ _ _ _ _ _ _)
          unfold owns; iexists _; isplitr
          swap; · iexact HS1
          ipureintro; exact View.read_writes_of_cover _ _ _ _ _ (scover3_A_1 c _ _ _ _ _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover3_A_5 c _ _ _ _ _ _ _ _ _ _ _ _ _ _ _ _ _ _ _ _ _ _ _ _ _ _)
    iexists _; iexact H6
  · by_cases h1 : t.val = 19
    · rw [show (dat3 V c).leavesExact 6 t = owns (c : Thread nD τ) (ms3_6 t) fullShare ((dat3 V c).after 6 t) from by
        unfold Dat.leavesExact; rw [liveAt3_6 t (c1_3 t h1)], after3_6]
      rw [outsAt3_C V c t h1]
      unfold outsC3 outs3_C; (try dsimp only)
      rw [PhiS3_castSucc V c t, PhiS3_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun3_C c (grid3.coords t) _ _ _ _ _ _ _ _ _ _ _ _ _ _ _ _ _ _ (nc0_3 t (by omega)) (c1_3 t h1) (iblk3 V c 0 t) (iblk3 V c 1 t) (iblk3 V c 2 t) (iblk3 V c 3 t) (iblk3 V c 4 t) _ _).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HS1]; · iexact HS1
      iintro ⟨H0, H1, H2, H3, H4, ⟨%e5, H5⟩, ⟨%e6, H6⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover3_C_0 c _ _ _ _ _ _ _ _ _ _ _ _ _ _ _ _ _ _ _ _ _ _ _ _ _ _ _ _)
            unfold owns; iexists _; isplitr
            swap; · iexact HS1
            ipureintro; exact View.read_writes_of_cover _ _ _ _ _ (scover3_C_1 c _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover3_C_5 c _ _ _ _ _ _ _ _ _ _ _ _ _ _ _ _ _ _ _ _ _ _ _ _ _ _ _ _)
      unfold owns; iexists _; isplitr
      swap; · iexact H6
      ipureintro; exact View.read_writes_of_cover _ _ _ _ _ (cover3_C_6 c _ _ _ _ _ _ _ _ _ _ _ _ _ _ _ _ _ _ _ _ _ _ _ _ _ _ _ _)
    · rw [Dat.leavesExact_idle (dat3 V c) 6 t (idleAt3_6 t (nc1_3 t h1)) (noFlush3_6 t (nc1_3 t h1))]
      rw [outsAt3_B V c t h0 h1]
      unfold outsB3 outs3_B; (try dsimp only)
      rw [PhiS3_castSucc V c t, PhiS3_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun3_B c (grid3.coords t) _ _ _ _ _ _ _ _ _ _ _ _ _ _ _ _ _ _ (nc0_3 t h0) (nc1_3 t h1) (iblk3 V c 0 t) (iblk3 V c 1 t) (iblk3 V c 2 t) (iblk3 V c 3 t) (iblk3 V c 4 t) _ _).2.2.2.2 _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS0]; · iexact HS0
      isplitl [HS1]; · iexact HS1
      iintro ⟨H0, H1, H2, H3, H4, ⟨%e5, H5⟩, H6, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover3_B_0 c _ _ _ _ _ _ _ _ _ _ _ _ _ _ _ _ _ _ _ _ _ _ _ _ _ _ _ _)
            unfold owns; iexists _; isplitr
            swap; · iexact HS1
            ipureintro; exact View.read_writes_of_cover _ _ _ _ _ (scover3_B_1 c _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover3_B_5 c _ _ _ _ _ _ _ _ _ _ _ _ _ _ _ _ _ _ _ _ _ _ _ _ _ _ _ _)
      iexists _; iexact H6

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first block. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any block the invariant gives the class's back: the accumulator rows' named contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

/-- The same after the last block. -/
theorem hout3 (c : Dev nD) : (dat3 V c).Φ (Fin.last cfg3.N) ⊢ Pipeline.ΦA spec3 c :=
  Phi_out3 V c _ (by rw [Fin.val_last]; have : cfg3.N = 20 := N3'; omega)

end Cert.KernelIdeal.Hand

end
-- ==== Proof.KI.Reg4.lean ====
import proofs.«164503_j82721070121701_1_alg».proof.Proof.Gen.KernelIdeal.Launch
import proofs.«164503_j82721070121701_1_alg».proof.Proof.Gen.KernelIdeal.Skeleton
import proofs.«164503_j82721070121701_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the structural look recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # Region 4: the pointwise normalise-and-clamp over row blocks, at the entry contents `V` -/

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for any proof
    data whose array is `V`'s (`hA`) and whose body leaves the block in place (`hafter`): where the window is
    not fetched its block index has not moved, and the buffer still holds the previous point's block, which is
    this point's; the window is uncut and never idle. -/
theorem before4_0_of {c : Dev nD} (dat : Dat τ (Elt F) Unit ℕ (Pipeline.UD sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not, for any proof
    data whose array is `V`'s (`hA`) and whose body leaves the block in place (`hafter`): where the window is
    not fetched its block index has not moved, and the buffer still holds the previous point's block, which is
    this point's; the window is uncut and never idle. -/
theorem before4_1_of {c : Dev nD} (dat : Dat τ (Elt F) Unit ℕ (Pipeline.UD sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not, for any proof
    data whose array is `V`'s (`hA`) and whose body leaves the block in place (`hafter`): where the window is
    not fetched its block index has not moved, and the buffer still holds the previous point's block, which is
    this point's; the window is uncut and never idle. -/
theorem before4_2_of {c : Dev nD} (dat : Dat τ (Elt F) Unit ℕ (Pipeline.UD sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not, for any proof
    data whose array is `V`'s (`hA`) and whose body leaves the block in place (`hafter`): where the window is
    not fetched its block index has not moved, and the buffer still holds the previous point's block, which is
    this point's; the window is uncut and never idle. -/
theorem before4_3_of {c : Dev nD} (dat : Dat τ (Elt F) Unit ℕ (Pipeline.UD sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current staging buffer holds its block at every point, fetched there or not, for any proof
    data whose array is `V`'s (`hA`) and whose body leaves the block in place (`hafter`): where the window is
    not fetched its block index has not moved, and the buffer still holds the previous point's block, which is
    this point's; the window is uncut and never idle. -/
theorem before4_4_of {c : Dev nD} (dat : Dat τ (Elt F) Unit ℕ (Pipeline.UD sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

/-- The whole row block, and the whole one-row table. -/
abbrev r4_0 : Rect S5000x128 := Rect.unit (s := S5000x128) ![0, 0] S5000x128.size inb_S5000x128_S5000x128_0_0
abbrev r4_1 : Rect S1x128 := Rect.unit (s := S1x128) ![0, 0] S1x128.size inb_S1x128_S1x128_0_0

/-! ## What the body leaves in the output window's buffer -/

/-- Window 5's staging buffer after the body, from the input windows' blocks: its one store, of the whole block.
    The payload reads the row block, then the rows of windows 2, 3, 1 and 4, in that order. -/
def out4_5 (x0 : Vec F S5000x128 .f32) (x1 x2 x3 x4 : Vec F S1x128 .f32) : Vec F S5000x128 .f32 :=
  View.canon [⟨r4_0, k4_pay1 (View.ld x0 r4_0) (View.ld x2 r4_1) (View.ld x3 r4_1) (View.ld x1 r4_1) (View.ld x4 r4_1)⟩]

/-- The one store is of the whole buffer, so it covers it. -/
theorem cover4_5 (p0 : Vec F S5000x128 .f32) (y : S5000x128.Idx) :
    ∃ pc ∈ ([⟨r4_0, p0⟩] : List (View.Piece (Elt F) S5000x128 .f32)), y ∈ pc.1.set :=
  View.cover_of_tiled [⟨r4_0, p0⟩] S5000x128.size (by rfl) y

/-! ## The body's triple -/

set_option maxHeartbeats 1000000 in
/-- The kernel body on whole staging memrefs, the inputs' at read contents `xW` and the output's at anything, runs to
    the continuation holding the inputs' as they were and the output's at `out4_5` of the inputs'. -/
theorem sound_kernel4 (c : Dev nD) (E : Set ℕ) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out4_5 x0 x1 x2 x3 x4)) -∗ K ⟨⟩))
      ⊢ wp frame (wpE (defs₀ (F := F)) Variants.none c none) E (cc4__stageD_kernel i arg1 harg1 arg2 harg2 arg3 harg3 arg4 harg4 arg5 harg5 arg6 harg6) K := by
  simp only [cc4__stageD_kernel_eq_skeleton]; unfold cc4__stageD_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

/-! ## The pipeline's proof data -/

/-- The proof data of region 4 on core `c`: the arrays as the region finds them (`V`); after the body at point `t`
    each input's buffer at its block and the output's at `out4_5` of the input blocks; the invariant is the scoped
    rest and the generator register, untouched; nothing owed; full shares. -/
def dat4 (c : Dev nD) : Dat τ (Elt F) Unit ℕ (Pipeline.UD sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = out4_5 (iblk4 V c 0 t) (iblk4 V c 1 t) (iblk4 V c 2 t) (iblk4 V c 3 t) (iblk4 V c 4 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

/-- The body at any point: the inputs' memrefs hold their blocks, so `sound_kernel4` applies; the invariant and
    the core's debts pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ (grid4.coords t) _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Run.lean ====
/-
  The kernel program's run, assembled.  @main is eighteen items: nine stretches of host operations (the four
  neighbour aggregates), then five row-tiled kernel regions, each followed or preceded by a short host stretch.
  Between two items the TensorCore holds every unscoped buffer at a known valuation: the launch contents, folded
  through each host stretch, with each region's output arrays replaced by what its write-backs leave over its twenty
  grid points.  Each region is entered from the valuation before it and left at the one after it: its windowed
  arrays are split out of the unscoped buffers, handed to the pipeline, and put back with the outputs at their
  folded write-backs; a region's scratch rows live in its own scoped buffers and are forgotten at its end.  No core
  owes anything and the kernels have no semaphores of their own.  From these five records the program's run follows:
  it terminates, the argument arrays end as launched, and the result array ends at what region 4 leaves.
-/
import proofs.«164503_j82721070121701_1_alg».proof.Proof.Gen.KernelIdeal.Launch
import proofs.«164503_j82721070121701_1_alg».proof.Proof.Gen.KernelIdeal.Skeleton
import proofs.«164503_j82721070121701_1_alg».proof.Proof.Gen.KernelIdeal.Points
import proofs.«164503_j82721070121701_1_alg».proof.Proof.Gen.KernelIdeal.Regions
import proofs.«164503_j82721070121701_1_alg».proof.Proof.KI.Reg0
import proofs.«164503_j82721070121701_1_alg».proof.Proof.KI.Reg1
import proofs.«164503_j82721070121701_1_alg».proof.Proof.KI.Reg2
import proofs.«164503_j82721070121701_1_alg».proof.Proof.KI.Reg3
import proofs.«164503_j82721070121701_1_alg».proof.Proof.KI.Reg4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What each region leaves: the contents the generated valuations are written over

The generated valuations between @main's items take, as unknowns, what each region leaves in its output
arrays. They are chosen here stage by stage: region K's outputs are its write-backs folded over the grid
(`Dat.arrAt … N`) from the contents it is entered with, which mention only the earlier regions' outputs. -/

/-- The contents region 0 is entered from, read at the TensorCore's references. -/
abbrev Ve0 : (c : Dev nD) → (b : Ref sig .tc) → Buf (Elt F) ((c : Thread nD τ).loc b) := fun c b => V9 m c b
def o10 (c : Dev nD) : Buf (Elt F) ((c : Thread nD τ).loc main_v61) := (dat0 (Ve0 m) c).arrAt 6 cfg0.N
def outsA : Outs (F := F) := fun _ r c => if h : r = main_v61 then h ▸ o10 m c else m ((c : Thread nD τ).loc r)

abbrev Ve1 : (c : Dev nD) → (b : Ref sig .tc) → Buf (Elt F) ((c : Thread nD τ).loc b) := fun c b => V11 m (outsA m) c b
def o12_0 (c : Dev nD) : Buf (Elt F) ((c : Thread nD τ).loc main_v72_0) := (dat1 (Ve1 m) c).arrAt 3 cfg1.N
def o12_1 (c : Dev nD) : Buf (Elt F) ((c : Thread nD τ).loc main_v72_1) := (dat1 (Ve1 m) c).arrAt 4 cfg1.N
def outsB : Outs (F := F) := fun J r c =>
  if h : r = main_v72_0 then h ▸ o12_0 m c else if h : r = main_v72_1 then h ▸ o12_1 m c else outsA m J r c

abbrev Ve2 : (c : Dev nD) → (b : Ref sig .tc) → Buf (Elt F) ((c : Thread nD τ).loc b) := fun c b => V13 m (outsB m) c b
def o14_0 (c : Dev nD) : Buf (Elt F) ((c : Thread nD τ).loc main_v81_0) := (dat2 (Ve2 m) c).arrAt 7 cfg2.N
def o14_1 (c : Dev nD) : Buf (Elt F) ((c : Thread nD τ).loc main_v81_1) := (dat2 (Ve2 m) c).arrAt 8 cfg2.N
def outsC : Outs (F := F) := fun J r c =>
  if h : r = main_v81_0 then h ▸ o14_0 m c else if h : r = main_v81_1 then h ▸ o14_1 m c else outsB m J r c

abbrev Ve3 : (c : Dev nD) → (b : Ref sig .tc) → Buf (Elt F) ((c : Thread nD τ).loc b) := fun c b => V15 m (outsC m) c b
def o16_0 (c : Dev nD) : Buf (Elt F) ((c : Thread nD τ).loc main_v90_0) := (dat3 (Ve3 m) c).arrAt 5 cfg3.N
def o16_1 (c : Dev nD) : Buf (Elt F) ((c : Thread nD τ).loc main_v90_1) := (dat3 (Ve3 m) c).arrAt 6 cfg3.N
def outsD : Outs (F := F) := fun J r c =>
  if h : r = main_v90_0 then h ▸ o16_0 m c else if h : r = main_v90_1 then h ▸ o16_1 m c else outsC m J r c

abbrev Ve4 : (c : Dev nD) → (b : Ref sig .tc) → Buf (Elt F) ((c : Thread nD τ).loc b) := fun c b => V17 m (outsD m) c b
def o18 (c : Dev nD) : Buf (Elt F) ((c : Thread nD τ).loc main_v99) := (dat4 (Ve4 m) c).arrAt 5 cfg4.N
/-- Every region's outputs, chosen. -/
def outs : Outs (F := F) := fun J r c => if h : r = main_v99 then h ▸ o18 m c else outsD m J r c

theorem outs_v61 (J : ℕ) (c : Dev nD) : outs m J main_v61 c = o10 m c := by
  unfold outs outsD outsC outsB outsA
  rw [dif_neg (by decide), dif_neg (by decide), dif_neg (by decide), dif_neg (by decide), dif_neg (by decide), dif_neg (by decide), dif_neg (by decide), dif_pos rfl]
theorem outsA_v61 (J : ℕ) (c : Dev nD) : outsA m J main_v61 c = o10 m c := by
  unfold outsA; rw [dif_pos rfl]

theorem outs_v72_0 (J : ℕ) (c : Dev nD) : outs m J main_v72_0 c = o12_0 m c := by
  unfold outs outsD outsC outsB
  rw [dif_neg (by decide), dif_neg (by decide), dif_neg (by decide), dif_neg (by decide), dif_neg (by decide), dif_pos rfl]
theorem outs_v72_1 (J : ℕ) (c : Dev nD) : outs m J main_v72_1 c = o12_1 m c := by
  unfold outs outsD outsC outsB
  rw [dif_neg (by decide), dif_neg (by decide), dif_neg (by decide), dif_neg (by decide), dif_neg (by decide), dif_neg (by decide), dif_pos rfl]
theorem outs_v81_0 (J : ℕ) (c : Dev nD) : outs m J main_v81_0 c = o14_0 m c := by
  unfold outs outsD outsC
  rw [dif_neg (by decide), dif_neg (by decide), dif_neg (by decide), dif_pos rfl]
theorem outs_v81_1 (J : ℕ) (c : Dev nD) : outs m J main_v81_1 c = o14_1 m c := by
  unfold outs outsD outsC
  rw [dif_neg (by decide), dif_neg (by decide), dif_neg (by decide), dif_neg (by decide), dif_pos rfl]
theorem outs_v90_0 (J : ℕ) (c : Dev nD) : outs m J main_v90_0 c = o16_0 m c := by
  unfold outs outsD
  rw [dif_neg (by decide), dif_pos rfl]
theorem outs_v90_1 (J : ℕ) (c : Dev nD) : outs m J main_v90_1 c = o16_1 m c := by
  unfold outs outsD
  rw [dif_neg (by decide), dif_neg (by decide), dif_pos rfl]
theorem outs_v99 (J : ℕ) (c : Dev nD) : outs m J main_v99 c = o18 m c := by
  unfold outs; rw [dif_pos rfl]
theorem outsB_v72_0 (J : ℕ) (c : Dev nD) : outsB m J main_v72_0 c = o12_0 m c := by
  unfold outsB; rw [dif_pos rfl]
theorem outsB_v72_1 (J : ℕ) (c : Dev nD) : outsB m J main_v72_1 c = o12_1 m c := by
  unfold outsB; rw [dif_neg (by decide), dif_pos rfl]
theorem outsB_v61 (J : ℕ) (c : Dev nD) : outsB m J main_v61 c = o10 m c := by
  unfold outsB outsA; rw [dif_neg (by decide), dif_neg (by decide), dif_pos rfl]
theorem outsC_v61 (J : ℕ) (c : Dev nD) : outsC m J main_v61 c = o10 m c := by
  unfold outsC; rw [dif_neg (by decide), dif_neg (by decide)]; exact outsB_v61 m J c
theorem outsC_v72_0 (J : ℕ) (c : Dev nD) : outsC m J main_v72_0 c = o12_0 m c := by
  unfold outsC; rw [dif_neg (by decide), dif_neg (by decide)]; exact outsB_v72_0 m J c
theorem outsC_v72_1 (J : ℕ) (c : Dev nD) : outsC m J main_v72_1 c = o12_1 m c := by
  unfold outsC; rw [dif_neg (by decide), dif_neg (by decide)]; exact outsB_v72_1 m J c
theorem outsC_v81_0 (J : ℕ) (c : Dev nD) : outsC m J main_v81_0 c = o14_0 m c := by
  unfold outsC; rw [dif_pos rfl]
theorem outsC_v81_1 (J : ℕ) (c : Dev nD) : outsC m J main_v81_1 c = o14_1 m c := by
  unfold outsC; rw [dif_neg (by decide), dif_pos rfl]
theorem outsD_v61 (J : ℕ) (c : Dev nD) : outsD m J main_v61 c = o10 m c := by
  unfold outsD; rw [dif_neg (by decide), dif_neg (by decide)]; exact outsC_v61 m J c
theorem outsD_v72_0 (J : ℕ) (c : Dev nD) : outsD m J main_v72_0 c = o12_0 m c := by
  unfold outsD; rw [dif_neg (by decide), dif_neg (by decide)]; exact outsC_v72_0 m J c
theorem outsD_v72_1 (J : ℕ) (c : Dev nD) : outsD m J main_v72_1 c = o12_1 m c := by
  unfold outsD; rw [dif_neg (by decide), dif_neg (by decide)]; exact outsC_v72_1 m J c
theorem outsD_v81_0 (J : ℕ) (c : Dev nD) : outsD m J main_v81_0 c = o14_0 m c := by
  unfold outsD; rw [dif_neg (by decide), dif_neg (by decide)]; exact outsC_v81_0 m J c
theorem outsD_v81_1 (J : ℕ) (c : Dev nD) : outsD m J main_v81_1 c = o14_1 m c := by
  unfold outsD; rw [dif_neg (by decide), dif_neg (by decide)]; exact outsC_v81_1 m J c
theorem outsD_v90_0 (J : ℕ) (c : Dev nD) : outsD m J main_v90_0 c = o16_0 m c := by
  unfold outsD; rw [dif_pos rfl]
theorem outsD_v90_1 (J : ℕ) (c : Dev nD) : outsD m J main_v90_1 c = o16_1 m c := by
  unfold outsD; rw [dif_neg (by decide), dif_pos rfl]

/-- The valuations between items read only the earlier regions' outputs: at the final choice they are the staged ones. -/
theorem V10_outs (c : Dev nD) : V10 m (outs m) c = V10 m (outsA m) c := by
  show Function.update (V9 m c) main_v61 (outs m 10 main_v61 c) = Function.update (V9 m c) main_v61 (outsA m 10 main_v61 c)
  rw [outs_v61, outsA_v61]
theorem V11_outs (c : Dev nD) : V11 m (outs m) c = V11 m (outsA m) c := by
  show StableHlo.after hostOps1 (V10 m (outs m) c) = StableHlo.after hostOps1 (V10 m (outsA m) c)
  rw [V10_outs]
theorem V10_outsB (c : Dev nD) : V10 m (outsB m) c = V10 m (outs m) c := by
  show Function.update (V9 m c) main_v61 (outsB m 10 main_v61 c) = Function.update (V9 m c) main_v61 (outs m 10 main_v61 c)
  rw [outs_v61, outsB_v61]
theorem V12_outsB (c : Dev nD) : V12 m (outsB m) c = V12 m (outs m) c := by
  show Function.update (Function.update (StableHlo.after hostOps1 (V10 m (outsB m) c)) main_v72_0 (outsB m 12 main_v72_0 c)) main_v72_1 (outsB m 12 main_v72_1 c)
    = Function.update (Function.update (StableHlo.after hostOps1 (V10 m (outs m) c)) main_v72_0 (outs m 12 main_v72_0 c)) main_v72_1 (outs m 12 main_v72_1 c)
  rw [V10_outsB, outs_v72_0, outs_v72_1, outsB_v72_0, outsB_v72_1]
theorem V13_outs (c : Dev nD) : V13 m (outs m) c = V13 m (outsB m) c := by
  show StableHlo.after hostOps2 (V12 m (outs m) c) = StableHlo.after hostOps2 (V12 m (outsB m) c)
  rw [V12_outsB]
theorem V10_outsC (c : Dev nD) : V10 m (outsC m) c = V10 m (outs m) c := by
  show Function.update (V9 m c) main_v61 (outsC m 10 main_v61 c) = Function.update (V9 m c) main_v61 (outs m 10 main_v61 c)
  rw [outs_v61, outsC_v61]
theorem V12_outsC (c : Dev nD) : V12 m (outsC m) c = V12 m (outs m) c := by
  show Function.update (Function.update (StableHlo.after hostOps1 (V10 m (outsC m) c)) main_v72_0 (outsC m 12 main_v72_0 c)) main_v72_1 (outsC m 12 main_v72_1 c)
    = Function.update (Function.update (StableHlo.after hostOps1 (V10 m (outs m) c)) main_v72_0 (outs m 12 main_v72_0 c)) main_v72_1 (outs m 12 main_v72_1 c)
  rw [V10_outsC, outs_v72_0, outs_v72_1, outsC_v72_0, outsC_v72_1]
theorem V14_outsC (c : Dev nD) : V14 m (outsC m) c = V14 m (outs m) c := by
  show Function.update (Function.update (StableHlo.after hostOps2 (V12 m (outsC m) c)) main_v81_0 (outsC m 14 main_v81_0 c)) main_v81_1 (outsC m 14 main_v81_1 c)
    = Function.update (Function.update (StableHlo.after hostOps2 (V12 m (outs m) c)) main_v81_0 (outs m 14 main_v81_0 c)) main_v81_1 (outs m 14 main_v81_1 c)
  rw [V12_outsC, outs_v81_0, outs_v81_1, outsC_v81_0, outsC_v81_1]
theorem V15_outs (c : Dev nD) : V15 m (outs m) c = V15 m (outsC m) c := by
  show StableHlo.after hostOps3 (V14 m (outs m) c) = StableHlo.after hostOps3 (V14 m (outsC m) c)
  rw [V14_outsC]
theorem V10_outsD (c : Dev nD) : V10 m (outsD m) c = V10 m (outs m) c := by
  show Function.update (V9 m c) main_v61 (outsD m 10 main_v61 c) = Function.update (V9 m c) main_v61 (outs m 10 main_v61 c)
  rw [outs_v61, outsD_v61]
theorem V12_outsD (c : Dev nD) : V12 m (outsD m) c = V12 m (outs m) c := by
  show Function.update (Function.update (StableHlo.after hostOps1 (V10 m (outsD m) c)) main_v72_0 (outsD m 12 main_v72_0 c)) main_v72_1 (outsD m 12 main_v72_1 c)
    = Function.update (Function.update (StableHlo.after hostOps1 (V10 m (outs m) c)) main_v72_0 (outs m 12 main_v72_0 c)) main_v72_1 (outs m 12 main_v72_1 c)
  rw [V10_outsD, outs_v72_0, outs_v72_1, outsD_v72_0, outsD_v72_1]
theorem V14_outsD (c : Dev nD) : V14 m (outsD m) c = V14 m (outs m) c := by
  show Function.update (Function.update (StableHlo.after hostOps2 (V12 m (outsD m) c)) main_v81_0 (outsD m 14 main_v81_0 c)) main_v81_1 (outsD m 14 main_v81_1 c)
    = Function.update (Function.update (StableHlo.after hostOps2 (V12 m (outs m) c)) main_v81_0 (outs m 14 main_v81_0 c)) main_v81_1 (outs m 14 main_v81_1 c)
  rw [V12_outsD, outs_v81_0, outs_v81_1, outsD_v81_0, outsD_v81_1]
theorem V16_outsD (c : Dev nD) : V16 m (outsD m) c = V16 m (outs m) c := by
  show Function.update (Function.update (StableHlo.after hostOps3 (V14 m (outsD m) c)) main_v90_0 (outsD m 16 main_v90_0 c)) main_v90_1 (outsD m 16 main_v90_1 c)
    = Function.update (Function.update (StableHlo.after hostOps3 (V14 m (outs m) c)) main_v90_0 (outs m 16 main_v90_0 c)) main_v90_1 (outs m 16 main_v90_1 c)
  rw [V14_outsD, outs_v90_0, outs_v90_1, outsD_v90_0, outsD_v90_1]
theorem V17_outs (c : Dev nD) : V17 m (outs m) c = V17 m (outsD m) c := by
  show StableHlo.after hostOps4 (V16 m (outs m) c) = StableHlo.after hostOps4 (V16 m (outsD m) c)
  rw [V16_outsD]

/-- Each output array after its region: the chosen contents. -/
theorem V10_out_main_v61 (c : Dev nD) : V10 m (outs m) c main_v61 = o10 m c := by
  show Function.update (V9 m c) main_v61 (outs m 10 main_v61 c) main_v61 = _
  rw [Function.update_self, outs_v61]
theorem V12_out_main_v72_1 (c : Dev nD) : V12 m (outs m) c main_v72_1 = o12_1 m c := by
  show Function.update (Function.update (V11 m (outs m) c) main_v72_0 (outs m 12 main_v72_0 c)) main_v72_1 (outs m 12 main_v72_1 c) main_v72_1 = _
  rw [Function.update_self, outs_v72_1]
theorem V12_out_main_v72_0 (c : Dev nD) : V12 m (outs m) c main_v72_0 = o12_0 m c := by
  show Function.update (Function.update (V11 m (outs m) c) main_v72_0 (outs m 12 main_v72_0 c)) main_v72_1 (outs m 12 main_v72_1 c) main_v72_0 = _
  rw [Function.update_of_ne (StableHlo.devRef_ne_of_ne (by decide : main_v72_0 ≠ main_v72_1)), Function.update_self, outs_v72_0]
theorem V14_out_main_v81_1 (c : Dev nD) : V14 m (outs m) c main_v81_1 = o14_1 m c := by
  show Function.update (Function.update (V13 m (outs m) c) main_v81_0 (outs m 14 main_v81_0 c)) main_v81_1 (outs m 14 main_v81_1 c) main_v81_1 = _
  rw [Function.update_self, outs_v81_1]
theorem V14_out_main_v81_0 (c : Dev nD) : V14 m (outs m) c main_v81_0 = o14_0 m c := by
  show Function.update (Function.update (V13 m (outs m) c) main_v81_0 (outs m 14 main_v81_0 c)) main_v81_1 (outs m 14 main_v81_1 c) main_v81_0 = _
  rw [Function.update_of_ne (StableHlo.devRef_ne_of_ne (by decide : main_v81_0 ≠ main_v81_1)), Function.update_self, outs_v81_0]
theorem V16_out_main_v90_1 (c : Dev nD) : V16 m (outs m) c main_v90_1 = o16_1 m c := by
  show Function.update (Function.update (V15 m (outs m) c) main_v90_0 (outs m 16 main_v90_0 c)) main_v90_1 (outs m 16 main_v90_1 c) main_v90_1 = _
  rw [Function.update_self, outs_v90_1]
theorem V16_out_main_v90_0 (c : Dev nD) : V16 m (outs m) c main_v90_0 = o16_0 m c := by
  show Function.update (Function.update (V15 m (outs m) c) main_v90_0 (outs m 16 main_v90_0 c)) main_v90_1 (outs m 16 main_v90_1 c) main_v90_0 = _
  rw [Function.update_of_ne (StableHlo.devRef_ne_of_ne (by decide : main_v90_0 ≠ main_v90_1)), Function.update_self, outs_v90_0]
theorem V18_out_main_v99 (c : Dev nD) : V18 m (outs m) c main_v99 = o18 m c := by
  show Function.update (V17 m (outs m) c) main_v99 (outs m 18 main_v99 c) main_v99 = _
  rw [Function.update_self, outs_v99]

/-- The contents region 0 leaves, read at the TensorCore's references. -/
abbrev Vx0 : (c : Dev nD) → (b : Ref sig .tc) → Buf (Elt F) ((c : Thread nD τ).loc b) := fun c b => V10 m (outs m) c b
set_option maxHeartbeats 4000000 in
theorem hF0_0 (c : Dev nD) : (dat0 (Ve0 m) c).arrAt 0 cfg0.N = Vx0 m c main_arg0 := by
  refine Eq.trans ((dat0 (Ve0 m) c).arrAt_in 0 rfl _) ?_
  show V9 m c main_arg0 = V10 m (outs m) c main_arg0
  rw [V10_of m (outs m) c main_arg0 (by decide)]
set_option maxHeartbeats 4000000 in
theorem hF0_1 (c : Dev nD) : (dat0 (Ve0 m) c).arrAt 1 cfg0.N = Vx0 m c main_v15 := by
  refine Eq.trans ((dat0 (Ve0 m) c).arrAt_in 1 rfl _) ?_
  show V9 m c main_v15 = V10 m (outs m) c main_v15
  rw [V10_of m (outs m) c main_v15 (by decide)]
set_option maxHeartbeats 4000000 in
theorem hF0_2 (c : Dev nD) : (dat0 (Ve0 m) c).arrAt 2 cfg0.N = Vx0 m c main_v30 := by
  refine Eq.trans ((dat0 (Ve0 m) c).arrAt_in 2 rfl _) ?_
  show V9 m c main_v30 = V10 m (outs m) c main_v30
  rw [V10_of m (outs m) c main_v30 (by decide)]
set_option maxHeartbeats 4000000 in
theorem hF0_3 (c : Dev nD) : (dat0 (Ve0 m) c).arrAt 3 cfg0.N = Vx0 m c main_v45 := by
  refine Eq.trans ((dat0 (Ve0 m) c).arrAt_in 3 rfl _) ?_
  show V9 m c main_v45 = V10 m (outs m) c main_v45
  rw [V10_of m (outs m) c main_v45 (by decide)]
set_option maxHeartbeats 4000000 in
theorem hF0_4 (c : Dev nD) : (dat0 (Ve0 m) c).arrAt 4 cfg0.N = Vx0 m c main_v60 := by
  refine Eq.trans ((dat0 (Ve0 m) c).arrAt_in 4 rfl _) ?_
  show V9 m c main_v60 = V10 m (outs m) c main_v60
  rw [V10_of m (outs m) c main_v60 (by decide)]
set_option maxHeartbeats 4000000 in
theorem hF0_5 (c : Dev nD) : (dat0 (Ve0 m) c).arrAt 5 cfg0.N = Vx0 m c main_arg19 := by
  refine Eq.trans ((dat0 (Ve0 m) c).arrAt_in 5 rfl _) ?_
  show V9 m c main_arg19 = V10 m (outs m) c main_arg19
  rw [V10_of m (outs m) c main_arg19 (by decide)]
theorem hF0_6 (c : Dev nD) : (dat0 (Ve0 m) c).arrAt 6 cfg0.N = Vx0 m c main_v61 :=
  (V10_out_main_v61 m c).symm
set_option maxHeartbeats 4000000 in
/-- After region 0 each of its arrays holds what the pipeline leaves: an input array what it held (never written), an output its folded write-backs. -/
theorem hF0 (c : Dev nD) (w : Fin cfg0.W) : (dat0 (Ve0 m) c).arrAt w cfg0.N = Vx0 m c (Pipeline.arrRef spec0 w) :=
  match w with
  | ⟨0, _⟩ => hF0_0 m c
  | ⟨1, _⟩ => hF0_1 m c
  | ⟨2, _⟩ => hF0_2 m c
  | ⟨3, _⟩ => hF0_3 m c
  | ⟨4, _⟩ => hF0_4 m c
  | ⟨5, _⟩ => hF0_5 m c
  | ⟨6, _⟩ => hF0_6 m c

/-- Every buffer that is none of region 0's output arrays holds after it what it held before. -/
theorem hrest0 (c : Dev nD) : ∀ b, b ∉ Finset.univ.image (Pipeline.arrRef spec0) → Vx0 m c b = Ve0 m c b := fun b hb =>
  (V10_of m (outs m) c b (by
      intro hmem
      have : b = main_v61 := by simpa using hmem
      exact hb (Finset.mem_image.mpr ⟨6, Finset.mem_univ _, this.symm⟩)))

/-- The contents region 1 leaves, read at the TensorCore's references. -/
abbrev Vx1 : (c : Dev nD) → (b : Ref sig .tc) → Buf (Elt F) ((c : Thread nD τ).loc b) := fun c b => V12 m (outs m) c b
set_option maxHeartbeats 4000000 in
theorem hF1_0 (c : Dev nD) : (dat1 (Ve1 m) c).arrAt 0 cfg1.N = Vx1 m c main_v61 := by
  refine Eq.trans ((dat1 (Ve1 m) c).arrAt_in 0 rfl _) ?_
  show V11 m (outsA m) c main_v61 = V12 m (outs m) c main_v61
  rw [V12_of m (outs m) c main_v61 (by decide), V11_outs]
set_option maxHeartbeats 4000000 in
theorem hF1_1 (c : Dev nD) : (dat1 (Ve1 m) c).arrAt 1 cfg1.N = Vx1 m c main_v62 := by
  refine Eq.trans ((dat1 (Ve1 m) c).arrAt_in 1 rfl _) ?_
  show V11 m (outsA m) c main_v62 = V12 m (outs m) c main_v62
  rw [V12_of m (outs m) c main_v62 (by decide), V11_outs]
set_option maxHeartbeats 4000000 in
theorem hF1_2 (c : Dev nD) : (dat1 (Ve1 m) c).arrAt 2 cfg1.N = Vx1 m c main_v64 := by
  refine Eq.trans ((dat1 (Ve1 m) c).arrAt_in 2 rfl _) ?_
  show V11 m (outsA m) c main_v64 = V12 m (outs m) c main_v64
  rw [V12_of m (outs m) c main_v64 (by decide), V11_outs]
theorem hF1_3 (c : Dev nD) : (dat1 (Ve1 m) c).arrAt 3 cfg1.N = Vx1 m c main_v72_0 :=
  (V12_out_main_v72_0 m c).symm
theorem hF1_4 (c : Dev nD) : (dat1 (Ve1 m) c).arrAt 4 cfg1.N = Vx1 m c main_v72_1 :=
  (V12_out_main_v72_1 m c).symm
set_option maxHeartbeats 4000000 in
/-- After region 1 each of its arrays holds what the pipeline leaves: an input array what it held (never written), an output its folded write-backs. -/
theorem hF1 (c : Dev nD) (w : Fin cfg1.W) : (dat1 (Ve1 m) c).arrAt w cfg1.N = Vx1 m c (Pipeline.arrRef spec1 w) :=
  match w with
  | ⟨0, _⟩ => hF1_0 m c
  | ⟨1, _⟩ => hF1_1 m c
  | ⟨2, _⟩ => hF1_2 m c
  | ⟨3, _⟩ => hF1_3 m c
  | ⟨4, _⟩ => hF1_4 m c

/-- Every buffer that is none of region 1's output arrays holds after it what it held before. -/
theorem hrest1 (c : Dev nD) : ∀ b, b ∉ Finset.univ.image (Pipeline.arrRef spec1) → Vx1 m c b = Ve1 m c b := fun b hb =>
  (V12_of m (outs m) c b (by
      intro hmem
      have : b = main_v72_0 ∨ b = main_v72_1 := by simpa using hmem
      rcases this with h | h
      · exact hb (Finset.mem_image.mpr ⟨3, Finset.mem_univ _, h.symm⟩)
      · exact hb (Finset.mem_image.mpr ⟨4, Finset.mem_univ _, h.symm⟩))).trans (congrFun (V11_outs m c) _)

/-- The contents region 2 leaves, read at the TensorCore's references. -/
abbrev Vx2 : (c : Dev nD) → (b : Ref sig .tc) → Buf (Elt F) ((c : Thread nD τ).loc b) := fun c b => V14 m (outs m) c b
set_option maxHeartbeats 4000000 in
theorem hF2_0 (c : Dev nD) : (dat2 (Ve2 m) c).arrAt 0 cfg2.N = Vx2 m c main_v72_0 := by
  refine Eq.trans ((dat2 (Ve2 m) c).arrAt_in 0 rfl _) ?_
  show V13 m (outsB m) c main_v72_0 = V14 m (outs m) c main_v72_0
  rw [V14_of m (outs m) c main_v72_0 (by decide), V13_outs]
set_option maxHeartbeats 4000000 in
theorem hF2_1 (c : Dev nD) : (dat2 (Ve2 m) c).arrAt 1 cfg2.N = Vx2 m c main_v75 := by
  refine Eq.trans ((dat2 (Ve2 m) c).arrAt_in 1 rfl _) ?_
  show V13 m (outsB m) c main_v75 = V14 m (outs m) c main_v75
  rw [V14_of m (outs m) c main_v75 (by decide), V13_outs]
set_option maxHeartbeats 4000000 in
theorem hF2_2 (c : Dev nD) : (dat2 (Ve2 m) c).arrAt 2 cfg2.N = Vx2 m c main_v80 := by
  refine Eq.trans ((dat2 (Ve2 m) c).arrAt_in 2 rfl _) ?_
  show V13 m (outsB m) c main_v80 = V14 m (outs m) c main_v80
  rw [V14_of m (outs m) c main_v80 (by decide), V13_outs]
set_option maxHeartbeats 4000000 in
theorem hF2_3 (c : Dev nD) : (dat2 (Ve2 m) c).arrAt 3 cfg2.N = Vx2 m c main_v66 := by
  refine Eq.trans ((dat2 (Ve2 m) c).arrAt_in 3 rfl _) ?_
  show V13 m (outsB m) c main_v66 = V14 m (outs m) c main_v66
  rw [V14_of m (outs m) c main_v66 (by decide), V13_outs]
set_option maxHeartbeats 4000000 in
theorem hF2_4 (c : Dev nD) : (dat2 (Ve2 m) c).arrAt 4 cfg2.N = Vx2 m c main_v67 := by
  refine Eq.trans ((dat2 (Ve2 m) c).arrAt_in 4 rfl _) ?_
  show V13 m (outsB m) c main_v67 = V14 m (outs m) c main_v67
  rw [V14_of m (outs m) c main_v67 (by decide), V13_outs]
set_option maxHeartbeats 4000000 in
theorem hF2_5 (c : Dev nD) : (dat2 (Ve2 m) c).arrAt 5 cfg2.N = Vx2 m c main_v63 := by
  refine Eq.trans ((dat2 (Ve2 m) c).arrAt_in 5 rfl _) ?_
  show V13 m (outsB m) c main_v63 = V14 m (outs m) c main_v63
  rw [V14_of m (outs m) c main_v63 (by decide), V13_outs]
set_option maxHeartbeats 4000000 in
theorem hF2_6 (c : Dev nD) : (dat2 (Ve2 m) c).arrAt 6 cfg2.N = Vx2 m c main_v65 := by
  refine Eq.trans ((dat2 (Ve2 m) c).arrAt_in 6 rfl _) ?_
  show V13 m (outsB m) c main_v65 = V14 m (outs m) c main_v65
  rw [V14_of m (outs m) c main_v65 (by decide), V13_outs]
theorem hF2_7 (c : Dev nD) : (dat2 (Ve2 m) c).arrAt 7 cfg2.N = Vx2 m c main_v81_0 :=
  (V14_out_main_v81_0 m c).symm
theorem hF2_8 (c : Dev nD) : (dat2 (Ve2 m) c).arrAt 8 cfg2.N = Vx2 m c main_v81_1 :=
  (V14_out_main_v81_1 m c).symm
set_option maxHeartbeats 4000000 in
/-- After region 2 each of its arrays holds what the pipeline leaves: an input array what it held (never written), an output its folded write-backs. -/
theorem hF2 (c : Dev nD) (w : Fin cfg2.W) : (dat2 (Ve2 m) c).arrAt w cfg2.N = Vx2 m c (Pipeline.arrRef spec2 w) :=
  match w with
  | ⟨0, _⟩ => hF2_0 m c
  | ⟨1, _⟩ => hF2_1 m c
  | ⟨2, _⟩ => hF2_2 m c
  | ⟨3, _⟩ => hF2_3 m c
  | ⟨4, _⟩ => hF2_4 m c
  | ⟨5, _⟩ => hF2_5 m c
  | ⟨6, _⟩ => hF2_6 m c
  | ⟨7, _⟩ => hF2_7 m c
  | ⟨8, _⟩ => hF2_8 m c

/-- Every buffer that is none of region 2's output arrays holds after it what it held before. -/
theorem hrest2 (c : Dev nD) : ∀ b, b ∉ Finset.univ.image (Pipeline.arrRef spec2) → Vx2 m c b = Ve2 m c b := fun b hb =>
  (V14_of m (outs m) c b (by
      intro hmem
      have : b = main_v81_0 ∨ b = main_v81_1 := by simpa using hmem
      rcases this with h | h
      · exact hb (Finset.mem_image.mpr ⟨7, Finset.mem_univ _, h.symm⟩)
      · exact hb (Finset.mem_image.mpr ⟨8, Finset.mem_univ _, h.symm⟩))).trans (congrFun (V13_outs m c) _)

/-- The contents region 3 leaves, read at the TensorCore's references. -/
abbrev Vx3 : (c : Dev nD) → (b : Ref sig .tc) → Buf (Elt F) ((c : Thread nD τ).loc b) := fun c b => V16 m (outs m) c b
set_option maxHeartbeats 4000000 in
theorem hF3_0 (c : Dev nD) : (dat3 (Ve3 m) c).arrAt 0 cfg3.N = Vx3 m c main_v81_0 := by
  refine Eq.trans ((dat3 (Ve3 m) c).arrAt_in 0 rfl _) ?_
  show V15 m (outsC m) c main_v81_0 = V16 m (outs m) c main_v81_0
  rw [V16_of m (outs m) c main_v81_0 (by decide), V15_outs]
set_option maxHeartbeats 4000000 in
theorem hF3_1 (c : Dev nD) : (dat3 (Ve3 m) c).arrAt 1 cfg3.N = Vx3 m c main_v84 := by
  refine Eq.trans ((dat3 (Ve3 m) c).arrAt_in 1 rfl _) ?_
  show V15 m (outsC m) c main_v84 = V16 m (outs m) c main_v84
  rw [V16_of m (outs m) c main_v84 (by decide), V15_outs]
set_option maxHeartbeats 4000000 in
theorem hF3_2 (c : Dev nD) : (dat3 (Ve3 m) c).arrAt 2 cfg3.N = Vx3 m c main_v89 := by
  refine Eq.trans ((dat3 (Ve3 m) c).arrAt_in 2 rfl _) ?_
  show V15 m (outsC m) c main_v89 = V16 m (outs m) c main_v89
  rw [V16_of m (outs m) c main_v89 (by decide), V15_outs]
set_option maxHeartbeats 4000000 in
theorem hF3_3 (c : Dev nD) : (dat3 (Ve3 m) c).arrAt 3 cfg3.N = Vx3 m c main_v68 := by
  refine Eq.trans ((dat3 (Ve3 m) c).arrAt_in 3 rfl _) ?_
  show V15 m (outsC m) c main_v68 = V16 m (outs m) c main_v68
  rw [V16_of m (outs m) c main_v68 (by decide), V15_outs]
set_option maxHeartbeats 4000000 in
theorem hF3_4 (c : Dev nD) : (dat3 (Ve3 m) c).arrAt 4 cfg3.N = Vx3 m c main_v69 := by
  refine Eq.trans ((dat3 (Ve3 m) c).arrAt_in 4 rfl _) ?_
  show V15 m (outsC m) c main_v69 = V16 m (outs m) c main_v69
  rw [V16_of m (outs m) c main_v69 (by decide), V15_outs]
theorem hF3_5 (c : Dev nD) : (dat3 (Ve3 m) c).arrAt 5 cfg3.N = Vx3 m c main_v90_0 :=
  (V16_out_main_v90_0 m c).symm
theorem hF3_6 (c : Dev nD) : (dat3 (Ve3 m) c).arrAt 6 cfg3.N = Vx3 m c main_v90_1 :=
  (V16_out_main_v90_1 m c).symm
set_option maxHeartbeats 4000000 in
/-- After region 3 each of its arrays holds what the pipeline leaves: an input array what it held (never written), an output its folded write-backs. -/
theorem hF3 (c : Dev nD) (w : Fin cfg3.W) : (dat3 (Ve3 m) c).arrAt w cfg3.N = Vx3 m c (Pipeline.arrRef spec3 w) :=
  match w with
  | ⟨0, _⟩ => hF3_0 m c
  | ⟨1, _⟩ => hF3_1 m c
  | ⟨2, _⟩ => hF3_2 m c
  | ⟨3, _⟩ => hF3_3 m c
  | ⟨4, _⟩ => hF3_4 m c
  | ⟨5, _⟩ => hF3_5 m c
  | ⟨6, _⟩ => hF3_6 m c

/-- Every buffer that is none of region 3's output arrays holds after it what it held before. -/
theorem hrest3 (c : Dev nD) : ∀ b, b ∉ Finset.univ.image (Pipeline.arrRef spec3) → Vx3 m c b = Ve3 m c b := fun b hb =>
  (V16_of m (outs m) c b (by
      intro hmem
      have : b = main_v90_0 ∨ b = main_v90_1 := by simpa using hmem
      rcases this with h | h
      · exact hb (Finset.mem_image.mpr ⟨5, Finset.mem_univ _, h.symm⟩)
      · exact hb (Finset.mem_image.mpr ⟨6, Finset.mem_univ _, h.symm⟩))).trans (congrFun (V15_outs m c) _)

/-- The contents region 4 leaves, read at the TensorCore's references. -/
abbrev Vx4 : (c : Dev nD) → (b : Ref sig .tc) → Buf (Elt F) ((c : Thread nD τ).loc b) := fun c b => V18 m (outs m) c b
set_option maxHeartbeats 4000000 in
theorem hF4_0 (c : Dev nD) : (dat4 (Ve4 m) c).arrAt 0 cfg4.N = Vx4 m c main_v90_0 := by
  refine Eq.trans ((dat4 (Ve4 m) c).arrAt_in 0 rfl _) ?_
  show V17 m (outsD m) c main_v90_0 = V18 m (outs m) c main_v90_0
  rw [V18_of m (outs m) c main_v90_0 (by decide), V17_outs]
set_option maxHeartbeats 4000000 in
theorem hF4_1 (c : Dev nD) : (dat4 (Ve4 m) c).arrAt 1 cfg4.N = Vx4 m c main_v93 := by
  refine Eq.trans ((dat4 (Ve4 m) c).arrAt_in 1 rfl _) ?_
  show V17 m (outsD m) c main_v93 = V18 m (outs m) c main_v93
  rw [V18_of m (outs m) c main_v93 (by decide), V17_outs]
set_option maxHeartbeats 4000000 in
theorem hF4_2 (c : Dev nD) : (dat4 (Ve4 m) c).arrAt 2 cfg4.N = Vx4 m c main_v98 := by
  refine Eq.trans ((dat4 (Ve4 m) c).arrAt_in 2 rfl _) ?_
  show V17 m (outsD m) c main_v98 = V18 m (outs m) c main_v98
  rw [V18_of m (outs m) c main_v98 (by decide), V17_outs]
set_option maxHeartbeats 4000000 in
theorem hF4_3 (c : Dev nD) : (dat4 (Ve4 m) c).arrAt 3 cfg4.N = Vx4 m c main_v70 := by
  refine Eq.trans ((dat4 (Ve4 m) c).arrAt_in 3 rfl _) ?_
  show V17 m (outsD m) c main_v70 = V18 m (outs m) c main_v70
  rw [V18_of m (outs m) c main_v70 (by decide), V17_outs]
set_option maxHeartbeats 4000000 in
theorem hF4_4 (c : Dev nD) : (dat4 (Ve4 m) c).arrAt 4 cfg4.N = Vx4 m c main_v71 := by
  refine Eq.trans ((dat4 (Ve4 m) c).arrAt_in 4 rfl _) ?_
  show V17 m (outsD m) c main_v71 = V18 m (outs m) c main_v71
  rw [V18_of m (outs m) c main_v71 (by decide), V17_outs]
theorem hF4_5 (c : Dev nD) : (dat4 (Ve4 m) c).arrAt 5 cfg4.N = Vx4 m c main_v99 :=
  (V18_out_main_v99 m c).symm
set_option maxHeartbeats 4000000 in
/-- After region 4 each of its arrays holds what the pipeline leaves: an input array what it held (never written), an output its folded write-backs. -/
theorem hF4 (c : Dev nD) (w : Fin cfg4.W) : (dat4 (Ve4 m) c).arrAt w cfg4.N = Vx4 m c (Pipeline.arrRef spec4 w) :=
  match w with
  | ⟨0, _⟩ => hF4_0 m c
  | ⟨1, _⟩ => hF4_1 m c
  | ⟨2, _⟩ => hF4_2 m c
  | ⟨3, _⟩ => hF4_3 m c
  | ⟨4, _⟩ => hF4_4 m c
  | ⟨5, _⟩ => hF4_5 m c

/-- Every buffer that is none of region 4's output arrays holds after it what it held before. -/
theorem hrest4 (c : Dev nD) : ∀ b, b ∉ Finset.univ.image (Pipeline.arrRef spec4) → Vx4 m c b = Ve4 m c b := fun b hb =>
  (V18_of m (outs m) c b (by
      intro hmem
      have : b = main_v99 := by simpa using hmem
      exact hb (Finset.mem_image.mpr ⟨5, Finset.mem_univ _, this.symm⟩))).trans (congrFun (V17_outs m c) _)

/-! ## The proof data family, the thread state -/

/-- Every pipeline's proof data, each at its region's entry contents (a literal match on the pipeline). -/
def pdats : (p : Fin 5) → (c : Dev nD) → Dat τ (Elt F) Unit ℕ (Pipeline.UD sig nD τ) ℕ (cfgs p) c
  | ⟨0, _⟩ => fun c => dat0 (Ve0 m) c
  | ⟨1, _⟩ => fun c => dat1 (Ve1 m) c
  | ⟨2, _⟩ => fun c => dat2 (Ve2 m) c
  | ⟨3, _⟩ => fun c => dat3 (Ve3 m) c
  | ⟨4, _⟩ => fun c => dat4 (Ve4 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)

set_option backward.isDefEq.respectTransparency.types false in
/-- REGION 0 over the thread state: entered from every unscoped buffer at the contents before it, left with its output
    arrays at what its write-backs leave; its arrays split out of the unscoped buffers and put back; the generator
    register into the region's invariant and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ve0 m) c).loose
  hwaits := Pipeline.hwaits_of_owed_zero _ _ _ _ L lv 0 fun _ _ => rfl
  pre c := iprop(StableHlo.held (c : Thread nD τ) (Pipeline.ucRefs τ sig) (V9 m c) ∗ R c)
  post c := iprop(StableHlo.held (c : Thread nD τ) (Pipeline.ucRefs τ sig) (V10 m (outs m) c) ∗ R c)
  X c := iprop(∃ r, prngReg c r)
  Y c := iprop(∃ r, prngReg c r)
  Z c := Pipeline.unscopedRest (Ix := Unit) (Name := ℕ) (U := Pipeline.UD sig nD τ) (Lvl := ℕ) spec0 c (Ve0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Ve0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (Ve0 m c) (Vx0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at the contents before it, left with its output
    arrays at what its write-backs leave; its arrays split out of the unscoped buffers and put back; the generator
    register into the region's invariant and out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Ve1 m) c).loose
  hwaits := Pipeline.hwaits_of_owed_zero _ _ _ _ L lv 1 fun _ _ => rfl
  pre c := iprop(StableHlo.held (c : Thread nD τ) (Pipeline.ucRefs τ sig) (V11 m (outsA m) c) ∗ R c)
  post c := iprop(StableHlo.held (c : Thread nD τ) (Pipeline.ucRefs τ sig) (V12 m (outs m) c) ∗ R c)
  X c := iprop(∃ r, prngReg c r)
  Y c := iprop(∃ r, prngReg c r)
  Z c := Pipeline.unscopedRest (Ix := Unit) (Name := ℕ) (U := Pipeline.UD sig nD τ) (Lvl := ℕ) spec1 c (Ve1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Ve1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (Ve1 m) c).Φ 0 from rfl]
    iintro ⟨Hp, -, Hr⟩
    iapply (hin1 (Ve1 m) c)
    unfold Pipeline.ΦA
    isplitl [Hr]; · iexact Hr
    iexact Hp
  hout c := by
    rw [Pipeline.ownSems0_none, show (pdats m 1 c).Φ (Fin.last _) = (dat1 (Ve1 m) c).Φ (Fin.last cfg1.N) from rfl]
    iintro H
    ihave H' := (hout1 (Ve1 m) c) $$ H
    unfold Pipeline.ΦA
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (Ve1 m c) (Vx1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at the contents before it, left with its output
    arrays at what its write-backs leave; its arrays split out of the unscoped buffers and put back; the generator
    register into the region's invariant and out; nothing owed; no semaphore of the kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Ve2 m) c).loose
  hwaits := Pipeline.hwaits_of_owed_zero _ _ _ _ L lv 2 fun _ _ => rfl
  pre c := iprop(StableHlo.held (c : Thread nD τ) (Pipeline.ucRefs τ sig) (V13 m (outsB m) c) ∗ R c)
  post c := iprop(StableHlo.held (c : Thread nD τ) (Pipeline.ucRefs τ sig) (V14 m (outs m) c) ∗ R c)
  X c := iprop(∃ r, prngReg c r)
  Y c := iprop(∃ r, prngReg c r)
  Z c := Pipeline.unscopedRest (Ix := Unit) (Name := ℕ) (U := Pipeline.UD sig nD τ) (Lvl := ℕ) spec2 c (Ve2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Ve2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = (dat2 (Ve2 m) c).Φ 0 from rfl]
    iintro ⟨Hp, -, Hr⟩
    iapply (hin2 (Ve2 m) c)
    unfold Pipeline.ΦA
    isplitl [Hr]; · iexact Hr
    iexact Hp
  hout c := by
    rw [Pipeline.ownSems0_none, show (pdats m 2 c).Φ (Fin.last _) = (dat2 (Ve2 m) c).Φ (Fin.last cfg2.N) from rfl]
    iintro H
    ihave H' := (hout2 (Ve2 m) c) $$ H
    unfold Pipeline.ΦA
    icases H' with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m) ((pdats m 2 c).share_full fun _ => rfl)
      (Ve2 m c) (Vx2 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 over the thread state: entered from every unscoped buffer at the contents before it, left with its output
    arrays at what its write-backs leave; its arrays split out of the unscoped buffers and put back; the generator
    register into the region's invariant and out; nothing owed; no semaphore of the kernel's own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Ve3 m) c).loose
  hwaits := Pipeline.hwaits_of_owed_zero _ _ _ _ L lv 3 fun _ _ => rfl
  pre c := iprop(StableHlo.held (c : Thread nD τ) (Pipeline.ucRefs τ sig) (V15 m (outsC m) c) ∗ R c)
  post c := iprop(StableHlo.held (c : Thread nD τ) (Pipeline.ucRefs τ sig) (V16 m (outs m) c) ∗ R c)
  X c := iprop(∃ r, prngReg c r)
  Y c := iprop(∃ r, prngReg c r)
  Z c := Pipeline.unscopedRest (Ix := Unit) (Name := ℕ) (U := Pipeline.UD sig nD τ) (Lvl := ℕ) spec3 c (Ve3 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (Ve3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = (dat3 (Ve3 m) c).Φ 0 from rfl]
    iintro ⟨Hp, -, Hr⟩
    iapply (hin3 (Ve3 m) c)
    unfold Pipeline.ΦA
    isplitl [Hr]; · iexact Hr
    iexact Hp
  hout c := by
    rw [Pipeline.ownSems0_none, show (pdats m 3 c).Φ (Fin.last _) = (dat3 (Ve3 m) c).Φ (Fin.last cfg3.N) from rfl]
    iintro H
    ihave H' := (hout3 (Ve3 m) c) $$ H
    unfold Pipeline.ΦA
    icases H' with ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := Pipeline.UD sig nD τ) (Lvl := ℕ)
      launch3.win launch3.arr_whole c (pdats m) ((pdats m 3 c).share_full fun _ => rfl)
      (Ve3 m c) (Vx3 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 4 over the thread state: entered from every unscoped buffer at the contents before it, left with its output
    arrays at what its write-backs leave; its arrays split out of the unscoped buffers and put back; the generator
    register into the region's invariant and out; nothing owed; no semaphore of the kernel's own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (Ve4 m) c).loose
  hwaits := Pipeline.hwaits_of_owed_zero _ _ _ _ L lv 4 fun _ _ => rfl
  pre c := iprop(StableHlo.held (c : Thread nD τ) (Pipeline.ucRefs τ sig) (V17 m (outsD m) c) ∗ R c)
  post c := iprop(StableHlo.held (c : Thread nD τ) (Pipeline.ucRefs τ sig) (V18 m (outs m) c) ∗ R c)
  X c := iprop(∃ r, prngReg c r)
  Y c := iprop(∃ r, prngReg c r)
  Z c := Pipeline.unscopedRest (Ix := Unit) (Name := ℕ) (U := Pipeline.UD sig nD τ) (Lvl := ℕ) spec4 c (Ve4 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (Ve4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := Pipeline.UD sig nD τ) (Lvl := ℕ)
      launch4.win launch4.arr_whole c (pdats m) ((pdats m 4 c).share_full fun _ => rfl)
      (Ve4 m c) (Vx4 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

open Idealize.ShloMosaic.Pipeline (Seg HostSeg RegionSeg) in
set_option backward.isDefEq.respectTransparency.types false in
/-- The run with every unscoped buffer named at the end: given the five regions' segment records entered from and left
    at the generated valuations, every weakly fair execution of @main terminates and every final memory holds each
    unscoped buffer at the last valuation — in particular the result array at what region 4 leaves and each argument
    as launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 5) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 6 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE5 : ∀ c : Dev nD, E 5 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V9 m c) ∗ E 0 c) ⊢ R0.pre c)
    (hpost0 : ∀ c : Dev nD, R0.post c ⊢ iprop(StableHlo.held (c : Thread nD τ) (Pipeline.ucRefs τ sig) (V10 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V11 m outs c) ∗ E 1 c) ⊢ R1.pre c)
    (hpost1 : ∀ c : Dev nD, R1.post c ⊢ iprop(StableHlo.held (c : Thread nD τ) (Pipeline.ucRefs τ sig) (V12 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V13 m outs c) ∗ E 2 c) ⊢ R2.pre c)
    (hpost2 : ∀ c : Dev nD, R2.post c ⊢ iprop(StableHlo.held (c : Thread nD τ) (Pipeline.ucRefs τ sig) (V14 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V15 m outs c) ∗ E 3 c) ⊢ R3.pre c)
    (hpost3 : ∀ c : Dev nD, R3.post c ⊢ iprop(StableHlo.held (c : Thread nD τ) (Pipeline.ucRefs τ sig) (V16 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V17 m outs c) ∗ E 4 c) ⊢ R4.pre c)
    (hpost4 : ∀ c : Dev nD, R4.post c ⊢ iprop(StableHlo.held (c : Thread nD τ) (Pipeline.ucRefs τ sig) (V18 m outs c) ∗ E 5 c)) :
    θ_run defs (onTc (τ := τ) (main (F := F))) ⟨m, fun _ => 0, ρ⟩ (fun r => ∀ c : Dev nD,
      ∀ b ∈ Pipeline.ucRefs τ sig, r.2.mem ((c : Thread nD τ).1, b) = V18 m outs c b) := by
  refine Pipeline.θ_run_regions_kit_dev (pcfgs (F := F)) adm pdats ι cellOf_inj EP defs₀ 𝒱₀ L lv m ρ main
    (segs m outs 𝒱₀ L lv E ι pdats R0 R1 R2 R3 R4)
    (fun c Q => by
      rewrite [main_chain c, Seg.run_eq_chain,
        show (segs m outs 𝒱₀ L lv E ι pdats R0 R1 R2 R3 R4 c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V18 m outs c))
    (hch := fun c => ⟨.rfl, .rfl, .rfl, .rfl, .rfl, .rfl, .rfl, .rfl, .rfl, hpre0 c, hpost0 c, hpre1 c, hpost1 c, hpre2 c, hpost2 c, hpre3 c, hpost3 c, hpre4 c, (hpost4 c).trans (sep_mono .rfl (hE5 c))⟩)
    (hinit := ?_) (QY := fun c s => ∀ b ∈ Pipeline.ucRefs τ sig, s.mem ((c : Thread nD τ).1, b) = V18 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    ihave Hr := (pointsTo_read_all (Pipeline.ucRefs τ sig) (fun b => ((c : Thread nD τ).1, b)) (V18 m outs c) s') $$ [Hh HSI]
    · isplitl [Hh] <;> iassumption
    icases Hr with ⟨%h, HSI⟩
    imodintro
    isplitr
    · ipureintro; exact h
    · iexact HSI

/-! ## The frame and the run -/

set_option backward.isDefEq.respectTransparency.types false in
/-- THE FRAME: from any memory with zero counters every weakly fair execution of @main on the TensorCore terminates,
    nothing faulting, and every final state has the twenty argument arrays as launched. -/
theorem frame :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  frame_cond (F := F) m embL () 𝒱₀ L lv (fun _ _ => rfl) ρ (outs m) (pdats m) 0 (fun _ => iprop(emp))
    (initOf (Pipeline.cells cfgs cellOf_inj) (Pipeline.launchToks cfgs cellOf_inj), 1)
    (by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (fun _ c => R c)
    (Pipeline.initEach L lv fun c => by
      iintro ⟨⟨-, HO, -, Hp, -⟩, -⟩
      imodintro
      isplitl [Hp]; · iexists _; iexact Hp
      iexists ∅; iexact HO)
    (fun c => by iintro ⟨-, HO⟩; iexact HO)
    (reg0 m) (fun _ => .rfl) (fun _ => .rfl)
    (reg1 m) (fun c => by rw [V11_outs]; exact .rfl) (fun _ => .rfl)
    (reg2 m) (fun c => by rw [V13_outs]; exact .rfl) (fun _ => .rfl)
    (reg3 m) (fun c => by rw [V15_outs]; exact .rfl) (fun _ => .rfl)
    (reg4 m) (fun c => by rw [V17_outs]; exact .rfl) (fun _ => .rfl)

set_option backward.isDefEq.respectTransparency.types false in
/-- THE RUN WITH VALUES: the same executions end with every unscoped buffer at the last valuation, the result array
    among them at what region 4's write-backs leave. -/
theorem run_vals : θ_run defs (onTc (τ := τ) (main (F := F))) ⟨m, fun _ => 0, ρ⟩ (fun r => ∀ c : Dev nD,
      ∀ b ∈ Pipeline.ucRefs τ sig, r.2.mem ((c : Thread nD τ).1, b) = V18 m (outs m) c b) :=
  run_cond (F := F) m embL () 𝒱₀ L lv (fun _ _ => rfl) ρ (outs m) (pdats m) 0 (fun _ => iprop(emp))
    (initOf (Pipeline.cells cfgs cellOf_inj) (Pipeline.launchToks cfgs cellOf_inj), 1)
    (by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (fun _ c => R c)
    (Pipeline.initEach L lv fun c => by
      iintro ⟨⟨-, HO, -, Hp, -⟩, -⟩
      imodintro
      isplitl [Hp]; · iexists _; iexact Hp
      iexists ∅; iexact HO)
    (fun c => by iintro ⟨-, HO⟩; iexact HO)
    (reg0 m) (fun _ => .rfl) (fun _ => .rfl)
    (reg1 m) (fun c => by rw [V11_outs]; exact .rfl) (fun _ => .rfl)
    (reg2 m) (fun c => by rw [V13_outs]; exact .rfl) (fun _ => .rfl)
    (reg3 m) (fun c => by rw [V15_outs]; exact .rfl) (fun _ => .rfl)
    (reg4 m) (fun c => by rw [V17_outs]; exact .rfl) (fun _ => .rfl)

end Cert.KernelIdeal.Hand

end
-- ==== Proof.KI.RunOut.lean ====
/-
  The kernel program's run with its result named: every weakly fair execution terminates with the result array at
  what the last region's write-backs leave, and the twenty argument arrays as launched.
-/
import proofs.«164503_j82721070121701_1_alg».proof.Proof.KI.Run

set_option maxRecDepth 16384

noncomputable section

namespace Cert.KernelIdeal.Hand

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem run_out : θ_run defs (onTc (τ := τ) (main (F := F))) ⟨m, fun _ => 0, ρ⟩ (fun r => ∀ c : Dev nD,
      r.2.mem ((c.tc : Thread nD τ).loc main_v99) = o18 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c =>
    ⟨(h c _ (mem_uc main_v99 (by decide))).trans (V18_out_main_v99 m c),
      (h c _ (mem_uc main_arg0 (by decide))).trans (V18_main_arg0 m (outs m) c),
      (h c _ (mem_uc main_arg1 (by decide))).trans (V18_main_arg1 m (outs m) c),
      (h c _ (mem_uc main_arg2 (by decide))).trans (V18_main_arg2 m (outs m) c),
      (h c _ (mem_uc main_arg3 (by decide))).trans (V18_main_arg3 m (outs m) c),
      (h c _ (mem_uc main_arg4 (by decide))).trans (V18_main_arg4 m (outs m) c),
      (h c _ (mem_uc main_arg5 (by decide))).trans (V18_main_arg5 m (outs m) c),
      (h c _ (mem_uc main_arg6 (by decide))).trans (V18_main_arg6 m (outs m) c),
      (h c _ (mem_uc main_arg7 (by decide))).trans (V18_main_arg7 m (outs m) c),
      (h c _ (mem_uc main_arg8 (by decide))).trans (V18_main_arg8 m (outs m) c),
      (h c _ (mem_uc main_arg9 (by decide))).trans (V18_main_arg9 m (outs m) c),
      (h c _ (mem_uc main_arg10 (by decide))).trans (V18_main_arg10 m (outs m) c),
      (h c _ (mem_uc main_arg11 (by decide))).trans (V18_main_arg11 m (outs m) c),
      (h c _ (mem_uc main_arg12 (by decide))).trans (V18_main_arg12 m (outs m) c),
      (h c _ (mem_uc main_arg13 (by decide))).trans (V18_main_arg13 m (outs m) c),
      (h c _ (mem_uc main_arg14 (by decide))).trans (V18_main_arg14 m (outs m) c),
      (h c _ (mem_uc main_arg15 (by decide))).trans (V18_main_arg15 m (outs m) c),
      (h c _ (mem_uc main_arg16 (by decide))).trans (V18_main_arg16 m (outs m) c),
      (h c _ (mem_uc main_arg17 (by decide))).trans (V18_main_arg17 m (outs m) c),
      (h c _ (mem_uc main_arg18 (by decide))).trans (V18_main_arg18 m (outs m) c),
      (h c _ (mem_uc main_arg19 (by decide))).trans (V18_main_arg19 m (outs m) c)⟩) (run_vals m ρ)

end Cert.KernelIdeal.Hand

end
-- ==== Proof.KI.HostVals.lean ====
import proofs.«164503_j82721070121701_1_alg».proof.Proof.Gen.KernelIdeal.Regions
import Idealize.ShloMosaic.Lib.StableHlo.Run
import Idealize.ShloMosaic.Lib.ValueIdx
import Idealize.ShloMosaic.Lib.ValueLayout
import Idealize.ShloMosaic.Lib.IdealHost
import Idealize.ShloMosaic.Lib.Pipeline.Value

set_option maxRecDepth 4096

noncomputable section

namespace Cert.KernelIdeal.Hand

open Idealize.ShloMosaic Idealize.ShloMosaic.TcCoe Idealize.SL.Sem Idealize.ShloMosaic.StableHlo Idealize.ShloMosaic.ValueIdx
open Cert.KernelIdeal Cert.KernelIdeal.Gen

section Generic

variable {F : FTy → Type} [FloatOps F]
variable (m : (ℓ : Loc nD τ sig) → Buf (Elt F) ℓ) (outs : Outs (F := F))

/-! # The host stretches between the regions, read as values

Between two regions the host converts and reshapes argument arrays, and turns each two-row statistics array a region
leaves (column sums, column sums of squares) into a mean and a variance. Each buffer a later region stages is stated
here as a function of the contents before the stretch, for arbitrary region outputs `outs`. -/

/-! ## The mean and the variance from a statistics array -/

/-- The batch mean the host computes from a two-row statistics array of 256 columns: row 0 over the row count. -/
def hostMean256 (s : S2x256.Idx → Elt F .f32) : S1x256.Idx → Elt F .f32 :=
  Host.divf (extractStridedSlice S1x256 ![0, 0] s slices_S2x256_S1x256_0_0) (broadcastInDim S1x256 ![] bcast_S_S1x256 (constant S_ .f32 0x47C35000#32))

/-- The batch variance the host computes from it: row 1 over the row count, less the mean's square. -/
def hostVar256 (s : S2x256.Idx → Elt F .f32) : S1x256.Idx → Elt F .f32 :=
  subf (Host.divf (extractStridedSlice S1x256 ![1, 0] s slices_S2x256_S1x256_1_0) (broadcastInDim S1x256 ![] bcast_S_S1x256 (constant S_ .f32 0x47C35000#32)))
    (mulf (hostMean256 s) (hostMean256 s))

/-- The batch mean the host computes from a two-row statistics array of 128 columns: row 0 over the row count. -/
def hostMean128 (s : S2x128.Idx → Elt F .f32) : S1x128.Idx → Elt F .f32 :=
  Host.divf (extractStridedSlice S1x128 ![0, 0] s slices_S2x128_S1x128_0_0) (broadcastInDim S1x128 ![] bcast_S_S1x128 (constant S_ .f32 0x47C35000#32))

/-- The batch variance the host computes from it: row 1 over the row count, less the mean's square. -/
def hostVar128 (s : S2x128.Idx → Elt F .f32) : S1x128.Idx → Elt F .f32 :=
  subf (Host.divf (extractStridedSlice S1x128 ![1, 0] s slices_S2x128_S1x128_1_0) (broadcastInDim S1x128 ![] bcast_S_S1x128 (constant S_ .f32 0x47C35000#32)))
    (mulf (hostMean128 s) (hostMean128 s))

/-! ## What each region leaves, read off its unknown -/

theorem V10_main_v61 (c : Dev nD) : V10 m outs c main_v61 = outs 10 main_v61 c := by simp only [V10, Function.update_self]
theorem V12_main_v72_1 (c : Dev nD) : V12 m outs c main_v72_1 = outs 12 main_v72_1 c := by simp only [V12, Function.update_self]
theorem V12_main_v72_0 (c : Dev nD) : V12 m outs c main_v72_0 = outs 12 main_v72_0 c := by
  simp only [V12, Function.update_of_ne (StableHlo.devRef_ne_of_ne (by decide : main_v72_0 ≠ main_v72_1) : (Proc.devRef .tc main_v72_0 : DevRef τ sig) ≠ Proc.devRef .tc main_v72_1), Function.update_self]
theorem V14_main_v81_1 (c : Dev nD) : V14 m outs c main_v81_1 = outs 14 main_v81_1 c := by simp only [V14, Function.update_self]
theorem V14_main_v81_0 (c : Dev nD) : V14 m outs c main_v81_0 = outs 14 main_v81_0 c := by
  simp only [V14, Function.update_of_ne (StableHlo.devRef_ne_of_ne (by decide : main_v81_0 ≠ main_v81_1) : (Proc.devRef .tc main_v81_0 : DevRef τ sig) ≠ Proc.devRef .tc main_v81_1), Function.update_self]
theorem V16_main_v90_1 (c : Dev nD) : V16 m outs c main_v90_1 = outs 16 main_v90_1 c := by simp only [V16, Function.update_self]
theorem V16_main_v90_0 (c : Dev nD) : V16 m outs c main_v90_0 = outs 16 main_v90_0 c := by
  simp only [V16, Function.update_of_ne (StableHlo.devRef_ne_of_ne (by decide : main_v90_0 ≠ main_v90_1) : (Proc.devRef .tc main_v90_0 : DevRef τ sig) ≠ Proc.devRef .tc main_v90_1), Function.update_self]
theorem V18_main_v99 (c : Dev nD) : V18 m outs c main_v99 = outs 18 main_v99 c := by simp only [V18, Function.update_self]

/-- A region's data output is still there when the next region stages it: the stretch between does not write it. -/
theorem V11_main_v61 (c : Dev nD) : V11 m outs c main_v61 = outs 10 main_v61 c :=
  (V11_of m outs c main_v61 (by decide)).trans (V10_main_v61 m outs c)
theorem V13_main_v72_0 (c : Dev nD) : V13 m outs c main_v72_0 = outs 12 main_v72_0 c :=
  (V13_of m outs c main_v72_0 (by decide)).trans (V12_main_v72_0 m outs c)
theorem V15_main_v81_0 (c : Dev nD) : V15 m outs c main_v81_0 = outs 14 main_v81_0 c :=
  (V15_of m outs c main_v81_0 (by decide)).trans (V14_main_v81_0 m outs c)
theorem V17_main_v90_0 (c : Dev nD) : V17 m outs c main_v90_0 = outs 16 main_v90_0 c :=
  (V17_of m outs c main_v90_0 (by decide)).trans (V16_main_v90_0 m outs c)

/-! ## The arguments, unchanged up to the stretch that reads them -/

theorem V9_main_arg0 (c : Dev nD) : V9 m c main_arg0 = m ((c : Thread nD τ).loc main_arg0) :=
  (V9_of m c main_arg0 (by decide)).trans <| (V8_of m c main_arg0 (by decide)).trans <| (V7_of m c main_arg0 (by decide)).trans <| (V6_of m c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide)).trans rfl
theorem V9_main_arg19 (c : Dev nD) : V9 m c main_arg19 = m ((c : Thread nD τ).loc main_arg19) :=
  (V9_of m c main_arg19 (by decide)).trans <| (V8_of m c main_arg19 (by decide)).trans <| (V7_of m c main_arg19 (by decide)).trans <| (V6_of m c main_arg19 (by decide)).trans <| (V5_of m c main_arg19 (by decide)).trans <| (V4_of m c main_arg19 (by decide)).trans <| (V3_of m c main_arg19 (by decide)).trans <| (V2_of m c main_arg19 (by decide)).trans <| (V1_of m c main_arg19 (by decide)).trans rfl
theorem V10_main_arg9 (c : Dev nD) : V10 m outs c main_arg9 = m ((c : Thread nD τ).loc main_arg9) :=
  (V10_of m outs c main_arg9 (by decide)).trans <| (V9_of m c main_arg9 (by decide)).trans <| (V8_of m c main_arg9 (by decide)).trans <| (V7_of m c main_arg9 (by decide)).trans <| (V6_of m c main_arg9 (by decide)).trans <| (V5_of m c main_arg9 (by decide)).trans <| (V4_of m c main_arg9 (by decide)).trans <| (V3_of m c main_arg9 (by decide)).trans <| (V2_of m c main_arg9 (by decide)).trans <| (V1_of m c main_arg9 (by decide)).trans rfl
theorem V10_main_arg10 (c : Dev nD) : V10 m outs c main_arg10 = m ((c : Thread nD τ).loc main_arg10) :=
  (V10_of m outs c main_arg10 (by decide)).trans <| (V9_of m c main_arg10 (by decide)).trans <| (V8_of m c main_arg10 (by decide)).trans <| (V7_of m c main_arg10 (by decide)).trans <| (V6_of m c main_arg10 (by decide)).trans <| (V5_of m c main_arg10 (by decide)).trans <| (V4_of m c main_arg10 (by decide)).trans <| (V3_of m c main_arg10 (by decide)).trans <| (V2_of m c main_arg10 (by decide)).trans <| (V1_of m c main_arg10 (by decide)).trans rfl
theorem V10_main_arg11 (c : Dev nD) : V10 m outs c main_arg11 = m ((c : Thread nD τ).loc main_arg11) :=
  (V10_of m outs c main_arg11 (by decide)).trans <| (V9_of m c main_arg11 (by decide)).trans <| (V8_of m c main_arg11 (by decide)).trans <| (V7_of m c main_arg11 (by decide)).trans <| (V6_of m c main_arg11 (by decide)).trans <| (V5_of m c main_arg11 (by decide)).trans <| (V4_of m c main_arg11 (by decide)).trans <| (V3_of m c main_arg11 (by decide)).trans <| (V2_of m c main_arg11 (by decide)).trans <| (V1_of m c main_arg11 (by decide)).trans rfl
theorem V10_main_arg12 (c : Dev nD) : V10 m outs c main_arg12 = m ((c : Thread nD τ).loc main_arg12) :=
  (V10_of m outs c main_arg12 (by decide)).trans <| (V9_of m c main_arg12 (by decide)).trans <| (V8_of m c main_arg12 (by decide)).trans <| (V7_of m c main_arg12 (by decide)).trans <| (V6_of m c main_arg12 (by decide)).trans <| (V5_of m c main_arg12 (by decide)).trans <| (V4_of m c main_arg12 (by decide)).trans <| (V3_of m c main_arg12 (by decide)).trans <| (V2_of m c main_arg12 (by decide)).trans <| (V1_of m c main_arg12 (by decide)).trans rfl
theorem V10_main_arg13 (c : Dev nD) : V10 m outs c main_arg13 = m ((c : Thread nD τ).loc main_arg13) :=
  (V10_of m outs c main_arg13 (by decide)).trans <| (V9_of m c main_arg13 (by decide)).trans <| (V8_of m c main_arg13 (by decide)).trans <| (V7_of m c main_arg13 (by decide)).trans <| (V6_of m c main_arg13 (by decide)).trans <| (V5_of m c main_arg13 (by decide)).trans <| (V4_of m c main_arg13 (by decide)).trans <| (V3_of m c main_arg13 (by decide)).trans <| (V2_of m c main_arg13 (by decide)).trans <| (V1_of m c main_arg13 (by decide)).trans rfl
theorem V10_main_arg14 (c : Dev nD) : V10 m outs c main_arg14 = m ((c : Thread nD τ).loc main_arg14) :=
  (V10_of m outs c main_arg14 (by decide)).trans <| (V9_of m c main_arg14 (by decide)).trans <| (V8_of m c main_arg14 (by decide)).trans <| (V7_of m c main_arg14 (by decide)).trans <| (V6_of m c main_arg14 (by decide)).trans <| (V5_of m c main_arg14 (by decide)).trans <| (V4_of m c main_arg14 (by decide)).trans <| (V3_of m c main_arg14 (by decide)).trans <| (V2_of m c main_arg14 (by decide)).trans <| (V1_of m c main_arg14 (by decide)).trans rfl
theorem V10_main_arg15 (c : Dev nD) : V10 m outs c main_arg15 = m ((c : Thread nD τ).loc main_arg15) :=
  (V10_of m outs c main_arg15 (by decide)).trans <| (V9_of m c main_arg15 (by decide)).trans <| (V8_of m c main_arg15 (by decide)).trans <| (V7_of m c main_arg15 (by decide)).trans <| (V6_of m c main_arg15 (by decide)).trans <| (V5_of m c main_arg15 (by decide)).trans <| (V4_of m c main_arg15 (by decide)).trans <| (V3_of m c main_arg15 (by decide)).trans <| (V2_of m c main_arg15 (by decide)).trans <| (V1_of m c main_arg15 (by decide)).trans rfl
theorem V10_main_arg16 (c : Dev nD) : V10 m outs c main_arg16 = m ((c : Thread nD τ).loc main_arg16) :=
  (V10_of m outs c main_arg16 (by decide)).trans <| (V9_of m c main_arg16 (by decide)).trans <| (V8_of m c main_arg16 (by decide)).trans <| (V7_of m c main_arg16 (by decide)).trans <| (V6_of m c main_arg16 (by decide)).trans <| (V5_of m c main_arg16 (by decide)).trans <| (V4_of m c main_arg16 (by decide)).trans <| (V3_of m c main_arg16 (by decide)).trans <| (V2_of m c main_arg16 (by decide)).trans <| (V1_of m c main_arg16 (by decide)).trans rfl
theorem V10_main_arg17 (c : Dev nD) : V10 m outs c main_arg17 = m ((c : Thread nD τ).loc main_arg17) :=
  (V10_of m outs c main_arg17 (by decide)).trans <| (V9_of m c main_arg17 (by decide)).trans <| (V8_of m c main_arg17 (by decide)).trans <| (V7_of m c main_arg17 (by decide)).trans <| (V6_of m c main_arg17 (by decide)).trans <| (V5_of m c main_arg17 (by decide)).trans <| (V4_of m c main_arg17 (by decide)).trans <| (V3_of m c main_arg17 (by decide)).trans <| (V2_of m c main_arg17 (by decide)).trans <| (V1_of m c main_arg17 (by decide)).trans rfl
theorem V10_main_arg18 (c : Dev nD) : V10 m outs c main_arg18 = m ((c : Thread nD τ).loc main_arg18) :=
  (V10_of m outs c main_arg18 (by decide)).trans <| (V9_of m c main_arg18 (by decide)).trans <| (V8_of m c main_arg18 (by decide)).trans <| (V7_of m c main_arg18 (by decide)).trans <| (V6_of m c main_arg18 (by decide)).trans <| (V5_of m c main_arg18 (by decide)).trans <| (V4_of m c main_arg18 (by decide)).trans <| (V3_of m c main_arg18 (by decide)).trans <| (V2_of m c main_arg18 (by decide)).trans <| (V1_of m c main_arg18 (by decide)).trans rfl

/-! ## After the first stretch: the weights converted, the vectors reshaped to one row -/

theorem V11_main_v62 (c : Dev nD) : V11 m outs c main_v62 = truncf .bf16 (V10 m outs c main_arg9) bitsLt_bf16_f32 := by
  dsimp only [V11, hostOps1]; after_results <;> rfl
theorem V11_main_v63 (c : Dev nD) : V11 m outs c main_v63 = truncf .bf16 (V10 m outs c main_arg13) bitsLt_bf16_f32 := by
  dsimp only [V11, hostOps1]; after_results <;> rfl
theorem V11_main_v64 (c : Dev nD) : V11 m outs c main_v64 = shapeCast S1x256 (V10 m outs c main_arg10) shapeCasts_S256_S1x256 := by
  dsimp only [V11, hostOps1]; after_results <;> rfl
theorem V11_main_v65 (c : Dev nD) : V11 m outs c main_v65 = shapeCast S1x128 (V10 m outs c main_arg14) shapeCasts_S128_S1x128 := by
  dsimp only [V11, hostOps1]; after_results <;> rfl
theorem V11_main_v66 (c : Dev nD) : V11 m outs c main_v66 = shapeCast S1x256 (V10 m outs c main_arg11) shapeCasts_S256_S1x256 := by
  dsimp only [V11, hostOps1]; after_results <;> rfl
theorem V11_main_v67 (c : Dev nD) : V11 m outs c main_v67 = shapeCast S1x256 (V10 m outs c main_arg12) shapeCasts_S256_S1x256 := by
  dsimp only [V11, hostOps1]; after_results <;> rfl
theorem V11_main_v68 (c : Dev nD) : V11 m outs c main_v68 = shapeCast S1x128 (V10 m outs c main_arg15) shapeCasts_S128_S1x128 := by
  dsimp only [V11, hostOps1]; after_results <;> rfl
theorem V11_main_v69 (c : Dev nD) : V11 m outs c main_v69 = shapeCast S1x128 (V10 m outs c main_arg16) shapeCasts_S128_S1x128 := by
  dsimp only [V11, hostOps1]; after_results <;> rfl
theorem V11_main_v70 (c : Dev nD) : V11 m outs c main_v70 = shapeCast S1x128 (V10 m outs c main_arg17) shapeCasts_S128_S1x128 := by
  dsimp only [V11, hostOps1]; after_results <;> rfl
theorem V11_main_v71 (c : Dev nD) : V11 m outs c main_v71 = shapeCast S1x128 (V10 m outs c main_arg18) shapeCasts_S128_S1x128 := by
  dsimp only [V11, hostOps1]; after_results <;> rfl

/-! ## After each later stretch: the mean and the variance of the statistics the region before it left -/

theorem V13_main_v75 (c : Dev nD) : V13 m outs c main_v75 = hostMean256 (V12 m outs c main_v72_1) := by
  dsimp only [V13, hostOps2]; after_results <;> rfl
theorem V13_main_v80 (c : Dev nD) : V13 m outs c main_v80 = hostVar256 (V12 m outs c main_v72_1) := by
  dsimp only [V13, hostOps2]; after_results <;> rfl
theorem V15_main_v84 (c : Dev nD) : V15 m outs c main_v84 = hostMean128 (V14 m outs c main_v81_1) := by
  dsimp only [V15, hostOps3]; after_results <;> rfl
theorem V15_main_v89 (c : Dev nD) : V15 m outs c main_v89 = hostVar128 (V14 m outs c main_v81_1) := by
  dsimp only [V15, hostOps3]; after_results <;> rfl
theorem V17_main_v93 (c : Dev nD) : V17 m outs c main_v93 = hostMean128 (V16 m outs c main_v90_1) := by
  dsimp only [V17, hostOps4]; after_results <;> rfl
theorem V17_main_v98 (c : Dev nD) : V17 m outs c main_v98 = hostVar128 (V16 m outs c main_v90_1) := by
  dsimp only [V17, hostOps4]; after_results <;> rfl

/-! ## What a later stretch does not write reads as after the first -/

theorem V13_main_v63 (c : Dev nD) : V13 m outs c main_v63 = V11 m outs c main_v63 :=
  (V13_of m outs c main_v63 (by decide)).trans <| (V12_of m outs c main_v63 (by decide))
theorem V13_main_v65 (c : Dev nD) : V13 m outs c main_v65 = V11 m outs c main_v65 :=
  (V13_of m outs c main_v65 (by decide)).trans <| (V12_of m outs c main_v65 (by decide))
theorem V13_main_v66 (c : Dev nD) : V13 m outs c main_v66 = V11 m outs c main_v66 :=
  (V13_of m outs c main_v66 (by decide)).trans <| (V12_of m outs c main_v66 (by decide))
theorem V13_main_v67 (c : Dev nD) : V13 m outs c main_v67 = V11 m outs c main_v67 :=
  (V13_of m outs c main_v67 (by decide)).trans <| (V12_of m outs c main_v67 (by decide))
theorem V15_main_v68 (c : Dev nD) : V15 m outs c main_v68 = V11 m outs c main_v68 :=
  (V15_of m outs c main_v68 (by decide)).trans <| (V14_of m outs c main_v68 (by decide)).trans <| (V13_of m outs c main_v68 (by decide)).trans <| (V12_of m outs c main_v68 (by decide))
theorem V15_main_v69 (c : Dev nD) : V15 m outs c main_v69 = V11 m outs c main_v69 :=
  (V15_of m outs c main_v69 (by decide)).trans <| (V14_of m outs c main_v69 (by decide)).trans <| (V13_of m outs c main_v69 (by decide)).trans <| (V12_of m outs c main_v69 (by decide))
theorem V17_main_v70 (c : Dev nD) : V17 m outs c main_v70 = V11 m outs c main_v70 :=
  (V17_of m outs c main_v70 (by decide)).trans <| (V16_of m outs c main_v70 (by decide)).trans <| (V15_of m outs c main_v70 (by decide)).trans <| (V14_of m outs c main_v70 (by decide)).trans <| (V13_of m outs c main_v70 (by decide)).trans <| (V12_of m outs c main_v70 (by decide))
theorem V17_main_v71 (c : Dev nD) : V17 m outs c main_v71 = V11 m outs c main_v71 :=
  (V17_of m outs c main_v71 (by decide)).trans <| (V16_of m outs c main_v71 (by decide)).trans <| (V15_of m outs c main_v71 (by decide)).trans <| (V14_of m outs c main_v71 (by decide)).trans <| (V13_of m outs c main_v71 (by decide)).trans <| (V12_of m outs c main_v71 (by decide))

end Generic

/-! # The same, index by index, over the ideal values

Over the ideal values a change of float format is the identity, a reshape to one row reads the vector at the column,
and the host's quotient is the ideal division. -/

section AtIdeal

variable (m : (ℓ : Loc nD τ sig) → Buf (Elt Ideal) ℓ) (outs : Outs (F := Ideal))

/-- The host's mean at a column: the statistics array's row 0 there, over the row count. -/
theorem hostMean256_apply (s : S2x256.Idx → Elt Ideal .f32) (u : Fin 1) (j : Fin 256) :
    hostMean256 s (ix2 u j) = Ideal.div (s (ix2 0 j)) (Ideal.ofBits .f32 0x47C35000#32) := by
  unfold hostMean256
  rw [hostDivf_apply, broadcastInDim_scalar_apply, constant_apply,
    slice2_axis0_apply 0 s _ u j 0 (by show 0 = 0 + u.val; omega)]

/-- The host's variance at a column: row 1 there over the row count, less the mean's square. -/
theorem hostVar256_apply (s : S2x256.Idx → Elt Ideal .f32) (u : Fin 1) (j : Fin 256) :
    hostVar256 s (ix2 u j) = Ideal.div (s (ix2 1 j)) (Ideal.ofBits .f32 0x47C35000#32) - hostMean256 s (ix2 u j) * hostMean256 s (ix2 u j) := by
  unfold hostVar256
  rw [subf_apply, mulf_apply, hostDivf_apply, broadcastInDim_scalar_apply, constant_apply,
    slice2_axis0_apply 1 s _ u j 1 (by show 1 = 1 + u.val; omega)]

/-- The host's mean at a column: the statistics array's row 0 there, over the row count. -/
theorem hostMean128_apply (s : S2x128.Idx → Elt Ideal .f32) (u : Fin 1) (j : Fin 128) :
    hostMean128 s (ix2 u j) = Ideal.div (s (ix2 0 j)) (Ideal.ofBits .f32 0x47C35000#32) := by
  unfold hostMean128
  rw [hostDivf_apply, broadcastInDim_scalar_apply, constant_apply,
    slice2_axis0_apply 0 s _ u j 0 (by show 0 = 0 + u.val; omega)]

/-- The host's variance at a column: row 1 there over the row count, less the mean's square. -/
theorem hostVar128_apply (s : S2x128.Idx → Elt Ideal .f32) (u : Fin 1) (j : Fin 128) :
    hostVar128 s (ix2 u j) = Ideal.div (s (ix2 1 j)) (Ideal.ofBits .f32 0x47C35000#32) - hostMean128 s (ix2 u j) * hostMean128 s (ix2 u j) := by
  unfold hostVar128
  rw [subf_apply, mulf_apply, hostDivf_apply, broadcastInDim_scalar_apply, constant_apply,
    slice2_axis0_apply 1 s _ u j 1 (by show 1 = 1 + u.val; omega)]

/-! ## The first stretch -/

theorem V11_main_v62_apply (c : Dev nD) (k : Fin 128) (j : Fin 256) :
    (V11 m outs c main_v62 : S128x256.Idx → Elt Ideal .bf16) (ix2 k j) = (m ((c : Thread nD τ).loc main_arg9) : S128x256.Idx → Elt Ideal .f32) (ix2 k j) := by
  rw [V11_main_v62, V10_main_arg9]; rfl
theorem V11_main_v63_apply (c : Dev nD) (k : Fin 256) (j : Fin 128) :
    (V11 m outs c main_v63 : S256x128.Idx → Elt Ideal .bf16) (ix2 k j) = (m ((c : Thread nD τ).loc main_arg13) : S256x128.Idx → Elt Ideal .f32) (ix2 k j) := by
  rw [V11_main_v63, V10_main_arg13]; rfl
theorem V11_main_v64_apply (c : Dev nD) (u : Fin 1) (j : Fin 256) :
    (V11 m outs c main_v64 : S1x256.Idx → Elt Ideal .f32) (ix2 u j) = (m ((c : Thread nD τ).loc main_arg10) : S256.Idx → Elt Ideal .f32) (ix1 j) := by
  rw [V11_main_v64, V10_main_arg10]; exact shapeCast_a_1a_apply _ _ u j
theorem V11_main_v65_apply (c : Dev nD) (u : Fin 1) (j : Fin 128) :
    (V11 m outs c main_v65 : S1x128.Idx → Elt Ideal .f32) (ix2 u j) = (m ((c : Thread nD τ).loc main_arg14) : S128.Idx → Elt Ideal .f32) (ix1 j) := by
  rw [V11_main_v65, V10_main_arg14]; exact shapeCast_a_1a_apply _ _ u j
theorem V11_main_v66_apply (c : Dev nD) (u : Fin 1) (j : Fin 256) :
    (V11 m outs c main_v66 : S1x256.Idx → Elt Ideal .f32) (ix2 u j) = (m ((c : Thread nD τ).loc main_arg11) : S256.Idx → Elt Ideal .f32) (ix1 j) := by
  rw [V11_main_v66, V10_main_arg11]; exact shapeCast_a_1a_apply _ _ u j
theorem V11_main_v67_apply (c : Dev nD) (u : Fin 1) (j : Fin 256) :
    (V11 m outs c main_v67 : S1x256.Idx → Elt Ideal .f32) (ix2 u j) = (m ((c : Thread nD τ).loc main_arg12) : S256.Idx → Elt Ideal .f32) (ix1 j) := by
  rw [V11_main_v67, V10_main_arg12]; exact shapeCast_a_1a_apply _ _ u j
theorem V11_main_v68_apply (c : Dev nD) (u : Fin 1) (j : Fin 128) :
    (V11 m outs c main_v68 : S1x128.Idx → Elt Ideal .f32) (ix2 u j) = (m ((c : Thread nD τ).loc main_arg15) : S128.Idx → Elt Ideal .f32) (ix1 j) := by
  rw [V11_main_v68, V10_main_arg15]; exact shapeCast_a_1a_apply _ _ u j
theorem V11_main_v69_apply (c : Dev nD) (u : Fin 1) (j : Fin 128) :
    (V11 m outs c main_v69 : S1x128.Idx → Elt Ideal .f32) (ix2 u j) = (m ((c : Thread nD τ).loc main_arg16) : S128.Idx → Elt Ideal .f32) (ix1 j) := by
  rw [V11_main_v69, V10_main_arg16]; exact shapeCast_a_1a_apply _ _ u j
theorem V11_main_v70_apply (c : Dev nD) (u : Fin 1) (j : Fin 128) :
    (V11 m outs c main_v70 : S1x128.Idx → Elt Ideal .f32) (ix2 u j) = (m ((c : Thread nD τ).loc main_arg17) : S128.Idx → Elt Ideal .f32) (ix1 j) := by
  rw [V11_main_v70, V10_main_arg17]; exact shapeCast_a_1a_apply _ _ u j
theorem V11_main_v71_apply (c : Dev nD) (u : Fin 1) (j : Fin 128) :
    (V11 m outs c main_v71 : S1x128.Idx → Elt Ideal .f32) (ix2 u j) = (m ((c : Thread nD τ).loc main_arg18) : S128.Idx → Elt Ideal .f32) (ix1 j) := by
  rw [V11_main_v71, V10_main_arg18]; exact shapeCast_a_1a_apply _ _ u j

/-! ## The later stretches: the mean and the variance at a column -/

theorem V13_main_v75_apply (c : Dev nD) (u : Fin 1) (j : Fin 256) :
    (V13 m outs c main_v75 : S1x256.Idx → Elt Ideal .f32) (ix2 u j) = Ideal.div ((V12 m outs c main_v72_1 : S2x256.Idx → Elt Ideal .f32) (ix2 0 j)) (Ideal.ofBits .f32 0x47C35000#32) := by
  rw [V13_main_v75]; exact hostMean256_apply _ u j
theorem V13_main_v80_apply (c : Dev nD) (u : Fin 1) (j : Fin 256) :
    (V13 m outs c main_v80 : S1x256.Idx → Elt Ideal .f32) (ix2 u j)
      = Ideal.div ((V12 m outs c main_v72_1 : S2x256.Idx → Elt Ideal .f32) (ix2 1 j)) (Ideal.ofBits .f32 0x47C35000#32)
        - Ideal.div ((V12 m outs c main_v72_1 : S2x256.Idx → Elt Ideal .f32) (ix2 0 j)) (Ideal.ofBits .f32 0x47C35000#32) * Ideal.div ((V12 m outs c main_v72_1 : S2x256.Idx → Elt Ideal .f32) (ix2 0 j)) (Ideal.ofBits .f32 0x47C35000#32) := by
  rw [V13_main_v80]; exact (hostVar256_apply _ u j).trans (by rw [hostMean256_apply])
theorem V15_main_v84_apply (c : Dev nD) (u : Fin 1) (j : Fin 128) :
    (V15 m outs c main_v84 : S1x128.Idx → Elt Ideal .f32) (ix2 u j) = Ideal.div ((V14 m outs c main_v81_1 : S2x128.Idx → Elt Ideal .f32) (ix2 0 j)) (Ideal.ofBits .f32 0x47C35000#32) := by
  rw [V15_main_v84]; exact hostMean128_apply _ u j
theorem V15_main_v89_apply (c : Dev nD) (u : Fin 1) (j : Fin 128) :
    (V15 m outs c main_v89 : S1x128.Idx → Elt Ideal .f32) (ix2 u j)
      = Ideal.div ((V14 m outs c main_v81_1 : S2x128.Idx → Elt Ideal .f32) (ix2 1 j)) (Ideal.ofBits .f32 0x47C35000#32)
        - Ideal.div ((V14 m outs c main_v81_1 : S2x128.Idx → Elt Ideal .f32) (ix2 0 j)) (Ideal.ofBits .f32 0x47C35000#32) * Ideal.div ((V14 m outs c main_v81_1 : S2x128.Idx → Elt Ideal .f32) (ix2 0 j)) (Ideal.ofBits .f32 0x47C35000#32) := by
  rw [V15_main_v89]; exact (hostVar128_apply _ u j).trans (by rw [hostMean128_apply])
theorem V17_main_v93_apply (c : Dev nD) (u : Fin 1) (j : Fin 128) :
    (V17 m outs c main_v93 : S1x128.Idx → Elt Ideal .f32) (ix2 u j) = Ideal.div ((V16 m outs c main_v90_1 : S2x128.Idx → Elt Ideal .f32) (ix2 0 j)) (Ideal.ofBits .f32 0x47C35000#32) := by
  rw [V17_main_v93]; exact hostMean128_apply _ u j
theorem V17_main_v98_apply (c : Dev nD) (u : Fin 1) (j : Fin 128) :
    (V17 m outs c main_v98 : S1x128.Idx → Elt Ideal .f32) (ix2 u j)
      = Ideal.div ((V16 m outs c main_v90_1 : S2x128.Idx → Elt Ideal .f32) (ix2 1 j)) (Ideal.ofBits .f32 0x47C35000#32)
        - Ideal.div ((V16 m outs c main_v90_1 : S2x128.Idx → Elt Ideal .f32) (ix2 0 j)) (Ideal.ofBits .f32 0x47C35000#32) * Ideal.div ((V16 m outs c main_v90_1 : S2x128.Idx → Elt Ideal .f32) (ix2 0 j)) (Ideal.ofBits .f32 0x47C35000#32) := by
  rw [V17_main_v98]; exact (hostVar128_apply _ u j).trans (by rw [hostMean128_apply])

/-! ## What the later regions stage of the first stretch's results -/

theorem V13_main_v63_apply (c : Dev nD) (k : Fin 256) (j : Fin 128) :
    (V13 m outs c main_v63 : S256x128.Idx → Elt Ideal .bf16) (ix2 k j) = (m ((c : Thread nD τ).loc main_arg13) : S256x128.Idx → Elt Ideal .f32) (ix2 k j) := by
  rw [V13_main_v63]; exact V11_main_v63_apply m outs c k j
theorem V13_main_v65_apply (c : Dev nD) (u : Fin 1) (j : Fin 128) :
    (V13 m outs c main_v65 : S1x128.Idx → Elt Ideal .f32) (ix2 u j) = (m ((c : Thread nD τ).loc main_arg14) : S128.Idx → Elt Ideal .f32) (ix1 j) := by
  rw [V13_main_v65]; exact V11_main_v65_apply m outs c u j
theorem V13_main_v66_apply (c : Dev nD) (u : Fin 1) (j : Fin 256) :
    (V13 m outs c main_v66 : S1x256.Idx → Elt Ideal .f32) (ix2 u j) = (m ((c : Thread nD τ).loc main_arg11) : S256.Idx → Elt Ideal .f32) (ix1 j) := by
  rw [V13_main_v66]; exact V11_main_v66_apply m outs c u j
theorem V13_main_v67_apply (c : Dev nD) (u : Fin 1) (j : Fin 256) :
    (V13 m outs c main_v67 : S1x256.Idx → Elt Ideal .f32) (ix2 u j) = (m ((c : Thread nD τ).loc main_arg12) : S256.Idx → Elt Ideal .f32) (ix1 j) := by
  rw [V13_main_v67]; exact V11_main_v67_apply m outs c u j
theorem V15_main_v68_apply (c : Dev nD) (u : Fin 1) (j : Fin 128) :
    (V15 m outs c main_v68 : S1x128.Idx → Elt Ideal .f32) (ix2 u j) = (m ((c : Thread nD τ).loc main_arg15) : S128.Idx → Elt Ideal .f32) (ix1 j) := by
  rw [V15_main_v68]; exact V11_main_v68_apply m outs c u j
theorem V15_main_v69_apply (c : Dev nD) (u : Fin 1) (j : Fin 128) :
    (V15 m outs c main_v69 : S1x128.Idx → Elt Ideal .f32) (ix2 u j) = (m ((c : Thread nD τ).loc main_arg16) : S128.Idx → Elt Ideal .f32) (ix1 j) := by
  rw [V15_main_v69]; exact V11_main_v69_apply m outs c u j
theorem V17_main_v70_apply (c : Dev nD) (u : Fin 1) (j : Fin 128) :
    (V17 m outs c main_v70 : S1x128.Idx → Elt Ideal .f32) (ix2 u j) = (m ((c : Thread nD τ).loc main_arg17) : S128.Idx → Elt Ideal .f32) (ix1 j) := by
  rw [V17_main_v70]; exact V11_main_v70_apply m outs c u j
theorem V17_main_v71_apply (c : Dev nD) (u : Fin 1) (j : Fin 128) :
    (V17 m outs c main_v71 : S1x128.Idx → Elt Ideal .f32) (ix2 u j) = (m ((c : Thread nD τ).loc main_arg18) : S128.Idx → Elt Ideal .f32) (ix1 j) := by
  rw [V17_main_v71]; exact V11_main_v71_apply m outs c u j

end AtIdeal

end Cert.KernelIdeal.Hand

end
-- ==== Proof.KI.Rows.lean ====
import proofs.«164503_j82721070121701_1_alg».proof.Proof.Gen.KernelIdeal.Launch
import Idealize.ShloMosaic.Lib.Pipeline.Value
import Idealize.ShloMosaic.Lib.ValueIdx

/-! # Rows of a 100000 × 128 array, in blocks of 5000

The row-tiled kernels cut a 100000 × 128 array into 20 blocks of 5000 rows. Row `p` lies in block `p / 5000`, at
row `p % 5000` of it; row `y` of block `q` is row `5000 q + y` of the array. -/

namespace Cert.KernelIdeal.Hand

open Idealize.ShloMosaic Idealize.ShloMosaic.ValueIdx
open Cert.KernelIdeal Cert.KernelIdeal.Gen

/-- Block `q` of the array `a`: its rows `5000 q … 5000 q + 4999`. -/
def rowBlk {α : Type} (a : S100000x128.Idx → α) (q : Fin 20) : S5000x128.Idx → α := fun y =>
  a (ix2 ⟨5000 * q.val + (y 0).val, by have hq := q.isLt; have hy : (y 0).val < 5000 := idx2_lt0 y; omega⟩ ⟨(y 1).val, idx2_lt1 y⟩)

/-- The block holding row `i 0`. -/
def rowPt (i : S100000x128.Idx) : Fin 20 := ⟨(i 0).val / 5000, by have hi : (i 0).val < 100000 := idx2_lt0 i; omega⟩

/-- The index of `i` inside its block. -/
def rowLoc (i : S100000x128.Idx) : S5000x128.Idx :=
  ix2 ⟨(i 0).val % 5000, Nat.mod_lt _ (by decide)⟩ ⟨(i 1).val, idx2_lt1 i⟩

theorem rowBlk_apply {α : Type} (a : S100000x128.Idx → α) (q : Fin 20) (y : S5000x128.Idx) :
    rowBlk a q y = a (ix2 ⟨5000 * q.val + (y 0).val, by have hq := q.isLt; have hy : (y 0).val < 5000 := idx2_lt0 y; omega⟩ ⟨(y 1).val, idx2_lt1 y⟩) := rfl

theorem rowPt_val (i : S100000x128.Idx) : (rowPt i).val = (i 0).val / 5000 := rfl

theorem rowLoc_zero (i : S100000x128.Idx) : ((rowLoc i) 0).val = (i 0).val % 5000 := rfl

theorem rowLoc_one (i : S100000x128.Idx) : ((rowLoc i) 1).val = (i 1).val := rfl

/-- An array is its blocks, read back: entry `i` is entry `rowLoc i` of block `rowPt i`. -/
theorem rowBlk_rowPt_rowLoc {α : Type} (a : S100000x128.Idx → α) (i : S100000x128.Idx) : rowBlk a (rowPt i) (rowLoc i) = a i := by
  unfold rowBlk
  congr 1
  funext d
  apply Fin.ext
  match d with
  | ⟨0, _⟩ => show 5000 * ((i 0).val / 5000) + (i 0).val % 5000 = (i 0).val; omega
  | ⟨1, _⟩ => rfl

/-- The index of row `y` of block `q` lies in block `q`, at `y`. -/
theorem rowPt_of_row (i : S100000x128.Idx) (q : Fin 20) (y : S5000x128.Idx) (h0 : (i 0).val = 5000 * q.val + (y 0).val) : rowPt i = q := by
  apply Fin.ext
  have hy : (y 0).val < 5000 := idx2_lt0 y
  show (i 0).val / 5000 = q.val
  omega

theorem rowLoc_of_row (i : S100000x128.Idx) (q : Fin 20) (y : S5000x128.Idx) (h0 : (i 0).val = 5000 * q.val + (y 0).val) (h1 : (i 1).val = (y 1).val) :
    rowLoc i = y := by
  funext d
  apply Fin.ext
  have hy : (y 0).val < 5000 := idx2_lt0 y
  match d with
  | ⟨0, _⟩ => show (i 0).val % 5000 = (y 0).val; omega
  | ⟨1, _⟩ => exact h1

theorem zero_offsets2 : (![0, 0] : Fin 2 → Nat) = fun _ => 0 := funext fun a => by fin_cases a <;> rfl

end Cert.KernelIdeal.Hand
-- ==== Proof.KI.Val0.lean ====
import proofs.«164503_j82721070121701_1_alg».proof.Proof.KI.Reg0
import proofs.«164503_j82721070121701_1_alg».proof.Proof.KI.Rows
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

variable {F : FTy → Type} [FloatOps F]

variable (V : (c : Dev nD) → (b : Ref sig .tc) → Buf (Elt F) ((c : Thread nD τ).loc b))

/-! # Region 0's output array as one function of its input arrays -/

/-- The printed index maps, decided over the grid: a row-tiled window's block index is (the point, 0); the
    coefficient table's is (0, 0) at every point. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-! ## The input blocks, read off their arrays -/

/-- Window 0's block at point `t` is rows `5000 t …` of its array. -/
theorem iblk0_0_eq (c : Dev nD) (t : Fin cfg0.N) :
    (iblk0 V c 0 t : Vec F S5000x128 .f32) = rowBlk ((V c (Pipeline.arrRef spec0 0)) : S100000x128.Idx → Elt F .f32) (Fin.cast N_0 t) := by
  obtain ⟨e00, e01, e10, e11, e20, e21, e30, e31, e40, e41, e50, e51, e60, e61⟩ := idx_facts0 t
  funext y
  unfold iblk0
  rw [View.read_apply, rowBlk_apply]
  refine congrArg (V c (Pipeline.arrRef spec0 0) : S100000x128.Idx → Elt F .f32) ?_
  funext a
  apply Fin.ext
  match a with
  | ⟨0, _⟩ => show win0_0.index t (0 : Fin 2) * 5000 + 1 * (y 0).val = 5000 * t.val + (y 0).val; omega
  | ⟨1, _⟩ => show win0_0.index t (1 : Fin 2) * 128 + 1 * (y 1).val = (y 1).val; omega

/-- Window 1's block at point `t` is rows `5000 t …` of its array. -/
theorem iblk0_1_eq (c : Dev nD) (t : Fin cfg0.N) :
    (iblk0 V c 1 t : Vec F S5000x128 .f32) = rowBlk ((V c (Pipeline.arrRef spec0 1)) : S100000x128.Idx → Elt F .f32) (Fin.cast N_0 t) := by
  obtain ⟨e00, e01, e10, e11, e20, e21, e30, e31, e40, e41, e50, e51, e60, e61⟩ := idx_facts0 t
  funext y
  unfold iblk0
  rw [View.read_apply, rowBlk_apply]
  refine congrArg (V c (Pipeline.arrRef spec0 1) : S100000x128.Idx → Elt F .f32) ?_
  funext a
  apply Fin.ext
  match a with
  | ⟨0, _⟩ => show win0_1.index t (0 : Fin 2) * 5000 + 1 * (y 0).val = 5000 * t.val + (y 0).val; omega
  | ⟨1, _⟩ => show win0_1.index t (1 : Fin 2) * 128 + 1 * (y 1).val = (y 1).val; omega

/-- Window 2's block at point `t` is rows `5000 t …` of its array. -/
theorem iblk0_2_eq (c : Dev nD) (t : Fin cfg0.N) :
    (iblk0 V c 2 t : Vec F S5000x128 .f32) = rowBlk ((V c (Pipeline.arrRef spec0 2)) : S100000x128.Idx → Elt F .f32) (Fin.cast N_0 t) := by
  obtain ⟨e00, e01, e10, e11, e20, e21, e30, e31, e40, e41, e50, e51, e60, e61⟩ := idx_facts0 t
  funext y
  unfold iblk0
  rw [View.read_apply, rowBlk_apply]
  refine congrArg (V c (Pipeline.arrRef spec0 2) : S100000x128.Idx → Elt F .f32) ?_
  funext a
  apply Fin.ext
  match a with
  | ⟨0, _⟩ => show win0_2.index t (0 : Fin 2) * 5000 + 1 * (y 0).val = 5000 * t.val + (y 0).val; omega
  | ⟨1, _⟩ => show win0_2.index t (1 : Fin 2) * 128 + 1 * (y 1).val = (y 1).val; omega

/-- Window 3's block at point `t` is rows `5000 t …` of its array. -/
theorem iblk0_3_eq (c : Dev nD) (t : Fin cfg0.N) :
    (iblk0 V c 3 t : Vec F S5000x128 .f32) = rowBlk ((V c (Pipeline.arrRef spec0 3)) : S100000x128.Idx → Elt F .f32) (Fin.cast N_0 t) := by
  obtain ⟨e00, e01, e10, e11, e20, e21, e30, e31, e40, e41, e50, e51, e60, e61⟩ := idx_facts0 t
  funext y
  unfold iblk0
  rw [View.read_apply, rowBlk_apply]
  refine congrArg (V c (Pipeline.arrRef spec0 3) : S100000x128.Idx → Elt F .f32) ?_
  funext a
  apply Fin.ext
  match a with
  | ⟨0, _⟩ => show win0_3.index t (0 : Fin 2) * 5000 + 1 * (y 0).val = 5000 * t.val + (y 0).val; omega
  | ⟨1, _⟩ => show win0_3.index t (1 : Fin 2) * 128 + 1 * (y 1).val = (y 1).val; omega

/-- Window 4's block at point `t` is rows `5000 t …` of its array. -/
theorem iblk0_4_eq (c : Dev nD) (t : Fin cfg0.N) :
    (iblk0 V c 4 t : Vec F S5000x128 .f32) = rowBlk ((V c (Pipeline.arrRef spec0 4)) : S100000x128.Idx → Elt F .f32) (Fin.cast N_0 t) := by
  obtain ⟨e00, e01, e10, e11, e20, e21, e30, e31, e40, e41, e50, e51, e60, e61⟩ := idx_facts0 t
  funext y
  unfold iblk0
  rw [View.read_apply, rowBlk_apply]
  refine congrArg (V c (Pipeline.arrRef spec0 4) : S100000x128.Idx → Elt F .f32) ?_
  funext a
  apply Fin.ext
  match a with
  | ⟨0, _⟩ => show win0_4.index t (0 : Fin 2) * 5000 + 1 * (y 0).val = 5000 * t.val + (y 0).val; omega
  | ⟨1, _⟩ => show win0_4.index t (1 : Fin 2) * 128 + 1 * (y 1).val = (y 1).val; omega

/-- Window 5's block at every point is its whole array. -/
theorem iblk0_5_eq (c : Dev nD) (t : Fin cfg0.N) :
    (iblk0 V c 5 t : Vec F S5x128 .f32) = ((V c (Pipeline.arrRef spec0 5)) : S5x128.Idx → Elt F .f32) := by
  obtain ⟨e00, e01, e10, e11, e20, e21, e30, e31, e40, e41, e50, e51, e60, e61⟩ := idx_facts0 t
  funext y
  unfold iblk0
  rw [View.read_apply]
  refine congrArg (V c (Pipeline.arrRef spec0 5) : S5x128.Idx → Elt F .f32) ?_
  funext a
  apply Fin.ext
  match a with
  | ⟨0, _⟩ => show win0_5.index t (0 : Fin 2) * 5 + 1 * (y 0).val = (y 0).val; omega
  | ⟨1, _⟩ => show win0_5.index t (1 : Fin 2) * 128 + 1 * (y 1).val = (y 1).val; omega

/-! ## The closed form -/

/-- What region 0 leaves in its output array, from its six input arrays: entry `i` is the combine of the blocks
    holding row `i 0`, at `i`'s place in the block. -/
def G0 (a0 a1 a2 a3 a4 : S100000x128.Idx → Elt F .f32) (a5 : S5x128.Idx → Elt F .f32) : S100000x128.Idx → Elt F .f32 := fun i =>
  k0_pay1 a5 (rowBlk a0 (rowPt i)) (rowBlk a1 (rowPt i)) (rowBlk a2 (rowPt i)) (rowBlk a3 (rowPt i)) (rowBlk a4 (rowPt i)) (rowLoc i)

set_option maxHeartbeats 2000000 in
/-- What point `t` writes back is block `t` of `G0` of the arrays as the region finds them. -/
theorem flushed0_eq (c : Dev nD) (t : Fin cfg0.N) :
    (dat0 V c).flushed 6 t = ((cfg0.win 6).blk t).view.read (Elt F) (G0 (V c (Pipeline.arrRef spec0 0)) (V c (Pipeline.arrRef spec0 1)) (V c (Pipeline.arrRef spec0 2)) (V c (Pipeline.arrRef spec0 3)) (V c (Pipeline.arrRef spec0 4)) (V c (Pipeline.arrRef spec0 5))) := by
  show (cfg0.win 6).cut (grid0.coords t) ((dat0 V c).after 6 t) = _
  rw [after0_6]
  unfold out0_6
  rw [View.canon_unit_zero zero_offsets2]
  simp only [View.ld_unit_zero (S := S5000x128) zero_offsets2, View.ld_unit_zero (S := S5x128) zero_offsets2]
  obtain ⟨e00, e01, e10, e11, e20, e21, e30, e31, e40, e41, e50, e51, e60, e61⟩ := idx_facts0 t
  funext j
  rw [View.read_apply]
  unfold G0
  beta_reduce
  have h0 : ((((cfg0.win 6).blk t).view.emb j : S100000x128.Idx) 0).val = 5000 * (Fin.cast N_0 t).val + (j 0).val := by
    show win0_6.index t (0 : Fin 2) * 5000 + 1 * (j 0).val = 5000 * t.val + (j 0).val; omega
  have h1 : ((((cfg0.win 6).blk t).view.emb j : S100000x128.Idx) 1).val = (j 1).val := by
    show win0_6.index t (1 : Fin 2) * 128 + 1 * (j 1).val = (j 1).val; omega
  rw [rowPt_of_row _ _ j h0, rowLoc_of_row _ _ j h0 h1]
  exact congrFun (congr (congr (congr (congr (congr (congrArg k0_pay1 (iblk0_5_eq V c t)) (iblk0_0_eq V c t)) (iblk0_1_eq V c t))
    (iblk0_2_eq V c t)) (iblk0_3_eq V c t)) (iblk0_4_eq V c t)) j

/-! ## The cover -/

/-- An index of the array is in point `t`'s block iff each coordinate is in the block's range on its axis. -/
theorem mem_blk0_6 (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v61).slice (win0_6.rect t)).set ↔ _
  rw [View.set_slice_whole, Rect.mem_set_unit]
  exact Iff.rfl

/-- Every index is in the block of the point `i 0 / 5000`, which writes back. -/
theorem cover0_out (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨e00, e01, e10, e11, e20, e21, e30, e31, e40, e41, e50, e51, e60, e61⟩ := idx_facts0 t
  refine ⟨t, flush0_6 t, ?_⟩
  rw [mem_blk0_6]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 128 ≤ (i 1).val ∧ (i 1).val < win0_6.index t (1 : Fin 2) * 128 + 128; omega

/-! ## The array after the region -/

/-- The output array ends holding `G0` of the input arrays as the region finds them. -/
theorem arrAt0_out (c : Dev nD) :
    (dat0 V c).arrAt 6 cfg0.N = G0 (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) :=
  (dat0 V c).arrAt_eq_of_cover 6 (G0 (V c (Pipeline.arrRef spec0 0)) (V c (Pipeline.arrRef spec0 1)) (V c (Pipeline.arrRef spec0 2)) (V c (Pipeline.arrRef spec0 3)) (V c (Pipeline.arrRef spec0 4)) (V c (Pipeline.arrRef spec0 5))) (fun t _ => flushed0_eq V c t) (fun i => cover0_out i)

end Cert.KernelIdeal.Hand

end
-- ==== Proof.LibMatmulPlain.lean ====
/-
  A plain matrix product at the exact instance, read at an entry.

  For an `A × K` left operand and a `K × B` right operand contracted over the shared axis, accumulated into the zero
  matrix, the entry at `(a, b)` is the sum over `k` of `l[a,k] · r[k,b]`: on the extended reals the product is the
  exact sum, with no rounding and no order of accumulation left in it.
-/
import Idealize.ShloMosaic.Lib.ValueIdx
import Idealize.ShloMosaic.PureOps.Ideal.Laws

noncomputable section

namespace Cert.Lib.MatmulPlain

open Idealize.ShloMosaic Idealize.ShloMosaic.ValueIdx

variable {A K B : ℕ} {φ₁ φ₂ : FTy}

theorem lhs_row (j : (⟨2, ![A, B]⟩ : Shape).Idx) (q : (DotDims.plain A K B).contr.Idx) :
    ((DotDims.plain A K B).lhsIdx j q 0).val = (j 0).val := by
  unfold DotDims.lhsIdx
  rw [dif_neg (show ¬(0 : Fin (⟨2, ![A, K]⟩ : Shape).rank) ∈ (DotDims.plain A K B).lhsBatch from List.not_mem_nil),
    dif_pos (show (0 : Fin (⟨2, ![A, K]⟩ : Shape).rank) ∈ (DotDims.plain A K B).lhsNonContracting from List.mem_singleton.mpr rfl)]
  rfl

theorem lhs_col (j : (⟨2, ![A, B]⟩ : Shape).Idx) (q : (DotDims.plain A K B).contr.Idx) :
    ((DotDims.plain A K B).lhsIdx j q 1).val = (q ⟨0, Nat.one_pos⟩).val :=
  (DotDims.plain A K B).lhsIdx_val_of_single rfl j q

theorem rhs_row (j : (⟨2, ![A, B]⟩ : Shape).Idx) (q : (DotDims.plain A K B).contr.Idx) :
    ((DotDims.plain A K B).rhsIdx j q 0).val = (q ⟨0, Nat.one_pos⟩).val :=
  (DotDims.plain A K B).rhsIdx_val_of_single rfl j q

theorem rhs_col (j : (⟨2, ![A, B]⟩ : Shape).Idx) (q : (DotDims.plain A K B).contr.Idx) :
    ((DotDims.plain A K B).rhsIdx j q 1).val = (j 1).val := by
  unfold DotDims.rhsIdx
  rw [dif_neg (show ¬(1 : Fin (⟨2, ![K, B]⟩ : Shape).rank) ∈ (DotDims.plain A K B).rhsBatch from List.not_mem_nil),
    dif_pos (show (1 : Fin (⟨2, ![K, B]⟩ : Shape).rank) ∈ (DotDims.plain A K B).rhsNonContracting from List.mem_singleton.mpr rfl)]
  rfl

/-- The `(a, b)` entry of an `A × K` by `K × B` product accumulated into zero is `∑ k, l[a,k] · r[k,b]`. -/
theorem matmul_plain_zero_apply (prec : Option ContractPrecision) (l : FVec Ideal ⟨2, ![A, K]⟩ φ₁)
    (r : FVec Ideal ⟨2, ![K, B]⟩ φ₂) (a : Fin A) (b : Fin B) :
    FloatOps.matmul (DotDims.plain A K B) prec l r (constant ⟨2, ![A, B]⟩ .f32 0x00000000#32) (ix2 a b)
      = ∑ k : Fin K, l (ix2 a k) * r (ix2 k b) := by
  rw [Ideal.matmul_constant_zero_apply, ← Equiv.sum_comp (contrEquiv1 (DotDims.plain A K B) K rfl rfl).symm]
  refine Finset.sum_congr rfl fun k _ => ?_
  have hk := contrEquiv1_symm_val (DotDims.plain A K B) K rfl rfl k
  have el : (DotDims.plain A K B).lhsIdx (ix2 a b) ((contrEquiv1 (DotDims.plain A K B) K rfl rfl).symm k) = ix2 a k :=
    funext fun x => Fin.ext (by
      match x with
      | ⟨0, _⟩ => exact lhs_row _ _
      | ⟨1, _⟩ => exact (lhs_col _ _).trans hk)
  have er : (DotDims.plain A K B).rhsIdx (ix2 a b) ((contrEquiv1 (DotDims.plain A K B) K rfl rfl).symm k) = ix2 k b :=
    funext fun x => Fin.ext (by
      match x with
      | ⟨0, _⟩ => exact (rhs_row _ _).trans hk
      | ⟨1, _⟩ => exact rhs_col _ _)
  rw [el, er]

end Cert.Lib.MatmulPlain

end
-- ==== Proof.KI.Pay0.lean ====
/-
  The combine stage's stored value, read at an entry: the weighted sum of the five row blocks.

  Every statement is at the exact instance: floats are extended reals, each operation is the textbook one, and a change
  of float format is the identity. A payload is read at one entry `(r, j)` as a plain expression of its operands' entries.
-/
import proofs.«164503_j82721070121701_1_alg».proof.Proof.Gen.KernelIdeal.Skeleton
import proofs.«164503_j82721070121701_1_alg».proof.Proof.LibMatmulPlain
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic ValueIdx
open scoped BigOperators

/-- Entry `(r, j)` is `(1 + e[0,j]) · x[r,j] + (1 + e[1,j]) · p0[r,j] + (1 + e[2,j]) · p1[r,j] + (1 + e[3,j]) · p2[r,j]
    + (1 + e[4,j]) · p3[r,j]`, summed from the left, `1` being the printed word. -/
theorem k0_pay1_apply (e : Vec Ideal S5x128 .f32) (x p0 p1 p2 p3 : Vec Ideal S5000x128 .f32) (r : Fin 5000) (j : Fin 128) :
    k0_pay1 (F := Ideal) e x p0 p1 p2 p3 (ix2 r j)
      = (((((Ideal.ofBits .f32 0x3F800000#32 + e (ix2 0 j)) * x (ix2 r j)
            + (Ideal.ofBits .f32 0x3F800000#32 + e (ix2 1 j)) * p0 (ix2 r j))
          + (Ideal.ofBits .f32 0x3F800000#32 + e (ix2 2 j)) * p1 (ix2 r j))
        + (Ideal.ofBits .f32 0x3F800000#32 + e (ix2 3 j)) * p2 (ix2 r j))
      + (Ideal.ofBits .f32 0x3F800000#32 + e (ix2 4 j)) * p3 (ix2 r j)) := by
  unfold k0_pay1
  simp only [shapeCast_self, addf_apply, mulf_apply, broadcastTo_1b_ab_apply, broadcast_apply]
  rw [slice2_axis0_apply 0 e _ 0 j 0 rfl, slice2_axis0_apply 1 e _ 0 j 1 rfl, slice2_axis0_apply 2 e _ 0 j 2 rfl,
    slice2_axis0_apply 3 e _ 0 j 3 rfl, slice2_axis0_apply 4 e _ 0 j 4 rfl]
  rfl

end Cert.KernelIdeal.Pay

end
-- ==== Proof.KI.Idx0.lean ====
import proofs.«164503_j82721070121701_1_alg».proof.Proof.KI.Val0
import proofs.«164503_j82721070121701_1_alg».proof.Proof.KI.Pay0

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

/-! # Region 0's output array, read at an entry

At the exact instance the combine stage's output array holds, at row `p` and feature `j`, the weighted sum
`(1 + e[0,j]) · x[p,j] + (1 + e[1,j]) · p0[p,j] + (1 + e[2,j]) · p1[p,j] + (1 + e[3,j]) · p2[p,j] + (1 + e[4,j]) · p3[p,j]`,
summed from the left, of the arrays the region finds on entry. -/

/-- The closed form read at an entry: row `p` lies in block `p / 5000` at row `p % 5000`, and each block's entry there
    is its array's entry at `p`. -/
theorem G0_entry (o a0 a1 a2 a3 a4 : Vec Ideal S100000x128 .f32) (a5 : Vec Ideal S5x128 .f32) (ho : o = G0 a0 a1 a2 a3 a4 a5)
    (p : Fin 100000) (j : Fin 128) :
    o (ix2 p j)
      = (((((Ideal.ofBits .f32 0x3F800000#32 + a5 (ix2 0 j)) * a0 (ix2 p j)
            + (Ideal.ofBits .f32 0x3F800000#32 + a5 (ix2 1 j)) * a1 (ix2 p j))
          + (Ideal.ofBits .f32 0x3F800000#32 + a5 (ix2 2 j)) * a2 (ix2 p j))
        + (Ideal.ofBits .f32 0x3F800000#32 + a5 (ix2 3 j)) * a3 (ix2 p j))
      + (Ideal.ofBits .f32 0x3F800000#32 + a5 (ix2 4 j)) * a4 (ix2 p j)) := by
  subst ho
  have hb : ∀ a : Vec Ideal S100000x128 .f32,
      rowBlk a (rowPt (ix2 p j)) (ix2 ⟨p.val % 5000, Nat.mod_lt _ (by decide)⟩ j) = a (ix2 p j) :=
    fun a => rowBlk_rowPt_rowLoc a (ix2 p j)
  show k0_pay1 (F := Ideal) a5 (rowBlk a0 (rowPt (ix2 p j))) (rowBlk a1 (rowPt (ix2 p j))) (rowBlk a2 (rowPt (ix2 p j)))
      (rowBlk a3 (rowPt (ix2 p j))) (rowBlk a4 (rowPt (ix2 p j))) (ix2 ⟨p.val % 5000, Nat.mod_lt _ (by decide)⟩ j) = _
  rw [Pay.k0_pay1_apply, hb a0, hb a1, hb a2, hb a3, hb a4]

variable (V : (c : Dev nD) → (b : Ref sig .tc) → Buf (Elt Ideal) ((c : Thread nD τ).loc b))

/-- Entry `(p, j)` of the output array after the region, from the entry arrays: with x = `main_arg0`, p0 … p3 =
    `main_v15`, `main_v30`, `main_v45`, `main_v60` and the coefficient table e = `main_arg19` as the region finds them,
    `out[p,j] = (1 + e[0,j]) · x[p,j] + (1 + e[1,j]) · p0[p,j] + (1 + e[2,j]) · p1[p,j] + (1 + e[3,j]) · p2[p,j]
    + (1 + e[4,j]) · p3[p,j]`, summed from the left. -/
theorem idx0_out (c : Dev nD) (p : Fin 100000) (j : Fin 128) :
    type_of% (G0_entry ((dat0 V c).arrAt 6 cfg0.N) (V c main_arg0) (V c main_v15) (V c main_v30) (V c main_v45) (V c main_v60)
      (V c main_arg19) (arrAt0_out V c) p j) :=
  G0_entry ((dat0 V c).arrAt 6 cfg0.N) (V c main_arg0) (V c main_v15) (V c main_v30) (V c main_v45) (V c main_v60)
    (V c main_arg19) (arrAt0_out V c) p j

end Cert.KernelIdeal.Hand

end
-- ==== Proof.KI.Val1.lean ====
import proofs.«164503_j82721070121701_1_alg».proof.Proof.KI.Reg1
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

variable {F : FTy → Type} [FloatOps F]

variable (V : (c : Dev nD) → (b : Ref sig .tc) → Buf (Elt F) ((c : Thread nD τ).loc b))

/-! # Region 1: the two output arrays after the region -/

/-! ## The statistics array: written back by the last point only -/

/-- The last grid point. -/
abbrev t1_last : Fin cfg1.N := ⟨19, by rw [show cfg1.N = 20 from N_1]; decide⟩

/-- At every point the statistics component is the two rows as that point leaves them, row 0 the first. -/
theorem outsAt1_stats (c : Dev nD) (n : ℕ) (hn : n < cfg1.N) :
    (outsAt1 V c n hn).2.1 = stats1 (outsAt1 V c n hn).2.2.1 (outsAt1 V c n hn).2.2.2 := by
  cases n with
  | zero => unfold outsAt1 pt1; rfl
  | succ n => rw [outsAt1_succ V c n hn]; simp only [pt1]

/-- The statistics array after the region: what the last point stored. -/
abbrev statsArr1 (c : Dev nD) : Buf (Elt F) ((c : Thread nD τ).loc main_v72_1) :=
  (outsAt1 V c 19 (by rw [show cfg1.N = 20 from N_1]; decide)).2.1

/-- The one write-back, at the last point, writes it: the array's one block read through zero offsets is the array. -/
theorem flushed1_4_eq (c : Dev nD) (t : Fin cfg1.N) (hf : (cfg1.win 4).flush t = true) :
    (dat1 V c).flushed 4 t = ((cfg1.win 4).blk t).view.read (Elt F) (statsArr1 V c) := by
  have hN : cfg1.N = 20 := N_1
  have h19 : t.val = 19 := by have := (flush1_4 t).mp hf; have := t.isLt; omega
  obtain rfl : t = t1_last := Fin.ext h19
  show (cfg1.win 4).cut (grid1.coords t1_last) ((dat1 V c).after 4 t1_last) = _
  rw [after1_4]
  have hz' : (fun a => win1_4.index t1_last a * main_v72_1.ty.shape.size a) = fun _ => 0 := funext fun a => by fin_cases a <;> decide
  exact (Memref.read_access_unit_zero (Elt F) main_v72_1 hz' (fun a => by rw [congrFun hz' a]; simp) (statsArr1 V c)).symm

/-- So the statistics array ends holding the last point's two row stores. -/
theorem arrAt1_4 (c : Dev nD) : (dat1 V c).arrAt 4 cfg1.N = statsArr1 V c :=
  (dat1 V c).arrAt_eq_of_cover 4 (statsArr1 V c) (flushed1_4_eq V c) fun i =>
    ⟨t1_last, (flush1_4 t1_last).mpr rfl, by
      show i ∈ ((View.whole main_v72_1).slice (win1_4.rect t1_last)).set
      rw [View.set_slice_whole, Rect.mem_set_unit]
      intro a
      have h0 : (i 0 : Nat) < 2 := (i 0).isLt
      have h1 : (i 1 : Nat) < 256 := (i 1).isLt
      match a with
      | ⟨0, _⟩ => show win1_4.index t1_last 0 * win1_4.size 0 ≤ (i 0 : Nat) ∧ (i 0 : Nat) < win1_4.index t1_last 0 * win1_4.size 0 + win1_4.xsize (grid1.coords t1_last) 0
                  rw [show win1_4.index t1_last 0 * win1_4.size 0 = 0 from by decide +kernel, show win1_4.xsize (grid1.coords t1_last) 0 = 2 from by decide +kernel]; omega
      | ⟨1, _⟩ => show win1_4.index t1_last 1 * win1_4.size 1 ≤ (i 1 : Nat) ∧ (i 1 : Nat) < win1_4.index t1_last 1 * win1_4.size 1 + win1_4.xsize (grid1.coords t1_last) 1
                  rw [show win1_4.index t1_last 1 * win1_4.size 1 = 0 from by decide +kernel, show win1_4.xsize (grid1.coords t1_last) 1 = 256 from by decide +kernel]; omega⟩

/-- The same, through the two carried rows after the last point: row 0 the column sums, row 1 the sums of squares. -/
theorem arrAt1_4_rows (c : Dev nD) : (dat1 V c).arrAt 4 cfg1.N
    = stats1 (outsAt1 V c 19 (by rw [show cfg1.N = 20 from N_1]; decide)).2.2.1 (outsAt1 V c 19 (by rw [show cfg1.N = 20 from N_1]; decide)).2.2.2 :=
  (arrAt1_4 V c).trans (outsAt1_stats V c 19 _)

/-! ## The row-block output array: every point writes its block back -/

/-- At every point the row-block component is the product-plus-bias payload of that point's input blocks. -/
theorem outsAt1_fst (c : Dev nD) (t : Fin cfg1.N) :
    (outsAt1 V c t.val t.isLt).1 = hOut1 (iblk1 V c 0 t) (iblk1 V c 1 t) (iblk1 V c 2 t) := by
  by_cases h : t.val = 0
  · rw [outsAt1_zero V c t h]; simp only [pt1]
  · rw [outsAt1_pos V c t h]; simp only [pt1]

/-- The grid point whose block holds row `i 0` of the array, -/
def ptOf1 (i : S100000x256.Idx) : Fin cfg1.N :=
  ⟨(i 0).val / 5000, by have h : (i 0).val < 100000 := (i 0).isLt; rw [show cfg1.N = 20 from N_1]; omega⟩
/-- and the index inside that block. -/
def inBlk1 (i : S100000x256.Idx) : S5000x256.Idx :=
  ix2 (⟨(i 0).val % 5000, Nat.mod_lt _ (by decide)⟩ : Fin 5000) (⟨(i 1).val, (i 1).isLt⟩ : Fin 256)

/-- The row-block output array after the region: row `p`, column `j` ↦ the payload of the input blocks at point
    `p / 5000`, at `(p % 5000, j)`. -/
def hArr1 (c : Dev nD) : Buf (Elt F) ((c : Thread nD τ).loc main_v72_0) := fun (i : S100000x256.Idx) =>
  hOut1 (iblk1 V c 0 (ptOf1 i)) (iblk1 V c 1 (ptOf1 i)) (iblk1 V c 2 (ptOf1 i)) (inBlk1 i)

theorem hArr1_apply (c : Dev nD) (i : S100000x256.Idx) :
    hArr1 V c i = hOut1 (iblk1 V c 0 (ptOf1 i)) (iblk1 V c 1 (ptOf1 i)) (iblk1 V c 2 (ptOf1 i)) (inBlk1 i) := by
  unfold hArr1; rfl

/-- The output window's index map, decided over the grid: block `t` along the rows, block 0 along the columns. -/
theorem idx_facts1_3 : ∀ t : Fin cfg1.N, win1_3.index t (0 : Fin 2) = t.val ∧ win1_3.index t (1 : Fin 2) = 0 :=
  (by decide +kernel : ∀ t : Fin grid1.N, win1_3.index t (0 : Fin 2) = t.val ∧ win1_3.index t (1 : Fin 2) = 0)

/-- What point `t` writes back is block `t` of `hArr1`. -/
theorem flushed1_3_eq (c : Dev nD) (t : Fin cfg1.N) :
    (dat1 V c).flushed 3 t = ((cfg1.win 3).blk t).view.read (Elt F) (hArr1 V c) := by
  show (cfg1.win 3).cut (grid1.coords t) ((dat1 V c).after 3 t) = _
  rw [after1_3, outsAt1_fst]
  obtain ⟨e0, e1⟩ := idx_facts1_3 t
  have key : ∀ j : S5000x256.Idx, hArr1 V c (((cfg1.win 3).blk t).view.emb j)
      = hOut1 (iblk1 V c 0 t) (iblk1 V c 1 t) (iblk1 V c 2 t) j := by
    intro j
    have hj0 : (j 0).val < 5000 := (j 0).isLt
    have hj1 : (j 1).val < 256 := (j 1).isLt
    have hp : ptOf1 (((cfg1.win 3).blk t).view.emb j) = t := by
      apply Fin.ext
      show (win1_3.index t (0 : Fin 2) * 5000 + 1 * (j 0).val) / 5000 = t.val
      omega
    have hi : inBlk1 (((cfg1.win 3).blk t).view.emb j) = j := by
      funext a; apply Fin.ext
      match a with
      | ⟨0, _⟩ => show (win1_3.index t (0 : Fin 2) * 5000 + 1 * (j 0).val) % 5000 = (j 0).val; omega
      | ⟨1, _⟩ => show win1_3.index t (1 : Fin 2) * 256 + 1 * (j 1).val = (j 1).val; omega
    rw [hArr1_apply, hp, hi]
  generalize hOut1 (iblk1 V c 0 t) (iblk1 V c 1 t) (iblk1 V c 2 t) = H at key ⊢
  generalize hArr1 V c = G at key ⊢
  funext j
  show H j = G (((cfg1.win 3).blk t).view.emb j)
  exact (key j).symm

/-- An index of the array is in point `t`'s block iff each coordinate is in the block's range on its axis. -/
theorem mem_blk1_3 (t : Fin cfg1.N) (i : S100000x256.Idx) :
    i ∈ ((cfg1.win 3).blk t).view.set ↔ ∀ a : Fin 2, win1_3.index t a * S5000x256.size a ≤ (i a).val ∧ (i a).val < win1_3.index t a * S5000x256.size a + S5000x256.size a := by
  show i ∈ ((View.whole main_v72_0).slice (win1_3.rect t)).set ↔ _
  rw [View.set_slice_whole, Rect.mem_set_unit]
  exact Iff.rfl

/-- The blocks tile the array (row `p` is in block `p / 5000`), so it ends holding `hArr1`. -/
theorem arrAt1_3 (c : Dev nD) : (dat1 V c).arrAt 3 cfg1.N = hArr1 V c :=
  (dat1 V c).arrAt_eq_of_cover 3 (hArr1 V c) (fun t _ => flushed1_3_eq V c t) fun (i : S100000x256.Idx) => by
    have hi0 : (i 0).val < 100000 := (i 0).isLt
    have hi1 : (i 1).val < 256 := (i 1).isLt
    refine ⟨ptOf1 i, flush1_3 _, ?_⟩
    rw [mem_blk1_3]
    obtain ⟨e0, e1⟩ := idx_facts1_3 (ptOf1 i)
    have hv : (ptOf1 i).val = (i 0).val / 5000 := rfl
    intro a
    match a with
    | ⟨0, _⟩ => show win1_3.index (ptOf1 i) (0 : Fin 2) * 5000 ≤ (i 0).val ∧ (i 0).val < win1_3.index (ptOf1 i) (0 : Fin 2) * 5000 + 5000; omega
    | ⟨1, _⟩ => show win1_3.index (ptOf1 i) (1 : Fin 2) * 256 ≤ (i 1).val ∧ (i 1).val < win1_3.index (ptOf1 i) (1 : Fin 2) * 256 + 256; omega

/-! ## The canonical contents, read -/

theorem hz1 : (![0, 0] : Fin 2 → Nat) = fun _ => 0 := funext fun a => by fin_cases a <;> rfl

/-- A whole-buffer store through zero offsets leaves its payload; a load through it reads what is there. -/
theorem hOut1_eq (x0 : Vec F S5000x128 .f32) (x1 : Vec F S128x256 .bf16) (x2 : Vec F S1x256 .f32) :
    hOut1 x0 x1 x2 = k1_pay3 x0 x1 x2 := by
  unfold hOut1
  rw [View.canon_unit_zero hz1]
  simp only [View.ld_unit_zero (S := S5000x128) hz1, View.ld_unit_zero (S := S128x256) hz1, View.ld_unit_zero (S := S1x256) hz1]
theorem acc1_0_eq (x0 : Vec F S5000x128 .f32) (x1 : Vec F S128x256 .bf16) (x2 : Vec F S1x256 .f32) (s : Vec F S1x256 .f32) :
    acc1_0 x0 x1 x2 s = k1_pay4 x0 x1 x2 s := by
  unfold acc1_0
  rw [View.canon_unit_zero hz1]
  simp only [View.ld_unit_zero (S := S5000x128) hz1, View.ld_unit_zero (S := S128x256) hz1, View.ld_unit_zero (S := S1x256) hz1]
theorem acc1_1_eq (x0 : Vec F S5000x128 .f32) (x1 : Vec F S128x256 .bf16) (x2 : Vec F S1x256 .f32) (s : Vec F S1x256 .f32) :
    acc1_1 x0 x1 x2 s = k1_pay5 x0 x1 x2 s := by
  unfold acc1_1
  rw [View.canon_unit_zero hz1]
  simp only [View.ld_unit_zero (S := S5000x128) hz1, View.ld_unit_zero (S := S128x256) hz1, View.ld_unit_zero (S := S1x256) hz1]
theorem reset1_0_eq : reset1_0 (F := F) = k1_pay1 (F := F) := by
  unfold reset1_0; rw [View.canon_unit_zero hz1]
theorem reset1_1_eq : reset1_1 (F := F) = k1_pay2 (F := F) := by
  unfold reset1_1; rw [View.canon_unit_zero hz1]

/-- Row 1 of the statistics block is the second carried row, -/
theorem stats1_row1 (s0 s1 : Vec F S1x256 .f32) (j : Fin 256) :
    stats1 s0 s1 (ix2 (1 : Fin 2) j) = s1 (ix2 (0 : Fin 1) j) := by
  unfold stats1
  have e : (ix2 (1 : Fin 2) j : S2x256.Idx) = r1_s1.emb (ix2 (0 : Fin 1) j : S1x256.Idx) := by
    funext a; apply Fin.ext
    match a with
    | ⟨0, _⟩ => rfl
    | ⟨1, _⟩ => show j.val = 0 + 1 * j.val; omega
  rw [e, View.canon_cons_emb, View.ld_unit_zero (S := S1x256) hz1]
/-- and row 0 the first. -/
theorem stats1_row0 (s0 s1 : Vec F S1x256 .f32) (j : Fin 256) :
    stats1 s0 s1 (ix2 (0 : Fin 2) j) = s0 (ix2 (0 : Fin 1) j) := by
  unfold stats1
  have hn : (ix2 (0 : Fin 2) j : S2x256.Idx) ∉ r1_s1.set := by
    rw [Rect.mem_set_unit]
    intro h
    have h0 : (1 : ℕ) ≤ 0 := (h 0).1
    omega
  have e : (ix2 (0 : Fin 2) j : S2x256.Idx) = r1_s0.emb (ix2 (0 : Fin 1) j : S1x256.Idx) := by
    funext a; apply Fin.ext
    match a with
    | ⟨0, _⟩ => rfl
    | ⟨1, _⟩ => show j.val = 0 + 1 * j.val; omega
  rw [View.canon_cons_of_not_mem (⟨r1_s1, View.ld s1 r1_b⟩ : View.Piece (Elt F) S2x256 .f32) [⟨r1_s0, View.ld s0 r1_b⟩] hn, e,
    View.canon_cons_emb, View.ld_unit_zero (S := S1x256) hz1]

end Cert.KernelIdeal.Hand

end
-- ==== Proof.KI.Pay1.lean ====
/-
  Stage A's stored values, read at an entry: the reset rows, the affine layer `x · w + b`, and the two running column sums.

  Every statement is at the exact instance: floats are extended reals, each operation is the textbook one, and a change
  of float format is the identity. A payload is read at one entry `(r, j)` as a plain expression of its operands' entries.
-/
import proofs.«164503_j82721070121701_1_alg».proof.Proof.Gen.KernelIdeal.Skeleton
import proofs.«164503_j82721070121701_1_alg».proof.Proof.LibMatmulPlain
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic ValueIdx
open scoped BigOperators

/-- Summing a matrix over its rows: the source entry over the result entry `j` with row coordinate `r` is `(r, j)`. -/
private theorem lift_rows {A B : ℕ} (h : (⟨2, ![A, B]⟩ : Shape).Reduces [(0 : Fin 2)] ⟨1, ![B]⟩) (j : Fin B) (r : Fin A) :
    h.lift (ix1 j) r = ix2 r j := by
  funext c
  apply Fin.ext
  match c with
  | ⟨0, _⟩ => rfl
  | ⟨1, _⟩ => rfl

/-- A column sum of an `A × B` matrix, kept as a `1 × B` row: entry `(0, j)` is `∑ r, src[r, j]`. The two proof arguments
    of the reduction are arbitrary: the sum does not depend on them. -/
private theorem colSum_apply {A B : ℕ} (src : FVec Ideal ⟨2, ![A, B]⟩ .f32)
    (h : (⟨2, ![A, B]⟩ : Shape).Reduces [(0 : Fin 2)] ⟨1, ![B]⟩) (hφ : FKind.Formats .f32)
    (hacc : (0x00000000#32 : BitVec FTy.f32.bits) = FKind.add.neutral .f32 hφ)
    (hc : (⟨1, ![B]⟩ : Shape).ShapeCasts ⟨2, ![1, B]⟩) (j : Fin B) :
    shapeCast ⟨2, ![1, B]⟩ (multiReduction (F := Ideal) .add [(0 : Fin 2)] ⟨1, ![B]⟩ src 0x00000000#32 h hφ hacc) hc (ix2 (0 : Fin 1) j)
      = ∑ r : Fin A, src (ix2 r j) := by
  refine (shapeCast_a_1a_apply _ hc 0 j).trans ?_
  refine (Ideal.multiReduction_add_single src 0x00000000#32 h hφ hacc (ix1 j)).trans ?_
  exact Finset.sum_congr rfl fun r _ => congrArg src (lift_rows h j r)

/-- The first reset row is zero. -/
theorem k1_pay1_apply (j : Fin 256) : k1_pay1 (F := Ideal) (ix2 0 j) = 0 := by
  unfold k1_pay1
  simp only [shapeCast_self]
  exact Ideal.ofBits_zero_f32

/-- The second reset row is zero. -/
theorem k1_pay2_apply (j : Fin 256) : k1_pay2 (F := Ideal) (ix2 0 j) = 0 := by
  unfold k1_pay2
  simp only [shapeCast_self]
  exact Ideal.ofBits_zero_f32

/-- The affine layer: entry `(r, j)` is `∑ k, x[r,k] · w[k,j] + b[0,j]`. -/
theorem k1_pay3_apply (x : Vec Ideal S5000x128 .f32) (w : Vec Ideal S128x256 .bf16) (b : Vec Ideal S1x256 .f32)
    (r : Fin 5000) (j : Fin 256) :
    k1_pay3 (F := Ideal) x w b (ix2 r j) = (∑ k : Fin 128, x (ix2 r k) * w (ix2 k j)) + b (ix2 0 j) := by
  unfold k1_pay3
  simp only [shapeCast_self]
  rw [addf_apply, broadcastTo_1b_ab_apply]
  refine congrArg (· + b (ix2 0 j)) ?_
  exact Cert.Lib.MatmulPlain.matmul_plain_zero_apply (A := 5000) (K := 128) (B := 256) none _ _ r j

/-- The running column sum: the carried row plus the block's column sums of the affine layer. -/
theorem k1_pay4_apply (x : Vec Ideal S5000x128 .f32) (w : Vec Ideal S128x256 .bf16) (b : Vec Ideal S1x256 .f32)
    (acc : Vec Ideal S1x256 .f32) (j : Fin 256) :
    k1_pay4 (F := Ideal) x w b acc (ix2 0 j) = acc (ix2 0 j) + ∑ r : Fin 5000, k1_pay3 (F := Ideal) x w b (ix2 r j) := by
  unfold k1_pay4
  simp only [shapeCast_self]
  rw [addf_apply]
  exact congrArg (acc (ix2 0 j) + ·) (colSum_apply (k1_pay3 (F := Ideal) x w b) _ _ _ _ j)

/-- The running column sum of squares: the carried row plus the block's column sums of the affine layer squared. -/
theorem k1_pay5_apply (x : Vec Ideal S5000x128 .f32) (w : Vec Ideal S128x256 .bf16) (b : Vec Ideal S1x256 .f32)
    (acc : Vec Ideal S1x256 .f32) (j : Fin 256) :
    k1_pay5 (F := Ideal) x w b acc (ix2 0 j)
      = acc (ix2 0 j) + ∑ r : Fin 5000, k1_pay3 (F := Ideal) x w b (ix2 r j) * k1_pay3 (F := Ideal) x w b (ix2 r j) := by
  unfold k1_pay5
  simp only [shapeCast_self]
  rw [addf_apply]
  exact congrArg (acc (ix2 0 j) + ·)
    (colSum_apply (mulf (k1_pay3 (F := Ideal) x w b) (k1_pay3 (F := Ideal) x w b)) _ _ _ _ j)

end Cert.KernelIdeal.Pay

end
-- ==== Proof.LibSumBlocks.lean ====
/-
  A sum over the first `a * b` naturals, cut into `a` consecutive blocks of `b` terms each.

  A contraction of depth `a * b` that is carried out `b` terms at a time — one partial sum per block, the partial
  sums then added up — meets every term exactly once: the term at `k` in block `k / b`, at place `k % b`. In a
  commutative monoid the two groupings have the same value; nothing else about the addition is used (in particular
  no cancellation, so the statement holds on the extended reals with their infinities).
-/
import Mathlib.Algebra.BigOperators.Fin
import Mathlib.Algebra.BigOperators.Intervals

namespace Cert.Lib.SumBlocks

open Finset

/-- The sum of `g` over `0 … a·b - 1` is the sum over the blocks `s < a` of the block's `b` terms `g (b·s + r)`, `r < b`. -/
theorem sum_range_mul_blocks {M : Type*} [AddCommMonoid M] (g : ℕ → M) (a b : ℕ) :
    ∑ k ∈ range (a * b), g k = ∑ s ∈ range a, ∑ r ∈ range b, g (b * s + r) := by
  induction a with
  | zero => simp
  | succ a ih =>
    rw [Nat.succ_mul, sum_range_add, ih, sum_range_succ, Nat.mul_comm a b]

/-- The same with the whole sum and each block's sum indexed by `Fin`: a `Fin (a·b)`-indexed sum of a function of the
    index's value is the sum over the blocks `s < a` of the `Fin b`-indexed sums of the block's terms. -/
theorem sum_fin_mul_blocks {M : Type*} [AddCommMonoid M] (g : ℕ → M) (a b : ℕ) :
    ∑ k : Fin (a * b), g k.val = ∑ s ∈ range a, ∑ r : Fin b, g (b * s + r.val) := by
  rw [Fin.sum_univ_eq_sum_range (fun k => g k) (a * b), sum_range_mul_blocks]
  exact sum_congr rfl fun s _ => (Fin.sum_univ_eq_sum_range (fun r => g (b * s + r)) b).symm

/-- The instance a depth-4096 contraction done in eight blocks of 512 needs, with the literal `4096` in the type. -/
theorem sum_fin_4096_blocks {M : Type*} [AddCommMonoid M] (g : ℕ → M) :
    ∑ k : Fin 4096, g k.val = ∑ s ∈ range 8, ∑ r : Fin 512, g (512 * s + r.val) :=
  sum_fin_mul_blocks g 8 512

end Cert.Lib.SumBlocks
-- ==== Proof.KI.Idx1.lean ====
import proofs.«164503_j82721070121701_1_alg».proof.Proof.KI.Val1
import proofs.«164503_j82721070121701_1_alg».proof.Proof.KI.Pay1
import proofs.«164503_j82721070121701_1_alg».proof.Proof.LibSumBlocks

set_option maxRecDepth 16384

noncomputable section

namespace Cert.KernelIdeal.Hand

open Cert.KernelIdeal Cert.KernelIdeal.Gen Cert.KernelIdeal.Pay
open Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

/-! # Region 1 at the exact instance: its two output arrays, index by index, from the entry arrays -/

/-- The region's arrays at their shapes and element types (the entry arrays `V` at the three inputs' references; the
    two outputs after the region), so that an entry is an extended real on sight. -/
abbrev X1 (c : Dev nD) : Vec Ideal S100000x128 .f32 := V c main_v61
abbrev W1 (c : Dev nD) : Vec Ideal S128x256 .bf16 := V c main_v62
abbrev B1 (c : Dev nD) : Vec Ideal S1x256 .f32 := V c main_v64
abbrev H1 (c : Dev nD) : Vec Ideal S100000x256 .f32 := (dat1 V c).arrAt 3 cfg1.N
abbrev ST1 (c : Dev nD) : Vec Ideal S2x256 .f32 := (dat1 V c).arrAt 4 cfg1.N

/-! ## The input blocks, read at an index -/

/-- The input windows' index maps, decided over the grid: the row block moves with the point, the weight and the
    bias stay. -/
theorem idx_facts1_in : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0)

/-- Local row `r` of the row block at point `t` is row `5000 t + r` of the array. -/
theorem iblk1_0_apply (c : Dev nD) (t : Fin cfg1.N) (r : Fin 5000) (k : Fin 128) (p : Fin 100000)
    (hp : p.val = t.val * 5000 + r.val) :
    iblk1 V c 0 t (ix2 r k) = X1 V c (ix2 p k) := by
  obtain ⟨e0, e1, -⟩ := idx_facts1_in t
  show V c main_v61 (((cfg1.win 0).blk t).view.emb (ix2 r k)) = V c main_v61 (ix2 p k)
  refine congrArg (V c main_v61) ?_
  funext a; apply Fin.ext
  match a with
  | ⟨0, _⟩ => show win1_0.index t (0 : Fin 2) * 5000 + 1 * r.val = p.val; omega
  | ⟨1, _⟩ => show win1_0.index t (1 : Fin 2) * 128 + 1 * k.val = k.val; omega

/-- The weight block is the weight array at every point. -/
theorem iblk1_1_apply (c : Dev nD) (t : Fin cfg1.N) (k : Fin 128) (j : Fin 256) :
    iblk1 V c 1 t (ix2 k j) = W1 V c (ix2 k j) := by
  obtain ⟨-, -, e0, e1, -⟩ := idx_facts1_in t
  show V c main_v62 (((cfg1.win 1).blk t).view.emb (ix2 k j)) = V c main_v62 (ix2 k j)
  refine congrArg (V c main_v62) ?_
  funext a; apply Fin.ext
  match a with
  | ⟨0, _⟩ => show win1_1.index t (0 : Fin 2) * 128 + 1 * k.val = k.val; omega
  | ⟨1, _⟩ => show win1_1.index t (1 : Fin 2) * 256 + 1 * j.val = j.val; omega

/-- The bias block is the bias array at every point. -/
theorem iblk1_2_apply (c : Dev nD) (t : Fin cfg1.N) (j : Fin 256) :
    iblk1 V c 2 t (ix2 (0 : Fin 1) j) = B1 V c (ix2 (0 : Fin 1) j) := by
  obtain ⟨-, -, -, -, e0, e1⟩ := idx_facts1_in t
  show V c main_v64 (((cfg1.win 2).blk t).view.emb (ix2 (0 : Fin 1) j)) = V c main_v64 (ix2 (0 : Fin 1) j)
  refine congrArg (V c main_v64) ?_
  funext a; apply Fin.ext
  match a with
  | ⟨0, _⟩ => show win1_2.index t (0 : Fin 2) * 1 + 1 * 0 = 0; omega
  | ⟨1, _⟩ => show win1_2.index t (1 : Fin 2) * 256 + 1 * j.val = j.val; omega

/-! ## The row-block output at an index -/

/-- The affine layer: entry `(p, j)` is `∑ k, x[p,k] · w[k,j] + b[0,j]` of the entry arrays. -/
theorem idx1_out (c : Dev nD) (p : Fin 100000) (j : Fin 256) :
    H1 V c (ix2 p j) = (∑ k : Fin 128, X1 V c (ix2 p k) * W1 V c (ix2 k j)) + B1 V c (ix2 (0 : Fin 1) j) := by
  unfold H1
  rw [arrAt1_3, hArr1_apply, hOut1_eq]
  have hin : inBlk1 (ix2 p j) = ix2 (⟨p.val % 5000, Nat.mod_lt _ (by decide)⟩ : Fin 5000) j := rfl
  have hpt : (ptOf1 (ix2 p j)).val = p.val / 5000 := rfl
  rw [hin, k1_pay3_apply, iblk1_2_apply]
  refine congrArg (· + B1 V c (ix2 (0 : Fin 1) j)) ?_
  refine Finset.sum_congr rfl fun k _ => ?_
  rw [iblk1_1_apply, iblk1_0_apply V c (ptOf1 (ix2 p j)) _ k p (by rw [hpt]; show p.val = p.val / 5000 * 5000 + p.val % 5000; omega)]

/-! ## The two carried rows as sums over the array's rows -/

/-- Row `k` of the output's column `j` as a function of a natural number (zero off the array), so that sums over
    blocks and over the whole array range over one function. -/
def rowAt (c : Dev nD) (j : Fin 256) (k : ℕ) : Elt Ideal .f32 :=
  if h : k < 100000 then H1 V c (ix2 (⟨k, h⟩ : Fin 100000) j) else 0

theorem rowAt_fin (c : Dev nD) (j : Fin 256) (p : Fin 100000) :
    rowAt V c j p.val = H1 V c (ix2 p j) := by
  unfold rowAt; rw [dif_pos p.isLt]

/-- Point `s`'s payload at local row `r` is the array's row `5000 s + r`. -/
theorem pay3_rowAt (c : Dev nD) (j : Fin 256) (s : ℕ) (hs : s < cfg1.N) (r : Fin 5000) :
    k1_pay3 (F := Ideal) (iblk1 V c 0 ⟨s, hs⟩) (iblk1 V c 1 ⟨s, hs⟩) (iblk1 V c 2 ⟨s, hs⟩) (ix2 r j)
      = rowAt V c j (5000 * s + r.val) := by
  have hN : cfg1.N = 20 := N_1
  have hk : 5000 * s + r.val < 100000 := by have := r.isLt; omega
  unfold rowAt
  rw [dif_pos hk]
  unfold H1
  rw [arrAt1_3, hArr1_apply, hOut1_eq]
  have hp : ptOf1 (ix2 (⟨5000 * s + r.val, hk⟩ : Fin 100000) j) = ⟨s, hs⟩ := by
    apply Fin.ext
    show (5000 * s + r.val) / 5000 = s
    have := r.isLt; omega
  have hi : inBlk1 (ix2 (⟨5000 * s + r.val, hk⟩ : Fin 100000) j) = ix2 r j := by
    funext a; apply Fin.ext
    match a with
    | ⟨0, _⟩ => show (5000 * s + r.val) % 5000 = r.val; have := r.isLt; omega
    | ⟨1, _⟩ => rfl
  rw [hp, hi]

/-- THE COLUMN SUMS: after point `n` the first carried row holds, in column `j`, the sum of the output's rows of
    the blocks `0 … n`. -/
theorem scratch0_sum (c : Dev nD) (j : Fin 256) : ∀ (n : ℕ) (hn : n < cfg1.N),
    (outsAt1 V c n hn).2.2.1 (ix2 (0 : Fin 1) j) = ∑ s ∈ Finset.range (n + 1), ∑ r : Fin 5000, rowAt V c j (5000 * s + r.val)
  | 0, hn => by
    rw [show outsAt1 V c 0 hn = pt1 (iblk1 V c 0 ⟨0, hn⟩) (iblk1 V c 1 ⟨0, hn⟩) (iblk1 V c 2 ⟨0, hn⟩) reset1_0 reset1_1 from rfl]
    simp only [pt1]
    rw [acc1_0_eq, k1_pay4_apply, reset1_0_eq, k1_pay1_apply, zero_add, Finset.sum_range_one]
    exact Finset.sum_congr rfl fun r _ => pay3_rowAt V c j 0 hn r
  | n + 1, hn => by
    rw [outsAt1_succ V c n hn]
    simp only [pt1]
    rw [acc1_0_eq, k1_pay4_apply, scratch0_sum c j n (Nat.lt_of_succ_lt hn), Finset.sum_range_succ _ (n + 1)]
    exact congrArg _ (Finset.sum_congr rfl fun r _ => pay3_rowAt V c j (n + 1) hn r)

/-- THE COLUMN SUMS OF SQUARES, likewise, in the second carried row. -/
theorem scratch1_sum (c : Dev nD) (j : Fin 256) : ∀ (n : ℕ) (hn : n < cfg1.N),
    (outsAt1 V c n hn).2.2.2 (ix2 (0 : Fin 1) j)
      = ∑ s ∈ Finset.range (n + 1), ∑ r : Fin 5000, rowAt V c j (5000 * s + r.val) * rowAt V c j (5000 * s + r.val)
  | 0, hn => by
    rw [show outsAt1 V c 0 hn = pt1 (iblk1 V c 0 ⟨0, hn⟩) (iblk1 V c 1 ⟨0, hn⟩) (iblk1 V c 2 ⟨0, hn⟩) reset1_0 reset1_1 from rfl]
    simp only [pt1]
    rw [acc1_1_eq, k1_pay5_apply, reset1_1_eq, k1_pay2_apply, zero_add, Finset.sum_range_one]
    exact Finset.sum_congr rfl fun r _ => by rw [pay3_rowAt V c j 0 hn r]
  | n + 1, hn => by
    rw [outsAt1_succ V c n hn]
    simp only [pt1]
    rw [acc1_1_eq, k1_pay5_apply, scratch1_sum c j n (Nat.lt_of_succ_lt hn), Finset.sum_range_succ _ (n + 1)]
    exact congrArg _ (Finset.sum_congr rfl fun r _ => by rw [pay3_rowAt V c j (n + 1) hn r])

/-! ## The statistics array at an index -/

/-- Row 0 of the statistics: column `j`'s sum over ALL rows of the row-block output. -/
theorem idx1_sum (c : Dev nD) (j : Fin 256) :
    ST1 V c (ix2 (0 : Fin 2) j) = ∑ p : Fin 100000, H1 V c (ix2 p j) := by
  unfold ST1
  rw [arrAt1_4_rows, stats1_row0, scratch0_sum V c j 19 _]
  refine (Cert.Lib.SumBlocks.sum_fin_mul_blocks (rowAt V c j) 20 5000).symm.trans ?_
  show ∑ k : Fin 100000, rowAt V c j k.val = _
  exact Finset.sum_congr rfl fun p _ => rowAt_fin V c j p

/-- Row 1 of the statistics: column `j`'s sum of squares over all rows. -/
theorem idx1_sumsq (c : Dev nD) (j : Fin 256) :
    ST1 V c (ix2 (1 : Fin 2) j) = ∑ p : Fin 100000, H1 V c (ix2 p j) * H1 V c (ix2 p j) := by
  unfold ST1
  rw [arrAt1_4_rows, stats1_row1, scratch1_sum V c j 19 _]
  refine (Cert.Lib.SumBlocks.sum_fin_mul_blocks (fun k => rowAt V c j k * rowAt V c j k) 20 5000).symm.trans ?_
  show ∑ k : Fin 100000, rowAt V c j k.val * rowAt V c j k.val = _
  exact Finset.sum_congr rfl fun p _ => by rw [rowAt_fin V c j p]

end Cert.KernelIdeal.Hand

end
-- ==== Proof.KI.Val2.lean ====
import proofs.«164503_j82721070121701_1_alg».proof.Proof.Gen.KernelIdeal.Launch
import proofs.«164503_j82721070121701_1_alg».proof.Proof.Gen.KernelIdeal.Skeleton
import proofs.«164503_j82721070121701_1_alg».proof.Proof.Gen.KernelIdeal.Points
import proofs.«164503_j82721070121701_1_alg».proof.Proof.KI.Reg2
import Idealize.ShloMosaic.Lib.Pipeline.Value
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # REGION 2: the two output arrays after the region

The row-block output holds, at row `p` and column `j`, the block payload of the input blocks of point `p / 5000` at
`(p % 5000, j)`; the 2-row output holds what the last point's two row stores leave: row 0 the first scratch row,
row 1 the second, as the accumulation leaves them after the last point. -/

theorem hz2 : (![0, 0] : Fin 2 → Nat) = fun _ => 0 := funext fun a => by fin_cases a <;> rfl

/-! ## The closed forms without their rectangles -/

/-- The block payload: the loads read the whole buffers. -/
theorem blk2_eq (x0 : Vec F S5000x256 .f32) (x1 x2 x3 x4 : Vec F S1x256 .f32) (x5 : Vec F S256x128 .bf16) (x6 : Vec F S1x128 .f32) : blk2 x0 x1 x2 x3 x4 x5 x6 = k2_pay5 x0 x2 x3 x1 x4 x5 x6 := by
  unfold blk2
  simp only [View.ld_unit_zero (S := S5000x256) hz2, View.ld_unit_zero (S := S1x256) hz2, View.ld_unit_zero (S := S256x128) hz2, View.ld_unit_zero (S := S1x128) hz2]

theorem out2_7_eq (x0 : Vec F S5000x256 .f32) (x1 x2 x3 x4 : Vec F S1x256 .f32) (x5 : Vec F S256x128 .bf16) (x6 : Vec F S1x128 .f32) : out2_7 x0 x1 x2 x3 x4 x5 x6 = k2_pay5 x0 x2 x3 x1 x4 x5 x6 := by
  unfold out2_7; rw [View.canon_unit_zero hz2, blk2_eq]

theorem sc2_0_eq (x0 : Vec F S5000x256 .f32) (x1 x2 x3 x4 : Vec F S1x256 .f32) (x5 : Vec F S256x128 .bf16) (x6 : Vec F S1x128 .f32) (s : Vec F S1x128 .f32) : sc2_0 x0 x1 x2 x3 x4 x5 x6 s = k2_pay1 (k2_pay5 x0 x2 x3 x1 x4 x5 x6) s := by
  unfold sc2_0; rw [View.canon_unit_zero hz2, blk2_eq, View.ld_unit_zero (S := S1x128) hz2]

theorem sc2_1_eq (x0 : Vec F S5000x256 .f32) (x1 x2 x3 x4 : Vec F S1x256 .f32) (x5 : Vec F S256x128 .bf16) (x6 : Vec F S1x128 .f32) (s : Vec F S1x128 .f32) : sc2_1 x0 x1 x2 x3 x4 x5 x6 s = k2_pay2 (k2_pay5 x0 x2 x3 x1 x4 x5 x6) s := by
  unfold sc2_1; rw [View.canon_unit_zero hz2, blk2_eq, View.ld_unit_zero (S := S1x128) hz2]

theorem zero2_0_eq : (zero2_0 : Vec F S1x128 .f32) = k2_pay3 (F := F) := by
  unfold zero2_0; rw [View.canon_unit_zero hz2]

theorem zero2_1_eq : (zero2_1 : Vec F S1x128 .f32) = k2_pay4 (F := F) := by
  unfold zero2_1; rw [View.canon_unit_zero hz2]

/-! ## The row-block output -/

/-- What the body leaves in the row-block output's buffer at point `t`. -/
def blkOut2 (c : Dev nD) (t : Fin cfg2.N) : Vec F S5000x128 .f32 := out2_7 (iblk2 V c 0 t) (iblk2 V c 1 t) (iblk2 V c 2 t) (iblk2 V c 3 t) (iblk2 V c 4 t) (iblk2 V c 5 t) (iblk2 V c 6 t)

theorem outsAt2_fst (c : Dev nD) (t : Fin cfg2.N) : (outsAt2 V c t.val t.isLt).1 = blkOut2 V c t := by
  by_cases h0 : t.val = 0
  · rw [outsAt2_first V c t h0]; unfold step2 blkOut2; dsimp only
  · rw [outsAt2_later V c t h0]; unfold step2 blkOut2; dsimp only

/-- The printed index map of the row-block output, decided over the grid: block `t` on the rows, block 0 on the columns. -/
theorem idx2_7 : ∀ t : Fin cfg2.N, win2_7.index t (0 : Fin 2) = t.val ∧ win2_7.index t (1 : Fin 2) = 0 :=
  (by decide +kernel : ∀ t : Fin grid2.N, win2_7.index t (0 : Fin 2) = t.val ∧ win2_7.index t (1 : Fin 2) = 0)

/-- The point whose block holds row `(i 0)`. -/
def pt2 (i : S100000x128.Idx) : Fin cfg2.N :=
  ⟨(i 0).val / 5000, by have h : (i 0).val < 100000 := (i 0).isLt; rw [show cfg2.N = 20 from N_2]; omega⟩

/-- The index inside that block. -/
def in2 (i : S100000x128.Idx) : S5000x128.Idx :=
  ix2 (n0 := 5000) (n1 := 128) ⟨(i 0).val % 5000, Nat.mod_lt _ (by decide)⟩ ⟨(i 1).val, (i 1).isLt⟩

/-- The row-block output array after the region, as one function of the region-entry contents. -/
def G2_7 (c : Dev nD) : Buf (Elt F) ((c : Thread nD τ).loc main_v81_0) :=
  fun (i : S100000x128.Idx) => blkOut2 V c (pt2 i) (in2 i)

/-! ## The 2-row output -/

/-- The last point. -/
def tLast2 : Fin cfg2.N := ⟨19, by rw [show cfg2.N = 20 from N_2]; decide⟩

/-- At every point the 2-row component of `outsAt2` is the two row stores of that point's scratch rows. -/
theorem outsAt2_stats (c : Dev nD) (t : Fin cfg2.N) :
    (outsAt2 V c t.val t.isLt).2.1 = out2_8 (outsAt2 V c t.val t.isLt).2.2.1 (outsAt2 V c t.val t.isLt).2.2.2 := by
  by_cases h0 : t.val = 0
  · rw [outsAt2_first V c t h0]; unfold step2; dsimp only
  · rw [outsAt2_later V c t h0]; unfold step2; dsimp only

/-- The 2-row output array after the region: what the last point's two row stores leave — row 0 the first scratch
    row, row 1 the second, as the accumulation leaves them after the last point. -/
def G2_8 (c : Dev nD) : Buf (Elt F) ((c : Thread nD τ).loc main_v81_1) :=
  out2_8 (outsAt2 V c tLast2.val tLast2.isLt).2.2.1 (outsAt2 V c tLast2.val tLast2.isLt).2.2.2

/-- The one write-back, at the last point, writes it: block (0, 0) of the 2-row array read through zero offsets is the array. -/
theorem flushed2_8_eq (c : Dev nD) (t : Fin cfg2.N) (hf : (cfg2.win 8).flush t = true) :
    (dat2 V c).flushed 8 t = ((cfg2.win 8).blk t).view.read (Elt F) (G2_8 V c) := by
  have hN : cfg2.N = 20 := N_2
  have h19 : t.val = 19 := by have := (flush2_8 t).mp hf; have := t.isLt; omega
  obtain rfl : t = tLast2 := Fin.ext h19
  show (cfg2.win 8).cut (grid2.coords tLast2) ((dat2 V c).after 8 tLast2) = _
  rw [after2_8, outsAt2_stats]
  have hz' : (fun a => win2_8.index tLast2 a * main_v81_1.ty.shape.size a) = fun _ => 0 := funext fun a => by fin_cases a <;> decide +kernel
  exact (Memref.read_access_unit_zero (Elt F) main_v81_1 hz' (fun a => by rw [congrFun hz' a]; simp) (G2_8 V c)).symm

/-- THE 2-ROW OUTPUT ARRAY after the region. -/
theorem final2_8 (c : Dev nD) : (dat2 V c).arrAt 8 cfg2.N = G2_8 V c :=
  (dat2 V c).arrAt_eq_of_cover 8 (G2_8 V c) (flushed2_8_eq V c) fun i =>
    ⟨tLast2, (flush2_8 tLast2).mpr rfl, by
      show i ∈ ((View.whole main_v81_1).slice (win2_8.rect tLast2)).set
      rw [View.set_slice_whole, Rect.mem_set_unit]
      intro a
      have h0 : (i 0 : Nat) < 2 := (i 0).isLt
      have h1 : (i 1 : Nat) < 128 := (i 1).isLt
      match a with
      | ⟨0, _⟩ => show win2_8.index tLast2 0 * win2_8.size 0 ≤ (i 0 : Nat) ∧ (i 0 : Nat) < win2_8.index tLast2 0 * win2_8.size 0 + win2_8.xsize (grid2.coords tLast2) 0
                  rw [show win2_8.index tLast2 0 * win2_8.size 0 = 0 from by decide +kernel, show win2_8.xsize (grid2.coords tLast2) 0 = 2 from by decide +kernel]; omega
      | ⟨1, _⟩ => show win2_8.index tLast2 1 * win2_8.size 1 ≤ (i 1 : Nat) ∧ (i 1 : Nat) < win2_8.index tLast2 1 * win2_8.size 1 + win2_8.xsize (grid2.coords tLast2) 1
                  rw [show win2_8.index tLast2 1 * win2_8.size 1 = 0 from by decide +kernel, show win2_8.xsize (grid2.coords tLast2) 1 = 128 from by decide +kernel]; omega⟩

end Cert.KernelIdeal.Hand

end
-- ==== Proof.KI.Pay2.lean ====
/-
  Stage B's stored values, read at an entry: the reset rows, the normalised and rectified block times `w` plus `b`, and the two running column sums.

  Every statement is at the exact instance: floats are extended reals, each operation is the textbook one, and a change
  of float format is the identity. A payload is read at one entry `(r, j)` as a plain expression of its operands' entries.
-/
import proofs.«164503_j82721070121701_1_alg».proof.Proof.Gen.KernelIdeal.Skeleton
import proofs.«164503_j82721070121701_1_alg».proof.Proof.LibMatmulPlain
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic ValueIdx
open scoped BigOperators

/-- Summing a matrix over its rows: the source entry over the result entry `j` with row coordinate `r` is `(r, j)`. -/
private theorem lift_rows {A B : ℕ} (h : (⟨2, ![A, B]⟩ : Shape).Reduces [(0 : Fin 2)] ⟨1, ![B]⟩) (j : Fin B) (r : Fin A) :
    h.lift (ix1 j) r = ix2 r j := by
  funext c
  apply Fin.ext
  match c with
  | ⟨0, _⟩ => rfl
  | ⟨1, _⟩ => rfl

/-- A column sum of an `A × B` matrix, kept as a `1 × B` row: entry `(0, j)` is `∑ r, src[r, j]`. The two proof arguments
    of the reduction are arbitrary: the sum does not depend on them. -/
private theorem colSum_apply {A B : ℕ} (src : FVec Ideal ⟨2, ![A, B]⟩ .f32)
    (h : (⟨2, ![A, B]⟩ : Shape).Reduces [(0 : Fin 2)] ⟨1, ![B]⟩) (hφ : FKind.Formats .f32)
    (hacc : (0x00000000#32 : BitVec FTy.f32.bits) = FKind.add.neutral .f32 hφ)
    (hc : (⟨1, ![B]⟩ : Shape).ShapeCasts ⟨2, ![1, B]⟩) (j : Fin B) :
    shapeCast ⟨2, ![1, B]⟩ (multiReduction (F := Ideal) .add [(0 : Fin 2)] ⟨1, ![B]⟩ src 0x00000000#32 h hφ hacc) hc (ix2 (0 : Fin 1) j)
      = ∑ r : Fin A, src (ix2 r j) := by
  refine (shapeCast_a_1a_apply _ hc 0 j).trans ?_
  refine (Ideal.multiReduction_add_single src 0x00000000#32 h hφ hacc (ix1 j)).trans ?_
  exact Finset.sum_congr rfl fun r _ => congrArg src (lift_rows h j r)

/-- The reciprocal square root of a vector, read at an entry. -/
private theorem rsqrt_apply {s : Shape} {φ : FTy} (a : FVec Ideal s φ) (i : s.Idx) : rsqrt a i = Ideal.rsqrt (a i) := rfl

/-- The first reset row is zero. -/
theorem k2_pay3_apply (j : Fin 128) : k2_pay3 (F := Ideal) (ix2 0 j) = 0 := by
  unfold k2_pay3
  simp only [shapeCast_self]
  exact Ideal.ofBits_zero_f32

/-- The second reset row is zero. -/
theorem k2_pay4_apply (j : Fin 128) : k2_pay4 (F := Ideal) (ix2 0 j) = 0 := by
  unfold k2_pay4
  simp only [shapeCast_self]
  exact Ideal.ofBits_zero_f32

/-- The second affine layer on the normalised, rectified block: entry `(r, j)` is
    `∑ k, max (g[k] · (h[r,k] − mean[k]) · rsqrt (var[k] + ε) + beta[k]) 0 · w[k,j] + b[0,j]`. -/
theorem k2_pay5_apply (h : Vec Ideal S5000x256 .f32) (var g mean beta : Vec Ideal S1x256 .f32) (w : Vec Ideal S256x128 .bf16)
    (b : Vec Ideal S1x128 .f32) (r : Fin 5000) (j : Fin 128) :
    k2_pay5 (F := Ideal) h var g mean beta w b (ix2 r j)
      = (∑ k : Fin 256,
          max (g (ix2 0 k) * (h (ix2 r k) - mean (ix2 0 k)) * Ideal.rsqrt (var (ix2 0 k) + Ideal.ofBits .f32 0x3727C5AC#32)
            + beta (ix2 0 k)) 0 * w (ix2 k j))
        + b (ix2 0 j) := by
  unfold k2_pay5
  simp only [shapeCast_self]
  rw [addf_apply, broadcastTo_1b_ab_apply]
  refine congrArg (· + b (ix2 0 j)) ?_
  refine (Cert.Lib.MatmulPlain.matmul_plain_zero_apply (A := 5000) (K := 256) (B := 128) (φ₁ := .bf16) (φ₂ := .bf16) none
    _ w r j).trans ?_
  refine Finset.sum_congr rfl fun k _ => congrArg (· * w (ix2 k j)) ?_
  simp only [truncf_apply, maximumf_apply, addf_apply, mulf_apply, subf_apply, broadcastTo_1b_ab_apply, rsqrt_apply,
    broadcast_apply]
  show max (g (ix2 0 k) * (h (ix2 r k) - mean (ix2 0 k)) * Ideal.rsqrt (var (ix2 0 k) + Ideal.ofBits .f32 0x3727C5AC#32)
      + beta (ix2 0 k)) (Ideal.ofBits .f32 0x00000000#32) = _
  rw [Ideal.ofBits_zero_f32]

/-- The running column sum over the rows of the block `y`. -/
theorem k2_pay1_apply (y : FVec Ideal S5000x128 .f32) (acc : Vec Ideal S1x128 .f32) (j : Fin 128) :
    k2_pay1 (F := Ideal) y acc (ix2 0 j) = acc (ix2 0 j) + ∑ r : Fin 5000, y (ix2 r j) := by
  unfold k2_pay1
  simp only [shapeCast_self]
  rw [addf_apply]
  exact congrArg (acc (ix2 0 j) + ·) (colSum_apply y _ _ _ _ j)

/-- The running column sum of squares over the rows of the block `y`. -/
theorem k2_pay2_apply (y : FVec Ideal S5000x128 .f32) (acc : Vec Ideal S1x128 .f32) (j : Fin 128) :
    k2_pay2 (F := Ideal) y acc (ix2 0 j) = acc (ix2 0 j) + ∑ r : Fin 5000, y (ix2 r j) * y (ix2 r j) := by
  unfold k2_pay2
  simp only [shapeCast_self]
  rw [addf_apply]
  exact congrArg (acc (ix2 0 j) + ·) (colSum_apply (mulf y y) _ _ _ _ j)

end Cert.KernelIdeal.Pay

end
-- ==== Proof.KI.Idx2.lean ====
import proofs.«164503_j82721070121701_1_alg».proof.Proof.KI.Val2
import proofs.«164503_j82721070121701_1_alg».proof.Proof.KI.Pay2
import proofs.«164503_j82721070121701_1_alg».proof.Proof.LibSumBlocks

set_option maxRecDepth 16384

noncomputable section

namespace Cert.KernelIdeal.Hand

open Cert.KernelIdeal Cert.KernelIdeal.Gen Cert.KernelIdeal.Pay
open Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

/-! # Region 2 at the exact instance: the two statistics rows, index by index

Row 0 of the 2-row output is, column by column, the sum over ALL rows of the row-block output; row 1 the sum of
their squares. -/

/-- The region's two output arrays after the region, at their shapes and element types. -/
abbrev H2 (c : Dev nD) : Vec Ideal S100000x128 .f32 := (dat2 V c).arrAt 7 cfg2.N
abbrev ST2 (c : Dev nD) : Vec Ideal S2x128 .f32 := (dat2 V c).arrAt 8 cfg2.N

/-! ## The rows of the 2-row block -/

/-- Row 1 of the 2-row block is the second scratch row, -/
theorem out2_8_row1 (s0 s1 : Vec Ideal S1x128 .f32) (j : Fin 128) :
    out2_8 s0 s1 (ix2 (1 : Fin 2) j) = s1 (ix2 (0 : Fin 1) j) := by
  unfold out2_8
  have e : (ix2 (1 : Fin 2) j : S2x128.Idx) = r2_st1.emb (ix2 (0 : Fin 1) j : S1x128.Idx) := by
    funext a; apply Fin.ext
    match a with
    | ⟨0, _⟩ => rfl
    | ⟨1, _⟩ => show j.val = 0 + 1 * j.val; omega
  rw [e, View.canon_cons_emb, View.ld_unit_zero (S := S1x128) hz2]

/-- and row 0 the first. -/
theorem out2_8_row0 (s0 s1 : Vec Ideal S1x128 .f32) (j : Fin 128) :
    out2_8 s0 s1 (ix2 (0 : Fin 2) j) = s0 (ix2 (0 : Fin 1) j) := by
  unfold out2_8
  have hn : (ix2 (0 : Fin 2) j : S2x128.Idx) ∉ r2_st1.set := by
    rw [Rect.mem_set_unit]
    intro h
    have h0 : (1 : ℕ) ≤ 0 := (h 0).1
    omega
  have e : (ix2 (0 : Fin 2) j : S2x128.Idx) = r2_st0.emb (ix2 (0 : Fin 1) j : S1x128.Idx) := by
    funext a; apply Fin.ext
    match a with
    | ⟨0, _⟩ => rfl
    | ⟨1, _⟩ => show j.val = 0 + 1 * j.val; omega
  rw [View.canon_cons_of_not_mem (⟨r2_st1, View.ld s1 r2_row128⟩ : View.Piece (Elt Ideal) S2x128 .f32) [⟨r2_st0, View.ld s0 r2_row128⟩] hn, e,
    View.canon_cons_emb, View.ld_unit_zero (S := S1x128) hz2]

/-! ## The two carried rows as sums over the array's rows -/

/-- Row `k` of the row-block output's column `j` as a function of a natural number (zero off the array), so that
    sums over blocks and over the whole array range over one function. -/
def rowAt2 (c : Dev nD) (j : Fin 128) (k : ℕ) : Elt Ideal .f32 :=
  if h : k < 100000 then H2 V c (ix2 (⟨k, h⟩ : Fin 100000) j) else 0

theorem rowAt2_fin (c : Dev nD) (j : Fin 128) (p : Fin 100000) :
    rowAt2 V c j p.val = H2 V c (ix2 p j) := by
  unfold rowAt2; rw [dif_pos p.isLt]

/-- That row `p` of the row-block output array is row `p % 5000` of what the body leaves at point `p / 5000`: the
    hypothesis the two sums are proved under. -/
abbrev RowsOfBlocks2 (c : Dev nD) : Prop :=
  ∀ (p : Fin 100000) (j : Fin 128), H2 V c (ix2 p j) = blkOut2 V c (pt2 (ix2 p j)) (in2 (ix2 p j))

/-- Point `s`'s block payload at local row `r` is the array's row `5000 s + r`. -/
theorem pay5_rowAt2 (c : Dev nD) (hH : RowsOfBlocks2 V c) (j : Fin 128) (s : ℕ) (hs : s < cfg2.N) (r : Fin 5000) :
    k2_pay5 (F := Ideal) (iblk2 V c 0 ⟨s, hs⟩) (iblk2 V c 2 ⟨s, hs⟩) (iblk2 V c 3 ⟨s, hs⟩) (iblk2 V c 1 ⟨s, hs⟩) (iblk2 V c 4 ⟨s, hs⟩) (iblk2 V c 5 ⟨s, hs⟩) (iblk2 V c 6 ⟨s, hs⟩) (ix2 r j)
      = rowAt2 V c j (5000 * s + r.val) := by
  have hN : cfg2.N = 20 := N_2
  have hk : 5000 * s + r.val < 100000 := by have := r.isLt; omega
  unfold rowAt2
  rw [dif_pos hk, hH]
  have hp : pt2 (ix2 (⟨5000 * s + r.val, hk⟩ : Fin 100000) j) = ⟨s, hs⟩ := by
    apply Fin.ext
    show (5000 * s + r.val) / 5000 = s
    have := r.isLt; omega
  have hi : in2 (ix2 (⟨5000 * s + r.val, hk⟩ : Fin 100000) j) = ix2 r j := by
    funext a; apply Fin.ext
    match a with
    | ⟨0, _⟩ => show (5000 * s + r.val) % 5000 = r.val; have := r.isLt; omega
    | ⟨1, _⟩ => rfl
  rw [hp, hi]
  unfold blkOut2
  rw [out2_7_eq]

/-- THE COLUMN SUMS: after point `n` the first carried row holds, in column `j`, the sum of the output's rows of
    the blocks `0 … n`. -/
theorem scratch2_0_sum (c : Dev nD) (hH : RowsOfBlocks2 V c) (j : Fin 128) : ∀ (n : ℕ) (hn : n < cfg2.N),
    (outsAt2 V c n hn).2.2.1 (ix2 (0 : Fin 1) j) = ∑ s ∈ Finset.range (n + 1), ∑ r : Fin 5000, rowAt2 V c j (5000 * s + r.val)
  | 0, hn => by
    rw [outsAt2_zero V c hn]
    simp only [step2]
    rw [sc2_0_eq, k2_pay1_apply, zero2_0_eq, k2_pay3_apply, zero_add, Finset.sum_range_one]
    exact Finset.sum_congr rfl fun r _ => pay5_rowAt2 V c hH j 0 hn r
  | n + 1, hn => by
    rw [outsAt2_succ V c n hn]
    simp only [step2]
    rw [sc2_0_eq, k2_pay1_apply, scratch2_0_sum c hH j n (Nat.lt_of_succ_lt hn), Finset.sum_range_succ _ (n + 1)]
    exact congrArg _ (Finset.sum_congr rfl fun r _ => pay5_rowAt2 V c hH j (n + 1) hn r)

/-- THE COLUMN SUMS OF SQUARES, likewise, in the second carried row. -/
theorem scratch2_1_sum (c : Dev nD) (hH : RowsOfBlocks2 V c) (j : Fin 128) : ∀ (n : ℕ) (hn : n < cfg2.N),
    (outsAt2 V c n hn).2.2.2 (ix2 (0 : Fin 1) j)
      = ∑ s ∈ Finset.range (n + 1), ∑ r : Fin 5000, rowAt2 V c j (5000 * s + r.val) * rowAt2 V c j (5000 * s + r.val)
  | 0, hn => by
    rw [outsAt2_zero V c hn]
    simp only [step2]
    rw [sc2_1_eq, k2_pay2_apply, zero2_1_eq, k2_pay4_apply, zero_add, Finset.sum_range_one]
    exact Finset.sum_congr rfl fun r _ => by rw [pay5_rowAt2 V c hH j 0 hn r]
  | n + 1, hn => by
    rw [outsAt2_succ V c n hn]
    simp only [step2]
    rw [sc2_1_eq, k2_pay2_apply, scratch2_1_sum c hH j n (Nat.lt_of_succ_lt hn), Finset.sum_range_succ _ (n + 1)]
    exact congrArg _ (Finset.sum_congr rfl fun r _ => by rw [pay5_rowAt2 V c hH j (n + 1) hn r])

/-! ## The statistics array at an index -/

/-- Row 0 of the statistics: column `j`'s sum over ALL rows of the row-block output. -/
theorem idx2_sum (c : Dev nD) (hH : RowsOfBlocks2 V c) (j : Fin 128) :
    ST2 V c (ix2 (0 : Fin 2) j) = ∑ p : Fin 100000, H2 V c (ix2 p j) := by
  unfold ST2
  rw [final2_8]
  unfold G2_8
  rw [out2_8_row0]
  refine (scratch2_0_sum V c hH j tLast2.val tLast2.isLt).trans ?_
  show ∑ s ∈ Finset.range 20, ∑ r : Fin 5000, rowAt2 V c j (5000 * s + r.val) = _
  refine (Cert.Lib.SumBlocks.sum_fin_mul_blocks (rowAt2 V c j) 20 5000).symm.trans ?_
  show ∑ k : Fin 100000, rowAt2 V c j k.val = _
  exact Finset.sum_congr rfl fun p _ => rowAt2_fin V c j p

/-- Row 1 of the statistics: column `j`'s sum of squares over all rows. -/
theorem idx2_sumsq (c : Dev nD) (hH : RowsOfBlocks2 V c) (j : Fin 128) :
    ST2 V c (ix2 (1 : Fin 2) j) = ∑ p : Fin 100000, H2 V c (ix2 p j) * H2 V c (ix2 p j) := by
  unfold ST2
  rw [final2_8]
  unfold G2_8
  rw [out2_8_row1]
  refine (scratch2_1_sum V c hH j tLast2.val tLast2.isLt).trans ?_
  show ∑ s ∈ Finset.range 20, ∑ r : Fin 5000, rowAt2 V c j (5000 * s + r.val) * rowAt2 V c j (5000 * s + r.val) = _
  refine (Cert.Lib.SumBlocks.sum_fin_mul_blocks (fun k => rowAt2 V c j k * rowAt2 V c j k) 20 5000).symm.trans ?_
  show ∑ k : Fin 100000, rowAt2 V c j k.val * rowAt2 V c j k.val = _
  exact Finset.sum_congr rfl fun p _ => by rw [rowAt2_fin V c j p]

end Cert.KernelIdeal.Hand

end
-- ==== Proof.KI.Val2b.lean ====
import proofs.«164503_j82721070121701_1_alg».proof.Proof.Gen.KernelIdeal.Launch
import proofs.«164503_j82721070121701_1_alg».proof.Proof.Gen.KernelIdeal.Skeleton
import proofs.«164503_j82721070121701_1_alg».proof.Proof.Gen.KernelIdeal.Points
import proofs.«164503_j82721070121701_1_alg».proof.Proof.KI.Val2
import Idealize.ShloMosaic.Lib.Pipeline.Value
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # REGION 2: the row-block output array after the region

Every point writes its block back, and the blocks tile the array: row `p` is in the block of point `p / 5000`, at
row `p % 5000`. -/

/-- What point `t` writes back is block `t` of `G2_7`. -/
theorem flushed2_7_eq (c : Dev nD) (t : Fin cfg2.N) :
    (dat2 V c).flushed 7 t = ((cfg2.win 7).blk t).view.read (Elt F) (G2_7 V c) := by
  show (cfg2.win 7).cut (grid2.coords t) ((dat2 V c).after 7 t) = _
  rw [after2_7, outsAt2_fst]
  obtain ⟨e0, e1⟩ := idx2_7 t
  have key : ∀ j : S5000x128.Idx, G2_7 V c (((cfg2.win 7).blk t).view.emb j) = blkOut2 V c t j := by
    intro j
    have hj0 : (j 0).val < 5000 := (j 0).isLt
    have hj1 : (j 1).val < 128 := (j 1).isLt
    have hp : pt2 (((cfg2.win 7).blk t).view.emb j) = t := by
      apply Fin.ext
      show (win2_7.index t (0 : Fin 2) * 5000 + 1 * (j 0).val) / 5000 = t.val
      omega
    have hi : in2 (((cfg2.win 7).blk t).view.emb j) = j := by
      funext a; apply Fin.ext
      match a with
      | ⟨0, _⟩ => show (win2_7.index t (0 : Fin 2) * 5000 + 1 * (j 0).val) % 5000 = (j 0).val; omega
      | ⟨1, _⟩ => show win2_7.index t (1 : Fin 2) * 128 + 1 * (j 1).val = (j 1).val; omega
    show blkOut2 V c (pt2 (((cfg2.win 7).blk t).view.emb j)) (in2 (((cfg2.win 7).blk t).view.emb j)) = _
    rw [hp, hi]
  generalize blkOut2 V c t = H at key ⊢
  generalize G2_7 V c = G at key ⊢
  funext j
  show H j = G (((cfg2.win 7).blk t).view.emb j)
  exact (key j).symm

/-- An index of the array is in point `t`'s block iff each coordinate is in the block's range on its axis. -/
theorem mem_blk2_7 (t : Fin cfg2.N) (i : S100000x128.Idx) :
    i ∈ ((cfg2.win 7).blk t).view.set ↔ ∀ a : Fin 2, win2_7.index t a * S5000x128.size a ≤ (i a).val ∧ (i a).val < win2_7.index t a * S5000x128.size a + S5000x128.size a := by
  show i ∈ ((View.whole main_v81_0).slice (win2_7.rect t)).set ↔ _
  rw [View.set_slice_whole, Rect.mem_set_unit]
  exact Iff.rfl

/-- THE ROW-BLOCK OUTPUT ARRAY after the region. -/
theorem final2_7 (c : Dev nD) : (dat2 V c).arrAt 7 cfg2.N = G2_7 V c :=
  (dat2 V c).arrAt_eq_of_cover 7 (G2_7 V c) (fun t _ => flushed2_7_eq V c t) fun (i : S100000x128.Idx) => by
    refine ⟨pt2 i, flush2_7 _, ?_⟩
    rw [mem_blk2_7]
    obtain ⟨e0, e1⟩ := idx2_7 (pt2 i)
    have h0 : (i 0).val < 100000 := (i 0).isLt
    have h1 : (i 1).val < 128 := (i 1).isLt
    have hp : (pt2 i).val = (i 0).val / 5000 := rfl
    intro a
    match a with
    | ⟨0, _⟩ => show win2_7.index (pt2 i) (0 : Fin 2) * 5000 ≤ (i 0).val ∧ (i 0).val < win2_7.index (pt2 i) (0 : Fin 2) * 5000 + 5000; rw [e0, hp]; omega
    | ⟨1, _⟩ => show win2_7.index (pt2 i) (1 : Fin 2) * 128 ≤ (i 1).val ∧ (i 1).val < win2_7.index (pt2 i) (1 : Fin 2) * 128 + 128; rw [e1]; omega

/-- Read at an index: row `p`, column `j` is the block payload of point `p / 5000` at `(p % 5000, j)`. -/
theorem final2_7_apply (c : Dev nD) (p : Fin 100000) (j : Fin 128) :
    (dat2 V c).arrAt 7 cfg2.N (ix2 p j) = blkOut2 V c (pt2 (ix2 p j)) (in2 (ix2 p j)) :=
  congrFun (final2_7 V c) (ix2 p j)

end Cert.KernelIdeal.Hand

end
-- ==== Proof.KI.Idx2b.lean ====
import proofs.«164503_j82721070121701_1_alg».proof.Proof.KI.Idx2
import proofs.«164503_j82721070121701_1_alg».proof.Proof.KI.Val2b

set_option maxRecDepth 16384

noncomputable section

namespace Cert.KernelIdeal.Hand

open Cert.KernelIdeal Cert.KernelIdeal.Gen Cert.KernelIdeal.Pay
open Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

/-! # Region 2 at the exact instance: the two statistics rows, unconditionally

The blocks tile the row-block output array, so row `p` of it is row `p % 5000` of what the body leaves at point
`p / 5000`; with that the two sums hold outright. -/

/-- Row `p` of the row-block output array is row `p % 5000` of what the body leaves at point `p / 5000`. -/
theorem rowsOfBlocks2 (c : Dev nD) : RowsOfBlocks2 V c := fun p j => final2_7_apply V c p j

/-- Row 0 of the statistics: column `j`'s sum over ALL rows of the row-block output. -/
theorem idx2_sum_all (c : Dev nD) (j : Fin 128) :
    ST2 V c (ix2 (0 : Fin 2) j) = ∑ p : Fin 100000, H2 V c (ix2 p j) :=
  idx2_sum V c (rowsOfBlocks2 V c) j

/-- Row 1 of the statistics: column `j`'s sum of squares over all rows. -/
theorem idx2_sumsq_all (c : Dev nD) (j : Fin 128) :
    ST2 V c (ix2 (1 : Fin 2) j) = ∑ p : Fin 100000, H2 V c (ix2 p j) * H2 V c (ix2 p j) :=
  idx2_sumsq V c (rowsOfBlocks2 V c) j

end Cert.KernelIdeal.Hand

end
-- ==== Proof.KI.Idx2c.lean ====
import proofs.«164503_j82721070121701_1_alg».proof.Proof.KI.Idx2b

set_option maxRecDepth 16384

noncomputable section

namespace Cert.KernelIdeal.Hand

open Cert.KernelIdeal Cert.KernelIdeal.Gen Cert.KernelIdeal.Pay
open Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

/-! # Region 2 at the exact instance: the row-block output, index by index, from the entry arrays

Entry `(p, j)` of the row-block output is `∑ k, max (g[k] · (x[p,k] − mean[k]) · rsqrt (var[k] + ε) + beta[k]) 0 · w[k,j] + b[j]`
of the region's entry arrays. -/

/-- The region's input arrays at their shapes and element types, as the region finds them: the first layer's
    pre-activation, its column means and variances, the gain and shift rows, the second layer's weight and bias. -/
abbrev X2 (c : Dev nD) : Vec Ideal S100000x256 .f32 := V c main_v72_0
abbrev M2 (c : Dev nD) : Vec Ideal S1x256 .f32 := V c main_v75
abbrev Va2 (c : Dev nD) : Vec Ideal S1x256 .f32 := V c main_v80
abbrev G2a (c : Dev nD) : Vec Ideal S1x256 .f32 := V c main_v66
abbrev Be2 (c : Dev nD) : Vec Ideal S1x256 .f32 := V c main_v67
abbrev Wt2 (c : Dev nD) : Vec Ideal S256x128 .bf16 := V c main_v63
abbrev B2 (c : Dev nD) : Vec Ideal S1x128 .f32 := V c main_v65

/-! ## The input blocks, read at an index -/

/-- The input windows' index maps, decided over the grid: the row block moves with the point, the six others stay. -/
theorem idx_facts2_in : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0 :=
  (by decide +kernel : ∀ t : Fin grid2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0)

/-- Local row `r` of the row block at point `t` is row `5000 t + r` of the array. -/
theorem iblk2_0_apply (c : Dev nD) (t : Fin cfg2.N) (r : Fin 5000) (k : Fin 256) (p : Fin 100000)
    (hp : p.val = t.val * 5000 + r.val) :
    iblk2 V c 0 t (ix2 r k) = X2 V c (ix2 p k) := by
  obtain ⟨e0, e1, -, -, -, -, -, -, -, -, -, -, -, -⟩ := idx_facts2_in t
  show V c main_v72_0 (((cfg2.win 0).blk t).view.emb (ix2 r k)) = V c main_v72_0 (ix2 p k)
  refine congrArg (V c main_v72_0) ?_
  funext a; apply Fin.ext
  match a with
  | ⟨0, _⟩ => show win2_0.index t (0 : Fin 2) * 5000 + 1 * r.val = p.val; omega
  | ⟨1, _⟩ => show win2_0.index t (1 : Fin 2) * 256 + 1 * k.val = k.val; omega

theorem iblk2_1_apply (c : Dev nD) (t : Fin cfg2.N) (k : Fin 256) :
    iblk2 V c 1 t (ix2 (0 : Fin 1) k) = M2 V c (ix2 (0 : Fin 1) k) := by
  obtain ⟨-, -, e0, e1, -, -, -, -, -, -, -, -, -, -⟩ := idx_facts2_in t
  show V c main_v75 (((cfg2.win 1).blk t).view.emb (ix2 (0 : Fin 1) k)) = V c main_v75 (ix2 (0 : Fin 1) k)
  refine congrArg (V c main_v75) ?_
  funext a; apply Fin.ext
  match a with
  | ⟨0, _⟩ => show win2_1.index t (0 : Fin 2) * 1 + 1 * 0 = 0; omega
  | ⟨1, _⟩ => show win2_1.index t (1 : Fin 2) * 256 + 1 * k.val = k.val; omega

theorem iblk2_2_apply (c : Dev nD) (t : Fin cfg2.N) (k : Fin 256) :
    iblk2 V c 2 t (ix2 (0 : Fin 1) k) = Va2 V c (ix2 (0 : Fin 1) k) := by
  obtain ⟨-, -, -, -, e0, e1, -, -, -, -, -, -, -, -⟩ := idx_facts2_in t
  show V c main_v80 (((cfg2.win 2).blk t).view.emb (ix2 (0 : Fin 1) k)) = V c main_v80 (ix2 (0 : Fin 1) k)
  refine congrArg (V c main_v80) ?_
  funext a; apply Fin.ext
  match a with
  | ⟨0, _⟩ => show win2_2.index t (0 : Fin 2) * 1 + 1 * 0 = 0; omega
  | ⟨1, _⟩ => show win2_2.index t (1 : Fin 2) * 256 + 1 * k.val = k.val; omega

theorem iblk2_3_apply (c : Dev nD) (t : Fin cfg2.N) (k : Fin 256) :
    iblk2 V c 3 t (ix2 (0 : Fin 1) k) = G2a V c (ix2 (0 : Fin 1) k) := by
  obtain ⟨-, -, -, -, -, -, e0, e1, -, -, -, -, -, -⟩ := idx_facts2_in t
  show V c main_v66 (((cfg2.win 3).blk t).view.emb (ix2 (0 : Fin 1) k)) = V c main_v66 (ix2 (0 : Fin 1) k)
  refine congrArg (V c main_v66) ?_
  funext a; apply Fin.ext
  match a with
  | ⟨0, _⟩ => show win2_3.index t (0 : Fin 2) * 1 + 1 * 0 = 0; omega
  | ⟨1, _⟩ => show win2_3.index t (1 : Fin 2) * 256 + 1 * k.val = k.val; omega

theorem iblk2_4_apply (c : Dev nD) (t : Fin cfg2.N) (k : Fin 256) :
    iblk2 V c 4 t (ix2 (0 : Fin 1) k) = Be2 V c (ix2 (0 : Fin 1) k) := by
  obtain ⟨-, -, -, -, -, -, -, -, e0, e1, -, -, -, -⟩ := idx_facts2_in t
  show V c main_v67 (((cfg2.win 4).blk t).view.emb (ix2 (0 : Fin 1) k)) = V c main_v67 (ix2 (0 : Fin 1) k)
  refine congrArg (V c main_v67) ?_
  funext a; apply Fin.ext
  match a with
  | ⟨0, _⟩ => show win2_4.index t (0 : Fin 2) * 1 + 1 * 0 = 0; omega
  | ⟨1, _⟩ => show win2_4.index t (1 : Fin 2) * 256 + 1 * k.val = k.val; omega

/-- The weight block is the weight array at every point. -/
theorem iblk2_5_apply (c : Dev nD) (t : Fin cfg2.N) (k : Fin 256) (j : Fin 128) :
    iblk2 V c 5 t (ix2 k j) = Wt2 V c (ix2 k j) := by
  obtain ⟨-, -, -, -, -, -, -, -, -, -, e0, e1, -, -⟩ := idx_facts2_in t
  show V c main_v63 (((cfg2.win 5).blk t).view.emb (ix2 k j)) = V c main_v63 (ix2 k j)
  refine congrArg (V c main_v63) ?_
  funext a; apply Fin.ext
  match a with
  | ⟨0, _⟩ => show win2_5.index t (0 : Fin 2) * 256 + 1 * k.val = k.val; omega
  | ⟨1, _⟩ => show win2_5.index t (1 : Fin 2) * 128 + 1 * j.val = j.val; omega

theorem iblk2_6_apply (c : Dev nD) (t : Fin cfg2.N) (k : Fin 128) :
    iblk2 V c 6 t (ix2 (0 : Fin 1) k) = B2 V c (ix2 (0 : Fin 1) k) := by
  obtain ⟨-, -, -, -, -, -, -, -, -, -, -, -, e0, e1⟩ := idx_facts2_in t
  show V c main_v65 (((cfg2.win 6).blk t).view.emb (ix2 (0 : Fin 1) k)) = V c main_v65 (ix2 (0 : Fin 1) k)
  refine congrArg (V c main_v65) ?_
  funext a; apply Fin.ext
  match a with
  | ⟨0, _⟩ => show win2_6.index t (0 : Fin 2) * 1 + 1 * 0 = 0; omega
  | ⟨1, _⟩ => show win2_6.index t (1 : Fin 2) * 128 + 1 * k.val = k.val; omega

/-! ## The row-block output at an index -/

/-- The second affine layer on the normalised, rectified rows: entry `(p, j)` of the row-block output from the
    entry arrays. -/
theorem idx2_outC (c : Dev nD) (p : Fin 100000) (j : Fin 128) :
    H2 V c (ix2 p j)
      = (∑ k : Fin 256,
          max (G2a V c (ix2 (0 : Fin 1) k) * (X2 V c (ix2 p k) - M2 V c (ix2 (0 : Fin 1) k))
              * Ideal.rsqrt (Va2 V c (ix2 (0 : Fin 1) k) + Ideal.ofBits .f32 0x3727C5AC#32)
            + Be2 V c (ix2 (0 : Fin 1) k)) 0 * Wt2 V c (ix2 k j))
        + B2 V c (ix2 (0 : Fin 1) j) := by
  unfold H2
  rw [final2_7_apply]
  unfold blkOut2
  rw [out2_7_eq]
  have hin : in2 (ix2 p j) = ix2 (⟨p.val % 5000, Nat.mod_lt _ (by decide)⟩ : Fin 5000) j := rfl
  have hpt : (pt2 (ix2 p j)).val = p.val / 5000 := rfl
  rw [hin, k2_pay5_apply, iblk2_6_apply]
  refine congrArg (· + B2 V c (ix2 (0 : Fin 1) j)) ?_
  refine Finset.sum_congr rfl fun k _ => ?_
  rw [iblk2_5_apply, iblk2_3_apply, iblk2_1_apply, iblk2_2_apply, iblk2_4_apply,
    iblk2_0_apply V c (pt2 (ix2 p j)) _ k p (by rw [hpt]; show p.val = p.val / 5000 * 5000 + p.val % 5000; omega)]

end Cert.KernelIdeal.Hand

end
-- ==== Proof.KI.Val3.lean ====
import proofs.«164503_j82721070121701_1_alg».proof.Proof.KI.Reg3
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # The second normalisation pass: what its buffers hold, as values

Each case's stores are whole-buffer stores (the statistics rows excepted), so what a buffer ends holding is its last
store's payload, whose loads read whole buffers. -/

theorem hz3 : (![0, 0] : Fin 2 → Nat) = fun _ => 0 := funext fun a => by fin_cases a <;> rfl

/-! ## The first block -/

theorem outs3_A_blk (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : cond3_0 i) (hc1 : ¬cond3_1 i)
    (x0 : Vec F S5000x128 .f32) (x1 : Vec F S1x128 .f32) (x2 : Vec F S1x128 .f32) (x3 : Vec F S1x128 .f32) (x4 : Vec F S1x128 .f32) :
    (outs3_A c i arg1 harg1 arg2 harg2 arg3 harg3 arg4 harg4 arg5 harg5 arg6 harg6 arg7 harg7 arg8 harg8 arg9 harg9 hc0 hc1 x0 x1 x2 x3 x4).1 = k3_pay4 x0 x2 x3 x1 x4 := by
  unfold outs3_A
  dsimp only
  rw [View.read_writes_eq_canon _ _ _ (cover3_A_5 c i arg1 harg1 arg2 harg2 arg3 harg3 arg4 harg4 arg5 harg5 arg6 harg6 arg7 harg7 arg8 harg8 arg9 harg9 hc0 hc1 x0 x1 x2 x3 x4)]
  unfold kernelRun3_A
  dsimp only
  (try sl_unfold_words)
  rw [View.canon_cons_unit_zero (S := S5000x128) hz3]
  simp only [View.readAt_eq_ld, harg1.read_unread, harg2.read_unread, harg3.read_unread, harg4.read_unread, harg5.read_unread, harg8.read_unread, harg9.read_unread, View.ld_unit_zero (S := S5000x128) hz3, View.ld_unit_zero (S := S1x128) hz3]

theorem outs3_A_s0 (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : cond3_0 i) (hc1 : ¬cond3_1 i)
    (x0 : Vec F S5000x128 .f32) (x1 : Vec F S1x128 .f32) (x2 : Vec F S1x128 .f32) (x3 : Vec F S1x128 .f32) (x4 : Vec F S1x128 .f32) :
    (outs3_A c i arg1 harg1 arg2 harg2 arg3 harg3 arg4 harg4 arg5 harg5 arg6 harg6 arg7 harg7 arg8 harg8 arg9 harg9 hc0 hc1 x0 x1 x2 x3 x4).2.2.1 = k3_pay5 x0 x2 x3 x1 x4 (k3_pay2 (F := F)) := by
  unfold outs3_A
  dsimp only
  rw [View.read_writes_eq_canon _ _ _ (scover3_A_0 c i arg1 harg1 arg2 harg2 arg3 harg3 arg4 harg4 arg5 harg5 arg6 harg6 arg7 harg7 arg8 harg8 arg9 harg9 hc0 hc1 x0 x1 x2 x3 x4)]
  unfold kernelRun3_A
  dsimp only
  (try sl_unfold_words)
  rw [View.canon_cons_unit_zero (S := S1x128) hz3]
  (try rw [View.readCov_unit_zero (S := S1x128) _ hz3])
  simp only [View.readAt_eq_ld, harg1.read_unread, harg2.read_unread, harg3.read_unread, harg4.read_unread, harg5.read_unread, harg8.read_unread, harg9.read_unread, View.ld_unit_zero (S := S5000x128) hz3, View.ld_unit_zero (S := S1x128) hz3]

theorem outs3_A_s1 (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : cond3_0 i) (hc1 : ¬cond3_1 i)
    (x0 : Vec F S5000x128 .f32) (x1 : Vec F S1x128 .f32) (x2 : Vec F S1x128 .f32) (x3 : Vec F S1x128 .f32) (x4 : Vec F S1x128 .f32) :
    (outs3_A c i arg1 harg1 arg2 harg2 arg3 harg3 arg4 harg4 arg5 harg5 arg6 harg6 arg7 harg7 arg8 harg8 arg9 harg9 hc0 hc1 x0 x1 x2 x3 x4).2.2.2 = k3_pay1 (k3_pay4 x0 x2 x3 x1 x4) (k3_pay3 (F := F)) := by
  unfold outs3_A
  dsimp only
  rw [View.read_writes_eq_canon _ _ _ (scover3_A_1 c i arg1 harg1 arg2 harg2 arg3 harg3 arg4 harg4 arg5 harg5 arg6 harg6 arg7 harg7 arg8 harg8 arg9 harg9 hc0 hc1 x0 x1 x2 x3 x4)]
  unfold kernelRun3_A
  dsimp only
  (try sl_unfold_words)
  rw [View.canon_cons_unit_zero (S := S1x128) hz3]
  (try rw [View.readCov_unit_zero (S := S1x128) _ hz3])
  simp only [View.readAt_eq_ld, harg1.read_unread, harg2.read_unread, harg3.read_unread, harg4.read_unread, harg5.read_unread, harg8.read_unread, harg9.read_unread, View.ld_unit_zero (S := S5000x128) hz3, View.ld_unit_zero (S := S1x128) hz3]

/-! ## A middle block -/

theorem outs3_B_blk (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : ¬cond3_1 i)
    (x0 : Vec F S5000x128 .f32) (x1 : Vec F S1x128 .f32) (x2 : Vec F S1x128 .f32) (x3 : Vec F S1x128 .f32) (x4 : Vec F S1x128 .f32) (xs0 : Vec F S1x128 .f32) (xs1 : Vec F S1x128 .f32) :
    (outs3_B c i arg1 harg1 arg2 harg2 arg3 harg3 arg4 harg4 arg5 harg5 arg6 harg6 arg7 harg7 arg8 harg8 arg9 harg9 hc0 hc1 x0 x1 x2 x3 x4 xs0 xs1).1 = k3_pay4 x0 x2 x3 x1 x4 := by
  unfold outs3_B
  dsimp only
  rw [View.read_writes_eq_canon _ _ _ (cover3_B_5 c i arg1 harg1 arg2 harg2 arg3 harg3 arg4 harg4 arg5 harg5 arg6 harg6 arg7 harg7 arg8 harg8 arg9 harg9 hc0 hc1 x0 x1 x2 x3 x4 xs0 xs1)]
  unfold kernelRun3_B
  dsimp only
  (try sl_unfold_words)
  rw [View.canon_cons_unit_zero (S := S5000x128) hz3]
  simp only [View.readAt_eq_ld, harg1.read_unread, harg2.read_unread, harg3.read_unread, harg4.read_unread, harg5.read_unread, harg8.read_unread, harg9.read_unread, View.ld_unit_zero (S := S5000x128) hz3, View.ld_unit_zero (S := S1x128) hz3]

theorem outs3_B_s0 (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : ¬cond3_1 i)
    (x0 : Vec F S5000x128 .f32) (x1 : Vec F S1x128 .f32) (x2 : Vec F S1x128 .f32) (x3 : Vec F S1x128 .f32) (x4 : Vec F S1x128 .f32) (xs0 : Vec F S1x128 .f32) (xs1 : Vec F S1x128 .f32) :
    (outs3_B c i arg1 harg1 arg2 harg2 arg3 harg3 arg4 harg4 arg5 harg5 arg6 harg6 arg7 harg7 arg8 harg8 arg9 harg9 hc0 hc1 x0 x1 x2 x3 x4 xs0 xs1).2.2.1 = k3_pay5 x0 x2 x3 x1 x4 xs0 := by
  unfold outs3_B
  dsimp only
  rw [View.read_writes_eq_canon _ _ _ (scover3_B_0 c i arg1 harg1 arg2 harg2 arg3 harg3 arg4 harg4 arg5 harg5 arg6 harg6 arg7 harg7 arg8 harg8 arg9 harg9 hc0 hc1 x0 x1 x2 x3 x4 xs0 xs1)]
  unfold kernelRun3_B
  dsimp only
  (try sl_unfold_words)
  rw [View.canon_cons_unit_zero (S := S1x128) hz3]
  simp only [View.readAt_eq_ld, harg1.read_unread, harg2.read_unread, harg3.read_unread, harg4.read_unread, harg5.read_unread, harg8.read_unread, harg9.read_unread, View.ld_unit_zero (S := S5000x128) hz3, View.ld_unit_zero (S := S1x128) hz3]

theorem outs3_B_s1 (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : ¬cond3_1 i)
    (x0 : Vec F S5000x128 .f32) (x1 : Vec F S1x128 .f32) (x2 : Vec F S1x128 .f32) (x3 : Vec F S1x128 .f32) (x4 : Vec F S1x128 .f32) (xs0 : Vec F S1x128 .f32) (xs1 : Vec F S1x128 .f32) :
    (outs3_B c i arg1 harg1 arg2 harg2 arg3 harg3 arg4 harg4 arg5 harg5 arg6 harg6 arg7 harg7 arg8 harg8 arg9 harg9 hc0 hc1 x0 x1 x2 x3 x4 xs0 xs1).2.2.2 = k3_pay1 (k3_pay4 x0 x2 x3 x1 x4) xs1 := by
  unfold outs3_B
  dsimp only
  rw [View.read_writes_eq_canon _ _ _ (scover3_B_1 c i arg1 harg1 arg2 harg2 arg3 harg3 arg4 harg4 arg5 harg5 arg6 harg6 arg7 harg7 arg8 harg8 arg9 harg9 hc0 hc1 x0 x1 x2 x3 x4 xs0 xs1)]
  unfold kernelRun3_B
  dsimp only
  (try sl_unfold_words)
  rw [View.canon_cons_unit_zero (S := S1x128) hz3]
  simp only [View.readAt_eq_ld, harg1.read_unread, harg2.read_unread, harg3.read_unread, harg4.read_unread, harg5.read_unread, harg8.read_unread, harg9.read_unread, View.ld_unit_zero (S := S5000x128) hz3, View.ld_unit_zero (S := S1x128) hz3]

/-! ## The last block -/

theorem outs3_C_blk (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : cond3_1 i)
    (x0 : Vec F S5000x128 .f32) (x1 : Vec F S1x128 .f32) (x2 : Vec F S1x128 .f32) (x3 : Vec F S1x128 .f32) (x4 : Vec F S1x128 .f32) (xs0 : Vec F S1x128 .f32) (xs1 : Vec F S1x128 .f32) :
    (outs3_C c i arg1 harg1 arg2 harg2 arg3 harg3 arg4 harg4 arg5 harg5 arg6 harg6 arg7 harg7 arg8 harg8 arg9 harg9 hc0 hc1 x0 x1 x2 x3 x4 xs0 xs1).1 = k3_pay4 x0 x2 x3 x1 x4 := by
  unfold outs3_C
  dsimp only
  rw [View.read_writes_eq_canon _ _ _ (cover3_C_5 c i arg1 harg1 arg2 harg2 arg3 harg3 arg4 harg4 arg5 harg5 arg6 harg6 arg7 harg7 arg8 harg8 arg9 harg9 hc0 hc1 x0 x1 x2 x3 x4 xs0 xs1)]
  unfold kernelRun3_C
  dsimp only
  (try sl_unfold_words)
  rw [View.canon_cons_unit_zero (S := S5000x128) hz3]
  simp only [View.readAt_eq_ld, harg1.read_unread, harg2.read_unread, harg3.read_unread, harg4.read_unread, harg5.read_unread, harg8.read_unread, harg9.read_unread, View.ld_unit_zero (S := S5000x128) hz3, View.ld_unit_zero (S := S1x128) hz3]

theorem outs3_C_s0 (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : cond3_1 i)
    (x0 : Vec F S5000x128 .f32) (x1 : Vec F S1x128 .f32) (x2 : Vec F S1x128 .f32) (x3 : Vec F S1x128 .f32) (x4 : Vec F S1x128 .f32) (xs0 : Vec F S1x128 .f32) (xs1 : Vec F S1x128 .f32) :
    (outs3_C c i arg1 harg1 arg2 harg2 arg3 harg3 arg4 harg4 arg5 harg5 arg6 harg6 arg7 harg7 arg8 harg8 arg9 harg9 hc0 hc1 x0 x1 x2 x3 x4 xs0 xs1).2.2.1 = k3_pay5 x0 x2 x3 x1 x4 xs0 := by
  unfold outs3_C
  dsimp only
  rw [View.read_writes_eq_canon _ _ _ (scover3_C_0 c i arg1 harg1 arg2 harg2 arg3 harg3 arg4 harg4 arg5 harg5 arg6 harg6 arg7 harg7 arg8 harg8 arg9 harg9 hc0 hc1 x0 x1 x2 x3 x4 xs0 xs1)]
  unfold kernelRun3_C
  dsimp only
  (try sl_unfold_words)
  rw [View.canon_cons_unit_zero (S := S1x128) hz3]
  simp only [View.readAt_eq_ld, harg1.read_unread, harg2.read_unread, harg3.read_unread, harg4.read_unread, harg5.read_unread, harg8.read_unread, harg9.read_unread, View.ld_unit_zero (S := S5000x128) hz3, View.ld_unit_zero (S := S1x128) hz3]

theorem outs3_C_s1 (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : cond3_1 i)
    (x0 : Vec F S5000x128 .f32) (x1 : Vec F S1x128 .f32) (x2 : Vec F S1x128 .f32) (x3 : Vec F S1x128 .f32) (x4 : Vec F S1x128 .f32) (xs0 : Vec F S1x128 .f32) (xs1 : Vec F S1x128 .f32) :
    (outs3_C c i arg1 harg1 arg2 harg2 arg3 harg3 arg4 harg4 arg5 harg5 arg6 harg6 arg7 harg7 arg8 harg8 arg9 harg9 hc0 hc1 x0 x1 x2 x3 x4 xs0 xs1).2.2.2 = k3_pay1 (k3_pay4 x0 x2 x3 x1 x4) xs1 := by
  unfold outs3_C
  dsimp only
  rw [View.read_writes_eq_canon _ _ _ (scover3_C_1 c i arg1 harg1 arg2 harg2 arg3 harg3 arg4 harg4 arg5 harg5 arg6 harg6 arg7 harg7 arg8 harg8 arg9 harg9 hc0 hc1 x0 x1 x2 x3 x4 xs0 xs1)]
  unfold kernelRun3_C
  dsimp only
  (try sl_unfold_words)
  rw [View.canon_cons_unit_zero (S := S1x128) hz3]
  simp only [View.readAt_eq_ld, harg1.read_unread, harg2.read_unread, harg3.read_unread, harg4.read_unread, harg5.read_unread, harg8.read_unread, harg9.read_unread, View.ld_unit_zero (S := S5000x128) hz3, View.ld_unit_zero (S := S1x128) hz3]

/-- At the last block the two accumulator rows, as this block leaves them, are copied into the statistics
    output: row 0 the first, row 1 the second. -/
theorem outs3_C_stats (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond3_0 i) (hc1 : cond3_1 i)
    (x0 : Vec F S5000x128 .f32) (x1 : Vec F S1x128 .f32) (x2 : Vec F S1x128 .f32) (x3 : Vec F S1x128 .f32) (x4 : Vec F S1x128 .f32) (xs0 : Vec F S1x128 .f32) (xs1 : Vec F S1x128 .f32) :
    (outs3_C c i arg1 harg1 arg2 harg2 arg3 harg3 arg4 harg4 arg5 harg5 arg6 harg6 arg7 harg7 arg8 harg8 arg9 harg9 hc0 hc1 x0 x1 x2 x3 x4 xs0 xs1).2.1
      = View.canon [(⟨Rect.unit (s := S2x128) ![1, 0] S1x128.size inb_S2x128_S1x128_1_0, (outs3_C c i arg1 harg1 arg2 harg2 arg3 harg3 arg4 harg4 arg5 harg5 arg6 harg6 arg7 harg7 arg8 harg8 arg9 harg9 hc0 hc1 x0 x1 x2 x3 x4 xs0 xs1).2.2.2⟩ : View.Piece (Elt F) S2x128 .f32),
          ⟨Rect.unit (s := S2x128) ![0, 0] S1x128.size inb_S2x128_S1x128_0_0, (outs3_C c i arg1 harg1 arg2 harg2 arg3 harg3 arg4 harg4 arg5 harg5 arg6 harg6 arg7 harg7 arg8 harg8 arg9 harg9 hc0 hc1 x0 x1 x2 x3 x4 xs0 xs1).2.2.1⟩] := by
  rw [outs3_C_s0, outs3_C_s1]
  unfold outs3_C
  dsimp only
  rw [View.read_writes_eq_canon _ _ _ (cover3_C_6 c i arg1 harg1 arg2 harg2 arg3 harg3 arg4 harg4 arg5 harg5 arg6 harg6 arg7 harg7 arg8 harg8 arg9 harg9 hc0 hc1 x0 x1 x2 x3 x4 xs0 xs1)]
  unfold kernelRun3_C
  dsimp only
  sl_unfold_words
  simp only [View.readCov_unit_zero (S := S1x128) _ hz3]
  simp only [View.readAt_eq_ld, harg1.read_unread, harg2.read_unread, harg3.read_unread, harg4.read_unread, harg5.read_unread, harg8.read_unread, harg9.read_unread, View.ld_unit_zero (S := S5000x128) hz3, View.ld_unit_zero (S := S1x128) hz3]

/-! ## Point by point -/

/-- The last point of the grid. -/
def tLast3 : Fin cfg3.N := ⟨19, by rw [N3']; decide⟩

/-- The block the pass stores at point `t`: the normalised, clamped block of the inputs' blocks there. -/
def blkVal3 (c : Dev nD) (t : Fin cfg3.N) : Vec F S5000x128 .f32 :=
  k3_pay4 (iblk3 V c 0 t) (iblk3 V c 2 t) (iblk3 V c 3 t) (iblk3 V c 1 t) (iblk3 V c 4 t)

/-- After any point the block output's buffer holds that block. -/
theorem outsAt3_blk (c : Dev nD) (t : Fin cfg3.N) : (outsAt3 V c t.val t.isLt).1 = blkVal3 V c t := by
  unfold blkVal3
  by_cases h0 : t.val = 0
  · rw [outsAt3_A V c t h0]; unfold outsA3; exact outs3_A_blk ..
  · by_cases h1 : t.val = 19
    · rw [outsAt3_C V c t h1]; unfold outsC3; exact outs3_C_blk ..
    · rw [outsAt3_B V c t h0 h1]; unfold outsB3; exact outs3_B_blk ..

/-- THE TWO RUNNING SUMS.  After the first block the first accumulator row holds the zero row plus the block's
    column sums, the second the zero row plus the column sums of its square; -/
theorem outsAt3_s0_zero (c : Dev nD) (h : 0 < cfg3.N) :
    (outsAt3 V c 0 h).2.2.1 = k3_pay5 (iblk3 V c 0 ⟨0, h⟩) (iblk3 V c 2 ⟨0, h⟩) (iblk3 V c 3 ⟨0, h⟩) (iblk3 V c 1 ⟨0, h⟩) (iblk3 V c 4 ⟨0, h⟩) (k3_pay2 (F := F)) := by
  rw [outsAt3_zero]; unfold outsA3; exact outs3_A_s0 ..
theorem outsAt3_s1_zero (c : Dev nD) (h : 0 < cfg3.N) :
    (outsAt3 V c 0 h).2.2.2 = k3_pay1 (blkVal3 V c ⟨0, h⟩) (k3_pay3 (F := F)) := by
  unfold blkVal3; rw [outsAt3_zero]; unfold outsA3; exact outs3_A_s1 ..
/-- after each later block, what the block before left plus this block's. -/
theorem outsAt3_s0_succ (c : Dev nD) (n : ℕ) (h : n + 1 < cfg3.N) :
    (outsAt3 V c (n + 1) h).2.2.1 = k3_pay5 (iblk3 V c 0 ⟨n + 1, h⟩) (iblk3 V c 2 ⟨n + 1, h⟩) (iblk3 V c 3 ⟨n + 1, h⟩) (iblk3 V c 1 ⟨n + 1, h⟩) (iblk3 V c 4 ⟨n + 1, h⟩) (outsAt3 V c n (Nat.lt_of_succ_lt h)).2.2.1 := by
  by_cases h1 : n + 1 = 19
  · rw [outsAt3_succ_C V c n h h1]; unfold outsC3; exact outs3_C_s0 ..
  · rw [outsAt3_succ_B V c n h h1]; unfold outsB3; exact outs3_B_s0 ..
theorem outsAt3_s1_succ (c : Dev nD) (n : ℕ) (h : n + 1 < cfg3.N) :
    (outsAt3 V c (n + 1) h).2.2.2 = k3_pay1 (blkVal3 V c ⟨n + 1, h⟩) (outsAt3 V c n (Nat.lt_of_succ_lt h)).2.2.2 := by
  unfold blkVal3
  by_cases h1 : n + 1 = 19
  · rw [outsAt3_succ_C V c n h h1]; unfold outsC3; exact outs3_C_s1 ..
  · rw [outsAt3_succ_B V c n h h1]; unfold outsB3; exact outs3_B_s1 ..

/-- The statistics the pass leaves: after the last block, row 0 the first running sum, row 1 the second. -/
def stats3 (c : Dev nD) : Vec F S2x128 .f32 :=
  View.canon [(⟨Rect.unit (s := S2x128) ![1, 0] S1x128.size inb_S2x128_S1x128_1_0, (outsAt3 V c tLast3.val tLast3.isLt).2.2.2⟩ : View.Piece (Elt F) S2x128 .f32),
    ⟨Rect.unit (s := S2x128) ![0, 0] S1x128.size inb_S2x128_S1x128_0_0, (outsAt3 V c tLast3.val tLast3.isLt).2.2.1⟩]

theorem outsAt3_stats (c : Dev nD) : (outsAt3 V c tLast3.val tLast3.isLt).2.1 = stats3 V c := by
  unfold stats3
  rw [outsAt3_C V c tLast3 rfl]; unfold outsC3; exact outs3_C_stats ..

/-- Row 1 of the statistics is the second running sum after the last block, -/
theorem stats3_row1 (c : Dev nD) (x : S1x128.Idx) :
    stats3 V c ((Rect.unit (s := S2x128) ![1, 0] S1x128.size inb_S2x128_S1x128_1_0).emb x) = (outsAt3 V c tLast3.val tLast3.isLt).2.2.2 x := by
  unfold stats3; exact View.canon_cons_emb (Rect.unit (s := S2x128) ![1, 0] S1x128.size inb_S2x128_S1x128_1_0) _ _ x

/-- row 0 the first: row 0 is outside the rectangle of row 1. -/
theorem stats3_row0 (c : Dev nD) (x : S1x128.Idx) :
    stats3 V c ((Rect.unit (s := S2x128) ![0, 0] S1x128.size inb_S2x128_S1x128_0_0).emb x) = (outsAt3 V c tLast3.val tLast3.isLt).2.2.1 x := by
  unfold stats3
  rw [View.canon_cons_of_not_mem _ _ (by
    rw [Rect.mem_set_unit]
    intro h
    have h0 := (h 0).1
    have hx : (x 0).val < 1 := (x 0).isLt
    have he : (((Rect.unit (s := S2x128) ![0, 0] S1x128.size inb_S2x128_S1x128_0_0).emb x) 0 : Nat) = 0 + 1 * (x 0).val := rfl
    have ho : ((![1, 0] : Fin 2 → Nat) 0) = 1 := rfl
    omega)]
  exact View.canon_cons_emb (Rect.unit (s := S2x128) ![0, 0] S1x128.size inb_S2x128_S1x128_0_0) _ _ x

/-! ## From blocks to the arrays -/

/-- The printed index maps, decided over the grid: at point `t` the input row block and the output row block are
    both block `t` of their arrays; the statistics output's one block is the whole array. -/
theorem idx_facts3 : ∀ t : Fin cfg3.N, win3_5.index t (0 : Fin 2) = t.val ∧ win3_5.index t (1 : Fin 2) = 0
    ∧ win3_6.index t (0 : Fin 2) = 0 ∧ win3_6.index t (1 : Fin 2) = 0 :=
  (by decide +kernel : ∀ t : Fin grid3.N, _)

/-- The point whose block holds row `i 0`. -/
def rowPt3 (i : S100000x128.Idx) : Fin cfg3.N :=
  ⟨(i 0).val / 5000, by have h : (i 0).val < 100000 := (i 0).isLt; rw [N3']; omega⟩

/-- THE BLOCK OUTPUT as one function of the inputs: row `r`, column `l` is entry `(r % 5000, l)` of the block the
    pass stores at point `r / 5000`. -/
def G3_5 (c : Dev nD) : S100000x128.Idx → Elt F .f32 := fun i =>
  blkVal3 V c (rowPt3 i) (ValueIdx.ix2 ⟨(i 0).val % 5000, Nat.mod_lt _ (by decide)⟩ (i 1))

/-- What point `t` writes back is block `t` of it. -/
theorem flushed3_5_eq (c : Dev nD) (t : Fin cfg3.N) :
    (dat3 V c).flushed 5 t = ((cfg3.win 5).blk t).view.read (Elt F) (G3_5 V c) := by
  show (cfg3.win 5).cut (grid3.coords t) ((dat3 V c).after 5 t) = _
  rw [after3_5, outsAt3_blk]
  obtain ⟨e0, e1, -, -⟩ := idx_facts3 t
  funext j
  show blkVal3 V c t j = G3_5 V c (((cfg3.win 5).blk t).view.emb j)
  have hj0 : (j 0).val < 5000 := (j 0).isLt
  have hemb0 : ((((cfg3.win 5).blk t).view.emb j) 0).val = t.val * 5000 + (j 0).val := by
    show win3_5.index t (0 : Fin 2) * 5000 + 1 * (j 0).val = _; omega
  have hemb1 : ((((cfg3.win 5).blk t).view.emb j) 1).val = (j 1).val := by
    show win3_5.index t (1 : Fin 2) * 128 + 1 * (j 1).val = _; omega
  have hpt : rowPt3 (((cfg3.win 5).blk t).view.emb j) = t := Fin.ext (by
    show ((((cfg3.win 5).blk t).view.emb j) 0).val / 5000 = t.val; rw [hemb0]; omega)
  unfold G3_5
  rw [hpt]
  congr 1
  funext a; apply Fin.ext
  match a with
  | ⟨0, _⟩ => show (j 0).val = ((((cfg3.win 5).blk t).view.emb j) 0).val % 5000; rw [hemb0]; omega
  | ⟨1, _⟩ => show (j 1).val = ((((cfg3.win 5).blk t).view.emb j) 1).val; rw [hemb1]

/-- An index of the array is in point `t`'s block iff each coordinate is in the block's range on its axis. -/
theorem mem_blk3_5 (t : Fin cfg3.N) (i : S100000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole main_v90_0).slice (win3_5.rect t)).set ↔ _
  rw [View.set_slice_whole, Rect.mem_set_unit]
  exact Iff.rfl

/-- THE BLOCK OUTPUT ARRAY after the region: every row is in the block of point `row / 5000`, written back there. -/
theorem final3_5 (c : Dev nD) : (dat3 V c).arrAt 5 cfg3.N = G3_5 V c :=
  (dat3 V c).arrAt_eq_of_cover 5 (G3_5 V c) (fun t _ => flushed3_5_eq V c t) fun i =>
    ⟨rowPt3 i, flush3_5 _, by
      rw [mem_blk3_5]
      obtain ⟨e0, e1, -, -⟩ := idx_facts3 (rowPt3 i)
      have h0 : (i 0).val < 100000 := (i 0).isLt
      have h1 : (i 1).val < 128 := (i 1).isLt
      have hp : (rowPt3 i).val = (i 0).val / 5000 := rfl
      intro a
      match a with
      | ⟨0, _⟩ => show win3_5.index (rowPt3 i) (0 : Fin 2) * 5000 ≤ (i 0).val ∧ (i 0).val < win3_5.index (rowPt3 i) (0 : Fin 2) * 5000 + 5000; omega
      | ⟨1, _⟩ => show win3_5.index (rowPt3 i) (1 : Fin 2) * 128 ≤ (i 1).val ∧ (i 1).val < win3_5.index (rowPt3 i) (1 : Fin 2) * 128 + 128; omega⟩

/-- The one write-back of the statistics output, at the last point, writes `stats3`: its block is the whole array. -/
theorem flushed3_6_eq (c : Dev nD) (t : Fin cfg3.N) (hf : (cfg3.win 6).flush t = true) :
    (dat3 V c).flushed 6 t = ((cfg3.win 6).blk t).view.read (Elt F) (stats3 V c) := by
  have hN : cfg3.N = 20 := N3'
  have h19 : t.val = 19 := by have := (flush3_6 t).mp hf; have := t.isLt; omega
  obtain rfl : t = tLast3 := Fin.ext h19
  show (cfg3.win 6).cut (grid3.coords tLast3) ((dat3 V c).after 6 tLast3) = _
  rw [after3_6, outsAt3_stats]
  have hz' : (fun a => win3_6.index tLast3 a * main_v90_1.ty.shape.size a) = fun _ => 0 := funext fun a => by fin_cases a <;> decide
  exact (Memref.read_access_unit_zero (Elt F) main_v90_1 hz' (fun a => by rw [congrFun hz' a]; simp) (stats3 V c)).symm

/-- THE STATISTICS ARRAY after the region. -/
theorem final3_6 (c : Dev nD) : (dat3 V c).arrAt 6 cfg3.N = stats3 V c :=
  (dat3 V c).arrAt_eq_of_cover 6 (stats3 V c) (flushed3_6_eq V c) fun i =>
    ⟨tLast3, (flush3_6 tLast3).mpr rfl, by
      show i ∈ ((View.whole main_v90_1).slice (win3_6.rect tLast3)).set
      rw [View.set_slice_whole, Rect.mem_set_unit]
      intro a
      have h0 : (i 0 : Nat) < 2 := (i 0).isLt
      have h1 : (i 1 : Nat) < 128 := (i 1).isLt
      match a with
      | ⟨0, _⟩ => show win3_6.index tLast3 0 * win3_6.size 0 ≤ (i 0 : Nat) ∧ (i 0 : Nat) < win3_6.index tLast3 0 * win3_6.size 0 + win3_6.xsize (grid3.coords tLast3) 0
                  rw [show win3_6.index tLast3 0 * win3_6.size 0 = 0 from by decide +kernel, show win3_6.xsize (grid3.coords tLast3) 0 = 2 from by decide +kernel]; omega
      | ⟨1, _⟩ => show win3_6.index tLast3 1 * win3_6.size 1 ≤ (i 1 : Nat) ∧ (i 1 : Nat) < win3_6.index tLast3 1 * win3_6.size 1 + win3_6.xsize (grid3.coords tLast3) 1
                  rw [show win3_6.index tLast3 1 * win3_6.size 1 = 0 from by decide +kernel, show win3_6.xsize (grid3.coords tLast3) 1 = 128 from by decide +kernel]; omega⟩

end Cert.KernelIdeal.Hand

end
-- ==== Proof.KI.Pay3.lean ====
/-
  Stage C's stored values, read at an entry: the reset rows, the normalised and rectified block, and the two running column sums.

  Every statement is at the exact instance: floats are extended reals, each operation is the textbook one, and a change
  of float format is the identity. A payload is read at one entry `(r, j)` as a plain expression of its operands' entries.
-/
import proofs.«164503_j82721070121701_1_alg».proof.Proof.Gen.KernelIdeal.Skeleton
import proofs.«164503_j82721070121701_1_alg».proof.Proof.LibMatmulPlain
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic ValueIdx
open scoped BigOperators

/-- Summing a matrix over its rows: the source entry over the result entry `j` with row coordinate `r` is `(r, j)`. -/
private theorem lift_rows {A B : ℕ} (h : (⟨2, ![A, B]⟩ : Shape).Reduces [(0 : Fin 2)] ⟨1, ![B]⟩) (j : Fin B) (r : Fin A) :
    h.lift (ix1 j) r = ix2 r j := by
  funext c
  apply Fin.ext
  match c with
  | ⟨0, _⟩ => rfl
  | ⟨1, _⟩ => rfl

/-- A column sum of an `A × B` matrix, kept as a `1 × B` row: entry `(0, j)` is `∑ r, src[r, j]`. The two proof arguments
    of the reduction are arbitrary: the sum does not depend on them. -/
private theorem colSum_apply {A B : ℕ} (src : FVec Ideal ⟨2, ![A, B]⟩ .f32)
    (h : (⟨2, ![A, B]⟩ : Shape).Reduces [(0 : Fin 2)] ⟨1, ![B]⟩) (hφ : FKind.Formats .f32)
    (hacc : (0x00000000#32 : BitVec FTy.f32.bits) = FKind.add.neutral .f32 hφ)
    (hc : (⟨1, ![B]⟩ : Shape).ShapeCasts ⟨2, ![1, B]⟩) (j : Fin B) :
    shapeCast ⟨2, ![1, B]⟩ (multiReduction (F := Ideal) .add [(0 : Fin 2)] ⟨1, ![B]⟩ src 0x00000000#32 h hφ hacc) hc (ix2 (0 : Fin 1) j)
      = ∑ r : Fin A, src (ix2 r j) := by
  refine (shapeCast_a_1a_apply _ hc 0 j).trans ?_
  refine (Ideal.multiReduction_add_single src 0x00000000#32 h hφ hacc (ix1 j)).trans ?_
  exact Finset.sum_congr rfl fun r _ => congrArg src (lift_rows h j r)

/-- The reciprocal square root of a vector, read at an entry. -/
private theorem rsqrt_apply {s : Shape} {φ : FTy} (a : FVec Ideal s φ) (i : s.Idx) : rsqrt a i = Ideal.rsqrt (a i) := rfl

/-- The first reset row is zero. -/
theorem k3_pay2_apply (j : Fin 128) : k3_pay2 (F := Ideal) (ix2 0 j) = 0 := by
  unfold k3_pay2
  simp only [shapeCast_self]
  exact Ideal.ofBits_zero_f32

/-- The second reset row is zero. -/
theorem k3_pay3_apply (j : Fin 128) : k3_pay3 (F := Ideal) (ix2 0 j) = 0 := by
  unfold k3_pay3
  simp only [shapeCast_self]
  exact Ideal.ofBits_zero_f32

/-- The normalised, rectified block: entry `(r, j)` is `max (g[j] · (h[r,j] − mean[j]) · rsqrt (var[j] + ε) + beta[j]) 0`. -/
theorem k3_pay4_apply (h : Vec Ideal S5000x128 .f32) (var g mean beta : Vec Ideal S1x128 .f32) (r : Fin 5000) (j : Fin 128) :
    k3_pay4 (F := Ideal) h var g mean beta (ix2 r j)
      = max (g (ix2 0 j) * (h (ix2 r j) - mean (ix2 0 j)) * Ideal.rsqrt (var (ix2 0 j) + Ideal.ofBits .f32 0x3727C5AC#32)
          + beta (ix2 0 j)) 0 := by
  unfold k3_pay4
  simp only [shapeCast_self, maximumf_apply, addf_apply, mulf_apply, subf_apply, broadcastTo_1b_ab_apply, rsqrt_apply,
    broadcast_apply]
  show max (g (ix2 0 j) * (h (ix2 r j) - mean (ix2 0 j)) * Ideal.rsqrt (var (ix2 0 j) + Ideal.ofBits .f32 0x3727C5AC#32)
      + beta (ix2 0 j)) (Ideal.ofBits .f32 0x00000000#32) = _
  rw [Ideal.ofBits_zero_f32]

/-- The running column sum: the carried row plus the block's column sums of the rectified block. -/
theorem k3_pay5_apply (h : Vec Ideal S5000x128 .f32) (var g mean beta acc : Vec Ideal S1x128 .f32) (j : Fin 128) :
    k3_pay5 (F := Ideal) h var g mean beta acc (ix2 0 j)
      = acc (ix2 0 j) + ∑ r : Fin 5000, k3_pay4 (F := Ideal) h var g mean beta (ix2 r j) := by
  unfold k3_pay5
  simp only [shapeCast_self]
  rw [addf_apply]
  exact congrArg (acc (ix2 0 j) + ·) (colSum_apply (k3_pay4 (F := Ideal) h var g mean beta) _ _ _ _ j)

/-- The running column sum of squares over the rows of the block `y`. -/
theorem k3_pay1_apply (y : FVec Ideal S5000x128 .f32) (acc : Vec Ideal S1x128 .f32) (j : Fin 128) :
    k3_pay1 (F := Ideal) y acc (ix2 0 j) = acc (ix2 0 j) + ∑ r : Fin 5000, y (ix2 r j) * y (ix2 r j) := by
  unfold k3_pay1
  simp only [shapeCast_self]
  rw [addf_apply]
  exact congrArg (acc (ix2 0 j) + ·) (colSum_apply (mulf y y) _ _ _ _ j)

end Cert.KernelIdeal.Pay

end
-- ==== Proof.KI.Idx3.lean ====
import proofs.«164503_j82721070121701_1_alg».proof.Proof.KI.Val3
import proofs.«164503_j82721070121701_1_alg».proof.Proof.KI.Pay3
import proofs.«164503_j82721070121701_1_alg».proof.Proof.KI.Rows
import proofs.«164503_j82721070121701_1_alg».proof.Proof.LibSumBlocks

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

/-! # Region 3's output arrays, read at an entry

At the exact instance the second normalisation pass leaves, at row `p` and feature `j` of its block output,
`max (gain[j] · (h[p,j] − mean[j]) · rsqrt (var[j] + ε) + shift[j]) 0` of the arrays it finds on entry; and in its
statistics output, row 0 the sum over all 100000 rows of that output's column `j`, row 1 the sum of its squares.
The kernel forms each sum block by block (20 blocks of 5000 rows, a running row carried from block to block);
addition on the extended reals is associative and commutative, so the nested sum is the one sum over the rows. -/

section Blocks

variable {F : FTy → Type} [FloatOps F]

variable (V : (c : Dev nD) → (b : Ref sig .tc) → Buf (Elt F) ((c : Thread nD τ).loc b))

/-- The printed index maps of the five inputs, decided over the grid: the row-tiled input's block index is
    (the point, 0); a one-row table's is (0, 0) at every point. -/
theorem idx_facts3_in : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

/-- Window 0's block at point `t` is rows `5000 t …` of its array. -/
theorem iblk3_0_eq (c : Dev nD) (t : Fin cfg3.N) :
    (iblk3 V c 0 t : Vec F S5000x128 .f32) = rowBlk ((V c (Pipeline.arrRef spec3 0)) : S100000x128.Idx → Elt F .f32) (Fin.cast N3' t) := by
  obtain ⟨e00, e01, e10, e11, e20, e21, e30, e31, e40, e41⟩ := idx_facts3_in t
  funext y
  unfold iblk3
  rw [View.read_apply, rowBlk_apply]
  refine congrArg (V c (Pipeline.arrRef spec3 0) : S100000x128.Idx → Elt F .f32) ?_
  funext a
  apply Fin.ext
  match a with
  | ⟨0, _⟩ => show win3_0.index t (0 : Fin 2) * 5000 + 1 * (y 0).val = 5000 * t.val + (y 0).val; omega
  | ⟨1, _⟩ => show win3_0.index t (1 : Fin 2) * 128 + 1 * (y 1).val = (y 1).val; omega

/-- Window 1's block at every point is its whole array. -/
theorem iblk3_1_eq (c : Dev nD) (t : Fin cfg3.N) :
    (iblk3 V c 1 t : Vec F S1x128 .f32) = ((V c (Pipeline.arrRef spec3 1)) : S1x128.Idx → Elt F .f32) := by
  obtain ⟨e00, e01, e10, e11, e20, e21, e30, e31, e40, e41⟩ := idx_facts3_in t
  funext y
  unfold iblk3
  rw [View.read_apply]
  refine congrArg (V c (Pipeline.arrRef spec3 1) : S1x128.Idx → Elt F .f32) ?_
  funext a
  apply Fin.ext
  match a with
  | ⟨0, _⟩ => show win3_1.index t (0 : Fin 2) * 1 + 1 * (y 0).val = (y 0).val; omega
  | ⟨1, _⟩ => show win3_1.index t (1 : Fin 2) * 128 + 1 * (y 1).val = (y 1).val; omega

/-- Window 2's block at every point is its whole array. -/
theorem iblk3_2_eq (c : Dev nD) (t : Fin cfg3.N) :
    (iblk3 V c 2 t : Vec F S1x128 .f32) = ((V c (Pipeline.arrRef spec3 2)) : S1x128.Idx → Elt F .f32) := by
  obtain ⟨e00, e01, e10, e11, e20, e21, e30, e31, e40, e41⟩ := idx_facts3_in t
  funext y
  unfold iblk3
  rw [View.read_apply]
  refine congrArg (V c (Pipeline.arrRef spec3 2) : S1x128.Idx → Elt F .f32) ?_
  funext a
  apply Fin.ext
  match a with
  | ⟨0, _⟩ => show win3_2.index t (0 : Fin 2) * 1 + 1 * (y 0).val = (y 0).val; omega
  | ⟨1, _⟩ => show win3_2.index t (1 : Fin 2) * 128 + 1 * (y 1).val = (y 1).val; omega

/-- Window 3's block at every point is its whole array. -/
theorem iblk3_3_eq (c : Dev nD) (t : Fin cfg3.N) :
    (iblk3 V c 3 t : Vec F S1x128 .f32) = ((V c (Pipeline.arrRef spec3 3)) : S1x128.Idx → Elt F .f32) := by
  obtain ⟨e00, e01, e10, e11, e20, e21, e30, e31, e40, e41⟩ := idx_facts3_in t
  funext y
  unfold iblk3
  rw [View.read_apply]
  refine congrArg (V c (Pipeline.arrRef spec3 3) : S1x128.Idx → Elt F .f32) ?_
  funext a
  apply Fin.ext
  match a with
  | ⟨0, _⟩ => show win3_3.index t (0 : Fin 2) * 1 + 1 * (y 0).val = (y 0).val; omega
  | ⟨1, _⟩ => show win3_3.index t (1 : Fin 2) * 128 + 1 * (y 1).val = (y 1).val; omega

/-- Window 4's block at every point is its whole array. -/
theorem iblk3_4_eq (c : Dev nD) (t : Fin cfg3.N) :
    (iblk3 V c 4 t : Vec F S1x128 .f32) = ((V c (Pipeline.arrRef spec3 4)) : S1x128.Idx → Elt F .f32) := by
  obtain ⟨e00, e01, e10, e11, e20, e21, e30, e31, e40, e41⟩ := idx_facts3_in t
  funext y
  unfold iblk3
  rw [View.read_apply]
  refine congrArg (V c (Pipeline.arrRef spec3 4) : S1x128.Idx → Elt F .f32) ?_
  funext a
  apply Fin.ext
  match a with
  | ⟨0, _⟩ => show win3_4.index t (0 : Fin 2) * 1 + 1 * (y 0).val = (y 0).val; omega
  | ⟨1, _⟩ => show win3_4.index t (1 : Fin 2) * 128 + 1 * (y 1).val = (y 1).val; omega

/-- The block output as one function of the five input arrays: entry `i` is the normalise-and-clamp of the block
    holding row `i 0` with the four one-row tables, at `i`'s place in the block. The payload reads the row block, then
    the tables of windows 2, 3, 1 and 4, in that order. -/
def G3 (a0 : S100000x128.Idx → Elt F .f32) (a1 a2 a3 a4 : S1x128.Idx → Elt F .f32) : S100000x128.Idx → Elt F .f32 := fun i =>
  k3_pay4 (rowBlk a0 (rowPt i)) a2 a3 a1 a4 (rowLoc i)

/-- The block output array after the region, from the input arrays as the region finds them. -/
theorem arrAt3_out (c : Dev nD) :
    (dat3 V c).arrAt 5 cfg3.N = G3 (V c (Pipeline.arrRef spec3 0)) (V c (Pipeline.arrRef spec3 1)) (V c (Pipeline.arrRef spec3 2)) (V c (Pipeline.arrRef spec3 3)) (V c (Pipeline.arrRef spec3 4)) := by
  rw [final3_5]
  funext i
  show k3_pay4 (iblk3 V c 0 (rowPt3 i)) (iblk3 V c 2 (rowPt3 i)) (iblk3 V c 3 (rowPt3 i)) (iblk3 V c 1 (rowPt3 i)) (iblk3 V c 4 (rowPt3 i)) (rowLoc i) = _
  rw [iblk3_0_eq, iblk3_1_eq, iblk3_2_eq, iblk3_3_eq, iblk3_4_eq]
  rfl

end Blocks

/-! ## The block output at an entry -/

/-- The closed form read at an entry: row `p` lies in block `p / 5000` at row `p % 5000`, and the block's entry there
    is the array's entry at `p`. -/
theorem G3_entry (o a0 : Vec Ideal S100000x128 .f32) (a1 a2 a3 a4 : Vec Ideal S1x128 .f32) (ho : o = G3 a0 a1 a2 a3 a4)
    (p : Fin 100000) (j : Fin 128) :
    o (ix2 p j) = max (a3 (ix2 0 j) * (a0 (ix2 p j) - a1 (ix2 0 j)) * Ideal.rsqrt (a2 (ix2 0 j) + Ideal.ofBits .f32 0x3727C5AC#32)
        + a4 (ix2 0 j)) 0 := by
  subst ho
  show k3_pay4 (F := Ideal) (rowBlk a0 (rowPt (ix2 p j))) a2 a3 a1 a4 (ix2 ⟨p.val % 5000, Nat.mod_lt _ (by decide)⟩ j) = _
  rw [Pay.k3_pay4_apply]
  exact congrArg (fun z : EReal => max (a3 (ix2 0 j) * (z - a1 (ix2 0 j)) * Ideal.rsqrt (a2 (ix2 0 j) + Ideal.ofBits .f32 0x3727C5AC#32)
        + a4 (ix2 0 j)) 0) (rowBlk_rowPt_rowLoc a0 (ix2 p j))

variable (V : (c : Dev nD) → (b : Ref sig .tc) → Buf (Elt Ideal) ((c : Thread nD τ).loc b))

/-- Entry `(p, j)` of the block output array after the region, from the entry arrays: with h = `main_v81_0`, mean =
    `main_v84`, var = `main_v89`, gain = `main_v68`, shift = `main_v69` as the region finds them,
    `out[p,j] = max (gain[0,j] · (h[p,j] − mean[0,j]) · rsqrt (var[0,j] + ε) + shift[0,j]) 0`. -/
theorem idx3_out (c : Dev nD) (p : Fin 100000) (j : Fin 128) :
    type_of% (G3_entry ((dat3 V c).arrAt 5 cfg3.N) (V c main_v81_0) (V c main_v84) (V c main_v89) (V c main_v68) (V c main_v69)
      (arrAt3_out V c) p j) :=
  G3_entry ((dat3 V c).arrAt 5 cfg3.N) (V c main_v81_0) (V c main_v84) (V c main_v89) (V c main_v68) (V c main_v69)
    (arrAt3_out V c) p j

/-! ## The two column sums -/

/-- Column `j` of the block output as a sequence indexed by the row number (zero past the last row). -/
def col3 (c : Dev nD) (j : Fin 128) : ℕ → EReal := fun k =>
  if hk : k < 100000 then G3_5 V c (ix2 (⟨k, hk⟩ : Fin 100000) j) else 0

/-- Row `5000 s + r` of the block output is row `r` of the block stored at point `s`. -/
theorem col3_blk (c : Dev nD) (j : Fin 128) (s : ℕ) (hs : s < cfg3.N) (r : Fin 5000) :
    col3 V c j (5000 * s + r.val) = blkVal3 V c ⟨s, hs⟩ (ix2 r j) := by
  have hN : cfg3.N = 20 := N3'
  have hr := r.isLt
  have hk : 5000 * s + r.val < 100000 := by omega
  unfold col3
  rw [dif_pos hk]
  have h1 : rowPt3 (ix2 (⟨5000 * s + r.val, hk⟩ : Fin 100000) j) = ⟨s, hs⟩ :=
    Fin.ext (by show (5000 * s + r.val) / 5000 = s; omega)
  have h2 : (⟨(5000 * s + r.val) % 5000, Nat.mod_lt _ (by decide)⟩ : Fin 5000) = r :=
    Fin.ext (by show (5000 * s + r.val) % 5000 = r.val; omega)
  show blkVal3 V c (rowPt3 (ix2 (⟨5000 * s + r.val, hk⟩ : Fin 100000) j))
      (ix2 (⟨(5000 * s + r.val) % 5000, Nat.mod_lt _ (by decide)⟩ : Fin 5000) j) = _
  rw [h1, h2]

/-- The first running row after point `n`: the column sums of the blocks stored so far. -/
theorem s0_closed3 (c : Dev nD) (j : Fin 128) : ∀ (n : ℕ) (h : n < cfg3.N),
    (outsAt3 V c n h).2.2.1 (ix2 0 j) = ∑ s ∈ Finset.range (n + 1), ∑ r : Fin 5000, col3 V c j (5000 * s + r.val) := by
  intro n
  induction n with
  | zero =>
    intro h
    rw [outsAt3_s0_zero, Pay.k3_pay5_apply, Pay.k3_pay2_apply, zero_add, Finset.sum_range_one]
    exact Finset.sum_congr rfl fun r _ => (col3_blk V c j 0 h r).symm
  | succ n ih =>
    intro h
    rw [outsAt3_s0_succ, Pay.k3_pay5_apply, ih (Nat.lt_of_succ_lt h), Finset.sum_range_succ _ (n + 1)]
    refine congrArg (_ + ·) ?_
    exact Finset.sum_congr rfl fun r _ => (col3_blk V c j (n + 1) h r).symm

/-- The second running row after point `n`: the column sums of the squares of the blocks stored so far. -/
theorem s1_closed3 (c : Dev nD) (j : Fin 128) : ∀ (n : ℕ) (h : n < cfg3.N),
    (outsAt3 V c n h).2.2.2 (ix2 0 j)
      = ∑ s ∈ Finset.range (n + 1), ∑ r : Fin 5000, col3 V c j (5000 * s + r.val) * col3 V c j (5000 * s + r.val) := by
  intro n
  induction n with
  | zero =>
    intro h
    rw [outsAt3_s1_zero, Pay.k3_pay1_apply, Pay.k3_pay3_apply, zero_add, Finset.sum_range_one]
    exact Finset.sum_congr rfl fun r _ => by rw [col3_blk V c j 0 h r]
  | succ n ih =>
    intro h
    rw [outsAt3_s1_succ, Pay.k3_pay1_apply, ih (Nat.lt_of_succ_lt h), Finset.sum_range_succ _ (n + 1)]
    refine congrArg (_ + ·) ?_
    exact Finset.sum_congr rfl fun r _ => by rw [col3_blk V c j (n + 1) h r]

/-- Twenty blocks of 5000 terms are the 100000 terms, once each. -/
theorem sum_blocks_rows3 (g : ℕ → EReal) :
    ∑ s ∈ Finset.range 20, ∑ r : Fin 5000, g (5000 * s + r.val) = ∑ p : Fin 100000, g p.val := by
  rw [Fin.sum_univ_eq_sum_range (fun k => g k) 100000]
  have h := Cert.Lib.SumBlocks.sum_range_mul_blocks g 20 5000
  rw [show (20 * 5000 : ℕ) = 100000 from rfl] at h
  rw [h]
  exact Finset.sum_congr rfl fun s _ => Fin.sum_univ_eq_sum_range (fun r => g (5000 * s + r)) 5000

/-- Row 0 of a 2 × 128 array is where the one-row rectangle at offset (0, 0) puts its entries, row 1 the one at (1, 0). -/
theorem emb_row0_3 (j : Fin 128) :
    (Rect.unit (s := S2x128) ![0, 0] S1x128.size inb_S2x128_S1x128_0_0).emb (ix2 (0 : Fin 1) j) = (ix2 (0 : Fin 2) j : S2x128.Idx) := by
  funext a
  apply Fin.ext
  match a with
  | ⟨0, _⟩ => rfl
  | ⟨1, _⟩ => show 0 + 1 * j.val = j.val; omega

theorem emb_row1_3 (j : Fin 128) :
    (Rect.unit (s := S2x128) ![1, 0] S1x128.size inb_S2x128_S1x128_1_0).emb (ix2 (0 : Fin 1) j) = (ix2 (1 : Fin 2) j : S2x128.Idx) := by
  funext a
  apply Fin.ext
  match a with
  | ⟨0, _⟩ => rfl
  | ⟨1, _⟩ => show 0 + 1 * j.val = j.val; omega

/-- Row 0 of the statistics is the sum over all rows of the block output's column. -/
theorem stats_sum3 (c : Dev nD) (st : Vec Ideal S2x128 .f32) (o : Vec Ideal S100000x128 .f32) (hst : st = stats3 V c) (ho : o = G3_5 V c)
    (j : Fin 128) : st (ix2 0 j) = ∑ p : Fin 100000, o (ix2 p j) := by
  subst hst ho
  rw [← emb_row0_3 j]
  refine (stats3_row0 V c (ix2 0 j)).trans ((s0_closed3 V c j tLast3.val tLast3.isLt).trans ?_)
  refine (sum_blocks_rows3 (col3 V c j)).trans ?_
  exact Finset.sum_congr rfl fun p _ => dif_pos p.isLt

/-- Row 1 of the statistics is the sum over all rows of the squares of the block output's column. -/
theorem stats_sumsq3 (c : Dev nD) (st : Vec Ideal S2x128 .f32) (o : Vec Ideal S100000x128 .f32) (hst : st = stats3 V c) (ho : o = G3_5 V c)
    (j : Fin 128) : st (ix2 1 j) = ∑ p : Fin 100000, o (ix2 p j) * o (ix2 p j) := by
  subst hst ho
  rw [← emb_row1_3 j]
  refine (stats3_row1 V c (ix2 0 j)).trans ((s1_closed3 V c j tLast3.val tLast3.isLt).trans ?_)
  refine (sum_blocks_rows3 (fun k => col3 V c j k * col3 V c j k)).trans ?_
  exact Finset.sum_congr rfl fun p _ => by
    show col3 V c j p.val * col3 V c j p.val = _
    rw [show col3 V c j p.val = G3_5 V c (ix2 p j) from dif_pos p.isLt]

/-- Row 0 of the statistics array after the region is the sum over the 100000 rows of the block output array's
    column `j` after the region. -/
theorem idx3_sum (c : Dev nD) (j : Fin 128) :
    type_of% (stats_sum3 V c ((dat3 V c).arrAt 6 cfg3.N) ((dat3 V c).arrAt 5 cfg3.N) (final3_6 V c) (final3_5 V c) j) :=
  stats_sum3 V c ((dat3 V c).arrAt 6 cfg3.N) ((dat3 V c).arrAt 5 cfg3.N) (final3_6 V c) (final3_5 V c) j

/-- Row 1 of the statistics array after the region is the sum over the 100000 rows of the squares of the block
    output array's column `j` after the region. -/
theorem idx3_sumsq (c : Dev nD) (j : Fin 128) :
    type_of% (stats_sumsq3 V c ((dat3 V c).arrAt 6 cfg3.N) ((dat3 V c).arrAt 5 cfg3.N) (final3_6 V c) (final3_5 V c) j) :=
  stats_sumsq3 V c ((dat3 V c).arrAt 6 cfg3.N) ((dat3 V c).arrAt 5 cfg3.N) (final3_6 V c) (final3_5 V c) j

end Cert.KernelIdeal.Hand

end
-- ==== Proof.KI.Val4.lean ====
import proofs.«164503_j82721070121701_1_alg».proof.Proof.KI.Reg4
import proofs.«164503_j82721070121701_1_alg».proof.Proof.KI.Rows
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

variable {F : FTy → Type} [FloatOps F]

variable (V : (c : Dev nD) → (b : Ref sig .tc) → Buf (Elt F) ((c : Thread nD τ).loc b))

/-! # Region 4's output array as one function of its input arrays -/

/-- The printed index maps, decided over the grid: a row-tiled window's block index is (the point, 0); a one-row
    table's is (0, 0) at every point. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-! ## The input blocks, read off their arrays -/

/-- Window 0's block at point `t` is rows `5000 t …` of its array. -/
theorem iblk4_0_eq (c : Dev nD) (t : Fin cfg4.N) :
    (iblk4 V c 0 t : Vec F S5000x128 .f32) = rowBlk ((V c (Pipeline.arrRef spec4 0)) : S100000x128.Idx → Elt F .f32) (Fin.cast N_4 t) := by
  obtain ⟨e00, e01, e10, e11, e20, e21, e30, e31, e40, e41, e50, e51⟩ := idx_facts4 t
  funext y
  unfold iblk4
  rw [View.read_apply, rowBlk_apply]
  refine congrArg (V c (Pipeline.arrRef spec4 0) : S100000x128.Idx → Elt F .f32) ?_
  funext a
  apply Fin.ext
  match a with
  | ⟨0, _⟩ => show win4_0.index t (0 : Fin 2) * 5000 + 1 * (y 0).val = 5000 * t.val + (y 0).val; omega
  | ⟨1, _⟩ => show win4_0.index t (1 : Fin 2) * 128 + 1 * (y 1).val = (y 1).val; omega

/-- Window 1's block at every point is its whole array. -/
theorem iblk4_1_eq (c : Dev nD) (t : Fin cfg4.N) :
    (iblk4 V c 1 t : Vec F S1x128 .f32) = ((V c (Pipeline.arrRef spec4 1)) : S1x128.Idx → Elt F .f32) := by
  obtain ⟨e00, e01, e10, e11, e20, e21, e30, e31, e40, e41, e50, e51⟩ := idx_facts4 t
  funext y
  unfold iblk4
  rw [View.read_apply]
  refine congrArg (V c (Pipeline.arrRef spec4 1) : S1x128.Idx → Elt F .f32) ?_
  funext a
  apply Fin.ext
  match a with
  | ⟨0, _⟩ => show win4_1.index t (0 : Fin 2) * 1 + 1 * (y 0).val = (y 0).val; omega
  | ⟨1, _⟩ => show win4_1.index t (1 : Fin 2) * 128 + 1 * (y 1).val = (y 1).val; omega

/-- Window 2's block at every point is its whole array. -/
theorem iblk4_2_eq (c : Dev nD) (t : Fin cfg4.N) :
    (iblk4 V c 2 t : Vec F S1x128 .f32) = ((V c (Pipeline.arrRef spec4 2)) : S1x128.Idx → Elt F .f32) := by
  obtain ⟨e00, e01, e10, e11, e20, e21, e30, e31, e40, e41, e50, e51⟩ := idx_facts4 t
  funext y
  unfold iblk4
  rw [View.read_apply]
  refine congrArg (V c (Pipeline.arrRef spec4 2) : S1x128.Idx → Elt F .f32) ?_
  funext a
  apply Fin.ext
  match a with
  | ⟨0, _⟩ => show win4_2.index t (0 : Fin 2) * 1 + 1 * (y 0).val = (y 0).val; omega
  | ⟨1, _⟩ => show win4_2.index t (1 : Fin 2) * 128 + 1 * (y 1).val = (y 1).val; omega

/-- Window 3's block at every point is its whole array. -/
theorem iblk4_3_eq (c : Dev nD) (t : Fin cfg4.N) :
    (iblk4 V c 3 t : Vec F S1x128 .f32) = ((V c (Pipeline.arrRef spec4 3)) : S1x128.Idx → Elt F .f32) := by
  obtain ⟨e00, e01, e10, e11, e20, e21, e30, e31, e40, e41, e50, e51⟩ := idx_facts4 t
  funext y
  unfold iblk4
  rw [View.read_apply]
  refine congrArg (V c (Pipeline.arrRef spec4 3) : S1x128.Idx → Elt F .f32) ?_
  funext a
  apply Fin.ext
  match a with
  | ⟨0, _⟩ => show win4_3.index t (0 : Fin 2) * 1 + 1 * (y 0).val = (y 0).val; omega
  | ⟨1, _⟩ => show win4_3.index t (1 : Fin 2) * 128 + 1 * (y 1).val = (y 1).val; omega

/-- Window 4's block at every point is its whole array. -/
theorem iblk4_4_eq (c : Dev nD) (t : Fin cfg4.N) :
    (iblk4 V c 4 t : Vec F S1x128 .f32) = ((V c (Pipeline.arrRef spec4 4)) : S1x128.Idx → Elt F .f32) := by
  obtain ⟨e00, e01, e10, e11, e20, e21, e30, e31, e40, e41, e50, e51⟩ := idx_facts4 t
  funext y
  unfold iblk4
  rw [View.read_apply]
  refine congrArg (V c (Pipeline.arrRef spec4 4) : S1x128.Idx → Elt F .f32) ?_
  funext a
  apply Fin.ext
  match a with
  | ⟨0, _⟩ => show win4_4.index t (0 : Fin 2) * 1 + 1 * (y 0).val = (y 0).val; omega
  | ⟨1, _⟩ => show win4_4.index t (1 : Fin 2) * 128 + 1 * (y 1).val = (y 1).val; omega

/-! ## The closed form -/

/-- What region 4 leaves in its output array, from its five input arrays: entry `i` is the normalise-and-clamp of
    the block holding row `i 0` with the four one-row tables, at `i`'s place in the block. The payload reads the
    row block, then the tables of windows 2, 3, 1 and 4, in that order. -/
def G4 (a0 : S100000x128.Idx → Elt F .f32) (a1 a2 a3 a4 : S1x128.Idx → Elt F .f32) : S100000x128.Idx → Elt F .f32 := fun i =>
  k4_pay1 (rowBlk a0 (rowPt i)) a2 a3 a1 a4 (rowLoc i)

set_option maxHeartbeats 2000000 in
/-- What point `t` writes back is block `t` of `G4` of the arrays as the region finds them. -/
theorem flushed4_eq (c : Dev nD) (t : Fin cfg4.N) :
    (dat4 V c).flushed 5 t = ((cfg4.win 5).blk t).view.read (Elt F) (G4 (V c (Pipeline.arrRef spec4 0)) (V c (Pipeline.arrRef spec4 1)) (V c (Pipeline.arrRef spec4 2)) (V c (Pipeline.arrRef spec4 3)) (V c (Pipeline.arrRef spec4 4))) := by
  show (cfg4.win 5).cut (grid4.coords t) ((dat4 V c).after 5 t) = _
  rw [after4_5]
  unfold out4_5
  rw [View.canon_unit_zero zero_offsets2]
  simp only [View.ld_unit_zero (S := S5000x128) zero_offsets2, View.ld_unit_zero (S := S1x128) zero_offsets2]
  obtain ⟨e00, e01, e10, e11, e20, e21, e30, e31, e40, e41, e50, e51⟩ := idx_facts4 t
  funext j
  rw [View.read_apply]
  unfold G4
  beta_reduce
  have h0 : ((((cfg4.win 5).blk t).view.emb j : S100000x128.Idx) 0).val = 5000 * (Fin.cast N_4 t).val + (j 0).val := by
    show win4_5.index t (0 : Fin 2) * 5000 + 1 * (j 0).val = 5000 * t.val + (j 0).val; omega
  have h1 : ((((cfg4.win 5).blk t).view.emb j : S100000x128.Idx) 1).val = (j 1).val := by
    show win4_5.index t (1 : Fin 2) * 128 + 1 * (j 1).val = (j 1).val; omega
  rw [rowPt_of_row _ _ j h0, rowLoc_of_row _ _ j h0 h1]
  exact congrFun (congr (congr (congr (congr (congrArg k4_pay1 (iblk4_0_eq V c t)) (iblk4_2_eq V c t)) (iblk4_3_eq V c t))
    (iblk4_1_eq V c t)) (iblk4_4_eq V c t)) j

/-! ## The cover -/

/-- An index of the array is in point `t`'s block iff each coordinate is in the block's range on its axis. -/
theorem mem_blk4_5 (t : Fin cfg4.N) (i : S100000x128.Idx) :
    i ∈ ((cfg4.win 5).blk t).view.set ↔ ∀ a : Fin 2, win4_5.index t a * S5000x128.size a ≤ (i a).val ∧ (i a).val < win4_5.index t a * S5000x128.size a + S5000x128.size a := by
  show i ∈ ((View.whole main_v99).slice (win4_5.rect t)).set ↔ _
  rw [View.set_slice_whole, Rect.mem_set_unit]
  exact Iff.rfl

/-- Every index is in the block of the point `i 0 / 5000`, which writes back. -/
theorem cover4_out (i : S100000x128.Idx) : ∃ t : Fin cfg4.N, (cfg4.win 5).flush t = true ∧ i ∈ ((cfg4.win 5).blk t).view.set := by
  have hi0 : (i 0).val < 100000 := (i 0).isLt
  have hi1 : (i 1).val < 128 := (i 1).isLt
  have hN : cfg4.N = 20 := N_4
  obtain ⟨t, ht⟩ : ∃ t : Fin cfg4.N, t.val = (i 0).val / 5000 := ⟨⟨(i 0).val / 5000, by rw [hN]; omega⟩, rfl⟩
  obtain ⟨e00, e01, e10, e11, e20, e21, e30, e31, e40, e41, e50, e51⟩ := idx_facts4 t
  refine ⟨t, flush4_5 t, ?_⟩
  rw [mem_blk4_5]
  intro a
  match a with
  | ⟨0, _⟩ => show win4_5.index t (0 : Fin 2) * 5000 ≤ (i 0).val ∧ (i 0).val < win4_5.index t (0 : Fin 2) * 5000 + 5000; omega
  | ⟨1, _⟩ => show win4_5.index t (1 : Fin 2) * 128 ≤ (i 1).val ∧ (i 1).val < win4_5.index t (1 : Fin 2) * 128 + 128; omega

/-! ## The array after the region -/

/-- The output array ends holding `G4` of the input arrays as the region finds them. -/
theorem arrAt4_out (c : Dev nD) :
    (dat4 V c).arrAt 5 cfg4.N = G4 (V c (Pipeline.arrRef spec4 0)) (V c (Pipeline.arrRef spec4 1)) (V c (Pipeline.arrRef spec4 2)) (V c (Pipeline.arrRef spec4 3)) (V c (Pipeline.arrRef spec4 4)) :=
  (dat4 V c).arrAt_eq_of_cover 5 (G4 (V c (Pipeline.arrRef spec4 0)) (V c (Pipeline.arrRef spec4 1)) (V c (Pipeline.arrRef spec4 2)) (V c (Pipeline.arrRef spec4 3)) (V c (Pipeline.arrRef spec4 4))) (fun t _ => flushed4_eq V c t) (fun i => cover4_out i)

end Cert.KernelIdeal.Hand

end
-- ==== Proof.KI.Pay4.lean ====
/-
  Stage D's stored value, read at an entry: the normalised and rectified block.

  Every statement is at the exact instance: floats are extended reals, each operation is the textbook one, and a change
  of float format is the identity. A payload is read at one entry `(r, j)` as a plain expression of its operands' entries.
-/
import proofs.«164503_j82721070121701_1_alg».proof.Proof.Gen.KernelIdeal.Skeleton
import proofs.«164503_j82721070121701_1_alg».proof.Proof.LibMatmulPlain
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic ValueIdx
open scoped BigOperators

/-- The reciprocal square root of a vector, read at an entry. -/
private theorem rsqrt_apply {s : Shape} {φ : FTy} (a : FVec Ideal s φ) (i : s.Idx) : rsqrt a i = Ideal.rsqrt (a i) := rfl

/-- The normalised, rectified block: entry `(r, j)` is `max (g[j] · (h[r,j] − mean[j]) · rsqrt (var[j] + ε) + beta[j]) 0`. -/
theorem k4_pay1_apply (h : Vec Ideal S5000x128 .f32) (var g mean beta : Vec Ideal S1x128 .f32) (r : Fin 5000) (j : Fin 128) :
    k4_pay1 (F := Ideal) h var g mean beta (ix2 r j)
      = max (g (ix2 0 j) * (h (ix2 r j) - mean (ix2 0 j)) * Ideal.rsqrt (var (ix2 0 j) + Ideal.ofBits .f32 0x3727C5AC#32)
          + beta (ix2 0 j)) 0 := by
  unfold k4_pay1
  simp only [shapeCast_self, maximumf_apply, addf_apply, mulf_apply, subf_apply, broadcastTo_1b_ab_apply, rsqrt_apply,
    broadcast_apply]
  show max (g (ix2 0 j) * (h (ix2 r j) - mean (ix2 0 j)) * Ideal.rsqrt (var (ix2 0 j) + Ideal.ofBits .f32 0x3727C5AC#32)
      + beta (ix2 0 j)) (Ideal.ofBits .f32 0x00000000#32) = _
  rw [Ideal.ofBits_zero_f32]

end Cert.KernelIdeal.Pay

end
-- ==== Proof.KI.Idx4.lean ====
import proofs.«164503_j82721070121701_1_alg».proof.Proof.KI.Val4
import proofs.«164503_j82721070121701_1_alg».proof.Proof.KI.Pay4

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

/-! # Region 4's output array, read at an entry

At the exact instance the last normalisation layer's output array holds, at row `p` and feature `j`,
`max (gain[j] · (h[p,j] − mean[j]) · rsqrt (var[j] + ε) + shift[j]) 0` of the arrays the region finds on entry. -/

/-- The closed form read at an entry: row `p` lies in block `p / 5000` at row `p % 5000`, and the block's entry there
    is the array's entry at `p`. -/
theorem G4_entry (o a0 : Vec Ideal S100000x128 .f32) (a1 a2 a3 a4 : Vec Ideal S1x128 .f32) (ho : o = G4 a0 a1 a2 a3 a4)
    (p : Fin 100000) (j : Fin 128) :
    o (ix2 p j) = max (a3 (ix2 0 j) * (a0 (ix2 p j) - a1 (ix2 0 j)) * Ideal.rsqrt (a2 (ix2 0 j) + Ideal.ofBits .f32 0x3727C5AC#32)
        + a4 (ix2 0 j)) 0 := by
  subst ho
  show k4_pay1 (F := Ideal) (rowBlk a0 (rowPt (ix2 p j))) a2 a3 a1 a4 (ix2 ⟨p.val % 5000, Nat.mod_lt _ (by decide)⟩ j) = _
  rw [Pay.k4_pay1_apply]
  exact congrArg (fun z : EReal => max (a3 (ix2 0 j) * (z - a1 (ix2 0 j)) * Ideal.rsqrt (a2 (ix2 0 j) + Ideal.ofBits .f32 0x3727C5AC#32)
        + a4 (ix2 0 j)) 0) (rowBlk_rowPt_rowLoc a0 (ix2 p j))

variable (V : (c : Dev nD) → (b : Ref sig .tc) → Buf (Elt Ideal) ((c : Thread nD τ).loc b))

/-- Entry `(p, j)` of the output array after the region, from the entry arrays: with h = `main_v90_0`, mean = `main_v93`,
    var = `main_v98`, gain = `main_v70`, shift = `main_v71` as the region finds them,
    `out[p,j] = max (gain[0,j] · (h[p,j] − mean[0,j]) · rsqrt (var[0,j] + ε) + shift[0,j]) 0`. -/
theorem idx4_out (c : Dev nD) (p : Fin 100000) (j : Fin 128) :
    type_of% (G4_entry ((dat4 V c).arrAt 5 cfg4.N) (V c main_v90_0) (V c main_v93) (V c main_v98) (V c main_v70) (V c main_v71)
      (arrAt4_out V c) p j) :=
  G4_entry ((dat4 V c).arrAt 5 cfg4.N) (V c main_v90_0) (V c main_v93) (V c main_v98) (V c main_v70) (V c main_v71)
    (arrAt4_out V c) p j

end Cert.KernelIdeal.Hand

end
-- ==== Proof.LibMeanSqDev.lean ====
/-
  The batch-statistics law that joins a one-pass variance to a two-pass variance, on the extended reals.

  A normalisation layer needs, per feature, the mean `μ = (∑ xᵢ) / n` and the biased variance of `n` samples.
  One program accumulates the two raw moments in a single sweep and forms `(∑ xᵢ²) / n − μ²`; another first
  forms `μ` and then averages the squared deviations, `(∑ (xᵢ − μ)²) / n`.  Over the reals the two agree:
  expanding the square gives `∑ (xᵢ − μ)² = ∑ xᵢ² − 2 μ ∑ xᵢ + n μ² = ∑ xᵢ² − n μ²`.  Over the extended reals
  the expansion is only valid when every sample is a real number (with an infinite sample one side reads
  `⊤ − ⊤`), so the law is stated for samples that are coercions of reals; the division is the extended-real
  quotient `Ideal.div` by a nonzero real count, which is the product with the reciprocal at every argument.

  Also here: the squared-deviation average is nonnegative, so adding a positive `ε` keeps it positive and the
  reciprocal square root `Ideal.rsqrt` of the sum is again a real number — what the next layer's statistics need.
-/
import Idealize.ShloMosaic.PureOps.Ideal

noncomputable section

namespace Cert.Lib.MeanSqDev

open Idealize.ShloMosaic

variable {ι : Type*}

/-- Expanding the square: the sum of squared deviations from `μ = S / n` (with `S` the sum of the samples
    and `n` their number) is the sum of squares minus `S² / n`. -/
theorem sum_sq_dev (s : Finset ι) (x : ι → ℝ) (n : ℝ) (hn : n ≠ 0) (hcard : (s.card : ℝ) = n) :
    ∑ i ∈ s, (x i - (∑ j ∈ s, x j) / n) * (x i - (∑ j ∈ s, x j) / n)
      = (∑ i ∈ s, x i * x i) - (∑ j ∈ s, x j) * (∑ j ∈ s, x j) / n := by
  set S := ∑ j ∈ s, x j with hS
  have h1 : ∀ i ∈ s, (x i - S / n) * (x i - S / n) = x i * x i - 2 * (S / n) * x i + (S / n) * (S / n) := by
    intro i _; ring
  rw [Finset.sum_congr rfl h1, Finset.sum_add_distrib, Finset.sum_sub_distrib, ← Finset.mul_sum, ← hS,
    Finset.sum_const, nsmul_eq_mul, hcard]
  field_simp
  ring

/-- **The variance law over the reals**: mean of squares minus squared mean is the mean squared deviation. -/
theorem real_law (s : Finset ι) (x : ι → ℝ) (n : ℝ) (hn : n ≠ 0) (hcard : (s.card : ℝ) = n) :
    (∑ i ∈ s, x i * x i) / n - ((∑ i ∈ s, x i) / n) * ((∑ i ∈ s, x i) / n)
      = (∑ i ∈ s, (x i - (∑ j ∈ s, x j) / n) * (x i - (∑ j ∈ s, x j) / n)) / n := by
  rw [sum_sq_dev s x n hn hcard]
  field_simp

/-- The mean squared deviation is nonnegative (for a positive count). -/
theorem real_dev_nonneg (s : Finset ι) (x : ι → ℝ) (μ n : ℝ) (hn : 0 < n) :
    0 ≤ (∑ i ∈ s, (x i - μ) * (x i - μ)) / n :=
  div_nonneg (Finset.sum_nonneg fun i _ => mul_self_nonneg _) hn.le

/-- A finite sum of coerced reals is the coercion of the real sum. -/
theorem coe_sum (s : Finset ι) (x : ι → ℝ) : (∑ i ∈ s, (x i : EReal)) = ((∑ i ∈ s, x i : ℝ) : EReal) := by
  classical
  induction s using Finset.induction_on with
  | empty => simp
  | insert a s ha ih => rw [Finset.sum_insert ha, Finset.sum_insert ha, ih, EReal.coe_add]

/-- The extended-real quotient of a coerced real by a nonzero real is the coerced real quotient. -/
theorem div_coe_coe (a n : ℝ) (hn : n ≠ 0) : Ideal.div (a : EReal) (n : EReal) = ((a / n : ℝ) : EReal) := by
  rw [Ideal.div_coe hn, ← EReal.coe_mul, mul_one_div]

/-- **The variance law over the extended reals**, for real samples: with `μ = (∑ xᵢ) / n`,
    `(∑ xᵢ·xᵢ) / n − μ·μ = (∑ (xᵢ − μ)·(xᵢ − μ)) / n`, every quotient the extended-real `Ideal.div` by the real
    count `n`. Both sides are stated as the two programs compute them; the common value is the coerced real
    mean squared deviation (`ereal_two_pass`). -/
theorem ereal_law (s : Finset ι) (x : ι → ℝ) (n : ℝ) (hn : n ≠ 0) (hcard : (s.card : ℝ) = n) :
    Ideal.div (∑ i ∈ s, (x i : EReal) * (x i : EReal)) (n : EReal)
        - Ideal.div (∑ i ∈ s, (x i : EReal)) (n : EReal) * Ideal.div (∑ i ∈ s, (x i : EReal)) (n : EReal)
      = Ideal.div (∑ i ∈ s, ((x i : EReal) - Ideal.div (∑ j ∈ s, (x j : EReal)) (n : EReal))
          * ((x i : EReal) - Ideal.div (∑ j ∈ s, (x j : EReal)) (n : EReal))) (n : EReal) := by
  have hsq : ∀ i, (x i : EReal) * (x i : EReal) = ((x i * x i : ℝ) : EReal) := fun i => (EReal.coe_mul _ _).symm
  have hμ : Ideal.div (∑ j ∈ s, (x j : EReal)) (n : EReal) = (((∑ j ∈ s, x j) / n : ℝ) : EReal) := by
    rw [coe_sum, div_coe_coe _ _ hn]
  have hdev : ∀ i, ((x i : EReal) - (((∑ j ∈ s, x j) / n : ℝ) : EReal)) * ((x i : EReal) - (((∑ j ∈ s, x j) / n : ℝ) : EReal))
      = (((x i - (∑ j ∈ s, x j) / n) * (x i - (∑ j ∈ s, x j) / n) : ℝ) : EReal) := fun i => by
    rw [← EReal.coe_sub, ← EReal.coe_mul]
  rw [hμ, Finset.sum_congr rfl (fun i _ => hsq i), Finset.sum_congr rfl (fun i _ => hdev i), coe_sum, coe_sum,
    div_coe_coe _ _ hn, div_coe_coe _ _ hn, ← EReal.coe_mul, ← EReal.coe_sub, real_law s x n hn hcard]

/-- The two-pass variance of real samples is a real number, and nonnegative. -/
theorem ereal_two_pass (s : Finset ι) (x : ι → ℝ) (n : ℝ) (hn : 0 < n) :
    ∃ v : ℝ, 0 ≤ v ∧
      Ideal.div (∑ i ∈ s, ((x i : EReal) - Ideal.div (∑ j ∈ s, (x j : EReal)) (n : EReal))
          * ((x i : EReal) - Ideal.div (∑ j ∈ s, (x j : EReal)) (n : EReal))) (n : EReal) = (v : EReal) := by
  refine ⟨(∑ i ∈ s, (x i - (∑ j ∈ s, x j) / n) * (x i - (∑ j ∈ s, x j) / n)) / n,
    real_dev_nonneg s x _ n hn, ?_⟩
  have hμ : Ideal.div (∑ j ∈ s, (x j : EReal)) (n : EReal) = (((∑ j ∈ s, x j) / n : ℝ) : EReal) := by
    rw [coe_sum, div_coe_coe _ _ hn.ne']
  have hdev : ∀ i, ((x i : EReal) - (((∑ j ∈ s, x j) / n : ℝ) : EReal)) * ((x i : EReal) - (((∑ j ∈ s, x j) / n : ℝ) : EReal))
      = (((x i - (∑ j ∈ s, x j) / n) * (x i - (∑ j ∈ s, x j) / n) : ℝ) : EReal) := fun i => by
    rw [← EReal.coe_sub, ← EReal.coe_mul]
  rw [hμ, Finset.sum_congr rfl (fun i _ => hdev i), coe_sum, div_coe_coe _ _ hn.ne']

/-- The reciprocal square root of a nonnegative real plus a positive real is a (positive) real number:
    the normalisation factor `rsqrt (var + ε)` never leaves the reals. -/
theorem rsqrt_add_pos (v ε : ℝ) (hv : 0 ≤ v) (hε : 0 < ε) :
    Ideal.rsqrt ((v : EReal) + (ε : EReal)) = (((Real.sqrt (v + ε))⁻¹ : ℝ) : EReal) := by
  have hpos : 0 < v + ε := by linarith
  rw [← EReal.coe_add]
  show (if v + ε < 0 then (⊥ : EReal) else if v + ε = 0 then ⊤ else (((Real.sqrt (v + ε))⁻¹ : ℝ) : EReal)) = _
  rw [if_neg (not_lt.mpr hpos.le), if_neg hpos.ne']

end Cert.Lib.MeanSqDev

end
-- ==== Proof.Spec.lean ====
/-
  The mathematics of the block, away from any program: three normalisation layers around two linear maps, on the
  extended reals, with the batch variance formed in two ways.

  For a column h₁ … h_n of one feature write  mean = (Σ hᵢ)/n.  The ONE-PASS variance is (Σ hᵢ·hᵢ)/n − mean·mean; the
  TWO-PASS variance is (Σ (hᵢ − mean)·(hᵢ − mean))/n.  A layer normalises, scales, shifts and clamps at zero:
  max (g·(h − mean)·rsqrt(var + ε) + β) 0.  `kernelOut` stacks  lin → norm → lin → norm → norm  with one-pass
  variances, `refOut` the same with two-pass variances.  When every input entry is a real number the two agree:
  sums and products of reals are real, so each layer's input column is real; for a real column the two variances are
  equal (the square expands), nonnegative, hence var + ε > 0 and its reciprocal square root is real, so the layer's
  output is real again and the argument repeats.
-/
import proofs.«164503_j82721070121701_1_alg».proof.Proof.LibMeanSqDev

noncomputable section

namespace Cert.Spec

open Idealize.ShloMosaic

/-- An array of extended reals all of whose entries are real numbers. -/
def Real2 {A B : Type} (a : A → B → EReal) : Prop := ∀ p j, ∃ r : ℝ, a p j = (r : EReal)
def Real1 {B : Type} (a : B → EReal) : Prop := ∀ j, ∃ r : ℝ, a j = (r : EReal)

variable {n K D : ℕ}

/-- A linear map with bias: row p of `a` against column j of `W`, plus `b j`. -/
def lin (a : Fin n → Fin K → EReal) (W : Fin K → Fin D → EReal) (b : Fin D → EReal) : Fin n → Fin D → EReal :=
  fun p j => (∑ k : Fin K, a p k * W k j) + b j

/-- The batch mean of feature j: the column sum over the extended-real quotient by the count `N`. -/
def mean (N : EReal) (h : Fin n → Fin D → EReal) : Fin D → EReal := fun j => Ideal.div (∑ p : Fin n, h p j) N

/-- One-pass variance: mean of squares minus squared mean. -/
def var1 (N : EReal) (h : Fin n → Fin D → EReal) : Fin D → EReal :=
  fun j => Ideal.div (∑ p : Fin n, h p j * h p j) N - mean N h j * mean N h j

/-- Two-pass variance: mean of squared deviations. -/
def var2 (N : EReal) (h : Fin n → Fin D → EReal) : Fin D → EReal :=
  fun j => Ideal.div (∑ p : Fin n, (h p j - mean N h j) * (h p j - mean N h j)) N

/-- One normalisation layer with a given variance row: scale, shift, clamp at zero. -/
def norm (N ε : EReal) (h : Fin n → Fin D → EReal) (v : Fin D → EReal) (g β : Fin D → EReal) : Fin n → Fin D → EReal :=
  fun p j => max (g j * (h p j - mean N h j) * Ideal.rsqrt (v j + ε) + β j) 0

variable {D₁ D₂ : ℕ}

/-- The stack with ONE-PASS variances (what the tiled kernels compute). -/
def kernelOut (N ε : EReal) (x : Fin n → Fin K → EReal) (W₁ : Fin K → Fin D₁ → EReal) (b₁ g₁ β₁ : Fin D₁ → EReal)
    (W₂ : Fin D₁ → Fin D₂ → EReal) (b₂ g₂ β₂ g₃ β₃ : Fin D₂ → EReal) : Fin n → Fin D₂ → EReal :=
  let h₁ := lin x W₁ b₁
  let a₁ := norm N ε h₁ (var1 N h₁) g₁ β₁
  let h₂ := lin a₁ W₂ b₂
  let a₂ := norm N ε h₂ (var1 N h₂) g₂ β₂
  norm N ε a₂ (var1 N a₂) g₃ β₃

/-- The stack with TWO-PASS variances (what the reference computes). -/
def refOut (N ε : EReal) (x : Fin n → Fin K → EReal) (W₁ : Fin K → Fin D₁ → EReal) (b₁ g₁ β₁ : Fin D₁ → EReal)
    (W₂ : Fin D₁ → Fin D₂ → EReal) (b₂ g₂ β₂ g₃ β₃ : Fin D₂ → EReal) : Fin n → Fin D₂ → EReal :=
  let h₁ := lin x W₁ b₁
  let a₁ := norm N ε h₁ (var2 N h₁) g₁ β₁
  let h₂ := lin a₁ W₂ b₂
  let a₂ := norm N ε h₂ (var2 N h₂) g₂ β₂
  norm N ε a₂ (var2 N a₂) g₃ β₃

end Cert.Spec

end
-- ==== Proof.KI.Compose.lean ====
/-
  The kernel program's result as one pure function of the launch contents, at the exact instance.

  Each region's output arrays are known, entry by entry, from the arrays the region is entered with; the host
  stretches between regions only slice the two statistics rows, divide them by the row count and form
  mean and (sum of squares)/N − mean·mean, and re-lay the parameter vectors as rows.  Composed in the program's order
  this is: result (the weighted sum of x₀ and the four neighbour aggregates), h₁ = result·W₁ + b₁, its column sums
  and sums of squares, a₁ = the first normalisation with the one-pass variance, h₂ = a₁·W₂ + b₂, then two more
  normalisations — the stack `Spec.kernelOut`.
-/
import proofs.«164503_j82721070121701_1_alg».proof.Proof.KI.Run
import proofs.«164503_j82721070121701_1_alg».proof.Proof.KI.HostVals
import proofs.«164503_j82721070121701_1_alg».proof.Proof.KI.Idx0
import proofs.«164503_j82721070121701_1_alg».proof.Proof.KI.Idx1
import proofs.«164503_j82721070121701_1_alg».proof.Proof.KI.Idx2c
import proofs.«164503_j82721070121701_1_alg».proof.Proof.KI.Idx3
import proofs.«164503_j82721070121701_1_alg».proof.Proof.KI.Idx4
import proofs.«164503_j82721070121701_1_alg».proof.Proof.Spec

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen
open scoped BigOperators

variable (m : (ℓ : Loc nD τ sig) → Buf (Elt Ideal) ℓ) (c : Dev nD)

/-! ## The launch contents as plain arrays -/

def kX0 : Fin 100000 → Fin 128 → EReal := fun p j => (m ((c : Thread nD τ).loc main_arg0) : S100000x128.Idx → EReal) (ix2 p j)
def kP0 : Fin 100000 → Fin 128 → EReal := fun p j => (V9 m c main_v15 : S100000x128.Idx → EReal) (ix2 p j)
def kP1 : Fin 100000 → Fin 128 → EReal := fun p j => (V9 m c main_v30 : S100000x128.Idx → EReal) (ix2 p j)
def kP2 : Fin 100000 → Fin 128 → EReal := fun p j => (V9 m c main_v45 : S100000x128.Idx → EReal) (ix2 p j)
def kP3 : Fin 100000 → Fin 128 → EReal := fun p j => (V9 m c main_v60 : S100000x128.Idx → EReal) (ix2 p j)
def kEps : Fin 5 → Fin 128 → EReal := fun s j => (m ((c : Thread nD τ).loc main_arg19) : S5x128.Idx → EReal) (ix2 s j)
def kW1 : Fin 128 → Fin 256 → EReal := fun k j => (m ((c : Thread nD τ).loc main_arg9) : S128x256.Idx → EReal) (ix2 k j)
def kb1 : Fin 256 → EReal := fun j => (m ((c : Thread nD τ).loc main_arg10) : S256.Idx → EReal) (ix1 j)
def kg1 : Fin 256 → EReal := fun j => (m ((c : Thread nD τ).loc main_arg11) : S256.Idx → EReal) (ix1 j)
def kβ1 : Fin 256 → EReal := fun j => (m ((c : Thread nD τ).loc main_arg12) : S256.Idx → EReal) (ix1 j)
def kW2 : Fin 256 → Fin 128 → EReal := fun k j => (m ((c : Thread nD τ).loc main_arg13) : S256x128.Idx → EReal) (ix2 k j)
def kb2 : Fin 128 → EReal := fun j => (m ((c : Thread nD τ).loc main_arg14) : S128.Idx → EReal) (ix1 j)
def kg2 : Fin 128 → EReal := fun j => (m ((c : Thread nD τ).loc main_arg15) : S128.Idx → EReal) (ix1 j)
def kβ2 : Fin 128 → EReal := fun j => (m ((c : Thread nD τ).loc main_arg16) : S128.Idx → EReal) (ix1 j)
def kg3 : Fin 128 → EReal := fun j => (m ((c : Thread nD τ).loc main_arg17) : S128.Idx → EReal) (ix1 j)
def kβ3 : Fin 128 → EReal := fun j => (m ((c : Thread nD τ).loc main_arg18) : S128.Idx → EReal) (ix1 j)

/-- The combined features: x₀ and the four neighbour aggregates, each weighted by one plus its coefficient row, summed from the left. -/
def kRes : Fin 100000 → Fin 128 → EReal := fun p j =>
  ((((Ideal.ofBits .f32 0x3F800000#32 + kEps m c 0 j) * kX0 m c p j
      + (Ideal.ofBits .f32 0x3F800000#32 + kEps m c 1 j) * kP0 m c p j)
    + (Ideal.ofBits .f32 0x3F800000#32 + kEps m c 2 j) * kP1 m c p j)
    + (Ideal.ofBits .f32 0x3F800000#32 + kEps m c 3 j) * kP2 m c p j)
  + (Ideal.ofBits .f32 0x3F800000#32 + kEps m c 4 j) * kP3 m c p j

/-! ## Region 0 -/

/-- The regions' output arrays and the words the programs spell, typed as plain arrays of extended reals. -/
abbrev O10 : Vec Ideal S100000x128 .f32 := o10 m c
abbrev O12_0 : Vec Ideal S100000x256 .f32 := o12_0 m c
abbrev O12_1 : Vec Ideal S2x256 .f32 := o12_1 m c
abbrev O14_0 : Vec Ideal S100000x128 .f32 := o14_0 m c
abbrev O14_1 : Vec Ideal S2x128 .f32 := o14_1 m c
abbrev O16_0 : Vec Ideal S100000x128 .f32 := o16_0 m c
abbrev O16_1 : Vec Ideal S2x128 .f32 := o16_1 m c
abbrev O18 : Vec Ideal S100000x128 .f32 := o18 m c
abbrev kN : EReal := Ideal.ofBits .f32 0x47C35000#32
abbrev kE : EReal := Ideal.ofBits .f32 0x3727C5AC#32

theorem o10_apply (p : Fin 100000) (j : Fin 128) : O10 m c (ix2 p j) = kRes m c p j := by
  have h := idx0_out (Ve0 m) c p j
  refine Eq.trans h ?_
  unfold kRes kEps kX0 kP0 kP1 kP2 kP3
  rw [show Ve0 m c main_arg19 = m ((c : Thread nD τ).loc main_arg19) from V9_main_arg19 m c,
    show Ve0 m c main_arg0 = m ((c : Thread nD τ).loc main_arg0) from V9_main_arg0 m c]

/-! ## Region 1: the first linear layer and its column sums -/

/-- The first pre-activation: the combined features against W₁, plus b₁. -/
def kH1 : Fin 100000 → Fin 256 → EReal := Spec.lin (kRes m c) (kW1 m c) (kb1 m c)

theorem Ve1_v61 : Ve1 m c main_v61 = o10 m c := (V11_main_v61 m (outsA m) c).trans (outsA_v61 m 10 c)

theorem o12_0_apply (p : Fin 100000) (j : Fin 256) : O12_0 m c (ix2 p j) = kH1 m c p j := by
  have e0 : ∀ k : Fin 128, X1 (Ve1 m) c (ix2 p k) = kRes m c p k := fun k => by
    unfold X1; rw [Ve1_v61]; exact o10_apply m c p k
  have e1 : ∀ k : Fin 128, W1 (Ve1 m) c (ix2 k j) = kW1 m c k j := fun k => V11_main_v62_apply m (outsA m) c k j
  have e2 : B1 (Ve1 m) c (ix2 (0 : Fin 1) j) = kb1 m c j := V11_main_v64_apply m (outsA m) c 0 j
  rw [show O12_0 m c (ix2 p j) = H1 (Ve1 m) c (ix2 p j) from rfl, idx1_out (Ve1 m) c p j]
  show _ = (∑ k : Fin 128, kRes m c p k * kW1 m c k j) + kb1 m c j
  rw [e2]
  exact congrArg (· + kb1 m c j) (Finset.sum_congr rfl fun k _ => by rw [e0, e1])

theorem o12_1_row0 (j : Fin 256) : O12_1 m c (ix2 (0 : Fin 2) j) = ∑ p : Fin 100000, kH1 m c p j := by
  rw [show O12_1 m c (ix2 (0 : Fin 2) j) = ST1 (Ve1 m) c (ix2 (0 : Fin 2) j) from rfl, idx1_sum (Ve1 m) c j]
  exact Finset.sum_congr rfl fun p _ => o12_0_apply m c p j

theorem o12_1_row1 (j : Fin 256) : O12_1 m c (ix2 (1 : Fin 2) j) = ∑ p : Fin 100000, kH1 m c p j * kH1 m c p j := by
  rw [show O12_1 m c (ix2 (1 : Fin 2) j) = ST1 (Ve1 m) c (ix2 (1 : Fin 2) j) from rfl, idx1_sumsq (Ve1 m) c j]
  exact Finset.sum_congr rfl fun p _ => by rw [show H1 (Ve1 m) c (ix2 p j) = O12_0 m c (ix2 p j) from rfl, o12_0_apply m c p j]

/-! ## Region 2: the first normalisation, the second linear layer and its column sums -/

/-- The first activation: h₁ normalised with its one-pass column variance, scaled, shifted, clamped at zero. -/
def kA1 : Fin 100000 → Fin 256 → EReal := Spec.norm kN kE (kH1 m c) (Spec.var1 kN (kH1 m c)) (kg1 m c) (kβ1 m c)
/-- The second pre-activation: the first activation against W₂, plus b₂. -/
def kH2 : Fin 100000 → Fin 128 → EReal := Spec.lin (kA1 m c) (kW2 m c) (kb2 m c)

theorem Ve2_v72_0 : Ve2 m c main_v72_0 = o12_0 m c := (V13_main_v72_0 m (outsB m) c).trans (outsB_v72_0 m 12 c)
theorem V12B_v72_1 : V12 m (outsB m) c main_v72_1 = o12_1 m c := (V12_main_v72_1 m (outsB m) c).trans (outsB_v72_1 m 12 c)

theorem Ve2_mean (k : Fin 256) : (Ve2 m c main_v75 : S1x256.Idx → EReal) (ix2 (0 : Fin 1) k) = Spec.mean kN (kH1 m c) k := by
  rw [show Ve2 m c main_v75 = V13 m (outsB m) c main_v75 from rfl, V13_main_v75_apply, V12B_v72_1]
  show Ideal.div (O12_1 m c (ix2 (0 : Fin 2) k)) kN = _
  rw [o12_1_row0]; rfl

theorem Ve2_var (k : Fin 256) : (Ve2 m c main_v80 : S1x256.Idx → EReal) (ix2 (0 : Fin 1) k) = Spec.var1 kN (kH1 m c) k := by
  rw [show Ve2 m c main_v80 = V13 m (outsB m) c main_v80 from rfl, V13_main_v80_apply, V12B_v72_1]
  show Ideal.div (O12_1 m c (ix2 (1 : Fin 2) k)) kN - Ideal.div (O12_1 m c (ix2 (0 : Fin 2) k)) kN * Ideal.div (O12_1 m c (ix2 (0 : Fin 2) k)) kN = _
  rw [o12_1_row0, o12_1_row1]; rfl

theorem o14_0_apply (p : Fin 100000) (j : Fin 128) : O14_0 m c (ix2 p j) = kH2 m c p j := by
  have eg : ∀ k : Fin 256, G2a (Ve2 m) c (ix2 (0 : Fin 1) k) = kg1 m c k := fun k => V13_main_v66_apply m (outsB m) c 0 k
  have eb : ∀ k : Fin 256, Be2 (Ve2 m) c (ix2 (0 : Fin 1) k) = kβ1 m c k := fun k => V13_main_v67_apply m (outsB m) c 0 k
  have eh : ∀ k : Fin 256, X2 (Ve2 m) c (ix2 p k) = kH1 m c p k := fun k => by
    unfold X2; rw [Ve2_v72_0]; exact o12_0_apply m c p k
  have ew : ∀ k : Fin 256, Wt2 (Ve2 m) c (ix2 k j) = kW2 m c k j := fun k => V13_main_v63_apply m (outsB m) c k j
  have eb2 : B2 (Ve2 m) c (ix2 (0 : Fin 1) j) = kb2 m c j := V13_main_v65_apply m (outsB m) c 0 j
  have em : ∀ k : Fin 256, M2 (Ve2 m) c (ix2 (0 : Fin 1) k) = Spec.mean kN (kH1 m c) k := fun k => Ve2_mean m c k
  have ev : ∀ k : Fin 256, Va2 (Ve2 m) c (ix2 (0 : Fin 1) k) = Spec.var1 kN (kH1 m c) k := fun k => Ve2_var m c k
  rw [show O14_0 m c (ix2 p j) = H2 (Ve2 m) c (ix2 p j) from rfl, idx2_outC (Ve2 m) c p j, eb2]
  show _ = (∑ k : Fin 256, kA1 m c p k * kW2 m c k j) + kb2 m c j
  refine congrArg (· + kb2 m c j) (Finset.sum_congr rfl fun k _ => ?_)
  rw [eg, eb, eh, ew, em, ev]
  rfl

theorem o14_1_row0 (j : Fin 128) : O14_1 m c (ix2 (0 : Fin 2) j) = ∑ p : Fin 100000, kH2 m c p j :=
  (idx2_sum_all (Ve2 m) c j).trans (Finset.sum_congr rfl fun p _ => o14_0_apply m c p j)

theorem o14_1_row1 (j : Fin 128) : O14_1 m c (ix2 (1 : Fin 2) j) = ∑ p : Fin 100000, kH2 m c p j * kH2 m c p j :=
  (idx2_sumsq_all (Ve2 m) c j).trans (Finset.sum_congr rfl fun p _ => by
    rw [show H2 (Ve2 m) c (ix2 p j) = O14_0 m c (ix2 p j) from rfl, o14_0_apply m c p j])

/-! ## Regions 3 and 4: the second and third normalisations -/

/-- The second activation and the result: each the layer before it normalised with its one-pass column variance. -/
def kA2 : Fin 100000 → Fin 128 → EReal := Spec.norm kN kE (kH2 m c) (Spec.var1 kN (kH2 m c)) (kg2 m c) (kβ2 m c)
def kA3 : Fin 100000 → Fin 128 → EReal :=
  Spec.norm kN kE (kA2 m c) (Spec.var1 kN (kA2 m c)) (kg3 m c) (kβ3 m c)

theorem Ve3_v81_0 : Ve3 m c main_v81_0 = o14_0 m c := (V15_main_v81_0 m (outsC m) c).trans (outsC_v81_0 m 14 c)
theorem V14C_v81_1 : V14 m (outsC m) c main_v81_1 = o14_1 m c := (V14_main_v81_1 m (outsC m) c).trans (outsC_v81_1 m 14 c)
theorem Ve4_v90_0 : Ve4 m c main_v90_0 = o16_0 m c := (V17_main_v90_0 m (outsD m) c).trans (outsD_v90_0 m 16 c)
theorem V16D_v90_1 : V16 m (outsD m) c main_v90_1 = o16_1 m c := (V16_main_v90_1 m (outsD m) c).trans (outsD_v90_1 m 16 c)

/-! ## Region 3 -/

theorem Ve3_mean (j : Fin 128) : (Ve3 m c main_v84 : S1x128.Idx → EReal) (ix2 (0 : Fin 1) j) = Spec.mean kN (kH2 m c) j := by
  rw [show Ve3 m c main_v84 = V15 m (outsC m) c main_v84 from rfl, V15_main_v84_apply, V14C_v81_1]
  show Ideal.div (O14_1 m c (ix2 (0 : Fin 2) j)) kN = _
  rw [o14_1_row0]; rfl

theorem Ve3_var (j : Fin 128) : (Ve3 m c main_v89 : S1x128.Idx → EReal) (ix2 (0 : Fin 1) j) = Spec.var1 kN (kH2 m c) j := by
  rw [show Ve3 m c main_v89 = V15 m (outsC m) c main_v89 from rfl, V15_main_v89_apply, V14C_v81_1]
  show Ideal.div (O14_1 m c (ix2 (1 : Fin 2) j)) kN - Ideal.div (O14_1 m c (ix2 (0 : Fin 2) j)) kN * Ideal.div (O14_1 m c (ix2 (0 : Fin 2) j)) kN = _
  rw [o14_1_row0, o14_1_row1]; rfl

theorem o16_0_apply (p : Fin 100000) (j : Fin 128) : O16_0 m c (ix2 p j) = kA2 m c p j := by
  have eg : (Ve3 m c main_v68 : S1x128.Idx → EReal) (ix2 (0 : Fin 1) j) = kg2 m c j := V15_main_v68_apply m (outsC m) c 0 j
  have eb : (Ve3 m c main_v69 : S1x128.Idx → EReal) (ix2 (0 : Fin 1) j) = kβ2 m c j := V15_main_v69_apply m (outsC m) c 0 j
  have eh : (Ve3 m c main_v81_0 : S100000x128.Idx → EReal) (ix2 p j) = kH2 m c p j := by
    rw [Ve3_v81_0]; exact o14_0_apply m c p j
  have em := Ve3_mean m c j
  have ev := Ve3_var m c j
  refine (idx3_out (Ve3 m) c p j).trans ?_
  rw [eg, eb, eh, em, ev]
  rfl

theorem o16_1_row0 (j : Fin 128) : O16_1 m c (ix2 (0 : Fin 2) j) = ∑ p : Fin 100000, kA2 m c p j :=
  (idx3_sum (Ve3 m) c j).trans (Finset.sum_congr rfl fun p _ => o16_0_apply m c p j)

theorem o16_1_row1 (j : Fin 128) : O16_1 m c (ix2 (1 : Fin 2) j) = ∑ p : Fin 100000, kA2 m c p j * kA2 m c p j :=
  (idx3_sumsq (Ve3 m) c j).trans (Finset.sum_congr rfl fun p _ => by
    rw [show (dat3 (Ve3 m) c).arrAt 5 cfg3.N (ix2 p j) = O16_0 m c (ix2 p j) from rfl, o16_0_apply m c p j])

/-! ## Region 4 -/

theorem Ve4_mean (j : Fin 128) : (Ve4 m c main_v93 : S1x128.Idx → EReal) (ix2 (0 : Fin 1) j) = Spec.mean kN (kA2 m c) j := by
  rw [show Ve4 m c main_v93 = V17 m (outsD m) c main_v93 from rfl, V17_main_v93_apply, V16D_v90_1]
  show Ideal.div (O16_1 m c (ix2 (0 : Fin 2) j)) kN = _
  rw [o16_1_row0 m c]; rfl

theorem Ve4_var (j : Fin 128) : (Ve4 m c main_v98 : S1x128.Idx → EReal) (ix2 (0 : Fin 1) j) = Spec.var1 kN (kA2 m c) j := by
  rw [show Ve4 m c main_v98 = V17 m (outsD m) c main_v98 from rfl, V17_main_v98_apply, V16D_v90_1]
  show Ideal.div (O16_1 m c (ix2 (1 : Fin 2) j)) kN - Ideal.div (O16_1 m c (ix2 (0 : Fin 2) j)) kN * Ideal.div (O16_1 m c (ix2 (0 : Fin 2) j)) kN = _
  rw [o16_1_row0 m c, o16_1_row1 m c]; rfl

theorem o18_apply (p : Fin 100000) (j : Fin 128) : O18 m c (ix2 p j) = kA3 m c p j := by
  have eg : (Ve4 m c main_v70 : S1x128.Idx → EReal) (ix2 (0 : Fin 1) j) = kg3 m c j := V17_main_v70_apply m (outsD m) c 0 j
  have eb : (Ve4 m c main_v71 : S1x128.Idx → EReal) (ix2 (0 : Fin 1) j) = kβ3 m c j := V17_main_v71_apply m (outsD m) c 0 j
  have eh : (Ve4 m c main_v90_0 : S100000x128.Idx → EReal) (ix2 p j) = kA2 m c p j := by
    rw [Ve4_v90_0]; exact o16_0_apply m c p j
  have em := Ve4_mean m c j
  have ev := Ve4_var m c j
  refine (idx4_out (Ve4 m) c p j).trans ?_
  rw [eg, eb, eh, em, ev]
  rfl

/-! ## The whole stack -/

/-- The kernel program's result array, entry by entry, is the one-pass stack of the launch contents. -/
theorem o18_kernelOut (p : Fin 100000) (j : Fin 128) :
    O18 m c (ix2 p j) = Cert.Spec.kernelOut kN kE (kRes m c) (kW1 m c) (kb1 m c) (kg1 m c) (kβ1 m c) (kW2 m c) (kb2 m c)
      (kg2 m c) (kβ2 m c) (kg3 m c) (kβ3 m c) p j := by
  refine (o18_apply m c p j).trans ?_
  unfold kA3 kA2 kH2 kA1 kH1 Spec.kernelOut
  rfl

end Cert.KernelIdeal.Hand

end
-- ==== Proof.Head.lean ====
/-
  The neighbour aggregate at the head of both programs.

  One hop reads a table of 100000 rows of 128 features and an index table of two rows of 800000 entries. Row 0 names, per
  edge, the row to read (an index below zero counts from the end: 100000 is added to it); the rows read, with the edge
  features added on the first hop, are cut at zero from below; row 1 names, per edge, the row of a zero table the cut row
  is added into. The term below composes the host operations in the order both programs apply them.

  At the exact instance every entry of the aggregate is a real number when the table's and the edge features' entries are:
  an entry read is an entry of the table, a maximum or a sum of real numbers is real, and an entry of the result is zero plus
  a finite sum of such entries, whatever the index table holds.
-/
import Idealize.ShloMosaic.PureOps
import Idealize.ShloMosaic.PureOps.Ideal
import Idealize.ShloMosaic.PureOps.Ideal.Laws
import Idealize.ShloMosaic.Lib.ValueIdx
import Idealize.ShloMosaic.Lib.Decide

noncomputable section

namespace Cert.Head

open Idealize.ShloMosaic
open scoped BigOperators

/-! ## Shapes, shape facts and the two dimension records -/

abbrev S_ : Shape := ⟨0, ![]⟩
abbrev S100000x128 : Shape := ⟨2, ![100000, 128]⟩
abbrev S800000x128 : Shape := ⟨2, ![800000, 128]⟩
abbrev S2x800000 : Shape := ⟨2, ![2, 800000]⟩
abbrev S1x800000 : Shape := ⟨2, ![1, 800000]⟩
abbrev S800000 : Shape := ⟨1, ![800000]⟩
abbrev S800000x1 : Shape := ⟨2, ![800000, 1]⟩

theorem slicesRow0 : S2x800000.Slices ![0, 0] S1x800000 := by decide
theorem slicesRow1 : S2x800000.Slices ![1, 0] S1x800000 := by decide
theorem castsRow : S1x800000.ShapeCasts S800000 := by decide
theorem bcastScalarEdges : S_.BroadcastsInDim S800000 (![] : Fin 0 → Fin S800000.rank) := by decide
theorem bcastColumn : S800000.BroadcastsInDim S800000x1 (![0] : Fin 1 → Fin S800000x1.rank) := by decide
theorem bcastScalarRows : S_.BroadcastsInDim S800000x128 (![] : Fin 0 → Fin S800000x128.rank) := by decide
theorem bcastScalarTable : S_.BroadcastsInDim S100000x128 (![] : Fin 0 → Fin S100000x128.rank) := by decide
theorem gatherRows_wf : GatherDims.WF S100000x128 S800000x1 S800000x128 [1] [0] [] [0] [] 1 ![1, 128] := by decide
theorem scatterRows_wf : ScatterDims.WF S100000x128 S800000x1 S800000x128 [1] [0] [0] 1 := by decide

/-- Reading whole rows of the table, one per edge. -/
def gatherRows : GatherDims S100000x128 S800000x1 S800000x128 where
  offsetDims := [1]
  collapsedSliceDims := [0]
  operandBatchingDims := []
  startIndicesBatchingDims := []
  startIndexMap := [0]
  indexVectorDim := 1
  sliceSizes := ![1, 128]
  wf := gatherRows_wf

/-- Adding whole rows into the table, one per edge. -/
def scatterRows : ScatterDims S100000x128 S800000x1 S800000x128 where
  updateWindowDims := [1]
  insertedWindowDims := [0]
  scatterDimsToOperandDims := [0]
  indexVectorDim := 1
  wf := scatterRows_wf

variable {F : FTy → Type} [FloatOps F]

/-! ## The aggregate -/

/-- Row 0 of the index table as a column of rows to read: an index below zero counts from the end (100000 is added). -/
def srcRows (e : Vec F S2x800000 .i32) : IVec S800000x1 32 :=
  broadcastInDim S800000x1 ![0] bcastColumn
    (select
      (cmpi .slt (shapeCast S800000 (extractStridedSlice S1x800000 ![0, 0] e slicesRow0) castsRow)
        (broadcastInDim S800000 ![] bcastScalarEdges (constantI S_ 32 0#32)))
      (addi (shapeCast S800000 (extractStridedSlice S1x800000 ![0, 0] e slicesRow0) castsRow)
        (broadcastInDim S800000 ![] bcastScalarEdges (constantI S_ 32 100000#32)))
      (shapeCast S800000 (extractStridedSlice S1x800000 ![0, 0] e slicesRow0) castsRow))

/-- Row 1 of the index table as a column of rows to add into. -/
def dstRows (e : Vec F S2x800000 .i32) : IVec S800000x1 32 :=
  broadcastInDim S800000x1 ![0] bcastColumn (shapeCast S800000 (extractStridedSlice S1x800000 ![1, 0] e slicesRow1) castsRow)

/-- The zero table the rows are added into. -/
def zeroTable : FVec F S100000x128 .f32 :=
  broadcastInDim S100000x128 ![] bcastScalarTable (constant (F := F) S_ .f32 0x00000000#32)

/-- The per-edge rows cut at zero from below. -/
def cutAtZero (v : FVec F S800000x128 .f32) : FVec F S800000x128 .f32 :=
  maximumf v (broadcastInDim S800000x128 ![] bcastScalarRows (constant (F := F) S_ .f32 0x00000000#32))

/-- The first hop: rows of `x` read at row 0 of `e`, the edge features `ea` added, cut at zero, added into a zero table at
    row 1 of `e`. -/
def propE (x : FVec F S100000x128 .f32) (e : Vec F S2x800000 .i32) (ea : FVec F S800000x128 .f32) :
    FVec F S100000x128 .f32 :=
  Host.scatterAdd scatterRows (zeroTable (F := F)) (dstRows e)
    (cutAtZero (addf (Host.gather gatherRows x (srcRows e)) ea))

/-- A later hop: the same with no edge features. -/
def prop (x : FVec F S100000x128 .f32) (e : Vec F S2x800000 .i32) : FVec F S100000x128 .f32 :=
  Host.scatterAdd scatterRows (zeroTable (F := F)) (dstRows e) (cutAtZero (Host.gather gatherRows x (srcRows e)))

/-! ## Real entries in, real entries out -/

private theorem real_add {a b : EReal} (ha : ∃ r : ℝ, a = (r : EReal)) (hb : ∃ r : ℝ, b = (r : EReal)) :
    ∃ r : ℝ, a + b = (r : EReal) := by
  obtain ⟨p, rfl⟩ := ha
  obtain ⟨q, rfl⟩ := hb
  exact ⟨p + q, (EReal.coe_add p q).symm⟩

private theorem real_max {a b : EReal} (ha : ∃ r : ℝ, a = (r : EReal)) (hb : ∃ r : ℝ, b = (r : EReal)) :
    ∃ r : ℝ, max a b = (r : EReal) := by
  obtain ⟨p, rfl⟩ := ha
  obtain ⟨q, rfl⟩ := hb
  rcases le_total p q with h | h
  · exact ⟨q, max_eq_right (EReal.coe_le_coe_iff.2 h)⟩
  · exact ⟨p, max_eq_left (EReal.coe_le_coe_iff.2 h)⟩

private theorem real_sum {ι : Type} (s : Finset ι) (f : ι → EReal) (h : ∀ j, ∃ r : ℝ, f j = (r : EReal)) :
    ∃ r : ℝ, ∑ j ∈ s, f j = (r : EReal) :=
  Finset.sum_induction f (fun v => ∃ r : ℝ, v = (r : EReal)) (fun _ _ => real_add) ⟨0, EReal.coe_zero.symm⟩ fun j _ => h j

private theorem real_zero : ∃ r : ℝ, Ideal.ofBits .f32 0x00000000#32 = (r : EReal) :=
  ⟨0, Ideal.ofBits_zero_f32.trans EReal.coe_zero.symm⟩

/-- An accumulating scatter of real updates into a table of real entries has real entries: an entry is the table's plus a
    finite sum of updates. -/
private theorem scatterAdd_real {s si su : Shape} (d : ScatterDims s si su) {w : Nat} (x0 : s.Idx → EReal) (idx : IVec si w)
    (upd : su.Idx → EReal) (h0 : ∀ i, ∃ r : ℝ, x0 i = (r : EReal)) (hu : ∀ j, ∃ r : ℝ, upd j = (r : EReal)) :
    ∀ i, ∃ r : ℝ, Ideal.hostScatterAdd d x0 idx upd i = (r : EReal) := by
  intro i
  unfold Ideal.hostScatterAdd
  exact real_add (h0 i) (real_sum _ _ hu)

/-- A splat of the zero word has real entries. -/
private theorem zeroSplat_real {t : Shape} (dims : Fin S_.rank → Fin t.rank) (h : S_.BroadcastsInDim t dims) :
    ∀ i, ∃ r : ℝ, broadcastInDim t dims h (constant (F := Ideal) S_ .f32 0x00000000#32) i = (r : EReal) := by
  intro i
  unfold broadcastInDim
  rw [ValueIdx.constant_apply]
  exact real_zero

/-- The entrywise maximum of vectors with real entries has real entries. -/
private theorem maximumf_real {s : Shape} (a b : FVec Ideal s .f32) (ha : ∀ j, ∃ r : ℝ, a j = (r : EReal))
    (hb : ∀ j, ∃ r : ℝ, b j = (r : EReal)) : ∀ j, ∃ r : ℝ, maximumf a b j = (r : EReal) := by
  intro j
  rw [ValueIdx.maximumf_apply]
  exact real_max (ha j) (hb j)

/-- The entrywise sum of vectors with real entries has real entries. -/
private theorem addf_real {s : Shape} (a b : FVec Ideal s .f32) (ha : ∀ j, ∃ r : ℝ, a j = (r : EReal))
    (hb : ∀ j, ∃ r : ℝ, b j = (r : EReal)) : ∀ j, ∃ r : ℝ, addf a b j = (r : EReal) := by
  intro j
  rw [ValueIdx.addf_apply]
  exact real_add (ha j) (hb j)

/-- Rows read from a table with real entries have real entries: each is an entry of the table. -/
private theorem gather_real {s si t : Shape} {w : Nat} (d : GatherDims s si t) (x : s.Idx → EReal) (idx : IVec si w)
    (hx : ∀ i, ∃ r : ℝ, x i = (r : EReal)) : ∀ j, ∃ r : ℝ, Host.gather d x idx j = (r : EReal) := by
  intro j
  unfold Host.gather
  exact hx _

/-- At the exact instance the host's accumulating scatter is the table plus, per entry, the sum of the updates landing on it
    (stated at any shapes). -/
private theorem hostScatterAdd_eq {s si su : Shape} (d : ScatterDims s si su) {w : Nat} (x0 : FVec Ideal s .f32) (idx : IVec si w)
    (upd : FVec Ideal su .f32) : Host.scatterAdd d x0 idx upd = Ideal.hostScatterAdd d x0 idx upd := rfl

private theorem zeroTable_real : ∀ i, ∃ r : ℝ, zeroTable (F := Ideal) i = (r : EReal) := zeroSplat_real _ _

private theorem cutAtZero_real (v : FVec Ideal S800000x128 .f32) (hv : ∀ j, ∃ r : ℝ, v j = (r : EReal)) :
    ∀ j, ∃ r : ℝ, cutAtZero v j = (r : EReal) := maximumf_real _ _ hv (zeroSplat_real _ _)

/-- Every entry of the first hop's aggregate is a real number when every entry of the table and of the edge features is,
    whatever the index table holds. -/
theorem propE_real (x : FVec Ideal S100000x128 .f32) (e : Vec Ideal S2x800000 .i32) (ea : FVec Ideal S800000x128 .f32)
    (hx : ∀ i, ∃ r : ℝ, x i = (r : EReal)) (hea : ∀ i, ∃ r : ℝ, ea i = (r : EReal)) :
    ∀ i, ∃ r : ℝ, propE (F := Ideal) x e ea i = (r : EReal) := by
  intro i
  have h := scatterAdd_real scatterRows (zeroTable (F := Ideal)) (dstRows e)
    (cutAtZero (addf (Host.gather gatherRows x (srcRows e)) ea)) zeroTable_real
    (cutAtZero_real _ (addf_real _ _ (gather_real _ _ _ hx) hea)) i
  rw [← hostScatterAdd_eq] at h
  exact h

/-- The same for a later hop. -/
theorem prop_real (x : FVec Ideal S100000x128 .f32) (e : Vec Ideal S2x800000 .i32)
    (hx : ∀ i, ∃ r : ℝ, x i = (r : EReal)) :
    ∀ i, ∃ r : ℝ, prop (F := Ideal) x e i = (r : EReal) := by
  intro i
  have h := scatterAdd_real scatterRows (zeroTable (F := Ideal)) (dstRows e)
    (cutAtZero (Host.gather gatherRows x (srcRows e))) zeroTable_real
    (cutAtZero_real _ (gather_real _ _ _ hx)) i
  rw [← hostScatterAdd_eq] at h
  exact h

end Cert.Head

end
-- ==== Proof.KI.HeadK.lean ====
/-
  The neighbour aggregates at the head of the program, as the shared composed term.

  Each of the four aggregates is written by three consecutive stretches of host operations: the rows read (with the edge
  features added on the first hop), the cut at zero, and the addition into a zero table. A stretch's result at the buffer it
  writes is read off for an arbitrary valuation; the later stretches write other buffers, so the value stands to the end of
  the head, and the arguments read still hold their launch contents.
-/
import proofs.«164503_j82721070121701_1_alg».proof.Proof.Gen.KernelIdeal.Regions
import proofs.«164503_j82721070121701_1_alg».proof.Proof.Head
import Idealize.ShloMosaic.Lib.StableHlo.Run

set_option maxRecDepth 1324

noncomputable section

namespace Cert.KernelIdeal.Hand

open Cert.KernelIdeal Cert.KernelIdeal.Gen
open Idealize.ShloMosaic Idealize.ShloMosaic.TcCoe Idealize.ShloMosaic.StableHlo
open Idealize.SL.Sem

variable {F : FTy → Type} [FloatOps F]

/-! ## The first hop -/

/-- The rows read, with the edge features added. -/
theorem ops0_v9 (V : Valuation τ sig (Elt F)) :
    after hostOps0 V (main_v9 : DevRef τ sig)
      = addf (Host.gather Cert.Head.gatherRows (V (main_arg0 : DevRef τ sig)) (Cert.Head.srcRows (V (main_arg5 : DevRef τ sig))))
          (V (main_arg4 : DevRef τ sig)) := by
  after_results
  rfl

/-- The cut at zero. -/
theorem ops0_1_v10 (V : Valuation τ sig (Elt F)) :
    after hostOps0_1 V (main_v10 : DevRef τ sig) = Cert.Head.cutAtZero (V (main_v9 : DevRef τ sig)) := by
  after_results
  rfl

/-- The addition into the zero table. -/
theorem ops0_2_v15 (V : Valuation τ sig (Elt F)) :
    after hostOps0_2 V (main_v15 : DevRef τ sig)
      = Host.scatterAdd Cert.Head.scatterRows (Cert.Head.zeroTable (F := F)) (Cert.Head.dstRows (V (main_arg5 : DevRef τ sig)))
          (V (main_v10 : DevRef τ sig)) := by
  after_results
  rfl

/-! ## The second hop -/

/-- The rows read. -/
theorem ops0_2_v24 (V : Valuation τ sig (Elt F)) :
    after hostOps0_2 V (main_v24 : DevRef τ sig)
      = Host.gather Cert.Head.gatherRows (V (main_arg1 : DevRef τ sig)) (Cert.Head.srcRows (V (main_arg6 : DevRef τ sig))) := by
  after_results_simp
  rfl

/-- The cut at zero. -/
theorem ops0_3_v25 (V : Valuation τ sig (Elt F)) :
    after hostOps0_3 V (main_v25 : DevRef τ sig) = Cert.Head.cutAtZero (V (main_v24 : DevRef τ sig)) := by
  after_results
  rfl

/-- The addition into the zero table. -/
theorem ops0_4_v30 (V : Valuation τ sig (Elt F)) :
    after hostOps0_4 V (main_v30 : DevRef τ sig)
      = Host.scatterAdd Cert.Head.scatterRows (Cert.Head.zeroTable (F := F)) (Cert.Head.dstRows (V (main_arg6 : DevRef τ sig)))
          (V (main_v25 : DevRef τ sig)) := by
  after_results
  rfl

/-! ## The third hop -/

/-- The rows read. -/
theorem ops0_4_v39 (V : Valuation τ sig (Elt F)) :
    after hostOps0_4 V (main_v39 : DevRef τ sig)
      = Host.gather Cert.Head.gatherRows (V (main_arg2 : DevRef τ sig)) (Cert.Head.srcRows (V (main_arg7 : DevRef τ sig))) := by
  after_results_simp
  rfl

/-- The cut at zero. -/
theorem ops0_5_v40 (V : Valuation τ sig (Elt F)) :
    after hostOps0_5 V (main_v40 : DevRef τ sig) = Cert.Head.cutAtZero (V (main_v39 : DevRef τ sig)) := by
  after_results
  rfl

/-- The addition into the zero table. -/
theorem ops0_6_v45 (V : Valuation τ sig (Elt F)) :
    after hostOps0_6 V (main_v45 : DevRef τ sig)
      = Host.scatterAdd Cert.Head.scatterRows (Cert.Head.zeroTable (F := F)) (Cert.Head.dstRows (V (main_arg7 : DevRef τ sig)))
          (V (main_v40 : DevRef τ sig)) := by
  after_results
  rfl

/-! ## The fourth hop -/

/-- The rows read. -/
theorem ops0_6_v54 (V : Valuation τ sig (Elt F)) :
    after hostOps0_6 V (main_v54 : DevRef τ sig)
      = Host.gather Cert.Head.gatherRows (V (main_arg3 : DevRef τ sig)) (Cert.Head.srcRows (V (main_arg8 : DevRef τ sig))) := by
  after_results_simp
  rfl

/-- The cut at zero. -/
theorem ops0_7_v55 (V : Valuation τ sig (Elt F)) :
    after hostOps0_7 V (main_v55 : DevRef τ sig) = Cert.Head.cutAtZero (V (main_v54 : DevRef τ sig)) := by
  after_results
  rfl

/-- The addition into the zero table. -/
theorem ops0_8_v60 (V : Valuation τ sig (Elt F)) :
    after hostOps0_8 V (main_v60 : DevRef τ sig)
      = Host.scatterAdd Cert.Head.scatterRows (Cert.Head.zeroTable (F := F)) (Cert.Head.dstRows (V (main_arg8 : DevRef τ sig)))
          (V (main_v55 : DevRef τ sig)) := by
  after_results
  rfl

/-! ## The aggregates when the head ends, over the launch contents -/

variable (m : (ℓ : Loc nD τ sig) → Buf (Elt F) ℓ)

/-- The first hop's aggregate. -/
theorem V9_main_v15 (c : Dev nD) :
    V9 m c main_v15 = Cert.Head.propE (V0 m c main_arg0) (V0 m c main_arg5) (V0 m c main_arg4) := by
  have e15 : V3 m c main_v15 = _ := ops0_2_v15 (V2 m c)
  have e10 : V2 m c main_v10 = _ := ops0_1_v10 (V1 m c)
  have e9 : V1 m c main_v9 = _ := ops0_v9 (V0 m c)
  rw [V9_of m c main_v15 (by decide), V8_of m c main_v15 (by decide), V7_of m c main_v15 (by decide), V6_of m c main_v15 (by decide), V5_of m c main_v15 (by decide), V4_of m c main_v15 (by decide), e15,
    V2_of m c main_arg5 (by decide), V1_of m c main_arg5 (by decide), e10, e9]
  rfl

/-- The second hop's aggregate. -/
theorem V9_main_v30 (c : Dev nD) :
    V9 m c main_v30 = Cert.Head.prop (V0 m c main_arg1) (V0 m c main_arg6) := by
  have e30 : V5 m c main_v30 = _ := ops0_4_v30 (V4 m c)
  have e25 : V4 m c main_v25 = _ := ops0_3_v25 (V3 m c)
  have e24 : V3 m c main_v24 = _ := ops0_2_v24 (V2 m c)
  rw [V9_of m c main_v30 (by decide), V8_of m c main_v30 (by decide), V7_of m c main_v30 (by decide), V6_of m c main_v30 (by decide), e30,
    V4_of m c main_arg6 (by decide), V3_of m c main_arg6 (by decide), V2_of m c main_arg6 (by decide), V1_of m c main_arg6 (by decide), e25, e24,
    V2_of m c main_arg1 (by decide), V1_of m c main_arg1 (by decide), V2_of m c main_arg6 (by decide), V1_of m c main_arg6 (by decide)]
  rfl

/-- The third hop's aggregate. -/
theorem V9_main_v45 (c : Dev nD) :
    V9 m c main_v45 = Cert.Head.prop (V0 m c main_arg2) (V0 m c main_arg7) := by
  have e45 : V7 m c main_v45 = _ := ops0_6_v45 (V6 m c)
  have e40 : V6 m c main_v40 = _ := ops0_5_v40 (V5 m c)
  have e39 : V5 m c main_v39 = _ := ops0_4_v39 (V4 m c)
  rw [V9_of m c main_v45 (by decide), V8_of m c main_v45 (by decide), e45,
    V6_of m c main_arg7 (by decide), V5_of m c main_arg7 (by decide), V4_of m c main_arg7 (by decide), V3_of m c main_arg7 (by decide), V2_of m c main_arg7 (by decide), V1_of m c main_arg7 (by decide), e40, e39,
    V4_of m c main_arg2 (by decide), V3_of m c main_arg2 (by decide), V2_of m c main_arg2 (by decide), V1_of m c main_arg2 (by decide), V4_of m c main_arg7 (by decide), V3_of m c main_arg7 (by decide), V2_of m c main_arg7 (by decide), V1_of m c main_arg7 (by decide)]
  rfl

/-- The fourth hop's aggregate. -/
theorem V9_main_v60 (c : Dev nD) :
    V9 m c main_v60 = Cert.Head.prop (V0 m c main_arg3) (V0 m c main_arg8) := by
  have e60 : V9 m c main_v60 = _ := ops0_8_v60 (V8 m c)
  have e55 : V8 m c main_v55 = _ := ops0_7_v55 (V7 m c)
  have e54 : V7 m c main_v54 = _ := ops0_6_v54 (V6 m c)
  rw [e60,
    V8_of m c main_arg8 (by decide), V7_of m c main_arg8 (by decide), V6_of m c main_arg8 (by decide), V5_of m c main_arg8 (by decide), V4_of m c main_arg8 (by decide), V3_of m c main_arg8 (by decide), V2_of m c main_arg8 (by decide), V1_of m c main_arg8 (by decide), e55, e54,
    V6_of m c main_arg3 (by decide), V5_of m c main_arg3 (by decide), V4_of m c main_arg3 (by decide), V3_of m c main_arg3 (by decide), V2_of m c main_arg3 (by decide), V1_of m c main_arg3 (by decide), V6_of m c main_arg8 (by decide), V5_of m c main_arg8 (by decide), V4_of m c main_arg8 (by decide), V3_of m c main_arg8 (by decide), V2_of m c main_arg8 (by decide), V1_of m c main_arg8 (by decide)]
  rfl

/-! ## The arguments still hold their launch contents -/

/-- A buffer none of the head's stretches writes holds its launch contents when the head ends. -/
theorem V9_launch (c : Dev nD) (r : Ref sig .tc) (h0 : r ∉ hostOps0_W) (h1 : r ∉ hostOps0_1_W) (h2 : r ∉ hostOps0_2_W)
    (h3 : r ∉ hostOps0_3_W) (h4 : r ∉ hostOps0_4_W) (h5 : r ∉ hostOps0_5_W) (h6 : r ∉ hostOps0_6_W) (h7 : r ∉ hostOps0_7_W)
    (h8 : r ∉ hostOps0_8_W) : V9 m c r = V0 m c r := by
  rw [V9_of m c r h8, V8_of m c r h7, V7_of m c r h6, V6_of m c r h5, V5_of m c r h4, V4_of m c r h3, V3_of m c r h2,
    V2_of m c r h1, V1_of m c r h0]

theorem V9_arg0_launch (c : Dev nD) : V9 m c main_arg0 = V0 m c main_arg0 :=
  V9_launch m c main_arg0 (by decide) (by decide) (by decide) (by decide) (by decide) (by decide) (by decide) (by decide) (by decide)

theorem V9_arg19_launch (c : Dev nD) : V9 m c main_arg19 = V0 m c main_arg19 :=
  V9_launch m c main_arg19 (by decide) (by decide) (by decide) (by decide) (by decide) (by decide) (by decide) (by decide) (by decide)

end Cert.KernelIdeal.Hand

end
-- ==== Proof.Ref.Step.lean ====
/-
  A straight line of host operations read one operation at a time.

  For a line in which every operation writes exactly one buffer, and no buffer is written twice, the contents of a
  buffer after the whole line are what the operation that writes it leaves, computed from its operands' contents
  after the whole line: nothing later writes the result or the operands.  The facts below say this over the fold
  `after`: a buffer not written by a suffix keeps its contents through it, and the fold over the first `k + 1`
  operations is the `k`-th operation's result over the fold of the first `k`.
-/
import Idealize.ShloMosaic.Lib.StableHlo.Run

noncomputable section

namespace Cert.ReferenceIdeal.Hand

open Idealize.ShloMosaic Idealize.ShloMosaic.StableHlo

variable {τ : Topo} {sig : RefSig} {Val : EltTy → Type}

/-- The fold over two lines run one after the other. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Each operation of the line writes exactly the buffer listed at its place. -/
def WritesAt (ops : List (HloOp τ sig Val)) (W : List (Ref sig .tc)) : Prop :=
  List.Forall₂ (fun op w => op.writes = {Proc.devRef (τ := τ) .tc w}) ops W

theorem WritesAt.append {l₁ l₂ : List (HloOp τ sig Val)} {W₁ W₂ : List (Ref sig .tc)}
    (h₁ : WritesAt l₁ W₁) (h₂ : WritesAt l₂ W₂) : WritesAt (l₁ ++ l₂) (W₁ ++ W₂) := by
  unfold WritesAt at *
  induction h₁ with
  | nil => exact h₂
  | cons h _ ih => exact List.Forall₂.cons h ih

theorem WritesAt.drop {ops : List (HloOp τ sig Val)} {W : List (Ref sig .tc)} (h : WritesAt ops W) (k : Nat) :
    WritesAt (ops.drop k) (W.drop k) := by
  unfold WritesAt at *
  induction h generalizing k with
  | nil => simp only [List.drop_nil]; exact List.Forall₂.nil
  | cons hw ht ih =>
    cases k with
    | zero => exact List.Forall₂.cons hw ht
    | succ k => exact ih k

/-- A buffer the line does not write keeps its contents through it. -/
theorem WritesAt.keep {ops : List (HloOp τ sig Val)} {W : List (Ref sig .tc)} (h : WritesAt ops W)
    (V : Valuation τ sig Val) {r : Ref sig .tc} (hr : r ∉ W) :
    after ops V (Proc.devRef .tc r) = V (Proc.devRef .tc r) := by
  refine after_of_forall_not_mem ops V ?_
  unfold WritesAt at h
  induction h with
  | nil => intro op hop; exact absurd hop (List.not_mem_nil)
  | @cons op w ops W hw _ ih =>
    intro o ho
    rcases List.mem_cons.mp ho with rfl | ho
    · rw [hw, Finset.mem_singleton]
      intro he
      exact hr (Proc.devRef_injective _ he ▸ List.mem_cons_self)
    · exact ih (fun hm => hr (List.mem_cons_of_mem _ hm)) o ho

/-- A buffer no operation from the `k`-th on writes is read off the first `k` operations. -/
theorem WritesAt.after_eq_take {ops : List (HloOp τ sig Val)} {W : List (Ref sig .tc)} (h : WritesAt ops W) (k : Nat)
    (V : Valuation τ sig Val) {r : Ref sig .tc} (hr : r ∉ W.drop k) :
    after ops V (Proc.devRef .tc r) = after (ops.take k) V (Proc.devRef .tc r) := by
  conv_lhs => rw [← List.take_append_drop k ops]
  rw [after_append]
  exact (h.drop k).keep _ hr

/-- The fold over the first `k + 1` operations is the `k`-th operation's result over the fold of the first `k`. -/
theorem after_take_succ (ops : List (HloOp τ sig Val)) (k : Nat) (hk : k < ops.length) (V : Valuation τ sig Val) :
    after (ops.take (k + 1)) V = (ops[k]).result (after (ops.take k) V) := by
  rw [List.take_succ_eq_append_getElem hk, after_append]
  rfl

/-- A buffer no operation after the `k`-th writes holds, after the line, what the `k`-th operation leaves there. -/
theorem WritesAt.read {ops : List (HloOp τ sig Val)} {W : List (Ref sig .tc)} (h : WritesAt ops W) (k : Nat)
    {op : HloOp τ sig Val} (hop : ops[k]? = some op) (V : Valuation τ sig Val) {y : Ref sig .tc} (hy : y ∉ W.drop (k + 1)) :
    after ops V (Proc.devRef .tc y) = op.result (after (ops.take k) V) (Proc.devRef .tc y) := by
  obtain ⟨hk, rfl⟩ := List.getElem?_eq_some_iff.mp hop
  rw [h.after_eq_take (k + 1) V hy, after_take_succ ops k hk V]

end Cert.ReferenceIdeal.Hand

end
-- ==== Proof.Ref.OpsA.lean ====
/-
  The reference program's operations 1 … 64 of 274, in order: the statements of its window `main_part0`, the
  operations of a called function listed at the call over the call's own buffers (a call executes the callee's
  body on the operands).  The window is that straight line; every operation touches device buffers only and
  writes exactly the one buffer listed at its place.
-/
import proofs.«164503_j82721070121701_1_alg».proof.Proof.Gen.ReferenceIdeal
import proofs.«164503_j82721070121701_1_alg».proof.Proof.Ref.Step

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The window's 64 operations, in order. -/
abbrev opsA : List (HloOp τ sig (Elt F)) :=
  [
    StableHlo.unary main_arg19 main_v0 ((extractStridedSlice S1x128 ![0, 0] · slices_S5x128_S1x128_0_0) : (⟨S5x128, .f32⟩ : BufTy).Contents (Elt F) → (⟨S1x128, .f32⟩ : BufTy).Contents (Elt F)),
    StableHlo.reshape main_v0 main_v1 rfl shapeCasts_S1x128_S128,
    StableHlo.nullary main_cst (constant S_ .f32 0x3F800000#32),
    StableHlo.unary main_cst main_v2 (broadcastInDim S128 ![] bcast_S_S128 : (⟨S_, .f32⟩ : BufTy).Contents (Elt F) → (⟨S128, .f32⟩ : BufTy).Contents (Elt F)),
    StableHlo.binary main_v2 main_v1 main_v3 (addf : (⟨S128, .f32⟩ : BufTy).Contents (Elt F) → (⟨S128, .f32⟩ : BufTy).Contents (Elt F) → (⟨S128, .f32⟩ : BufTy).Contents (Elt F)),
    StableHlo.unary main_v3 main_v4 (broadcastInDim S1x128 ![1] bcast_S128_S1x128_1 : (⟨S128, .f32⟩ : BufTy).Contents (Elt F) → (⟨S1x128, .f32⟩ : BufTy).Contents (Elt F)),
    StableHlo.unary main_v4 main_v5 (broadcastInDim S100000x128 ![0, 1] bcast_S1x128_S100000x128_0_1 : (⟨S1x128, .f32⟩ : BufTy).Contents (Elt F) → (⟨S100000x128, .f32⟩ : BufTy).Contents (Elt F)),
    StableHlo.binary main_v5 main_arg0 main_v6 (mulf : (⟨S100000x128, .f32⟩ : BufTy).Contents (Elt F) → (⟨S100000x128, .f32⟩ : BufTy).Contents (Elt F) → (⟨S100000x128, .f32⟩ : BufTy).Contents (Elt F)),
    StableHlo.unary main_arg19 main_v7 ((extractStridedSlice S1x128 ![1, 0] · slices_S5x128_S1x128_1_0) : (⟨S5x128, .f32⟩ : BufTy).Contents (Elt F) → (⟨S1x128, .f32⟩ : BufTy).Contents (Elt F)),
    StableHlo.reshape main_v7 main_v8 rfl shapeCasts_S1x128_S128,
    StableHlo.nullary main_cst_0 (constant S_ .f32 0x3F800000#32),
    StableHlo.unary main_cst_0 main_v9 (broadcastInDim S128 ![] bcast_S_S128 : (⟨S_, .f32⟩ : BufTy).Contents (Elt F) → (⟨S128, .f32⟩ : BufTy).Contents (Elt F)),
    StableHlo.binary main_v9 main_v8 main_v10 (addf : (⟨S128, .f32⟩ : BufTy).Contents (Elt F) → (⟨S128, .f32⟩ : BufTy).Contents (Elt F) → (⟨S128, .f32⟩ : BufTy).Contents (Elt F)),
    StableHlo.unary main_arg5 main_v11 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v11 main_v12 rfl shapeCasts_S1x800000_S800000,
    StableHlo.nullary main_c (constantI S_ 32 0#32),
    StableHlo.unary main_c main_v13 (broadcastInDim S800000 ![] bcast_S_S800000 : (⟨S_, .i32⟩ : BufTy).Contents (Elt F) → (⟨S800000, .i32⟩ : BufTy).Contents (Elt F)),
    StableHlo.binary main_v12 main_v13 main_v14 (cmpi .slt : (⟨S800000, .i32⟩ : BufTy).Contents (Elt F) → (⟨S800000, .i32⟩ : BufTy).Contents (Elt F) → (⟨S800000, .i1⟩ : BufTy).Contents (Elt F)),
    StableHlo.nullary main_c_1 (constantI S_ 32 100000#32),
    StableHlo.unary main_c_1 main_v15 (broadcastInDim S800000 ![] bcast_S_S800000 : (⟨S_, .i32⟩ : BufTy).Contents (Elt F) → (⟨S800000, .i32⟩ : BufTy).Contents (Elt F)),
    StableHlo.binary main_v12 main_v15 main_v16 (addi : (⟨S800000, .i32⟩ : BufTy).Contents (Elt F) → (⟨S800000, .i32⟩ : BufTy).Contents (Elt F) → (⟨S800000, .i32⟩ : BufTy).Contents (Elt F)),
    StableHlo.ternary main_v14 main_v16 main_v12 main_v17 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v17 main_v18 (broadcastInDim S800000x1 ![0] bcast_S800000_S800000x1_0 : (⟨S800000, .i32⟩ : BufTy).Contents (Elt F) → (⟨S800000x1, .i32⟩ : BufTy).Contents (Elt F)),
    StableHlo.binary main_arg0 main_v18 main_v19 ((fun x i => Host.gather gather_S100000x128_S800000x1_S800000x128_1_0_n_n_0_1_1128 x i) : (⟨S100000x128, .f32⟩ : BufTy).Contents (Elt F) → (⟨S800000x1, .i32⟩ : BufTy).Contents (Elt F) → (⟨S800000x128, .f32⟩ : BufTy).Contents (Elt F)),
    StableHlo.binary main_v19 main_arg4 main_v20 (addf : (⟨S800000x128, .f32⟩ : BufTy).Contents (Elt F) → (⟨S800000x128, .f32⟩ : BufTy).Contents (Elt F) → (⟨S800000x128, .f32⟩ : BufTy).Contents (Elt F)),
    StableHlo.TRef.nullary main_call0.cst (constant S_ .f32 0x00000000#32),
    StableHlo.TRef.unary main_call0.cst main_call0.v0 (broadcastInDim S800000x128 ![] bcast_S_S800000x128),
    StableHlo.TRef.binary (StableHlo.TRef.of main_v20 : StableHlo.TRef sig ⟨S800000x128, .f32⟩) main_call0.v0 main_call0.v1 maximumf,
    StableHlo.unary main_arg5 main_v22 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v22 main_v23 rfl shapeCasts_S1x800000_S800000,
    StableHlo.nullary main_cst_2 (constant S_ .f32 0x00000000#32),
    StableHlo.unary main_cst_2 main_v24 (broadcastInDim S100000x128 ![] bcast_S_S100000x128 : (⟨S_, .f32⟩ : BufTy).Contents (Elt F) → (⟨S100000x128, .f32⟩ : BufTy).Contents (Elt F)),
    StableHlo.unary main_v23 main_v25 (broadcastInDim S800000x1 ![0] bcast_S800000_S800000x1_0 : (⟨S800000, .i32⟩ : BufTy).Contents (Elt F) → (⟨S800000x1, .i32⟩ : BufTy).Contents (Elt F)),
    StableHlo.ternary main_v24 main_v25 main_v21 main_v26 ((fun x i u => Host.scatterAdd scatter_S100000x128_S800000x1_S800000x128_1_0_0_1 x i u) : (⟨S100000x128, .f32⟩ : BufTy).Contents (Elt F) → (⟨S800000x1, .i32⟩ : BufTy).Contents (Elt F) → (⟨S800000x128, .f32⟩ : BufTy).Contents (Elt F) → (⟨S100000x128, .f32⟩ : BufTy).Contents (Elt F)),
    StableHlo.unary main_v10 main_v27 (broadcastInDim S1x128 ![1] bcast_S128_S1x128_1 : (⟨S128, .f32⟩ : BufTy).Contents (Elt F) → (⟨S1x128, .f32⟩ : BufTy).Contents (Elt F)),
    StableHlo.unary main_v27 main_v28 (broadcastInDim S100000x128 ![0, 1] bcast_S1x128_S100000x128_0_1 : (⟨S1x128, .f32⟩ : BufTy).Contents (Elt F) → (⟨S100000x128, .f32⟩ : BufTy).Contents (Elt F)),
    StableHlo.binary main_v28 main_v26 main_v29 (mulf : (⟨S100000x128, .f32⟩ : BufTy).Contents (Elt F) → (⟨S100000x128, .f32⟩ : BufTy).Contents (Elt F) → (⟨S100000x128, .f32⟩ : BufTy).Contents (Elt F)),
    StableHlo.binary main_v6 main_v29 main_v30 (addf : (⟨S100000x128, .f32⟩ : BufTy).Contents (Elt F) → (⟨S100000x128, .f32⟩ : BufTy).Contents (Elt F) → (⟨S100000x128, .f32⟩ : BufTy).Contents (Elt F)),
    StableHlo.unary main_arg19 main_v31 ((extractStridedSlice S1x128 ![2, 0] · slices_S5x128_S1x128_2_0) : (⟨S5x128, .f32⟩ : BufTy).Contents (Elt F) → (⟨S1x128, .f32⟩ : BufTy).Contents (Elt F)),
    StableHlo.reshape main_v31 main_v32 rfl shapeCasts_S1x128_S128,
    StableHlo.nullary main_cst_3 (constant S_ .f32 0x3F800000#32),
    StableHlo.unary main_cst_3 main_v33 (broadcastInDim S128 ![] bcast_S_S128 : (⟨S_, .f32⟩ : BufTy).Contents (Elt F) → (⟨S128, .f32⟩ : BufTy).Contents (Elt F)),
    StableHlo.binary main_v33 main_v32 main_v34 (addf : (⟨S128, .f32⟩ : BufTy).Contents (Elt F) → (⟨S128, .f32⟩ : BufTy).Contents (Elt F) → (⟨S128, .f32⟩ : BufTy).Contents (Elt F)),
    StableHlo.unary main_arg6 main_v35 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v35 main_v36 rfl shapeCasts_S1x800000_S800000,
    StableHlo.nullary main_c_4 (constantI S_ 32 0#32),
    StableHlo.unary main_c_4 main_v37 (broadcastInDim S800000 ![] bcast_S_S800000 : (⟨S_, .i32⟩ : BufTy).Contents (Elt F) → (⟨S800000, .i32⟩ : BufTy).Contents (Elt F)),
    StableHlo.binary main_v36 main_v37 main_v38 (cmpi .slt : (⟨S800000, .i32⟩ : BufTy).Contents (Elt F) → (⟨S800000, .i32⟩ : BufTy).Contents (Elt F) → (⟨S800000, .i1⟩ : BufTy).Contents (Elt F)),
    StableHlo.nullary main_c_5 (constantI S_ 32 100000#32),
    StableHlo.unary main_c_5 main_v39 (broadcastInDim S800000 ![] bcast_S_S800000 : (⟨S_, .i32⟩ : BufTy).Contents (Elt F) → (⟨S800000, .i32⟩ : BufTy).Contents (Elt F)),
    StableHlo.binary main_v36 main_v39 main_v40 (addi : (⟨S800000, .i32⟩ : BufTy).Contents (Elt F) → (⟨S800000, .i32⟩ : BufTy).Contents (Elt F) → (⟨S800000, .i32⟩ : BufTy).Contents (Elt F)),
    StableHlo.ternary main_v38 main_v40 main_v36 main_v41 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v41 main_v42 (broadcastInDim S800000x1 ![0] bcast_S800000_S800000x1_0 : (⟨S800000, .i32⟩ : BufTy).Contents (Elt F) → (⟨S800000x1, .i32⟩ : BufTy).Contents (Elt F)),
    StableHlo.binary main_arg1 main_v42 main_v43 ((fun x i => Host.gather gather_S100000x128_S800000x1_S800000x128_1_0_n_n_0_1_1128 x i) : (⟨S100000x128, .f32⟩ : BufTy).Contents (Elt F) → (⟨S800000x1, .i32⟩ : BufTy).Contents (Elt F) → (⟨S800000x128, .f32⟩ : BufTy).Contents (Elt F)),
    StableHlo.TRef.nullary main_call1.cst (constant S_ .f32 0x00000000#32),
    StableHlo.TRef.unary main_call1.cst main_call1.v0 (broadcastInDim S800000x128 ![] bcast_S_S800000x128),
    StableHlo.TRef.binary (StableHlo.TRef.of main_v43 : StableHlo.TRef sig ⟨S800000x128, .f32⟩) main_call1.v0 main_call1.v1 maximumf,
    StableHlo.unary main_arg6 main_v45 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v45 main_v46 rfl shapeCasts_S1x800000_S800000,
    StableHlo.nullary main_cst_6 (constant S_ .f32 0x00000000#32),
    StableHlo.unary main_cst_6 main_v47 (broadcastInDim S100000x128 ![] bcast_S_S100000x128 : (⟨S_, .f32⟩ : BufTy).Contents (Elt F) → (⟨S100000x128, .f32⟩ : BufTy).Contents (Elt F)),
    StableHlo.unary main_v46 main_v48 (broadcastInDim S800000x1 ![0] bcast_S800000_S800000x1_0 : (⟨S800000, .i32⟩ : BufTy).Contents (Elt F) → (⟨S800000x1, .i32⟩ : BufTy).Contents (Elt F)),
    StableHlo.ternary main_v47 main_v48 main_v44 main_v49 ((fun x i u => Host.scatterAdd scatter_S100000x128_S800000x1_S800000x128_1_0_0_1 x i u) : (⟨S100000x128, .f32⟩ : BufTy).Contents (Elt F) → (⟨S800000x1, .i32⟩ : BufTy).Contents (Elt F) → (⟨S800000x128, .f32⟩ : BufTy).Contents (Elt F) → (⟨S100000x128, .f32⟩ : BufTy).Contents (Elt F)),
    StableHlo.unary main_v34 main_v50 (broadcastInDim S1x128 ![1] bcast_S128_S1x128_1 : (⟨S128, .f32⟩ : BufTy).Contents (Elt F) → (⟨S1x128, .f32⟩ : BufTy).Contents (Elt F)) ]

set_option maxRecDepth 8192 in
set_option maxHeartbeats 4000000 in
/-- The window is that straight line: the called functions' definitions unfolded at their calls, both sides are one
    chain of operations once sequencing is reassociated. -/
theorem partA_eq (c : Dev nD) : main_part0 (F := F) c = seq opsA := by
  simp only [main_part0, fn_relu.body, fn_where.body, fn_var.body, fn_relu_0.body, fn_where_2.body, fn_var_1.body, fn_relu_3.body, seq, bind_assoc, pure_bind]
  rfl

theorem opsA_sub : (opsA : List (HloOp τ sig (Elt F))).Forall fun op => op.bufs ⊆ tcRefs τ sig :=
  ⟨
    unary_bufs_sub .., reshape_bufs_sub .., nullary_bufs_sub .., unary_bufs_sub .., binary_bufs_sub .., unary_bufs_sub ..,
    unary_bufs_sub .., binary_bufs_sub .., unary_bufs_sub .., reshape_bufs_sub .., nullary_bufs_sub .., unary_bufs_sub ..,
    binary_bufs_sub .., unary_bufs_sub .., reshape_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub .., nullary_bufs_sub .., unary_bufs_sub .., binary_bufs_sub .., unary_bufs_sub .., reshape_bufs_sub ..,
    nullary_bufs_sub .., unary_bufs_sub .., unary_bufs_sub .., ternary_bufs_sub .., unary_bufs_sub .., unary_bufs_sub ..,
    binary_bufs_sub .., binary_bufs_sub .., unary_bufs_sub .., reshape_bufs_sub .., nullary_bufs_sub .., unary_bufs_sub ..,
    binary_bufs_sub .., unary_bufs_sub .., reshape_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., binary_bufs_sub .., unary_bufs_sub .., reshape_bufs_sub .., nullary_bufs_sub ..,
    unary_bufs_sub .., unary_bufs_sub .., ternary_bufs_sub .., unary_bufs_sub ..⟩

/-- The buffers the window's operations write, in order. -/
abbrev opsA_W : List (Ref sig .tc) :=
  [
    main_v0, main_v1, main_cst, main_v2, main_v3, main_v4, main_v5, main_v6,
    main_v7, main_v8, main_cst_0, main_v9, main_v10, main_v11, main_v12, main_c,
    main_v13, main_v14, main_c_1, main_v15, main_v16, main_v17, main_v18, main_v19,
    main_v20, main_call0_cst, main_call0_v0, main_v21, main_v22, main_v23, main_cst_2, main_v24,
    main_v25, main_v26, main_v27, main_v28, main_v29, main_v30, main_v31, main_v32,
    main_cst_3, main_v33, main_v34, main_v35, main_v36, main_c_4, main_v37, main_v38,
    main_c_5, main_v39, main_v40, main_v41, main_v42, main_v43, main_call1_cst, main_call1_v0,
    main_v44, main_v45, main_v46, main_cst_6, main_v47, main_v48, main_v49, main_v50 ]

set_option maxRecDepth 8192 in
theorem opsA_writes : WritesAt (opsA : List (HloOp τ sig (Elt F))) opsA_W :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl .nil)))))))))))))))))))))))))))))))))))))))))))))))))))))))))))))))

/-- Every operation determines the contents of the buffer it writes. -/
theorem opsA_fresh : (opsA : List (HloOp τ sig (Elt F))).Forall fun op => op.fresh = ∅ :=
  ⟨
    rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl⟩

end Cert.ReferenceIdeal.Hand

end
-- ==== Proof.Ref.OpsB.lean ====
/-
  The reference program's operations 65 … 128 of 274, in order: the statements of its window `main_part1`, the
  operations of a called function listed at the call over the call's own buffers (a call executes the callee's
  body on the operands).  The window is that straight line; every operation touches device buffers only and
  writes exactly the one buffer listed at its place.
-/
import proofs.«164503_j82721070121701_1_alg».proof.Proof.Gen.ReferenceIdeal
import proofs.«164503_j82721070121701_1_alg».proof.Proof.Ref.Step

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The window's 64 operations, in order. -/
abbrev opsB : List (HloOp τ sig (Elt F)) :=
  [
    StableHlo.unary main_v50 main_v51 (broadcastInDim S100000x128 ![0, 1] bcast_S1x128_S100000x128_0_1 : (⟨S1x128, .f32⟩ : BufTy).Contents (Elt F) → (⟨S100000x128, .f32⟩ : BufTy).Contents (Elt F)),
    StableHlo.binary main_v51 main_v49 main_v52 (mulf : (⟨S100000x128, .f32⟩ : BufTy).Contents (Elt F) → (⟨S100000x128, .f32⟩ : BufTy).Contents (Elt F) → (⟨S100000x128, .f32⟩ : BufTy).Contents (Elt F)),
    StableHlo.binary main_v30 main_v52 main_v53 (addf : (⟨S100000x128, .f32⟩ : BufTy).Contents (Elt F) → (⟨S100000x128, .f32⟩ : BufTy).Contents (Elt F) → (⟨S100000x128, .f32⟩ : BufTy).Contents (Elt F)),
    StableHlo.unary main_arg19 main_v54 ((extractStridedSlice S1x128 ![3, 0] · slices_S5x128_S1x128_3_0) : (⟨S5x128, .f32⟩ : BufTy).Contents (Elt F) → (⟨S1x128, .f32⟩ : BufTy).Contents (Elt F)),
    StableHlo.reshape main_v54 main_v55 rfl shapeCasts_S1x128_S128,
    StableHlo.nullary main_cst_7 (constant S_ .f32 0x3F800000#32),
    StableHlo.unary main_cst_7 main_v56 (broadcastInDim S128 ![] bcast_S_S128 : (⟨S_, .f32⟩ : BufTy).Contents (Elt F) → (⟨S128, .f32⟩ : BufTy).Contents (Elt F)),
    StableHlo.binary main_v56 main_v55 main_v57 (addf : (⟨S128, .f32⟩ : BufTy).Contents (Elt F) → (⟨S128, .f32⟩ : BufTy).Contents (Elt F) → (⟨S128, .f32⟩ : BufTy).Contents (Elt F)),
    StableHlo.unary main_arg7 main_v58 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v58 main_v59 rfl shapeCasts_S1x800000_S800000,
    StableHlo.nullary main_c_8 (constantI S_ 32 0#32),
    StableHlo.unary main_c_8 main_v60 (broadcastInDim S800000 ![] bcast_S_S800000 : (⟨S_, .i32⟩ : BufTy).Contents (Elt F) → (⟨S800000, .i32⟩ : BufTy).Contents (Elt F)),
    StableHlo.binary main_v59 main_v60 main_v61 (cmpi .slt : (⟨S800000, .i32⟩ : BufTy).Contents (Elt F) → (⟨S800000, .i32⟩ : BufTy).Contents (Elt F) → (⟨S800000, .i1⟩ : BufTy).Contents (Elt F)),
    StableHlo.nullary main_c_9 (constantI S_ 32 100000#32),
    StableHlo.unary main_c_9 main_v62 (broadcastInDim S800000 ![] bcast_S_S800000 : (⟨S_, .i32⟩ : BufTy).Contents (Elt F) → (⟨S800000, .i32⟩ : BufTy).Contents (Elt F)),
    StableHlo.binary main_v59 main_v62 main_v63 (addi : (⟨S800000, .i32⟩ : BufTy).Contents (Elt F) → (⟨S800000, .i32⟩ : BufTy).Contents (Elt F) → (⟨S800000, .i32⟩ : BufTy).Contents (Elt F)),
    StableHlo.ternary main_v61 main_v63 main_v59 main_v64 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v64 main_v65 (broadcastInDim S800000x1 ![0] bcast_S800000_S800000x1_0 : (⟨S800000, .i32⟩ : BufTy).Contents (Elt F) → (⟨S800000x1, .i32⟩ : BufTy).Contents (Elt F)),
    StableHlo.binary main_arg2 main_v65 main_v66 ((fun x i => Host.gather gather_S100000x128_S800000x1_S800000x128_1_0_n_n_0_1_1128 x i) : (⟨S100000x128, .f32⟩ : BufTy).Contents (Elt F) → (⟨S800000x1, .i32⟩ : BufTy).Contents (Elt F) → (⟨S800000x128, .f32⟩ : BufTy).Contents (Elt F)),
    StableHlo.TRef.nullary main_call2.cst (constant S_ .f32 0x00000000#32),
    StableHlo.TRef.unary main_call2.cst main_call2.v0 (broadcastInDim S800000x128 ![] bcast_S_S800000x128),
    StableHlo.TRef.binary (StableHlo.TRef.of main_v66 : StableHlo.TRef sig ⟨S800000x128, .f32⟩) main_call2.v0 main_call2.v1 maximumf,
    StableHlo.unary main_arg7 main_v68 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v68 main_v69 rfl shapeCasts_S1x800000_S800000,
    StableHlo.nullary main_cst_10 (constant S_ .f32 0x00000000#32),
    StableHlo.unary main_cst_10 main_v70 (broadcastInDim S100000x128 ![] bcast_S_S100000x128 : (⟨S_, .f32⟩ : BufTy).Contents (Elt F) → (⟨S100000x128, .f32⟩ : BufTy).Contents (Elt F)),
    StableHlo.unary main_v69 main_v71 (broadcastInDim S800000x1 ![0] bcast_S800000_S800000x1_0 : (⟨S800000, .i32⟩ : BufTy).Contents (Elt F) → (⟨S800000x1, .i32⟩ : BufTy).Contents (Elt F)),
    StableHlo.ternary main_v70 main_v71 main_v67 main_v72 ((fun x i u => Host.scatterAdd scatter_S100000x128_S800000x1_S800000x128_1_0_0_1 x i u) : (⟨S100000x128, .f32⟩ : BufTy).Contents (Elt F) → (⟨S800000x1, .i32⟩ : BufTy).Contents (Elt F) → (⟨S800000x128, .f32⟩ : BufTy).Contents (Elt F) → (⟨S100000x128, .f32⟩ : BufTy).Contents (Elt F)),
    StableHlo.unary main_v57 main_v73 (broadcastInDim S1x128 ![1] bcast_S128_S1x128_1 : (⟨S128, .f32⟩ : BufTy).Contents (Elt F) → (⟨S1x128, .f32⟩ : BufTy).Contents (Elt F)),
    StableHlo.unary main_v73 main_v74 (broadcastInDim S100000x128 ![0, 1] bcast_S1x128_S100000x128_0_1 : (⟨S1x128, .f32⟩ : BufTy).Contents (Elt F) → (⟨S100000x128, .f32⟩ : BufTy).Contents (Elt F)),
    StableHlo.binary main_v74 main_v72 main_v75 (mulf : (⟨S100000x128, .f32⟩ : BufTy).Contents (Elt F) → (⟨S100000x128, .f32⟩ : BufTy).Contents (Elt F) → (⟨S100000x128, .f32⟩ : BufTy).Contents (Elt F)),
    StableHlo.binary main_v53 main_v75 main_v76 (addf : (⟨S100000x128, .f32⟩ : BufTy).Contents (Elt F) → (⟨S100000x128, .f32⟩ : BufTy).Contents (Elt F) → (⟨S100000x128, .f32⟩ : BufTy).Contents (Elt F)),
    StableHlo.unary main_arg19 main_v77 ((extractStridedSlice S1x128 ![4, 0] · slices_S5x128_S1x128_4_0) : (⟨S5x128, .f32⟩ : BufTy).Contents (Elt F) → (⟨S1x128, .f32⟩ : BufTy).Contents (Elt F)),
    StableHlo.reshape main_v77 main_v78 rfl shapeCasts_S1x128_S128,
    StableHlo.nullary main_cst_11 (constant S_ .f32 0x3F800000#32),
    StableHlo.unary main_cst_11 main_v79 (broadcastInDim S128 ![] bcast_S_S128 : (⟨S_, .f32⟩ : BufTy).Contents (Elt F) → (⟨S128, .f32⟩ : BufTy).Contents (Elt F)),
    StableHlo.binary main_v79 main_v78 main_v80 (addf : (⟨S128, .f32⟩ : BufTy).Contents (Elt F) → (⟨S128, .f32⟩ : BufTy).Contents (Elt F) → (⟨S128, .f32⟩ : BufTy).Contents (Elt F)),
    StableHlo.unary main_arg8 main_v81 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v81 main_v82 rfl shapeCasts_S1x800000_S800000,
    StableHlo.nullary main_c_12 (constantI S_ 32 0#32),
    StableHlo.unary main_c_12 main_v83 (broadcastInDim S800000 ![] bcast_S_S800000 : (⟨S_, .i32⟩ : BufTy).Contents (Elt F) → (⟨S800000, .i32⟩ : BufTy).Contents (Elt F)),
    StableHlo.binary main_v82 main_v83 main_v84 (cmpi .slt : (⟨S800000, .i32⟩ : BufTy).Contents (Elt F) → (⟨S800000, .i32⟩ : BufTy).Contents (Elt F) → (⟨S800000, .i1⟩ : BufTy).Contents (Elt F)),
    StableHlo.nullary main_c_13 (constantI S_ 32 100000#32),
    StableHlo.unary main_c_13 main_v85 (broadcastInDim S800000 ![] bcast_S_S800000 : (⟨S_, .i32⟩ : BufTy).Contents (Elt F) → (⟨S800000, .i32⟩ : BufTy).Contents (Elt F)),
    StableHlo.binary main_v82 main_v85 main_v86 (addi : (⟨S800000, .i32⟩ : BufTy).Contents (Elt F) → (⟨S800000, .i32⟩ : BufTy).Contents (Elt F) → (⟨S800000, .i32⟩ : BufTy).Contents (Elt F)),
    StableHlo.ternary main_v84 main_v86 main_v82 main_v87 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v87 main_v88 (broadcastInDim S800000x1 ![0] bcast_S800000_S800000x1_0 : (⟨S800000, .i32⟩ : BufTy).Contents (Elt F) → (⟨S800000x1, .i32⟩ : BufTy).Contents (Elt F)),
    StableHlo.binary main_arg3 main_v88 main_v89 ((fun x i => Host.gather gather_S100000x128_S800000x1_S800000x128_1_0_n_n_0_1_1128 x i) : (⟨S100000x128, .f32⟩ : BufTy).Contents (Elt F) → (⟨S800000x1, .i32⟩ : BufTy).Contents (Elt F) → (⟨S800000x128, .f32⟩ : BufTy).Contents (Elt F)),
    StableHlo.TRef.nullary main_call3.cst (constant S_ .f32 0x00000000#32),
    StableHlo.TRef.unary main_call3.cst main_call3.v0 (broadcastInDim S800000x128 ![] bcast_S_S800000x128),
    StableHlo.TRef.binary (StableHlo.TRef.of main_v89 : StableHlo.TRef sig ⟨S800000x128, .f32⟩) main_call3.v0 main_call3.v1 maximumf,
    StableHlo.unary main_arg8 main_v91 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v91 main_v92 rfl shapeCasts_S1x800000_S800000,
    StableHlo.nullary main_cst_14 (constant S_ .f32 0x00000000#32),
    StableHlo.unary main_cst_14 main_v93 (broadcastInDim S100000x128 ![] bcast_S_S100000x128 : (⟨S_, .f32⟩ : BufTy).Contents (Elt F) → (⟨S100000x128, .f32⟩ : BufTy).Contents (Elt F)),
    StableHlo.unary main_v92 main_v94 (broadcastInDim S800000x1 ![0] bcast_S800000_S800000x1_0 : (⟨S800000, .i32⟩ : BufTy).Contents (Elt F) → (⟨S800000x1, .i32⟩ : BufTy).Contents (Elt F)),
    StableHlo.ternary main_v93 main_v94 main_v90 main_v95 ((fun x i u => Host.scatterAdd scatter_S100000x128_S800000x1_S800000x128_1_0_0_1 x i u) : (⟨S100000x128, .f32⟩ : BufTy).Contents (Elt F) → (⟨S800000x1, .i32⟩ : BufTy).Contents (Elt F) → (⟨S800000x128, .f32⟩ : BufTy).Contents (Elt F) → (⟨S100000x128, .f32⟩ : BufTy).Contents (Elt F)),
    StableHlo.unary main_v80 main_v96 (broadcastInDim S1x128 ![1] bcast_S128_S1x128_1 : (⟨S128, .f32⟩ : BufTy).Contents (Elt F) → (⟨S1x128, .f32⟩ : BufTy).Contents (Elt F)),
    StableHlo.unary main_v96 main_v97 (broadcastInDim S100000x128 ![0, 1] bcast_S1x128_S100000x128_0_1 : (⟨S1x128, .f32⟩ : BufTy).Contents (Elt F) → (⟨S100000x128, .f32⟩ : BufTy).Contents (Elt F)),
    StableHlo.binary main_v97 main_v95 main_v98 (mulf : (⟨S100000x128, .f32⟩ : BufTy).Contents (Elt F) → (⟨S100000x128, .f32⟩ : BufTy).Contents (Elt F) → (⟨S100000x128, .f32⟩ : BufTy).Contents (Elt F)),
    StableHlo.binary main_v76 main_v98 main_v99 (addf : (⟨S100000x128, .f32⟩ : BufTy).Contents (Elt F) → (⟨S100000x128, .f32⟩ : BufTy).Contents (Elt F) → (⟨S100000x128, .f32⟩ : BufTy).Contents (Elt F)),
    StableHlo.binary main_v99 main_arg9 main_v100 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F)),
    StableHlo.unary main_arg10 main_v101 (broadcastInDim S1x256 ![1] bcast_S256_S1x256_1 : (⟨S256, .f32⟩ : BufTy).Contents (Elt F) → (⟨S1x256, .f32⟩ : BufTy).Contents (Elt F)),
    StableHlo.unary main_v101 main_v102 (broadcastInDim S100000x256 ![0, 1] bcast_S1x256_S100000x256_0_1 : (⟨S1x256, .f32⟩ : BufTy).Contents (Elt F) → (⟨S100000x256, .f32⟩ : BufTy).Contents (Elt F)) ]

set_option maxRecDepth 8192 in
set_option maxHeartbeats 4000000 in
/-- The window is that straight line: the called functions' definitions unfolded at their calls, both sides are one
    chain of operations once sequencing is reassociated. -/
theorem partB_eq (c : Dev nD) : main_part1 (F := F) c = seq opsB := by
  simp only [main_part1, fn_relu.body, fn_where.body, fn_var.body, fn_relu_0.body, fn_where_2.body, fn_var_1.body, fn_relu_3.body, seq, bind_assoc, pure_bind]
  rfl

theorem opsB_sub : (opsB : List (HloOp τ sig (Elt F))).Forall fun op => op.bufs ⊆ tcRefs τ sig :=
  ⟨
    unary_bufs_sub .., binary_bufs_sub .., binary_bufs_sub .., unary_bufs_sub .., reshape_bufs_sub .., nullary_bufs_sub ..,
    unary_bufs_sub .., binary_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., binary_bufs_sub .., unary_bufs_sub .., reshape_bufs_sub ..,
    nullary_bufs_sub .., unary_bufs_sub .., unary_bufs_sub .., ternary_bufs_sub .., unary_bufs_sub .., unary_bufs_sub ..,
    binary_bufs_sub .., binary_bufs_sub .., unary_bufs_sub .., reshape_bufs_sub .., nullary_bufs_sub .., unary_bufs_sub ..,
    binary_bufs_sub .., unary_bufs_sub .., reshape_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., binary_bufs_sub .., unary_bufs_sub .., reshape_bufs_sub .., nullary_bufs_sub ..,
    unary_bufs_sub .., unary_bufs_sub .., ternary_bufs_sub .., unary_bufs_sub .., unary_bufs_sub .., binary_bufs_sub ..,
    binary_bufs_sub .., binary_bufs_sub .., unary_bufs_sub .., unary_bufs_sub ..⟩

/-- The buffers the window's operations write, in order. -/
abbrev opsB_W : List (Ref sig .tc) :=
  [
    main_v51, main_v52, main_v53, main_v54, main_v55, main_cst_7, main_v56, main_v57,
    main_v58, main_v59, main_c_8, main_v60, main_v61, main_c_9, main_v62, main_v63,
    main_v64, main_v65, main_v66, main_call2_cst, main_call2_v0, main_v67, main_v68, main_v69,
    main_cst_10, main_v70, main_v71, main_v72, main_v73, main_v74, main_v75, main_v76,
    main_v77, main_v78, main_cst_11, main_v79, main_v80, main_v81, main_v82, main_c_12,
    main_v83, main_v84, main_c_13, main_v85, main_v86, main_v87, main_v88, main_v89,
    main_call3_cst, main_call3_v0, main_v90, main_v91, main_v92, main_cst_14, main_v93, main_v94,
    main_v95, main_v96, main_v97, main_v98, main_v99, main_v100, main_v101, main_v102 ]

set_option maxRecDepth 8192 in
theorem opsB_writes : WritesAt (opsB : List (HloOp τ sig (Elt F))) opsB_W :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl .nil)))))))))))))))))))))))))))))))))))))))))))))))))))))))))))))))

/-- Every operation determines the contents of the buffer it writes. -/
theorem opsB_fresh : (opsB : List (HloOp τ sig (Elt F))).Forall fun op => op.fresh = ∅ :=
  ⟨
    rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl⟩

end Cert.ReferenceIdeal.Hand

end
-- ==== Proof.Ref.OpsC.lean ====
/-
  The reference program's operations 129 … 255 of 274, in order: the statements of its window `main_part2`, the
  operations of a called function listed at the call over the call's own buffers (a call executes the callee's
  body on the operands).  The window is that straight line; every operation touches device buffers only and
  writes exactly the one buffer listed at its place.
-/
import proofs.«164503_j82721070121701_1_alg».proof.Proof.Gen.ReferenceIdeal
import proofs.«164503_j82721070121701_1_alg».proof.Proof.Ref.Step

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The window's 127 operations, in order. -/
abbrev opsC : List (HloOp τ sig (Elt F)) :=
  [
    StableHlo.binary main_v100 main_v102 main_v103 (addf : (⟨S100000x256, .f32⟩ : BufTy).Contents (Elt F) → (⟨S100000x256, .f32⟩ : BufTy).Contents (Elt F) → (⟨S100000x256, .f32⟩ : BufTy).Contents (Elt F)),
    StableHlo.nullary main_cst_15 (constant S_ .f32 0x00000000#32),
    StableHlo.binary main_v103 main_cst_15 main_v104 ((fun x v => Host.reduceAdd x v reducesTo_S100000x256_S256_d0 h_S_) : (⟨S100000x256, .f32⟩ : BufTy).Contents (Elt F) → (⟨S_, .f32⟩ : BufTy).Contents (Elt F) → (⟨S256, .f32⟩ : BufTy).Contents (Elt F)),
    StableHlo.nullary main_cst_16 (constant S_ .f32 0x47C35000#32),
    StableHlo.unary main_cst_16 main_v105 (broadcastInDim S256 ![] bcast_S_S256 : (⟨S_, .f32⟩ : BufTy).Contents (Elt F) → (⟨S256, .f32⟩ : BufTy).Contents (Elt F)),
    StableHlo.binary main_v104 main_v105 main_v106 (Host.divf : (⟨S256, .f32⟩ : BufTy).Contents (Elt F) → (⟨S256, .f32⟩ : BufTy).Contents (Elt F) → (⟨S256, .f32⟩ : BufTy).Contents (Elt F)),
    StableHlo.nullary main_c_17 (constantI S_ 32 0#32),
    StableHlo.TRef.nullary main_call4.cst (constant S_ .f32 0x00000000#32),
    StableHlo.TRef.binary (StableHlo.TRef.of main_v103 : StableHlo.TRef sig ⟨S100000x256, .f32⟩) main_call4.cst main_call4.v0 (fun x v => Host.reduceAdd x v reducesTo_S100000x256_S256_d0 h_S_),
    StableHlo.TRef.unary main_call4.v0 main_call4.v1 (broadcastInDim S1x256 ![1] bcast_S256_S1x256_1),
    StableHlo.TRef.nullary main_call4.cst_0 (constant S_ .f32 0x47C35000#32),
    StableHlo.TRef.unary main_call4.cst_0 main_call4.v2 (broadcastInDim S1x256 ![] bcast_S_S1x256),
    StableHlo.TRef.binary main_call4.v1 main_call4.v2 main_call4.v3 Host.divf,
    StableHlo.TRef.unary main_call4.v3 main_call4.v4 (broadcastInDim S100000x256 ![0, 1] bcast_S1x256_S100000x256_0_1),
    StableHlo.TRef.binary (StableHlo.TRef.of main_v103 : StableHlo.TRef sig ⟨S100000x256, .f32⟩) main_call4.v4 main_call4.v5 subf,
    StableHlo.TRef.binary main_call4.v5 main_call4.v5 main_call4.v6 mulf,
    StableHlo.TRef.unary (StableHlo.TRef.of main_c_17 : StableHlo.TRef sig ⟨S_, .i32⟩) main_call4.v7 (sitofp .f32),
    StableHlo.TRef.nullary main_call4.cst_1 (constant S_ .f32 0x47C35000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S100000x256_S256_d0 h_S_),
    StableHlo.TRef.unary main_call4.v8 main_call4.v10 (broadcastInDim S256 ![] bcast_S_S256),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S256 ![] bcast_S_S256),
    StableHlo.TRef.ternary main_call4.v12 main_call4.v11 main_call4.call0.v1 main_call4.call0.v2 (fun p a b => select (broadcastInDim S256 ![] bcast_S_S256 p) a b),
    StableHlo.unary main_v106 main_v108 (broadcastInDim S1x256 ![1] bcast_S256_S1x256_1 : (⟨S256, .f32⟩ : BufTy).Contents (Elt F) → (⟨S1x256, .f32⟩ : BufTy).Contents (Elt F)),
    StableHlo.unary main_v108 main_v109 (broadcastInDim S100000x256 ![0, 1] bcast_S1x256_S100000x256_0_1 : (⟨S1x256, .f32⟩ : BufTy).Contents (Elt F) → (⟨S100000x256, .f32⟩ : BufTy).Contents (Elt F)),
    StableHlo.binary main_v103 main_v109 main_v110 (subf : (⟨S100000x256, .f32⟩ : BufTy).Contents (Elt F) → (⟨S100000x256, .f32⟩ : BufTy).Contents (Elt F) → (⟨S100000x256, .f32⟩ : BufTy).Contents (Elt F)),
    StableHlo.unary main_arg11 main_v111 (broadcastInDim S1x256 ![1] bcast_S256_S1x256_1 : (⟨S256, .f32⟩ : BufTy).Contents (Elt F) → (⟨S1x256, .f32⟩ : BufTy).Contents (Elt F)),
    StableHlo.unary main_v111 main_v112 (broadcastInDim S100000x256 ![0, 1] bcast_S1x256_S100000x256_0_1 : (⟨S1x256, .f32⟩ : BufTy).Contents (Elt F) → (⟨S100000x256, .f32⟩ : BufTy).Contents (Elt F)),
    StableHlo.binary main_v112 main_v110 main_v113 (mulf : (⟨S100000x256, .f32⟩ : BufTy).Contents (Elt F) → (⟨S100000x256, .f32⟩ : BufTy).Contents (Elt F) → (⟨S100000x256, .f32⟩ : BufTy).Contents (Elt F)),
    StableHlo.nullary main_cst_18 (constant S_ .f32 0x3727C5AC#32),
    StableHlo.unary main_cst_18 main_v114 (broadcastInDim S256 ![] bcast_S_S256 : (⟨S_, .f32⟩ : BufTy).Contents (Elt F) → (⟨S256, .f32⟩ : BufTy).Contents (Elt F)),
    StableHlo.binary main_v107 main_v114 main_v115 (addf : (⟨S256, .f32⟩ : BufTy).Contents (Elt F) → (⟨S256, .f32⟩ : BufTy).Contents (Elt F) → (⟨S256, .f32⟩ : BufTy).Contents (Elt F)),
    StableHlo.unary main_v115 main_v116 (Host.rsqrt : (⟨S256, .f32⟩ : BufTy).Contents (Elt F) → (⟨S256, .f32⟩ : BufTy).Contents (Elt F)),
    StableHlo.unary main_v116 main_v117 (broadcastInDim S1x256 ![1] bcast_S256_S1x256_1 : (⟨S256, .f32⟩ : BufTy).Contents (Elt F) → (⟨S1x256, .f32⟩ : BufTy).Contents (Elt F)),
    StableHlo.unary main_v117 main_v118 (broadcastInDim S100000x256 ![0, 1] bcast_S1x256_S100000x256_0_1 : (⟨S1x256, .f32⟩ : BufTy).Contents (Elt F) → (⟨S100000x256, .f32⟩ : BufTy).Contents (Elt F)),
    StableHlo.binary main_v113 main_v118 main_v119 (mulf : (⟨S100000x256, .f32⟩ : BufTy).Contents (Elt F) → (⟨S100000x256, .f32⟩ : BufTy).Contents (Elt F) → (⟨S100000x256, .f32⟩ : BufTy).Contents (Elt F)),
    StableHlo.unary main_arg12 main_v120 (broadcastInDim S1x256 ![1] bcast_S256_S1x256_1 : (⟨S256, .f32⟩ : BufTy).Contents (Elt F) → (⟨S1x256, .f32⟩ : BufTy).Contents (Elt F)),
    StableHlo.unary main_v120 main_v121 (broadcastInDim S100000x256 ![0, 1] bcast_S1x256_S100000x256_0_1 : (⟨S1x256, .f32⟩ : BufTy).Contents (Elt F) → (⟨S100000x256, .f32⟩ : BufTy).Contents (Elt F)),
    StableHlo.binary main_v119 main_v121 main_v122 (addf : (⟨S100000x256, .f32⟩ : BufTy).Contents (Elt F) → (⟨S100000x256, .f32⟩ : BufTy).Contents (Elt F) → (⟨S100000x256, .f32⟩ : BufTy).Contents (Elt F)),
    StableHlo.TRef.nullary main_call5.cst (constant S_ .f32 0x00000000#32),
    StableHlo.TRef.unary main_call5.cst main_call5.v0 (broadcastInDim S100000x256 ![] bcast_S_S100000x256),
    StableHlo.TRef.binary (StableHlo.TRef.of main_v122 : StableHlo.TRef sig ⟨S100000x256, .f32⟩) main_call5.v0 main_call5.v1 maximumf,
    StableHlo.binary main_v123 main_arg13 main_v124 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    StableHlo.unary main_arg14 main_v125 (broadcastInDim S1x128 ![1] bcast_S128_S1x128_1 : (⟨S128, .f32⟩ : BufTy).Contents (Elt F) → (⟨S1x128, .f32⟩ : BufTy).Contents (Elt F)),
    StableHlo.unary main_v125 main_v126 (broadcastInDim S100000x128 ![0, 1] bcast_S1x128_S100000x128_0_1 : (⟨S1x128, .f32⟩ : BufTy).Contents (Elt F) → (⟨S100000x128, .f32⟩ : BufTy).Contents (Elt F)),
    StableHlo.binary main_v124 main_v126 main_v127 (addf : (⟨S100000x128, .f32⟩ : BufTy).Contents (Elt F) → (⟨S100000x128, .f32⟩ : BufTy).Contents (Elt F) → (⟨S100000x128, .f32⟩ : BufTy).Contents (Elt F)),
    StableHlo.nullary main_cst_19 (constant S_ .f32 0x00000000#32),
    StableHlo.binary main_v127 main_cst_19 main_v128 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_20 (constant S_ .f32 0x47C35000#32),
    StableHlo.unary main_cst_20 main_v129 (broadcastInDim S128 ![] bcast_S_S128 : (⟨S_, .f32⟩ : BufTy).Contents (Elt F) → (⟨S128, .f32⟩ : BufTy).Contents (Elt F)),
    StableHlo.binary main_v128 main_v129 main_v130 (Host.divf : (⟨S128, .f32⟩ : BufTy).Contents (Elt F) → (⟨S128, .f32⟩ : BufTy).Contents (Elt F) → (⟨S128, .f32⟩ : BufTy).Contents (Elt F)),
    StableHlo.nullary main_c_21 (constantI S_ 32 0#32),
    StableHlo.TRef.nullary main_call6.cst (constant S_ .f32 0x00000000#32),
    StableHlo.TRef.binary (StableHlo.TRef.of main_v127 : StableHlo.TRef sig ⟨S100000x128, .f32⟩) main_call6.cst main_call6.v0 (fun x v => Host.reduceAdd x v reducesTo_S100000x128_S128_d0 h_S_),
    StableHlo.TRef.unary main_call6.v0 main_call6.v1 (broadcastInDim S1x128 ![1] bcast_S128_S1x128_1),
    StableHlo.TRef.nullary main_call6.cst_0 (constant S_ .f32 0x47C35000#32),
    StableHlo.TRef.unary main_call6.cst_0 main_call6.v2 (broadcastInDim S1x128 ![] bcast_S_S1x128),
    StableHlo.TRef.binary main_call6.v1 main_call6.v2 main_call6.v3 Host.divf,
    StableHlo.TRef.unary main_call6.v3 main_call6.v4 (broadcastInDim S100000x128 ![0, 1] bcast_S1x128_S100000x128_0_1),
    StableHlo.TRef.binary (StableHlo.TRef.of main_v127 : StableHlo.TRef sig ⟨S100000x128, .f32⟩) main_call6.v4 main_call6.v5 subf,
    StableHlo.TRef.binary main_call6.v5 main_call6.v5 main_call6.v6 mulf,
    StableHlo.TRef.unary (StableHlo.TRef.of main_c_21 : StableHlo.TRef sig ⟨S_, .i32⟩) main_call6.v7 (sitofp .f32),
    StableHlo.TRef.nullary main_call6.cst_1 (constant S_ .f32 0x47C35000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S100000x128_S128_d0 h_S_),
    StableHlo.TRef.unary main_call6.v8 main_call6.v10 (broadcastInDim S128 ![] bcast_S_S128),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S128 ![] bcast_S_S128),
    StableHlo.TRef.ternary main_call6.v12 main_call6.v11 main_call6.call0.v1 main_call6.call0.v2 (fun p a b => select (broadcastInDim S128 ![] bcast_S_S128 p) a b),
    StableHlo.unary main_v130 main_v132 (broadcastInDim S1x128 ![1] bcast_S128_S1x128_1 : (⟨S128, .f32⟩ : BufTy).Contents (Elt F) → (⟨S1x128, .f32⟩ : BufTy).Contents (Elt F)),
    StableHlo.unary main_v132 main_v133 (broadcastInDim S100000x128 ![0, 1] bcast_S1x128_S100000x128_0_1 : (⟨S1x128, .f32⟩ : BufTy).Contents (Elt F) → (⟨S100000x128, .f32⟩ : BufTy).Contents (Elt F)),
    StableHlo.binary main_v127 main_v133 main_v134 (subf : (⟨S100000x128, .f32⟩ : BufTy).Contents (Elt F) → (⟨S100000x128, .f32⟩ : BufTy).Contents (Elt F) → (⟨S100000x128, .f32⟩ : BufTy).Contents (Elt F)),
    StableHlo.unary main_arg15 main_v135 (broadcastInDim S1x128 ![1] bcast_S128_S1x128_1 : (⟨S128, .f32⟩ : BufTy).Contents (Elt F) → (⟨S1x128, .f32⟩ : BufTy).Contents (Elt F)),
    StableHlo.unary main_v135 main_v136 (broadcastInDim S100000x128 ![0, 1] bcast_S1x128_S100000x128_0_1 : (⟨S1x128, .f32⟩ : BufTy).Contents (Elt F) → (⟨S100000x128, .f32⟩ : BufTy).Contents (Elt F)),
    StableHlo.binary main_v136 main_v134 main_v137 (mulf : (⟨S100000x128, .f32⟩ : BufTy).Contents (Elt F) → (⟨S100000x128, .f32⟩ : BufTy).Contents (Elt F) → (⟨S100000x128, .f32⟩ : BufTy).Contents (Elt F)),
    StableHlo.nullary main_cst_22 (constant S_ .f32 0x3727C5AC#32),
    StableHlo.unary main_cst_22 main_v138 (broadcastInDim S128 ![] bcast_S_S128 : (⟨S_, .f32⟩ : BufTy).Contents (Elt F) → (⟨S128, .f32⟩ : BufTy).Contents (Elt F)),
    StableHlo.binary main_v131 main_v138 main_v139 (addf : (⟨S128, .f32⟩ : BufTy).Contents (Elt F) → (⟨S128, .f32⟩ : BufTy).Contents (Elt F) → (⟨S128, .f32⟩ : BufTy).Contents (Elt F)),
    StableHlo.unary main_v139 main_v140 (Host.rsqrt : (⟨S128, .f32⟩ : BufTy).Contents (Elt F) → (⟨S128, .f32⟩ : BufTy).Contents (Elt F)),
    StableHlo.unary main_v140 main_v141 (broadcastInDim S1x128 ![1] bcast_S128_S1x128_1 : (⟨S128, .f32⟩ : BufTy).Contents (Elt F) → (⟨S1x128, .f32⟩ : BufTy).Contents (Elt F)),
    StableHlo.unary main_v141 main_v142 (broadcastInDim S100000x128 ![0, 1] bcast_S1x128_S100000x128_0_1 : (⟨S1x128, .f32⟩ : BufTy).Contents (Elt F) → (⟨S100000x128, .f32⟩ : BufTy).Contents (Elt F)),
    StableHlo.binary main_v137 main_v142 main_v143 (mulf : (⟨S100000x128, .f32⟩ : BufTy).Contents (Elt F) → (⟨S100000x128, .f32⟩ : BufTy).Contents (Elt F) → (⟨S100000x128, .f32⟩ : BufTy).Contents (Elt F)),
    StableHlo.unary main_arg16 main_v144 (broadcastInDim S1x128 ![1] bcast_S128_S1x128_1 : (⟨S128, .f32⟩ : BufTy).Contents (Elt F) → (⟨S1x128, .f32⟩ : BufTy).Contents (Elt F)),
    StableHlo.unary main_v144 main_v145 (broadcastInDim S100000x128 ![0, 1] bcast_S1x128_S100000x128_0_1 : (⟨S1x128, .f32⟩ : BufTy).Contents (Elt F) → (⟨S100000x128, .f32⟩ : BufTy).Contents (Elt F)),
    StableHlo.binary main_v143 main_v145 main_v146 (addf : (⟨S100000x128, .f32⟩ : BufTy).Contents (Elt F) → (⟨S100000x128, .f32⟩ : BufTy).Contents (Elt F) → (⟨S100000x128, .f32⟩ : BufTy).Contents (Elt F)),
    StableHlo.TRef.nullary main_call7.cst (constant S_ .f32 0x00000000#32),
    StableHlo.TRef.unary main_call7.cst main_call7.v0 (broadcastInDim S100000x128 ![] bcast_S_S100000x128),
    StableHlo.TRef.binary (StableHlo.TRef.of main_v146 : StableHlo.TRef sig ⟨S100000x128, .f32⟩) main_call7.v0 main_call7.v1 maximumf,
    StableHlo.nullary main_cst_23 (constant S_ .f32 0x00000000#32),
    StableHlo.binary main_v147 main_cst_23 main_v148 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_24 (constant S_ .f32 0x47C35000#32),
    StableHlo.unary main_cst_24 main_v149 (broadcastInDim S128 ![] bcast_S_S128 : (⟨S_, .f32⟩ : BufTy).Contents (Elt F) → (⟨S128, .f32⟩ : BufTy).Contents (Elt F)),
    StableHlo.binary main_v148 main_v149 main_v150 (Host.divf : (⟨S128, .f32⟩ : BufTy).Contents (Elt F) → (⟨S128, .f32⟩ : BufTy).Contents (Elt F) → (⟨S128, .f32⟩ : BufTy).Contents (Elt F)),
    StableHlo.nullary main_c_25 (constantI S_ 32 0#32),
    StableHlo.TRef.nullary main_call8.cst (constant S_ .f32 0x00000000#32),
    StableHlo.TRef.binary (StableHlo.TRef.of main_v147 : StableHlo.TRef sig ⟨S100000x128, .f32⟩) main_call8.cst main_call8.v0 (fun x v => Host.reduceAdd x v reducesTo_S100000x128_S128_d0 h_S_),
    StableHlo.TRef.unary main_call8.v0 main_call8.v1 (broadcastInDim S1x128 ![1] bcast_S128_S1x128_1),
    StableHlo.TRef.nullary main_call8.cst_0 (constant S_ .f32 0x47C35000#32),
    StableHlo.TRef.unary main_call8.cst_0 main_call8.v2 (broadcastInDim S1x128 ![] bcast_S_S1x128),
    StableHlo.TRef.binary main_call8.v1 main_call8.v2 main_call8.v3 Host.divf,
    StableHlo.TRef.unary main_call8.v3 main_call8.v4 (broadcastInDim S100000x128 ![0, 1] bcast_S1x128_S100000x128_0_1),
    StableHlo.TRef.binary (StableHlo.TRef.of main_v147 : StableHlo.TRef sig ⟨S100000x128, .f32⟩) main_call8.v4 main_call8.v5 subf,
    StableHlo.TRef.binary main_call8.v5 main_call8.v5 main_call8.v6 mulf,
    StableHlo.TRef.unary (StableHlo.TRef.of main_c_25 : StableHlo.TRef sig ⟨S_, .i32⟩) main_call8.v7 (sitofp .f32),
    StableHlo.TRef.nullary main_call8.cst_1 (constant S_ .f32 0x47C35000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S100000x128_S128_d0 h_S_),
    StableHlo.TRef.unary main_call8.v8 main_call8.v10 (broadcastInDim S128 ![] bcast_S_S128),
    StableHlo.TRef.binary main_call8.v9 main_call8.v10 main_call8.v11 Host.divf,
    StableHlo.TRef.nullary main_call8.cst_3 (constant S_ .f32 0x00000000#32),
    StableHlo.TRef.binary main_call8.v8 main_call8.cst_3 main_call8.v12 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S128 ![] bcast_S_S128),
    StableHlo.TRef.ternary main_call8.v12 main_call8.v11 main_call8.call0.v1 main_call8.call0.v2 (fun p a b => select (broadcastInDim S128 ![] bcast_S_S128 p) a b) ]

set_option maxRecDepth 8192 in
set_option maxHeartbeats 4000000 in
/-- The window is that straight line: the called functions' definitions unfolded at their calls, both sides are one
    chain of operations once sequencing is reassociated. -/
theorem partC_eq (c : Dev nD) : main_part2 (F := F) c = seq opsC := by
  simp only [main_part2, fn_relu.body, fn_where.body, fn_var.body, fn_relu_0.body, fn_where_2.body, fn_var_1.body, fn_relu_3.body, seq, bind_assoc, pure_bind]

theorem opsC_sub : (opsC : List (HloOp τ sig (Elt F))).Forall fun op => op.bufs ⊆ tcRefs τ sig :=
  ⟨
    binary_bufs_sub .., nullary_bufs_sub .., binary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub .., unary_bufs_sub ..,
    unary_bufs_sub .., binary_bufs_sub .., unary_bufs_sub .., unary_bufs_sub .., binary_bufs_sub .., nullary_bufs_sub ..,
    unary_bufs_sub .., binary_bufs_sub .., unary_bufs_sub .., unary_bufs_sub .., unary_bufs_sub .., binary_bufs_sub ..,
    unary_bufs_sub .., unary_bufs_sub .., binary_bufs_sub .., nullary_bufs_sub .., unary_bufs_sub .., binary_bufs_sub ..,
    binary_bufs_sub .., unary_bufs_sub .., unary_bufs_sub .., binary_bufs_sub .., nullary_bufs_sub .., binary_bufs_sub ..,
    nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., binary_bufs_sub .., nullary_bufs_sub .., binary_bufs_sub .., nullary_bufs_sub .., unary_bufs_sub ..,
    unary_bufs_sub .., ternary_bufs_sub .., unary_bufs_sub .., unary_bufs_sub .., binary_bufs_sub .., unary_bufs_sub ..,
    unary_bufs_sub .., binary_bufs_sub .., nullary_bufs_sub .., unary_bufs_sub .., binary_bufs_sub .., unary_bufs_sub ..,
    unary_bufs_sub .., unary_bufs_sub .., binary_bufs_sub .., unary_bufs_sub .., unary_bufs_sub .., binary_bufs_sub ..,
    nullary_bufs_sub .., unary_bufs_sub .., binary_bufs_sub .., nullary_bufs_sub .., binary_bufs_sub .., nullary_bufs_sub ..,
    unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    binary_bufs_sub .., nullary_bufs_sub .., binary_bufs_sub .., nullary_bufs_sub .., unary_bufs_sub .., unary_bufs_sub ..,
    ternary_bufs_sub ..⟩

/-- The buffers the window's operations write, in order. -/
abbrev opsC_W : List (Ref sig .tc) :=
  [
    main_v103, main_cst_15, main_v104, main_cst_16, main_v105, main_v106, main_c_17, main_call4_cst,
    main_call4_v0, main_call4_v1, main_call4_cst_0, main_call4_v2, main_call4_v3, main_call4_v4, main_call4_v5, main_call4_v6,
    main_call4_v7, main_call4_cst_1, main_call4_v8, main_call4_cst_2, main_call4_v9, main_call4_v10, main_call4_v11, main_call4_cst_3,
    main_call4_v12, main_call4_cst_4, main_call4_call0_v0, main_call4_call0_v1, main_v107, main_v108, main_v109, main_v110,
    main_v111, main_v112, main_v113, main_cst_18, main_v114, main_v115, main_v116, main_v117,
    main_v118, main_v119, main_v120, main_v121, main_v122, main_call5_cst, main_call5_v0, main_v123,
    main_v124, main_v125, main_v126, main_v127, main_cst_19, main_v128, main_cst_20, main_v129,
    main_v130, main_c_21, main_call6_cst, main_call6_v0, main_call6_v1, main_call6_cst_0, main_call6_v2, main_call6_v3,
    main_call6_v4, main_call6_v5, main_call6_v6, main_call6_v7, main_call6_cst_1, main_call6_v8, main_call6_cst_2, main_call6_v9,
    main_call6_v10, main_call6_v11, main_call6_cst_3, main_call6_v12, main_call6_cst_4, main_call6_call0_v0, main_call6_call0_v1, main_v131,
    main_v132, main_v133, main_v134, main_v135, main_v136, main_v137, main_cst_22, main_v138,
    main_v139, main_v140, main_v141, main_v142, main_v143, main_v144, main_v145, main_v146,
    main_call7_cst, main_call7_v0, main_v147, main_cst_23, main_v148, main_cst_24, main_v149, main_v150,
    main_c_25, main_call8_cst, main_call8_v0, main_call8_v1, main_call8_cst_0, main_call8_v2, main_call8_v3, main_call8_v4,
    main_call8_v5, main_call8_v6, main_call8_v7, main_call8_cst_1, main_call8_v8, main_call8_cst_2, main_call8_v9, main_call8_v10,
    main_call8_v11, main_call8_cst_3, main_call8_v12, main_call8_cst_4, main_call8_call0_v0, main_call8_call0_v1, main_v151 ]

set_option maxRecDepth 8192 in
theorem opsC_writes : WritesAt (opsC : List (HloOp τ sig (Elt F))) opsC_W :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl .nil))))))))))))))))))))))))))))))))))))))))))))))))))))))))))))))))))))))))))))))))))))))))))))))))))))))))))))))))))))))))))))))

/-- Every operation determines the contents of the buffer it writes. -/
theorem opsC_fresh : (opsC : List (HloOp τ sig (Elt F))).Forall fun op => op.fresh = ∅ :=
  ⟨
    rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl⟩

end Cert.ReferenceIdeal.Hand

end
-- ==== Proof.Ref.OpsD.lean ====
/-
  The reference program's operations 256 … 274 of 274, in order: the statements of its window `main_part3`, the
  operations of a called function listed at the call over the call's own buffers (a call executes the callee's
  body on the operands).  The window is that straight line; every operation touches device buffers only and
  writes exactly the one buffer listed at its place.
-/
import proofs.«164503_j82721070121701_1_alg».proof.Proof.Gen.ReferenceIdeal
import proofs.«164503_j82721070121701_1_alg».proof.Proof.Ref.Step

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The window's 19 operations, in order. -/
abbrev opsD : List (HloOp τ sig (Elt F)) :=
  [
    StableHlo.unary main_v150 main_v152 (broadcastInDim S1x128 ![1] bcast_S128_S1x128_1 : (⟨S128, .f32⟩ : BufTy).Contents (Elt F) → (⟨S1x128, .f32⟩ : BufTy).Contents (Elt F)),
    StableHlo.unary main_v152 main_v153 (broadcastInDim S100000x128 ![0, 1] bcast_S1x128_S100000x128_0_1 : (⟨S1x128, .f32⟩ : BufTy).Contents (Elt F) → (⟨S100000x128, .f32⟩ : BufTy).Contents (Elt F)),
    StableHlo.binary main_v147 main_v153 main_v154 (subf : (⟨S100000x128, .f32⟩ : BufTy).Contents (Elt F) → (⟨S100000x128, .f32⟩ : BufTy).Contents (Elt F) → (⟨S100000x128, .f32⟩ : BufTy).Contents (Elt F)),
    StableHlo.unary main_arg17 main_v155 (broadcastInDim S1x128 ![1] bcast_S128_S1x128_1 : (⟨S128, .f32⟩ : BufTy).Contents (Elt F) → (⟨S1x128, .f32⟩ : BufTy).Contents (Elt F)),
    StableHlo.unary main_v155 main_v156 (broadcastInDim S100000x128 ![0, 1] bcast_S1x128_S100000x128_0_1 : (⟨S1x128, .f32⟩ : BufTy).Contents (Elt F) → (⟨S100000x128, .f32⟩ : BufTy).Contents (Elt F)),
    StableHlo.binary main_v156 main_v154 main_v157 (mulf : (⟨S100000x128, .f32⟩ : BufTy).Contents (Elt F) → (⟨S100000x128, .f32⟩ : BufTy).Contents (Elt F) → (⟨S100000x128, .f32⟩ : BufTy).Contents (Elt F)),
    StableHlo.nullary main_cst_26 (constant S_ .f32 0x3727C5AC#32),
    StableHlo.unary main_cst_26 main_v158 (broadcastInDim S128 ![] bcast_S_S128 : (⟨S_, .f32⟩ : BufTy).Contents (Elt F) → (⟨S128, .f32⟩ : BufTy).Contents (Elt F)),
    StableHlo.binary main_v151 main_v158 main_v159 (addf : (⟨S128, .f32⟩ : BufTy).Contents (Elt F) → (⟨S128, .f32⟩ : BufTy).Contents (Elt F) → (⟨S128, .f32⟩ : BufTy).Contents (Elt F)),
    StableHlo.unary main_v159 main_v160 (Host.rsqrt : (⟨S128, .f32⟩ : BufTy).Contents (Elt F) → (⟨S128, .f32⟩ : BufTy).Contents (Elt F)),
    StableHlo.unary main_v160 main_v161 (broadcastInDim S1x128 ![1] bcast_S128_S1x128_1 : (⟨S128, .f32⟩ : BufTy).Contents (Elt F) → (⟨S1x128, .f32⟩ : BufTy).Contents (Elt F)),
    StableHlo.unary main_v161 main_v162 (broadcastInDim S100000x128 ![0, 1] bcast_S1x128_S100000x128_0_1 : (⟨S1x128, .f32⟩ : BufTy).Contents (Elt F) → (⟨S100000x128, .f32⟩ : BufTy).Contents (Elt F)),
    StableHlo.binary main_v157 main_v162 main_v163 (mulf : (⟨S100000x128, .f32⟩ : BufTy).Contents (Elt F) → (⟨S100000x128, .f32⟩ : BufTy).Contents (Elt F) → (⟨S100000x128, .f32⟩ : BufTy).Contents (Elt F)),
    StableHlo.unary main_arg18 main_v164 (broadcastInDim S1x128 ![1] bcast_S128_S1x128_1 : (⟨S128, .f32⟩ : BufTy).Contents (Elt F) → (⟨S1x128, .f32⟩ : BufTy).Contents (Elt F)),
    StableHlo.unary main_v164 main_v165 (broadcastInDim S100000x128 ![0, 1] bcast_S1x128_S100000x128_0_1 : (⟨S1x128, .f32⟩ : BufTy).Contents (Elt F) → (⟨S100000x128, .f32⟩ : BufTy).Contents (Elt F)),
    StableHlo.binary main_v163 main_v165 main_v166 (addf : (⟨S100000x128, .f32⟩ : BufTy).Contents (Elt F) → (⟨S100000x128, .f32⟩ : BufTy).Contents (Elt F) → (⟨S100000x128, .f32⟩ : BufTy).Contents (Elt F)),
    StableHlo.TRef.nullary main_call9.cst (constant S_ .f32 0x00000000#32),
    StableHlo.TRef.unary main_call9.cst main_call9.v0 (broadcastInDim S100000x128 ![] bcast_S_S100000x128),
    StableHlo.TRef.binary (StableHlo.TRef.of main_v166 : StableHlo.TRef sig ⟨S100000x128, .f32⟩) main_call9.v0 main_call9.v1 maximumf ]

set_option maxRecDepth 8192 in
set_option maxHeartbeats 4000000 in
/-- The window is that straight line: the called functions' definitions unfolded at their calls, both sides are one
    chain of operations once sequencing is reassociated. -/
theorem partD_eq (c : Dev nD) : main_part3 (F := F) c = seq opsD := by
  simp only [main_part3, fn_relu.body, fn_where.body, fn_var.body, fn_relu_0.body, fn_where_2.body, fn_var_1.body, fn_relu_3.body, seq, bind_assoc, pure_bind]

theorem opsD_sub : (opsD : List (HloOp τ sig (Elt F))).Forall fun op => op.bufs ⊆ tcRefs τ sig :=
  ⟨
    unary_bufs_sub .., unary_bufs_sub .., binary_bufs_sub .., unary_bufs_sub .., unary_bufs_sub .., binary_bufs_sub ..,
    nullary_bufs_sub .., unary_bufs_sub .., binary_bufs_sub .., unary_bufs_sub .., unary_bufs_sub .., unary_bufs_sub ..,
    binary_bufs_sub .., unary_bufs_sub .., unary_bufs_sub .., binary_bufs_sub .., nullary_bufs_sub .., unary_bufs_sub ..,
    binary_bufs_sub ..⟩

/-- The buffers the window's operations write, in order. -/
abbrev opsD_W : List (Ref sig .tc) :=
  [
    main_v152, main_v153, main_v154, main_v155, main_v156, main_v157, main_cst_26, main_v158,
    main_v159, main_v160, main_v161, main_v162, main_v163, main_v164, main_v165, main_v166,
    main_call9_cst, main_call9_v0, main_v167 ]

set_option maxRecDepth 8192 in
theorem opsD_writes : WritesAt (opsD : List (HloOp τ sig (Elt F))) opsD_W :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl .nil))))))))))))))))))

/-- Every operation determines the contents of the buffer it writes. -/
theorem opsD_fresh : (opsD : List (HloOp τ sig (Elt F))).Forall fun op => op.fresh = ∅ :=
  ⟨
    rfl, rfl, rfl, rfl, rfl, rfl, rfl, rfl, rfl, rfl, rfl, rfl, rfl, rfl, rfl, rfl,
    rfl, rfl, rfl⟩

end Cert.ReferenceIdeal.Hand

end
-- ==== Proof.Ref.Run.lean ====
/-
  The reference program's run.  Its @main is a straight line of 274 host operations (its four windows one after the
  other, each called function's operations at the call): from any memory with zero counters every weakly fair
  execution terminates with every device buffer at the fold of the operations over the launch contents.  The
  result buffer is left at that fold; an argument buffer is written by no operation, so it ends as launched.
-/
import proofs.«164503_j82721070121701_1_alg».proof.Defs
import proofs.«164503_j82721070121701_1_alg».proof.Proof.Gen.Pre_finite_inputs
import proofs.«164503_j82721070121701_1_alg».proof.Proof.Ref.OpsA
import proofs.«164503_j82721070121701_1_alg».proof.Proof.Ref.OpsB
import proofs.«164503_j82721070121701_1_alg».proof.Proof.Ref.OpsC
import proofs.«164503_j82721070121701_1_alg».proof.Proof.Ref.OpsD

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's 274 operations, in order. -/
abbrev ops : List (HloOp τ sig (Elt F)) := opsA ++ (opsB ++ (opsC ++ opsD))

/-- The buffers they write, in order: one each, no buffer twice. -/
abbrev ops_W : List (Ref sig .tc) := opsA_W ++ (opsB_W ++ (opsC_W ++ opsD_W))

theorem main_eq (c : Dev nD) : main (F := F) c = seq ops := by
  unfold main
  rw [partA_eq, partB_eq, partC_eq, partD_eq]
  simp only [ops, seq_append]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_append.mpr ⟨opsA_sub, List.forall_append.mpr ⟨opsB_sub, List.forall_append.mpr ⟨opsC_sub, opsD_sub⟩⟩⟩

theorem ops_fresh : (ops : List (HloOp τ sig (Elt F))).Forall fun op => op.fresh = ∅ :=
  List.forall_append.mpr ⟨opsA_fresh, List.forall_append.mpr ⟨opsB_fresh, List.forall_append.mpr ⟨opsC_fresh, opsD_fresh⟩⟩⟩

theorem ops_writes : WritesAt (ops : List (HloOp τ sig (Elt F))) ops_W :=
  opsA_writes.append (opsB_writes.append (opsC_writes.append opsD_writes))

/-- An argument buffer is written by no operation. -/
theorem arg_keep (V : Valuation τ sig (Elt F)) {r : Ref sig .tc} (hr : r ∉ ops_W) :
    after ops V (Proc.devRef .tc r) = V (Proc.devRef .tc r) :=
  ops_writes.keep V hr

/-- Every weakly fair execution of @main from a memory with zero counters terminates with every device buffer at
    the fold of the operations over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ
    (fun _ => List.forall_iff_forall_mem.mp ops_fresh)

/-- The run read at the result and the arguments: the result buffer at the operations' fold, each argument as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v167) = after ops (launchContents m c) (main_v167 : DevRef τ sig)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19) :=
  (θ_run defs _ _).mono (fun _ h c => ⟨h c main_v167,
      (h c main_arg0).trans (arg_keep _ (by decide)),
      (h c main_arg1).trans (arg_keep _ (by decide)),
      (h c main_arg2).trans (arg_keep _ (by decide)),
      (h c main_arg3).trans (arg_keep _ (by decide)),
      (h c main_arg4).trans (arg_keep _ (by decide)),
      (h c main_arg5).trans (arg_keep _ (by decide)),
      (h c main_arg6).trans (arg_keep _ (by decide)),
      (h c main_arg7).trans (arg_keep _ (by decide)),
      (h c main_arg8).trans (arg_keep _ (by decide)),
      (h c main_arg9).trans (arg_keep _ (by decide)),
      (h c main_arg10).trans (arg_keep _ (by decide)),
      (h c main_arg11).trans (arg_keep _ (by decide)),
      (h c main_arg12).trans (arg_keep _ (by decide)),
      (h c main_arg13).trans (arg_keep _ (by decide)),
      (h c main_arg14).trans (arg_keep _ (by decide)),
      (h c main_arg15).trans (arg_keep _ (by decide)),
      (h c main_arg16).trans (arg_keep _ (by decide)),
      (h c main_arg17).trans (arg_keep _ (by decide)),
      (h c main_arg18).trans (arg_keep _ (by decide)),
      (h c main_arg19).trans (arg_keep _ (by decide))⟩)
    (run_all m ρ)

/-- The reference program's frame: it runs to the end and leaves its argument arrays as launched. -/
theorem frame : Cert.frame_ReferenceIdeal := fun m ρ _ =>
  (θ_run Cert.ReferenceIdeal.defs _ _).mono (fun _ h c => (h c).2) (run (F := Ideal) m ρ)

end Cert.ReferenceIdeal.Hand

end
-- ==== Proof.Ref.StepA.lean ====
/-
  The reference's line read one operation at a time (operations of chunk A): the contents of the buffer an
  operation writes, after the whole line, are the operation's function of its operands' contents after the whole
  line — every buffer is written once, and an operand before the operation that reads it.
-/
import proofs.«164503_j82721070121701_1_alg».proof.Proof.Ref.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- `main_v0` after the line, from its operands after the line (operation 0). -/
theorem step_main_v0 (V : Valuation τ sig (Elt F)) :
    after ops V (main_v0 : DevRef τ sig) = ((extractStridedSlice S1x128 ![0, 0] · slices_S5x128_S1x128_0_0) : (⟨S5x128, .f32⟩ : BufTy).Contents (Elt F) → (⟨S1x128, .f32⟩ : BufTy).Contents (Elt F)) (after ops V (main_arg19 : DevRef τ sig)) := by
  rw [ops_writes.read 0 (op := StableHlo.unary main_arg19 main_v0 ((extractStridedSlice S1x128 ![0, 0] · slices_S5x128_S1x128_0_0) : (⟨S5x128, .f32⟩ : BufTy).Contents (Elt F) → (⟨S1x128, .f32⟩ : BufTy).Contents (Elt F))) rfl V (y := main_v0) (by decide),
    ops_writes.after_eq_take 0 V (r := main_arg19) (by decide)]
  generalize after (List.take 0 ops) V = W
  exact unary_result ..

/-- `main_v1` after the line, from its operands after the line (operation 1). -/
theorem step_main_v1 (V : Valuation τ sig (Elt F)) :
    after ops V (main_v1 : DevRef τ sig) = shapeCast _ (after ops V (main_v0 : DevRef τ sig)) shapeCasts_S1x128_S128 := by
  rw [ops_writes.read 1 (op := StableHlo.reshape main_v0 main_v1 rfl shapeCasts_S1x128_S128) rfl V (y := main_v1) (by decide),
    ops_writes.after_eq_take 1 V (r := main_v0) (by decide)]
  generalize after (List.take 1 ops) V = W
  exact reshape_result ..

/-- `main_cst` after the line, from its operands after the line (operation 2). -/
theorem step_main_cst (V : Valuation τ sig (Elt F)) :
    after ops V (main_cst : DevRef τ sig) = (constant S_ .f32 0x3F800000#32) := by
  rw [ops_writes.read 2 (op := StableHlo.nullary main_cst (constant S_ .f32 0x3F800000#32)) rfl V (y := main_cst) (by decide)]
  generalize after (List.take 2 ops) V = W
  exact nullary_result ..

/-- `main_v2` after the line, from its operands after the line (operation 3). -/
theorem step_main_v2 (V : Valuation τ sig (Elt F)) :
    after ops V (main_v2 : DevRef τ sig) = (broadcastInDim S128 ![] bcast_S_S128 : (⟨S_, .f32⟩ : BufTy).Contents (Elt F) → (⟨S128, .f32⟩ : BufTy).Contents (Elt F)) (after ops V (main_cst : DevRef τ sig)) := by
  rw [ops_writes.read 3 (op := StableHlo.unary main_cst main_v2 (broadcastInDim S128 ![] bcast_S_S128 : (⟨S_, .f32⟩ : BufTy).Contents (Elt F) → (⟨S128, .f32⟩ : BufTy).Contents (Elt F))) rfl V (y := main_v2) (by decide),
    ops_writes.after_eq_take 3 V (r := main_cst) (by decide)]
  generalize after (List.take 3 ops) V = W
  exact unary_result ..

/-- `main_v3` after the line, from its operands after the line (operation 4). -/
theorem step_main_v3 (V : Valuation τ sig (Elt F)) :
    after ops V (main_v3 : DevRef τ sig) = (addf : (⟨S128, .f32⟩ : BufTy).Contents (Elt F) → (⟨S128, .f32⟩ : BufTy).Contents (Elt F) → (⟨S128, .f32⟩ : BufTy).Contents (Elt F)) (after ops V (main_v2 : DevRef τ sig)) (after ops V (main_v1 : DevRef τ sig)) := by
  rw [ops_writes.read 4 (op := StableHlo.binary main_v2 main_v1 main_v3 (addf : (⟨S128, .f32⟩ : BufTy).Contents (Elt F) → (⟨S128, .f32⟩ : BufTy).Contents (Elt F) → (⟨S128, .f32⟩ : BufTy).Contents (Elt F))) rfl V (y := main_v3) (by decide),
    ops_writes.after_eq_take 4 V (r := main_v2) (by decide),
    ops_writes.after_eq_take 4 V (r := main_v1) (by decide)]
  generalize after (List.take 4 ops) V = W
  exact binary_result ..

/-- `main_v4` after the line, from its operands after the line (operation 5). -/
theorem step_main_v4 (V : Valuation τ sig (Elt F)) :
    after ops V (main_v4 : DevRef τ sig) = (broadcastInDim S1x128 ![1] bcast_S128_S1x128_1 : (⟨S128, .f32⟩ : BufTy).Contents (Elt F) → (⟨S1x128, .f32⟩ : BufTy).Contents (Elt F)) (after ops V (main_v3 : DevRef τ sig)) := by
  rw [ops_writes.read 5 (op := StableHlo.unary main_v3 main_v4 (broadcastInDim S1x128 ![1] bcast_S128_S1x128_1 : (⟨S128, .f32⟩ : BufTy).Contents (Elt F) → (⟨S1x128, .f32⟩ : BufTy).Contents (Elt F))) rfl V (y := main_v4) (by decide),
    ops_writes.after_eq_take 5 V (r := main_v3) (by decide)]
  generalize after (List.take 5 ops) V = W
  exact unary_result ..

/-- `main_v5` after the line, from its operands after the line (operation 6). -/
theorem step_main_v5 (V : Valuation τ sig (Elt F)) :
    after ops V (main_v5 : DevRef τ sig) = (broadcastInDim S100000x128 ![0, 1] bcast_S1x128_S100000x128_0_1 : (⟨S1x128, .f32⟩ : BufTy).Contents (Elt F) → (⟨S100000x128, .f32⟩ : BufTy).Contents (Elt F)) (after ops V (main_v4 : DevRef τ sig)) := by
  rw [ops_writes.read 6 (op := StableHlo.unary main_v4 main_v5 (broadcastInDim S100000x128 ![0, 1] bcast_S1x128_S100000x128_0_1 : (⟨S1x128, .f32⟩ : BufTy).Contents (Elt F) → (⟨S100000x128, .f32⟩ : BufTy).Contents (Elt F))) rfl V (y := main_v5) (by decide),
    ops_writes.after_eq_take 6 V (r := main_v4) (by decide)]
  generalize after (List.take 6 ops) V = W
  exact unary_result ..

/-- `main_v6` after the line, from its operands after the line (operation 7). -/
theorem step_main_v6 (V : Valuation τ sig (Elt F)) :
    after ops V (main_v6 : DevRef τ sig) = (mulf : (⟨S100000x128, .f32⟩ : BufTy).Contents (Elt F) → (⟨S100000x128, .f32⟩ : BufTy).Contents (Elt F) → (⟨S100000x128, .f32⟩ : BufTy).Contents (Elt F)) (after ops V (main_v5 : DevRef τ sig)) (after ops V (main_arg0 : DevRef τ sig)) := by
  rw [ops_writes.read 7 (op := StableHlo.binary main_v5 main_arg0 main_v6 (mulf : (⟨S100000x128, .f32⟩ : BufTy).Contents (Elt F) → (⟨S100000x128, .f32⟩ : BufTy).Contents (Elt F) → (⟨S100000x128, .f32⟩ : BufTy).Contents (Elt F))) rfl V (y := main_v6) (by decide),
    ops_writes.after_eq_take 7 V (r := main_v5) (by decide),
    ops_writes.after_eq_take 7 V (r := main_arg0) (by decide)]
  generalize after (List.take 7 ops) V = W
  exact binary_result ..

/-- `main_v7` after the line, from its operands after the line (operation 8). -/
theorem step_main_v7 (V : Valuation τ sig (Elt F)) :
    after ops V (main_v7 : DevRef τ sig) = ((extractStridedSlice S1x128 ![1, 0] · slices_S5x128_S1x128_1_0) : (⟨S5x128, .f32⟩ : BufTy).Contents (Elt F) → (⟨S1x128, .f32⟩ : BufTy).Contents (Elt F)) (after ops V (main_arg19 : DevRef τ sig)) := by
  rw [ops_writes.read 8 (op := StableHlo.unary main_arg19 main_v7 ((extractStridedSlice S1x128 ![1, 0] · slices_S5x128_S1x128_1_0) : (⟨S5x128, .f32⟩ : BufTy).Contents (Elt F) → (⟨S1x128, .f32⟩ : BufTy).Contents (Elt F))) rfl V (y := main_v7) (by decide),
    ops_writes.after_eq_take 8 V (r := main_arg19) (by decide)]
  generalize after (List.take 8 ops) V = W
  exact unary_result ..

/-- `main_v8` after the line, from its operands after the line (operation 9). -/
theorem step_main_v8 (V : Valuation τ sig (Elt F)) :
    after ops V (main_v8 : DevRef τ sig) = shapeCast _ (after ops V (main_v7 : DevRef τ sig)) shapeCasts_S1x128_S128 := by
  rw [ops_writes.read 9 (op := StableHlo.reshape main_v7 main_v8 rfl shapeCasts_S1x128_S128) rfl V (y := main_v8) (by decide),
    ops_writes.after_eq_take 9 V (r := main_v7) (by decide)]
  generalize after (List.take 9 ops) V = W
  exact reshape_result ..

/-- `main_cst_0` after the line, from its operands after the line (operation 10). -/
theorem step_main_cst_0 (V : Valuation τ sig (Elt F)) :
    after ops V (main_cst_0 : DevRef τ sig) = (constant S_ .f32 0x3F800000#32) := by
  rw [ops_writes.read 10 (op := StableHlo.nullary main_cst_0 (constant S_ .f32 0x3F800000#32)) rfl V (y := main_cst_0) (by decide)]
  generalize after (List.take 10 ops) V = W
  exact nullary_result ..

/-- `main_v9` after the line, from its operands after the line (operation 11). -/
theorem step_main_v9 (V : Valuation τ sig (Elt F)) :
    after ops V (main_v9 : DevRef τ sig) = (broadcastInDim S128 ![] bcast_S_S128 : (⟨S_, .f32⟩ : BufTy).Contents (Elt F) → (⟨S128, .f32⟩ : BufTy).Contents (Elt F)) (after ops V (main_cst_0 : DevRef τ sig)) := by
  rw [ops_writes.read 11 (op := StableHlo.unary main_cst_0 main_v9 (broadcastInDim S128 ![] bcast_S_S128 : (⟨S_, .f32⟩ : BufTy).Contents (Elt F) → (⟨S128, .f32⟩ : BufTy).Contents (Elt F))) rfl V (y := main_v9) (by decide),
    ops_writes.after_eq_take 11 V (r := main_cst_0) (by decide)]
  generalize after (List.take 11 ops) V = W
  exact unary_result ..

/-- `main_v10` after the line, from its operands after the line (operation 12). -/
theorem step_main_v10 (V : Valuation τ sig (Elt F)) :
    after ops V (main_v10 : DevRef τ sig) = (addf : (⟨S128, .f32⟩ : BufTy).Contents (Elt F) → (⟨S128, .f32⟩ : BufTy).Contents (Elt F) → (⟨S128, .f32⟩ : BufTy).Contents (Elt F)) (after ops V (main_v9 : DevRef τ sig)) (after ops V (main_v8 : DevRef τ sig)) := by
  rw [ops_writes.read 12 (op := StableHlo.binary main_v9 main_v8 main_v10 (addf : (⟨S128, .f32⟩ : BufTy).Contents (Elt F) → (⟨S128, .f32⟩ : BufTy).Contents (Elt F) → (⟨S128, .f32⟩ : BufTy).Contents (Elt F))) rfl V (y := main_v10) (by decide),
    ops_writes.after_eq_take 12 V (r := main_v9) (by decide),
    ops_writes.after_eq_take 12 V (r := main_v8) (by decide)]
  generalize after (List.take 12 ops) V = W
  exact binary_result ..

/-- `main_v11` after the line, from its operands after the line (operation 13). -/
theorem step_main_v11 (V : Valuation τ sig (Elt F)) :
    after ops V (main_v11 : DevRef τ sig) = ((extractStridedSlice S1x800000 ![0, 0] · slices_S2x800000_S1x800000_0_0) : (⟨S2x800000, .i32⟩ : BufTy).Contents (Elt F) → (⟨S1x800000, .i32⟩ : BufTy).Contents (Elt F)) (after ops V (main_arg5 : DevRef τ sig)) := by
  rw [ops_writes.read 13 (op := StableHlo.unary main_arg5 main_v11 ((extractStridedSlice S1x800000 ![0, 0] · slices_S2x800000_S1x800000_0_0) : (⟨S2x800000, .i32⟩ : BufTy).Contents (Elt F) → (⟨S1x800000, .i32⟩ : BufTy).Contents (Elt F))) rfl V (y := main_v11) (by decide),
    ops_writes.after_eq_take 13 V (r := main_arg5) (by decide)]
  generalize after (List.take 13 ops) V = W
  exact unary_result ..

/-- `main_v12` after the line, from its operands after the line (operation 14). -/
theorem step_main_v12 (V : Valuation τ sig (Elt F)) :
    after ops V (main_v12 : DevRef τ sig) = shapeCast _ (after ops V (main_v11 : DevRef τ sig)) shapeCasts_S1x800000_S800000 := by
  rw [ops_writes.read 14 (op := StableHlo.reshape main_v11 main_v12 rfl shapeCasts_S1x800000_S800000) rfl V (y := main_v12) (by decide),
    ops_writes.after_eq_take 14 V (r := main_v11) (by decide)]
  generalize after (List.take 14 ops) V = W
  exact reshape_result ..

/-- `main_c` after the line, from its operands after the line (operation 15). -/
theorem step_main_c (V : Valuation τ sig (Elt F)) :
    after ops V (main_c : DevRef τ sig) = (constantI S_ 32 0#32) := by
  rw [ops_writes.read 15 (op := StableHlo.nullary main_c (constantI S_ 32 0#32)) rfl V (y := main_c) (by decide)]
  generalize after (List.take 15 ops) V = W
  exact nullary_result ..

/-- `main_v13` after the line, from its operands after the line (operation 16). -/
theorem step_main_v13 (V : Valuation τ sig (Elt F)) :
    after ops V (main_v13 : DevRef τ sig) = (broadcastInDim S800000 ![] bcast_S_S800000 : (⟨S_, .i32⟩ : BufTy).Contents (Elt F) → (⟨S800000, .i32⟩ : BufTy).Contents (Elt F)) (after ops V (main_c : DevRef τ sig)) := by
  rw [ops_writes.read 16 (op := StableHlo.unary main_c main_v13 (broadcastInDim S800000 ![] bcast_S_S800000 : (⟨S_, .i32⟩ : BufTy).Contents (Elt F) → (⟨S800000, .i32⟩ : BufTy).Contents (Elt F))) rfl V (y := main_v13) (by decide),
    ops_writes.after_eq_take 16 V (r := main_c) (by decide)]
  generalize after (List.take 16 ops) V = W
  exact unary_result ..

/-- `main_v14` after the line, from its operands after the line (operation 17). -/
theorem step_main_v14 (V : Valuation τ sig (Elt F)) :
    after ops V (main_v14 : DevRef τ sig) = (cmpi .slt : (⟨S800000, .i32⟩ : BufTy).Contents (Elt F) → (⟨S800000, .i32⟩ : BufTy).Contents (Elt F) → (⟨S800000, .i1⟩ : BufTy).Contents (Elt F)) (after ops V (main_v12 : DevRef τ sig)) (after ops V (main_v13 : DevRef τ sig)) := by
  rw [ops_writes.read 17 (op := StableHlo.binary main_v12 main_v13 main_v14 (cmpi .slt : (⟨S800000, .i32⟩ : BufTy).Contents (Elt F) → (⟨S800000, .i32⟩ : BufTy).Contents (Elt F) → (⟨S800000, .i1⟩ : BufTy).Contents (Elt F))) rfl V (y := main_v14) (by decide),
    ops_writes.after_eq_take 17 V (r := main_v12) (by decide),
    ops_writes.after_eq_take 17 V (r := main_v13) (by decide)]
  generalize after (List.take 17 ops) V = W
  exact binary_result ..

/-- `main_c_1` after the line, from its operands after the line (operation 18). -/
theorem step_main_c_1 (V : Valuation τ sig (Elt F)) :
    after ops V (main_c_1 : DevRef τ sig) = (constantI S_ 32 100000#32) := by
  rw [ops_writes.read 18 (op := StableHlo.nullary main_c_1 (constantI S_ 32 100000#32)) rfl V (y := main_c_1) (by decide)]
  generalize after (List.take 18 ops) V = W
  exact nullary_result ..

/-- `main_v15` after the line, from its operands after the line (operation 19). -/
theorem step_main_v15 (V : Valuation τ sig (Elt F)) :
    after ops V (main_v15 : DevRef τ sig) = (broadcastInDim S800000 ![] bcast_S_S800000 : (⟨S_, .i32⟩ : BufTy).Contents (Elt F) → (⟨S800000, .i32⟩ : BufTy).Contents (Elt F)) (after ops V (main_c_1 : DevRef τ sig)) := by
  rw [ops_writes.read 19 (op := StableHlo.unary main_c_1 main_v15 (broadcastInDim S800000 ![] bcast_S_S800000 : (⟨S_, .i32⟩ : BufTy).Contents (Elt F) → (⟨S800000, .i32⟩ : BufTy).Contents (Elt F))) rfl V (y := main_v15) (by decide),
    ops_writes.after_eq_take 19 V (r := main_c_1) (by decide)]
  generalize after (List.take 19 ops) V = W
  exact unary_result ..

/-- `main_v16` after the line, from its operands after the line (operation 20). -/
theorem step_main_v16 (V : Valuation τ sig (Elt F)) :
    after ops V (main_v16 : DevRef τ sig) = (addi : (⟨S800000, .i32⟩ : BufTy).Contents (Elt F) → (⟨S800000, .i32⟩ : BufTy).Contents (Elt F) → (⟨S800000, .i32⟩ : BufTy).Contents (Elt F)) (after ops V (main_v12 : DevRef τ sig)) (after ops V (main_v15 : DevRef τ sig)) := by
  rw [ops_writes.read 20 (op := StableHlo.binary main_v12 main_v15 main_v16 (addi : (⟨S800000, .i32⟩ : BufTy).Contents (Elt F) → (⟨S800000, .i32⟩ : BufTy).Contents (Elt F) → (⟨S800000, .i32⟩ : BufTy).Contents (Elt F))) rfl V (y := main_v16) (by decide),
    ops_writes.after_eq_take 20 V (r := main_v12) (by decide),
    ops_writes.after_eq_take 20 V (r := main_v15) (by decide)]
  generalize after (List.take 20 ops) V = W
  exact binary_result ..

/-- `main_v17` after the line, from its operands after the line (operation 21). -/
theorem step_main_v17 (V : Valuation τ sig (Elt F)) :
    after ops V (main_v17 : DevRef τ sig) = (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) (after ops V (main_v14 : DevRef τ sig)) (after ops V (main_v16 : DevRef τ sig)) (after ops V (main_v12 : DevRef τ sig)) := by
  rw [ops_writes.read 21 (op := StableHlo.ternary main_v14 main_v16 main_v12 main_v17 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F))) rfl V (y := main_v17) (by decide),
    ops_writes.after_eq_take 21 V (r := main_v14) (by decide),
    ops_writes.after_eq_take 21 V (r := main_v16) (by decide),
    ops_writes.after_eq_take 21 V (r := main_v12) (by decide)]
  generalize after (List.take 21 ops) V = W
  exact ternary_result ..

/-- `main_v18` after the line, from its operands after the line (operation 22). -/
theorem step_main_v18 (V : Valuation τ sig (Elt F)) :
    after ops V (main_v18 : DevRef τ sig) = (broadcastInDim S800000x1 ![0] bcast_S800000_S800000x1_0 : (⟨S800000, .i32⟩ : BufTy).Contents (Elt F) → (⟨S800000x1, .i32⟩ : BufTy).Contents (Elt F)) (after ops V (main_v17 : DevRef τ sig)) := by
  rw [ops_writes.read 22 (op := StableHlo.unary main_v17 main_v18 (broadcastInDim S800000x1 ![0] bcast_S800000_S800000x1_0 : (⟨S800000, .i32⟩ : BufTy).Contents (Elt F) → (⟨S800000x1, .i32⟩ : BufTy).Contents (Elt F))) rfl V (y := main_v18) (by decide),
    ops_writes.after_eq_take 22 V (r := main_v17) (by decide)]
  generalize after (List.take 22 ops) V = W
  exact unary_result ..

/-- `main_v19` after the line, from its operands after the line (operation 23). -/
theorem step_main_v19 (V : Valuation τ sig (Elt F)) :
    after ops V (main_v19 : DevRef τ sig) = ((fun x i => Host.gather gather_S100000x128_S800000x1_S800000x128_1_0_n_n_0_1_1128 x i) : (⟨S100000x128, .f32⟩ : BufTy).Contents (Elt F) → (⟨S800000x1, .i32⟩ : BufTy).Contents (Elt F) → (⟨S800000x128, .f32⟩ : BufTy).Contents (Elt F)) (after ops V (main_arg0 : DevRef τ sig)) (after ops V (main_v18 : DevRef τ sig)) := by
  rw [ops_writes.read 23 (op := StableHlo.binary main_arg0 main_v18 main_v19 ((fun x i => Host.gather gather_S100000x128_S800000x1_S800000x128_1_0_n_n_0_1_1128 x i) : (⟨S100000x128, .f32⟩ : BufTy).Contents (Elt F) → (⟨S800000x1, .i32⟩ : BufTy).Contents (Elt F) → (⟨S800000x128, .f32⟩ : BufTy).Contents (Elt F))) rfl V (y := main_v19) (by decide),
    ops_writes.after_eq_take 23 V (r := main_arg0) (by decide),
    ops_writes.after_eq_take 23 V (r := main_v18) (by decide)]
  generalize after (List.take 23 ops) V = W
  exact binary_result ..

/-- `main_v20` after the line, from its operands after the line (operation 24). -/
theorem step_main_v20 (V : Valuation τ sig (Elt F)) :
    after ops V (main_v20 : DevRef τ sig) = (addf : (⟨S800000x128, .f32⟩ : BufTy).Contents (Elt F) → (⟨S800000x128, .f32⟩ : BufTy).Contents (Elt F) → (⟨S800000x128, .f32⟩ : BufTy).Contents (Elt F)) (after ops V (main_v19 : DevRef τ sig)) (after ops V (main_arg4 : DevRef τ sig)) := by
  rw [ops_writes.read 24 (op := StableHlo.binary main_v19 main_arg4 main_v20 (addf : (⟨S800000x128, .f32⟩ : BufTy).Contents (Elt F) → (⟨S800000x128, .f32⟩ : BufTy).Contents (Elt F) → (⟨S800000x128, .f32⟩ : BufTy).Contents (Elt F))) rfl V (y := main_v20) (by decide),
    ops_writes.after_eq_take 24 V (r := main_v19) (by decide),
    ops_writes.after_eq_take 24 V (r := main_arg4) (by decide)]
  generalize after (List.take 24 ops) V = W
  exact binary_result ..

/-- `main_call0_cst` after the line, from its operands after the line (operation 25). -/
theorem step_main_call0_cst (V : Valuation τ sig (Elt F)) :
    after ops V (main_call0_cst : DevRef τ sig) = (constant S_ .f32 0x00000000#32) := by
  rw [ops_writes.read 25 (op := StableHlo.TRef.nullary main_call0.cst (constant S_ .f32 0x00000000#32)) rfl V (y := main_call0_cst) (by decide)]
  generalize after (List.take 25 ops) V = W
  exact nullary_result ..

/-- `main_call0_v0` after the line, from its operands after the line (operation 26). -/
theorem step_main_call0_v0 (V : Valuation τ sig (Elt F)) :
    after ops V (main_call0_v0 : DevRef τ sig) = (broadcastInDim S800000x128 ![] bcast_S_S800000x128) (after ops V (main_call0_cst : DevRef τ sig)) := by
  rw [ops_writes.read 26 (op := StableHlo.TRef.unary main_call0.cst main_call0.v0 (broadcastInDim S800000x128 ![] bcast_S_S800000x128)) rfl V (y := main_call0_v0) (by decide),
    ops_writes.after_eq_take 26 V (r := main_call0_cst) (by decide)]
  generalize after (List.take 26 ops) V = W
  exact unary_result ..

/-- `main_v21` after the line, from its operands after the line (operation 27). -/
theorem step_main_v21 (V : Valuation τ sig (Elt F)) :
    after ops V (main_v21 : DevRef τ sig) = maximumf (after ops V (main_v20 : DevRef τ sig)) (after ops V (main_call0_v0 : DevRef τ sig)) := by
  rw [ops_writes.read 27 (op := StableHlo.TRef.binary (StableHlo.TRef.of main_v20 : StableHlo.TRef sig ⟨S800000x128, .f32⟩) main_call0.v0 main_call0.v1 maximumf) rfl V (y := main_v21) (by decide),
    ops_writes.after_eq_take 27 V (r := main_v20) (by decide),
    ops_writes.after_eq_take 27 V (r := main_call0_v0) (by decide)]
  generalize after (List.take 27 ops) V = W
  exact binary_result ..

/-- `main_v22` after the line, from its operands after the line (operation 28). -/
theorem step_main_v22 (V : Valuation τ sig (Elt F)) :
    after ops V (main_v22 : DevRef τ sig) = ((extractStridedSlice S1x800000 ![1, 0] · slices_S2x800000_S1x800000_1_0) : (⟨S2x800000, .i32⟩ : BufTy).Contents (Elt F) → (⟨S1x800000, .i32⟩ : BufTy).Contents (Elt F)) (after ops V (main_arg5 : DevRef τ sig)) := by
  rw [ops_writes.read 28 (op := StableHlo.unary main_arg5 main_v22 ((extractStridedSlice S1x800000 ![1, 0] · slices_S2x800000_S1x800000_1_0) : (⟨S2x800000, .i32⟩ : BufTy).Contents (Elt F) → (⟨S1x800000, .i32⟩ : BufTy).Contents (Elt F))) rfl V (y := main_v22) (by decide),
    ops_writes.after_eq_take 28 V (r := main_arg5) (by decide)]
  generalize after (List.take 28 ops) V = W
  exact unary_result ..

/-- `main_v23` after the line, from its operands after the line (operation 29). -/
theorem step_main_v23 (V : Valuation τ sig (Elt F)) :
    after ops V (main_v23 : DevRef τ sig) = shapeCast _ (after ops V (main_v22 : DevRef τ sig)) shapeCasts_S1x800000_S800000 := by
  rw [ops_writes.read 29 (op := StableHlo.reshape main_v22 main_v23 rfl shapeCasts_S1x800000_S800000) rfl V (y := main_v23) (by decide),
    ops_writes.after_eq_take 29 V (r := main_v22) (by decide)]
  generalize after (List.take 29 ops) V = W
  exact reshape_result ..

/-- `main_cst_2` after the line, from its operands after the line (operation 30). -/
theorem step_main_cst_2 (V : Valuation τ sig (Elt F)) :
    after ops V (main_cst_2 : DevRef τ sig) = (constant S_ .f32 0x00000000#32) := by
  rw [ops_writes.read 30 (op := StableHlo.nullary main_cst_2 (constant S_ .f32 0x00000000#32)) rfl V (y := main_cst_2) (by decide)]
  generalize after (List.take 30 ops) V = W
  exact nullary_result ..

/-- `main_v24` after the line, from its operands after the line (operation 31). -/
theorem step_main_v24 (V : Valuation τ sig (Elt F)) :
    after ops V (main_v24 : DevRef τ sig) = (broadcastInDim S100000x128 ![] bcast_S_S100000x128 : (⟨S_, .f32⟩ : BufTy).Contents (Elt F) → (⟨S100000x128, .f32⟩ : BufTy).Contents (Elt F)) (after ops V (main_cst_2 : DevRef τ sig)) := by
  rw [ops_writes.read 31 (op := StableHlo.unary main_cst_2 main_v24 (broadcastInDim S100000x128 ![] bcast_S_S100000x128 : (⟨S_, .f32⟩ : BufTy).Contents (Elt F) → (⟨S100000x128, .f32⟩ : BufTy).Contents (Elt F))) rfl V (y := main_v24) (by decide),
    ops_writes.after_eq_take 31 V (r := main_cst_2) (by decide)]
  generalize after (List.take 31 ops) V = W
  exact unary_result ..

/-- `main_v25` after the line, from its operands after the line (operation 32). -/
theorem step_main_v25 (V : Valuation τ sig (Elt F)) :
    after ops V (main_v25 : DevRef τ sig) = (broadcastInDim S800000x1 ![0] bcast_S800000_S800000x1_0 : (⟨S800000, .i32⟩ : BufTy).Contents (Elt F) → (⟨S800000x1, .i32⟩ : BufTy).Contents (Elt F)) (after ops V (main_v23 : DevRef τ sig)) := by
  rw [ops_writes.read 32 (op := StableHlo.unary main_v23 main_v25 (broadcastInDim S800000x1 ![0] bcast_S800000_S800000x1_0 : (⟨S800000, .i32⟩ : BufTy).Contents (Elt F) → (⟨S800000x1, .i32⟩ : BufTy).Contents (Elt F))) rfl V (y := main_v25) (by decide),
    ops_writes.after_eq_take 32 V (r := main_v23) (by decide)]
  generalize after (List.take 32 ops) V = W
  exact unary_result ..

/-- `main_v26` after the line, from its operands after the line (operation 33). -/
theorem step_main_v26 (V : Valuation τ sig (Elt F)) :
    after ops V (main_v26 : DevRef τ sig) = ((fun x i u => Host.scatterAdd scatter_S100000x128_S800000x1_S800000x128_1_0_0_1 x i u) : (⟨S100000x128, .f32⟩ : BufTy).Contents (Elt F) → (⟨S800000x1, .i32⟩ : BufTy).Contents (Elt F) → (⟨S800000x128, .f32⟩ : BufTy).Contents (Elt F) → (⟨S100000x128, .f32⟩ : BufTy).Contents (Elt F)) (after ops V (main_v24 : DevRef τ sig)) (after ops V (main_v25 : DevRef τ sig)) (after ops V (main_v21 : DevRef τ sig)) := by
  rw [ops_writes.read 33 (op := StableHlo.ternary main_v24 main_v25 main_v21 main_v26 ((fun x i u => Host.scatterAdd scatter_S100000x128_S800000x1_S800000x128_1_0_0_1 x i u) : (⟨S100000x128, .f32⟩ : BufTy).Contents (Elt F) → (⟨S800000x1, .i32⟩ : BufTy).Contents (Elt F) → (⟨S800000x128, .f32⟩ : BufTy).Contents (Elt F) → (⟨S100000x128, .f32⟩ : BufTy).Contents (Elt F))) rfl V (y := main_v26) (by decide),
    ops_writes.after_eq_take 33 V (r := main_v24) (by decide),
    ops_writes.after_eq_take 33 V (r := main_v25) (by decide),
    ops_writes.after_eq_take 33 V (r := main_v21) (by decide)]
  generalize after (List.take 33 ops) V = W
  exact ternary_result ..

/-- `main_v27` after the line, from its operands after the line (operation 34). -/
theorem step_main_v27 (V : Valuation τ sig (Elt F)) :
    after ops V (main_v27 : DevRef τ sig) = (broadcastInDim S1x128 ![1] bcast_S128_S1x128_1 : (⟨S128, .f32⟩ : BufTy).Contents (Elt F) → (⟨S1x128, .f32⟩ : BufTy).Contents (Elt F)) (after ops V (main_v10 : DevRef τ sig)) := by
  rw [ops_writes.read 34 (op := StableHlo.unary main_v10 main_v27 (broadcastInDim S1x128 ![1] bcast_S128_S1x128_1 : (⟨S128, .f32⟩ : BufTy).Contents (Elt F) → (⟨S1x128, .f32⟩ : BufTy).Contents (Elt F))) rfl V (y := main_v27) (by decide),
    ops_writes.after_eq_take 34 V (r := main_v10) (by decide)]
  generalize after (List.take 34 ops) V = W
  exact unary_result ..

/-- `main_v28` after the line, from its operands after the line (operation 35). -/
theorem step_main_v28 (V : Valuation τ sig (Elt F)) :
    after ops V (main_v28 : DevRef τ sig) = (broadcastInDim S100000x128 ![0, 1] bcast_S1x128_S100000x128_0_1 : (⟨S1x128, .f32⟩ : BufTy).Contents (Elt F) → (⟨S100000x128, .f32⟩ : BufTy).Contents (Elt F)) (after ops V (main_v27 : DevRef τ sig)) := by
  rw [ops_writes.read 35 (op := StableHlo.unary main_v27 main_v28 (broadcastInDim S100000x128 ![0, 1] bcast_S1x128_S100000x128_0_1 : (⟨S1x128, .f32⟩ : BufTy).Contents (Elt F) → (⟨S100000x128, .f32⟩ : BufTy).Contents (Elt F))) rfl V (y := main_v28) (by decide),
    ops_writes.after_eq_take 35 V (r := main_v27) (by decide)]
  generalize after (List.take 35 ops) V = W
  exact unary_result ..

/-- `main_v29` after the line, from its operands after the line (operation 36). -/
theorem step_main_v29 (V : Valuation τ sig (Elt F)) :
    after ops V (main_v29 : DevRef τ sig) = (mulf : (⟨S100000x128, .f32⟩ : BufTy).Contents (Elt F) → (⟨S100000x128, .f32⟩ : BufTy).Contents (Elt F) → (⟨S100000x128, .f32⟩ : BufTy).Contents (Elt F)) (after ops V (main_v28 : DevRef τ sig)) (after ops V (main_v26 : DevRef τ sig)) := by
  rw [ops_writes.read 36 (op := StableHlo.binary main_v28 main_v26 main_v29 (mulf : (⟨S100000x128, .f32⟩ : BufTy).Contents (Elt F) → (⟨S100000x128, .f32⟩ : BufTy).Contents (Elt F) → (⟨S100000x128, .f32⟩ : BufTy).Contents (Elt F))) rfl V (y := main_v29) (by decide),
    ops_writes.after_eq_take 36 V (r := main_v28) (by decide),
    ops_writes.after_eq_take 36 V (r := main_v26) (by decide)]
  generalize after (List.take 36 ops) V = W
  exact binary_result ..

/-- `main_v30` after the line, from its operands after the line (operation 37). -/
theorem step_main_v30 (V : Valuation τ sig (Elt F)) :
    after ops V (main_v30 : DevRef τ sig) = (addf : (⟨S100000x128, .f32⟩ : BufTy).Contents (Elt F) → (⟨S100000x128, .f32⟩ : BufTy).Contents (Elt F) → (⟨S100000x128, .f32⟩ : BufTy).Contents (Elt F)) (after ops V (main_v6 : DevRef τ sig)) (after ops V (main_v29 : DevRef τ sig)) := by
  rw [ops_writes.read 37 (op := StableHlo.binary main_v6 main_v29 main_v30 (addf : (⟨S100000x128, .f32⟩ : BufTy).Contents (Elt F) → (⟨S100000x128, .f32⟩ : BufTy).Contents (Elt F) → (⟨S100000x128, .f32⟩ : BufTy).Contents (Elt F))) rfl V (y := main_v30) (by decide),
    ops_writes.after_eq_take 37 V (r := main_v6) (by decide),
    ops_writes.after_eq_take 37 V (r := main_v29) (by decide)]
  generalize after (List.take 37 ops) V = W
  exact binary_result ..

/-- `main_v31` after the line, from its operands after the line (operation 38). -/
theorem step_main_v31 (V : Valuation τ sig (Elt F)) :
    after ops V (main_v31 : DevRef τ sig) = ((extractStridedSlice S1x128 ![2, 0] · slices_S5x128_S1x128_2_0) : (⟨S5x128, .f32⟩ : BufTy).Contents (Elt F) → (⟨S1x128, .f32⟩ : BufTy).Contents (Elt F)) (after ops V (main_arg19 : DevRef τ sig)) := by
  rw [ops_writes.read 38 (op := StableHlo.unary main_arg19 main_v31 ((extractStridedSlice S1x128 ![2, 0] · slices_S5x128_S1x128_2_0) : (⟨S5x128, .f32⟩ : BufTy).Contents (Elt F) → (⟨S1x128, .f32⟩ : BufTy).Contents (Elt F))) rfl V (y := main_v31) (by decide),
    ops_writes.after_eq_take 38 V (r := main_arg19) (by decide)]
  generalize after (List.take 38 ops) V = W
  exact unary_result ..

/-- `main_v32` after the line, from its operands after the line (operation 39). -/
theorem step_main_v32 (V : Valuation τ sig (Elt F)) :
    after ops V (main_v32 : DevRef τ sig) = shapeCast _ (after ops V (main_v31 : DevRef τ sig)) shapeCasts_S1x128_S128 := by
  rw [ops_writes.read 39 (op := StableHlo.reshape main_v31 main_v32 rfl shapeCasts_S1x128_S128) rfl V (y := main_v32) (by decide),
    ops_writes.after_eq_take 39 V (r := main_v31) (by decide)]
  generalize after (List.take 39 ops) V = W
  exact reshape_result ..

/-- `main_cst_3` after the line, from its operands after the line (operation 40). -/
theorem step_main_cst_3 (V : Valuation τ sig (Elt F)) :
    after ops V (main_cst_3 : DevRef τ sig) = (constant S_ .f32 0x3F800000#32) := by
  rw [ops_writes.read 40 (op := StableHlo.nullary main_cst_3 (constant S_ .f32 0x3F800000#32)) rfl V (y := main_cst_3) (by decide)]
  generalize after (List.take 40 ops) V = W
  exact nullary_result ..

/-- `main_v33` after the line, from its operands after the line (operation 41). -/
theorem step_main_v33 (V : Valuation τ sig (Elt F)) :
    after ops V (main_v33 : DevRef τ sig) = (broadcastInDim S128 ![] bcast_S_S128 : (⟨S_, .f32⟩ : BufTy).Contents (Elt F) → (⟨S128, .f32⟩ : BufTy).Contents (Elt F)) (after ops V (main_cst_3 : DevRef τ sig)) := by
  rw [ops_writes.read 41 (op := StableHlo.unary main_cst_3 main_v33 (broadcastInDim S128 ![] bcast_S_S128 : (⟨S_, .f32⟩ : BufTy).Contents (Elt F) → (⟨S128, .f32⟩ : BufTy).Contents (Elt F))) rfl V (y := main_v33) (by decide),
    ops_writes.after_eq_take 41 V (r := main_cst_3) (by decide)]
  generalize after (List.take 41 ops) V = W
  exact unary_result ..

/-- `main_v34` after the line, from its operands after the line (operation 42). -/
theorem step_main_v34 (V : Valuation τ sig (Elt F)) :
    after ops V (main_v34 : DevRef τ sig) = (addf : (⟨S128, .f32⟩ : BufTy).Contents (Elt F) → (⟨S128, .f32⟩ : BufTy).Contents (Elt F) → (⟨S128, .f32⟩ : BufTy).Contents (Elt F)) (after ops V (main_v33 : DevRef τ sig)) (after ops V (main_v32 : DevRef τ sig)) := by
  rw [ops_writes.read 42 (op := StableHlo.binary main_v33 main_v32 main_v34 (addf : (⟨S128, .f32⟩ : BufTy).Contents (Elt F) → (⟨S128, .f32⟩ : BufTy).Contents (Elt F) → (⟨S128, .f32⟩ : BufTy).Contents (Elt F))) rfl V (y := main_v34) (by decide),
    ops_writes.after_eq_take 42 V (r := main_v33) (by decide),
    ops_writes.after_eq_take 42 V (r := main_v32) (by decide)]
  generalize after (List.take 42 ops) V = W
  exact binary_result ..

/-- `main_v35` after the line, from its operands after the line (operation 43). -/
theorem step_main_v35 (V : Valuation τ sig (Elt F)) :
    after ops V (main_v35 : DevRef τ sig) = ((extractStridedSlice S1x800000 ![0, 0] · slices_S2x800000_S1x800000_0_0) : (⟨S2x800000, .i32⟩ : BufTy).Contents (Elt F) → (⟨S1x800000, .i32⟩ : BufTy).Contents (Elt F)) (after ops V (main_arg6 : DevRef τ sig)) := by
  rw [ops_writes.read 43 (op := StableHlo.unary main_arg6 main_v35 ((extractStridedSlice S1x800000 ![0, 0] · slices_S2x800000_S1x800000_0_0) : (⟨S2x800000, .i32⟩ : BufTy).Contents (Elt F) → (⟨S1x800000, .i32⟩ : BufTy).Contents (Elt F))) rfl V (y := main_v35) (by decide),
    ops_writes.after_eq_take 43 V (r := main_arg6) (by decide)]
  generalize after (List.take 43 ops) V = W
  exact unary_result ..

/-- `main_v36` after the line, from its operands after the line (operation 44). -/
theorem step_main_v36 (V : Valuation τ sig (Elt F)) :
    after ops V (main_v36 : DevRef τ sig) = shapeCast _ (after ops V (main_v35 : DevRef τ sig)) shapeCasts_S1x800000_S800000 := by
  rw [ops_writes.read 44 (op := StableHlo.reshape main_v35 main_v36 rfl shapeCasts_S1x800000_S800000) rfl V (y := main_v36) (by decide),
    ops_writes.after_eq_take 44 V (r := main_v35) (by decide)]
  generalize after (List.take 44 ops) V = W
  exact reshape_result ..

/-- `main_c_4` after the line, from its operands after the line (operation 45). -/
theorem step_main_c_4 (V : Valuation τ sig (Elt F)) :
    after ops V (main_c_4 : DevRef τ sig) = (constantI S_ 32 0#32) := by
  rw [ops_writes.read 45 (op := StableHlo.nullary main_c_4 (constantI S_ 32 0#32)) rfl V (y := main_c_4) (by decide)]
  generalize after (List.take 45 ops) V = W
  exact nullary_result ..

/-- `main_v37` after the line, from its operands after the line (operation 46). -/
theorem step_main_v37 (V : Valuation τ sig (Elt F)) :
    after ops V (main_v37 : DevRef τ sig) = (broadcastInDim S800000 ![] bcast_S_S800000 : (⟨S_, .i32⟩ : BufTy).Contents (Elt F) → (⟨S800000, .i32⟩ : BufTy).Contents (Elt F)) (after ops V (main_c_4 : DevRef τ sig)) := by
  rw [ops_writes.read 46 (op := StableHlo.unary main_c_4 main_v37 (broadcastInDim S800000 ![] bcast_S_S800000 : (⟨S_, .i32⟩ : BufTy).Contents (Elt F) → (⟨S800000, .i32⟩ : BufTy).Contents (Elt F))) rfl V (y := main_v37) (by decide),
    ops_writes.after_eq_take 46 V (r := main_c_4) (by decide)]
  generalize after (List.take 46 ops) V = W
  exact unary_result ..

/-- `main_v38` after the line, from its operands after the line (operation 47). -/
theorem step_main_v38 (V : Valuation τ sig (Elt F)) :
    after ops V (main_v38 : DevRef τ sig) = (cmpi .slt : (⟨S800000, .i32⟩ : BufTy).Contents (Elt F) → (⟨S800000, .i32⟩ : BufTy).Contents (Elt F) → (⟨S800000, .i1⟩ : BufTy).Contents (Elt F)) (after ops V (main_v36 : DevRef τ sig)) (after ops V (main_v37 : DevRef τ sig)) := by
  rw [ops_writes.read 47 (op := StableHlo.binary main_v36 main_v37 main_v38 (cmpi .slt : (⟨S800000, .i32⟩ : BufTy).Contents (Elt F) → (⟨S800000, .i32⟩ : BufTy).Contents (Elt F) → (⟨S800000, .i1⟩ : BufTy).Contents (Elt F))) rfl V (y := main_v38) (by decide),
    ops_writes.after_eq_take 47 V (r := main_v36) (by decide),
    ops_writes.after_eq_take 47 V (r := main_v37) (by decide)]
  generalize after (List.take 47 ops) V = W
  exact binary_result ..

/-- `main_c_5` after the line, from its operands after the line (operation 48). -/
theorem step_main_c_5 (V : Valuation τ sig (Elt F)) :
    after ops V (main_c_5 : DevRef τ sig) = (constantI S_ 32 100000#32) := by
  rw [ops_writes.read 48 (op := StableHlo.nullary main_c_5 (constantI S_ 32 100000#32)) rfl V (y := main_c_5) (by decide)]
  generalize after (List.take 48 ops) V = W
  exact nullary_result ..

/-- `main_v39` after the line, from its operands after the line (operation 49). -/
theorem step_main_v39 (V : Valuation τ sig (Elt F)) :
    after ops V (main_v39 : DevRef τ sig) = (broadcastInDim S800000 ![] bcast_S_S800000 : (⟨S_, .i32⟩ : BufTy).Contents (Elt F) → (⟨S800000, .i32⟩ : BufTy).Contents (Elt F)) (after ops V (main_c_5 : DevRef τ sig)) := by
  rw [ops_writes.read 49 (op := StableHlo.unary main_c_5 main_v39 (broadcastInDim S800000 ![] bcast_S_S800000 : (⟨S_, .i32⟩ : BufTy).Contents (Elt F) → (⟨S800000, .i32⟩ : BufTy).Contents (Elt F))) rfl V (y := main_v39) (by decide),
    ops_writes.after_eq_take 49 V (r := main_c_5) (by decide)]
  generalize after (List.take 49 ops) V = W
  exact unary_result ..

/-- `main_v40` after the line, from its operands after the line (operation 50). -/
theorem step_main_v40 (V : Valuation τ sig (Elt F)) :
    after ops V (main_v40 : DevRef τ sig) = (addi : (⟨S800000, .i32⟩ : BufTy).Contents (Elt F) → (⟨S800000, .i32⟩ : BufTy).Contents (Elt F) → (⟨S800000, .i32⟩ : BufTy).Contents (Elt F)) (after ops V (main_v36 : DevRef τ sig)) (after ops V (main_v39 : DevRef τ sig)) := by
  rw [ops_writes.read 50 (op := StableHlo.binary main_v36 main_v39 main_v40 (addi : (⟨S800000, .i32⟩ : BufTy).Contents (Elt F) → (⟨S800000, .i32⟩ : BufTy).Contents (Elt F) → (⟨S800000, .i32⟩ : BufTy).Contents (Elt F))) rfl V (y := main_v40) (by decide),
    ops_writes.after_eq_take 50 V (r := main_v36) (by decide),
    ops_writes.after_eq_take 50 V (r := main_v39) (by decide)]
  generalize after (List.take 50 ops) V = W
  exact binary_result ..

/-- `main_v41` after the line, from its operands after the line (operation 51). -/
theorem step_main_v41 (V : Valuation τ sig (Elt F)) :
    after ops V (main_v41 : DevRef τ sig) = (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) (after ops V (main_v38 : DevRef τ sig)) (after ops V (main_v40 : DevRef τ sig)) (after ops V (main_v36 : DevRef τ sig)) := by
  rw [ops_writes.read 51 (op := StableHlo.ternary main_v38 main_v40 main_v36 main_v41 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F))) rfl V (y := main_v41) (by decide),
    ops_writes.after_eq_take 51 V (r := main_v38) (by decide),
    ops_writes.after_eq_take 51 V (r := main_v40) (by decide),
    ops_writes.after_eq_take 51 V (r := main_v36) (by decide)]
  generalize after (List.take 51 ops) V = W
  exact ternary_result ..

/-- `main_v42` after the line, from its operands after the line (operation 52). -/
theorem step_main_v42 (V : Valuation τ sig (Elt F)) :
    after ops V (main_v42 : DevRef τ sig) = (broadcastInDim S800000x1 ![0] bcast_S800000_S800000x1_0 : (⟨S800000, .i32⟩ : BufTy).Contents (Elt F) → (⟨S800000x1, .i32⟩ : BufTy).Contents (Elt F)) (after ops V (main_v41 : DevRef τ sig)) := by
  rw [ops_writes.read 52 (op := StableHlo.unary main_v41 main_v42 (broadcastInDim S800000x1 ![0] bcast_S800000_S800000x1_0 : (⟨S800000, .i32⟩ : BufTy).Contents (Elt F) → (⟨S800000x1, .i32⟩ : BufTy).Contents (Elt F))) rfl V (y := main_v42) (by decide),
    ops_writes.after_eq_take 52 V (r := main_v41) (by decide)]
  generalize after (List.take 52 ops) V = W
  exact unary_result ..

/-- `main_v43` after the line, from its operands after the line (operation 53). -/
theorem step_main_v43 (V : Valuation τ sig (Elt F)) :
    after ops V (main_v43 : DevRef τ sig) = ((fun x i => Host.gather gather_S100000x128_S800000x1_S800000x128_1_0_n_n_0_1_1128 x i) : (⟨S100000x128, .f32⟩ : BufTy).Contents (Elt F) → (⟨S800000x1, .i32⟩ : BufTy).Contents (Elt F) → (⟨S800000x128, .f32⟩ : BufTy).Contents (Elt F)) (after ops V (main_arg1 : DevRef τ sig)) (after ops V (main_v42 : DevRef τ sig)) := by
  rw [ops_writes.read 53 (op := StableHlo.binary main_arg1 main_v42 main_v43 ((fun x i => Host.gather gather_S100000x128_S800000x1_S800000x128_1_0_n_n_0_1_1128 x i) : (⟨S100000x128, .f32⟩ : BufTy).Contents (Elt F) → (⟨S800000x1, .i32⟩ : BufTy).Contents (Elt F) → (⟨S800000x128, .f32⟩ : BufTy).Contents (Elt F))) rfl V (y := main_v43) (by decide),
    ops_writes.after_eq_take 53 V (r := main_arg1) (by decide),
    ops_writes.after_eq_take 53 V (r := main_v42) (by decide)]
  generalize after (List.take 53 ops) V = W
  exact binary_result ..

/-- `main_call1_cst` after the line, from its operands after the line (operation 54). -/
theorem step_main_call1_cst (V : Valuation τ sig (Elt F)) :
    after ops V (main_call1_cst : DevRef τ sig) = (constant S_ .f32 0x00000000#32) := by
  rw [ops_writes.read 54 (op := StableHlo.TRef.nullary main_call1.cst (constant S_ .f32 0x00000000#32)) rfl V (y := main_call1_cst) (by decide)]
  generalize after (List.take 54 ops) V = W
  exact nullary_result ..

/-- `main_call1_v0` after the line, from its operands after the line (operation 55). -/
theorem step_main_call1_v0 (V : Valuation τ sig (Elt F)) :
    after ops V (main_call1_v0 : DevRef τ sig) = (broadcastInDim S800000x128 ![] bcast_S_S800000x128) (after ops V (main_call1_cst : DevRef τ sig)) := by
  rw [ops_writes.read 55 (op := StableHlo.TRef.unary main_call1.cst main_call1.v0 (broadcastInDim S800000x128 ![] bcast_S_S800000x128)) rfl V (y := main_call1_v0) (by decide),
    ops_writes.after_eq_take 55 V (r := main_call1_cst) (by decide)]
  generalize after (List.take 55 ops) V = W
  exact unary_result ..

/-- `main_v44` after the line, from its operands after the line (operation 56). -/
theorem step_main_v44 (V : Valuation τ sig (Elt F)) :
    after ops V (main_v44 : DevRef τ sig) = maximumf (after ops V (main_v43 : DevRef τ sig)) (after ops V (main_call1_v0 : DevRef τ sig)) := by
  rw [ops_writes.read 56 (op := StableHlo.TRef.binary (StableHlo.TRef.of main_v43 : StableHlo.TRef sig ⟨S800000x128, .f32⟩) main_call1.v0 main_call1.v1 maximumf) rfl V (y := main_v44) (by decide),
    ops_writes.after_eq_take 56 V (r := main_v43) (by decide),
    ops_writes.after_eq_take 56 V (r := main_call1_v0) (by decide)]
  generalize after (List.take 56 ops) V = W
  exact binary_result ..

/-- `main_v45` after the line, from its operands after the line (operation 57). -/
theorem step_main_v45 (V : Valuation τ sig (Elt F)) :
    after ops V (main_v45 : DevRef τ sig) = ((extractStridedSlice S1x800000 ![1, 0] · slices_S2x800000_S1x800000_1_0) : (⟨S2x800000, .i32⟩ : BufTy).Contents (Elt F) → (⟨S1x800000, .i32⟩ : BufTy).Contents (Elt F)) (after ops V (main_arg6 : DevRef τ sig)) := by
  rw [ops_writes.read 57 (op := StableHlo.unary main_arg6 main_v45 ((extractStridedSlice S1x800000 ![1, 0] · slices_S2x800000_S1x800000_1_0) : (⟨S2x800000, .i32⟩ : BufTy).Contents (Elt F) → (⟨S1x800000, .i32⟩ : BufTy).Contents (Elt F))) rfl V (y := main_v45) (by decide),
    ops_writes.after_eq_take 57 V (r := main_arg6) (by decide)]
  generalize after (List.take 57 ops) V = W
  exact unary_result ..

/-- `main_v46` after the line, from its operands after the line (operation 58). -/
theorem step_main_v46 (V : Valuation τ sig (Elt F)) :
    after ops V (main_v46 : DevRef τ sig) = shapeCast _ (after ops V (main_v45 : DevRef τ sig)) shapeCasts_S1x800000_S800000 := by
  rw [ops_writes.read 58 (op := StableHlo.reshape main_v45 main_v46 rfl shapeCasts_S1x800000_S800000) rfl V (y := main_v46) (by decide),
    ops_writes.after_eq_take 58 V (r := main_v45) (by decide)]
  generalize after (List.take 58 ops) V = W
  exact reshape_result ..

/-- `main_cst_6` after the line, from its operands after the line (operation 59). -/
theorem step_main_cst_6 (V : Valuation τ sig (Elt F)) :
    after ops V (main_cst_6 : DevRef τ sig) = (constant S_ .f32 0x00000000#32) := by
  rw [ops_writes.read 59 (op := StableHlo.nullary main_cst_6 (constant S_ .f32 0x00000000#32)) rfl V (y := main_cst_6) (by decide)]
  generalize after (List.take 59 ops) V = W
  exact nullary_result ..

/-- `main_v47` after the line, from its operands after the line (operation 60). -/
theorem step_main_v47 (V : Valuation τ sig (Elt F)) :
    after ops V (main_v47 : DevRef τ sig) = (broadcastInDim S100000x128 ![] bcast_S_S100000x128 : (⟨S_, .f32⟩ : BufTy).Contents (Elt F) → (⟨S100000x128, .f32⟩ : BufTy).Contents (Elt F)) (after ops V (main_cst_6 : DevRef τ sig)) := by
  rw [ops_writes.read 60 (op := StableHlo.unary main_cst_6 main_v47 (broadcastInDim S100000x128 ![] bcast_S_S100000x128 : (⟨S_, .f32⟩ : BufTy).Contents (Elt F) → (⟨S100000x128, .f32⟩ : BufTy).Contents (Elt F))) rfl V (y := main_v47) (by decide),
    ops_writes.after_eq_take 60 V (r := main_cst_6) (by decide)]
  generalize after (List.take 60 ops) V = W
  exact unary_result ..

/-- `main_v48` after the line, from its operands after the line (operation 61). -/
theorem step_main_v48 (V : Valuation τ sig (Elt F)) :
    after ops V (main_v48 : DevRef τ sig) = (broadcastInDim S800000x1 ![0] bcast_S800000_S800000x1_0 : (⟨S800000, .i32⟩ : BufTy).Contents (Elt F) → (⟨S800000x1, .i32⟩ : BufTy).Contents (Elt F)) (after ops V (main_v46 : DevRef τ sig)) := by
  rw [ops_writes.read 61 (op := StableHlo.unary main_v46 main_v48 (broadcastInDim S800000x1 ![0] bcast_S800000_S800000x1_0 : (⟨S800000, .i32⟩ : BufTy).Contents (Elt F) → (⟨S800000x1, .i32⟩ : BufTy).Contents (Elt F))) rfl V (y := main_v48) (by decide),
    ops_writes.after_eq_take 61 V (r := main_v46) (by decide)]
  generalize after (List.take 61 ops) V = W
  exact unary_result ..

/-- `main_v49` after the line, from its operands after the line (operation 62). -/
theorem step_main_v49 (V : Valuation τ sig (Elt F)) :
    after ops V (main_v49 : DevRef τ sig) = ((fun x i u => Host.scatterAdd scatter_S100000x128_S800000x1_S800000x128_1_0_0_1 x i u) : (⟨S100000x128, .f32⟩ : BufTy).Contents (Elt F) → (⟨S800000x1, .i32⟩ : BufTy).Contents (Elt F) → (⟨S800000x128, .f32⟩ : BufTy).Contents (Elt F) → (⟨S100000x128, .f32⟩ : BufTy).Contents (Elt F)) (after ops V (main_v47 : DevRef τ sig)) (after ops V (main_v48 : DevRef τ sig)) (after ops V (main_v44 : DevRef τ sig)) := by
  rw [ops_writes.read 62 (op := StableHlo.ternary main_v47 main_v48 main_v44 main_v49 ((fun x i u => Host.scatterAdd scatter_S100000x128_S800000x1_S800000x128_1_0_0_1 x i u) : (⟨S100000x128, .f32⟩ : BufTy).Contents (Elt F) → (⟨S800000x1, .i32⟩ : BufTy).Contents (Elt F) → (⟨S800000x128, .f32⟩ : BufTy).Contents (Elt F) → (⟨S100000x128, .f32⟩ : BufTy).Contents (Elt F))) rfl V (y := main_v49) (by decide),
    ops_writes.after_eq_take 62 V (r := main_v47) (by decide),
    ops_writes.after_eq_take 62 V (r := main_v48) (by decide),
    ops_writes.after_eq_take 62 V (r := main_v44) (by decide)]
  generalize after (List.take 62 ops) V = W
  exact ternary_result ..

/-- `main_v50` after the line, from its operands after the line (operation 63). -/
theorem step_main_v50 (V : Valuation τ sig (Elt F)) :
    after ops V (main_v50 : DevRef τ sig) = (broadcastInDim S1x128 ![1] bcast_S128_S1x128_1 : (⟨S128, .f32⟩ : BufTy).Contents (Elt F) → (⟨S1x128, .f32⟩ : BufTy).Contents (Elt F)) (after ops V (main_v34 : DevRef τ sig)) := by
  rw [ops_writes.read 63 (op := StableHlo.unary main_v34 main_v50 (broadcastInDim S1x128 ![1] bcast_S128_S1x128_1 : (⟨S128, .f32⟩ : BufTy).Contents (Elt F) → (⟨S1x128, .f32⟩ : BufTy).Contents (Elt F))) rfl V (y := main_v50) (by decide),
    ops_writes.after_eq_take 63 V (r := main_v34) (by decide)]
  generalize after (List.take 63 ops) V = W
  exact unary_result ..

end Cert.ReferenceIdeal.Hand

end
-- ==== Proof.Ref.StepB.lean ====
/-
  The reference's line read one operation at a time (operations of chunk B): the contents of the buffer an
  operation writes, after the whole line, are the operation's function of its operands' contents after the whole
  line — every buffer is written once, and an operand before the operation that reads it.
-/
import proofs.«164503_j82721070121701_1_alg».proof.Proof.Ref.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- `main_v51` after the line, from its operands after the line (operation 64). -/
theorem step_main_v51 (V : Valuation τ sig (Elt F)) :
    after ops V (main_v51 : DevRef τ sig) = (broadcastInDim S100000x128 ![0, 1] bcast_S1x128_S100000x128_0_1 : (⟨S1x128, .f32⟩ : BufTy).Contents (Elt F) → (⟨S100000x128, .f32⟩ : BufTy).Contents (Elt F)) (after ops V (main_v50 : DevRef τ sig)) := by
  rw [ops_writes.read 64 (op := StableHlo.unary main_v50 main_v51 (broadcastInDim S100000x128 ![0, 1] bcast_S1x128_S100000x128_0_1 : (⟨S1x128, .f32⟩ : BufTy).Contents (Elt F) → (⟨S100000x128, .f32⟩ : BufTy).Contents (Elt F))) rfl V (y := main_v51) (by decide),
    ops_writes.after_eq_take 64 V (r := main_v50) (by decide)]
  generalize after (List.take 64 ops) V = W
  exact unary_result ..

/-- `main_v52` after the line, from its operands after the line (operation 65). -/
theorem step_main_v52 (V : Valuation τ sig (Elt F)) :
    after ops V (main_v52 : DevRef τ sig) = (mulf : (⟨S100000x128, .f32⟩ : BufTy).Contents (Elt F) → (⟨S100000x128, .f32⟩ : BufTy).Contents (Elt F) → (⟨S100000x128, .f32⟩ : BufTy).Contents (Elt F)) (after ops V (main_v51 : DevRef τ sig)) (after ops V (main_v49 : DevRef τ sig)) := by
  rw [ops_writes.read 65 (op := StableHlo.binary main_v51 main_v49 main_v52 (mulf : (⟨S100000x128, .f32⟩ : BufTy).Contents (Elt F) → (⟨S100000x128, .f32⟩ : BufTy).Contents (Elt F) → (⟨S100000x128, .f32⟩ : BufTy).Contents (Elt F))) rfl V (y := main_v52) (by decide),
    ops_writes.after_eq_take 65 V (r := main_v51) (by decide),
    ops_writes.after_eq_take 65 V (r := main_v49) (by decide)]
  generalize after (List.take 65 ops) V = W
  exact binary_result ..

/-- `main_v53` after the line, from its operands after the line (operation 66). -/
theorem step_main_v53 (V : Valuation τ sig (Elt F)) :
    after ops V (main_v53 : DevRef τ sig) = (addf : (⟨S100000x128, .f32⟩ : BufTy).Contents (Elt F) → (⟨S100000x128, .f32⟩ : BufTy).Contents (Elt F) → (⟨S100000x128, .f32⟩ : BufTy).Contents (Elt F)) (after ops V (main_v30 : DevRef τ sig)) (after ops V (main_v52 : DevRef τ sig)) := by
  rw [ops_writes.read 66 (op := StableHlo.binary main_v30 main_v52 main_v53 (addf : (⟨S100000x128, .f32⟩ : BufTy).Contents (Elt F) → (⟨S100000x128, .f32⟩ : BufTy).Contents (Elt F) → (⟨S100000x128, .f32⟩ : BufTy).Contents (Elt F))) rfl V (y := main_v53) (by decide),
    ops_writes.after_eq_take 66 V (r := main_v30) (by decide),
    ops_writes.after_eq_take 66 V (r := main_v52) (by decide)]
  generalize after (List.take 66 ops) V = W
  exact binary_result ..

/-- `main_v54` after the line, from its operands after the line (operation 67). -/
theorem step_main_v54 (V : Valuation τ sig (Elt F)) :
    after ops V (main_v54 : DevRef τ sig) = ((extractStridedSlice S1x128 ![3, 0] · slices_S5x128_S1x128_3_0) : (⟨S5x128, .f32⟩ : BufTy).Contents (Elt F) → (⟨S1x128, .f32⟩ : BufTy).Contents (Elt F)) (after ops V (main_arg19 : DevRef τ sig)) := by
  rw [ops_writes.read 67 (op := StableHlo.unary main_arg19 main_v54 ((extractStridedSlice S1x128 ![3, 0] · slices_S5x128_S1x128_3_0) : (⟨S5x128, .f32⟩ : BufTy).Contents (Elt F) → (⟨S1x128, .f32⟩ : BufTy).Contents (Elt F))) rfl V (y := main_v54) (by decide),
    ops_writes.after_eq_take 67 V (r := main_arg19) (by decide)]
  generalize after (List.take 67 ops) V = W
  exact unary_result ..

/-- `main_v55` after the line, from its operands after the line (operation 68). -/
theorem step_main_v55 (V : Valuation τ sig (Elt F)) :
    after ops V (main_v55 : DevRef τ sig) = shapeCast _ (after ops V (main_v54 : DevRef τ sig)) shapeCasts_S1x128_S128 := by
  rw [ops_writes.read 68 (op := StableHlo.reshape main_v54 main_v55 rfl shapeCasts_S1x128_S128) rfl V (y := main_v55) (by decide),
    ops_writes.after_eq_take 68 V (r := main_v54) (by decide)]
  generalize after (List.take 68 ops) V = W
  exact reshape_result ..

/-- `main_cst_7` after the line, from its operands after the line (operation 69). -/
theorem step_main_cst_7 (V : Valuation τ sig (Elt F)) :
    after ops V (main_cst_7 : DevRef τ sig) = (constant S_ .f32 0x3F800000#32) := by
  rw [ops_writes.read 69 (op := StableHlo.nullary main_cst_7 (constant S_ .f32 0x3F800000#32)) rfl V (y := main_cst_7) (by decide)]
  generalize after (List.take 69 ops) V = W
  exact nullary_result ..

/-- `main_v56` after the line, from its operands after the line (operation 70). -/
theorem step_main_v56 (V : Valuation τ sig (Elt F)) :
    after ops V (main_v56 : DevRef τ sig) = (broadcastInDim S128 ![] bcast_S_S128 : (⟨S_, .f32⟩ : BufTy).Contents (Elt F) → (⟨S128, .f32⟩ : BufTy).Contents (Elt F)) (after ops V (main_cst_7 : DevRef τ sig)) := by
  rw [ops_writes.read 70 (op := StableHlo.unary main_cst_7 main_v56 (broadcastInDim S128 ![] bcast_S_S128 : (⟨S_, .f32⟩ : BufTy).Contents (Elt F) → (⟨S128, .f32⟩ : BufTy).Contents (Elt F))) rfl V (y := main_v56) (by decide),
    ops_writes.after_eq_take 70 V (r := main_cst_7) (by decide)]
  generalize after (List.take 70 ops) V = W
  exact unary_result ..

/-- `main_v57` after the line, from its operands after the line (operation 71). -/
theorem step_main_v57 (V : Valuation τ sig (Elt F)) :
    after ops V (main_v57 : DevRef τ sig) = (addf : (⟨S128, .f32⟩ : BufTy).Contents (Elt F) → (⟨S128, .f32⟩ : BufTy).Contents (Elt F) → (⟨S128, .f32⟩ : BufTy).Contents (Elt F)) (after ops V (main_v56 : DevRef τ sig)) (after ops V (main_v55 : DevRef τ sig)) := by
  rw [ops_writes.read 71 (op := StableHlo.binary main_v56 main_v55 main_v57 (addf : (⟨S128, .f32⟩ : BufTy).Contents (Elt F) → (⟨S128, .f32⟩ : BufTy).Contents (Elt F) → (⟨S128, .f32⟩ : BufTy).Contents (Elt F))) rfl V (y := main_v57) (by decide),
    ops_writes.after_eq_take 71 V (r := main_v56) (by decide),
    ops_writes.after_eq_take 71 V (r := main_v55) (by decide)]
  generalize after (List.take 71 ops) V = W
  exact binary_result ..

/-- `main_v58` after the line, from its operands after the line (operation 72). -/
theorem step_main_v58 (V : Valuation τ sig (Elt F)) :
    after ops V (main_v58 : DevRef τ sig) = ((extractStridedSlice S1x800000 ![0, 0] · slices_S2x800000_S1x800000_0_0) : (⟨S2x800000, .i32⟩ : BufTy).Contents (Elt F) → (⟨S1x800000, .i32⟩ : BufTy).Contents (Elt F)) (after ops V (main_arg7 : DevRef τ sig)) := by
  rw [ops_writes.read 72 (op := StableHlo.unary main_arg7 main_v58 ((extractStridedSlice S1x800000 ![0, 0] · slices_S2x800000_S1x800000_0_0) : (⟨S2x800000, .i32⟩ : BufTy).Contents (Elt F) → (⟨S1x800000, .i32⟩ : BufTy).Contents (Elt F))) rfl V (y := main_v58) (by decide),
    ops_writes.after_eq_take 72 V (r := main_arg7) (by decide)]
  generalize after (List.take 72 ops) V = W
  exact unary_result ..

/-- `main_v59` after the line, from its operands after the line (operation 73). -/
theorem step_main_v59 (V : Valuation τ sig (Elt F)) :
    after ops V (main_v59 : DevRef τ sig) = shapeCast _ (after ops V (main_v58 : DevRef τ sig)) shapeCasts_S1x800000_S800000 := by
  rw [ops_writes.read 73 (op := StableHlo.reshape main_v58 main_v59 rfl shapeCasts_S1x800000_S800000) rfl V (y := main_v59) (by decide),
    ops_writes.after_eq_take 73 V (r := main_v58) (by decide)]
  generalize after (List.take 73 ops) V = W
  exact reshape_result ..

/-- `main_c_8` after the line, from its operands after the line (operation 74). -/
theorem step_main_c_8 (V : Valuation τ sig (Elt F)) :
    after ops V (main_c_8 : DevRef τ sig) = (constantI S_ 32 0#32) := by
  rw [ops_writes.read 74 (op := StableHlo.nullary main_c_8 (constantI S_ 32 0#32)) rfl V (y := main_c_8) (by decide)]
  generalize after (List.take 74 ops) V = W
  exact nullary_result ..

/-- `main_v60` after the line, from its operands after the line (operation 75). -/
theorem step_main_v60 (V : Valuation τ sig (Elt F)) :
    after ops V (main_v60 : DevRef τ sig) = (broadcastInDim S800000 ![] bcast_S_S800000 : (⟨S_, .i32⟩ : BufTy).Contents (Elt F) → (⟨S800000, .i32⟩ : BufTy).Contents (Elt F)) (after ops V (main_c_8 : DevRef τ sig)) := by
  rw [ops_writes.read 75 (op := StableHlo.unary main_c_8 main_v60 (broadcastInDim S800000 ![] bcast_S_S800000 : (⟨S_, .i32⟩ : BufTy).Contents (Elt F) → (⟨S800000, .i32⟩ : BufTy).Contents (Elt F))) rfl V (y := main_v60) (by decide),
    ops_writes.after_eq_take 75 V (r := main_c_8) (by decide)]
  generalize after (List.take 75 ops) V = W
  exact unary_result ..

/-- `main_v61` after the line, from its operands after the line (operation 76). -/
theorem step_main_v61 (V : Valuation τ sig (Elt F)) :
    after ops V (main_v61 : DevRef τ sig) = (cmpi .slt : (⟨S800000, .i32⟩ : BufTy).Contents (Elt F) → (⟨S800000, .i32⟩ : BufTy).Contents (Elt F) → (⟨S800000, .i1⟩ : BufTy).Contents (Elt F)) (after ops V (main_v59 : DevRef τ sig)) (after ops V (main_v60 : DevRef τ sig)) := by
  rw [ops_writes.read 76 (op := StableHlo.binary main_v59 main_v60 main_v61 (cmpi .slt : (⟨S800000, .i32⟩ : BufTy).Contents (Elt F) → (⟨S800000, .i32⟩ : BufTy).Contents (Elt F) → (⟨S800000, .i1⟩ : BufTy).Contents (Elt F))) rfl V (y := main_v61) (by decide),
    ops_writes.after_eq_take 76 V (r := main_v59) (by decide),
    ops_writes.after_eq_take 76 V (r := main_v60) (by decide)]
  generalize after (List.take 76 ops) V = W
  exact binary_result ..

/-- `main_c_9` after the line, from its operands after the line (operation 77). -/
theorem step_main_c_9 (V : Valuation τ sig (Elt F)) :
    after ops V (main_c_9 : DevRef τ sig) = (constantI S_ 32 100000#32) := by
  rw [ops_writes.read 77 (op := StableHlo.nullary main_c_9 (constantI S_ 32 100000#32)) rfl V (y := main_c_9) (by decide)]
  generalize after (List.take 77 ops) V = W
  exact nullary_result ..

/-- `main_v62` after the line, from its operands after the line (operation 78). -/
theorem step_main_v62 (V : Valuation τ sig (Elt F)) :
    after ops V (main_v62 : DevRef τ sig) = (broadcastInDim S800000 ![] bcast_S_S800000 : (⟨S_, .i32⟩ : BufTy).Contents (Elt F) → (⟨S800000, .i32⟩ : BufTy).Contents (Elt F)) (after ops V (main_c_9 : DevRef τ sig)) := by
  rw [ops_writes.read 78 (op := StableHlo.unary main_c_9 main_v62 (broadcastInDim S800000 ![] bcast_S_S800000 : (⟨S_, .i32⟩ : BufTy).Contents (Elt F) → (⟨S800000, .i32⟩ : BufTy).Contents (Elt F))) rfl V (y := main_v62) (by decide),
    ops_writes.after_eq_take 78 V (r := main_c_9) (by decide)]
  generalize after (List.take 78 ops) V = W
  exact unary_result ..

/-- `main_v63` after the line, from its operands after the line (operation 79). -/
theorem step_main_v63 (V : Valuation τ sig (Elt F)) :
    after ops V (main_v63 : DevRef τ sig) = (addi : (⟨S800000, .i32⟩ : BufTy).Contents (Elt F) → (⟨S800000, .i32⟩ : BufTy).Contents (Elt F) → (⟨S800000, .i32⟩ : BufTy).Contents (Elt F)) (after ops V (main_v59 : DevRef τ sig)) (after ops V (main_v62 : DevRef τ sig)) := by
  rw [ops_writes.read 79 (op := StableHlo.binary main_v59 main_v62 main_v63 (addi : (⟨S800000, .i32⟩ : BufTy).Contents (Elt F) → (⟨S800000, .i32⟩ : BufTy).Contents (Elt F) → (⟨S800000, .i32⟩ : BufTy).Contents (Elt F))) rfl V (y := main_v63) (by decide),
    ops_writes.after_eq_take 79 V (r := main_v59) (by decide),
    ops_writes.after_eq_take 79 V (r := main_v62) (by decide)]
  generalize after (List.take 79 ops) V = W
  exact binary_result ..

/-- `main_v64` after the line, from its operands after the line (operation 80). -/
theorem step_main_v64 (V : Valuation τ sig (Elt F)) :
    after ops V (main_v64 : DevRef τ sig) = (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) (after ops V (main_v61 : DevRef τ sig)) (after ops V (main_v63 : DevRef τ sig)) (after ops V (main_v59 : DevRef τ sig)) := by
  rw [ops_writes.read 80 (op := StableHlo.ternary main_v61 main_v63 main_v59 main_v64 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F))) rfl V (y := main_v64) (by decide),
    ops_writes.after_eq_take 80 V (r := main_v61) (by decide),
    ops_writes.after_eq_take 80 V (r := main_v63) (by decide),
    ops_writes.after_eq_take 80 V (r := main_v59) (by decide)]
  generalize after (List.take 80 ops) V = W
  exact ternary_result ..

/-- `main_v65` after the line, from its operands after the line (operation 81). -/
theorem step_main_v65 (V : Valuation τ sig (Elt F)) :
    after ops V (main_v65 : DevRef τ sig) = (broadcastInDim S800000x1 ![0] bcast_S800000_S800000x1_0 : (⟨S800000, .i32⟩ : BufTy).Contents (Elt F) → (⟨S800000x1, .i32⟩ : BufTy).Contents (Elt F)) (after ops V (main_v64 : DevRef τ sig)) := by
  rw [ops_writes.read 81 (op := StableHlo.unary main_v64 main_v65 (broadcastInDim S800000x1 ![0] bcast_S800000_S800000x1_0 : (⟨S800000, .i32⟩ : BufTy).Contents (Elt F) → (⟨S800000x1, .i32⟩ : BufTy).Contents (Elt F))) rfl V (y := main_v65) (by decide),
    ops_writes.after_eq_take 81 V (r := main_v64) (by decide)]
  generalize after (List.take 81 ops) V = W
  exact unary_result ..

/-- `main_v66` after the line, from its operands after the line (operation 82). -/
theorem step_main_v66 (V : Valuation τ sig (Elt F)) :
    after ops V (main_v66 : DevRef τ sig) = ((fun x i => Host.gather gather_S100000x128_S800000x1_S800000x128_1_0_n_n_0_1_1128 x i) : (⟨S100000x128, .f32⟩ : BufTy).Contents (Elt F) → (⟨S800000x1, .i32⟩ : BufTy).Contents (Elt F) → (⟨S800000x128, .f32⟩ : BufTy).Contents (Elt F)) (after ops V (main_arg2 : DevRef τ sig)) (after ops V (main_v65 : DevRef τ sig)) := by
  rw [ops_writes.read 82 (op := StableHlo.binary main_arg2 main_v65 main_v66 ((fun x i => Host.gather gather_S100000x128_S800000x1_S800000x128_1_0_n_n_0_1_1128 x i) : (⟨S100000x128, .f32⟩ : BufTy).Contents (Elt F) → (⟨S800000x1, .i32⟩ : BufTy).Contents (Elt F) → (⟨S800000x128, .f32⟩ : BufTy).Contents (Elt F))) rfl V (y := main_v66) (by decide),
    ops_writes.after_eq_take 82 V (r := main_arg2) (by decide),
    ops_writes.after_eq_take 82 V (r := main_v65) (by decide)]
  generalize after (List.take 82 ops) V = W
  exact binary_result ..

/-- `main_call2_cst` after the line, from its operands after the line (operation 83). -/
theorem step_main_call2_cst (V : Valuation τ sig (Elt F)) :
    after ops V (main_call2_cst : DevRef τ sig) = (constant S_ .f32 0x00000000#32) := by
  rw [ops_writes.read 83 (op := StableHlo.TRef.nullary main_call2.cst (constant S_ .f32 0x00000000#32)) rfl V (y := main_call2_cst) (by decide)]
  generalize after (List.take 83 ops) V = W
  exact nullary_result ..

/-- `main_call2_v0` after the line, from its operands after the line (operation 84). -/
theorem step_main_call2_v0 (V : Valuation τ sig (Elt F)) :
    after ops V (main_call2_v0 : DevRef τ sig) = (broadcastInDim S800000x128 ![] bcast_S_S800000x128) (after ops V (main_call2_cst : DevRef τ sig)) := by
  rw [ops_writes.read 84 (op := StableHlo.TRef.unary main_call2.cst main_call2.v0 (broadcastInDim S800000x128 ![] bcast_S_S800000x128)) rfl V (y := main_call2_v0) (by decide),
    ops_writes.after_eq_take 84 V (r := main_call2_cst) (by decide)]
  generalize after (List.take 84 ops) V = W
  exact unary_result ..

/-- `main_v67` after the line, from its operands after the line (operation 85). -/
theorem step_main_v67 (V : Valuation τ sig (Elt F)) :
    after ops V (main_v67 : DevRef τ sig) = maximumf (after ops V (main_v66 : DevRef τ sig)) (after ops V (main_call2_v0 : DevRef τ sig)) := by
  rw [ops_writes.read 85 (op := StableHlo.TRef.binary (StableHlo.TRef.of main_v66 : StableHlo.TRef sig ⟨S800000x128, .f32⟩) main_call2.v0 main_call2.v1 maximumf) rfl V (y := main_v67) (by decide),
    ops_writes.after_eq_take 85 V (r := main_v66) (by decide),
    ops_writes.after_eq_take 85 V (r := main_call2_v0) (by decide)]
  generalize after (List.take 85 ops) V = W
  exact binary_result ..

/-- `main_v68` after the line, from its operands after the line (operation 86). -/
theorem step_main_v68 (V : Valuation τ sig (Elt F)) :
    after ops V (main_v68 : DevRef τ sig) = ((extractStridedSlice S1x800000 ![1, 0] · slices_S2x800000_S1x800000_1_0) : (⟨S2x800000, .i32⟩ : BufTy).Contents (Elt F) → (⟨S1x800000, .i32⟩ : BufTy).Contents (Elt F)) (after ops V (main_arg7 : DevRef τ sig)) := by
  rw [ops_writes.read 86 (op := StableHlo.unary main_arg7 main_v68 ((extractStridedSlice S1x800000 ![1, 0] · slices_S2x800000_S1x800000_1_0) : (⟨S2x800000, .i32⟩ : BufTy).Contents (Elt F) → (⟨S1x800000, .i32⟩ : BufTy).Contents (Elt F))) rfl V (y := main_v68) (by decide),
    ops_writes.after_eq_take 86 V (r := main_arg7) (by decide)]
  generalize after (List.take 86 ops) V = W
  exact unary_result ..

/-- `main_v69` after the line, from its operands after the line (operation 87). -/
theorem step_main_v69 (V : Valuation τ sig (Elt F)) :
    after ops V (main_v69 : DevRef τ sig) = shapeCast _ (after ops V (main_v68 : DevRef τ sig)) shapeCasts_S1x800000_S800000 := by
  rw [ops_writes.read 87 (op := StableHlo.reshape main_v68 main_v69 rfl shapeCasts_S1x800000_S800000) rfl V (y := main_v69) (by decide),
    ops_writes.after_eq_take 87 V (r := main_v68) (by decide)]
  generalize after (List.take 87 ops) V = W
  exact reshape_result ..

/-- `main_cst_10` after the line, from its operands after the line (operation 88). -/
theorem step_main_cst_10 (V : Valuation τ sig (Elt F)) :
    after ops V (main_cst_10 : DevRef τ sig) = (constant S_ .f32 0x00000000#32) := by
  rw [ops_writes.read 88 (op := StableHlo.nullary main_cst_10 (constant S_ .f32 0x00000000#32)) rfl V (y := main_cst_10) (by decide)]
  generalize after (List.take 88 ops) V = W
  exact nullary_result ..

/-- `main_v70` after the line, from its operands after the line (operation 89). -/
theorem step_main_v70 (V : Valuation τ sig (Elt F)) :
    after ops V (main_v70 : DevRef τ sig) = (broadcastInDim S100000x128 ![] bcast_S_S100000x128 : (⟨S_, .f32⟩ : BufTy).Contents (Elt F) → (⟨S100000x128, .f32⟩ : BufTy).Contents (Elt F)) (after ops V (main_cst_10 : DevRef τ sig)) := by
  rw [ops_writes.read 89 (op := StableHlo.unary main_cst_10 main_v70 (broadcastInDim S100000x128 ![] bcast_S_S100000x128 : (⟨S_, .f32⟩ : BufTy).Contents (Elt F) → (⟨S100000x128, .f32⟩ : BufTy).Contents (Elt F))) rfl V (y := main_v70) (by decide),
    ops_writes.after_eq_take 89 V (r := main_cst_10) (by decide)]
  generalize after (List.take 89 ops) V = W
  exact unary_result ..

/-- `main_v71` after the line, from its operands after the line (operation 90). -/
theorem step_main_v71 (V : Valuation τ sig (Elt F)) :
    after ops V (main_v71 : DevRef τ sig) = (broadcastInDim S800000x1 ![0] bcast_S800000_S800000x1_0 : (⟨S800000, .i32⟩ : BufTy).Contents (Elt F) → (⟨S800000x1, .i32⟩ : BufTy).Contents (Elt F)) (after ops V (main_v69 : DevRef τ sig)) := by
  rw [ops_writes.read 90 (op := StableHlo.unary main_v69 main_v71 (broadcastInDim S800000x1 ![0] bcast_S800000_S800000x1_0 : (⟨S800000, .i32⟩ : BufTy).Contents (Elt F) → (⟨S800000x1, .i32⟩ : BufTy).Contents (Elt F))) rfl V (y := main_v71) (by decide),
    ops_writes.after_eq_take 90 V (r := main_v69) (by decide)]
  generalize after (List.take 90 ops) V = W
  exact unary_result ..

/-- `main_v72` after the line, from its operands after the line (operation 91). -/
theorem step_main_v72 (V : Valuation τ sig (Elt F)) :
    after ops V (main_v72 : DevRef τ sig) = ((fun x i u => Host.scatterAdd scatter_S100000x128_S800000x1_S800000x128_1_0_0_1 x i u) : (⟨S100000x128, .f32⟩ : BufTy).Contents (Elt F) → (⟨S800000x1, .i32⟩ : BufTy).Contents (Elt F) → (⟨S800000x128, .f32⟩ : BufTy).Contents (Elt F) → (⟨S100000x128, .f32⟩ : BufTy).Contents (Elt F)) (after ops V (main_v70 : DevRef τ sig)) (after ops V (main_v71 : DevRef τ sig)) (after ops V (main_v67 : DevRef τ sig)) := by
  rw [ops_writes.read 91 (op := StableHlo.ternary main_v70 main_v71 main_v67 main_v72 ((fun x i u => Host.scatterAdd scatter_S100000x128_S800000x1_S800000x128_1_0_0_1 x i u) : (⟨S100000x128, .f32⟩ : BufTy).Contents (Elt F) → (⟨S800000x1, .i32⟩ : BufTy).Contents (Elt F) → (⟨S800000x128, .f32⟩ : BufTy).Contents (Elt F) → (⟨S100000x128, .f32⟩ : BufTy).Contents (Elt F))) rfl V (y := main_v72) (by decide),
    ops_writes.after_eq_take 91 V (r := main_v70) (by decide),
    ops_writes.after_eq_take 91 V (r := main_v71) (by decide),
    ops_writes.after_eq_take 91 V (r := main_v67) (by decide)]
  generalize after (List.take 91 ops) V = W
  exact ternary_result ..

/-- `main_v73` after the line, from its operands after the line (operation 92). -/
theorem step_main_v73 (V : Valuation τ sig (Elt F)) :
    after ops V (main_v73 : DevRef τ sig) = (broadcastInDim S1x128 ![1] bcast_S128_S1x128_1 : (⟨S128, .f32⟩ : BufTy).Contents (Elt F) → (⟨S1x128, .f32⟩ : BufTy).Contents (Elt F)) (after ops V (main_v57 : DevRef τ sig)) := by
  rw [ops_writes.read 92 (op := StableHlo.unary main_v57 main_v73 (broadcastInDim S1x128 ![1] bcast_S128_S1x128_1 : (⟨S128, .f32⟩ : BufTy).Contents (Elt F) → (⟨S1x128, .f32⟩ : BufTy).Contents (Elt F))) rfl V (y := main_v73) (by decide),
    ops_writes.after_eq_take 92 V (r := main_v57) (by decide)]
  generalize after (List.take 92 ops) V = W
  exact unary_result ..

/-- `main_v74` after the line, from its operands after the line (operation 93). -/
theorem step_main_v74 (V : Valuation τ sig (Elt F)) :
    after ops V (main_v74 : DevRef τ sig) = (broadcastInDim S100000x128 ![0, 1] bcast_S1x128_S100000x128_0_1 : (⟨S1x128, .f32⟩ : BufTy).Contents (Elt F) → (⟨S100000x128, .f32⟩ : BufTy).Contents (Elt F)) (after ops V (main_v73 : DevRef τ sig)) := by
  rw [ops_writes.read 93 (op := StableHlo.unary main_v73 main_v74 (broadcastInDim S100000x128 ![0, 1] bcast_S1x128_S100000x128_0_1 : (⟨S1x128, .f32⟩ : BufTy).Contents (Elt F) → (⟨S100000x128, .f32⟩ : BufTy).Contents (Elt F))) rfl V (y := main_v74) (by decide),
    ops_writes.after_eq_take 93 V (r := main_v73) (by decide)]
  generalize after (List.take 93 ops) V = W
  exact unary_result ..

/-- `main_v75` after the line, from its operands after the line (operation 94). -/
theorem step_main_v75 (V : Valuation τ sig (Elt F)) :
    after ops V (main_v75 : DevRef τ sig) = (mulf : (⟨S100000x128, .f32⟩ : BufTy).Contents (Elt F) → (⟨S100000x128, .f32⟩ : BufTy).Contents (Elt F) → (⟨S100000x128, .f32⟩ : BufTy).Contents (Elt F)) (after ops V (main_v74 : DevRef τ sig)) (after ops V (main_v72 : DevRef τ sig)) := by
  rw [ops_writes.read 94 (op := StableHlo.binary main_v74 main_v72 main_v75 (mulf : (⟨S100000x128, .f32⟩ : BufTy).Contents (Elt F) → (⟨S100000x128, .f32⟩ : BufTy).Contents (Elt F) → (⟨S100000x128, .f32⟩ : BufTy).Contents (Elt F))) rfl V (y := main_v75) (by decide),
    ops_writes.after_eq_take 94 V (r := main_v74) (by decide),
    ops_writes.after_eq_take 94 V (r := main_v72) (by decide)]
  generalize after (List.take 94 ops) V = W
  exact binary_result ..

/-- `main_v76` after the line, from its operands after the line (operation 95). -/
theorem step_main_v76 (V : Valuation τ sig (Elt F)) :
    after ops V (main_v76 : DevRef τ sig) = (addf : (⟨S100000x128, .f32⟩ : BufTy).Contents (Elt F) → (⟨S100000x128, .f32⟩ : BufTy).Contents (Elt F) → (⟨S100000x128, .f32⟩ : BufTy).Contents (Elt F)) (after ops V (main_v53 : DevRef τ sig)) (after ops V (main_v75 : DevRef τ sig)) := by
  rw [ops_writes.read 95 (op := StableHlo.binary main_v53 main_v75 main_v76 (addf : (⟨S100000x128, .f32⟩ : BufTy).Contents (Elt F) → (⟨S100000x128, .f32⟩ : BufTy).Contents (Elt F) → (⟨S100000x128, .f32⟩ : BufTy).Contents (Elt F))) rfl V (y := main_v76) (by decide),
    ops_writes.after_eq_take 95 V (r := main_v53) (by decide),
    ops_writes.after_eq_take 95 V (r := main_v75) (by decide)]
  generalize after (List.take 95 ops) V = W
  exact binary_result ..

/-- `main_v77` after the line, from its operands after the line (operation 96). -/
theorem step_main_v77 (V : Valuation τ sig (Elt F)) :
    after ops V (main_v77 : DevRef τ sig) = ((extractStridedSlice S1x128 ![4, 0] · slices_S5x128_S1x128_4_0) : (⟨S5x128, .f32⟩ : BufTy).Contents (Elt F) → (⟨S1x128, .f32⟩ : BufTy).Contents (Elt F)) (after ops V (main_arg19 : DevRef τ sig)) := by
  rw [ops_writes.read 96 (op := StableHlo.unary main_arg19 main_v77 ((extractStridedSlice S1x128 ![4, 0] · slices_S5x128_S1x128_4_0) : (⟨S5x128, .f32⟩ : BufTy).Contents (Elt F) → (⟨S1x128, .f32⟩ : BufTy).Contents (Elt F))) rfl V (y := main_v77) (by decide),
    ops_writes.after_eq_take 96 V (r := main_arg19) (by decide)]
  generalize after (List.take 96 ops) V = W
  exact unary_result ..

/-- `main_v78` after the line, from its operands after the line (operation 97). -/
theorem step_main_v78 (V : Valuation τ sig (Elt F)) :
    after ops V (main_v78 : DevRef τ sig) = shapeCast _ (after ops V (main_v77 : DevRef τ sig)) shapeCasts_S1x128_S128 := by
  rw [ops_writes.read 97 (op := StableHlo.reshape main_v77 main_v78 rfl shapeCasts_S1x128_S128) rfl V (y := main_v78) (by decide),
    ops_writes.after_eq_take 97 V (r := main_v77) (by decide)]
  generalize after (List.take 97 ops) V = W
  exact reshape_result ..

/-- `main_cst_11` after the line, from its operands after the line (operation 98). -/
theorem step_main_cst_11 (V : Valuation τ sig (Elt F)) :
    after ops V (main_cst_11 : DevRef τ sig) = (constant S_ .f32 0x3F800000#32) := by
  rw [ops_writes.read 98 (op := StableHlo.nullary main_cst_11 (constant S_ .f32 0x3F800000#32)) rfl V (y := main_cst_11) (by decide)]
  generalize after (List.take 98 ops) V = W
  exact nullary_result ..

/-- `main_v79` after the line, from its operands after the line (operation 99). -/
theorem step_main_v79 (V : Valuation τ sig (Elt F)) :
    after ops V (main_v79 : DevRef τ sig) = (broadcastInDim S128 ![] bcast_S_S128 : (⟨S_, .f32⟩ : BufTy).Contents (Elt F) → (⟨S128, .f32⟩ : BufTy).Contents (Elt F)) (after ops V (main_cst_11 : DevRef τ sig)) := by
  rw [ops_writes.read 99 (op := StableHlo.unary main_cst_11 main_v79 (broadcastInDim S128 ![] bcast_S_S128 : (⟨S_, .f32⟩ : BufTy).Contents (Elt F) → (⟨S128, .f32⟩ : BufTy).Contents (Elt F))) rfl V (y := main_v79) (by decide),
    ops_writes.after_eq_take 99 V (r := main_cst_11) (by decide)]
  generalize after (List.take 99 ops) V = W
  exact unary_result ..

/-- `main_v80` after the line, from its operands after the line (operation 100). -/
theorem step_main_v80 (V : Valuation τ sig (Elt F)) :
    after ops V (main_v80 : DevRef τ sig) = (addf : (⟨S128, .f32⟩ : BufTy).Contents (Elt F) → (⟨S128, .f32⟩ : BufTy).Contents (Elt F) → (⟨S128, .f32⟩ : BufTy).Contents (Elt F)) (after ops V (main_v79 : DevRef τ sig)) (after ops V (main_v78 : DevRef τ sig)) := by
  rw [ops_writes.read 100 (op := StableHlo.binary main_v79 main_v78 main_v80 (addf : (⟨S128, .f32⟩ : BufTy).Contents (Elt F) → (⟨S128, .f32⟩ : BufTy).Contents (Elt F) → (⟨S128, .f32⟩ : BufTy).Contents (Elt F))) rfl V (y := main_v80) (by decide),
    ops_writes.after_eq_take 100 V (r := main_v79) (by decide),
    ops_writes.after_eq_take 100 V (r := main_v78) (by decide)]
  generalize after (List.take 100 ops) V = W
  exact binary_result ..

/-- `main_v81` after the line, from its operands after the line (operation 101). -/
theorem step_main_v81 (V : Valuation τ sig (Elt F)) :
    after ops V (main_v81 : DevRef τ sig) = ((extractStridedSlice S1x800000 ![0, 0] · slices_S2x800000_S1x800000_0_0) : (⟨S2x800000, .i32⟩ : BufTy).Contents (Elt F) → (⟨S1x800000, .i32⟩ : BufTy).Contents (Elt F)) (after ops V (main_arg8 : DevRef τ sig)) := by
  rw [ops_writes.read 101 (op := StableHlo.unary main_arg8 main_v81 ((extractStridedSlice S1x800000 ![0, 0] · slices_S2x800000_S1x800000_0_0) : (⟨S2x800000, .i32⟩ : BufTy).Contents (Elt F) → (⟨S1x800000, .i32⟩ : BufTy).Contents (Elt F))) rfl V (y := main_v81) (by decide),
    ops_writes.after_eq_take 101 V (r := main_arg8) (by decide)]
  generalize after (List.take 101 ops) V = W
  exact unary_result ..

/-- `main_v82` after the line, from its operands after the line (operation 102). -/
theorem step_main_v82 (V : Valuation τ sig (Elt F)) :
    after ops V (main_v82 : DevRef τ sig) = shapeCast _ (after ops V (main_v81 : DevRef τ sig)) shapeCasts_S1x800000_S800000 := by
  rw [ops_writes.read 102 (op := StableHlo.reshape main_v81 main_v82 rfl shapeCasts_S1x800000_S800000) rfl V (y := main_v82) (by decide),
    ops_writes.after_eq_take 102 V (r := main_v81) (by decide)]
  generalize after (List.take 102 ops) V = W
  exact reshape_result ..

/-- `main_c_12` after the line, from its operands after the line (operation 103). -/
theorem step_main_c_12 (V : Valuation τ sig (Elt F)) :
    after ops V (main_c_12 : DevRef τ sig) = (constantI S_ 32 0#32) := by
  rw [ops_writes.read 103 (op := StableHlo.nullary main_c_12 (constantI S_ 32 0#32)) rfl V (y := main_c_12) (by decide)]
  generalize after (List.take 103 ops) V = W
  exact nullary_result ..

/-- `main_v83` after the line, from its operands after the line (operation 104). -/
theorem step_main_v83 (V : Valuation τ sig (Elt F)) :
    after ops V (main_v83 : DevRef τ sig) = (broadcastInDim S800000 ![] bcast_S_S800000 : (⟨S_, .i32⟩ : BufTy).Contents (Elt F) → (⟨S800000, .i32⟩ : BufTy).Contents (Elt F)) (after ops V (main_c_12 : DevRef τ sig)) := by
  rw [ops_writes.read 104 (op := StableHlo.unary main_c_12 main_v83 (broadcastInDim S800000 ![] bcast_S_S800000 : (⟨S_, .i32⟩ : BufTy).Contents (Elt F) → (⟨S800000, .i32⟩ : BufTy).Contents (Elt F))) rfl V (y := main_v83) (by decide),
    ops_writes.after_eq_take 104 V (r := main_c_12) (by decide)]
  generalize after (List.take 104 ops) V = W
  exact unary_result ..

/-- `main_v84` after the line, from its operands after the line (operation 105). -/
theorem step_main_v84 (V : Valuation τ sig (Elt F)) :
    after ops V (main_v84 : DevRef τ sig) = (cmpi .slt : (⟨S800000, .i32⟩ : BufTy).Contents (Elt F) → (⟨S800000, .i32⟩ : BufTy).Contents (Elt F) → (⟨S800000, .i1⟩ : BufTy).Contents (Elt F)) (after ops V (main_v82 : DevRef τ sig)) (after ops V (main_v83 : DevRef τ sig)) := by
  rw [ops_writes.read 105 (op := StableHlo.binary main_v82 main_v83 main_v84 (cmpi .slt : (⟨S800000, .i32⟩ : BufTy).Contents (Elt F) → (⟨S800000, .i32⟩ : BufTy).Contents (Elt F) → (⟨S800000, .i1⟩ : BufTy).Contents (Elt F))) rfl V (y := main_v84) (by decide),
    ops_writes.after_eq_take 105 V (r := main_v82) (by decide),
    ops_writes.after_eq_take 105 V (r := main_v83) (by decide)]
  generalize after (List.take 105 ops) V = W
  exact binary_result ..

/-- `main_c_13` after the line, from its operands after the line (operation 106). -/
theorem step_main_c_13 (V : Valuation τ sig (Elt F)) :
    after ops V (main_c_13 : DevRef τ sig) = (constantI S_ 32 100000#32) := by
  rw [ops_writes.read 106 (op := StableHlo.nullary main_c_13 (constantI S_ 32 100000#32)) rfl V (y := main_c_13) (by decide)]
  generalize after (List.take 106 ops) V = W
  exact nullary_result ..

/-- `main_v85` after the line, from its operands after the line (operation 107). -/
theorem step_main_v85 (V : Valuation τ sig (Elt F)) :
    after ops V (main_v85 : DevRef τ sig) = (broadcastInDim S800000 ![] bcast_S_S800000 : (⟨S_, .i32⟩ : BufTy).Contents (Elt F) → (⟨S800000, .i32⟩ : BufTy).Contents (Elt F)) (after ops V (main_c_13 : DevRef τ sig)) := by
  rw [ops_writes.read 107 (op := StableHlo.unary main_c_13 main_v85 (broadcastInDim S800000 ![] bcast_S_S800000 : (⟨S_, .i32⟩ : BufTy).Contents (Elt F) → (⟨S800000, .i32⟩ : BufTy).Contents (Elt F))) rfl V (y := main_v85) (by decide),
    ops_writes.after_eq_take 107 V (r := main_c_13) (by decide)]
  generalize after (List.take 107 ops) V = W
  exact unary_result ..

/-- `main_v86` after the line, from its operands after the line (operation 108). -/
theorem step_main_v86 (V : Valuation τ sig (Elt F)) :
    after ops V (main_v86 : DevRef τ sig) = (addi : (⟨S800000, .i32⟩ : BufTy).Contents (Elt F) → (⟨S800000, .i32⟩ : BufTy).Contents (Elt F) → (⟨S800000, .i32⟩ : BufTy).Contents (Elt F)) (after ops V (main_v82 : DevRef τ sig)) (after ops V (main_v85 : DevRef τ sig)) := by
  rw [ops_writes.read 108 (op := StableHlo.binary main_v82 main_v85 main_v86 (addi : (⟨S800000, .i32⟩ : BufTy).Contents (Elt F) → (⟨S800000, .i32⟩ : BufTy).Contents (Elt F) → (⟨S800000, .i32⟩ : BufTy).Contents (Elt F))) rfl V (y := main_v86) (by decide),
    ops_writes.after_eq_take 108 V (r := main_v82) (by decide),
    ops_writes.after_eq_take 108 V (r := main_v85) (by decide)]
  generalize after (List.take 108 ops) V = W
  exact binary_result ..

/-- `main_v87` after the line, from its operands after the line (operation 109). -/
theorem step_main_v87 (V : Valuation τ sig (Elt F)) :
    after ops V (main_v87 : DevRef τ sig) = (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) (after ops V (main_v84 : DevRef τ sig)) (after ops V (main_v86 : DevRef τ sig)) (after ops V (main_v82 : DevRef τ sig)) := by
  rw [ops_writes.read 109 (op := StableHlo.ternary main_v84 main_v86 main_v82 main_v87 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F))) rfl V (y := main_v87) (by decide),
    ops_writes.after_eq_take 109 V (r := main_v84) (by decide),
    ops_writes.after_eq_take 109 V (r := main_v86) (by decide),
    ops_writes.after_eq_take 109 V (r := main_v82) (by decide)]
  generalize after (List.take 109 ops) V = W
  exact ternary_result ..

/-- `main_v88` after the line, from its operands after the line (operation 110). -/
theorem step_main_v88 (V : Valuation τ sig (Elt F)) :
    after ops V (main_v88 : DevRef τ sig) = (broadcastInDim S800000x1 ![0] bcast_S800000_S800000x1_0 : (⟨S800000, .i32⟩ : BufTy).Contents (Elt F) → (⟨S800000x1, .i32⟩ : BufTy).Contents (Elt F)) (after ops V (main_v87 : DevRef τ sig)) := by
  rw [ops_writes.read 110 (op := StableHlo.unary main_v87 main_v88 (broadcastInDim S800000x1 ![0] bcast_S800000_S800000x1_0 : (⟨S800000, .i32⟩ : BufTy).Contents (Elt F) → (⟨S800000x1, .i32⟩ : BufTy).Contents (Elt F))) rfl V (y := main_v88) (by decide),
    ops_writes.after_eq_take 110 V (r := main_v87) (by decide)]
  generalize after (List.take 110 ops) V = W
  exact unary_result ..

/-- `main_v89` after the line, from its operands after the line (operation 111). -/
theorem step_main_v89 (V : Valuation τ sig (Elt F)) :
    after ops V (main_v89 : DevRef τ sig) = ((fun x i => Host.gather gather_S100000x128_S800000x1_S800000x128_1_0_n_n_0_1_1128 x i) : (⟨S100000x128, .f32⟩ : BufTy).Contents (Elt F) → (⟨S800000x1, .i32⟩ : BufTy).Contents (Elt F) → (⟨S800000x128, .f32⟩ : BufTy).Contents (Elt F)) (after ops V (main_arg3 : DevRef τ sig)) (after ops V (main_v88 : DevRef τ sig)) := by
  rw [ops_writes.read 111 (op := StableHlo.binary main_arg3 main_v88 main_v89 ((fun x i => Host.gather gather_S100000x128_S800000x1_S800000x128_1_0_n_n_0_1_1128 x i) : (⟨S100000x128, .f32⟩ : BufTy).Contents (Elt F) → (⟨S800000x1, .i32⟩ : BufTy).Contents (Elt F) → (⟨S800000x128, .f32⟩ : BufTy).Contents (Elt F))) rfl V (y := main_v89) (by decide),
    ops_writes.after_eq_take 111 V (r := main_arg3) (by decide),
    ops_writes.after_eq_take 111 V (r := main_v88) (by decide)]
  generalize after (List.take 111 ops) V = W
  exact binary_result ..

/-- `main_call3_cst` after the line, from its operands after the line (operation 112). -/
theorem step_main_call3_cst (V : Valuation τ sig (Elt F)) :
    after ops V (main_call3_cst : DevRef τ sig) = (constant S_ .f32 0x00000000#32) := by
  rw [ops_writes.read 112 (op := StableHlo.TRef.nullary main_call3.cst (constant S_ .f32 0x00000000#32)) rfl V (y := main_call3_cst) (by decide)]
  generalize after (List.take 112 ops) V = W
  exact nullary_result ..

/-- `main_call3_v0` after the line, from its operands after the line (operation 113). -/
theorem step_main_call3_v0 (V : Valuation τ sig (Elt F)) :
    after ops V (main_call3_v0 : DevRef τ sig) = (broadcastInDim S800000x128 ![] bcast_S_S800000x128) (after ops V (main_call3_cst : DevRef τ sig)) := by
  rw [ops_writes.read 113 (op := StableHlo.TRef.unary main_call3.cst main_call3.v0 (broadcastInDim S800000x128 ![] bcast_S_S800000x128)) rfl V (y := main_call3_v0) (by decide),
    ops_writes.after_eq_take 113 V (r := main_call3_cst) (by decide)]
  generalize after (List.take 113 ops) V = W
  exact unary_result ..

/-- `main_v90` after the line, from its operands after the line (operation 114). -/
theorem step_main_v90 (V : Valuation τ sig (Elt F)) :
    after ops V (main_v90 : DevRef τ sig) = maximumf (after ops V (main_v89 : DevRef τ sig)) (after ops V (main_call3_v0 : DevRef τ sig)) := by
  rw [ops_writes.read 114 (op := StableHlo.TRef.binary (StableHlo.TRef.of main_v89 : StableHlo.TRef sig ⟨S800000x128, .f32⟩) main_call3.v0 main_call3.v1 maximumf) rfl V (y := main_v90) (by decide),
    ops_writes.after_eq_take 114 V (r := main_v89) (by decide),
    ops_writes.after_eq_take 114 V (r := main_call3_v0) (by decide)]
  generalize after (List.take 114 ops) V = W
  exact binary_result ..

/-- `main_v91` after the line, from its operands after the line (operation 115). -/
theorem step_main_v91 (V : Valuation τ sig (Elt F)) :
    after ops V (main_v91 : DevRef τ sig) = ((extractStridedSlice S1x800000 ![1, 0] · slices_S2x800000_S1x800000_1_0) : (⟨S2x800000, .i32⟩ : BufTy).Contents (Elt F) → (⟨S1x800000, .i32⟩ : BufTy).Contents (Elt F)) (after ops V (main_arg8 : DevRef τ sig)) := by
  rw [ops_writes.read 115 (op := StableHlo.unary main_arg8 main_v91 ((extractStridedSlice S1x800000 ![1, 0] · slices_S2x800000_S1x800000_1_0) : (⟨S2x800000, .i32⟩ : BufTy).Contents (Elt F) → (⟨S1x800000, .i32⟩ : BufTy).Contents (Elt F))) rfl V (y := main_v91) (by decide),
    ops_writes.after_eq_take 115 V (r := main_arg8) (by decide)]
  generalize after (List.take 115 ops) V = W
  exact unary_result ..

/-- `main_v92` after the line, from its operands after the line (operation 116). -/
theorem step_main_v92 (V : Valuation τ sig (Elt F)) :
    after ops V (main_v92 : DevRef τ sig) = shapeCast _ (after ops V (main_v91 : DevRef τ sig)) shapeCasts_S1x800000_S800000 := by
  rw [ops_writes.read 116 (op := StableHlo.reshape main_v91 main_v92 rfl shapeCasts_S1x800000_S800000) rfl V (y := main_v92) (by decide),
    ops_writes.after_eq_take 116 V (r := main_v91) (by decide)]
  generalize after (List.take 116 ops) V = W
  exact reshape_result ..

/-- `main_cst_14` after the line, from its operands after the line (operation 117). -/
theorem step_main_cst_14 (V : Valuation τ sig (Elt F)) :
    after ops V (main_cst_14 : DevRef τ sig) = (constant S_ .f32 0x00000000#32) := by
  rw [ops_writes.read 117 (op := StableHlo.nullary main_cst_14 (constant S_ .f32 0x00000000#32)) rfl V (y := main_cst_14) (by decide)]
  generalize after (List.take 117 ops) V = W
  exact nullary_result ..

/-- `main_v93` after the line, from its operands after the line (operation 118). -/
theorem step_main_v93 (V : Valuation τ sig (Elt F)) :
    after ops V (main_v93 : DevRef τ sig) = (broadcastInDim S100000x128 ![] bcast_S_S100000x128 : (⟨S_, .f32⟩ : BufTy).Contents (Elt F) → (⟨S100000x128, .f32⟩ : BufTy).Contents (Elt F)) (after ops V (main_cst_14 : DevRef τ sig)) := by
  rw [ops_writes.read 118 (op := StableHlo.unary main_cst_14 main_v93 (broadcastInDim S100000x128 ![] bcast_S_S100000x128 : (⟨S_, .f32⟩ : BufTy).Contents (Elt F) → (⟨S100000x128, .f32⟩ : BufTy).Contents (Elt F))) rfl V (y := main_v93) (by decide),
    ops_writes.after_eq_take 118 V (r := main_cst_14) (by decide)]
  generalize after (List.take 118 ops) V = W
  exact unary_result ..

/-- `main_v94` after the line, from its operands after the line (operation 119). -/
theorem step_main_v94 (V : Valuation τ sig (Elt F)) :
    after ops V (main_v94 : DevRef τ sig) = (broadcastInDim S800000x1 ![0] bcast_S800000_S800000x1_0 : (⟨S800000, .i32⟩ : BufTy).Contents (Elt F) → (⟨S800000x1, .i32⟩ : BufTy).Contents (Elt F)) (after ops V (main_v92 : DevRef τ sig)) := by
  rw [ops_writes.read 119 (op := StableHlo.unary main_v92 main_v94 (broadcastInDim S800000x1 ![0] bcast_S800000_S800000x1_0 : (⟨S800000, .i32⟩ : BufTy).Contents (Elt F) → (⟨S800000x1, .i32⟩ : BufTy).Contents (Elt F))) rfl V (y := main_v94) (by decide),
    ops_writes.after_eq_take 119 V (r := main_v92) (by decide)]
  generalize after (List.take 119 ops) V = W
  exact unary_result ..

/-- `main_v95` after the line, from its operands after the line (operation 120). -/
theorem step_main_v95 (V : Valuation τ sig (Elt F)) :
    after ops V (main_v95 : DevRef τ sig) = ((fun x i u => Host.scatterAdd scatter_S100000x128_S800000x1_S800000x128_1_0_0_1 x i u) : (⟨S100000x128, .f32⟩ : BufTy).Contents (Elt F) → (⟨S800000x1, .i32⟩ : BufTy).Contents (Elt F) → (⟨S800000x128, .f32⟩ : BufTy).Contents (Elt F) → (⟨S100000x128, .f32⟩ : BufTy).Contents (Elt F)) (after ops V (main_v93 : DevRef τ sig)) (after ops V (main_v94 : DevRef τ sig)) (after ops V (main_v90 : DevRef τ sig)) := by
  rw [ops_writes.read 120 (op := StableHlo.ternary main_v93 main_v94 main_v90 main_v95 ((fun x i u => Host.scatterAdd scatter_S100000x128_S800000x1_S800000x128_1_0_0_1 x i u) : (⟨S100000x128, .f32⟩ : BufTy).Contents (Elt F) → (⟨S800000x1, .i32⟩ : BufTy).Contents (Elt F) → (⟨S800000x128, .f32⟩ : BufTy).Contents (Elt F) → (⟨S100000x128, .f32⟩ : BufTy).Contents (Elt F))) rfl V (y := main_v95) (by decide),
    ops_writes.after_eq_take 120 V (r := main_v93) (by decide),
    ops_writes.after_eq_take 120 V (r := main_v94) (by decide),
    ops_writes.after_eq_take 120 V (r := main_v90) (by decide)]
  generalize after (List.take 120 ops) V = W
  exact ternary_result ..

/-- `main_v96` after the line, from its operands after the line (operation 121). -/
theorem step_main_v96 (V : Valuation τ sig (Elt F)) :
    after ops V (main_v96 : DevRef τ sig) = (broadcastInDim S1x128 ![1] bcast_S128_S1x128_1 : (⟨S128, .f32⟩ : BufTy).Contents (Elt F) → (⟨S1x128, .f32⟩ : BufTy).Contents (Elt F)) (after ops V (main_v80 : DevRef τ sig)) := by
  rw [ops_writes.read 121 (op := StableHlo.unary main_v80 main_v96 (broadcastInDim S1x128 ![1] bcast_S128_S1x128_1 : (⟨S128, .f32⟩ : BufTy).Contents (Elt F) → (⟨S1x128, .f32⟩ : BufTy).Contents (Elt F))) rfl V (y := main_v96) (by decide),
    ops_writes.after_eq_take 121 V (r := main_v80) (by decide)]
  generalize after (List.take 121 ops) V = W
  exact unary_result ..

/-- `main_v97` after the line, from its operands after the line (operation 122). -/
theorem step_main_v97 (V : Valuation τ sig (Elt F)) :
    after ops V (main_v97 : DevRef τ sig) = (broadcastInDim S100000x128 ![0, 1] bcast_S1x128_S100000x128_0_1 : (⟨S1x128, .f32⟩ : BufTy).Contents (Elt F) → (⟨S100000x128, .f32⟩ : BufTy).Contents (Elt F)) (after ops V (main_v96 : DevRef τ sig)) := by
  rw [ops_writes.read 122 (op := StableHlo.unary main_v96 main_v97 (broadcastInDim S100000x128 ![0, 1] bcast_S1x128_S100000x128_0_1 : (⟨S1x128, .f32⟩ : BufTy).Contents (Elt F) → (⟨S100000x128, .f32⟩ : BufTy).Contents (Elt F))) rfl V (y := main_v97) (by decide),
    ops_writes.after_eq_take 122 V (r := main_v96) (by decide)]
  generalize after (List.take 122 ops) V = W
  exact unary_result ..

/-- `main_v98` after the line, from its operands after the line (operation 123). -/
theorem step_main_v98 (V : Valuation τ sig (Elt F)) :
    after ops V (main_v98 : DevRef τ sig) = (mulf : (⟨S100000x128, .f32⟩ : BufTy).Contents (Elt F) → (⟨S100000x128, .f32⟩ : BufTy).Contents (Elt F) → (⟨S100000x128, .f32⟩ : BufTy).Contents (Elt F)) (after ops V (main_v97 : DevRef τ sig)) (after ops V (main_v95 : DevRef τ sig)) := by
  rw [ops_writes.read 123 (op := StableHlo.binary main_v97 main_v95 main_v98 (mulf : (⟨S100000x128, .f32⟩ : BufTy).Contents (Elt F) → (⟨S100000x128, .f32⟩ : BufTy).Contents (Elt F) → (⟨S100000x128, .f32⟩ : BufTy).Contents (Elt F))) rfl V (y := main_v98) (by decide),
    ops_writes.after_eq_take 123 V (r := main_v97) (by decide),
    ops_writes.after_eq_take 123 V (r := main_v95) (by decide)]
  generalize after (List.take 123 ops) V = W
  exact binary_result ..

/-- `main_v99` after the line, from its operands after the line (operation 124). -/
theorem step_main_v99 (V : Valuation τ sig (Elt F)) :
    after ops V (main_v99 : DevRef τ sig) = (addf : (⟨S100000x128, .f32⟩ : BufTy).Contents (Elt F) → (⟨S100000x128, .f32⟩ : BufTy).Contents (Elt F) → (⟨S100000x128, .f32⟩ : BufTy).Contents (Elt F)) (after ops V (main_v76 : DevRef τ sig)) (after ops V (main_v98 : DevRef τ sig)) := by
  rw [ops_writes.read 124 (op := StableHlo.binary main_v76 main_v98 main_v99 (addf : (⟨S100000x128, .f32⟩ : BufTy).Contents (Elt F) → (⟨S100000x128, .f32⟩ : BufTy).Contents (Elt F) → (⟨S100000x128, .f32⟩ : BufTy).Contents (Elt F))) rfl V (y := main_v99) (by decide),
    ops_writes.after_eq_take 124 V (r := main_v76) (by decide),
    ops_writes.after_eq_take 124 V (r := main_v98) (by decide)]
  generalize after (List.take 124 ops) V = W
  exact binary_result ..

/-- `main_v100` after the line, from its operands after the line (operation 125). -/
theorem step_main_v100 (V : Valuation τ sig (Elt F)) :
    after ops V (main_v100 : DevRef τ sig) = ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F)) (after ops V (main_v99 : DevRef τ sig)) (after ops V (main_arg9 : DevRef τ sig)) := by
  rw [ops_writes.read 125 (op := StableHlo.binary main_v99 main_arg9 main_v100 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F))) rfl V (y := main_v100) (by decide),
    ops_writes.after_eq_take 125 V (r := main_v99) (by decide),
    ops_writes.after_eq_take 125 V (r := main_arg9) (by decide)]
  generalize after (List.take 125 ops) V = W
  exact binary_result ..

/-- `main_v101` after the line, from its operands after the line (operation 126). -/
theorem step_main_v101 (V : Valuation τ sig (Elt F)) :
    after ops V (main_v101 : DevRef τ sig) = (broadcastInDim S1x256 ![1] bcast_S256_S1x256_1 : (⟨S256, .f32⟩ : BufTy).Contents (Elt F) → (⟨S1x256, .f32⟩ : BufTy).Contents (Elt F)) (after ops V (main_arg10 : DevRef τ sig)) := by
  rw [ops_writes.read 126 (op := StableHlo.unary main_arg10 main_v101 (broadcastInDim S1x256 ![1] bcast_S256_S1x256_1 : (⟨S256, .f32⟩ : BufTy).Contents (Elt F) → (⟨S1x256, .f32⟩ : BufTy).Contents (Elt F))) rfl V (y := main_v101) (by decide),
    ops_writes.after_eq_take 126 V (r := main_arg10) (by decide)]
  generalize after (List.take 126 ops) V = W
  exact unary_result ..

/-- `main_v102` after the line, from its operands after the line (operation 127). -/
theorem step_main_v102 (V : Valuation τ sig (Elt F)) :
    after ops V (main_v102 : DevRef τ sig) = (broadcastInDim S100000x256 ![0, 1] bcast_S1x256_S100000x256_0_1 : (⟨S1x256, .f32⟩ : BufTy).Contents (Elt F) → (⟨S100000x256, .f32⟩ : BufTy).Contents (Elt F)) (after ops V (main_v101 : DevRef τ sig)) := by
  rw [ops_writes.read 127 (op := StableHlo.unary main_v101 main_v102 (broadcastInDim S100000x256 ![0, 1] bcast_S1x256_S100000x256_0_1 : (⟨S1x256, .f32⟩ : BufTy).Contents (Elt F) → (⟨S100000x256, .f32⟩ : BufTy).Contents (Elt F))) rfl V (y := main_v102) (by decide),
    ops_writes.after_eq_take 127 V (r := main_v101) (by decide)]
  generalize after (List.take 127 ops) V = W
  exact unary_result ..

end Cert.ReferenceIdeal.Hand

end
-- ==== Proof.Ref.StepC.lean ====
/-
  The reference's line read one operation at a time (operations of chunk C): the contents of the buffer an
  operation writes, after the whole line, are the operation's function of its operands' contents after the whole
  line — every buffer is written once, and an operand before the operation that reads it.
-/
import proofs.«164503_j82721070121701_1_alg».proof.Proof.Ref.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- `main_v103` after the line, from its operands after the line (operation 128). -/
theorem step_main_v103 (V : Valuation τ sig (Elt F)) :
    after ops V (main_v103 : DevRef τ sig) = (addf : (⟨S100000x256, .f32⟩ : BufTy).Contents (Elt F) → (⟨S100000x256, .f32⟩ : BufTy).Contents (Elt F) → (⟨S100000x256, .f32⟩ : BufTy).Contents (Elt F)) (after ops V (main_v100 : DevRef τ sig)) (after ops V (main_v102 : DevRef τ sig)) := by
  rw [ops_writes.read 128 (op := StableHlo.binary main_v100 main_v102 main_v103 (addf : (⟨S100000x256, .f32⟩ : BufTy).Contents (Elt F) → (⟨S100000x256, .f32⟩ : BufTy).Contents (Elt F) → (⟨S100000x256, .f32⟩ : BufTy).Contents (Elt F))) rfl V (y := main_v103) (by decide),
    ops_writes.after_eq_take 128 V (r := main_v100) (by decide),
    ops_writes.after_eq_take 128 V (r := main_v102) (by decide)]
  generalize after (List.take 128 ops) V = W
  exact binary_result ..

/-- `main_cst_15` after the line, from its operands after the line (operation 129). -/
theorem step_main_cst_15 (V : Valuation τ sig (Elt F)) :
    after ops V (main_cst_15 : DevRef τ sig) = (constant S_ .f32 0x00000000#32) := by
  rw [ops_writes.read 129 (op := StableHlo.nullary main_cst_15 (constant S_ .f32 0x00000000#32)) rfl V (y := main_cst_15) (by decide)]
  generalize after (List.take 129 ops) V = W
  exact nullary_result ..

/-- `main_v104` after the line, from its operands after the line (operation 130). -/
theorem step_main_v104 (V : Valuation τ sig (Elt F)) :
    after ops V (main_v104 : DevRef τ sig) = ((fun x v => Host.reduceAdd x v reducesTo_S100000x256_S256_d0 h_S_) : (⟨S100000x256, .f32⟩ : BufTy).Contents (Elt F) → (⟨S_, .f32⟩ : BufTy).Contents (Elt F) → (⟨S256, .f32⟩ : BufTy).Contents (Elt F)) (after ops V (main_v103 : DevRef τ sig)) (after ops V (main_cst_15 : DevRef τ sig)) := by
  rw [ops_writes.read 130 (op := StableHlo.binary main_v103 main_cst_15 main_v104 ((fun x v => Host.reduceAdd x v reducesTo_S100000x256_S256_d0 h_S_) : (⟨S100000x256, .f32⟩ : BufTy).Contents (Elt F) → (⟨S_, .f32⟩ : BufTy).Contents (Elt F) → (⟨S256, .f32⟩ : BufTy).Contents (Elt F))) rfl V (y := main_v104) (by decide),
    ops_writes.after_eq_take 130 V (r := main_v103) (by decide),
    ops_writes.after_eq_take 130 V (r := main_cst_15) (by decide)]
  generalize after (List.take 130 ops) V = W
  exact binary_result ..

/-- `main_cst_16` after the line, from its operands after the line (operation 131). -/
theorem step_main_cst_16 (V : Valuation τ sig (Elt F)) :
    after ops V (main_cst_16 : DevRef τ sig) = (constant S_ .f32 0x47C35000#32) := by
  rw [ops_writes.read 131 (op := StableHlo.nullary main_cst_16 (constant S_ .f32 0x47C35000#32)) rfl V (y := main_cst_16) (by decide)]
  generalize after (List.take 131 ops) V = W
  exact nullary_result ..

/-- `main_v105` after the line, from its operands after the line (operation 132). -/
theorem step_main_v105 (V : Valuation τ sig (Elt F)) :
    after ops V (main_v105 : DevRef τ sig) = (broadcastInDim S256 ![] bcast_S_S256 : (⟨S_, .f32⟩ : BufTy).Contents (Elt F) → (⟨S256, .f32⟩ : BufTy).Contents (Elt F)) (after ops V (main_cst_16 : DevRef τ sig)) := by
  rw [ops_writes.read 132 (op := StableHlo.unary main_cst_16 main_v105 (broadcastInDim S256 ![] bcast_S_S256 : (⟨S_, .f32⟩ : BufTy).Contents (Elt F) → (⟨S256, .f32⟩ : BufTy).Contents (Elt F))) rfl V (y := main_v105) (by decide),
    ops_writes.after_eq_take 132 V (r := main_cst_16) (by decide)]
  generalize after (List.take 132 ops) V = W
  exact unary_result ..

/-- `main_v106` after the line, from its operands after the line (operation 133). -/
theorem step_main_v106 (V : Valuation τ sig (Elt F)) :
    after ops V (main_v106 : DevRef τ sig) = (Host.divf : (⟨S256, .f32⟩ : BufTy).Contents (Elt F) → (⟨S256, .f32⟩ : BufTy).Contents (Elt F) → (⟨S256, .f32⟩ : BufTy).Contents (Elt F)) (after ops V (main_v104 : DevRef τ sig)) (after ops V (main_v105 : DevRef τ sig)) := by
  rw [ops_writes.read 133 (op := StableHlo.binary main_v104 main_v105 main_v106 (Host.divf : (⟨S256, .f32⟩ : BufTy).Contents (Elt F) → (⟨S256, .f32⟩ : BufTy).Contents (Elt F) → (⟨S256, .f32⟩ : BufTy).Contents (Elt F))) rfl V (y := main_v106) (by decide),
    ops_writes.after_eq_take 133 V (r := main_v104) (by decide),
    ops_writes.after_eq_take 133 V (r := main_v105) (by decide)]
  generalize after (List.take 133 ops) V = W
  exact binary_result ..

/-- `main_c_17` after the line, from its operands after the line (operation 134). -/
theorem step_main_c_17 (V : Valuation τ sig (Elt F)) :
    after ops V (main_c_17 : DevRef τ sig) = (constantI S_ 32 0#32) := by
  rw [ops_writes.read 134 (op := StableHlo.nullary main_c_17 (constantI S_ 32 0#32)) rfl V (y := main_c_17) (by decide)]
  generalize after (List.take 134 ops) V = W
  exact nullary_result ..

/-- `main_call4_cst` after the line, from its operands after the line (operation 135). -/
theorem step_main_call4_cst (V : Valuation τ sig (Elt F)) :
    after ops V (main_call4_cst : DevRef τ sig) = (constant S_ .f32 0x00000000#32) := by
  rw [ops_writes.read 135 (op := StableHlo.TRef.nullary main_call4.cst (constant S_ .f32 0x00000000#32)) rfl V (y := main_call4_cst) (by decide)]
  generalize after (List.take 135 ops) V = W
  exact nullary_result ..

/-- `main_call4_v0` after the line, from its operands after the line (operation 136). -/
theorem step_main_call4_v0 (V : Valuation τ sig (Elt F)) :
    after ops V (main_call4_v0 : DevRef τ sig) = (fun x v => Host.reduceAdd x v reducesTo_S100000x256_S256_d0 h_S_) (after ops V (main_v103 : DevRef τ sig)) (after ops V (main_call4_cst : DevRef τ sig)) := by
  rw [ops_writes.read 136 (op := StableHlo.TRef.binary (StableHlo.TRef.of main_v103 : StableHlo.TRef sig ⟨S100000x256, .f32⟩) main_call4.cst main_call4.v0 (fun x v => Host.reduceAdd x v reducesTo_S100000x256_S256_d0 h_S_)) rfl V (y := main_call4_v0) (by decide),
    ops_writes.after_eq_take 136 V (r := main_v103) (by decide),
    ops_writes.after_eq_take 136 V (r := main_call4_cst) (by decide)]
  generalize after (List.take 136 ops) V = W
  exact binary_result ..

/-- `main_call4_v1` after the line, from its operands after the line (operation 137). -/
theorem step_main_call4_v1 (V : Valuation τ sig (Elt F)) :
    after ops V (main_call4_v1 : DevRef τ sig) = (broadcastInDim S1x256 ![1] bcast_S256_S1x256_1) (after ops V (main_call4_v0 : DevRef τ sig)) := by
  rw [ops_writes.read 137 (op := StableHlo.TRef.unary main_call4.v0 main_call4.v1 (broadcastInDim S1x256 ![1] bcast_S256_S1x256_1)) rfl V (y := main_call4_v1) (by decide),
    ops_writes.after_eq_take 137 V (r := main_call4_v0) (by decide)]
  generalize after (List.take 137 ops) V = W
  exact unary_result ..

/-- `main_call4_cst_0` after the line, from its operands after the line (operation 138). -/
theorem step_main_call4_cst_0 (V : Valuation τ sig (Elt F)) :
    after ops V (main_call4_cst_0 : DevRef τ sig) = (constant S_ .f32 0x47C35000#32) := by
  rw [ops_writes.read 138 (op := StableHlo.TRef.nullary main_call4.cst_0 (constant S_ .f32 0x47C35000#32)) rfl V (y := main_call4_cst_0) (by decide)]
  generalize after (List.take 138 ops) V = W
  exact nullary_result ..

/-- `main_call4_v2` after the line, from its operands after the line (operation 139). -/
theorem step_main_call4_v2 (V : Valuation τ sig (Elt F)) :
    after ops V (main_call4_v2 : DevRef τ sig) = (broadcastInDim S1x256 ![] bcast_S_S1x256) (after ops V (main_call4_cst_0 : DevRef τ sig)) := by
  rw [ops_writes.read 139 (op := StableHlo.TRef.unary main_call4.cst_0 main_call4.v2 (broadcastInDim S1x256 ![] bcast_S_S1x256)) rfl V (y := main_call4_v2) (by decide),
    ops_writes.after_eq_take 139 V (r := main_call4_cst_0) (by decide)]
  generalize after (List.take 139 ops) V = W
  exact unary_result ..

/-- `main_call4_v3` after the line, from its operands after the line (operation 140). -/
theorem step_main_call4_v3 (V : Valuation τ sig (Elt F)) :
    after ops V (main_call4_v3 : DevRef τ sig) = Host.divf (after ops V (main_call4_v1 : DevRef τ sig)) (after ops V (main_call4_v2 : DevRef τ sig)) := by
  rw [ops_writes.read 140 (op := StableHlo.TRef.binary main_call4.v1 main_call4.v2 main_call4.v3 Host.divf) rfl V (y := main_call4_v3) (by decide),
    ops_writes.after_eq_take 140 V (r := main_call4_v1) (by decide),
    ops_writes.after_eq_take 140 V (r := main_call4_v2) (by decide)]
  generalize after (List.take 140 ops) V = W
  exact binary_result ..

/-- `main_call4_v4` after the line, from its operands after the line (operation 141). -/
theorem step_main_call4_v4 (V : Valuation τ sig (Elt F)) :
    after ops V (main_call4_v4 : DevRef τ sig) = (broadcastInDim S100000x256 ![0, 1] bcast_S1x256_S100000x256_0_1) (after ops V (main_call4_v3 : DevRef τ sig)) := by
  rw [ops_writes.read 141 (op := StableHlo.TRef.unary main_call4.v3 main_call4.v4 (broadcastInDim S100000x256 ![0, 1] bcast_S1x256_S100000x256_0_1)) rfl V (y := main_call4_v4) (by decide),
    ops_writes.after_eq_take 141 V (r := main_call4_v3) (by decide)]
  generalize after (List.take 141 ops) V = W
  exact unary_result ..

/-- `main_call4_v5` after the line, from its operands after the line (operation 142). -/
theorem step_main_call4_v5 (V : Valuation τ sig (Elt F)) :
    after ops V (main_call4_v5 : DevRef τ sig) = subf (after ops V (main_v103 : DevRef τ sig)) (after ops V (main_call4_v4 : DevRef τ sig)) := by
  rw [ops_writes.read 142 (op := StableHlo.TRef.binary (StableHlo.TRef.of main_v103 : StableHlo.TRef sig ⟨S100000x256, .f32⟩) main_call4.v4 main_call4.v5 subf) rfl V (y := main_call4_v5) (by decide),
    ops_writes.after_eq_take 142 V (r := main_v103) (by decide),
    ops_writes.after_eq_take 142 V (r := main_call4_v4) (by decide)]
  generalize after (List.take 142 ops) V = W
  exact binary_result ..

/-- `main_call4_v6` after the line, from its operands after the line (operation 143). -/
theorem step_main_call4_v6 (V : Valuation τ sig (Elt F)) :
    after ops V (main_call4_v6 : DevRef τ sig) = mulf (after ops V (main_call4_v5 : DevRef τ sig)) (after ops V (main_call4_v5 : DevRef τ sig)) := by
  rw [ops_writes.read 143 (op := StableHlo.TRef.binary main_call4.v5 main_call4.v5 main_call4.v6 mulf) rfl V (y := main_call4_v6) (by decide),
    ops_writes.after_eq_take 143 V (r := main_call4_v5) (by decide)]
  generalize after (List.take 143 ops) V = W
  exact binary_result ..

/-- `main_call4_v7` after the line, from its operands after the line (operation 144). -/
theorem step_main_call4_v7 (V : Valuation τ sig (Elt F)) :
    after ops V (main_call4_v7 : DevRef τ sig) = (sitofp .f32) (after ops V (main_c_17 : DevRef τ sig)) := by
  rw [ops_writes.read 144 (op := StableHlo.TRef.unary (StableHlo.TRef.of main_c_17 : StableHlo.TRef sig ⟨S_, .i32⟩) main_call4.v7 (sitofp .f32)) rfl V (y := main_call4_v7) (by decide),
    ops_writes.after_eq_take 144 V (r := main_c_17) (by decide)]
  generalize after (List.take 144 ops) V = W
  exact unary_result ..

/-- `main_call4_cst_1` after the line, from its operands after the line (operation 145). -/
theorem step_main_call4_cst_1 (V : Valuation τ sig (Elt F)) :
    after ops V (main_call4_cst_1 : DevRef τ sig) = (constant S_ .f32 0x47C35000#32) := by
  rw [ops_writes.read 145 (op := StableHlo.TRef.nullary main_call4.cst_1 (constant S_ .f32 0x47C35000#32)) rfl V (y := main_call4_cst_1) (by decide)]
  generalize after (List.take 145 ops) V = W
  exact nullary_result ..

/-- `main_call4_v8` after the line, from its operands after the line (operation 146). -/
theorem step_main_call4_v8 (V : Valuation τ sig (Elt F)) :
    after ops V (main_call4_v8 : DevRef τ sig) = subf (after ops V (main_call4_cst_1 : DevRef τ sig)) (after ops V (main_call4_v7 : DevRef τ sig)) := by
  rw [ops_writes.read 146 (op := StableHlo.TRef.binary main_call4.cst_1 main_call4.v7 main_call4.v8 subf) rfl V (y := main_call4_v8) (by decide),
    ops_writes.after_eq_take 146 V (r := main_call4_cst_1) (by decide),
    ops_writes.after_eq_take 146 V (r := main_call4_v7) (by decide)]
  generalize after (List.take 146 ops) V = W
  exact binary_result ..

/-- `main_call4_cst_2` after the line, from its operands after the line (operation 147). -/
theorem step_main_call4_cst_2 (V : Valuation τ sig (Elt F)) :
    after ops V (main_call4_cst_2 : DevRef τ sig) = (constant S_ .f32 0x00000000#32) := by
  rw [ops_writes.read 147 (op := StableHlo.TRef.nullary main_call4.cst_2 (constant S_ .f32 0x00000000#32)) rfl V (y := main_call4_cst_2) (by decide)]
  generalize after (List.take 147 ops) V = W
  exact nullary_result ..

/-- `main_call4_v9` after the line, from its operands after the line (operation 148). -/
theorem step_main_call4_v9 (V : Valuation τ sig (Elt F)) :
    after ops V (main_call4_v9 : DevRef τ sig) = (fun x v => Host.reduceAdd x v reducesTo_S100000x256_S256_d0 h_S_) (after ops V (main_call4_v6 : DevRef τ sig)) (after ops V (main_call4_cst_2 : DevRef τ sig)) := by
  rw [ops_writes.read 148 (op := StableHlo.TRef.binary main_call4.v6 main_call4.cst_2 main_call4.v9 (fun x v => Host.reduceAdd x v reducesTo_S100000x256_S256_d0 h_S_)) rfl V (y := main_call4_v9) (by decide),
    ops_writes.after_eq_take 148 V (r := main_call4_v6) (by decide),
    ops_writes.after_eq_take 148 V (r := main_call4_cst_2) (by decide)]
  generalize after (List.take 148 ops) V = W
  exact binary_result ..

/-- `main_call4_v10` after the line, from its operands after the line (operation 149). -/
theorem step_main_call4_v10 (V : Valuation τ sig (Elt F)) :
    after ops V (main_call4_v10 : DevRef τ sig) = (broadcastInDim S256 ![] bcast_S_S256) (after ops V (main_call4_v8 : DevRef τ sig)) := by
  rw [ops_writes.read 149 (op := StableHlo.TRef.unary main_call4.v8 main_call4.v10 (broadcastInDim S256 ![] bcast_S_S256)) rfl V (y := main_call4_v10) (by decide),
    ops_writes.after_eq_take 149 V (r := main_call4_v8) (by decide)]
  generalize after (List.take 149 ops) V = W
  exact unary_result ..

/-- `main_call4_v11` after the line, from its operands after the line (operation 150). -/
theorem step_main_call4_v11 (V : Valuation τ sig (Elt F)) :
    after ops V (main_call4_v11 : DevRef τ sig) = Host.divf (after ops V (main_call4_v9 : DevRef τ sig)) (after ops V (main_call4_v10 : DevRef τ sig)) := by
  rw [ops_writes.read 150 (op := StableHlo.TRef.binary main_call4.v9 main_call4.v10 main_call4.v11 Host.divf) rfl V (y := main_call4_v11) (by decide),
    ops_writes.after_eq_take 150 V (r := main_call4_v9) (by decide),
    ops_writes.after_eq_take 150 V (r := main_call4_v10) (by decide)]
  generalize after (List.take 150 ops) V = W
  exact binary_result ..

/-- `main_call4_cst_3` after the line, from its operands after the line (operation 151). -/
theorem step_main_call4_cst_3 (V : Valuation τ sig (Elt F)) :
    after ops V (main_call4_cst_3 : DevRef τ sig) = (constant S_ .f32 0x00000000#32) := by
  rw [ops_writes.read 151 (op := StableHlo.TRef.nullary main_call4.cst_3 (constant S_ .f32 0x00000000#32)) rfl V (y := main_call4_cst_3) (by decide)]
  generalize after (List.take 151 ops) V = W
  exact nullary_result ..

/-- `main_call4_v12` after the line, from its operands after the line (operation 152). -/
theorem step_main_call4_v12 (V : Valuation τ sig (Elt F)) :
    after ops V (main_call4_v12 : DevRef τ sig) = (cmpf .ogt) (after ops V (main_call4_v8 : DevRef τ sig)) (after ops V (main_call4_cst_3 : DevRef τ sig)) := by
  rw [ops_writes.read 152 (op := StableHlo.TRef.binary main_call4.v8 main_call4.cst_3 main_call4.v12 (cmpf .ogt)) rfl V (y := main_call4_v12) (by decide),
    ops_writes.after_eq_take 152 V (r := main_call4_v8) (by decide),
    ops_writes.after_eq_take 152 V (r := main_call4_cst_3) (by decide)]
  generalize after (List.take 152 ops) V = W
  exact binary_result ..

/-- `main_call4_cst_4` after the line, from its operands after the line (operation 153). -/
theorem step_main_call4_cst_4 (V : Valuation τ sig (Elt F)) :
    after ops V (main_call4_cst_4 : DevRef τ sig) = (constant S_ .f32 0x7FC00000#32) := by
  rw [ops_writes.read 153 (op := StableHlo.TRef.nullary main_call4.cst_4 (constant S_ .f32 0x7FC00000#32)) rfl V (y := main_call4_cst_4) (by decide)]
  generalize after (List.take 153 ops) V = W
  exact nullary_result ..

/-- `main_call4_call0_v0` after the line, from its operands after the line (operation 154). -/
theorem step_main_call4_call0_v0 (V : Valuation τ sig (Elt F)) :
    after ops V (main_call4_call0_v0 : DevRef τ sig) = id (after ops V (main_call4_cst_4 : DevRef τ sig)) := by
  rw [ops_writes.read 154 (op := StableHlo.TRef.unary main_call4.cst_4 main_call4.call0.v0 id) rfl V (y := main_call4_call0_v0) (by decide),
    ops_writes.after_eq_take 154 V (r := main_call4_cst_4) (by decide)]
  generalize after (List.take 154 ops) V = W
  exact unary_result ..

/-- `main_call4_call0_v1` after the line, from its operands after the line (operation 155). -/
theorem step_main_call4_call0_v1 (V : Valuation τ sig (Elt F)) :
    after ops V (main_call4_call0_v1 : DevRef τ sig) = (broadcastInDim S256 ![] bcast_S_S256) (after ops V (main_call4_call0_v0 : DevRef τ sig)) := by
  rw [ops_writes.read 155 (op := StableHlo.TRef.unary main_call4.call0.v0 main_call4.call0.v1 (broadcastInDim S256 ![] bcast_S_S256)) rfl V (y := main_call4_call0_v1) (by decide),
    ops_writes.after_eq_take 155 V (r := main_call4_call0_v0) (by decide)]
  generalize after (List.take 155 ops) V = W
  exact unary_result ..

/-- `main_v107` after the line, from its operands after the line (operation 156). -/
theorem step_main_v107 (V : Valuation τ sig (Elt F)) :
    after ops V (main_v107 : DevRef τ sig) = (fun p a b => select (broadcastInDim S256 ![] bcast_S_S256 p) a b) (after ops V (main_call4_v12 : DevRef τ sig)) (after ops V (main_call4_v11 : DevRef τ sig)) (after ops V (main_call4_call0_v1 : DevRef τ sig)) := by
  rw [ops_writes.read 156 (op := StableHlo.TRef.ternary main_call4.v12 main_call4.v11 main_call4.call0.v1 main_call4.call0.v2 (fun p a b => select (broadcastInDim S256 ![] bcast_S_S256 p) a b)) rfl V (y := main_v107) (by decide),
    ops_writes.after_eq_take 156 V (r := main_call4_v12) (by decide),
    ops_writes.after_eq_take 156 V (r := main_call4_v11) (by decide),
    ops_writes.after_eq_take 156 V (r := main_call4_call0_v1) (by decide)]
  generalize after (List.take 156 ops) V = W
  exact ternary_result ..

/-- `main_v108` after the line, from its operands after the line (operation 157). -/
theorem step_main_v108 (V : Valuation τ sig (Elt F)) :
    after ops V (main_v108 : DevRef τ sig) = (broadcastInDim S1x256 ![1] bcast_S256_S1x256_1 : (⟨S256, .f32⟩ : BufTy).Contents (Elt F) → (⟨S1x256, .f32⟩ : BufTy).Contents (Elt F)) (after ops V (main_v106 : DevRef τ sig)) := by
  rw [ops_writes.read 157 (op := StableHlo.unary main_v106 main_v108 (broadcastInDim S1x256 ![1] bcast_S256_S1x256_1 : (⟨S256, .f32⟩ : BufTy).Contents (Elt F) → (⟨S1x256, .f32⟩ : BufTy).Contents (Elt F))) rfl V (y := main_v108) (by decide),
    ops_writes.after_eq_take 157 V (r := main_v106) (by decide)]
  generalize after (List.take 157 ops) V = W
  exact unary_result ..

/-- `main_v109` after the line, from its operands after the line (operation 158). -/
theorem step_main_v109 (V : Valuation τ sig (Elt F)) :
    after ops V (main_v109 : DevRef τ sig) = (broadcastInDim S100000x256 ![0, 1] bcast_S1x256_S100000x256_0_1 : (⟨S1x256, .f32⟩ : BufTy).Contents (Elt F) → (⟨S100000x256, .f32⟩ : BufTy).Contents (Elt F)) (after ops V (main_v108 : DevRef τ sig)) := by
  rw [ops_writes.read 158 (op := StableHlo.unary main_v108 main_v109 (broadcastInDim S100000x256 ![0, 1] bcast_S1x256_S100000x256_0_1 : (⟨S1x256, .f32⟩ : BufTy).Contents (Elt F) → (⟨S100000x256, .f32⟩ : BufTy).Contents (Elt F))) rfl V (y := main_v109) (by decide),
    ops_writes.after_eq_take 158 V (r := main_v108) (by decide)]
  generalize after (List.take 158 ops) V = W
  exact unary_result ..

/-- `main_v110` after the line, from its operands after the line (operation 159). -/
theorem step_main_v110 (V : Valuation τ sig (Elt F)) :
    after ops V (main_v110 : DevRef τ sig) = (subf : (⟨S100000x256, .f32⟩ : BufTy).Contents (Elt F) → (⟨S100000x256, .f32⟩ : BufTy).Contents (Elt F) → (⟨S100000x256, .f32⟩ : BufTy).Contents (Elt F)) (after ops V (main_v103 : DevRef τ sig)) (after ops V (main_v109 : DevRef τ sig)) := by
  rw [ops_writes.read 159 (op := StableHlo.binary main_v103 main_v109 main_v110 (subf : (⟨S100000x256, .f32⟩ : BufTy).Contents (Elt F) → (⟨S100000x256, .f32⟩ : BufTy).Contents (Elt F) → (⟨S100000x256, .f32⟩ : BufTy).Contents (Elt F))) rfl V (y := main_v110) (by decide),
    ops_writes.after_eq_take 159 V (r := main_v103) (by decide),
    ops_writes.after_eq_take 159 V (r := main_v109) (by decide)]
  generalize after (List.take 159 ops) V = W
  exact binary_result ..

/-- `main_v111` after the line, from its operands after the line (operation 160). -/
theorem step_main_v111 (V : Valuation τ sig (Elt F)) :
    after ops V (main_v111 : DevRef τ sig) = (broadcastInDim S1x256 ![1] bcast_S256_S1x256_1 : (⟨S256, .f32⟩ : BufTy).Contents (Elt F) → (⟨S1x256, .f32⟩ : BufTy).Contents (Elt F)) (after ops V (main_arg11 : DevRef τ sig)) := by
  rw [ops_writes.read 160 (op := StableHlo.unary main_arg11 main_v111 (broadcastInDim S1x256 ![1] bcast_S256_S1x256_1 : (⟨S256, .f32⟩ : BufTy).Contents (Elt F) → (⟨S1x256, .f32⟩ : BufTy).Contents (Elt F))) rfl V (y := main_v111) (by decide),
    ops_writes.after_eq_take 160 V (r := main_arg11) (by decide)]
  generalize after (List.take 160 ops) V = W
  exact unary_result ..

/-- `main_v112` after the line, from its operands after the line (operation 161). -/
theorem step_main_v112 (V : Valuation τ sig (Elt F)) :
    after ops V (main_v112 : DevRef τ sig) = (broadcastInDim S100000x256 ![0, 1] bcast_S1x256_S100000x256_0_1 : (⟨S1x256, .f32⟩ : BufTy).Contents (Elt F) → (⟨S100000x256, .f32⟩ : BufTy).Contents (Elt F)) (after ops V (main_v111 : DevRef τ sig)) := by
  rw [ops_writes.read 161 (op := StableHlo.unary main_v111 main_v112 (broadcastInDim S100000x256 ![0, 1] bcast_S1x256_S100000x256_0_1 : (⟨S1x256, .f32⟩ : BufTy).Contents (Elt F) → (⟨S100000x256, .f32⟩ : BufTy).Contents (Elt F))) rfl V (y := main_v112) (by decide),
    ops_writes.after_eq_take 161 V (r := main_v111) (by decide)]
  generalize after (List.take 161 ops) V = W
  exact unary_result ..

/-- `main_v113` after the line, from its operands after the line (operation 162). -/
theorem step_main_v113 (V : Valuation τ sig (Elt F)) :
    after ops V (main_v113 : DevRef τ sig) = (mulf : (⟨S100000x256, .f32⟩ : BufTy).Contents (Elt F) → (⟨S100000x256, .f32⟩ : BufTy).Contents (Elt F) → (⟨S100000x256, .f32⟩ : BufTy).Contents (Elt F)) (after ops V (main_v112 : DevRef τ sig)) (after ops V (main_v110 : DevRef τ sig)) := by
  rw [ops_writes.read 162 (op := StableHlo.binary main_v112 main_v110 main_v113 (mulf : (⟨S100000x256, .f32⟩ : BufTy).Contents (Elt F) → (⟨S100000x256, .f32⟩ : BufTy).Contents (Elt F) → (⟨S100000x256, .f32⟩ : BufTy).Contents (Elt F))) rfl V (y := main_v113) (by decide),
    ops_writes.after_eq_take 162 V (r := main_v112) (by decide),
    ops_writes.after_eq_take 162 V (r := main_v110) (by decide)]
  generalize after (List.take 162 ops) V = W
  exact binary_result ..

/-- `main_cst_18` after the line, from its operands after the line (operation 163). -/
theorem step_main_cst_18 (V : Valuation τ sig (Elt F)) :
    after ops V (main_cst_18 : DevRef τ sig) = (constant S_ .f32 0x3727C5AC#32) := by
  rw [ops_writes.read 163 (op := StableHlo.nullary main_cst_18 (constant S_ .f32 0x3727C5AC#32)) rfl V (y := main_cst_18) (by decide)]
  generalize after (List.take 163 ops) V = W
  exact nullary_result ..

/-- `main_v114` after the line, from its operands after the line (operation 164). -/
theorem step_main_v114 (V : Valuation τ sig (Elt F)) :
    after ops V (main_v114 : DevRef τ sig) = (broadcastInDim S256 ![] bcast_S_S256 : (⟨S_, .f32⟩ : BufTy).Contents (Elt F) → (⟨S256, .f32⟩ : BufTy).Contents (Elt F)) (after ops V (main_cst_18 : DevRef τ sig)) := by
  rw [ops_writes.read 164 (op := StableHlo.unary main_cst_18 main_v114 (broadcastInDim S256 ![] bcast_S_S256 : (⟨S_, .f32⟩ : BufTy).Contents (Elt F) → (⟨S256, .f32⟩ : BufTy).Contents (Elt F))) rfl V (y := main_v114) (by decide),
    ops_writes.after_eq_take 164 V (r := main_cst_18) (by decide)]
  generalize after (List.take 164 ops) V = W
  exact unary_result ..

/-- `main_v115` after the line, from its operands after the line (operation 165). -/
theorem step_main_v115 (V : Valuation τ sig (Elt F)) :
    after ops V (main_v115 : DevRef τ sig) = (addf : (⟨S256, .f32⟩ : BufTy).Contents (Elt F) → (⟨S256, .f32⟩ : BufTy).Contents (Elt F) → (⟨S256, .f32⟩ : BufTy).Contents (Elt F)) (after ops V (main_v107 : DevRef τ sig)) (after ops V (main_v114 : DevRef τ sig)) := by
  rw [ops_writes.read 165 (op := StableHlo.binary main_v107 main_v114 main_v115 (addf : (⟨S256, .f32⟩ : BufTy).Contents (Elt F) → (⟨S256, .f32⟩ : BufTy).Contents (Elt F) → (⟨S256, .f32⟩ : BufTy).Contents (Elt F))) rfl V (y := main_v115) (by decide),
    ops_writes.after_eq_take 165 V (r := main_v107) (by decide),
    ops_writes.after_eq_take 165 V (r := main_v114) (by decide)]
  generalize after (List.take 165 ops) V = W
  exact binary_result ..

/-- `main_v116` after the line, from its operands after the line (operation 166). -/
theorem step_main_v116 (V : Valuation τ sig (Elt F)) :
    after ops V (main_v116 : DevRef τ sig) = (Host.rsqrt : (⟨S256, .f32⟩ : BufTy).Contents (Elt F) → (⟨S256, .f32⟩ : BufTy).Contents (Elt F)) (after ops V (main_v115 : DevRef τ sig)) := by
  rw [ops_writes.read 166 (op := StableHlo.unary main_v115 main_v116 (Host.rsqrt : (⟨S256, .f32⟩ : BufTy).Contents (Elt F) → (⟨S256, .f32⟩ : BufTy).Contents (Elt F))) rfl V (y := main_v116) (by decide),
    ops_writes.after_eq_take 166 V (r := main_v115) (by decide)]
  generalize after (List.take 166 ops) V = W
  exact unary_result ..

/-- `main_v117` after the line, from its operands after the line (operation 167). -/
theorem step_main_v117 (V : Valuation τ sig (Elt F)) :
    after ops V (main_v117 : DevRef τ sig) = (broadcastInDim S1x256 ![1] bcast_S256_S1x256_1 : (⟨S256, .f32⟩ : BufTy).Contents (Elt F) → (⟨S1x256, .f32⟩ : BufTy).Contents (Elt F)) (after ops V (main_v116 : DevRef τ sig)) := by
  rw [ops_writes.read 167 (op := StableHlo.unary main_v116 main_v117 (broadcastInDim S1x256 ![1] bcast_S256_S1x256_1 : (⟨S256, .f32⟩ : BufTy).Contents (Elt F) → (⟨S1x256, .f32⟩ : BufTy).Contents (Elt F))) rfl V (y := main_v117) (by decide),
    ops_writes.after_eq_take 167 V (r := main_v116) (by decide)]
  generalize after (List.take 167 ops) V = W
  exact unary_result ..

/-- `main_v118` after the line, from its operands after the line (operation 168). -/
theorem step_main_v118 (V : Valuation τ sig (Elt F)) :
    after ops V (main_v118 : DevRef τ sig) = (broadcastInDim S100000x256 ![0, 1] bcast_S1x256_S100000x256_0_1 : (⟨S1x256, .f32⟩ : BufTy).Contents (Elt F) → (⟨S100000x256, .f32⟩ : BufTy).Contents (Elt F)) (after ops V (main_v117 : DevRef τ sig)) := by
  rw [ops_writes.read 168 (op := StableHlo.unary main_v117 main_v118 (broadcastInDim S100000x256 ![0, 1] bcast_S1x256_S100000x256_0_1 : (⟨S1x256, .f32⟩ : BufTy).Contents (Elt F) → (⟨S100000x256, .f32⟩ : BufTy).Contents (Elt F))) rfl V (y := main_v118) (by decide),
    ops_writes.after_eq_take 168 V (r := main_v117) (by decide)]
  generalize after (List.take 168 ops) V = W
  exact unary_result ..

/-- `main_v119` after the line, from its operands after the line (operation 169). -/
theorem step_main_v119 (V : Valuation τ sig (Elt F)) :
    after ops V (main_v119 : DevRef τ sig) = (mulf : (⟨S100000x256, .f32⟩ : BufTy).Contents (Elt F) → (⟨S100000x256, .f32⟩ : BufTy).Contents (Elt F) → (⟨S100000x256, .f32⟩ : BufTy).Contents (Elt F)) (after ops V (main_v113 : DevRef τ sig)) (after ops V (main_v118 : DevRef τ sig)) := by
  rw [ops_writes.read 169 (op := StableHlo.binary main_v113 main_v118 main_v119 (mulf : (⟨S100000x256, .f32⟩ : BufTy).Contents (Elt F) → (⟨S100000x256, .f32⟩ : BufTy).Contents (Elt F) → (⟨S100000x256, .f32⟩ : BufTy).Contents (Elt F))) rfl V (y := main_v119) (by decide),
    ops_writes.after_eq_take 169 V (r := main_v113) (by decide),
    ops_writes.after_eq_take 169 V (r := main_v118) (by decide)]
  generalize after (List.take 169 ops) V = W
  exact binary_result ..

/-- `main_v120` after the line, from its operands after the line (operation 170). -/
theorem step_main_v120 (V : Valuation τ sig (Elt F)) :
    after ops V (main_v120 : DevRef τ sig) = (broadcastInDim S1x256 ![1] bcast_S256_S1x256_1 : (⟨S256, .f32⟩ : BufTy).Contents (Elt F) → (⟨S1x256, .f32⟩ : BufTy).Contents (Elt F)) (after ops V (main_arg12 : DevRef τ sig)) := by
  rw [ops_writes.read 170 (op := StableHlo.unary main_arg12 main_v120 (broadcastInDim S1x256 ![1] bcast_S256_S1x256_1 : (⟨S256, .f32⟩ : BufTy).Contents (Elt F) → (⟨S1x256, .f32⟩ : BufTy).Contents (Elt F))) rfl V (y := main_v120) (by decide),
    ops_writes.after_eq_take 170 V (r := main_arg12) (by decide)]
  generalize after (List.take 170 ops) V = W
  exact unary_result ..

/-- `main_v121` after the line, from its operands after the line (operation 171). -/
theorem step_main_v121 (V : Valuation τ sig (Elt F)) :
    after ops V (main_v121 : DevRef τ sig) = (broadcastInDim S100000x256 ![0, 1] bcast_S1x256_S100000x256_0_1 : (⟨S1x256, .f32⟩ : BufTy).Contents (Elt F) → (⟨S100000x256, .f32⟩ : BufTy).Contents (Elt F)) (after ops V (main_v120 : DevRef τ sig)) := by
  rw [ops_writes.read 171 (op := StableHlo.unary main_v120 main_v121 (broadcastInDim S100000x256 ![0, 1] bcast_S1x256_S100000x256_0_1 : (⟨S1x256, .f32⟩ : BufTy).Contents (Elt F) → (⟨S100000x256, .f32⟩ : BufTy).Contents (Elt F))) rfl V (y := main_v121) (by decide),
    ops_writes.after_eq_take 171 V (r := main_v120) (by decide)]
  generalize after (List.take 171 ops) V = W
  exact unary_result ..

/-- `main_v122` after the line, from its operands after the line (operation 172). -/
theorem step_main_v122 (V : Valuation τ sig (Elt F)) :
    after ops V (main_v122 : DevRef τ sig) = (addf : (⟨S100000x256, .f32⟩ : BufTy).Contents (Elt F) → (⟨S100000x256, .f32⟩ : BufTy).Contents (Elt F) → (⟨S100000x256, .f32⟩ : BufTy).Contents (Elt F)) (after ops V (main_v119 : DevRef τ sig)) (after ops V (main_v121 : DevRef τ sig)) := by
  rw [ops_writes.read 172 (op := StableHlo.binary main_v119 main_v121 main_v122 (addf : (⟨S100000x256, .f32⟩ : BufTy).Contents (Elt F) → (⟨S100000x256, .f32⟩ : BufTy).Contents (Elt F) → (⟨S100000x256, .f32⟩ : BufTy).Contents (Elt F))) rfl V (y := main_v122) (by decide),
    ops_writes.after_eq_take 172 V (r := main_v119) (by decide),
    ops_writes.after_eq_take 172 V (r := main_v121) (by decide)]
  generalize after (List.take 172 ops) V = W
  exact binary_result ..

/-- `main_call5_cst` after the line, from its operands after the line (operation 173). -/
theorem step_main_call5_cst (V : Valuation τ sig (Elt F)) :
    after ops V (main_call5_cst : DevRef τ sig) = (constant S_ .f32 0x00000000#32) := by
  rw [ops_writes.read 173 (op := StableHlo.TRef.nullary main_call5.cst (constant S_ .f32 0x00000000#32)) rfl V (y := main_call5_cst) (by decide)]
  generalize after (List.take 173 ops) V = W
  exact nullary_result ..

/-- `main_call5_v0` after the line, from its operands after the line (operation 174). -/
theorem step_main_call5_v0 (V : Valuation τ sig (Elt F)) :
    after ops V (main_call5_v0 : DevRef τ sig) = (broadcastInDim S100000x256 ![] bcast_S_S100000x256) (after ops V (main_call5_cst : DevRef τ sig)) := by
  rw [ops_writes.read 174 (op := StableHlo.TRef.unary main_call5.cst main_call5.v0 (broadcastInDim S100000x256 ![] bcast_S_S100000x256)) rfl V (y := main_call5_v0) (by decide),
    ops_writes.after_eq_take 174 V (r := main_call5_cst) (by decide)]
  generalize after (List.take 174 ops) V = W
  exact unary_result ..

/-- `main_v123` after the line, from its operands after the line (operation 175). -/
theorem step_main_v123 (V : Valuation τ sig (Elt F)) :
    after ops V (main_v123 : DevRef τ sig) = maximumf (after ops V (main_v122 : DevRef τ sig)) (after ops V (main_call5_v0 : DevRef τ sig)) := by
  rw [ops_writes.read 175 (op := StableHlo.TRef.binary (StableHlo.TRef.of main_v122 : StableHlo.TRef sig ⟨S100000x256, .f32⟩) main_call5.v0 main_call5.v1 maximumf) rfl V (y := main_v123) (by decide),
    ops_writes.after_eq_take 175 V (r := main_v122) (by decide),
    ops_writes.after_eq_take 175 V (r := main_call5_v0) (by decide)]
  generalize after (List.take 175 ops) V = W
  exact binary_result ..

/-- `main_v124` after the line, from its operands after the line (operation 176). -/
theorem step_main_v124 (V : Valuation τ sig (Elt F)) :
    after ops V (main_v124 : DevRef τ sig) = ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)) (after ops V (main_v123 : DevRef τ sig)) (after ops V (main_arg13 : DevRef τ sig)) := by
  rw [ops_writes.read 176 (op := StableHlo.binary main_v123 main_arg13 main_v124 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F))) rfl V (y := main_v124) (by decide),
    ops_writes.after_eq_take 176 V (r := main_v123) (by decide),
    ops_writes.after_eq_take 176 V (r := main_arg13) (by decide)]
  generalize after (List.take 176 ops) V = W
  exact binary_result ..

/-- `main_v125` after the line, from its operands after the line (operation 177). -/
theorem step_main_v125 (V : Valuation τ sig (Elt F)) :
    after ops V (main_v125 : DevRef τ sig) = (broadcastInDim S1x128 ![1] bcast_S128_S1x128_1 : (⟨S128, .f32⟩ : BufTy).Contents (Elt F) → (⟨S1x128, .f32⟩ : BufTy).Contents (Elt F)) (after ops V (main_arg14 : DevRef τ sig)) := by
  rw [ops_writes.read 177 (op := StableHlo.unary main_arg14 main_v125 (broadcastInDim S1x128 ![1] bcast_S128_S1x128_1 : (⟨S128, .f32⟩ : BufTy).Contents (Elt F) → (⟨S1x128, .f32⟩ : BufTy).Contents (Elt F))) rfl V (y := main_v125) (by decide),
    ops_writes.after_eq_take 177 V (r := main_arg14) (by decide)]
  generalize after (List.take 177 ops) V = W
  exact unary_result ..

/-- `main_v126` after the line, from its operands after the line (operation 178). -/
theorem step_main_v126 (V : Valuation τ sig (Elt F)) :
    after ops V (main_v126 : DevRef τ sig) = (broadcastInDim S100000x128 ![0, 1] bcast_S1x128_S100000x128_0_1 : (⟨S1x128, .f32⟩ : BufTy).Contents (Elt F) → (⟨S100000x128, .f32⟩ : BufTy).Contents (Elt F)) (after ops V (main_v125 : DevRef τ sig)) := by
  rw [ops_writes.read 178 (op := StableHlo.unary main_v125 main_v126 (broadcastInDim S100000x128 ![0, 1] bcast_S1x128_S100000x128_0_1 : (⟨S1x128, .f32⟩ : BufTy).Contents (Elt F) → (⟨S100000x128, .f32⟩ : BufTy).Contents (Elt F))) rfl V (y := main_v126) (by decide),
    ops_writes.after_eq_take 178 V (r := main_v125) (by decide)]
  generalize after (List.take 178 ops) V = W
  exact unary_result ..

/-- `main_v127` after the line, from its operands after the line (operation 179). -/
theorem step_main_v127 (V : Valuation τ sig (Elt F)) :
    after ops V (main_v127 : DevRef τ sig) = (addf : (⟨S100000x128, .f32⟩ : BufTy).Contents (Elt F) → (⟨S100000x128, .f32⟩ : BufTy).Contents (Elt F) → (⟨S100000x128, .f32⟩ : BufTy).Contents (Elt F)) (after ops V (main_v124 : DevRef τ sig)) (after ops V (main_v126 : DevRef τ sig)) := by
  rw [ops_writes.read 179 (op := StableHlo.binary main_v124 main_v126 main_v127 (addf : (⟨S100000x128, .f32⟩ : BufTy).Contents (Elt F) → (⟨S100000x128, .f32⟩ : BufTy).Contents (Elt F) → (⟨S100000x128, .f32⟩ : BufTy).Contents (Elt F))) rfl V (y := main_v127) (by decide),
    ops_writes.after_eq_take 179 V (r := main_v124) (by decide),
    ops_writes.after_eq_take 179 V (r := main_v126) (by decide)]
  generalize after (List.take 179 ops) V = W
  exact binary_result ..

/-- `main_cst_19` after the line, from its operands after the line (operation 180). -/
theorem step_main_cst_19 (V : Valuation τ sig (Elt F)) :
    after ops V (main_cst_19 : DevRef τ sig) = (constant S_ .f32 0x00000000#32) := by
  rw [ops_writes.read 180 (op := StableHlo.nullary main_cst_19 (constant S_ .f32 0x00000000#32)) rfl V (y := main_cst_19) (by decide)]
  generalize after (List.take 180 ops) V = W
  exact nullary_result ..

/-- `main_v128` after the line, from its operands after the line (operation 181). -/
theorem step_main_v128 (V : Valuation τ sig (Elt F)) :
    after ops V (main_v128 : DevRef τ sig) = ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) (after ops V (main_v127 : DevRef τ sig)) (after ops V (main_cst_19 : DevRef τ sig)) := by
  rw [ops_writes.read 181 (op := StableHlo.binary main_v127 main_cst_19 main_v128 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F))) rfl V (y := main_v128) (by decide),
    ops_writes.after_eq_take 181 V (r := main_v127) (by decide),
    ops_writes.after_eq_take 181 V (r := main_cst_19) (by decide)]
  generalize after (List.take 181 ops) V = W
  exact binary_result ..

/-- `main_cst_20` after the line, from its operands after the line (operation 182). -/
theorem step_main_cst_20 (V : Valuation τ sig (Elt F)) :
    after ops V (main_cst_20 : DevRef τ sig) = (constant S_ .f32 0x47C35000#32) := by
  rw [ops_writes.read 182 (op := StableHlo.nullary main_cst_20 (constant S_ .f32 0x47C35000#32)) rfl V (y := main_cst_20) (by decide)]
  generalize after (List.take 182 ops) V = W
  exact nullary_result ..

/-- `main_v129` after the line, from its operands after the line (operation 183). -/
theorem step_main_v129 (V : Valuation τ sig (Elt F)) :
    after ops V (main_v129 : DevRef τ sig) = (broadcastInDim S128 ![] bcast_S_S128 : (⟨S_, .f32⟩ : BufTy).Contents (Elt F) → (⟨S128, .f32⟩ : BufTy).Contents (Elt F)) (after ops V (main_cst_20 : DevRef τ sig)) := by
  rw [ops_writes.read 183 (op := StableHlo.unary main_cst_20 main_v129 (broadcastInDim S128 ![] bcast_S_S128 : (⟨S_, .f32⟩ : BufTy).Contents (Elt F) → (⟨S128, .f32⟩ : BufTy).Contents (Elt F))) rfl V (y := main_v129) (by decide),
    ops_writes.after_eq_take 183 V (r := main_cst_20) (by decide)]
  generalize after (List.take 183 ops) V = W
  exact unary_result ..

/-- `main_v130` after the line, from its operands after the line (operation 184). -/
theorem step_main_v130 (V : Valuation τ sig (Elt F)) :
    after ops V (main_v130 : DevRef τ sig) = (Host.divf : (⟨S128, .f32⟩ : BufTy).Contents (Elt F) → (⟨S128, .f32⟩ : BufTy).Contents (Elt F) → (⟨S128, .f32⟩ : BufTy).Contents (Elt F)) (after ops V (main_v128 : DevRef τ sig)) (after ops V (main_v129 : DevRef τ sig)) := by
  rw [ops_writes.read 184 (op := StableHlo.binary main_v128 main_v129 main_v130 (Host.divf : (⟨S128, .f32⟩ : BufTy).Contents (Elt F) → (⟨S128, .f32⟩ : BufTy).Contents (Elt F) → (⟨S128, .f32⟩ : BufTy).Contents (Elt F))) rfl V (y := main_v130) (by decide),
    ops_writes.after_eq_take 184 V (r := main_v128) (by decide),
    ops_writes.after_eq_take 184 V (r := main_v129) (by decide)]
  generalize after (List.take 184 ops) V = W
  exact binary_result ..

/-- `main_c_21` after the line, from its operands after the line (operation 185). -/
theorem step_main_c_21 (V : Valuation τ sig (Elt F)) :
    after ops V (main_c_21 : DevRef τ sig) = (constantI S_ 32 0#32) := by
  rw [ops_writes.read 185 (op := StableHlo.nullary main_c_21 (constantI S_ 32 0#32)) rfl V (y := main_c_21) (by decide)]
  generalize after (List.take 185 ops) V = W
  exact nullary_result ..

/-- `main_call6_cst` after the line, from its operands after the line (operation 186). -/
theorem step_main_call6_cst (V : Valuation τ sig (Elt F)) :
    after ops V (main_call6_cst : DevRef τ sig) = (constant S_ .f32 0x00000000#32) := by
  rw [ops_writes.read 186 (op := StableHlo.TRef.nullary main_call6.cst (constant S_ .f32 0x00000000#32)) rfl V (y := main_call6_cst) (by decide)]
  generalize after (List.take 186 ops) V = W
  exact nullary_result ..

/-- `main_call6_v0` after the line, from its operands after the line (operation 187). -/
theorem step_main_call6_v0 (V : Valuation τ sig (Elt F)) :
    after ops V (main_call6_v0 : DevRef τ sig) = (fun x v => Host.reduceAdd x v reducesTo_S100000x128_S128_d0 h_S_) (after ops V (main_v127 : DevRef τ sig)) (after ops V (main_call6_cst : DevRef τ sig)) := by
  rw [ops_writes.read 187 (op := StableHlo.TRef.binary (StableHlo.TRef.of main_v127 : StableHlo.TRef sig ⟨S100000x128, .f32⟩) main_call6.cst main_call6.v0 (fun x v => Host.reduceAdd x v reducesTo_S100000x128_S128_d0 h_S_)) rfl V (y := main_call6_v0) (by decide),
    ops_writes.after_eq_take 187 V (r := main_v127) (by decide),
    ops_writes.after_eq_take 187 V (r := main_call6_cst) (by decide)]
  generalize after (List.take 187 ops) V = W
  exact binary_result ..

/-- `main_call6_v1` after the line, from its operands after the line (operation 188). -/
theorem step_main_call6_v1 (V : Valuation τ sig (Elt F)) :
    after ops V (main_call6_v1 : DevRef τ sig) = (broadcastInDim S1x128 ![1] bcast_S128_S1x128_1) (after ops V (main_call6_v0 : DevRef τ sig)) := by
  rw [ops_writes.read 188 (op := StableHlo.TRef.unary main_call6.v0 main_call6.v1 (broadcastInDim S1x128 ![1] bcast_S128_S1x128_1)) rfl V (y := main_call6_v1) (by decide),
    ops_writes.after_eq_take 188 V (r := main_call6_v0) (by decide)]
  generalize after (List.take 188 ops) V = W
  exact unary_result ..

/-- `main_call6_cst_0` after the line, from its operands after the line (operation 189). -/
theorem step_main_call6_cst_0 (V : Valuation τ sig (Elt F)) :
    after ops V (main_call6_cst_0 : DevRef τ sig) = (constant S_ .f32 0x47C35000#32) := by
  rw [ops_writes.read 189 (op := StableHlo.TRef.nullary main_call6.cst_0 (constant S_ .f32 0x47C35000#32)) rfl V (y := main_call6_cst_0) (by decide)]
  generalize after (List.take 189 ops) V = W
  exact nullary_result ..

/-- `main_call6_v2` after the line, from its operands after the line (operation 190). -/
theorem step_main_call6_v2 (V : Valuation τ sig (Elt F)) :
    after ops V (main_call6_v2 : DevRef τ sig) = (broadcastInDim S1x128 ![] bcast_S_S1x128) (after ops V (main_call6_cst_0 : DevRef τ sig)) := by
  rw [ops_writes.read 190 (op := StableHlo.TRef.unary main_call6.cst_0 main_call6.v2 (broadcastInDim S1x128 ![] bcast_S_S1x128)) rfl V (y := main_call6_v2) (by decide),
    ops_writes.after_eq_take 190 V (r := main_call6_cst_0) (by decide)]
  generalize after (List.take 190 ops) V = W
  exact unary_result ..

/-- `main_call6_v3` after the line, from its operands after the line (operation 191). -/
theorem step_main_call6_v3 (V : Valuation τ sig (Elt F)) :
    after ops V (main_call6_v3 : DevRef τ sig) = Host.divf (after ops V (main_call6_v1 : DevRef τ sig)) (after ops V (main_call6_v2 : DevRef τ sig)) := by
  rw [ops_writes.read 191 (op := StableHlo.TRef.binary main_call6.v1 main_call6.v2 main_call6.v3 Host.divf) rfl V (y := main_call6_v3) (by decide),
    ops_writes.after_eq_take 191 V (r := main_call6_v1) (by decide),
    ops_writes.after_eq_take 191 V (r := main_call6_v2) (by decide)]
  generalize after (List.take 191 ops) V = W
  exact binary_result ..

/-- `main_call6_v4` after the line, from its operands after the line (operation 192). -/
theorem step_main_call6_v4 (V : Valuation τ sig (Elt F)) :
    after ops V (main_call6_v4 : DevRef τ sig) = (broadcastInDim S100000x128 ![0, 1] bcast_S1x128_S100000x128_0_1) (after ops V (main_call6_v3 : DevRef τ sig)) := by
  rw [ops_writes.read 192 (op := StableHlo.TRef.unary main_call6.v3 main_call6.v4 (broadcastInDim S100000x128 ![0, 1] bcast_S1x128_S100000x128_0_1)) rfl V (y := main_call6_v4) (by decide),
    ops_writes.after_eq_take 192 V (r := main_call6_v3) (by decide)]
  generalize after (List.take 192 ops) V = W
  exact unary_result ..

/-- `main_call6_v5` after the line, from its operands after the line (operation 193). -/
theorem step_main_call6_v5 (V : Valuation τ sig (Elt F)) :
    after ops V (main_call6_v5 : DevRef τ sig) = subf (after ops V (main_v127 : DevRef τ sig)) (after ops V (main_call6_v4 : DevRef τ sig)) := by
  rw [ops_writes.read 193 (op := StableHlo.TRef.binary (StableHlo.TRef.of main_v127 : StableHlo.TRef sig ⟨S100000x128, .f32⟩) main_call6.v4 main_call6.v5 subf) rfl V (y := main_call6_v5) (by decide),
    ops_writes.after_eq_take 193 V (r := main_v127) (by decide),
    ops_writes.after_eq_take 193 V (r := main_call6_v4) (by decide)]
  generalize after (List.take 193 ops) V = W
  exact binary_result ..

/-- `main_call6_v6` after the line, from its operands after the line (operation 194). -/
theorem step_main_call6_v6 (V : Valuation τ sig (Elt F)) :
    after ops V (main_call6_v6 : DevRef τ sig) = mulf (after ops V (main_call6_v5 : DevRef τ sig)) (after ops V (main_call6_v5 : DevRef τ sig)) := by
  rw [ops_writes.read 194 (op := StableHlo.TRef.binary main_call6.v5 main_call6.v5 main_call6.v6 mulf) rfl V (y := main_call6_v6) (by decide),
    ops_writes.after_eq_take 194 V (r := main_call6_v5) (by decide)]
  generalize after (List.take 194 ops) V = W
  exact binary_result ..

/-- `main_call6_v7` after the line, from its operands after the line (operation 195). -/
theorem step_main_call6_v7 (V : Valuation τ sig (Elt F)) :
    after ops V (main_call6_v7 : DevRef τ sig) = (sitofp .f32) (after ops V (main_c_21 : DevRef τ sig)) := by
  rw [ops_writes.read 195 (op := StableHlo.TRef.unary (StableHlo.TRef.of main_c_21 : StableHlo.TRef sig ⟨S_, .i32⟩) main_call6.v7 (sitofp .f32)) rfl V (y := main_call6_v7) (by decide),
    ops_writes.after_eq_take 195 V (r := main_c_21) (by decide)]
  generalize after (List.take 195 ops) V = W
  exact unary_result ..

/-- `main_call6_cst_1` after the line, from its operands after the line (operation 196). -/
theorem step_main_call6_cst_1 (V : Valuation τ sig (Elt F)) :
    after ops V (main_call6_cst_1 : DevRef τ sig) = (constant S_ .f32 0x47C35000#32) := by
  rw [ops_writes.read 196 (op := StableHlo.TRef.nullary main_call6.cst_1 (constant S_ .f32 0x47C35000#32)) rfl V (y := main_call6_cst_1) (by decide)]
  generalize after (List.take 196 ops) V = W
  exact nullary_result ..

/-- `main_call6_v8` after the line, from its operands after the line (operation 197). -/
theorem step_main_call6_v8 (V : Valuation τ sig (Elt F)) :
    after ops V (main_call6_v8 : DevRef τ sig) = subf (after ops V (main_call6_cst_1 : DevRef τ sig)) (after ops V (main_call6_v7 : DevRef τ sig)) := by
  rw [ops_writes.read 197 (op := StableHlo.TRef.binary main_call6.cst_1 main_call6.v7 main_call6.v8 subf) rfl V (y := main_call6_v8) (by decide),
    ops_writes.after_eq_take 197 V (r := main_call6_cst_1) (by decide),
    ops_writes.after_eq_take 197 V (r := main_call6_v7) (by decide)]
  generalize after (List.take 197 ops) V = W
  exact binary_result ..

/-- `main_call6_cst_2` after the line, from its operands after the line (operation 198). -/
theorem step_main_call6_cst_2 (V : Valuation τ sig (Elt F)) :
    after ops V (main_call6_cst_2 : DevRef τ sig) = (constant S_ .f32 0x00000000#32) := by
  rw [ops_writes.read 198 (op := StableHlo.TRef.nullary main_call6.cst_2 (constant S_ .f32 0x00000000#32)) rfl V (y := main_call6_cst_2) (by decide)]
  generalize after (List.take 198 ops) V = W
  exact nullary_result ..

/-- `main_call6_v9` after the line, from its operands after the line (operation 199). -/
theorem step_main_call6_v9 (V : Valuation τ sig (Elt F)) :
    after ops V (main_call6_v9 : DevRef τ sig) = (fun x v => Host.reduceAdd x v reducesTo_S100000x128_S128_d0 h_S_) (after ops V (main_call6_v6 : DevRef τ sig)) (after ops V (main_call6_cst_2 : DevRef τ sig)) := by
  rw [ops_writes.read 199 (op := StableHlo.TRef.binary main_call6.v6 main_call6.cst_2 main_call6.v9 (fun x v => Host.reduceAdd x v reducesTo_S100000x128_S128_d0 h_S_)) rfl V (y := main_call6_v9) (by decide),
    ops_writes.after_eq_take 199 V (r := main_call6_v6) (by decide),
    ops_writes.after_eq_take 199 V (r := main_call6_cst_2) (by decide)]
  generalize after (List.take 199 ops) V = W
  exact binary_result ..

/-- `main_call6_v10` after the line, from its operands after the line (operation 200). -/
theorem step_main_call6_v10 (V : Valuation τ sig (Elt F)) :
    after ops V (main_call6_v10 : DevRef τ sig) = (broadcastInDim S128 ![] bcast_S_S128) (after ops V (main_call6_v8 : DevRef τ sig)) := by
  rw [ops_writes.read 200 (op := StableHlo.TRef.unary main_call6.v8 main_call6.v10 (broadcastInDim S128 ![] bcast_S_S128)) rfl V (y := main_call6_v10) (by decide),
    ops_writes.after_eq_take 200 V (r := main_call6_v8) (by decide)]
  generalize after (List.take 200 ops) V = W
  exact unary_result ..

/-- `main_call6_v11` after the line, from its operands after the line (operation 201). -/
theorem step_main_call6_v11 (V : Valuation τ sig (Elt F)) :
    after ops V (main_call6_v11 : DevRef τ sig) = Host.divf (after ops V (main_call6_v9 : DevRef τ sig)) (after ops V (main_call6_v10 : DevRef τ sig)) := by
  rw [ops_writes.read 201 (op := StableHlo.TRef.binary main_call6.v9 main_call6.v10 main_call6.v11 Host.divf) rfl V (y := main_call6_v11) (by decide),
    ops_writes.after_eq_take 201 V (r := main_call6_v9) (by decide),
    ops_writes.after_eq_take 201 V (r := main_call6_v10) (by decide)]
  generalize after (List.take 201 ops) V = W
  exact binary_result ..

/-- `main_call6_cst_3` after the line, from its operands after the line (operation 202). -/
theorem step_main_call6_cst_3 (V : Valuation τ sig (Elt F)) :
    after ops V (main_call6_cst_3 : DevRef τ sig) = (constant S_ .f32 0x00000000#32) := by
  rw [ops_writes.read 202 (op := StableHlo.TRef.nullary main_call6.cst_3 (constant S_ .f32 0x00000000#32)) rfl V (y := main_call6_cst_3) (by decide)]
  generalize after (List.take 202 ops) V = W
  exact nullary_result ..

/-- `main_call6_v12` after the line, from its operands after the line (operation 203). -/
theorem step_main_call6_v12 (V : Valuation τ sig (Elt F)) :
    after ops V (main_call6_v12 : DevRef τ sig) = (cmpf .ogt) (after ops V (main_call6_v8 : DevRef τ sig)) (after ops V (main_call6_cst_3 : DevRef τ sig)) := by
  rw [ops_writes.read 203 (op := StableHlo.TRef.binary main_call6.v8 main_call6.cst_3 main_call6.v12 (cmpf .ogt)) rfl V (y := main_call6_v12) (by decide),
    ops_writes.after_eq_take 203 V (r := main_call6_v8) (by decide),
    ops_writes.after_eq_take 203 V (r := main_call6_cst_3) (by decide)]
  generalize after (List.take 203 ops) V = W
  exact binary_result ..

/-- `main_call6_cst_4` after the line, from its operands after the line (operation 204). -/
theorem step_main_call6_cst_4 (V : Valuation τ sig (Elt F)) :
    after ops V (main_call6_cst_4 : DevRef τ sig) = (constant S_ .f32 0x7FC00000#32) := by
  rw [ops_writes.read 204 (op := StableHlo.TRef.nullary main_call6.cst_4 (constant S_ .f32 0x7FC00000#32)) rfl V (y := main_call6_cst_4) (by decide)]
  generalize after (List.take 204 ops) V = W
  exact nullary_result ..

/-- `main_call6_call0_v0` after the line, from its operands after the line (operation 205). -/
theorem step_main_call6_call0_v0 (V : Valuation τ sig (Elt F)) :
    after ops V (main_call6_call0_v0 : DevRef τ sig) = id (after ops V (main_call6_cst_4 : DevRef τ sig)) := by
  rw [ops_writes.read 205 (op := StableHlo.TRef.unary main_call6.cst_4 main_call6.call0.v0 id) rfl V (y := main_call6_call0_v0) (by decide),
    ops_writes.after_eq_take 205 V (r := main_call6_cst_4) (by decide)]
  generalize after (List.take 205 ops) V = W
  exact unary_result ..

/-- `main_call6_call0_v1` after the line, from its operands after the line (operation 206). -/
theorem step_main_call6_call0_v1 (V : Valuation τ sig (Elt F)) :
    after ops V (main_call6_call0_v1 : DevRef τ sig) = (broadcastInDim S128 ![] bcast_S_S128) (after ops V (main_call6_call0_v0 : DevRef τ sig)) := by
  rw [ops_writes.read 206 (op := StableHlo.TRef.unary main_call6.call0.v0 main_call6.call0.v1 (broadcastInDim S128 ![] bcast_S_S128)) rfl V (y := main_call6_call0_v1) (by decide),
    ops_writes.after_eq_take 206 V (r := main_call6_call0_v0) (by decide)]
  generalize after (List.take 206 ops) V = W
  exact unary_result ..

/-- `main_v131` after the line, from its operands after the line (operation 207). -/
theorem step_main_v131 (V : Valuation τ sig (Elt F)) :
    after ops V (main_v131 : DevRef τ sig) = (fun p a b => select (broadcastInDim S128 ![] bcast_S_S128 p) a b) (after ops V (main_call6_v12 : DevRef τ sig)) (after ops V (main_call6_v11 : DevRef τ sig)) (after ops V (main_call6_call0_v1 : DevRef τ sig)) := by
  rw [ops_writes.read 207 (op := StableHlo.TRef.ternary main_call6.v12 main_call6.v11 main_call6.call0.v1 main_call6.call0.v2 (fun p a b => select (broadcastInDim S128 ![] bcast_S_S128 p) a b)) rfl V (y := main_v131) (by decide),
    ops_writes.after_eq_take 207 V (r := main_call6_v12) (by decide),
    ops_writes.after_eq_take 207 V (r := main_call6_v11) (by decide),
    ops_writes.after_eq_take 207 V (r := main_call6_call0_v1) (by decide)]
  generalize after (List.take 207 ops) V = W
  exact ternary_result ..

/-- `main_v132` after the line, from its operands after the line (operation 208). -/
theorem step_main_v132 (V : Valuation τ sig (Elt F)) :
    after ops V (main_v132 : DevRef τ sig) = (broadcastInDim S1x128 ![1] bcast_S128_S1x128_1 : (⟨S128, .f32⟩ : BufTy).Contents (Elt F) → (⟨S1x128, .f32⟩ : BufTy).Contents (Elt F)) (after ops V (main_v130 : DevRef τ sig)) := by
  rw [ops_writes.read 208 (op := StableHlo.unary main_v130 main_v132 (broadcastInDim S1x128 ![1] bcast_S128_S1x128_1 : (⟨S128, .f32⟩ : BufTy).Contents (Elt F) → (⟨S1x128, .f32⟩ : BufTy).Contents (Elt F))) rfl V (y := main_v132) (by decide),
    ops_writes.after_eq_take 208 V (r := main_v130) (by decide)]
  generalize after (List.take 208 ops) V = W
  exact unary_result ..

/-- `main_v133` after the line, from its operands after the line (operation 209). -/
theorem step_main_v133 (V : Valuation τ sig (Elt F)) :
    after ops V (main_v133 : DevRef τ sig) = (broadcastInDim S100000x128 ![0, 1] bcast_S1x128_S100000x128_0_1 : (⟨S1x128, .f32⟩ : BufTy).Contents (Elt F) → (⟨S100000x128, .f32⟩ : BufTy).Contents (Elt F)) (after ops V (main_v132 : DevRef τ sig)) := by
  rw [ops_writes.read 209 (op := StableHlo.unary main_v132 main_v133 (broadcastInDim S100000x128 ![0, 1] bcast_S1x128_S100000x128_0_1 : (⟨S1x128, .f32⟩ : BufTy).Contents (Elt F) → (⟨S100000x128, .f32⟩ : BufTy).Contents (Elt F))) rfl V (y := main_v133) (by decide),
    ops_writes.after_eq_take 209 V (r := main_v132) (by decide)]
  generalize after (List.take 209 ops) V = W
  exact unary_result ..

/-- `main_v134` after the line, from its operands after the line (operation 210). -/
theorem step_main_v134 (V : Valuation τ sig (Elt F)) :
    after ops V (main_v134 : DevRef τ sig) = (subf : (⟨S100000x128, .f32⟩ : BufTy).Contents (Elt F) → (⟨S100000x128, .f32⟩ : BufTy).Contents (Elt F) → (⟨S100000x128, .f32⟩ : BufTy).Contents (Elt F)) (after ops V (main_v127 : DevRef τ sig)) (after ops V (main_v133 : DevRef τ sig)) := by
  rw [ops_writes.read 210 (op := StableHlo.binary main_v127 main_v133 main_v134 (subf : (⟨S100000x128, .f32⟩ : BufTy).Contents (Elt F) → (⟨S100000x128, .f32⟩ : BufTy).Contents (Elt F) → (⟨S100000x128, .f32⟩ : BufTy).Contents (Elt F))) rfl V (y := main_v134) (by decide),
    ops_writes.after_eq_take 210 V (r := main_v127) (by decide),
    ops_writes.after_eq_take 210 V (r := main_v133) (by decide)]
  generalize after (List.take 210 ops) V = W
  exact binary_result ..

/-- `main_v135` after the line, from its operands after the line (operation 211). -/
theorem step_main_v135 (V : Valuation τ sig (Elt F)) :
    after ops V (main_v135 : DevRef τ sig) = (broadcastInDim S1x128 ![1] bcast_S128_S1x128_1 : (⟨S128, .f32⟩ : BufTy).Contents (Elt F) → (⟨S1x128, .f32⟩ : BufTy).Contents (Elt F)) (after ops V (main_arg15 : DevRef τ sig)) := by
  rw [ops_writes.read 211 (op := StableHlo.unary main_arg15 main_v135 (broadcastInDim S1x128 ![1] bcast_S128_S1x128_1 : (⟨S128, .f32⟩ : BufTy).Contents (Elt F) → (⟨S1x128, .f32⟩ : BufTy).Contents (Elt F))) rfl V (y := main_v135) (by decide),
    ops_writes.after_eq_take 211 V (r := main_arg15) (by decide)]
  generalize after (List.take 211 ops) V = W
  exact unary_result ..

/-- `main_v136` after the line, from its operands after the line (operation 212). -/
theorem step_main_v136 (V : Valuation τ sig (Elt F)) :
    after ops V (main_v136 : DevRef τ sig) = (broadcastInDim S100000x128 ![0, 1] bcast_S1x128_S100000x128_0_1 : (⟨S1x128, .f32⟩ : BufTy).Contents (Elt F) → (⟨S100000x128, .f32⟩ : BufTy).Contents (Elt F)) (after ops V (main_v135 : DevRef τ sig)) := by
  rw [ops_writes.read 212 (op := StableHlo.unary main_v135 main_v136 (broadcastInDim S100000x128 ![0, 1] bcast_S1x128_S100000x128_0_1 : (⟨S1x128, .f32⟩ : BufTy).Contents (Elt F) → (⟨S100000x128, .f32⟩ : BufTy).Contents (Elt F))) rfl V (y := main_v136) (by decide),
    ops_writes.after_eq_take 212 V (r := main_v135) (by decide)]
  generalize after (List.take 212 ops) V = W
  exact unary_result ..

/-- `main_v137` after the line, from its operands after the line (operation 213). -/
theorem step_main_v137 (V : Valuation τ sig (Elt F)) :
    after ops V (main_v137 : DevRef τ sig) = (mulf : (⟨S100000x128, .f32⟩ : BufTy).Contents (Elt F) → (⟨S100000x128, .f32⟩ : BufTy).Contents (Elt F) → (⟨S100000x128, .f32⟩ : BufTy).Contents (Elt F)) (after ops V (main_v136 : DevRef τ sig)) (after ops V (main_v134 : DevRef τ sig)) := by
  rw [ops_writes.read 213 (op := StableHlo.binary main_v136 main_v134 main_v137 (mulf : (⟨S100000x128, .f32⟩ : BufTy).Contents (Elt F) → (⟨S100000x128, .f32⟩ : BufTy).Contents (Elt F) → (⟨S100000x128, .f32⟩ : BufTy).Contents (Elt F))) rfl V (y := main_v137) (by decide),
    ops_writes.after_eq_take 213 V (r := main_v136) (by decide),
    ops_writes.after_eq_take 213 V (r := main_v134) (by decide)]
  generalize after (List.take 213 ops) V = W
  exact binary_result ..

/-- `main_cst_22` after the line, from its operands after the line (operation 214). -/
theorem step_main_cst_22 (V : Valuation τ sig (Elt F)) :
    after ops V (main_cst_22 : DevRef τ sig) = (constant S_ .f32 0x3727C5AC#32) := by
  rw [ops_writes.read 214 (op := StableHlo.nullary main_cst_22 (constant S_ .f32 0x3727C5AC#32)) rfl V (y := main_cst_22) (by decide)]
  generalize after (List.take 214 ops) V = W
  exact nullary_result ..

/-- `main_v138` after the line, from its operands after the line (operation 215). -/
theorem step_main_v138 (V : Valuation τ sig (Elt F)) :
    after ops V (main_v138 : DevRef τ sig) = (broadcastInDim S128 ![] bcast_S_S128 : (⟨S_, .f32⟩ : BufTy).Contents (Elt F) → (⟨S128, .f32⟩ : BufTy).Contents (Elt F)) (after ops V (main_cst_22 : DevRef τ sig)) := by
  rw [ops_writes.read 215 (op := StableHlo.unary main_cst_22 main_v138 (broadcastInDim S128 ![] bcast_S_S128 : (⟨S_, .f32⟩ : BufTy).Contents (Elt F) → (⟨S128, .f32⟩ : BufTy).Contents (Elt F))) rfl V (y := main_v138) (by decide),
    ops_writes.after_eq_take 215 V (r := main_cst_22) (by decide)]
  generalize after (List.take 215 ops) V = W
  exact unary_result ..

/-- `main_v139` after the line, from its operands after the line (operation 216). -/
theorem step_main_v139 (V : Valuation τ sig (Elt F)) :
    after ops V (main_v139 : DevRef τ sig) = (addf : (⟨S128, .f32⟩ : BufTy).Contents (Elt F) → (⟨S128, .f32⟩ : BufTy).Contents (Elt F) → (⟨S128, .f32⟩ : BufTy).Contents (Elt F)) (after ops V (main_v131 : DevRef τ sig)) (after ops V (main_v138 : DevRef τ sig)) := by
  rw [ops_writes.read 216 (op := StableHlo.binary main_v131 main_v138 main_v139 (addf : (⟨S128, .f32⟩ : BufTy).Contents (Elt F) → (⟨S128, .f32⟩ : BufTy).Contents (Elt F) → (⟨S128, .f32⟩ : BufTy).Contents (Elt F))) rfl V (y := main_v139) (by decide),
    ops_writes.after_eq_take 216 V (r := main_v131) (by decide),
    ops_writes.after_eq_take 216 V (r := main_v138) (by decide)]
  generalize after (List.take 216 ops) V = W
  exact binary_result ..

/-- `main_v140` after the line, from its operands after the line (operation 217). -/
theorem step_main_v140 (V : Valuation τ sig (Elt F)) :
    after ops V (main_v140 : DevRef τ sig) = (Host.rsqrt : (⟨S128, .f32⟩ : BufTy).Contents (Elt F) → (⟨S128, .f32⟩ : BufTy).Contents (Elt F)) (after ops V (main_v139 : DevRef τ sig)) := by
  rw [ops_writes.read 217 (op := StableHlo.unary main_v139 main_v140 (Host.rsqrt : (⟨S128, .f32⟩ : BufTy).Contents (Elt F) → (⟨S128, .f32⟩ : BufTy).Contents (Elt F))) rfl V (y := main_v140) (by decide),
    ops_writes.after_eq_take 217 V (r := main_v139) (by decide)]
  generalize after (List.take 217 ops) V = W
  exact unary_result ..

/-- `main_v141` after the line, from its operands after the line (operation 218). -/
theorem step_main_v141 (V : Valuation τ sig (Elt F)) :
    after ops V (main_v141 : DevRef τ sig) = (broadcastInDim S1x128 ![1] bcast_S128_S1x128_1 : (⟨S128, .f32⟩ : BufTy).Contents (Elt F) → (⟨S1x128, .f32⟩ : BufTy).Contents (Elt F)) (after ops V (main_v140 : DevRef τ sig)) := by
  rw [ops_writes.read 218 (op := StableHlo.unary main_v140 main_v141 (broadcastInDim S1x128 ![1] bcast_S128_S1x128_1 : (⟨S128, .f32⟩ : BufTy).Contents (Elt F) → (⟨S1x128, .f32⟩ : BufTy).Contents (Elt F))) rfl V (y := main_v141) (by decide),
    ops_writes.after_eq_take 218 V (r := main_v140) (by decide)]
  generalize after (List.take 218 ops) V = W
  exact unary_result ..

/-- `main_v142` after the line, from its operands after the line (operation 219). -/
theorem step_main_v142 (V : Valuation τ sig (Elt F)) :
    after ops V (main_v142 : DevRef τ sig) = (broadcastInDim S100000x128 ![0, 1] bcast_S1x128_S100000x128_0_1 : (⟨S1x128, .f32⟩ : BufTy).Contents (Elt F) → (⟨S100000x128, .f32⟩ : BufTy).Contents (Elt F)) (after ops V (main_v141 : DevRef τ sig)) := by
  rw [ops_writes.read 219 (op := StableHlo.unary main_v141 main_v142 (broadcastInDim S100000x128 ![0, 1] bcast_S1x128_S100000x128_0_1 : (⟨S1x128, .f32⟩ : BufTy).Contents (Elt F) → (⟨S100000x128, .f32⟩ : BufTy).Contents (Elt F))) rfl V (y := main_v142) (by decide),
    ops_writes.after_eq_take 219 V (r := main_v141) (by decide)]
  generalize after (List.take 219 ops) V = W
  exact unary_result ..

/-- `main_v143` after the line, from its operands after the line (operation 220). -/
theorem step_main_v143 (V : Valuation τ sig (Elt F)) :
    after ops V (main_v143 : DevRef τ sig) = (mulf : (⟨S100000x128, .f32⟩ : BufTy).Contents (Elt F) → (⟨S100000x128, .f32⟩ : BufTy).Contents (Elt F) → (⟨S100000x128, .f32⟩ : BufTy).Contents (Elt F)) (after ops V (main_v137 : DevRef τ sig)) (after ops V (main_v142 : DevRef τ sig)) := by
  rw [ops_writes.read 220 (op := StableHlo.binary main_v137 main_v142 main_v143 (mulf : (⟨S100000x128, .f32⟩ : BufTy).Contents (Elt F) → (⟨S100000x128, .f32⟩ : BufTy).Contents (Elt F) → (⟨S100000x128, .f32⟩ : BufTy).Contents (Elt F))) rfl V (y := main_v143) (by decide),
    ops_writes.after_eq_take 220 V (r := main_v137) (by decide),
    ops_writes.after_eq_take 220 V (r := main_v142) (by decide)]
  generalize after (List.take 220 ops) V = W
  exact binary_result ..

/-- `main_v144` after the line, from its operands after the line (operation 221). -/
theorem step_main_v144 (V : Valuation τ sig (Elt F)) :
    after ops V (main_v144 : DevRef τ sig) = (broadcastInDim S1x128 ![1] bcast_S128_S1x128_1 : (⟨S128, .f32⟩ : BufTy).Contents (Elt F) → (⟨S1x128, .f32⟩ : BufTy).Contents (Elt F)) (after ops V (main_arg16 : DevRef τ sig)) := by
  rw [ops_writes.read 221 (op := StableHlo.unary main_arg16 main_v144 (broadcastInDim S1x128 ![1] bcast_S128_S1x128_1 : (⟨S128, .f32⟩ : BufTy).Contents (Elt F) → (⟨S1x128, .f32⟩ : BufTy).Contents (Elt F))) rfl V (y := main_v144) (by decide),
    ops_writes.after_eq_take 221 V (r := main_arg16) (by decide)]
  generalize after (List.take 221 ops) V = W
  exact unary_result ..

/-- `main_v145` after the line, from its operands after the line (operation 222). -/
theorem step_main_v145 (V : Valuation τ sig (Elt F)) :
    after ops V (main_v145 : DevRef τ sig) = (broadcastInDim S100000x128 ![0, 1] bcast_S1x128_S100000x128_0_1 : (⟨S1x128, .f32⟩ : BufTy).Contents (Elt F) → (⟨S100000x128, .f32⟩ : BufTy).Contents (Elt F)) (after ops V (main_v144 : DevRef τ sig)) := by
  rw [ops_writes.read 222 (op := StableHlo.unary main_v144 main_v145 (broadcastInDim S100000x128 ![0, 1] bcast_S1x128_S100000x128_0_1 : (⟨S1x128, .f32⟩ : BufTy).Contents (Elt F) → (⟨S100000x128, .f32⟩ : BufTy).Contents (Elt F))) rfl V (y := main_v145) (by decide),
    ops_writes.after_eq_take 222 V (r := main_v144) (by decide)]
  generalize after (List.take 222 ops) V = W
  exact unary_result ..

/-- `main_v146` after the line, from its operands after the line (operation 223). -/
theorem step_main_v146 (V : Valuation τ sig (Elt F)) :
    after ops V (main_v146 : DevRef τ sig) = (addf : (⟨S100000x128, .f32⟩ : BufTy).Contents (Elt F) → (⟨S100000x128, .f32⟩ : BufTy).Contents (Elt F) → (⟨S100000x128, .f32⟩ : BufTy).Contents (Elt F)) (after ops V (main_v143 : DevRef τ sig)) (after ops V (main_v145 : DevRef τ sig)) := by
  rw [ops_writes.read 223 (op := StableHlo.binary main_v143 main_v145 main_v146 (addf : (⟨S100000x128, .f32⟩ : BufTy).Contents (Elt F) → (⟨S100000x128, .f32⟩ : BufTy).Contents (Elt F) → (⟨S100000x128, .f32⟩ : BufTy).Contents (Elt F))) rfl V (y := main_v146) (by decide),
    ops_writes.after_eq_take 223 V (r := main_v143) (by decide),
    ops_writes.after_eq_take 223 V (r := main_v145) (by decide)]
  generalize after (List.take 223 ops) V = W
  exact binary_result ..

/-- `main_call7_cst` after the line, from its operands after the line (operation 224). -/
theorem step_main_call7_cst (V : Valuation τ sig (Elt F)) :
    after ops V (main_call7_cst : DevRef τ sig) = (constant S_ .f32 0x00000000#32) := by
  rw [ops_writes.read 224 (op := StableHlo.TRef.nullary main_call7.cst (constant S_ .f32 0x00000000#32)) rfl V (y := main_call7_cst) (by decide)]
  generalize after (List.take 224 ops) V = W
  exact nullary_result ..

/-- `main_call7_v0` after the line, from its operands after the line (operation 225). -/
theorem step_main_call7_v0 (V : Valuation τ sig (Elt F)) :
    after ops V (main_call7_v0 : DevRef τ sig) = (broadcastInDim S100000x128 ![] bcast_S_S100000x128) (after ops V (main_call7_cst : DevRef τ sig)) := by
  rw [ops_writes.read 225 (op := StableHlo.TRef.unary main_call7.cst main_call7.v0 (broadcastInDim S100000x128 ![] bcast_S_S100000x128)) rfl V (y := main_call7_v0) (by decide),
    ops_writes.after_eq_take 225 V (r := main_call7_cst) (by decide)]
  generalize after (List.take 225 ops) V = W
  exact unary_result ..

/-- `main_v147` after the line, from its operands after the line (operation 226). -/
theorem step_main_v147 (V : Valuation τ sig (Elt F)) :
    after ops V (main_v147 : DevRef τ sig) = maximumf (after ops V (main_v146 : DevRef τ sig)) (after ops V (main_call7_v0 : DevRef τ sig)) := by
  rw [ops_writes.read 226 (op := StableHlo.TRef.binary (StableHlo.TRef.of main_v146 : StableHlo.TRef sig ⟨S100000x128, .f32⟩) main_call7.v0 main_call7.v1 maximumf) rfl V (y := main_v147) (by decide),
    ops_writes.after_eq_take 226 V (r := main_v146) (by decide),
    ops_writes.after_eq_take 226 V (r := main_call7_v0) (by decide)]
  generalize after (List.take 226 ops) V = W
  exact binary_result ..

/-- `main_cst_23` after the line, from its operands after the line (operation 227). -/
theorem step_main_cst_23 (V : Valuation τ sig (Elt F)) :
    after ops V (main_cst_23 : DevRef τ sig) = (constant S_ .f32 0x00000000#32) := by
  rw [ops_writes.read 227 (op := StableHlo.nullary main_cst_23 (constant S_ .f32 0x00000000#32)) rfl V (y := main_cst_23) (by decide)]
  generalize after (List.take 227 ops) V = W
  exact nullary_result ..

/-- `main_v148` after the line, from its operands after the line (operation 228). -/
theorem step_main_v148 (V : Valuation τ sig (Elt F)) :
    after ops V (main_v148 : DevRef τ sig) = ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) (after ops V (main_v147 : DevRef τ sig)) (after ops V (main_cst_23 : DevRef τ sig)) := by
  rw [ops_writes.read 228 (op := StableHlo.binary main_v147 main_cst_23 main_v148 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F))) rfl V (y := main_v148) (by decide),
    ops_writes.after_eq_take 228 V (r := main_v147) (by decide),
    ops_writes.after_eq_take 228 V (r := main_cst_23) (by decide)]
  generalize after (List.take 228 ops) V = W
  exact binary_result ..

/-- `main_cst_24` after the line, from its operands after the line (operation 229). -/
theorem step_main_cst_24 (V : Valuation τ sig (Elt F)) :
    after ops V (main_cst_24 : DevRef τ sig) = (constant S_ .f32 0x47C35000#32) := by
  rw [ops_writes.read 229 (op := StableHlo.nullary main_cst_24 (constant S_ .f32 0x47C35000#32)) rfl V (y := main_cst_24) (by decide)]
  generalize after (List.take 229 ops) V = W
  exact nullary_result ..

/-- `main_v149` after the line, from its operands after the line (operation 230). -/
theorem step_main_v149 (V : Valuation τ sig (Elt F)) :
    after ops V (main_v149 : DevRef τ sig) = (broadcastInDim S128 ![] bcast_S_S128 : (⟨S_, .f32⟩ : BufTy).Contents (Elt F) → (⟨S128, .f32⟩ : BufTy).Contents (Elt F)) (after ops V (main_cst_24 : DevRef τ sig)) := by
  rw [ops_writes.read 230 (op := StableHlo.unary main_cst_24 main_v149 (broadcastInDim S128 ![] bcast_S_S128 : (⟨S_, .f32⟩ : BufTy).Contents (Elt F) → (⟨S128, .f32⟩ : BufTy).Contents (Elt F))) rfl V (y := main_v149) (by decide),
    ops_writes.after_eq_take 230 V (r := main_cst_24) (by decide)]
  generalize after (List.take 230 ops) V = W
  exact unary_result ..

/-- `main_v150` after the line, from its operands after the line (operation 231). -/
theorem step_main_v150 (V : Valuation τ sig (Elt F)) :
    after ops V (main_v150 : DevRef τ sig) = (Host.divf : (⟨S128, .f32⟩ : BufTy).Contents (Elt F) → (⟨S128, .f32⟩ : BufTy).Contents (Elt F) → (⟨S128, .f32⟩ : BufTy).Contents (Elt F)) (after ops V (main_v148 : DevRef τ sig)) (after ops V (main_v149 : DevRef τ sig)) := by
  rw [ops_writes.read 231 (op := StableHlo.binary main_v148 main_v149 main_v150 (Host.divf : (⟨S128, .f32⟩ : BufTy).Contents (Elt F) → (⟨S128, .f32⟩ : BufTy).Contents (Elt F) → (⟨S128, .f32⟩ : BufTy).Contents (Elt F))) rfl V (y := main_v150) (by decide),
    ops_writes.after_eq_take 231 V (r := main_v148) (by decide),
    ops_writes.after_eq_take 231 V (r := main_v149) (by decide)]
  generalize after (List.take 231 ops) V = W
  exact binary_result ..

/-- `main_c_25` after the line, from its operands after the line (operation 232). -/
theorem step_main_c_25 (V : Valuation τ sig (Elt F)) :
    after ops V (main_c_25 : DevRef τ sig) = (constantI S_ 32 0#32) := by
  rw [ops_writes.read 232 (op := StableHlo.nullary main_c_25 (constantI S_ 32 0#32)) rfl V (y := main_c_25) (by decide)]
  generalize after (List.take 232 ops) V = W
  exact nullary_result ..

/-- `main_call8_cst` after the line, from its operands after the line (operation 233). -/
theorem step_main_call8_cst (V : Valuation τ sig (Elt F)) :
    after ops V (main_call8_cst : DevRef τ sig) = (constant S_ .f32 0x00000000#32) := by
  rw [ops_writes.read 233 (op := StableHlo.TRef.nullary main_call8.cst (constant S_ .f32 0x00000000#32)) rfl V (y := main_call8_cst) (by decide)]
  generalize after (List.take 233 ops) V = W
  exact nullary_result ..

/-- `main_call8_v0` after the line, from its operands after the line (operation 234). -/
theorem step_main_call8_v0 (V : Valuation τ sig (Elt F)) :
    after ops V (main_call8_v0 : DevRef τ sig) = (fun x v => Host.reduceAdd x v reducesTo_S100000x128_S128_d0 h_S_) (after ops V (main_v147 : DevRef τ sig)) (after ops V (main_call8_cst : DevRef τ sig)) := by
  rw [ops_writes.read 234 (op := StableHlo.TRef.binary (StableHlo.TRef.of main_v147 : StableHlo.TRef sig ⟨S100000x128, .f32⟩) main_call8.cst main_call8.v0 (fun x v => Host.reduceAdd x v reducesTo_S100000x128_S128_d0 h_S_)) rfl V (y := main_call8_v0) (by decide),
    ops_writes.after_eq_take 234 V (r := main_v147) (by decide),
    ops_writes.after_eq_take 234 V (r := main_call8_cst) (by decide)]
  generalize after (List.take 234 ops) V = W
  exact binary_result ..

/-- `main_call8_v1` after the line, from its operands after the line (operation 235). -/
theorem step_main_call8_v1 (V : Valuation τ sig (Elt F)) :
    after ops V (main_call8_v1 : DevRef τ sig) = (broadcastInDim S1x128 ![1] bcast_S128_S1x128_1) (after ops V (main_call8_v0 : DevRef τ sig)) := by
  rw [ops_writes.read 235 (op := StableHlo.TRef.unary main_call8.v0 main_call8.v1 (broadcastInDim S1x128 ![1] bcast_S128_S1x128_1)) rfl V (y := main_call8_v1) (by decide),
    ops_writes.after_eq_take 235 V (r := main_call8_v0) (by decide)]
  generalize after (List.take 235 ops) V = W
  exact unary_result ..

/-- `main_call8_cst_0` after the line, from its operands after the line (operation 236). -/
theorem step_main_call8_cst_0 (V : Valuation τ sig (Elt F)) :
    after ops V (main_call8_cst_0 : DevRef τ sig) = (constant S_ .f32 0x47C35000#32) := by
  rw [ops_writes.read 236 (op := StableHlo.TRef.nullary main_call8.cst_0 (constant S_ .f32 0x47C35000#32)) rfl V (y := main_call8_cst_0) (by decide)]
  generalize after (List.take 236 ops) V = W
  exact nullary_result ..

/-- `main_call8_v2` after the line, from its operands after the line (operation 237). -/
theorem step_main_call8_v2 (V : Valuation τ sig (Elt F)) :
    after ops V (main_call8_v2 : DevRef τ sig) = (broadcastInDim S1x128 ![] bcast_S_S1x128) (after ops V (main_call8_cst_0 : DevRef τ sig)) := by
  rw [ops_writes.read 237 (op := StableHlo.TRef.unary main_call8.cst_0 main_call8.v2 (broadcastInDim S1x128 ![] bcast_S_S1x128)) rfl V (y := main_call8_v2) (by decide),
    ops_writes.after_eq_take 237 V (r := main_call8_cst_0) (by decide)]
  generalize after (List.take 237 ops) V = W
  exact unary_result ..

/-- `main_call8_v3` after the line, from its operands after the line (operation 238). -/
theorem step_main_call8_v3 (V : Valuation τ sig (Elt F)) :
    after ops V (main_call8_v3 : DevRef τ sig) = Host.divf (after ops V (main_call8_v1 : DevRef τ sig)) (after ops V (main_call8_v2 : DevRef τ sig)) := by
  rw [ops_writes.read 238 (op := StableHlo.TRef.binary main_call8.v1 main_call8.v2 main_call8.v3 Host.divf) rfl V (y := main_call8_v3) (by decide),
    ops_writes.after_eq_take 238 V (r := main_call8_v1) (by decide),
    ops_writes.after_eq_take 238 V (r := main_call8_v2) (by decide)]
  generalize after (List.take 238 ops) V = W
  exact binary_result ..

/-- `main_call8_v4` after the line, from its operands after the line (operation 239). -/
theorem step_main_call8_v4 (V : Valuation τ sig (Elt F)) :
    after ops V (main_call8_v4 : DevRef τ sig) = (broadcastInDim S100000x128 ![0, 1] bcast_S1x128_S100000x128_0_1) (after ops V (main_call8_v3 : DevRef τ sig)) := by
  rw [ops_writes.read 239 (op := StableHlo.TRef.unary main_call8.v3 main_call8.v4 (broadcastInDim S100000x128 ![0, 1] bcast_S1x128_S100000x128_0_1)) rfl V (y := main_call8_v4) (by decide),
    ops_writes.after_eq_take 239 V (r := main_call8_v3) (by decide)]
  generalize after (List.take 239 ops) V = W
  exact unary_result ..

/-- `main_call8_v5` after the line, from its operands after the line (operation 240). -/
theorem step_main_call8_v5 (V : Valuation τ sig (Elt F)) :
    after ops V (main_call8_v5 : DevRef τ sig) = subf (after ops V (main_v147 : DevRef τ sig)) (after ops V (main_call8_v4 : DevRef τ sig)) := by
  rw [ops_writes.read 240 (op := StableHlo.TRef.binary (StableHlo.TRef.of main_v147 : StableHlo.TRef sig ⟨S100000x128, .f32⟩) main_call8.v4 main_call8.v5 subf) rfl V (y := main_call8_v5) (by decide),
    ops_writes.after_eq_take 240 V (r := main_v147) (by decide),
    ops_writes.after_eq_take 240 V (r := main_call8_v4) (by decide)]
  generalize after (List.take 240 ops) V = W
  exact binary_result ..

/-- `main_call8_v6` after the line, from its operands after the line (operation 241). -/
theorem step_main_call8_v6 (V : Valuation τ sig (Elt F)) :
    after ops V (main_call8_v6 : DevRef τ sig) = mulf (after ops V (main_call8_v5 : DevRef τ sig)) (after ops V (main_call8_v5 : DevRef τ sig)) := by
  rw [ops_writes.read 241 (op := StableHlo.TRef.binary main_call8.v5 main_call8.v5 main_call8.v6 mulf) rfl V (y := main_call8_v6) (by decide),
    ops_writes.after_eq_take 241 V (r := main_call8_v5) (by decide)]
  generalize after (List.take 241 ops) V = W
  exact binary_result ..

/-- `main_call8_v7` after the line, from its operands after the line (operation 242). -/
theorem step_main_call8_v7 (V : Valuation τ sig (Elt F)) :
    after ops V (main_call8_v7 : DevRef τ sig) = (sitofp .f32) (after ops V (main_c_25 : DevRef τ sig)) := by
  rw [ops_writes.read 242 (op := StableHlo.TRef.unary (StableHlo.TRef.of main_c_25 : StableHlo.TRef sig ⟨S_, .i32⟩) main_call8.v7 (sitofp .f32)) rfl V (y := main_call8_v7) (by decide),
    ops_writes.after_eq_take 242 V (r := main_c_25) (by decide)]
  generalize after (List.take 242 ops) V = W
  exact unary_result ..

/-- `main_call8_cst_1` after the line, from its operands after the line (operation 243). -/
theorem step_main_call8_cst_1 (V : Valuation τ sig (Elt F)) :
    after ops V (main_call8_cst_1 : DevRef τ sig) = (constant S_ .f32 0x47C35000#32) := by
  rw [ops_writes.read 243 (op := StableHlo.TRef.nullary main_call8.cst_1 (constant S_ .f32 0x47C35000#32)) rfl V (y := main_call8_cst_1) (by decide)]
  generalize after (List.take 243 ops) V = W
  exact nullary_result ..

/-- `main_call8_v8` after the line, from its operands after the line (operation 244). -/
theorem step_main_call8_v8 (V : Valuation τ sig (Elt F)) :
    after ops V (main_call8_v8 : DevRef τ sig) = subf (after ops V (main_call8_cst_1 : DevRef τ sig)) (after ops V (main_call8_v7 : DevRef τ sig)) := by
  rw [ops_writes.read 244 (op := StableHlo.TRef.binary main_call8.cst_1 main_call8.v7 main_call8.v8 subf) rfl V (y := main_call8_v8) (by decide),
    ops_writes.after_eq_take 244 V (r := main_call8_cst_1) (by decide),
    ops_writes.after_eq_take 244 V (r := main_call8_v7) (by decide)]
  generalize after (List.take 244 ops) V = W
  exact binary_result ..

/-- `main_call8_cst_2` after the line, from its operands after the line (operation 245). -/
theorem step_main_call8_cst_2 (V : Valuation τ sig (Elt F)) :
    after ops V (main_call8_cst_2 : DevRef τ sig) = (constant S_ .f32 0x00000000#32) := by
  rw [ops_writes.read 245 (op := StableHlo.TRef.nullary main_call8.cst_2 (constant S_ .f32 0x00000000#32)) rfl V (y := main_call8_cst_2) (by decide)]
  generalize after (List.take 245 ops) V = W
  exact nullary_result ..

/-- `main_call8_v9` after the line, from its operands after the line (operation 246). -/
theorem step_main_call8_v9 (V : Valuation τ sig (Elt F)) :
    after ops V (main_call8_v9 : DevRef τ sig) = (fun x v => Host.reduceAdd x v reducesTo_S100000x128_S128_d0 h_S_) (after ops V (main_call8_v6 : DevRef τ sig)) (after ops V (main_call8_cst_2 : DevRef τ sig)) := by
  rw [ops_writes.read 246 (op := StableHlo.TRef.binary main_call8.v6 main_call8.cst_2 main_call8.v9 (fun x v => Host.reduceAdd x v reducesTo_S100000x128_S128_d0 h_S_)) rfl V (y := main_call8_v9) (by decide),
    ops_writes.after_eq_take 246 V (r := main_call8_v6) (by decide),
    ops_writes.after_eq_take 246 V (r := main_call8_cst_2) (by decide)]
  generalize after (List.take 246 ops) V = W
  exact binary_result ..

/-- `main_call8_v10` after the line, from its operands after the line (operation 247). -/
theorem step_main_call8_v10 (V : Valuation τ sig (Elt F)) :
    after ops V (main_call8_v10 : DevRef τ sig) = (broadcastInDim S128 ![] bcast_S_S128) (after ops V (main_call8_v8 : DevRef τ sig)) := by
  rw [ops_writes.read 247 (op := StableHlo.TRef.unary main_call8.v8 main_call8.v10 (broadcastInDim S128 ![] bcast_S_S128)) rfl V (y := main_call8_v10) (by decide),
    ops_writes.after_eq_take 247 V (r := main_call8_v8) (by decide)]
  generalize after (List.take 247 ops) V = W
  exact unary_result ..

/-- `main_call8_v11` after the line, from its operands after the line (operation 248). -/
theorem step_main_call8_v11 (V : Valuation τ sig (Elt F)) :
    after ops V (main_call8_v11 : DevRef τ sig) = Host.divf (after ops V (main_call8_v9 : DevRef τ sig)) (after ops V (main_call8_v10 : DevRef τ sig)) := by
  rw [ops_writes.read 248 (op := StableHlo.TRef.binary main_call8.v9 main_call8.v10 main_call8.v11 Host.divf) rfl V (y := main_call8_v11) (by decide),
    ops_writes.after_eq_take 248 V (r := main_call8_v9) (by decide),
    ops_writes.after_eq_take 248 V (r := main_call8_v10) (by decide)]
  generalize after (List.take 248 ops) V = W
  exact binary_result ..

/-- `main_call8_cst_3` after the line, from its operands after the line (operation 249). -/
theorem step_main_call8_cst_3 (V : Valuation τ sig (Elt F)) :
    after ops V (main_call8_cst_3 : DevRef τ sig) = (constant S_ .f32 0x00000000#32) := by
  rw [ops_writes.read 249 (op := StableHlo.TRef.nullary main_call8.cst_3 (constant S_ .f32 0x00000000#32)) rfl V (y := main_call8_cst_3) (by decide)]
  generalize after (List.take 249 ops) V = W
  exact nullary_result ..

/-- `main_call8_v12` after the line, from its operands after the line (operation 250). -/
theorem step_main_call8_v12 (V : Valuation τ sig (Elt F)) :
    after ops V (main_call8_v12 : DevRef τ sig) = (cmpf .ogt) (after ops V (main_call8_v8 : DevRef τ sig)) (after ops V (main_call8_cst_3 : DevRef τ sig)) := by
  rw [ops_writes.read 250 (op := StableHlo.TRef.binary main_call8.v8 main_call8.cst_3 main_call8.v12 (cmpf .ogt)) rfl V (y := main_call8_v12) (by decide),
    ops_writes.after_eq_take 250 V (r := main_call8_v8) (by decide),
    ops_writes.after_eq_take 250 V (r := main_call8_cst_3) (by decide)]
  generalize after (List.take 250 ops) V = W
  exact binary_result ..

/-- `main_call8_cst_4` after the line, from its operands after the line (operation 251). -/
theorem step_main_call8_cst_4 (V : Valuation τ sig (Elt F)) :
    after ops V (main_call8_cst_4 : DevRef τ sig) = (constant S_ .f32 0x7FC00000#32) := by
  rw [ops_writes.read 251 (op := StableHlo.TRef.nullary main_call8.cst_4 (constant S_ .f32 0x7FC00000#32)) rfl V (y := main_call8_cst_4) (by decide)]
  generalize after (List.take 251 ops) V = W
  exact nullary_result ..

/-- `main_call8_call0_v0` after the line, from its operands after the line (operation 252). -/
theorem step_main_call8_call0_v0 (V : Valuation τ sig (Elt F)) :
    after ops V (main_call8_call0_v0 : DevRef τ sig) = id (after ops V (main_call8_cst_4 : DevRef τ sig)) := by
  rw [ops_writes.read 252 (op := StableHlo.TRef.unary main_call8.cst_4 main_call8.call0.v0 id) rfl V (y := main_call8_call0_v0) (by decide),
    ops_writes.after_eq_take 252 V (r := main_call8_cst_4) (by decide)]
  generalize after (List.take 252 ops) V = W
  exact unary_result ..

/-- `main_call8_call0_v1` after the line, from its operands after the line (operation 253). -/
theorem step_main_call8_call0_v1 (V : Valuation τ sig (Elt F)) :
    after ops V (main_call8_call0_v1 : DevRef τ sig) = (broadcastInDim S128 ![] bcast_S_S128) (after ops V (main_call8_call0_v0 : DevRef τ sig)) := by
  rw [ops_writes.read 253 (op := StableHlo.TRef.unary main_call8.call0.v0 main_call8.call0.v1 (broadcastInDim S128 ![] bcast_S_S128)) rfl V (y := main_call8_call0_v1) (by decide),
    ops_writes.after_eq_take 253 V (r := main_call8_call0_v0) (by decide)]
  generalize after (List.take 253 ops) V = W
  exact unary_result ..

/-- `main_v151` after the line, from its operands after the line (operation 254). -/
theorem step_main_v151 (V : Valuation τ sig (Elt F)) :
    after ops V (main_v151 : DevRef τ sig) = (fun p a b => select (broadcastInDim S128 ![] bcast_S_S128 p) a b) (after ops V (main_call8_v12 : DevRef τ sig)) (after ops V (main_call8_v11 : DevRef τ sig)) (after ops V (main_call8_call0_v1 : DevRef τ sig)) := by
  rw [ops_writes.read 254 (op := StableHlo.TRef.ternary main_call8.v12 main_call8.v11 main_call8.call0.v1 main_call8.call0.v2 (fun p a b => select (broadcastInDim S128 ![] bcast_S_S128 p) a b)) rfl V (y := main_v151) (by decide),
    ops_writes.after_eq_take 254 V (r := main_call8_v12) (by decide),
    ops_writes.after_eq_take 254 V (r := main_call8_v11) (by decide),
    ops_writes.after_eq_take 254 V (r := main_call8_call0_v1) (by decide)]
  generalize after (List.take 254 ops) V = W
  exact ternary_result ..

end Cert.ReferenceIdeal.Hand

end
-- ==== Proof.Ref.StepD.lean ====
/-
  The reference's line read one operation at a time (operations of chunk D): the contents of the buffer an
  operation writes, after the whole line, are the operation's function of its operands' contents after the whole
  line — every buffer is written once, and an operand before the operation that reads it.
-/
import proofs.«164503_j82721070121701_1_alg».proof.Proof.Ref.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- `main_v152` after the line, from its operands after the line (operation 255). -/
theorem step_main_v152 (V : Valuation τ sig (Elt F)) :
    after ops V (main_v152 : DevRef τ sig) = (broadcastInDim S1x128 ![1] bcast_S128_S1x128_1 : (⟨S128, .f32⟩ : BufTy).Contents (Elt F) → (⟨S1x128, .f32⟩ : BufTy).Contents (Elt F)) (after ops V (main_v150 : DevRef τ sig)) := by
  rw [ops_writes.read 255 (op := StableHlo.unary main_v150 main_v152 (broadcastInDim S1x128 ![1] bcast_S128_S1x128_1 : (⟨S128, .f32⟩ : BufTy).Contents (Elt F) → (⟨S1x128, .f32⟩ : BufTy).Contents (Elt F))) rfl V (y := main_v152) (by decide),
    ops_writes.after_eq_take 255 V (r := main_v150) (by decide)]
  generalize after (List.take 255 ops) V = W
  exact unary_result ..

/-- `main_v153` after the line, from its operands after the line (operation 256). -/
theorem step_main_v153 (V : Valuation τ sig (Elt F)) :
    after ops V (main_v153 : DevRef τ sig) = (broadcastInDim S100000x128 ![0, 1] bcast_S1x128_S100000x128_0_1 : (⟨S1x128, .f32⟩ : BufTy).Contents (Elt F) → (⟨S100000x128, .f32⟩ : BufTy).Contents (Elt F)) (after ops V (main_v152 : DevRef τ sig)) := by
  rw [ops_writes.read 256 (op := StableHlo.unary main_v152 main_v153 (broadcastInDim S100000x128 ![0, 1] bcast_S1x128_S100000x128_0_1 : (⟨S1x128, .f32⟩ : BufTy).Contents (Elt F) → (⟨S100000x128, .f32⟩ : BufTy).Contents (Elt F))) rfl V (y := main_v153) (by decide),
    ops_writes.after_eq_take 256 V (r := main_v152) (by decide)]
  generalize after (List.take 256 ops) V = W
  exact unary_result ..

/-- `main_v154` after the line, from its operands after the line (operation 257). -/
theorem step_main_v154 (V : Valuation τ sig (Elt F)) :
    after ops V (main_v154 : DevRef τ sig) = (subf : (⟨S100000x128, .f32⟩ : BufTy).Contents (Elt F) → (⟨S100000x128, .f32⟩ : BufTy).Contents (Elt F) → (⟨S100000x128, .f32⟩ : BufTy).Contents (Elt F)) (after ops V (main_v147 : DevRef τ sig)) (after ops V (main_v153 : DevRef τ sig)) := by
  rw [ops_writes.read 257 (op := StableHlo.binary main_v147 main_v153 main_v154 (subf : (⟨S100000x128, .f32⟩ : BufTy).Contents (Elt F) → (⟨S100000x128, .f32⟩ : BufTy).Contents (Elt F) → (⟨S100000x128, .f32⟩ : BufTy).Contents (Elt F))) rfl V (y := main_v154) (by decide),
    ops_writes.after_eq_take 257 V (r := main_v147) (by decide),
    ops_writes.after_eq_take 257 V (r := main_v153) (by decide)]
  generalize after (List.take 257 ops) V = W
  exact binary_result ..

/-- `main_v155` after the line, from its operands after the line (operation 258). -/
theorem step_main_v155 (V : Valuation τ sig (Elt F)) :
    after ops V (main_v155 : DevRef τ sig) = (broadcastInDim S1x128 ![1] bcast_S128_S1x128_1 : (⟨S128, .f32⟩ : BufTy).Contents (Elt F) → (⟨S1x128, .f32⟩ : BufTy).Contents (Elt F)) (after ops V (main_arg17 : DevRef τ sig)) := by
  rw [ops_writes.read 258 (op := StableHlo.unary main_arg17 main_v155 (broadcastInDim S1x128 ![1] bcast_S128_S1x128_1 : (⟨S128, .f32⟩ : BufTy).Contents (Elt F) → (⟨S1x128, .f32⟩ : BufTy).Contents (Elt F))) rfl V (y := main_v155) (by decide),
    ops_writes.after_eq_take 258 V (r := main_arg17) (by decide)]
  generalize after (List.take 258 ops) V = W
  exact unary_result ..

/-- `main_v156` after the line, from its operands after the line (operation 259). -/
theorem step_main_v156 (V : Valuation τ sig (Elt F)) :
    after ops V (main_v156 : DevRef τ sig) = (broadcastInDim S100000x128 ![0, 1] bcast_S1x128_S100000x128_0_1 : (⟨S1x128, .f32⟩ : BufTy).Contents (Elt F) → (⟨S100000x128, .f32⟩ : BufTy).Contents (Elt F)) (after ops V (main_v155 : DevRef τ sig)) := by
  rw [ops_writes.read 259 (op := StableHlo.unary main_v155 main_v156 (broadcastInDim S100000x128 ![0, 1] bcast_S1x128_S100000x128_0_1 : (⟨S1x128, .f32⟩ : BufTy).Contents (Elt F) → (⟨S100000x128, .f32⟩ : BufTy).Contents (Elt F))) rfl V (y := main_v156) (by decide),
    ops_writes.after_eq_take 259 V (r := main_v155) (by decide)]
  generalize after (List.take 259 ops) V = W
  exact unary_result ..

/-- `main_v157` after the line, from its operands after the line (operation 260). -/
theorem step_main_v157 (V : Valuation τ sig (Elt F)) :
    after ops V (main_v157 : DevRef τ sig) = (mulf : (⟨S100000x128, .f32⟩ : BufTy).Contents (Elt F) → (⟨S100000x128, .f32⟩ : BufTy).Contents (Elt F) → (⟨S100000x128, .f32⟩ : BufTy).Contents (Elt F)) (after ops V (main_v156 : DevRef τ sig)) (after ops V (main_v154 : DevRef τ sig)) := by
  rw [ops_writes.read 260 (op := StableHlo.binary main_v156 main_v154 main_v157 (mulf : (⟨S100000x128, .f32⟩ : BufTy).Contents (Elt F) → (⟨S100000x128, .f32⟩ : BufTy).Contents (Elt F) → (⟨S100000x128, .f32⟩ : BufTy).Contents (Elt F))) rfl V (y := main_v157) (by decide),
    ops_writes.after_eq_take 260 V (r := main_v156) (by decide),
    ops_writes.after_eq_take 260 V (r := main_v154) (by decide)]
  generalize after (List.take 260 ops) V = W
  exact binary_result ..

/-- `main_cst_26` after the line, from its operands after the line (operation 261). -/
theorem step_main_cst_26 (V : Valuation τ sig (Elt F)) :
    after ops V (main_cst_26 : DevRef τ sig) = (constant S_ .f32 0x3727C5AC#32) := by
  rw [ops_writes.read 261 (op := StableHlo.nullary main_cst_26 (constant S_ .f32 0x3727C5AC#32)) rfl V (y := main_cst_26) (by decide)]
  generalize after (List.take 261 ops) V = W
  exact nullary_result ..

/-- `main_v158` after the line, from its operands after the line (operation 262). -/
theorem step_main_v158 (V : Valuation τ sig (Elt F)) :
    after ops V (main_v158 : DevRef τ sig) = (broadcastInDim S128 ![] bcast_S_S128 : (⟨S_, .f32⟩ : BufTy).Contents (Elt F) → (⟨S128, .f32⟩ : BufTy).Contents (Elt F)) (after ops V (main_cst_26 : DevRef τ sig)) := by
  rw [ops_writes.read 262 (op := StableHlo.unary main_cst_26 main_v158 (broadcastInDim S128 ![] bcast_S_S128 : (⟨S_, .f32⟩ : BufTy).Contents (Elt F) → (⟨S128, .f32⟩ : BufTy).Contents (Elt F))) rfl V (y := main_v158) (by decide),
    ops_writes.after_eq_take 262 V (r := main_cst_26) (by decide)]
  generalize after (List.take 262 ops) V = W
  exact unary_result ..

/-- `main_v159` after the line, from its operands after the line (operation 263). -/
theorem step_main_v159 (V : Valuation τ sig (Elt F)) :
    after ops V (main_v159 : DevRef τ sig) = (addf : (⟨S128, .f32⟩ : BufTy).Contents (Elt F) → (⟨S128, .f32⟩ : BufTy).Contents (Elt F) → (⟨S128, .f32⟩ : BufTy).Contents (Elt F)) (after ops V (main_v151 : DevRef τ sig)) (after ops V (main_v158 : DevRef τ sig)) := by
  rw [ops_writes.read 263 (op := StableHlo.binary main_v151 main_v158 main_v159 (addf : (⟨S128, .f32⟩ : BufTy).Contents (Elt F) → (⟨S128, .f32⟩ : BufTy).Contents (Elt F) → (⟨S128, .f32⟩ : BufTy).Contents (Elt F))) rfl V (y := main_v159) (by decide),
    ops_writes.after_eq_take 263 V (r := main_v151) (by decide),
    ops_writes.after_eq_take 263 V (r := main_v158) (by decide)]
  generalize after (List.take 263 ops) V = W
  exact binary_result ..

/-- `main_v160` after the line, from its operands after the line (operation 264). -/
theorem step_main_v160 (V : Valuation τ sig (Elt F)) :
    after ops V (main_v160 : DevRef τ sig) = (Host.rsqrt : (⟨S128, .f32⟩ : BufTy).Contents (Elt F) → (⟨S128, .f32⟩ : BufTy).Contents (Elt F)) (after ops V (main_v159 : DevRef τ sig)) := by
  rw [ops_writes.read 264 (op := StableHlo.unary main_v159 main_v160 (Host.rsqrt : (⟨S128, .f32⟩ : BufTy).Contents (Elt F) → (⟨S128, .f32⟩ : BufTy).Contents (Elt F))) rfl V (y := main_v160) (by decide),
    ops_writes.after_eq_take 264 V (r := main_v159) (by decide)]
  generalize after (List.take 264 ops) V = W
  exact unary_result ..

/-- `main_v161` after the line, from its operands after the line (operation 265). -/
theorem step_main_v161 (V : Valuation τ sig (Elt F)) :
    after ops V (main_v161 : DevRef τ sig) = (broadcastInDim S1x128 ![1] bcast_S128_S1x128_1 : (⟨S128, .f32⟩ : BufTy).Contents (Elt F) → (⟨S1x128, .f32⟩ : BufTy).Contents (Elt F)) (after ops V (main_v160 : DevRef τ sig)) := by
  rw [ops_writes.read 265 (op := StableHlo.unary main_v160 main_v161 (broadcastInDim S1x128 ![1] bcast_S128_S1x128_1 : (⟨S128, .f32⟩ : BufTy).Contents (Elt F) → (⟨S1x128, .f32⟩ : BufTy).Contents (Elt F))) rfl V (y := main_v161) (by decide),
    ops_writes.after_eq_take 265 V (r := main_v160) (by decide)]
  generalize after (List.take 265 ops) V = W
  exact unary_result ..

/-- `main_v162` after the line, from its operands after the line (operation 266). -/
theorem step_main_v162 (V : Valuation τ sig (Elt F)) :
    after ops V (main_v162 : DevRef τ sig) = (broadcastInDim S100000x128 ![0, 1] bcast_S1x128_S100000x128_0_1 : (⟨S1x128, .f32⟩ : BufTy).Contents (Elt F) → (⟨S100000x128, .f32⟩ : BufTy).Contents (Elt F)) (after ops V (main_v161 : DevRef τ sig)) := by
  rw [ops_writes.read 266 (op := StableHlo.unary main_v161 main_v162 (broadcastInDim S100000x128 ![0, 1] bcast_S1x128_S100000x128_0_1 : (⟨S1x128, .f32⟩ : BufTy).Contents (Elt F) → (⟨S100000x128, .f32⟩ : BufTy).Contents (Elt F))) rfl V (y := main_v162) (by decide),
    ops_writes.after_eq_take 266 V (r := main_v161) (by decide)]
  generalize after (List.take 266 ops) V = W
  exact unary_result ..

/-- `main_v163` after the line, from its operands after the line (operation 267). -/
theorem step_main_v163 (V : Valuation τ sig (Elt F)) :
    after ops V (main_v163 : DevRef τ sig) = (mulf : (⟨S100000x128, .f32⟩ : BufTy).Contents (Elt F) → (⟨S100000x128, .f32⟩ : BufTy).Contents (Elt F) → (⟨S100000x128, .f32⟩ : BufTy).Contents (Elt F)) (after ops V (main_v157 : DevRef τ sig)) (after ops V (main_v162 : DevRef τ sig)) := by
  rw [ops_writes.read 267 (op := StableHlo.binary main_v157 main_v162 main_v163 (mulf : (⟨S100000x128, .f32⟩ : BufTy).Contents (Elt F) → (⟨S100000x128, .f32⟩ : BufTy).Contents (Elt F) → (⟨S100000x128, .f32⟩ : BufTy).Contents (Elt F))) rfl V (y := main_v163) (by decide),
    ops_writes.after_eq_take 267 V (r := main_v157) (by decide),
    ops_writes.after_eq_take 267 V (r := main_v162) (by decide)]
  generalize after (List.take 267 ops) V = W
  exact binary_result ..

/-- `main_v164` after the line, from its operands after the line (operation 268). -/
theorem step_main_v164 (V : Valuation τ sig (Elt F)) :
    after ops V (main_v164 : DevRef τ sig) = (broadcastInDim S1x128 ![1] bcast_S128_S1x128_1 : (⟨S128, .f32⟩ : BufTy).Contents (Elt F) → (⟨S1x128, .f32⟩ : BufTy).Contents (Elt F)) (after ops V (main_arg18 : DevRef τ sig)) := by
  rw [ops_writes.read 268 (op := StableHlo.unary main_arg18 main_v164 (broadcastInDim S1x128 ![1] bcast_S128_S1x128_1 : (⟨S128, .f32⟩ : BufTy).Contents (Elt F) → (⟨S1x128, .f32⟩ : BufTy).Contents (Elt F))) rfl V (y := main_v164) (by decide),
    ops_writes.after_eq_take 268 V (r := main_arg18) (by decide)]
  generalize after (List.take 268 ops) V = W
  exact unary_result ..

/-- `main_v165` after the line, from its operands after the line (operation 269). -/
theorem step_main_v165 (V : Valuation τ sig (Elt F)) :
    after ops V (main_v165 : DevRef τ sig) = (broadcastInDim S100000x128 ![0, 1] bcast_S1x128_S100000x128_0_1 : (⟨S1x128, .f32⟩ : BufTy).Contents (Elt F) → (⟨S100000x128, .f32⟩ : BufTy).Contents (Elt F)) (after ops V (main_v164 : DevRef τ sig)) := by
  rw [ops_writes.read 269 (op := StableHlo.unary main_v164 main_v165 (broadcastInDim S100000x128 ![0, 1] bcast_S1x128_S100000x128_0_1 : (⟨S1x128, .f32⟩ : BufTy).Contents (Elt F) → (⟨S100000x128, .f32⟩ : BufTy).Contents (Elt F))) rfl V (y := main_v165) (by decide),
    ops_writes.after_eq_take 269 V (r := main_v164) (by decide)]
  generalize after (List.take 269 ops) V = W
  exact unary_result ..

/-- `main_v166` after the line, from its operands after the line (operation 270). -/
theorem step_main_v166 (V : Valuation τ sig (Elt F)) :
    after ops V (main_v166 : DevRef τ sig) = (addf : (⟨S100000x128, .f32⟩ : BufTy).Contents (Elt F) → (⟨S100000x128, .f32⟩ : BufTy).Contents (Elt F) → (⟨S100000x128, .f32⟩ : BufTy).Contents (Elt F)) (after ops V (main_v163 : DevRef τ sig)) (after ops V (main_v165 : DevRef τ sig)) := by
  rw [ops_writes.read 270 (op := StableHlo.binary main_v163 main_v165 main_v166 (addf : (⟨S100000x128, .f32⟩ : BufTy).Contents (Elt F) → (⟨S100000x128, .f32⟩ : BufTy).Contents (Elt F) → (⟨S100000x128, .f32⟩ : BufTy).Contents (Elt F))) rfl V (y := main_v166) (by decide),
    ops_writes.after_eq_take 270 V (r := main_v163) (by decide),
    ops_writes.after_eq_take 270 V (r := main_v165) (by decide)]
  generalize after (List.take 270 ops) V = W
  exact binary_result ..

/-- `main_call9_cst` after the line, from its operands after the line (operation 271). -/
theorem step_main_call9_cst (V : Valuation τ sig (Elt F)) :
    after ops V (main_call9_cst : DevRef τ sig) = (constant S_ .f32 0x00000000#32) := by
  rw [ops_writes.read 271 (op := StableHlo.TRef.nullary main_call9.cst (constant S_ .f32 0x00000000#32)) rfl V (y := main_call9_cst) (by decide)]
  generalize after (List.take 271 ops) V = W
  exact nullary_result ..

/-- `main_call9_v0` after the line, from its operands after the line (operation 272). -/
theorem step_main_call9_v0 (V : Valuation τ sig (Elt F)) :
    after ops V (main_call9_v0 : DevRef τ sig) = (broadcastInDim S100000x128 ![] bcast_S_S100000x128) (after ops V (main_call9_cst : DevRef τ sig)) := by
  rw [ops_writes.read 272 (op := StableHlo.TRef.unary main_call9.cst main_call9.v0 (broadcastInDim S100000x128 ![] bcast_S_S100000x128)) rfl V (y := main_call9_v0) (by decide),
    ops_writes.after_eq_take 272 V (r := main_call9_cst) (by decide)]
  generalize after (List.take 272 ops) V = W
  exact unary_result ..

/-- `main_v167` after the line, from its operands after the line (operation 273). -/
theorem step_main_v167 (V : Valuation τ sig (Elt F)) :
    after ops V (main_v167 : DevRef τ sig) = maximumf (after ops V (main_v166 : DevRef τ sig)) (after ops V (main_call9_v0 : DevRef τ sig)) := by
  rw [ops_writes.read 273 (op := StableHlo.TRef.binary (StableHlo.TRef.of main_v166 : StableHlo.TRef sig ⟨S100000x128, .f32⟩) main_call9.v0 main_call9.v1 maximumf) rfl V (y := main_v167) (by decide),
    ops_writes.after_eq_take 273 V (r := main_v166) (by decide),
    ops_writes.after_eq_take 273 V (r := main_call9_v0) (by decide)]
  generalize after (List.take 273 ops) V = W
  exact binary_result ..

end Cert.ReferenceIdeal.Hand

end
-- ==== Proof.Ref.Steps.lean ====
/-
  The reference's line read one operation at a time: the four chunks' facts under one name.
-/
import proofs.«164503_j82721070121701_1_alg».proof.Proof.Ref.StepA
import proofs.«164503_j82721070121701_1_alg».proof.Proof.Ref.StepB
import proofs.«164503_j82721070121701_1_alg».proof.Proof.Ref.StepC
import proofs.«164503_j82721070121701_1_alg».proof.Proof.Ref.StepD
-- ==== Proof.Ref.ReadLib.lean ====
/-
  The layout and contraction operations of the reference's dense layers read at an index, at the extended reals:
  a vector broadcast to a one-row matrix and down the rows reads the vector's entry at the column; a matrix product
  reads the row's dot product with the column; a column sum reads its initial value plus the sum over the rows.
-/
import proofs.«164503_j82721070121701_1_alg».proof.Proof.Gen.ReferenceIdeal
import Idealize.ShloMosaic.Lib.ValueIdx
import Idealize.ShloMosaic.Lib.Pipeline.Value
import Idealize.ShloMosaic.Lib.ValueLayout
import Idealize.ShloMosaic.Lib.IdealHost
import Idealize.ShloMosaic.Lib.KernelVsHost
import Idealize.ShloMosaic.PureOps.Ideal.Laws

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx
open scoped BigOperators

variable {α : Type}

/-- A vector as a one-row matrix, read at (0, j), is the vector at j. -/
theorem bcast_vec_row {n : Nat} (h1 : (⟨1, ![n]⟩ : Shape).BroadcastsInDim ⟨2, ![1, n]⟩ ![1])
    (x : (⟨1, ![n]⟩ : Shape).Idx → α) (j : Fin n) :
    broadcastInDim ⟨2, ![1, n]⟩ ![1] h1 x (ix2 (0 : Fin 1) j) = x (ix1 j) := by
  refine broadcastInDim_apply ![1] h1 x (ix2 (0 : Fin 1) j) (ix1 j) ?_
  intro a
  fin_cases a
  show j.val = if n = 1 then 0 else j.val
  split_ifs with hn
  · have := j.isLt; omega
  · rfl

/-- A vector broadcast to a one-row matrix and then down m rows, read at (i, j), is the vector at j. -/
theorem bcast_vec_mat {m n : Nat} (h1 : (⟨1, ![n]⟩ : Shape).BroadcastsInDim ⟨2, ![1, n]⟩ ![1])
    (h2 : (⟨2, ![1, n]⟩ : Shape).BroadcastsInDim ⟨2, ![m, n]⟩ ![0, 1]) (x : (⟨1, ![n]⟩ : Shape).Idx → α) (i : Fin m) (j : Fin n) :
    broadcastInDim ⟨2, ![m, n]⟩ ![0, 1] h2 (broadcastInDim ⟨2, ![1, n]⟩ ![1] h1 x) (ix2 i j) = x (ix1 j) := by
  rw [broadcastInDim_oneRow_apply, bcast_vec_row]

/-- The 100000×128 by 128×256 product at (i, j): the row's dot product with the column. -/
theorem dot1_apply (l : FVec Ideal S100000x128 .f32) (r : FVec Ideal S128x256 .f32) (i : Fin 100000) (j : Fin 256) :
    Host.dotGeneral dot_S100000x128_S128x256_S100000x256_1_0_0_1_n_n none l r (ix2 i j) = ∑ k : Fin 128, l (ix2 i k) * r (ix2 k j) := by
  simp only [Host.dotGeneral]
  rw [Ideal.dotGeneral_apply]
  rw [← Equiv.sum_comp (contrEquiv1 dot_S100000x128_S128x256_S100000x256_1_0_0_1_n_n 128 rfl rfl).symm]
  refine Finset.sum_congr rfl fun k _ => ?_
  have hl : dot_S100000x128_S128x256_S100000x256_1_0_0_1_n_n.lhsIdx (ix2 i j)
      ((contrEquiv1 dot_S100000x128_S128x256_S100000x256_1_0_0_1_n_n 128 rfl rfl).symm k) = ix2 i k := by
    funext a
    match a with
    | ⟨0, _⟩ => exact Fin.ext rfl
    | ⟨1, _⟩ => exact Fin.ext (contrEquiv1_symm_val dot_S100000x128_S128x256_S100000x256_1_0_0_1_n_n 128 rfl rfl k)
  have hr : dot_S100000x128_S128x256_S100000x256_1_0_0_1_n_n.rhsIdx (ix2 i j)
      ((contrEquiv1 dot_S100000x128_S128x256_S100000x256_1_0_0_1_n_n 128 rfl rfl).symm k) = ix2 k j := by
    funext a
    match a with
    | ⟨0, _⟩ => exact Fin.ext (contrEquiv1_symm_val dot_S100000x128_S128x256_S100000x256_1_0_0_1_n_n 128 rfl rfl k)
    | ⟨1, _⟩ => exact Fin.ext rfl
  rw [hl, hr]

/-- The 100000×256 by 256×128 product at (i, j): the row's dot product with the column. -/
theorem dot2_apply (l : FVec Ideal S100000x256 .f32) (r : FVec Ideal S256x128 .f32) (i : Fin 100000) (j : Fin 128) :
    Host.dotGeneral dot_S100000x256_S256x128_S100000x128_1_0_0_1_n_n none l r (ix2 i j) = ∑ k : Fin 256, l (ix2 i k) * r (ix2 k j) := by
  simp only [Host.dotGeneral]
  rw [Ideal.dotGeneral_apply]
  rw [← Equiv.sum_comp (contrEquiv1 dot_S100000x256_S256x128_S100000x128_1_0_0_1_n_n 256 rfl rfl).symm]
  refine Finset.sum_congr rfl fun k _ => ?_
  have hl : dot_S100000x256_S256x128_S100000x128_1_0_0_1_n_n.lhsIdx (ix2 i j)
      ((contrEquiv1 dot_S100000x256_S256x128_S100000x128_1_0_0_1_n_n 256 rfl rfl).symm k) = ix2 i k := by
    funext a
    match a with
    | ⟨0, _⟩ => exact Fin.ext rfl
    | ⟨1, _⟩ => exact Fin.ext (contrEquiv1_symm_val dot_S100000x256_S256x128_S100000x128_1_0_0_1_n_n 256 rfl rfl k)
  have hr : dot_S100000x256_S256x128_S100000x128_1_0_0_1_n_n.rhsIdx (ix2 i j)
      ((contrEquiv1 dot_S100000x256_S256x128_S100000x128_1_0_0_1_n_n 256 rfl rfl).symm k) = ix2 k j := by
    funext a
    match a with
    | ⟨0, _⟩ => exact Fin.ext (contrEquiv1_symm_val dot_S100000x256_S256x128_S100000x128_1_0_0_1_n_n 256 rfl rfl k)
    | ⟨1, _⟩ => exact Fin.ext rfl
  rw [hl, hr]

/-- The column sum of a 100000×256 array at column j: the initial value plus the sum over the rows. -/
theorem colsum256_apply (x : FVec Ideal S100000x256 .f32) (v : FVec Ideal S_ .f32) (j : Fin 256) :
    Host.reduceAdd x v reducesTo_S100000x256_S256_d0 h_S_ (ix1 j) = v ix0 + ∑ i : Fin 100000, x (ix2 i j) := by
  rw [hostReduceAdd_apply]
  rw [Ideal.hostReduceAdd_single reducesTo_S100000x256_S256_d0 (by decide)]
  refine congrArg₂ (· + ·) (congrArg v (eq_ix0 _)) (Finset.sum_congr rfl fun k _ => congrArg x ?_)
  funext a
  match a with
  | ⟨0, _⟩ => exact Fin.ext rfl
  | ⟨1, _⟩ => exact Fin.ext rfl

/-- The column sum of a 100000×128 array at column j: the initial value plus the sum over the rows. -/
theorem colsum128_apply (x : FVec Ideal S100000x128 .f32) (v : FVec Ideal S_ .f32) (j : Fin 128) :
    Host.reduceAdd x v reducesTo_S100000x128_S128_d0 h_S_ (ix1 j) = v ix0 + ∑ i : Fin 100000, x (ix2 i j) := by
  rw [hostReduceAdd_apply]
  rw [Ideal.hostReduceAdd_single reducesTo_S100000x128_S128_d0 (by decide)]
  refine congrArg₂ (· + ·) (congrArg v (eq_ix0 _)) (Finset.sum_congr rfl fun k _ => congrArg x ?_)
  funext a
  match a with
  | ⟨0, _⟩ => exact Fin.ext rfl
  | ⟨1, _⟩ => exact Fin.ext rfl

/-- Reads a composed stage at an index: the pointwise operations, the products and the column sums by their
    index equations, the broadcasts by rewriting (their index lemmas are keyed on coordinate literals), in turn until
    nothing is left to open. -/
macro "read_idx" : tactic => `(tactic| repeat (first
  | simp only [addf_apply, subf_apply, mulf_apply, maximumf_apply, hostDivf_apply, select_apply, cmpf_apply,
      sitofp_apply, constant_apply, dot1_apply, dot2_apply, colsum256_apply, colsum128_apply]
  | rw [bcast_vec_mat] | rw [broadcastInDim_oneRow_apply] | rw [bcast_vec_row] | rw [broadcastInDim_scalar_apply]))

end Cert.ReferenceIdeal.Hand

end
-- ==== Proof.Ref.Vals.lean ====
/-
  The reference's buffers after its line, named at their value types, at the extended reals: `val_‹buffer› V` is the
  contents of the buffer after the 274 operations from contents `V`, as an array of extended reals (or of words, for
  an integer or boolean buffer) over the buffer's shape.  An argument's is its launch contents.
-/
import proofs.«164503_j82721070121701_1_alg».proof.Proof.Ref.Run
import Idealize.ShloMosaic.Lib.ValueIdx
import Idealize.ShloMosaic.Lib.Pipeline.Value
import Idealize.ShloMosaic.Lib.ValueLayout
import Idealize.ShloMosaic.Lib.IdealHost
import Idealize.ShloMosaic.Lib.KernelVsHost
import Idealize.ShloMosaic.PureOps.Ideal.Laws

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx
open scoped BigOperators

abbrev val_main_arg0 (V : Valuation τ sig (Elt Ideal)) : FVec Ideal S100000x128 .f32 := after ops V (main_arg0 : DevRef τ sig)
abbrev val_main_arg1 (V : Valuation τ sig (Elt Ideal)) : FVec Ideal S100000x128 .f32 := after ops V (main_arg1 : DevRef τ sig)
abbrev val_main_arg2 (V : Valuation τ sig (Elt Ideal)) : FVec Ideal S100000x128 .f32 := after ops V (main_arg2 : DevRef τ sig)
abbrev val_main_arg3 (V : Valuation τ sig (Elt Ideal)) : FVec Ideal S100000x128 .f32 := after ops V (main_arg3 : DevRef τ sig)
abbrev val_main_arg4 (V : Valuation τ sig (Elt Ideal)) : FVec Ideal S800000x128 .f32 := after ops V (main_arg4 : DevRef τ sig)
abbrev val_main_arg5 (V : Valuation τ sig (Elt Ideal)) : IVec S2x800000 32 := after ops V (main_arg5 : DevRef τ sig)
abbrev val_main_arg6 (V : Valuation τ sig (Elt Ideal)) : IVec S2x800000 32 := after ops V (main_arg6 : DevRef τ sig)
abbrev val_main_arg7 (V : Valuation τ sig (Elt Ideal)) : IVec S2x800000 32 := after ops V (main_arg7 : DevRef τ sig)
abbrev val_main_arg8 (V : Valuation τ sig (Elt Ideal)) : IVec S2x800000 32 := after ops V (main_arg8 : DevRef τ sig)
abbrev val_main_arg9 (V : Valuation τ sig (Elt Ideal)) : FVec Ideal S128x256 .f32 := after ops V (main_arg9 : DevRef τ sig)
abbrev val_main_arg10 (V : Valuation τ sig (Elt Ideal)) : FVec Ideal S256 .f32 := after ops V (main_arg10 : DevRef τ sig)
abbrev val_main_arg11 (V : Valuation τ sig (Elt Ideal)) : FVec Ideal S256 .f32 := after ops V (main_arg11 : DevRef τ sig)
abbrev val_main_arg12 (V : Valuation τ sig (Elt Ideal)) : FVec Ideal S256 .f32 := after ops V (main_arg12 : DevRef τ sig)
abbrev val_main_arg13 (V : Valuation τ sig (Elt Ideal)) : FVec Ideal S256x128 .f32 := after ops V (main_arg13 : DevRef τ sig)
abbrev val_main_arg14 (V : Valuation τ sig (Elt Ideal)) : FVec Ideal S128 .f32 := after ops V (main_arg14 : DevRef τ sig)
abbrev val_main_arg15 (V : Valuation τ sig (Elt Ideal)) : FVec Ideal S128 .f32 := after ops V (main_arg15 : DevRef τ sig)
abbrev val_main_arg16 (V : Valuation τ sig (Elt Ideal)) : FVec Ideal S128 .f32 := after ops V (main_arg16 : DevRef τ sig)
abbrev val_main_arg17 (V : Valuation τ sig (Elt Ideal)) : FVec Ideal S128 .f32 := after ops V (main_arg17 : DevRef τ sig)
abbrev val_main_arg18 (V : Valuation τ sig (Elt Ideal)) : FVec Ideal S128 .f32 := after ops V (main_arg18 : DevRef τ sig)
abbrev val_main_arg19 (V : Valuation τ sig (Elt Ideal)) : FVec Ideal S5x128 .f32 := after ops V (main_arg19 : DevRef τ sig)
abbrev val_main_v0 (V : Valuation τ sig (Elt Ideal)) : FVec Ideal S1x128 .f32 := after ops V (main_v0 : DevRef τ sig)
abbrev val_main_v1 (V : Valuation τ sig (Elt Ideal)) : FVec Ideal S128 .f32 := after ops V (main_v1 : DevRef τ sig)
abbrev val_main_cst (V : Valuation τ sig (Elt Ideal)) : FVec Ideal S_ .f32 := after ops V (main_cst : DevRef τ sig)
abbrev val_main_v2 (V : Valuation τ sig (Elt Ideal)) : FVec Ideal S128 .f32 := after ops V (main_v2 : DevRef τ sig)
abbrev val_main_v3 (V : Valuation τ sig (Elt Ideal)) : FVec Ideal S128 .f32 := after ops V (main_v3 : DevRef τ sig)
abbrev val_main_v4 (V : Valuation τ sig (Elt Ideal)) : FVec Ideal S1x128 .f32 := after ops V (main_v4 : DevRef τ sig)
abbrev val_main_v5 (V : Valuation τ sig (Elt Ideal)) : FVec Ideal S100000x128 .f32 := after ops V (main_v5 : DevRef τ sig)
abbrev val_main_v6 (V : Valuation τ sig (Elt Ideal)) : FVec Ideal S100000x128 .f32 := after ops V (main_v6 : DevRef τ sig)
abbrev val_main_v7 (V : Valuation τ sig (Elt Ideal)) : FVec Ideal S1x128 .f32 := after ops V (main_v7 : DevRef τ sig)
abbrev val_main_v8 (V : Valuation τ sig (Elt Ideal)) : FVec Ideal S128 .f32 := after ops V (main_v8 : DevRef τ sig)
abbrev val_main_cst_0 (V : Valuation τ sig (Elt Ideal)) : FVec Ideal S_ .f32 := after ops V (main_cst_0 : DevRef τ sig)
abbrev val_main_v9 (V : Valuation τ sig (Elt Ideal)) : FVec Ideal S128 .f32 := after ops V (main_v9 : DevRef τ sig)
abbrev val_main_v10 (V : Valuation τ sig (Elt Ideal)) : FVec Ideal S128 .f32 := after ops V (main_v10 : DevRef τ sig)
abbrev val_main_v11 (V : Valuation τ sig (Elt Ideal)) : IVec S1x800000 32 := after ops V (main_v11 : DevRef τ sig)
abbrev val_main_v12 (V : Valuation τ sig (Elt Ideal)) : IVec S800000 32 := after ops V (main_v12 : DevRef τ sig)
abbrev val_main_c (V : Valuation τ sig (Elt Ideal)) : IVec S_ 32 := after ops V (main_c : DevRef τ sig)
abbrev val_main_v13 (V : Valuation τ sig (Elt Ideal)) : IVec S800000 32 := after ops V (main_v13 : DevRef τ sig)
abbrev val_main_v14 (V : Valuation τ sig (Elt Ideal)) : IVec S800000 1 := after ops V (main_v14 : DevRef τ sig)
abbrev val_main_c_1 (V : Valuation τ sig (Elt Ideal)) : IVec S_ 32 := after ops V (main_c_1 : DevRef τ sig)
abbrev val_main_v15 (V : Valuation τ sig (Elt Ideal)) : IVec S800000 32 := after ops V (main_v15 : DevRef τ sig)
abbrev val_main_v16 (V : Valuation τ sig (Elt Ideal)) : IVec S800000 32 := after ops V (main_v16 : DevRef τ sig)
abbrev val_main_v17 (V : Valuation τ sig (Elt Ideal)) : IVec S800000 32 := after ops V (main_v17 : DevRef τ sig)
abbrev val_main_v18 (V : Valuation τ sig (Elt Ideal)) : IVec S800000x1 32 := after ops V (main_v18 : DevRef τ sig)
abbrev val_main_v19 (V : Valuation τ sig (Elt Ideal)) : FVec Ideal S800000x128 .f32 := after ops V (main_v19 : DevRef τ sig)
abbrev val_main_v20 (V : Valuation τ sig (Elt Ideal)) : FVec Ideal S800000x128 .f32 := after ops V (main_v20 : DevRef τ sig)
abbrev val_main_call0_cst (V : Valuation τ sig (Elt Ideal)) : FVec Ideal S_ .f32 := after ops V (main_call0_cst : DevRef τ sig)
abbrev val_main_call0_v0 (V : Valuation τ sig (Elt Ideal)) : FVec Ideal S800000x128 .f32 := after ops V (main_call0_v0 : DevRef τ sig)
abbrev val_main_v21 (V : Valuation τ sig (Elt Ideal)) : FVec Ideal S800000x128 .f32 := after ops V (main_v21 : DevRef τ sig)
abbrev val_main_v22 (V : Valuation τ sig (Elt Ideal)) : IVec S1x800000 32 := after ops V (main_v22 : DevRef τ sig)
abbrev val_main_v23 (V : Valuation τ sig (Elt Ideal)) : IVec S800000 32 := after ops V (main_v23 : DevRef τ sig)
abbrev val_main_cst_2 (V : Valuation τ sig (Elt Ideal)) : FVec Ideal S_ .f32 := after ops V (main_cst_2 : DevRef τ sig)
abbrev val_main_v24 (V : Valuation τ sig (Elt Ideal)) : FVec Ideal S100000x128 .f32 := after ops V (main_v24 : DevRef τ sig)
abbrev val_main_v25 (V : Valuation τ sig (Elt Ideal)) : IVec S800000x1 32 := after ops V (main_v25 : DevRef τ sig)
abbrev val_main_v26 (V : Valuation τ sig (Elt Ideal)) : FVec Ideal S100000x128 .f32 := after ops V (main_v26 : DevRef τ sig)
abbrev val_main_v27 (V : Valuation τ sig (Elt Ideal)) : FVec Ideal S1x128 .f32 := after ops V (main_v27 : DevRef τ sig)
abbrev val_main_v28 (V : Valuation τ sig (Elt Ideal)) : FVec Ideal S100000x128 .f32 := after ops V (main_v28 : DevRef τ sig)
abbrev val_main_v29 (V : Valuation τ sig (Elt Ideal)) : FVec Ideal S100000x128 .f32 := after ops V (main_v29 : DevRef τ sig)
abbrev val_main_v30 (V : Valuation τ sig (Elt Ideal)) : FVec Ideal S100000x128 .f32 := after ops V (main_v30 : DevRef τ sig)
abbrev val_main_v31 (V : Valuation τ sig (Elt Ideal)) : FVec Ideal S1x128 .f32 := after ops V (main_v31 : DevRef τ sig)
abbrev val_main_v32 (V : Valuation τ sig (Elt Ideal)) : FVec Ideal S128 .f32 := after ops V (main_v32 : DevRef τ sig)
abbrev val_main_cst_3 (V : Valuation τ sig (Elt Ideal)) : FVec Ideal S_ .f32 := after ops V (main_cst_3 : DevRef τ sig)
abbrev val_main_v33 (V : Valuation τ sig (Elt Ideal)) : FVec Ideal S128 .f32 := after ops V (main_v33 : DevRef τ sig)
abbrev val_main_v34 (V : Valuation τ sig (Elt Ideal)) : FVec Ideal S128 .f32 := after ops V (main_v34 : DevRef τ sig)
abbrev val_main_v35 (V : Valuation τ sig (Elt Ideal)) : IVec S1x800000 32 := after ops V (main_v35 : DevRef τ sig)
abbrev val_main_v36 (V : Valuation τ sig (Elt Ideal)) : IVec S800000 32 := after ops V (main_v36 : DevRef τ sig)
abbrev val_main_c_4 (V : Valuation τ sig (Elt Ideal)) : IVec S_ 32 := after ops V (main_c_4 : DevRef τ sig)
abbrev val_main_v37 (V : Valuation τ sig (Elt Ideal)) : IVec S800000 32 := after ops V (main_v37 : DevRef τ sig)
abbrev val_main_v38 (V : Valuation τ sig (Elt Ideal)) : IVec S800000 1 := after ops V (main_v38 : DevRef τ sig)
abbrev val_main_c_5 (V : Valuation τ sig (Elt Ideal)) : IVec S_ 32 := after ops V (main_c_5 : DevRef τ sig)
abbrev val_main_v39 (V : Valuation τ sig (Elt Ideal)) : IVec S800000 32 := after ops V (main_v39 : DevRef τ sig)
abbrev val_main_v40 (V : Valuation τ sig (Elt Ideal)) : IVec S800000 32 := after ops V (main_v40 : DevRef τ sig)
abbrev val_main_v41 (V : Valuation τ sig (Elt Ideal)) : IVec S800000 32 := after ops V (main_v41 : DevRef τ sig)
abbrev val_main_v42 (V : Valuation τ sig (Elt Ideal)) : IVec S800000x1 32 := after ops V (main_v42 : DevRef τ sig)
abbrev val_main_v43 (V : Valuation τ sig (Elt Ideal)) : FVec Ideal S800000x128 .f32 := after ops V (main_v43 : DevRef τ sig)
abbrev val_main_call1_cst (V : Valuation τ sig (Elt Ideal)) : FVec Ideal S_ .f32 := after ops V (main_call1_cst : DevRef τ sig)
abbrev val_main_call1_v0 (V : Valuation τ sig (Elt Ideal)) : FVec Ideal S800000x128 .f32 := after ops V (main_call1_v0 : DevRef τ sig)
abbrev val_main_v44 (V : Valuation τ sig (Elt Ideal)) : FVec Ideal S800000x128 .f32 := after ops V (main_v44 : DevRef τ sig)
abbrev val_main_v45 (V : Valuation τ sig (Elt Ideal)) : IVec S1x800000 32 := after ops V (main_v45 : DevRef τ sig)
abbrev val_main_v46 (V : Valuation τ sig (Elt Ideal)) : IVec S800000 32 := after ops V (main_v46 : DevRef τ sig)
abbrev val_main_cst_6 (V : Valuation τ sig (Elt Ideal)) : FVec Ideal S_ .f32 := after ops V (main_cst_6 : DevRef τ sig)
abbrev val_main_v47 (V : Valuation τ sig (Elt Ideal)) : FVec Ideal S100000x128 .f32 := after ops V (main_v47 : DevRef τ sig)
abbrev val_main_v48 (V : Valuation τ sig (Elt Ideal)) : IVec S800000x1 32 := after ops V (main_v48 : DevRef τ sig)
abbrev val_main_v49 (V : Valuation τ sig (Elt Ideal)) : FVec Ideal S100000x128 .f32 := after ops V (main_v49 : DevRef τ sig)
abbrev val_main_v50 (V : Valuation τ sig (Elt Ideal)) : FVec Ideal S1x128 .f32 := after ops V (main_v50 : DevRef τ sig)
abbrev val_main_v51 (V : Valuation τ sig (Elt Ideal)) : FVec Ideal S100000x128 .f32 := after ops V (main_v51 : DevRef τ sig)
abbrev val_main_v52 (V : Valuation τ sig (Elt Ideal)) : FVec Ideal S100000x128 .f32 := after ops V (main_v52 : DevRef τ sig)
abbrev val_main_v53 (V : Valuation τ sig (Elt Ideal)) : FVec Ideal S100000x128 .f32 := after ops V (main_v53 : DevRef τ sig)
abbrev val_main_v54 (V : Valuation τ sig (Elt Ideal)) : FVec Ideal S1x128 .f32 := after ops V (main_v54 : DevRef τ sig)
abbrev val_main_v55 (V : Valuation τ sig (Elt Ideal)) : FVec Ideal S128 .f32 := after ops V (main_v55 : DevRef τ sig)
abbrev val_main_cst_7 (V : Valuation τ sig (Elt Ideal)) : FVec Ideal S_ .f32 := after ops V (main_cst_7 : DevRef τ sig)
abbrev val_main_v56 (V : Valuation τ sig (Elt Ideal)) : FVec Ideal S128 .f32 := after ops V (main_v56 : DevRef τ sig)
abbrev val_main_v57 (V : Valuation τ sig (Elt Ideal)) : FVec Ideal S128 .f32 := after ops V (main_v57 : DevRef τ sig)
abbrev val_main_v58 (V : Valuation τ sig (Elt Ideal)) : IVec S1x800000 32 := after ops V (main_v58 : DevRef τ sig)
abbrev val_main_v59 (V : Valuation τ sig (Elt Ideal)) : IVec S800000 32 := after ops V (main_v59 : DevRef τ sig)
abbrev val_main_c_8 (V : Valuation τ sig (Elt Ideal)) : IVec S_ 32 := after ops V (main_c_8 : DevRef τ sig)
abbrev val_main_v60 (V : Valuation τ sig (Elt Ideal)) : IVec S800000 32 := after ops V (main_v60 : DevRef τ sig)
abbrev val_main_v61 (V : Valuation τ sig (Elt Ideal)) : IVec S800000 1 := after ops V (main_v61 : DevRef τ sig)
abbrev val_main_c_9 (V : Valuation τ sig (Elt Ideal)) : IVec S_ 32 := after ops V (main_c_9 : DevRef τ sig)
abbrev val_main_v62 (V : Valuation τ sig (Elt Ideal)) : IVec S800000 32 := after ops V (main_v62 : DevRef τ sig)
abbrev val_main_v63 (V : Valuation τ sig (Elt Ideal)) : IVec S800000 32 := after ops V (main_v63 : DevRef τ sig)
abbrev val_main_v64 (V : Valuation τ sig (Elt Ideal)) : IVec S800000 32 := after ops V (main_v64 : DevRef τ sig)
abbrev val_main_v65 (V : Valuation τ sig (Elt Ideal)) : IVec S800000x1 32 := after ops V (main_v65 : DevRef τ sig)
abbrev val_main_v66 (V : Valuation τ sig (Elt Ideal)) : FVec Ideal S800000x128 .f32 := after ops V (main_v66 : DevRef τ sig)
abbrev val_main_call2_cst (V : Valuation τ sig (Elt Ideal)) : FVec Ideal S_ .f32 := after ops V (main_call2_cst : DevRef τ sig)
abbrev val_main_call2_v0 (V : Valuation τ sig (Elt Ideal)) : FVec Ideal S800000x128 .f32 := after ops V (main_call2_v0 : DevRef τ sig)
abbrev val_main_v67 (V : Valuation τ sig (Elt Ideal)) : FVec Ideal S800000x128 .f32 := after ops V (main_v67 : DevRef τ sig)
abbrev val_main_v68 (V : Valuation τ sig (Elt Ideal)) : IVec S1x800000 32 := after ops V (main_v68 : DevRef τ sig)
abbrev val_main_v69 (V : Valuation τ sig (Elt Ideal)) : IVec S800000 32 := after ops V (main_v69 : DevRef τ sig)
abbrev val_main_cst_10 (V : Valuation τ sig (Elt Ideal)) : FVec Ideal S_ .f32 := after ops V (main_cst_10 : DevRef τ sig)
abbrev val_main_v70 (V : Valuation τ sig (Elt Ideal)) : FVec Ideal S100000x128 .f32 := after ops V (main_v70 : DevRef τ sig)
abbrev val_main_v71 (V : Valuation τ sig (Elt Ideal)) : IVec S800000x1 32 := after ops V (main_v71 : DevRef τ sig)
abbrev val_main_v72 (V : Valuation τ sig (Elt Ideal)) : FVec Ideal S100000x128 .f32 := after ops V (main_v72 : DevRef τ sig)
abbrev val_main_v73 (V : Valuation τ sig (Elt Ideal)) : FVec Ideal S1x128 .f32 := after ops V (main_v73 : DevRef τ sig)
abbrev val_main_v74 (V : Valuation τ sig (Elt Ideal)) : FVec Ideal S100000x128 .f32 := after ops V (main_v74 : DevRef τ sig)
abbrev val_main_v75 (V : Valuation τ sig (Elt Ideal)) : FVec Ideal S100000x128 .f32 := after ops V (main_v75 : DevRef τ sig)
abbrev val_main_v76 (V : Valuation τ sig (Elt Ideal)) : FVec Ideal S100000x128 .f32 := after ops V (main_v76 : DevRef τ sig)
abbrev val_main_v77 (V : Valuation τ sig (Elt Ideal)) : FVec Ideal S1x128 .f32 := after ops V (main_v77 : DevRef τ sig)
abbrev val_main_v78 (V : Valuation τ sig (Elt Ideal)) : FVec Ideal S128 .f32 := after ops V (main_v78 : DevRef τ sig)
abbrev val_main_cst_11 (V : Valuation τ sig (Elt Ideal)) : FVec Ideal S_ .f32 := after ops V (main_cst_11 : DevRef τ sig)
abbrev val_main_v79 (V : Valuation τ sig (Elt Ideal)) : FVec Ideal S128 .f32 := after ops V (main_v79 : DevRef τ sig)
abbrev val_main_v80 (V : Valuation τ sig (Elt Ideal)) : FVec Ideal S128 .f32 := after ops V (main_v80 : DevRef τ sig)
abbrev val_main_v81 (V : Valuation τ sig (Elt Ideal)) : IVec S1x800000 32 := after ops V (main_v81 : DevRef τ sig)
abbrev val_main_v82 (V : Valuation τ sig (Elt Ideal)) : IVec S800000 32 := after ops V (main_v82 : DevRef τ sig)
abbrev val_main_c_12 (V : Valuation τ sig (Elt Ideal)) : IVec S_ 32 := after ops V (main_c_12 : DevRef τ sig)
abbrev val_main_v83 (V : Valuation τ sig (Elt Ideal)) : IVec S800000 32 := after ops V (main_v83 : DevRef τ sig)
abbrev val_main_v84 (V : Valuation τ sig (Elt Ideal)) : IVec S800000 1 := after ops V (main_v84 : DevRef τ sig)
abbrev val_main_c_13 (V : Valuation τ sig (Elt Ideal)) : IVec S_ 32 := after ops V (main_c_13 : DevRef τ sig)
abbrev val_main_v85 (V : Valuation τ sig (Elt Ideal)) : IVec S800000 32 := after ops V (main_v85 : DevRef τ sig)
abbrev val_main_v86 (V : Valuation τ sig (Elt Ideal)) : IVec S800000 32 := after ops V (main_v86 : DevRef τ sig)
abbrev val_main_v87 (V : Valuation τ sig (Elt Ideal)) : IVec S800000 32 := after ops V (main_v87 : DevRef τ sig)
abbrev val_main_v88 (V : Valuation τ sig (Elt Ideal)) : IVec S800000x1 32 := after ops V (main_v88 : DevRef τ sig)
abbrev val_main_v89 (V : Valuation τ sig (Elt Ideal)) : FVec Ideal S800000x128 .f32 := after ops V (main_v89 : DevRef τ sig)
abbrev val_main_call3_cst (V : Valuation τ sig (Elt Ideal)) : FVec Ideal S_ .f32 := after ops V (main_call3_cst : DevRef τ sig)
abbrev val_main_call3_v0 (V : Valuation τ sig (Elt Ideal)) : FVec Ideal S800000x128 .f32 := after ops V (main_call3_v0 : DevRef τ sig)
abbrev val_main_v90 (V : Valuation τ sig (Elt Ideal)) : FVec Ideal S800000x128 .f32 := after ops V (main_v90 : DevRef τ sig)
abbrev val_main_v91 (V : Valuation τ sig (Elt Ideal)) : IVec S1x800000 32 := after ops V (main_v91 : DevRef τ sig)
abbrev val_main_v92 (V : Valuation τ sig (Elt Ideal)) : IVec S800000 32 := after ops V (main_v92 : DevRef τ sig)
abbrev val_main_cst_14 (V : Valuation τ sig (Elt Ideal)) : FVec Ideal S_ .f32 := after ops V (main_cst_14 : DevRef τ sig)
abbrev val_main_v93 (V : Valuation τ sig (Elt Ideal)) : FVec Ideal S100000x128 .f32 := after ops V (main_v93 : DevRef τ sig)
abbrev val_main_v94 (V : Valuation τ sig (Elt Ideal)) : IVec S800000x1 32 := after ops V (main_v94 : DevRef τ sig)
abbrev val_main_v95 (V : Valuation τ sig (Elt Ideal)) : FVec Ideal S100000x128 .f32 := after ops V (main_v95 : DevRef τ sig)
abbrev val_main_v96 (V : Valuation τ sig (Elt Ideal)) : FVec Ideal S1x128 .f32 := after ops V (main_v96 : DevRef τ sig)
abbrev val_main_v97 (V : Valuation τ sig (Elt Ideal)) : FVec Ideal S100000x128 .f32 := after ops V (main_v97 : DevRef τ sig)
abbrev val_main_v98 (V : Valuation τ sig (Elt Ideal)) : FVec Ideal S100000x128 .f32 := after ops V (main_v98 : DevRef τ sig)
abbrev val_main_v99 (V : Valuation τ sig (Elt Ideal)) : FVec Ideal S100000x128 .f32 := after ops V (main_v99 : DevRef τ sig)
abbrev val_main_v100 (V : Valuation τ sig (Elt Ideal)) : FVec Ideal S100000x256 .f32 := after ops V (main_v100 : DevRef τ sig)
abbrev val_main_v101 (V : Valuation τ sig (Elt Ideal)) : FVec Ideal S1x256 .f32 := after ops V (main_v101 : DevRef τ sig)
abbrev val_main_v102 (V : Valuation τ sig (Elt Ideal)) : FVec Ideal S100000x256 .f32 := after ops V (main_v102 : DevRef τ sig)
abbrev val_main_v103 (V : Valuation τ sig (Elt Ideal)) : FVec Ideal S100000x256 .f32 := after ops V (main_v103 : DevRef τ sig)
abbrev val_main_cst_15 (V : Valuation τ sig (Elt Ideal)) : FVec Ideal S_ .f32 := after ops V (main_cst_15 : DevRef τ sig)
abbrev val_main_v104 (V : Valuation τ sig (Elt Ideal)) : FVec Ideal S256 .f32 := after ops V (main_v104 : DevRef τ sig)
abbrev val_main_cst_16 (V : Valuation τ sig (Elt Ideal)) : FVec Ideal S_ .f32 := after ops V (main_cst_16 : DevRef τ sig)
abbrev val_main_v105 (V : Valuation τ sig (Elt Ideal)) : FVec Ideal S256 .f32 := after ops V (main_v105 : DevRef τ sig)
abbrev val_main_v106 (V : Valuation τ sig (Elt Ideal)) : FVec Ideal S256 .f32 := after ops V (main_v106 : DevRef τ sig)
abbrev val_main_c_17 (V : Valuation τ sig (Elt Ideal)) : IVec S_ 32 := after ops V (main_c_17 : DevRef τ sig)
abbrev val_main_call4_cst (V : Valuation τ sig (Elt Ideal)) : FVec Ideal S_ .f32 := after ops V (main_call4_cst : DevRef τ sig)
abbrev val_main_call4_v0 (V : Valuation τ sig (Elt Ideal)) : FVec Ideal S256 .f32 := after ops V (main_call4_v0 : DevRef τ sig)
abbrev val_main_call4_v1 (V : Valuation τ sig (Elt Ideal)) : FVec Ideal S1x256 .f32 := after ops V (main_call4_v1 : DevRef τ sig)
abbrev val_main_call4_cst_0 (V : Valuation τ sig (Elt Ideal)) : FVec Ideal S_ .f32 := after ops V (main_call4_cst_0 : DevRef τ sig)
abbrev val_main_call4_v2 (V : Valuation τ sig (Elt Ideal)) : FVec Ideal S1x256 .f32 := after ops V (main_call4_v2 : DevRef τ sig)
abbrev val_main_call4_v3 (V : Valuation τ sig (Elt Ideal)) : FVec Ideal S1x256 .f32 := after ops V (main_call4_v3 : DevRef τ sig)
abbrev val_main_call4_v4 (V : Valuation τ sig (Elt Ideal)) : FVec Ideal S100000x256 .f32 := after ops V (main_call4_v4 : DevRef τ sig)
abbrev val_main_call4_v5 (V : Valuation τ sig (Elt Ideal)) : FVec Ideal S100000x256 .f32 := after ops V (main_call4_v5 : DevRef τ sig)
abbrev val_main_call4_v6 (V : Valuation τ sig (Elt Ideal)) : FVec Ideal S100000x256 .f32 := after ops V (main_call4_v6 : DevRef τ sig)
abbrev val_main_call4_v7 (V : Valuation τ sig (Elt Ideal)) : FVec Ideal S_ .f32 := after ops V (main_call4_v7 : DevRef τ sig)
abbrev val_main_call4_cst_1 (V : Valuation τ sig (Elt Ideal)) : FVec Ideal S_ .f32 := after ops V (main_call4_cst_1 : DevRef τ sig)
abbrev val_main_call4_v8 (V : Valuation τ sig (Elt Ideal)) : FVec Ideal S_ .f32 := after ops V (main_call4_v8 : DevRef τ sig)
abbrev val_main_call4_cst_2 (V : Valuation τ sig (Elt Ideal)) : FVec Ideal S_ .f32 := after ops V (main_call4_cst_2 : DevRef τ sig)
abbrev val_main_call4_v9 (V : Valuation τ sig (Elt Ideal)) : FVec Ideal S256 .f32 := after ops V (main_call4_v9 : DevRef τ sig)
abbrev val_main_call4_v10 (V : Valuation τ sig (Elt Ideal)) : FVec Ideal S256 .f32 := after ops V (main_call4_v10 : DevRef τ sig)
abbrev val_main_call4_v11 (V : Valuation τ sig (Elt Ideal)) : FVec Ideal S256 .f32 := after ops V (main_call4_v11 : DevRef τ sig)
abbrev val_main_call4_cst_3 (V : Valuation τ sig (Elt Ideal)) : FVec Ideal S_ .f32 := after ops V (main_call4_cst_3 : DevRef τ sig)
abbrev val_main_call4_v12 (V : Valuation τ sig (Elt Ideal)) : IVec S_ 1 := after ops V (main_call4_v12 : DevRef τ sig)
abbrev val_main_call4_cst_4 (V : Valuation τ sig (Elt Ideal)) : FVec Ideal S_ .f32 := after ops V (main_call4_cst_4 : DevRef τ sig)
abbrev val_main_call4_call0_v0 (V : Valuation τ sig (Elt Ideal)) : FVec Ideal S_ .f32 := after ops V (main_call4_call0_v0 : DevRef τ sig)
abbrev val_main_call4_call0_v1 (V : Valuation τ sig (Elt Ideal)) : FVec Ideal S256 .f32 := after ops V (main_call4_call0_v1 : DevRef τ sig)
abbrev val_main_v107 (V : Valuation τ sig (Elt Ideal)) : FVec Ideal S256 .f32 := after ops V (main_v107 : DevRef τ sig)
abbrev val_main_v108 (V : Valuation τ sig (Elt Ideal)) : FVec Ideal S1x256 .f32 := after ops V (main_v108 : DevRef τ sig)
abbrev val_main_v109 (V : Valuation τ sig (Elt Ideal)) : FVec Ideal S100000x256 .f32 := after ops V (main_v109 : DevRef τ sig)
abbrev val_main_v110 (V : Valuation τ sig (Elt Ideal)) : FVec Ideal S100000x256 .f32 := after ops V (main_v110 : DevRef τ sig)
abbrev val_main_v111 (V : Valuation τ sig (Elt Ideal)) : FVec Ideal S1x256 .f32 := after ops V (main_v111 : DevRef τ sig)
abbrev val_main_v112 (V : Valuation τ sig (Elt Ideal)) : FVec Ideal S100000x256 .f32 := after ops V (main_v112 : DevRef τ sig)
abbrev val_main_v113 (V : Valuation τ sig (Elt Ideal)) : FVec Ideal S100000x256 .f32 := after ops V (main_v113 : DevRef τ sig)
abbrev val_main_cst_18 (V : Valuation τ sig (Elt Ideal)) : FVec Ideal S_ .f32 := after ops V (main_cst_18 : DevRef τ sig)
abbrev val_main_v114 (V : Valuation τ sig (Elt Ideal)) : FVec Ideal S256 .f32 := after ops V (main_v114 : DevRef τ sig)
abbrev val_main_v115 (V : Valuation τ sig (Elt Ideal)) : FVec Ideal S256 .f32 := after ops V (main_v115 : DevRef τ sig)
abbrev val_main_v116 (V : Valuation τ sig (Elt Ideal)) : FVec Ideal S256 .f32 := after ops V (main_v116 : DevRef τ sig)
abbrev val_main_v117 (V : Valuation τ sig (Elt Ideal)) : FVec Ideal S1x256 .f32 := after ops V (main_v117 : DevRef τ sig)
abbrev val_main_v118 (V : Valuation τ sig (Elt Ideal)) : FVec Ideal S100000x256 .f32 := after ops V (main_v118 : DevRef τ sig)
abbrev val_main_v119 (V : Valuation τ sig (Elt Ideal)) : FVec Ideal S100000x256 .f32 := after ops V (main_v119 : DevRef τ sig)
abbrev val_main_v120 (V : Valuation τ sig (Elt Ideal)) : FVec Ideal S1x256 .f32 := after ops V (main_v120 : DevRef τ sig)
abbrev val_main_v121 (V : Valuation τ sig (Elt Ideal)) : FVec Ideal S100000x256 .f32 := after ops V (main_v121 : DevRef τ sig)
abbrev val_main_v122 (V : Valuation τ sig (Elt Ideal)) : FVec Ideal S100000x256 .f32 := after ops V (main_v122 : DevRef τ sig)
abbrev val_main_call5_cst (V : Valuation τ sig (Elt Ideal)) : FVec Ideal S_ .f32 := after ops V (main_call5_cst : DevRef τ sig)
abbrev val_main_call5_v0 (V : Valuation τ sig (Elt Ideal)) : FVec Ideal S100000x256 .f32 := after ops V (main_call5_v0 : DevRef τ sig)
abbrev val_main_v123 (V : Valuation τ sig (Elt Ideal)) : FVec Ideal S100000x256 .f32 := after ops V (main_v123 : DevRef τ sig)
abbrev val_main_v124 (V : Valuation τ sig (Elt Ideal)) : FVec Ideal S100000x128 .f32 := after ops V (main_v124 : DevRef τ sig)
abbrev val_main_v125 (V : Valuation τ sig (Elt Ideal)) : FVec Ideal S1x128 .f32 := after ops V (main_v125 : DevRef τ sig)
abbrev val_main_v126 (V : Valuation τ sig (Elt Ideal)) : FVec Ideal S100000x128 .f32 := after ops V (main_v126 : DevRef τ sig)
abbrev val_main_v127 (V : Valuation τ sig (Elt Ideal)) : FVec Ideal S100000x128 .f32 := after ops V (main_v127 : DevRef τ sig)
abbrev val_main_cst_19 (V : Valuation τ sig (Elt Ideal)) : FVec Ideal S_ .f32 := after ops V (main_cst_19 : DevRef τ sig)
abbrev val_main_v128 (V : Valuation τ sig (Elt Ideal)) : FVec Ideal S128 .f32 := after ops V (main_v128 : DevRef τ sig)
abbrev val_main_cst_20 (V : Valuation τ sig (Elt Ideal)) : FVec Ideal S_ .f32 := after ops V (main_cst_20 : DevRef τ sig)
abbrev val_main_v129 (V : Valuation τ sig (Elt Ideal)) : FVec Ideal S128 .f32 := after ops V (main_v129 : DevRef τ sig)
abbrev val_main_v130 (V : Valuation τ sig (Elt Ideal)) : FVec Ideal S128 .f32 := after ops V (main_v130 : DevRef τ sig)
abbrev val_main_c_21 (V : Valuation τ sig (Elt Ideal)) : IVec S_ 32 := after ops V (main_c_21 : DevRef τ sig)
abbrev val_main_call6_cst (V : Valuation τ sig (Elt Ideal)) : FVec Ideal S_ .f32 := after ops V (main_call6_cst : DevRef τ sig)
abbrev val_main_call6_v0 (V : Valuation τ sig (Elt Ideal)) : FVec Ideal S128 .f32 := after ops V (main_call6_v0 : DevRef τ sig)
abbrev val_main_call6_v1 (V : Valuation τ sig (Elt Ideal)) : FVec Ideal S1x128 .f32 := after ops V (main_call6_v1 : DevRef τ sig)
abbrev val_main_call6_cst_0 (V : Valuation τ sig (Elt Ideal)) : FVec Ideal S_ .f32 := after ops V (main_call6_cst_0 : DevRef τ sig)
abbrev val_main_call6_v2 (V : Valuation τ sig (Elt Ideal)) : FVec Ideal S1x128 .f32 := after ops V (main_call6_v2 : DevRef τ sig)
abbrev val_main_call6_v3 (V : Valuation τ sig (Elt Ideal)) : FVec Ideal S1x128 .f32 := after ops V (main_call6_v3 : DevRef τ sig)
abbrev val_main_call6_v4 (V : Valuation τ sig (Elt Ideal)) : FVec Ideal S100000x128 .f32 := after ops V (main_call6_v4 : DevRef τ sig)
abbrev val_main_call6_v5 (V : Valuation τ sig (Elt Ideal)) : FVec Ideal S100000x128 .f32 := after ops V (main_call6_v5 : DevRef τ sig)
abbrev val_main_call6_v6 (V : Valuation τ sig (Elt Ideal)) : FVec Ideal S100000x128 .f32 := after ops V (main_call6_v6 : DevRef τ sig)
abbrev val_main_call6_v7 (V : Valuation τ sig (Elt Ideal)) : FVec Ideal S_ .f32 := after ops V (main_call6_v7 : DevRef τ sig)
abbrev val_main_call6_cst_1 (V : Valuation τ sig (Elt Ideal)) : FVec Ideal S_ .f32 := after ops V (main_call6_cst_1 : DevRef τ sig)
abbrev val_main_call6_v8 (V : Valuation τ sig (Elt Ideal)) : FVec Ideal S_ .f32 := after ops V (main_call6_v8 : DevRef τ sig)
abbrev val_main_call6_cst_2 (V : Valuation τ sig (Elt Ideal)) : FVec Ideal S_ .f32 := after ops V (main_call6_cst_2 : DevRef τ sig)
abbrev val_main_call6_v9 (V : Valuation τ sig (Elt Ideal)) : FVec Ideal S128 .f32 := after ops V (main_call6_v9 : DevRef τ sig)
abbrev val_main_call6_v10 (V : Valuation τ sig (Elt Ideal)) : FVec Ideal S128 .f32 := after ops V (main_call6_v10 : DevRef τ sig)
abbrev val_main_call6_v11 (V : Valuation τ sig (Elt Ideal)) : FVec Ideal S128 .f32 := after ops V (main_call6_v11 : DevRef τ sig)
abbrev val_main_call6_cst_3 (V : Valuation τ sig (Elt Ideal)) : FVec Ideal S_ .f32 := after ops V (main_call6_cst_3 : DevRef τ sig)
abbrev val_main_call6_v12 (V : Valuation τ sig (Elt Ideal)) : IVec S_ 1 := after ops V (main_call6_v12 : DevRef τ sig)
abbrev val_main_call6_cst_4 (V : Valuation τ sig (Elt Ideal)) : FVec Ideal S_ .f32 := after ops V (main_call6_cst_4 : DevRef τ sig)
abbrev val_main_call6_call0_v0 (V : Valuation τ sig (Elt Ideal)) : FVec Ideal S_ .f32 := after ops V (main_call6_call0_v0 : DevRef τ sig)
abbrev val_main_call6_call0_v1 (V : Valuation τ sig (Elt Ideal)) : FVec Ideal S128 .f32 := after ops V (main_call6_call0_v1 : DevRef τ sig)
abbrev val_main_v131 (V : Valuation τ sig (Elt Ideal)) : FVec Ideal S128 .f32 := after ops V (main_v131 : DevRef τ sig)
abbrev val_main_v132 (V : Valuation τ sig (Elt Ideal)) : FVec Ideal S1x128 .f32 := after ops V (main_v132 : DevRef τ sig)
abbrev val_main_v133 (V : Valuation τ sig (Elt Ideal)) : FVec Ideal S100000x128 .f32 := after ops V (main_v133 : DevRef τ sig)
abbrev val_main_v134 (V : Valuation τ sig (Elt Ideal)) : FVec Ideal S100000x128 .f32 := after ops V (main_v134 : DevRef τ sig)
abbrev val_main_v135 (V : Valuation τ sig (Elt Ideal)) : FVec Ideal S1x128 .f32 := after ops V (main_v135 : DevRef τ sig)
abbrev val_main_v136 (V : Valuation τ sig (Elt Ideal)) : FVec Ideal S100000x128 .f32 := after ops V (main_v136 : DevRef τ sig)
abbrev val_main_v137 (V : Valuation τ sig (Elt Ideal)) : FVec Ideal S100000x128 .f32 := after ops V (main_v137 : DevRef τ sig)
abbrev val_main_cst_22 (V : Valuation τ sig (Elt Ideal)) : FVec Ideal S_ .f32 := after ops V (main_cst_22 : DevRef τ sig)
abbrev val_main_v138 (V : Valuation τ sig (Elt Ideal)) : FVec Ideal S128 .f32 := after ops V (main_v138 : DevRef τ sig)
abbrev val_main_v139 (V : Valuation τ sig (Elt Ideal)) : FVec Ideal S128 .f32 := after ops V (main_v139 : DevRef τ sig)
abbrev val_main_v140 (V : Valuation τ sig (Elt Ideal)) : FVec Ideal S128 .f32 := after ops V (main_v140 : DevRef τ sig)
abbrev val_main_v141 (V : Valuation τ sig (Elt Ideal)) : FVec Ideal S1x128 .f32 := after ops V (main_v141 : DevRef τ sig)
abbrev val_main_v142 (V : Valuation τ sig (Elt Ideal)) : FVec Ideal S100000x128 .f32 := after ops V (main_v142 : DevRef τ sig)
abbrev val_main_v143 (V : Valuation τ sig (Elt Ideal)) : FVec Ideal S100000x128 .f32 := after ops V (main_v143 : DevRef τ sig)
abbrev val_main_v144 (V : Valuation τ sig (Elt Ideal)) : FVec Ideal S1x128 .f32 := after ops V (main_v144 : DevRef τ sig)
abbrev val_main_v145 (V : Valuation τ sig (Elt Ideal)) : FVec Ideal S100000x128 .f32 := after ops V (main_v145 : DevRef τ sig)
abbrev val_main_v146 (V : Valuation τ sig (Elt Ideal)) : FVec Ideal S100000x128 .f32 := after ops V (main_v146 : DevRef τ sig)
abbrev val_main_call7_cst (V : Valuation τ sig (Elt Ideal)) : FVec Ideal S_ .f32 := after ops V (main_call7_cst : DevRef τ sig)
abbrev val_main_call7_v0 (V : Valuation τ sig (Elt Ideal)) : FVec Ideal S100000x128 .f32 := after ops V (main_call7_v0 : DevRef τ sig)
abbrev val_main_v147 (V : Valuation τ sig (Elt Ideal)) : FVec Ideal S100000x128 .f32 := after ops V (main_v147 : DevRef τ sig)
abbrev val_main_cst_23 (V : Valuation τ sig (Elt Ideal)) : FVec Ideal S_ .f32 := after ops V (main_cst_23 : DevRef τ sig)
abbrev val_main_v148 (V : Valuation τ sig (Elt Ideal)) : FVec Ideal S128 .f32 := after ops V (main_v148 : DevRef τ sig)
abbrev val_main_cst_24 (V : Valuation τ sig (Elt Ideal)) : FVec Ideal S_ .f32 := after ops V (main_cst_24 : DevRef τ sig)
abbrev val_main_v149 (V : Valuation τ sig (Elt Ideal)) : FVec Ideal S128 .f32 := after ops V (main_v149 : DevRef τ sig)
abbrev val_main_v150 (V : Valuation τ sig (Elt Ideal)) : FVec Ideal S128 .f32 := after ops V (main_v150 : DevRef τ sig)
abbrev val_main_c_25 (V : Valuation τ sig (Elt Ideal)) : IVec S_ 32 := after ops V (main_c_25 : DevRef τ sig)
abbrev val_main_call8_cst (V : Valuation τ sig (Elt Ideal)) : FVec Ideal S_ .f32 := after ops V (main_call8_cst : DevRef τ sig)
abbrev val_main_call8_v0 (V : Valuation τ sig (Elt Ideal)) : FVec Ideal S128 .f32 := after ops V (main_call8_v0 : DevRef τ sig)
abbrev val_main_call8_v1 (V : Valuation τ sig (Elt Ideal)) : FVec Ideal S1x128 .f32 := after ops V (main_call8_v1 : DevRef τ sig)
abbrev val_main_call8_cst_0 (V : Valuation τ sig (Elt Ideal)) : FVec Ideal S_ .f32 := after ops V (main_call8_cst_0 : DevRef τ sig)
abbrev val_main_call8_v2 (V : Valuation τ sig (Elt Ideal)) : FVec Ideal S1x128 .f32 := after ops V (main_call8_v2 : DevRef τ sig)
abbrev val_main_call8_v3 (V : Valuation τ sig (Elt Ideal)) : FVec Ideal S1x128 .f32 := after ops V (main_call8_v3 : DevRef τ sig)
abbrev val_main_call8_v4 (V : Valuation τ sig (Elt Ideal)) : FVec Ideal S100000x128 .f32 := after ops V (main_call8_v4 : DevRef τ sig)
abbrev val_main_call8_v5 (V : Valuation τ sig (Elt Ideal)) : FVec Ideal S100000x128 .f32 := after ops V (main_call8_v5 : DevRef τ sig)
abbrev val_main_call8_v6 (V : Valuation τ sig (Elt Ideal)) : FVec Ideal S100000x128 .f32 := after ops V (main_call8_v6 : DevRef τ sig)
abbrev val_main_call8_v7 (V : Valuation τ sig (Elt Ideal)) : FVec Ideal S_ .f32 := after ops V (main_call8_v7 : DevRef τ sig)
abbrev val_main_call8_cst_1 (V : Valuation τ sig (Elt Ideal)) : FVec Ideal S_ .f32 := after ops V (main_call8_cst_1 : DevRef τ sig)
abbrev val_main_call8_v8 (V : Valuation τ sig (Elt Ideal)) : FVec Ideal S_ .f32 := after ops V (main_call8_v8 : DevRef τ sig)
abbrev val_main_call8_cst_2 (V : Valuation τ sig (Elt Ideal)) : FVec Ideal S_ .f32 := after ops V (main_call8_cst_2 : DevRef τ sig)
abbrev val_main_call8_v9 (V : Valuation τ sig (Elt Ideal)) : FVec Ideal S128 .f32 := after ops V (main_call8_v9 : DevRef τ sig)
abbrev val_main_call8_v10 (V : Valuation τ sig (Elt Ideal)) : FVec Ideal S128 .f32 := after ops V (main_call8_v10 : DevRef τ sig)
abbrev val_main_call8_v11 (V : Valuation τ sig (Elt Ideal)) : FVec Ideal S128 .f32 := after ops V (main_call8_v11 : DevRef τ sig)
abbrev val_main_call8_cst_3 (V : Valuation τ sig (Elt Ideal)) : FVec Ideal S_ .f32 := after ops V (main_call8_cst_3 : DevRef τ sig)
abbrev val_main_call8_v12 (V : Valuation τ sig (Elt Ideal)) : IVec S_ 1 := after ops V (main_call8_v12 : DevRef τ sig)
abbrev val_main_call8_cst_4 (V : Valuation τ sig (Elt Ideal)) : FVec Ideal S_ .f32 := after ops V (main_call8_cst_4 : DevRef τ sig)
abbrev val_main_call8_call0_v0 (V : Valuation τ sig (Elt Ideal)) : FVec Ideal S_ .f32 := after ops V (main_call8_call0_v0 : DevRef τ sig)
abbrev val_main_call8_call0_v1 (V : Valuation τ sig (Elt Ideal)) : FVec Ideal S128 .f32 := after ops V (main_call8_call0_v1 : DevRef τ sig)
abbrev val_main_v151 (V : Valuation τ sig (Elt Ideal)) : FVec Ideal S128 .f32 := after ops V (main_v151 : DevRef τ sig)
abbrev val_main_v152 (V : Valuation τ sig (Elt Ideal)) : FVec Ideal S1x128 .f32 := after ops V (main_v152 : DevRef τ sig)
abbrev val_main_v153 (V : Valuation τ sig (Elt Ideal)) : FVec Ideal S100000x128 .f32 := after ops V (main_v153 : DevRef τ sig)
abbrev val_main_v154 (V : Valuation τ sig (Elt Ideal)) : FVec Ideal S100000x128 .f32 := after ops V (main_v154 : DevRef τ sig)
abbrev val_main_v155 (V : Valuation τ sig (Elt Ideal)) : FVec Ideal S1x128 .f32 := after ops V (main_v155 : DevRef τ sig)
abbrev val_main_v156 (V : Valuation τ sig (Elt Ideal)) : FVec Ideal S100000x128 .f32 := after ops V (main_v156 : DevRef τ sig)
abbrev val_main_v157 (V : Valuation τ sig (Elt Ideal)) : FVec Ideal S100000x128 .f32 := after ops V (main_v157 : DevRef τ sig)
abbrev val_main_cst_26 (V : Valuation τ sig (Elt Ideal)) : FVec Ideal S_ .f32 := after ops V (main_cst_26 : DevRef τ sig)
abbrev val_main_v158 (V : Valuation τ sig (Elt Ideal)) : FVec Ideal S128 .f32 := after ops V (main_v158 : DevRef τ sig)
abbrev val_main_v159 (V : Valuation τ sig (Elt Ideal)) : FVec Ideal S128 .f32 := after ops V (main_v159 : DevRef τ sig)
abbrev val_main_v160 (V : Valuation τ sig (Elt Ideal)) : FVec Ideal S128 .f32 := after ops V (main_v160 : DevRef τ sig)
abbrev val_main_v161 (V : Valuation τ sig (Elt Ideal)) : FVec Ideal S1x128 .f32 := after ops V (main_v161 : DevRef τ sig)
abbrev val_main_v162 (V : Valuation τ sig (Elt Ideal)) : FVec Ideal S100000x128 .f32 := after ops V (main_v162 : DevRef τ sig)
abbrev val_main_v163 (V : Valuation τ sig (Elt Ideal)) : FVec Ideal S100000x128 .f32 := after ops V (main_v163 : DevRef τ sig)
abbrev val_main_v164 (V : Valuation τ sig (Elt Ideal)) : FVec Ideal S1x128 .f32 := after ops V (main_v164 : DevRef τ sig)
abbrev val_main_v165 (V : Valuation τ sig (Elt Ideal)) : FVec Ideal S100000x128 .f32 := after ops V (main_v165 : DevRef τ sig)
abbrev val_main_v166 (V : Valuation τ sig (Elt Ideal)) : FVec Ideal S100000x128 .f32 := after ops V (main_v166 : DevRef τ sig)
abbrev val_main_call9_cst (V : Valuation τ sig (Elt Ideal)) : FVec Ideal S_ .f32 := after ops V (main_call9_cst : DevRef τ sig)
abbrev val_main_call9_v0 (V : Valuation τ sig (Elt Ideal)) : FVec Ideal S100000x128 .f32 := after ops V (main_call9_v0 : DevRef τ sig)
abbrev val_main_v167 (V : Valuation τ sig (Elt Ideal)) : FVec Ideal S100000x128 .f32 := after ops V (main_v167 : DevRef τ sig)

theorem val_main_arg0_eq (V : Valuation τ sig (Elt Ideal)) : val_main_arg0 V = V (main_arg0 : DevRef τ sig) := arg_keep V (by decide)
theorem val_main_arg1_eq (V : Valuation τ sig (Elt Ideal)) : val_main_arg1 V = V (main_arg1 : DevRef τ sig) := arg_keep V (by decide)
theorem val_main_arg2_eq (V : Valuation τ sig (Elt Ideal)) : val_main_arg2 V = V (main_arg2 : DevRef τ sig) := arg_keep V (by decide)
theorem val_main_arg3_eq (V : Valuation τ sig (Elt Ideal)) : val_main_arg3 V = V (main_arg3 : DevRef τ sig) := arg_keep V (by decide)
theorem val_main_arg4_eq (V : Valuation τ sig (Elt Ideal)) : val_main_arg4 V = V (main_arg4 : DevRef τ sig) := arg_keep V (by decide)
theorem val_main_arg5_eq (V : Valuation τ sig (Elt Ideal)) : val_main_arg5 V = V (main_arg5 : DevRef τ sig) := arg_keep V (by decide)
theorem val_main_arg6_eq (V : Valuation τ sig (Elt Ideal)) : val_main_arg6 V = V (main_arg6 : DevRef τ sig) := arg_keep V (by decide)
theorem val_main_arg7_eq (V : Valuation τ sig (Elt Ideal)) : val_main_arg7 V = V (main_arg7 : DevRef τ sig) := arg_keep V (by decide)
theorem val_main_arg8_eq (V : Valuation τ sig (Elt Ideal)) : val_main_arg8 V = V (main_arg8 : DevRef τ sig) := arg_keep V (by decide)
theorem val_main_arg9_eq (V : Valuation τ sig (Elt Ideal)) : val_main_arg9 V = V (main_arg9 : DevRef τ sig) := arg_keep V (by decide)
theorem val_main_arg10_eq (V : Valuation τ sig (Elt Ideal)) : val_main_arg10 V = V (main_arg10 : DevRef τ sig) := arg_keep V (by decide)
theorem val_main_arg11_eq (V : Valuation τ sig (Elt Ideal)) : val_main_arg11 V = V (main_arg11 : DevRef τ sig) := arg_keep V (by decide)
theorem val_main_arg12_eq (V : Valuation τ sig (Elt Ideal)) : val_main_arg12 V = V (main_arg12 : DevRef τ sig) := arg_keep V (by decide)
theorem val_main_arg13_eq (V : Valuation τ sig (Elt Ideal)) : val_main_arg13 V = V (main_arg13 : DevRef τ sig) := arg_keep V (by decide)
theorem val_main_arg14_eq (V : Valuation τ sig (Elt Ideal)) : val_main_arg14 V = V (main_arg14 : DevRef τ sig) := arg_keep V (by decide)
theorem val_main_arg15_eq (V : Valuation τ sig (Elt Ideal)) : val_main_arg15 V = V (main_arg15 : DevRef τ sig) := arg_keep V (by decide)
theorem val_main_arg16_eq (V : Valuation τ sig (Elt Ideal)) : val_main_arg16 V = V (main_arg16 : DevRef τ sig) := arg_keep V (by decide)
theorem val_main_arg17_eq (V : Valuation τ sig (Elt Ideal)) : val_main_arg17 V = V (main_arg17 : DevRef τ sig) := arg_keep V (by decide)
theorem val_main_arg18_eq (V : Valuation τ sig (Elt Ideal)) : val_main_arg18 V = V (main_arg18 : DevRef τ sig) := arg_keep V (by decide)
theorem val_main_arg19_eq (V : Valuation τ sig (Elt Ideal)) : val_main_arg19 V = V (main_arg19 : DevRef τ sig) := arg_keep V (by decide)

end Cert.ReferenceIdeal.Hand

end
-- ==== Proof.Ref.ReadComb.lean ====
/-
  The reference's combination of the node features with the four neighbour aggregates, read at an index, at the
  extended reals: each hop's coefficient is one plus a row of the ε parameter, and the five products are summed left
  to right.  The aggregates (the four scatter-add results) are read as they stand.
-/
import proofs.«164503_j82721070121701_1_alg».proof.Proof.Ref.Steps
import proofs.«164503_j82721070121701_1_alg».proof.Proof.Ref.ReadLib
import proofs.«164503_j82721070121701_1_alg».proof.Proof.Ref.Vals
import Idealize.ShloMosaic.Lib.ValueIdx
import Idealize.ShloMosaic.Lib.Pipeline.Value
import Idealize.ShloMosaic.Lib.ValueLayout
import Idealize.ShloMosaic.Lib.IdealHost
import Idealize.ShloMosaic.Lib.KernelVsHost
import Idealize.ShloMosaic.PureOps.Ideal.Laws

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx
open scoped BigOperators

variable {α : Type}

/-- Row r of an R×n array, sliced out as a one-row matrix and reshaped to a vector, read at j, is the array at (r, j). -/
theorem slice_row_apply {R n : Nat} (r : Nat) (hr : r < R) (h : (⟨2, ![R, n]⟩ : Shape).Slices ![r, 0] ⟨2, ![1, n]⟩)
    (hc : (⟨2, ![1, n]⟩ : Shape).ShapeCasts ⟨1, ![n]⟩) (x : (⟨2, ![R, n]⟩ : Shape).Idx → α) (j : Fin n) :
    shapeCast ⟨1, ![n]⟩ (extractStridedSlice ⟨2, ![1, n]⟩ ![r, 0] x h) hc (ix1 j) = x (ix2 (⟨r, hr⟩ : Fin R) j) := by
  rw [shapeCast_apply _ hc (ix1 j) (ix2 (0 : Fin 1) j) ?_]
  · refine extractStridedSlice_apply _ x h _ _ ?_
    intro a
    match a with
    | ⟨0, _⟩ => show r = r + 0; omega
    | ⟨1, _⟩ => show j.val = 0 + j.val; omega
  · rw [Shape.rowMajor_val_two, Shape.rowMajor_val_one]
    show 0 * n + j.val = j.val
    omega

/-- The hop-0 coefficient at feature j: one plus row 0 of the ε parameter. -/
theorem val_main_v3_apply (V : Valuation τ sig (Elt Ideal)) (j : Fin 128) :
    val_main_v3 V (ix1 j) = Ideal.ofBits .f32 0x3F800000#32 + val_main_arg19 V (ix2 (0 : Fin 5) j) := by
  unfold val_main_v3 val_main_arg19
  rw [step_main_v3, step_main_v2, step_main_cst, step_main_v1, step_main_v0]
  read_idx
  rw [slice_row_apply 0 (by decide)]
  rfl

/-- The hop-1 coefficient at feature j: one plus row 1 of the ε parameter. -/
theorem val_main_v10_apply (V : Valuation τ sig (Elt Ideal)) (j : Fin 128) :
    val_main_v10 V (ix1 j) = Ideal.ofBits .f32 0x3F800000#32 + val_main_arg19 V (ix2 (1 : Fin 5) j) := by
  unfold val_main_v10 val_main_arg19
  rw [step_main_v10, step_main_v9, step_main_cst_0, step_main_v8, step_main_v7]
  read_idx
  rw [slice_row_apply 1 (by decide)]
  rfl

/-- The hop-2 coefficient at feature j: one plus row 2 of the ε parameter. -/
theorem val_main_v34_apply (V : Valuation τ sig (Elt Ideal)) (j : Fin 128) :
    val_main_v34 V (ix1 j) = Ideal.ofBits .f32 0x3F800000#32 + val_main_arg19 V (ix2 (2 : Fin 5) j) := by
  unfold val_main_v34 val_main_arg19
  rw [step_main_v34, step_main_v33, step_main_cst_3, step_main_v32, step_main_v31]
  read_idx
  rw [slice_row_apply 2 (by decide)]
  rfl

/-- The hop-3 coefficient at feature j: one plus row 3 of the ε parameter. -/
theorem val_main_v57_apply (V : Valuation τ sig (Elt Ideal)) (j : Fin 128) :
    val_main_v57 V (ix1 j) = Ideal.ofBits .f32 0x3F800000#32 + val_main_arg19 V (ix2 (3 : Fin 5) j) := by
  unfold val_main_v57 val_main_arg19
  rw [step_main_v57, step_main_v56, step_main_cst_7, step_main_v55, step_main_v54]
  read_idx
  rw [slice_row_apply 3 (by decide)]
  rfl

/-- The hop-4 coefficient at feature j: one plus row 4 of the ε parameter. -/
theorem val_main_v80_apply (V : Valuation τ sig (Elt Ideal)) (j : Fin 128) :
    val_main_v80 V (ix1 j) = Ideal.ofBits .f32 0x3F800000#32 + val_main_arg19 V (ix2 (4 : Fin 5) j) := by
  unfold val_main_v80 val_main_arg19
  rw [step_main_v80, step_main_v79, step_main_cst_11, step_main_v78, step_main_v77]
  read_idx
  rw [slice_row_apply 4 (by decide)]
  rfl

/-- The combination at (p, j): the five products, summed left to right. -/
theorem val_main_v99_apply (V : Valuation τ sig (Elt Ideal)) (p : Fin 100000) (j : Fin 128) :
    val_main_v99 V (ix2 p j)
      = ((((val_main_v3 V (ix1 j) * val_main_arg0 V (ix2 p j)
          + val_main_v10 V (ix1 j) * val_main_v26 V (ix2 p j))
          + val_main_v34 V (ix1 j) * val_main_v49 V (ix2 p j))
          + val_main_v57 V (ix1 j) * val_main_v72 V (ix2 p j))
          + val_main_v80 V (ix1 j) * val_main_v95 V (ix2 p j)) := by
  unfold val_main_v99 val_main_v3 val_main_v10 val_main_v34 val_main_v57 val_main_v80 val_main_arg0 val_main_v26 val_main_v49 val_main_v72 val_main_v95
  rw [step_main_v99, step_main_v76, step_main_v53, step_main_v30, step_main_v6, step_main_v5, step_main_v4, step_main_v29, step_main_v28, step_main_v27, step_main_v52, step_main_v51, step_main_v50, step_main_v75, step_main_v74, step_main_v73, step_main_v98, step_main_v97, step_main_v96]
  read_idx
  try rfl

end Cert.ReferenceIdeal.Hand

end
-- ==== Proof.Ref.ReadL1.lean ====
/-
  The reference's first dense layer read at an index, at the extended reals: the linear map, the batch mean, the
  two-pass variance, the normalisation and the clamp, each from the values of the stage before.
-/
import proofs.«164503_j82721070121701_1_alg».proof.Proof.Ref.Steps
import proofs.«164503_j82721070121701_1_alg».proof.Proof.Ref.ReadLib
import proofs.«164503_j82721070121701_1_alg».proof.Proof.Ref.Vals
import Idealize.ShloMosaic.Lib.ValueIdx
import Idealize.ShloMosaic.Lib.Pipeline.Value
import Idealize.ShloMosaic.Lib.ValueLayout
import Idealize.ShloMosaic.Lib.IdealHost
import Idealize.ShloMosaic.Lib.KernelVsHost
import Idealize.ShloMosaic.PureOps.Ideal.Laws

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx
open scoped BigOperators

/-- Layer 1, the linear map: row i of the input against column j of the weights, plus the bias at j. -/
theorem val_main_v103_apply (V : Valuation τ sig (Elt Ideal)) (i : Fin 100000) (j : Fin 256) :
    val_main_v103 V (ix2 i j)
      = (∑ k : Fin 128, val_main_v99 V (ix2 i k) * val_main_arg9 V (ix2 k j)) + val_main_arg10 V (ix1 j) := by
  unfold val_main_v103 val_main_v99 val_main_arg9 val_main_arg10
  rw [step_main_v103, step_main_v102, step_main_v101, step_main_v100]
  read_idx
  try rfl

/-- Layer 1, the batch mean of column j: the column's sum over the 100000 rows divided by the literal 100000. -/
theorem val_main_v106_apply (V : Valuation τ sig (Elt Ideal)) (j : Fin 256) :
    val_main_v106 V (ix1 j)
      = Ideal.div (Ideal.ofBits .f32 0x00000000#32 + ∑ i : Fin 100000, val_main_v103 V (ix2 i j)) (Ideal.ofBits .f32 0x47C35000#32) := by
  unfold val_main_v106 val_main_v103
  rw [step_main_v106, step_main_v105, step_main_cst_16, step_main_v104, step_main_cst_15]
  read_idx
  try rfl

/-- Layer 1, the deviation from the mean inside the variance (the mean computed there a second time). -/
theorem val_main_call4_v5_apply (V : Valuation τ sig (Elt Ideal)) (i : Fin 100000) (j : Fin 256) :
    val_main_call4_v5 V (ix2 i j)
      = val_main_v103 V (ix2 i j) - Ideal.div (Ideal.ofBits .f32 0x00000000#32 + ∑ i' : Fin 100000, val_main_v103 V (ix2 i' j)) (Ideal.ofBits .f32 0x47C35000#32) := by
  unfold val_main_call4_v5 val_main_v103
  rw [step_main_call4_v5, step_main_call4_v4, step_main_call4_v3, step_main_call4_v2, step_main_call4_cst_0, step_main_call4_v1, step_main_call4_v0, step_main_call4_cst]
  read_idx
  try rfl

/-- Layer 1, the two-pass variance of column j: the sum of squared deviations over the count minus the
    degrees of freedom (the literal 100000 minus the integer 0 converted), selected when that divisor is positive and
    the literal quiet NaN pattern otherwise. -/
theorem val_main_v107_apply (V : Valuation τ sig (Elt Ideal)) (j : Fin 256) :
    val_main_v107 V (ix1 j)
      = Scalar.select (FloatOps.cmpf .ogt (Ideal.ofBits .f32 0x47C35000#32 - (FloatOps.sitofp .f32 (0#32 : BitVec 32) : Ideal .f32)) (Ideal.ofBits .f32 0x00000000#32))
          (Ideal.div (Ideal.ofBits .f32 0x00000000#32 + ∑ i : Fin 100000, val_main_call4_v5 V (ix2 i j) * val_main_call4_v5 V (ix2 i j))
            (Ideal.ofBits .f32 0x47C35000#32 - (FloatOps.sitofp .f32 (0#32 : BitVec 32) : Ideal .f32)))
          (Ideal.ofBits .f32 0x7FC00000#32) := by
  unfold val_main_v107 val_main_call4_v5
  rw [step_main_v107, step_main_call4_call0_v1, step_main_call4_call0_v0, step_main_call4_cst_4, step_main_call4_v12, step_main_call4_cst_3, step_main_call4_v11, step_main_call4_v10, step_main_call4_v9, step_main_call4_cst_2, step_main_call4_v8, step_main_call4_cst_1, step_main_call4_v7, step_main_c_17, step_main_call4_v6]
  read_idx
  try rfl

/-- Layer 1, the normalisation: scale at j times the deviation from the mean times the reciprocal square root
    of variance plus the literal ε, plus the shift at j. -/
theorem val_main_v122_apply (V : Valuation τ sig (Elt Ideal)) (i : Fin 100000) (j : Fin 256) :
    val_main_v122 V (ix2 i j)
      = val_main_arg11 V (ix1 j) * (val_main_v103 V (ix2 i j) - val_main_v106 V (ix1 j))
          * Ideal.rsqrt (val_main_v107 V (ix1 j) + Ideal.ofBits .f32 0x3727C5AC#32) + val_main_arg12 V (ix1 j) := by
  unfold val_main_v122 val_main_arg11 val_main_v103 val_main_v106 val_main_v107 val_main_arg12
  rw [step_main_v122, step_main_v121, step_main_v120, step_main_v119, step_main_v118, step_main_v117, step_main_v116, step_main_v115, step_main_v114, step_main_cst_18, step_main_v113, step_main_v112, step_main_v111, step_main_v110, step_main_v109, step_main_v108]
  read_idx
  try rfl

/-- Layer 1, the clamp at zero. -/
theorem val_main_v123_apply (V : Valuation τ sig (Elt Ideal)) (i : Fin 100000) (j : Fin 256) :
    val_main_v123 V (ix2 i j) = max (val_main_v122 V (ix2 i j)) (Ideal.ofBits .f32 0x00000000#32) := by
  unfold val_main_v123 val_main_v122
  rw [step_main_v123, step_main_call5_v0, step_main_call5_cst]
  read_idx
  try rfl

end Cert.ReferenceIdeal.Hand

end
-- ==== Proof.Ref.ReadL2.lean ====
/-
  The reference's second dense layer read at an index, at the extended reals: the linear map, the batch mean, the
  two-pass variance, the normalisation and the clamp, each from the values of the stage before.
-/
import proofs.«164503_j82721070121701_1_alg».proof.Proof.Ref.Steps
import proofs.«164503_j82721070121701_1_alg».proof.Proof.Ref.ReadLib
import proofs.«164503_j82721070121701_1_alg».proof.Proof.Ref.Vals
import Idealize.ShloMosaic.Lib.ValueIdx
import Idealize.ShloMosaic.Lib.Pipeline.Value
import Idealize.ShloMosaic.Lib.ValueLayout
import Idealize.ShloMosaic.Lib.IdealHost
import Idealize.ShloMosaic.Lib.KernelVsHost
import Idealize.ShloMosaic.PureOps.Ideal.Laws

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx
open scoped BigOperators

/-- Layer 2, the linear map: row i of the input against column j of the weights, plus the bias at j. -/
theorem val_main_v127_apply (V : Valuation τ sig (Elt Ideal)) (i : Fin 100000) (j : Fin 128) :
    val_main_v127 V (ix2 i j)
      = (∑ k : Fin 256, val_main_v123 V (ix2 i k) * val_main_arg13 V (ix2 k j)) + val_main_arg14 V (ix1 j) := by
  unfold val_main_v127 val_main_v123 val_main_arg13 val_main_arg14
  rw [step_main_v127, step_main_v126, step_main_v125, step_main_v124]
  read_idx
  try rfl

/-- Layer 2, the batch mean of column j: the column's sum over the 100000 rows divided by the literal 100000. -/
theorem val_main_v130_apply (V : Valuation τ sig (Elt Ideal)) (j : Fin 128) :
    val_main_v130 V (ix1 j)
      = Ideal.div (Ideal.ofBits .f32 0x00000000#32 + ∑ i : Fin 100000, val_main_v127 V (ix2 i j)) (Ideal.ofBits .f32 0x47C35000#32) := by
  unfold val_main_v130 val_main_v127
  rw [step_main_v130, step_main_v129, step_main_cst_20, step_main_v128, step_main_cst_19]
  read_idx
  try rfl

/-- Layer 2, the deviation from the mean inside the variance (the mean computed there a second time). -/
theorem val_main_call6_v5_apply (V : Valuation τ sig (Elt Ideal)) (i : Fin 100000) (j : Fin 128) :
    val_main_call6_v5 V (ix2 i j)
      = val_main_v127 V (ix2 i j) - Ideal.div (Ideal.ofBits .f32 0x00000000#32 + ∑ i' : Fin 100000, val_main_v127 V (ix2 i' j)) (Ideal.ofBits .f32 0x47C35000#32) := by
  unfold val_main_call6_v5 val_main_v127
  rw [step_main_call6_v5, step_main_call6_v4, step_main_call6_v3, step_main_call6_v2, step_main_call6_cst_0, step_main_call6_v1, step_main_call6_v0, step_main_call6_cst]
  read_idx
  try rfl

/-- Layer 2, the two-pass variance of column j: the sum of squared deviations over the count minus the
    degrees of freedom (the literal 100000 minus the integer 0 converted), selected when that divisor is positive and
    the literal quiet NaN pattern otherwise. -/
theorem val_main_v131_apply (V : Valuation τ sig (Elt Ideal)) (j : Fin 128) :
    val_main_v131 V (ix1 j)
      = Scalar.select (FloatOps.cmpf .ogt (Ideal.ofBits .f32 0x47C35000#32 - (FloatOps.sitofp .f32 (0#32 : BitVec 32) : Ideal .f32)) (Ideal.ofBits .f32 0x00000000#32))
          (Ideal.div (Ideal.ofBits .f32 0x00000000#32 + ∑ i : Fin 100000, val_main_call6_v5 V (ix2 i j) * val_main_call6_v5 V (ix2 i j))
            (Ideal.ofBits .f32 0x47C35000#32 - (FloatOps.sitofp .f32 (0#32 : BitVec 32) : Ideal .f32)))
          (Ideal.ofBits .f32 0x7FC00000#32) := by
  unfold val_main_v131 val_main_call6_v5
  rw [step_main_v131, step_main_call6_call0_v1, step_main_call6_call0_v0, step_main_call6_cst_4, step_main_call6_v12, step_main_call6_cst_3, step_main_call6_v11, step_main_call6_v10, step_main_call6_v9, step_main_call6_cst_2, step_main_call6_v8, step_main_call6_cst_1, step_main_call6_v7, step_main_c_21, step_main_call6_v6]
  read_idx
  try rfl

/-- Layer 2, the normalisation: scale at j times the deviation from the mean times the reciprocal square root
    of variance plus the literal ε, plus the shift at j. -/
theorem val_main_v146_apply (V : Valuation τ sig (Elt Ideal)) (i : Fin 100000) (j : Fin 128) :
    val_main_v146 V (ix2 i j)
      = val_main_arg15 V (ix1 j) * (val_main_v127 V (ix2 i j) - val_main_v130 V (ix1 j))
          * Ideal.rsqrt (val_main_v131 V (ix1 j) + Ideal.ofBits .f32 0x3727C5AC#32) + val_main_arg16 V (ix1 j) := by
  unfold val_main_v146 val_main_arg15 val_main_v127 val_main_v130 val_main_v131 val_main_arg16
  rw [step_main_v146, step_main_v145, step_main_v144, step_main_v143, step_main_v142, step_main_v141, step_main_v140, step_main_v139, step_main_v138, step_main_cst_22, step_main_v137, step_main_v136, step_main_v135, step_main_v134, step_main_v133, step_main_v132]
  read_idx
  try rfl

/-- Layer 2, the clamp at zero. -/
theorem val_main_v147_apply (V : Valuation τ sig (Elt Ideal)) (i : Fin 100000) (j : Fin 128) :
    val_main_v147 V (ix2 i j) = max (val_main_v146 V (ix2 i j)) (Ideal.ofBits .f32 0x00000000#32) := by
  unfold val_main_v147 val_main_v146
  rw [step_main_v147, step_main_call7_v0, step_main_call7_cst]
  read_idx
  try rfl

end Cert.ReferenceIdeal.Hand

end
-- ==== Proof.Ref.ReadL3.lean ====
/-
  The reference's third normalisation read at an index, at the extended reals: the batch mean, the two-pass
  variance, the normalisation and the clamp of the second layer's output, each from the values of the stage before.
-/
import proofs.«164503_j82721070121701_1_alg».proof.Proof.Ref.Steps
import proofs.«164503_j82721070121701_1_alg».proof.Proof.Ref.ReadLib
import proofs.«164503_j82721070121701_1_alg».proof.Proof.Ref.Vals
import Idealize.ShloMosaic.Lib.ValueIdx
import Idealize.ShloMosaic.Lib.Pipeline.Value
import Idealize.ShloMosaic.Lib.ValueLayout
import Idealize.ShloMosaic.Lib.IdealHost
import Idealize.ShloMosaic.Lib.KernelVsHost
import Idealize.ShloMosaic.PureOps.Ideal.Laws

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx
open scoped BigOperators

/-- Layer 3, the batch mean of column j: the column's sum over the 100000 rows divided by the literal 100000. -/
theorem val_main_v150_apply (V : Valuation τ sig (Elt Ideal)) (j : Fin 128) :
    val_main_v150 V (ix1 j)
      = Ideal.div (Ideal.ofBits .f32 0x00000000#32 + ∑ i : Fin 100000, val_main_v147 V (ix2 i j)) (Ideal.ofBits .f32 0x47C35000#32) := by
  unfold val_main_v150 val_main_v147
  rw [step_main_v150, step_main_v149, step_main_cst_24, step_main_v148, step_main_cst_23]
  read_idx
  try rfl

/-- Layer 3, the deviation from the mean inside the variance (the mean computed there a second time). -/
theorem val_main_call8_v5_apply (V : Valuation τ sig (Elt Ideal)) (i : Fin 100000) (j : Fin 128) :
    val_main_call8_v5 V (ix2 i j)
      = val_main_v147 V (ix2 i j) - Ideal.div (Ideal.ofBits .f32 0x00000000#32 + ∑ i' : Fin 100000, val_main_v147 V (ix2 i' j)) (Ideal.ofBits .f32 0x47C35000#32) := by
  unfold val_main_call8_v5 val_main_v147
  rw [step_main_call8_v5, step_main_call8_v4, step_main_call8_v3, step_main_call8_v2, step_main_call8_cst_0, step_main_call8_v1, step_main_call8_v0, step_main_call8_cst]
  read_idx
  try rfl

/-- Layer 3, the two-pass variance of column j: the sum of squared deviations over the count minus the
    degrees of freedom (the literal 100000 minus the integer 0 converted), selected when that divisor is positive and
    the literal quiet NaN pattern otherwise. -/
theorem val_main_v151_apply (V : Valuation τ sig (Elt Ideal)) (j : Fin 128) :
    val_main_v151 V (ix1 j)
      = Scalar.select (FloatOps.cmpf .ogt (Ideal.ofBits .f32 0x47C35000#32 - (FloatOps.sitofp .f32 (0#32 : BitVec 32) : Ideal .f32)) (Ideal.ofBits .f32 0x00000000#32))
          (Ideal.div (Ideal.ofBits .f32 0x00000000#32 + ∑ i : Fin 100000, val_main_call8_v5 V (ix2 i j) * val_main_call8_v5 V (ix2 i j))
            (Ideal.ofBits .f32 0x47C35000#32 - (FloatOps.sitofp .f32 (0#32 : BitVec 32) : Ideal .f32)))
          (Ideal.ofBits .f32 0x7FC00000#32) := by
  unfold val_main_v151 val_main_call8_v5
  rw [step_main_v151, step_main_call8_call0_v1, step_main_call8_call0_v0, step_main_call8_cst_4, step_main_call8_v12, step_main_call8_cst_3, step_main_call8_v11, step_main_call8_v10, step_main_call8_v9, step_main_call8_cst_2, step_main_call8_v8, step_main_call8_cst_1, step_main_call8_v7, step_main_c_25, step_main_call8_v6]
  read_idx
  try rfl

/-- Layer 3, the normalisation: scale at j times the deviation from the mean times the reciprocal square root
    of variance plus the literal ε, plus the shift at j. -/
theorem val_main_v166_apply (V : Valuation τ sig (Elt Ideal)) (i : Fin 100000) (j : Fin 128) :
    val_main_v166 V (ix2 i j)
      = val_main_arg17 V (ix1 j) * (val_main_v147 V (ix2 i j) - val_main_v150 V (ix1 j))
          * Ideal.rsqrt (val_main_v151 V (ix1 j) + Ideal.ofBits .f32 0x3727C5AC#32) + val_main_arg18 V (ix1 j) := by
  unfold val_main_v166 val_main_arg17 val_main_v147 val_main_v150 val_main_v151 val_main_arg18
  rw [step_main_v166, step_main_v165, step_main_v164, step_main_v163, step_main_v162, step_main_v161, step_main_v160, step_main_v159, step_main_v158, step_main_cst_26, step_main_v157, step_main_v156, step_main_v155, step_main_v154, step_main_v153, step_main_v152]
  read_idx
  try rfl

/-- Layer 3, the clamp at zero. -/
theorem val_main_v167_apply (V : Valuation τ sig (Elt Ideal)) (i : Fin 100000) (j : Fin 128) :
    val_main_v167 V (ix2 i j) = max (val_main_v166 V (ix2 i j)) (Ideal.ofBits .f32 0x00000000#32) := by
  unfold val_main_v167 val_main_v166
  rw [step_main_v167, step_main_call9_v0, step_main_call9_cst]
  read_idx
  try rfl

end Cert.ReferenceIdeal.Hand

end
-- ==== Proof.Consts.lean ====
/-
  The float words the two programs spell, as the extended reals they denote at the exact instance: the row count
  100000.0, the unit 1.0, and the variance floor 1e-5 (as an f32: the dyadic 10995116 / 2^40), which is a positive real.
-/
import Idealize.ShloMosaic.PureOps.Ideal

noncomputable section

namespace Cert.Consts

open Idealize.ShloMosaic

/-- The row count `100000.0` denotes the real `100000`. -/
theorem ofBits_N : Ideal.ofBits .f32 0x47C35000#32 = ((100000 : ℝ) : EReal) := by
  simp [Ideal.ofBits, Ideal.ieee, -EReal.coe_mul]; norm_num

/-- `1.0` denotes `1`. -/
theorem ofBits_one : Ideal.ofBits .f32 0x3F800000#32 = ((1 : ℝ) : EReal) := by
  simp [Ideal.ofBits, Ideal.ieee, -EReal.coe_mul]; norm_num

/-- The variance floor denotes a positive real. -/
theorem ofBits_eps : ∃ e : ℝ, 0 < e ∧ Ideal.ofBits .f32 0x3727C5AC#32 = (e : EReal) := by
  refine ⟨(10995116 : ℝ) / 2 ^ 40, by positivity, ?_⟩
  simp [Ideal.ofBits, Ideal.ieee, -EReal.coe_mul]; norm_num

end Cert.Consts

end
-- ==== Proof.Ref.Value.lean ====
/-
  The reference's result as the block's mathematics.  From any contents V the result buffer after the line, at row
  p and feature j, is the two-pass stack  lin → norm → lin → norm → norm  of the combined features: the combination
  is read off the arguments and the four neighbour aggregates (left as the scatter-add buffers hold them); a column
  sum's zero initial word adds nothing; the variance's guard compares the constant 100000 − 0 with 0, which holds, so
  the guarded quotient is the quotient.
-/
import proofs.«164503_j82721070121701_1_alg».proof.Proof.Ref.Steps
import proofs.«164503_j82721070121701_1_alg».proof.Proof.Ref.ReadLib
import proofs.«164503_j82721070121701_1_alg».proof.Proof.Ref.Vals
import proofs.«164503_j82721070121701_1_alg».proof.Proof.Ref.ReadComb
import proofs.«164503_j82721070121701_1_alg».proof.Proof.Ref.ReadL1
import proofs.«164503_j82721070121701_1_alg».proof.Proof.Ref.ReadL2
import proofs.«164503_j82721070121701_1_alg».proof.Proof.Ref.ReadL3
import proofs.«164503_j82721070121701_1_alg».proof.Proof.Spec
import proofs.«164503_j82721070121701_1_alg».proof.Proof.Consts
import Idealize.ShloMosaic.Lib.ValueIdx
import Idealize.ShloMosaic.Lib.Pipeline.Value
import Idealize.ShloMosaic.Lib.ValueLayout
import Idealize.ShloMosaic.Lib.IdealHost
import Idealize.ShloMosaic.Lib.KernelVsHost
import Idealize.ShloMosaic.PureOps.Ideal.Laws

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx
open scoped BigOperators

/-- The row count, the variance floor and the unit, as the words the program spells. -/
abbrev Nw : EReal := Ideal.ofBits .f32 0x47C35000#32
abbrev EPSw : EReal := Ideal.ofBits .f32 0x3727C5AC#32
abbrev ONEw : EReal := Ideal.ofBits .f32 0x3F800000#32

/-- The node features, the four neighbour aggregates and the ε parameter, as arrays of extended reals. -/
def rX0 (V : Valuation τ sig (Elt Ideal)) : Fin 100000 → Fin 128 → EReal := fun p j => V (main_arg0 : DevRef τ sig) (ix2 p j)
def rP0 (V : Valuation τ sig (Elt Ideal)) : Fin 100000 → Fin 128 → EReal := fun p j => after ops V (main_v26 : DevRef τ sig) (ix2 p j)
def rP1 (V : Valuation τ sig (Elt Ideal)) : Fin 100000 → Fin 128 → EReal := fun p j => after ops V (main_v49 : DevRef τ sig) (ix2 p j)
def rP2 (V : Valuation τ sig (Elt Ideal)) : Fin 100000 → Fin 128 → EReal := fun p j => after ops V (main_v72 : DevRef τ sig) (ix2 p j)
def rP3 (V : Valuation τ sig (Elt Ideal)) : Fin 100000 → Fin 128 → EReal := fun p j => after ops V (main_v95 : DevRef τ sig) (ix2 p j)
def rEps (V : Valuation τ sig (Elt Ideal)) : Fin 5 → Fin 128 → EReal := fun s j => V (main_arg19 : DevRef τ sig) (ix2 s j)

/-- The combined features: the five products summed left to right. -/
def rRes (V : Valuation τ sig (Elt Ideal)) : Fin 100000 → Fin 128 → EReal := fun p j =>
  ((((ONEw + rEps V 0 j) * rX0 V p j + (ONEw + rEps V 1 j) * rP0 V p j) + (ONEw + rEps V 2 j) * rP1 V p j)
    + (ONEw + rEps V 3 j) * rP2 V p j) + (ONEw + rEps V 4 j) * rP3 V p j

/-- The first layer's weights. -/
def rW1 (V : Valuation τ sig (Elt Ideal)) : Fin 128 → Fin 256 → EReal := fun k j => V (main_arg9 : DevRef τ sig) (ix2 k j)
/-- The first layer's bias. -/
def rb1 (V : Valuation τ sig (Elt Ideal)) : Fin 256 → EReal := fun j => V (main_arg10 : DevRef τ sig) (ix1 j)
/-- The first normalisation's scale. -/
def rg1 (V : Valuation τ sig (Elt Ideal)) : Fin 256 → EReal := fun j => V (main_arg11 : DevRef τ sig) (ix1 j)
/-- The first normalisation's shift. -/
def rβ1 (V : Valuation τ sig (Elt Ideal)) : Fin 256 → EReal := fun j => V (main_arg12 : DevRef τ sig) (ix1 j)
/-- The second layer's weights. -/
def rW2 (V : Valuation τ sig (Elt Ideal)) : Fin 256 → Fin 128 → EReal := fun k j => V (main_arg13 : DevRef τ sig) (ix2 k j)
/-- The second layer's bias. -/
def rb2 (V : Valuation τ sig (Elt Ideal)) : Fin 128 → EReal := fun j => V (main_arg14 : DevRef τ sig) (ix1 j)
/-- The second normalisation's scale. -/
def rg2 (V : Valuation τ sig (Elt Ideal)) : Fin 128 → EReal := fun j => V (main_arg15 : DevRef τ sig) (ix1 j)
/-- The second normalisation's shift. -/
def rβ2 (V : Valuation τ sig (Elt Ideal)) : Fin 128 → EReal := fun j => V (main_arg16 : DevRef τ sig) (ix1 j)
/-- The third normalisation's scale. -/
def rg3 (V : Valuation τ sig (Elt Ideal)) : Fin 128 → EReal := fun j => V (main_arg17 : DevRef τ sig) (ix1 j)
/-- The third normalisation's shift. -/
def rβ3 (V : Valuation τ sig (Elt Ideal)) : Fin 128 → EReal := fun j => V (main_arg18 : DevRef τ sig) (ix1 j)

/-- The combination is `rRes`. -/
theorem res_apply (V : Valuation τ sig (Elt Ideal)) (p : Fin 100000) (j : Fin 128) : val_main_v99 V (ix2 p j) = rRes V p j := by
  rw [val_main_v99_apply, val_main_v3_apply, val_main_v10_apply, val_main_v34_apply, val_main_v57_apply, val_main_v80_apply,
    val_main_arg19_eq, val_main_arg0_eq]
  rfl

/-! ## The constant words of the variance's guard -/

theorem sitofp_zero : (FloatOps.sitofp .f32 (0#32 : BitVec 32) : Ideal .f32) = 0 := by
  show (((0#32 : BitVec 32).toInt : ℝ) : EReal) = 0
  simp

theorem Nw_sub : Nw - (FloatOps.sitofp .f32 (0#32 : BitVec 32) : Ideal .f32) = Nw := by
  rw [sitofp_zero]; exact sub_zero _

theorem guard_holds : FloatOps.cmpf .ogt Nw (Ideal.ofBits .f32 0x00000000#32) = 1#1 := by
  show Ideal.cmp .ogt Nw (Ideal.ofBits .f32 0x00000000#32) = 1#1
  have h : (0 : EReal) < ((100000 : ℝ) : EReal) := by exact_mod_cast (by norm_num : (0 : ℝ) < 100000)
  unfold Nw
  rw [Ideal.ofBits_zero_f32, Cert.Consts.ofBits_N]
  simp [Ideal.cmp, h]

/-! ## One normalisation layer -/

/-- A layer read stage by stage — its mean, the deviation inside its variance, the guarded variance, the normalised
    value and the clamp — is the block's `norm` with the two-pass variance. -/
theorem layer_norm {D : ℕ} (h c out relu : Fin 100000 → Fin D → EReal) (m v g β : Fin D → EReal)
    (hm : ∀ j, m j = Ideal.div (Ideal.ofBits .f32 0x00000000#32 + ∑ p : Fin 100000, h p j) Nw)
    (hc : ∀ p j, c p j = h p j - Ideal.div (Ideal.ofBits .f32 0x00000000#32 + ∑ p' : Fin 100000, h p' j) Nw)
    (hv : ∀ j, v j = Scalar.select (FloatOps.cmpf .ogt (Nw - (FloatOps.sitofp .f32 (0#32 : BitVec 32) : Ideal .f32)) (Ideal.ofBits .f32 0x00000000#32))
        (Ideal.div (Ideal.ofBits .f32 0x00000000#32 + ∑ p : Fin 100000, c p j * c p j) (Nw - (FloatOps.sitofp .f32 (0#32 : BitVec 32) : Ideal .f32))) (Ideal.ofBits .f32 0x7FC00000#32))
    (ho : ∀ p j, out p j = g j * (h p j - m j) * Ideal.rsqrt (v j + EPSw) + β j)
    (hr : ∀ p j, relu p j = max (out p j) (Ideal.ofBits .f32 0x00000000#32)) :
    relu = Cert.Spec.norm Nw EPSw h (Cert.Spec.var2 Nw h) g β := by
  have hm' : ∀ j, m j = Cert.Spec.mean Nw h j := fun j => by
    rw [hm j, Ideal.ofBits_zero_f32, zero_add]; rfl
  have hc' : ∀ p j, c p j = h p j - Cert.Spec.mean Nw h j := fun p j => by
    rw [hc p j, Ideal.ofBits_zero_f32, zero_add]; rfl
  have hv' : ∀ j, v j = Cert.Spec.var2 Nw h j := fun j => by
    rw [hv j, Nw_sub, guard_holds, select_one, Ideal.ofBits_zero_f32, zero_add]
    simp only [hc']
    rfl
  funext p j
  rw [hr p j, ho p j, hm' j, hv' j, Ideal.ofBits_zero_f32]
  rfl

/-! ## The stack -/

/-- The first linear map's output. -/
theorem h1_apply (V : Valuation τ sig (Elt Ideal)) (p : Fin 100000) (j : Fin 256) :
    val_main_v103 V (ix2 p j) = Cert.Spec.lin (rRes V) (rW1 V) (rb1 V) p j := by
  rw [val_main_v103_apply, val_main_arg9_eq, val_main_arg10_eq]
  show _ = (∑ k : Fin 128, rRes V p k * rW1 V k j) + rb1 V j
  refine congrArg₂ (· + ·) (Finset.sum_congr rfl fun k _ => ?_) rfl
  rw [res_apply]
  rfl

/-- The first layer's output. -/
theorem a1_eq (V : Valuation τ sig (Elt Ideal)) :
    (fun p j => val_main_v123 V (ix2 p j))
      = Cert.Spec.norm Nw EPSw (Cert.Spec.lin (rRes V) (rW1 V) (rb1 V)) (Cert.Spec.var2 Nw (Cert.Spec.lin (rRes V) (rW1 V) (rb1 V))) (rg1 V) (rβ1 V) := by
  have hh : (fun p j => val_main_v103 V (ix2 p j)) = Cert.Spec.lin (rRes V) (rW1 V) (rb1 V) := by
    funext p j; exact h1_apply V p j
  rw [← hh]
  exact layer_norm (fun p j => val_main_v103 V (ix2 p j)) (fun p j => val_main_call4_v5 V (ix2 p j))
    (fun p j => val_main_v122 V (ix2 p j)) (fun p j => val_main_v123 V (ix2 p j))
    (fun j => val_main_v106 V (ix1 j)) (fun j => val_main_v107 V (ix1 j)) (rg1 V) (rβ1 V)
    (val_main_v106_apply V) (val_main_call4_v5_apply V) (val_main_v107_apply V)
    (fun p j => by rw [val_main_v122_apply, val_main_arg11_eq, val_main_arg12_eq]; rfl) (val_main_v123_apply V)

/-- The second linear map's output. -/
theorem h2_apply (V : Valuation τ sig (Elt Ideal)) (p : Fin 100000) (j : Fin 128) :
    val_main_v127 V (ix2 p j)
      = Cert.Spec.lin (Cert.Spec.norm Nw EPSw (Cert.Spec.lin (rRes V) (rW1 V) (rb1 V)) (Cert.Spec.var2 Nw (Cert.Spec.lin (rRes V) (rW1 V) (rb1 V))) (rg1 V) (rβ1 V))
          (rW2 V) (rb2 V) p j := by
  rw [val_main_v127_apply, val_main_arg13_eq, val_main_arg14_eq, ← a1_eq V]
  rfl

/-- The second layer's output. -/
theorem a2_eq (V : Valuation τ sig (Elt Ideal)) :
    (fun p j => val_main_v147 V (ix2 p j))
      = (let h₁ := Cert.Spec.lin (rRes V) (rW1 V) (rb1 V)
         let a₁ := Cert.Spec.norm Nw EPSw h₁ (Cert.Spec.var2 Nw h₁) (rg1 V) (rβ1 V)
         let h₂ := Cert.Spec.lin a₁ (rW2 V) (rb2 V)
         Cert.Spec.norm Nw EPSw h₂ (Cert.Spec.var2 Nw h₂) (rg2 V) (rβ2 V)) := by
  have hh : (fun p j => val_main_v127 V (ix2 p j))
      = Cert.Spec.lin (Cert.Spec.norm Nw EPSw (Cert.Spec.lin (rRes V) (rW1 V) (rb1 V)) (Cert.Spec.var2 Nw (Cert.Spec.lin (rRes V) (rW1 V) (rb1 V))) (rg1 V) (rβ1 V)) (rW2 V) (rb2 V) := by
    funext p j; exact h2_apply V p j
  show _ = Cert.Spec.norm Nw EPSw _ (Cert.Spec.var2 Nw _) (rg2 V) (rβ2 V)
  rw [← hh]
  exact layer_norm (fun p j => val_main_v127 V (ix2 p j)) (fun p j => val_main_call6_v5 V (ix2 p j))
    (fun p j => val_main_v146 V (ix2 p j)) (fun p j => val_main_v147 V (ix2 p j))
    (fun j => val_main_v130 V (ix1 j)) (fun j => val_main_v131 V (ix1 j)) (rg2 V) (rβ2 V)
    (val_main_v130_apply V) (val_main_call6_v5_apply V) (val_main_v131_apply V)
    (fun p j => by rw [val_main_v146_apply, val_main_arg15_eq, val_main_arg16_eq]; rfl) (val_main_v147_apply V)

/-- The reference's result is the two-pass stack of the combined features. -/
theorem ref_value (V : Valuation τ sig (Elt Ideal)) (p : Fin 100000) (j : Fin 128) :
    val_main_v167 V (ix2 p j)
      = Cert.Spec.refOut Nw EPSw (rRes V) (rW1 V) (rb1 V) (rg1 V) (rβ1 V) (rW2 V) (rb2 V) (rg2 V) (rβ2 V) (rg3 V) (rβ3 V) p j := by
  have h3 : (fun p j => val_main_v167 V (ix2 p j))
      = Cert.Spec.norm Nw EPSw (fun p j => val_main_v147 V (ix2 p j)) (Cert.Spec.var2 Nw (fun p j => val_main_v147 V (ix2 p j))) (rg3 V) (rβ3 V) :=
    layer_norm (fun p j => val_main_v147 V (ix2 p j)) (fun p j => val_main_call8_v5 V (ix2 p j))
      (fun p j => val_main_v166 V (ix2 p j)) (fun p j => val_main_v167 V (ix2 p j))
      (fun j => val_main_v150 V (ix1 j)) (fun j => val_main_v151 V (ix1 j)) (rg3 V) (rβ3 V)
      (val_main_v150_apply V) (val_main_call8_v5_apply V) (val_main_v151_apply V)
      (fun p j => by rw [val_main_v166_apply, val_main_arg17_eq, val_main_arg18_eq]; rfl) (val_main_v167_apply V)
  have := congrFun (congrFun h3 p) j
  rw [a2_eq V] at this
  exact this

end Cert.ReferenceIdeal.Hand

end
-- ==== Proof.Ref.Head.lean ====
/-
  The reference's four neighbour aggregates as one function of its arguments: each scatter-add result after the line
  is the aggregate `Cert.Head.propE` / `Cert.Head.prop` of the hop's feature table, its index table (and, on the first
  hop, the edge features) as launched — the same slice, reshape, negative-index select, gather, add, clamp and
  scatter-add, operation for operation.
-/
import proofs.«164503_j82721070121701_1_alg».proof.Proof.Ref.Steps
import proofs.«164503_j82721070121701_1_alg».proof.Proof.Head

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Hop 0's neighbour aggregate after the line is the aggregate of its arguments as launched. -/
theorem agg_main_v26 (V : Valuation τ sig (Elt F)) :
    after ops V (main_v26 : DevRef τ sig)
      = Cert.Head.propE (V (main_arg0 : DevRef τ sig)) (V (main_arg5 : DevRef τ sig)) (V (main_arg4 : DevRef τ sig)) := by
  rw [step_main_v26, step_main_v25, step_main_v24, step_main_cst_2, step_main_v23, step_main_v22, step_main_v21, step_main_call0_v0, step_main_call0_cst, step_main_v20, step_main_v19, step_main_v18, step_main_v17, step_main_v16, step_main_v15, step_main_c_1, step_main_v14, step_main_v13, step_main_c, step_main_v12, step_main_v11,
    arg_keep V (r := main_arg0) (by decide), arg_keep V (r := main_arg5) (by decide), arg_keep V (r := main_arg4) (by decide)]
  rfl

/-- Hop 1's neighbour aggregate after the line is the aggregate of its arguments as launched. -/
theorem agg_main_v49 (V : Valuation τ sig (Elt F)) :
    after ops V (main_v49 : DevRef τ sig)
      = Cert.Head.prop (V (main_arg1 : DevRef τ sig)) (V (main_arg6 : DevRef τ sig)) := by
  rw [step_main_v49, step_main_v48, step_main_v47, step_main_cst_6, step_main_v46, step_main_v45, step_main_v44, step_main_call1_v0, step_main_call1_cst, step_main_v43, step_main_v42, step_main_v41, step_main_v40, step_main_v39, step_main_c_5, step_main_v38, step_main_v37, step_main_c_4, step_main_v36, step_main_v35,
    arg_keep V (r := main_arg1) (by decide), arg_keep V (r := main_arg6) (by decide)]
  rfl

/-- Hop 2's neighbour aggregate after the line is the aggregate of its arguments as launched. -/
theorem agg_main_v72 (V : Valuation τ sig (Elt F)) :
    after ops V (main_v72 : DevRef τ sig)
      = Cert.Head.prop (V (main_arg2 : DevRef τ sig)) (V (main_arg7 : DevRef τ sig)) := by
  rw [step_main_v72, step_main_v71, step_main_v70, step_main_cst_10, step_main_v69, step_main_v68, step_main_v67, step_main_call2_v0, step_main_call2_cst, step_main_v66, step_main_v65, step_main_v64, step_main_v63, step_main_v62, step_main_c_9, step_main_v61, step_main_v60, step_main_c_8, step_main_v59, step_main_v58,
    arg_keep V (r := main_arg2) (by decide), arg_keep V (r := main_arg7) (by decide)]
  rfl

/-- Hop 3's neighbour aggregate after the line is the aggregate of its arguments as launched. -/
theorem agg_main_v95 (V : Valuation τ sig (Elt F)) :
    after ops V (main_v95 : DevRef τ sig)
      = Cert.Head.prop (V (main_arg3 : DevRef τ sig)) (V (main_arg8 : DevRef τ sig)) := by
  rw [step_main_v95, step_main_v94, step_main_v93, step_main_cst_14, step_main_v92, step_main_v91, step_main_v90, step_main_call3_v0, step_main_call3_cst, step_main_v89, step_main_v88, step_main_v87, step_main_v86, step_main_v85, step_main_c_13, step_main_v84, step_main_v83, step_main_c_12, step_main_v82, step_main_v81,
    arg_keep V (r := main_arg3) (by decide), arg_keep V (r := main_arg8) (by decide)]
  rfl

end Cert.ReferenceIdeal.Hand

end
-- ==== Proof.Ref.ValueHead.lean ====
/-
  The four neighbour aggregates the reference's result is stated over, as functions of the arguments: `rP0 … rP3` are
  the aggregates `Cert.Head.propE` / `Cert.Head.prop` of the launch contents, read at (p, j).
-/
import proofs.«164503_j82721070121701_1_alg».proof.Proof.Ref.Value
import proofs.«164503_j82721070121701_1_alg».proof.Proof.Ref.Head
import Idealize.ShloMosaic.Lib.ValueIdx
import Idealize.ShloMosaic.Lib.Pipeline.Value
import Idealize.ShloMosaic.Lib.ValueLayout
import Idealize.ShloMosaic.Lib.IdealHost
import Idealize.ShloMosaic.Lib.KernelVsHost
import Idealize.ShloMosaic.PureOps.Ideal.Laws

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx
open scoped BigOperators

theorem rP0_eq (V : Valuation τ sig (Elt Ideal)) :
    rP0 V = fun p j => Cert.Head.propE (V (main_arg0 : DevRef τ sig)) (V (main_arg5 : DevRef τ sig)) (V (main_arg4 : DevRef τ sig)) (ix2 p j) := by
  funext p j
  unfold rP0
  rw [agg_main_v26]

theorem rP1_eq (V : Valuation τ sig (Elt Ideal)) :
    rP1 V = fun p j => Cert.Head.prop (V (main_arg1 : DevRef τ sig)) (V (main_arg6 : DevRef τ sig)) (ix2 p j) := by
  funext p j
  unfold rP1
  rw [agg_main_v49]

theorem rP2_eq (V : Valuation τ sig (Elt Ideal)) :
    rP2 V = fun p j => Cert.Head.prop (V (main_arg2 : DevRef τ sig)) (V (main_arg7 : DevRef τ sig)) (ix2 p j) := by
  funext p j
  unfold rP2
  rw [agg_main_v72]

theorem rP3_eq (V : Valuation τ sig (Elt Ideal)) :
    rP3 V = fun p j => Cert.Head.prop (V (main_arg3 : DevRef τ sig)) (V (main_arg8 : DevRef τ sig)) (ix2 p j) := by
  funext p j
  unfold rP3
  rw [agg_main_v95]

end Cert.ReferenceIdeal.Hand

end
-- ==== Proof.LibFiniteAll.lean ====
/-
  "Every entry is finite", read back from its one-bit test.

  A precondition that an f32 array `a` holds finite numbers is stated as `all(|a| < +∞)`: the entrywise comparison of
  `|a|` with the word `0x7F800000` splat over the array's shape, reduced by `and` over every axis from the bit 1 to a
  single bit. On the extended reals that word is `⊤` and `|x|` is `max x (-x)`. If the reduction is the bit 1, every
  entry compared true, and `max x (-x) < ⊤` holds of a real number and of neither infinity: so every entry of `a` is
  a real number. Stated for any shape and any list of reduced axes.
-/
import Idealize.ShloMosaic.Lib.ReduceAll
import Idealize.ShloMosaic.Lib.ValueIdx
import Idealize.ShloMosaic.Lib.Pipeline.Value

noncomputable section

namespace Cert.Lib.FiniteAll

open Idealize.ShloMosaic Idealize.ShloMosaic.ValueIdx

/-- The f32 word `0x7F800000` is `+∞`. -/
theorem ofBits_inf : Ideal.ofBits .f32 0x7F800000#32 = ⊤ := by simp [Ideal.ofBits, Ideal.ieee]

/-- `|x| < +∞` holds of no infinity. -/
theorem finite_of_lt (x : EReal) (h : Ideal.cmp .olt (max x (-x)) (Ideal.ofBits .f32 0x7F800000#32) = 1#1) : x ≠ ⊤ ∧ x ≠ ⊥ := by
  rw [ofBits_inf] at h
  induction x using EReal.rec with
  | bot => simp [Ideal.cmp] at h
  | top => simp [Ideal.cmp] at h
  | coe r => exact ⟨EReal.coe_ne_top r, EReal.coe_ne_bot r⟩

/-- The scalar shape has one index. -/
instance scalarIdx_subsingleton : Subsingleton (⟨0, ![]⟩ : Shape).Idx := ⟨fun _ _ => funext fun d => d.elim0⟩

/-- If "all entries of `a` have `|a| < +∞`" reduced to the bit 1, every entry of `a` is a real number. -/
theorem finite_of_all {s : Shape} {axes : List (Fin s.rank)} (a : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (e : Host.reduce IntOp.andi (cmpf .olt (Host.absf a) (broadcastInDim s ![] hb (constant (F := Ideal) ⟨0, ![]⟩ .f32 0x7F800000#32)))
      (constantI ⟨0, ![]⟩ 1 1#1) hr hu ix0 = 1#1) : ∀ i, a i ≠ ⊤ ∧ a i ≠ ⊥ := by
  intro i
  have hi := Host.reduce_andi_all _ _ hr hu ix0 e i
  have hc : broadcastInDim s ![] hb (constant (F := Ideal) ⟨0, ![]⟩ .f32 0x7F800000#32) i = Ideal.ofBits .f32 0x7F800000#32 :=
    broadcastInDim_apply _ hb _ i ix0 (fun a => a.elim0)
  rw [cmpf_apply, hc] at hi
  exact finite_of_lt (a i) hi

end Cert.Lib.FiniteAll

end
-- ==== Proof.Finite.lean ====
import proofs.«164503_j82721070121701_1_alg».proof.Defs
import proofs.«164503_j82721070121701_1_alg».proof.Proof.Gen.Pre_finite_inputs
import proofs.«164503_j82721070121701_1_alg».proof.Proof.LibFiniteAll
import Idealize.ShloMosaic.Lib.ReduceAll
import Idealize.ShloMosaic.Lib.ValueIdx

noncomputable section

namespace Cert.Finite

open Idealize.ShloMosaic Idealize.ShloMosaic.ValueIdx
open Cert.Lib.FiniteAll

/-! # The precondition, decoded: every entry of every float argument is a real number

The precondition is one bit: for each float argument `a`, "all entries have `|a| < +∞`", the sixteen bits joined by
`and`. Over the extended reals the bit is 1 exactly when no entry is an infinity, so every entry is a real number. -/

/-- An extended real that is neither infinity is a real number. -/
theorem real_of_ne {x : EReal} (h : x ≠ ⊤ ∧ x ≠ ⊥) : ∃ r : ℝ, x = (r : EReal) :=
  ⟨x.toReal, (EReal.coe_toReal h.1 h.2).symm⟩

/-- Under the precondition, on every device, every entry of each of the sixteen float arguments is a real number
    (the integer arguments 5–8 carry no condition): the bit at the one scalar index is a conjunction of sixteen
    "all entries compare below `+∞`" bits, one per argument in argument order. -/
theorem real_of_pre (m : (ℓ : Loc Cert.KernelIdeal.nD Cert.KernelIdeal.τ Cert.KernelIdeal.sig) → Buf (Elt Ideal) ℓ)
    (h : @Cert.Pre_KernelIdeal Cert.Pre_finite_inputs.Gen.facts m) (c : Dev Cert.KernelIdeal.nD) :
    (∀ i, ∃ r : ℝ, (m ((c.tc : Thread Cert.KernelIdeal.nD Cert.KernelIdeal.τ).loc Cert.KernelIdeal.main_arg0) : _ → EReal) i = (r : EReal))
    ∧ (∀ i, ∃ r : ℝ, (m ((c.tc : Thread Cert.KernelIdeal.nD Cert.KernelIdeal.τ).loc Cert.KernelIdeal.main_arg1) : _ → EReal) i = (r : EReal))
    ∧ (∀ i, ∃ r : ℝ, (m ((c.tc : Thread Cert.KernelIdeal.nD Cert.KernelIdeal.τ).loc Cert.KernelIdeal.main_arg2) : _ → EReal) i = (r : EReal))
    ∧ (∀ i, ∃ r : ℝ, (m ((c.tc : Thread Cert.KernelIdeal.nD Cert.KernelIdeal.τ).loc Cert.KernelIdeal.main_arg3) : _ → EReal) i = (r : EReal))
    ∧ (∀ i, ∃ r : ℝ, (m ((c.tc : Thread Cert.KernelIdeal.nD Cert.KernelIdeal.τ).loc Cert.KernelIdeal.main_arg4) : _ → EReal) i = (r : EReal))
    ∧ (∀ i, ∃ r : ℝ, (m ((c.tc : Thread Cert.KernelIdeal.nD Cert.KernelIdeal.τ).loc Cert.KernelIdeal.main_arg9) : _ → EReal) i = (r : EReal))
    ∧ (∀ i, ∃ r : ℝ, (m ((c.tc : Thread Cert.KernelIdeal.nD Cert.KernelIdeal.τ).loc Cert.KernelIdeal.main_arg10) : _ → EReal) i = (r : EReal))
    ∧ (∀ i, ∃ r : ℝ, (m ((c.tc : Thread Cert.KernelIdeal.nD Cert.KernelIdeal.τ).loc Cert.KernelIdeal.main_arg11) : _ → EReal) i = (r : EReal))
    ∧ (∀ i, ∃ r : ℝ, (m ((c.tc : Thread Cert.KernelIdeal.nD Cert.KernelIdeal.τ).loc Cert.KernelIdeal.main_arg12) : _ → EReal) i = (r : EReal))
    ∧ (∀ i, ∃ r : ℝ, (m ((c.tc : Thread Cert.KernelIdeal.nD Cert.KernelIdeal.τ).loc Cert.KernelIdeal.main_arg13) : _ → EReal) i = (r : EReal))
    ∧ (∀ i, ∃ r : ℝ, (m ((c.tc : Thread Cert.KernelIdeal.nD Cert.KernelIdeal.τ).loc Cert.KernelIdeal.main_arg14) : _ → EReal) i = (r : EReal))
    ∧ (∀ i, ∃ r : ℝ, (m ((c.tc : Thread Cert.KernelIdeal.nD Cert.KernelIdeal.τ).loc Cert.KernelIdeal.main_arg15) : _ → EReal) i = (r : EReal))
    ∧ (∀ i, ∃ r : ℝ, (m ((c.tc : Thread Cert.KernelIdeal.nD Cert.KernelIdeal.τ).loc Cert.KernelIdeal.main_arg16) : _ → EReal) i = (r : EReal))
    ∧ (∀ i, ∃ r : ℝ, (m ((c.tc : Thread Cert.KernelIdeal.nD Cert.KernelIdeal.τ).loc Cert.KernelIdeal.main_arg17) : _ → EReal) i = (r : EReal))
    ∧ (∀ i, ∃ r : ℝ, (m ((c.tc : Thread Cert.KernelIdeal.nD Cert.KernelIdeal.τ).loc Cert.KernelIdeal.main_arg18) : _ → EReal) i = (r : EReal))
    ∧ (∀ i, ∃ r : ℝ, (m ((c.tc : Thread Cert.KernelIdeal.nD Cert.KernelIdeal.τ).loc Cert.KernelIdeal.main_arg19) : _ → EReal) i = (r : EReal)) := by
  have h0 := congrFun (h c) ValueIdx.ix0
  dsimp only [Cert.Pre_finite_inputs.fn, Cert.Pre_finite_inputs.fn_part1, Cert.Pre_finite_inputs.fn_part2,
    Cert.Pre_finite_inputs.fn_part3, Cert.Pre_finite_inputs.fn_part4, Idealize.ShloMosaic.andi] at h0
  simp only [IntOp.andi_eq_one, and_assoc] at h0
  obtain ⟨e0, e1, e2, e3, e4, e9, e10, e11, e12, e13, e14, e15, e16, e17, e18, e19⟩ := h0
  exact ⟨fun i => real_of_ne (finite_of_all _ _ _ _ e0 i),
    fun i => real_of_ne (finite_of_all _ _ _ _ e1 i),
    fun i => real_of_ne (finite_of_all _ _ _ _ e2 i),
    fun i => real_of_ne (finite_of_all _ _ _ _ e3 i),
    fun i => real_of_ne (finite_of_all _ _ _ _ e4 i),
    fun i => real_of_ne (finite_of_all _ _ _ _ e9 i),
    fun i => real_of_ne (finite_of_all _ _ _ _ e10 i),
    fun i => real_of_ne (finite_of_all _ _ _ _ e11 i),
    fun i => real_of_ne (finite_of_all _ _ _ _ e12 i),
    fun i => real_of_ne (finite_of_all _ _ _ _ e13 i),
    fun i => real_of_ne (finite_of_all _ _ _ _ e14 i),
    fun i => real_of_ne (finite_of_all _ _ _ _ e15 i),
    fun i => real_of_ne (finite_of_all _ _ _ _ e16 i),
    fun i => real_of_ne (finite_of_all _ _ _ _ e17 i),
    fun i => real_of_ne (finite_of_all _ _ _ _ e18 i),
    fun i => real_of_ne (finite_of_all _ _ _ _ e19 i)⟩

/-! ## The same, one argument at a time -/

theorem real_arg0 (m : (ℓ : Loc Cert.KernelIdeal.nD Cert.KernelIdeal.τ Cert.KernelIdeal.sig) → Buf (Elt Ideal) ℓ)
    (h : @Cert.Pre_KernelIdeal Cert.Pre_finite_inputs.Gen.facts m) (c : Dev Cert.KernelIdeal.nD) :
    ∀ i, ∃ r : ℝ, (m ((c.tc : Thread Cert.KernelIdeal.nD Cert.KernelIdeal.τ).loc Cert.KernelIdeal.main_arg0) : _ → EReal) i = (r : EReal) := (real_of_pre m h c).1
theorem real_arg1 (m : (ℓ : Loc Cert.KernelIdeal.nD Cert.KernelIdeal.τ Cert.KernelIdeal.sig) → Buf (Elt Ideal) ℓ)
    (h : @Cert.Pre_KernelIdeal Cert.Pre_finite_inputs.Gen.facts m) (c : Dev Cert.KernelIdeal.nD) :
    ∀ i, ∃ r : ℝ, (m ((c.tc : Thread Cert.KernelIdeal.nD Cert.KernelIdeal.τ).loc Cert.KernelIdeal.main_arg1) : _ → EReal) i = (r : EReal) := (real_of_pre m h c).2.1
theorem real_arg2 (m : (ℓ : Loc Cert.KernelIdeal.nD Cert.KernelIdeal.τ Cert.KernelIdeal.sig) → Buf (Elt Ideal) ℓ)
    (h : @Cert.Pre_KernelIdeal Cert.Pre_finite_inputs.Gen.facts m) (c : Dev Cert.KernelIdeal.nD) :
    ∀ i, ∃ r : ℝ, (m ((c.tc : Thread Cert.KernelIdeal.nD Cert.KernelIdeal.τ).loc Cert.KernelIdeal.main_arg2) : _ → EReal) i = (r : EReal) := (real_of_pre m h c).2.2.1
theorem real_arg3 (m : (ℓ : Loc Cert.KernelIdeal.nD Cert.KernelIdeal.τ Cert.KernelIdeal.sig) → Buf (Elt Ideal) ℓ)
    (h : @Cert.Pre_KernelIdeal Cert.Pre_finite_inputs.Gen.facts m) (c : Dev Cert.KernelIdeal.nD) :
    ∀ i, ∃ r : ℝ, (m ((c.tc : Thread Cert.KernelIdeal.nD Cert.KernelIdeal.τ).loc Cert.KernelIdeal.main_arg3) : _ → EReal) i = (r : EReal) := (real_of_pre m h c).2.2.2.1
theorem real_arg4 (m : (ℓ : Loc Cert.KernelIdeal.nD Cert.KernelIdeal.τ Cert.KernelIdeal.sig) → Buf (Elt Ideal) ℓ)
    (h : @Cert.Pre_KernelIdeal Cert.Pre_finite_inputs.Gen.facts m) (c : Dev Cert.KernelIdeal.nD) :
    ∀ i, ∃ r : ℝ, (m ((c.tc : Thread Cert.KernelIdeal.nD Cert.KernelIdeal.τ).loc Cert.KernelIdeal.main_arg4) : _ → EReal) i = (r : EReal) := (real_of_pre m h c).2.2.2.2.1
theorem real_arg9 (m : (ℓ : Loc Cert.KernelIdeal.nD Cert.KernelIdeal.τ Cert.KernelIdeal.sig) → Buf (Elt Ideal) ℓ)
    (h : @Cert.Pre_KernelIdeal Cert.Pre_finite_inputs.Gen.facts m) (c : Dev Cert.KernelIdeal.nD) :
    ∀ i, ∃ r : ℝ, (m ((c.tc : Thread Cert.KernelIdeal.nD Cert.KernelIdeal.τ).loc Cert.KernelIdeal.main_arg9) : _ → EReal) i = (r : EReal) := (real_of_pre m h c).2.2.2.2.2.1
theorem real_arg10 (m : (ℓ : Loc Cert.KernelIdeal.nD Cert.KernelIdeal.τ Cert.KernelIdeal.sig) → Buf (Elt Ideal) ℓ)
    (h : @Cert.Pre_KernelIdeal Cert.Pre_finite_inputs.Gen.facts m) (c : Dev Cert.KernelIdeal.nD) :
    ∀ i, ∃ r : ℝ, (m ((c.tc : Thread Cert.KernelIdeal.nD Cert.KernelIdeal.τ).loc Cert.KernelIdeal.main_arg10) : _ → EReal) i = (r : EReal) := (real_of_pre m h c).2.2.2.2.2.2.1
theorem real_arg11 (m : (ℓ : Loc Cert.KernelIdeal.nD Cert.KernelIdeal.τ Cert.KernelIdeal.sig) → Buf (Elt Ideal) ℓ)
    (h : @Cert.Pre_KernelIdeal Cert.Pre_finite_inputs.Gen.facts m) (c : Dev Cert.KernelIdeal.nD) :
    ∀ i, ∃ r : ℝ, (m ((c.tc : Thread Cert.KernelIdeal.nD Cert.KernelIdeal.τ).loc Cert.KernelIdeal.main_arg11) : _ → EReal) i = (r : EReal) := (real_of_pre m h c).2.2.2.2.2.2.2.1
theorem real_arg12 (m : (ℓ : Loc Cert.KernelIdeal.nD Cert.KernelIdeal.τ Cert.KernelIdeal.sig) → Buf (Elt Ideal) ℓ)
    (h : @Cert.Pre_KernelIdeal Cert.Pre_finite_inputs.Gen.facts m) (c : Dev Cert.KernelIdeal.nD) :
    ∀ i, ∃ r : ℝ, (m ((c.tc : Thread Cert.KernelIdeal.nD Cert.KernelIdeal.τ).loc Cert.KernelIdeal.main_arg12) : _ → EReal) i = (r : EReal) := (real_of_pre m h c).2.2.2.2.2.2.2.2.1
theorem real_arg13 (m : (ℓ : Loc Cert.KernelIdeal.nD Cert.KernelIdeal.τ Cert.KernelIdeal.sig) → Buf (Elt Ideal) ℓ)
    (h : @Cert.Pre_KernelIdeal Cert.Pre_finite_inputs.Gen.facts m) (c : Dev Cert.KernelIdeal.nD) :
    ∀ i, ∃ r : ℝ, (m ((c.tc : Thread Cert.KernelIdeal.nD Cert.KernelIdeal.τ).loc Cert.KernelIdeal.main_arg13) : _ → EReal) i = (r : EReal) := (real_of_pre m h c).2.2.2.2.2.2.2.2.2.1
theorem real_arg14 (m : (ℓ : Loc Cert.KernelIdeal.nD Cert.KernelIdeal.τ Cert.KernelIdeal.sig) → Buf (Elt Ideal) ℓ)
    (h : @Cert.Pre_KernelIdeal Cert.Pre_finite_inputs.Gen.facts m) (c : Dev Cert.KernelIdeal.nD) :
    ∀ i, ∃ r : ℝ, (m ((c.tc : Thread Cert.KernelIdeal.nD Cert.KernelIdeal.τ).loc Cert.KernelIdeal.main_arg14) : _ → EReal) i = (r : EReal) := (real_of_pre m h c).2.2.2.2.2.2.2.2.2.2.1
theorem real_arg15 (m : (ℓ : Loc Cert.KernelIdeal.nD Cert.KernelIdeal.τ Cert.KernelIdeal.sig) → Buf (Elt Ideal) ℓ)
    (h : @Cert.Pre_KernelIdeal Cert.Pre_finite_inputs.Gen.facts m) (c : Dev Cert.KernelIdeal.nD) :
    ∀ i, ∃ r : ℝ, (m ((c.tc : Thread Cert.KernelIdeal.nD Cert.KernelIdeal.τ).loc Cert.KernelIdeal.main_arg15) : _ → EReal) i = (r : EReal) := (real_of_pre m h c).2.2.2.2.2.2.2.2.2.2.2.1
theorem real_arg16 (m : (ℓ : Loc Cert.KernelIdeal.nD Cert.KernelIdeal.τ Cert.KernelIdeal.sig) → Buf (Elt Ideal) ℓ)
    (h : @Cert.Pre_KernelIdeal Cert.Pre_finite_inputs.Gen.facts m) (c : Dev Cert.KernelIdeal.nD) :
    ∀ i, ∃ r : ℝ, (m ((c.tc : Thread Cert.KernelIdeal.nD Cert.KernelIdeal.τ).loc Cert.KernelIdeal.main_arg16) : _ → EReal) i = (r : EReal) := (real_of_pre m h c).2.2.2.2.2.2.2.2.2.2.2.2.1
theorem real_arg17 (m : (ℓ : Loc Cert.KernelIdeal.nD Cert.KernelIdeal.τ Cert.KernelIdeal.sig) → Buf (Elt Ideal) ℓ)
    (h : @Cert.Pre_KernelIdeal Cert.Pre_finite_inputs.Gen.facts m) (c : Dev Cert.KernelIdeal.nD) :
    ∀ i, ∃ r : ℝ, (m ((c.tc : Thread Cert.KernelIdeal.nD Cert.KernelIdeal.τ).loc Cert.KernelIdeal.main_arg17) : _ → EReal) i = (r : EReal) := (real_of_pre m h c).2.2.2.2.2.2.2.2.2.2.2.2.2.1
theorem real_arg18 (m : (ℓ : Loc Cert.KernelIdeal.nD Cert.KernelIdeal.τ Cert.KernelIdeal.sig) → Buf (Elt Ideal) ℓ)
    (h : @Cert.Pre_KernelIdeal Cert.Pre_finite_inputs.Gen.facts m) (c : Dev Cert.KernelIdeal.nD) :
    ∀ i, ∃ r : ℝ, (m ((c.tc : Thread Cert.KernelIdeal.nD Cert.KernelIdeal.τ).loc Cert.KernelIdeal.main_arg18) : _ → EReal) i = (r : EReal) := (real_of_pre m h c).2.2.2.2.2.2.2.2.2.2.2.2.2.2.1
theorem real_arg19 (m : (ℓ : Loc Cert.KernelIdeal.nD Cert.KernelIdeal.τ Cert.KernelIdeal.sig) → Buf (Elt Ideal) ℓ)
    (h : @Cert.Pre_KernelIdeal Cert.Pre_finite_inputs.Gen.facts m) (c : Dev Cert.KernelIdeal.nD) :
    ∀ i, ∃ r : ℝ, (m ((c.tc : Thread Cert.KernelIdeal.nD Cert.KernelIdeal.τ).loc Cert.KernelIdeal.main_arg19) : _ → EReal) i = (r : EReal) := (real_of_pre m h c).2.2.2.2.2.2.2.2.2.2.2.2.2.2.2

end Cert.Finite

end
-- ==== Proof.SpecLaw.lean ====
/-
  The one-pass stack and the two-pass stack agree on real inputs.

  Every layer's input column is real: a linear map of real arrays is real (sums and products of reals), and a
  normalisation layer of a real array with a real nonnegative variance row is real (the mean is a real quotient,
  variance + ε is a positive real, its reciprocal square root is real, and the maximum of two reals is real).
  For a real column the one-pass variance equals the two-pass variance (the square expands), and the two-pass
  variance is a nonnegative real.  So the three variance rows may be exchanged one layer at a time, outermost input
  first, each exchange making the next layer's input the same real array on both sides.
-/
import proofs.«164503_j82721070121701_1_alg».proof.Proof.Spec

noncomputable section

namespace Cert.Spec

open Idealize.ShloMosaic Cert.Lib.MeanSqDev

variable {n K D : ℕ}

/-- The maximum of two coerced reals is the coerced real maximum. -/
theorem coe_max_coe (a b : ℝ) : max (a : EReal) (b : EReal) = ((max a b : ℝ) : EReal) :=
  (EReal.coe_strictMono.monotone.map_max).symm

/-- A linear map with bias of real arrays is a real array. -/
theorem lin_real (a : Fin n → Fin K → EReal) (W : Fin K → Fin D → EReal) (b : Fin D → EReal)
    (ha : Real2 a) (hW : Real2 W) (hb : Real1 b) : Real2 (lin a W b) := by
  have ha' : ∀ p k, ∃ r : ℝ, a p k = (r : EReal) := ha
  have hW' : ∀ k j, ∃ r : ℝ, W k j = (r : EReal) := hW
  have hb' : ∀ j, ∃ r : ℝ, b j = (r : EReal) := hb
  choose ar har using ha'
  choose Wr hWr using hW'
  choose br hbr using hb'
  intro p j
  refine ⟨(∑ k : Fin K, ar p k * Wr k j) + br j, ?_⟩
  show (∑ k : Fin K, a p k * W k j) + b j = _
  have h : ∀ k, a p k * W k j = ((ar p k * Wr k j : ℝ) : EReal) := fun k => by
    rw [har, hWr, EReal.coe_mul]
  rw [Finset.sum_congr rfl (fun k _ => h k), coe_sum, hbr, EReal.coe_add]

/-- The batch mean of a real array over a nonzero real count is a real row. -/
theorem mean_real (Nr : ℝ) (hN : Nr ≠ 0) (h : Fin n → Fin D → EReal) (hh : Real2 h) :
    Real1 (mean (Nr : EReal) h) := by
  have hh' : ∀ p j, ∃ r : ℝ, h p j = (r : EReal) := hh
  choose hr hhr using hh'
  intro j
  refine ⟨(∑ p : Fin n, hr p j) / Nr, ?_⟩
  show Ideal.div (∑ p : Fin n, h p j) (Nr : EReal) = _
  rw [Finset.sum_congr rfl (fun p _ => hhr p j), coe_sum, div_coe_coe _ _ hN]

/-- For a real array the one-pass variance row is the two-pass variance row (the count being the number of rows). -/
theorem var1_eq_var2 (Nr : ℝ) (hN : Nr ≠ 0) (hcard : (n : ℝ) = Nr) (h : Fin n → Fin D → EReal) (hh : Real2 h) :
    var1 (Nr : EReal) h = var2 (Nr : EReal) h := by
  have hh' : ∀ p j, ∃ r : ℝ, h p j = (r : EReal) := hh
  choose hr hhr using hh'
  have hfun : h = fun p j => ((hr p j : ℝ) : EReal) := funext fun p => funext fun j => hhr p j
  subst hfun
  funext j
  have hc : ((Finset.univ : Finset (Fin n)).card : ℝ) = Nr := by
    rw [Finset.card_univ, Fintype.card_fin]; exact hcard
  exact ereal_law Finset.univ (fun p => hr p j) Nr hN hc

/-- The two-pass variance row of a real array over a positive real count is real and nonnegative. -/
theorem var2_real_nonneg (Nr : ℝ) (hN : 0 < Nr) (h : Fin n → Fin D → EReal) (hh : Real2 h) :
    ∀ j, ∃ v : ℝ, 0 ≤ v ∧ var2 (Nr : EReal) h j = (v : EReal) := by
  have hh' : ∀ p j, ∃ r : ℝ, h p j = (r : EReal) := hh
  choose hr hhr using hh'
  have hfun : h = fun p j => ((hr p j : ℝ) : EReal) := funext fun p => funext fun j => hhr p j
  subst hfun
  intro j
  exact ereal_two_pass Finset.univ (fun p => hr p j) Nr hN

/-- A normalisation layer of a real array, with a real nonnegative variance row, real scale and shift, a nonzero
    real count and a positive real ε, is a real array. -/
theorem norm_real (Nr εr : ℝ) (hN : Nr ≠ 0) (hε : 0 < εr) (h : Fin n → Fin D → EReal) (v g β : Fin D → EReal)
    (hh : Real2 h) (hv : ∀ j, ∃ w : ℝ, 0 ≤ w ∧ v j = (w : EReal)) (hg : Real1 g) (hβ : Real1 β) :
    Real2 (norm (Nr : EReal) (εr : EReal) h v g β) := by
  have hm' : ∀ j, ∃ r : ℝ, mean (Nr : EReal) h j = (r : EReal) := mean_real Nr hN h hh
  have hh' : ∀ p j, ∃ r : ℝ, h p j = (r : EReal) := hh
  have hg' : ∀ j, ∃ r : ℝ, g j = (r : EReal) := hg
  have hβ' : ∀ j, ∃ r : ℝ, β j = (r : EReal) := hβ
  choose hr hhr using hh'
  choose mr hmr using hm'
  choose vr hvr0 hvr using hv
  choose gr hgr using hg'
  choose βr hβr using hβ'
  intro p j
  refine ⟨max (gr j * (hr p j - mr j) * (Real.sqrt (vr j + εr))⁻¹ + βr j) 0, ?_⟩
  show max (g j * (h p j - mean (Nr : EReal) h j) * Ideal.rsqrt (v j + (εr : EReal)) + β j) 0 = _
  rw [hgr, hhr, hmr, hvr, hβr, rsqrt_add_pos _ _ (hvr0 j) hε, ← EReal.coe_sub, ← EReal.coe_mul, ← EReal.coe_mul,
    ← EReal.coe_add, ← coe_max_coe, EReal.coe_zero]

variable {D₁ D₂ : ℕ}

/-- **The one-pass stack equals the two-pass stack** when every input entry is a real number, the count is the
    (positive) number of rows and ε is a positive real. -/
theorem kernelOut_eq_refOut (Nr εr : ℝ) (hcard : (n : ℝ) = Nr) (hN : 0 < Nr) (hε : 0 < εr)
    (x : Fin n → Fin K → EReal) (W₁ : Fin K → Fin D₁ → EReal) (b₁ g₁ β₁ : Fin D₁ → EReal)
    (W₂ : Fin D₁ → Fin D₂ → EReal) (b₂ g₂ β₂ g₃ β₃ : Fin D₂ → EReal)
    (hx : Real2 x) (hW₁ : Real2 W₁) (hb₁ : Real1 b₁) (hg₁ : Real1 g₁) (hβ₁ : Real1 β₁) (hW₂ : Real2 W₂)
    (hb₂ : Real1 b₂) (hg₂ : Real1 g₂) (hβ₂ : Real1 β₂) (hg₃ : Real1 g₃) (hβ₃ : Real1 β₃) :
    kernelOut (Nr : EReal) (εr : EReal) x W₁ b₁ g₁ β₁ W₂ b₂ g₂ β₂ g₃ β₃
      = refOut (Nr : EReal) (εr : EReal) x W₁ b₁ g₁ β₁ W₂ b₂ g₂ β₂ g₃ β₃ := by
  have hN0 : Nr ≠ 0 := hN.ne'
  -- layer 1: the first linear map is real, so its two variances agree and the layer's output is real
  have h1 : Real2 (lin x W₁ b₁) := lin_real _ _ _ hx hW₁ hb₁
  have e1 := var1_eq_var2 Nr hN0 hcard _ h1
  have a1 := norm_real Nr εr hN0 hε _ _ g₁ β₁ h1 (var2_real_nonneg Nr hN _ h1) hg₁ hβ₁
  -- layer 2: the same for the second linear map of that output
  have h2 := lin_real _ W₂ b₂ a1 hW₂ hb₂
  have e2 := var1_eq_var2 Nr hN0 hcard _ h2
  have a2 := norm_real Nr εr hN0 hε _ _ g₂ β₂ h2 (var2_real_nonneg Nr hN _ h2) hg₂ hβ₂
  -- layer 3: the second layer's output is the third layer's (real) input
  have e3 := var1_eq_var2 Nr hN0 hcard _ a2
  show norm (Nr : EReal) (εr : EReal) _ (var1 (Nr : EReal) _) g₃ β₃ = norm (Nr : EReal) (εr : EReal) _ (var2 (Nr : EReal) _) g₃ β₃
  rw [e1, e2, e3]

end Cert.Spec

end
-- ==== Proof.Bridge.lean ====
import proofs.«164503_j82721070121701_1_alg».proof.Defs
import proofs.«164503_j82721070121701_1_alg».proof.Proof.Gen.Pre_finite_inputs
import proofs.«164503_j82721070121701_1_alg».proof.Proof.KI.Compose
import proofs.«164503_j82721070121701_1_alg».proof.Proof.KI.HeadK
import proofs.«164503_j82721070121701_1_alg».proof.Proof.Ref.Run
import proofs.«164503_j82721070121701_1_alg».proof.Proof.Ref.ValueHead
import proofs.«164503_j82721070121701_1_alg».proof.Proof.Head
import proofs.«164503_j82721070121701_1_alg».proof.Proof.Finite
import proofs.«164503_j82721070121701_1_alg».proof.Proof.SpecLaw
import proofs.«164503_j82721070121701_1_alg».proof.Proof.Consts
import Idealize.ShloMosaic.Lib.ValueIdx

set_option maxRecDepth 8192

noncomputable section

namespace Cert.Bridge

open Idealize.ShloMosaic Idealize.ShloMosaic.TcCoe Idealize.SL.Sem

/-! # The two programs' results are one function

Both programs compute the same network: the eps-weighted blend of the node features with four aggregated neighbour
sums, two linear layers each followed by a batch normalisation and a clamp at zero, and a third normalisation and
clamp. They differ in how the batch variance is written: the mean of squares less the square of the mean in one, the
mean of squared deviations in the other. Over real inputs the two variances agree, so the results agree. -/

/-! ## Real numbers among the extended reals -/

/-- The sum of two real numbers is a real number. -/
theorem real_add {a b : EReal} (ha : ∃ r : ℝ, a = (r : EReal)) (hb : ∃ r : ℝ, b = (r : EReal)) : ∃ r : ℝ, a + b = (r : EReal) := by
  obtain ⟨r, rfl⟩ := ha; obtain ⟨s, rfl⟩ := hb; exact ⟨r + s, (EReal.coe_add r s).symm⟩

/-- The product of two real numbers is a real number. -/
theorem real_mul {a b : EReal} (ha : ∃ r : ℝ, a = (r : EReal)) (hb : ∃ r : ℝ, b = (r : EReal)) : ∃ r : ℝ, a * b = (r : EReal) := by
  obtain ⟨r, rfl⟩ := ha; obtain ⟨s, rfl⟩ := hb; exact ⟨r * s, (EReal.coe_mul r s).symm⟩

/-- The blend `Σₖ (1 + epsₖ) · aₖ` of five real arrays with a real coefficient table is a real array. -/
theorem blend_real {n D : ℕ} (one : EReal) (hone : ∃ r : ℝ, one = (r : EReal)) (eps : Fin 5 → Fin D → EReal) (heps : Cert.Spec.Real2 eps)
    (x0 p0 p1 p2 p3 : Fin n → Fin D → EReal) (hx0 : Cert.Spec.Real2 x0) (hp0 : Cert.Spec.Real2 p0) (hp1 : Cert.Spec.Real2 p1)
    (hp2 : Cert.Spec.Real2 p2) (hp3 : Cert.Spec.Real2 p3) :
    Cert.Spec.Real2 (fun p j => ((((one + eps 0 j) * x0 p j + (one + eps 1 j) * p0 p j) + (one + eps 2 j) * p1 p j)
      + (one + eps 3 j) * p2 p j) + (one + eps 4 j) * p3 p j) := fun p j =>
  real_add (real_add (real_add (real_add (real_mul (real_add hone (heps 0 j)) (hx0 p j)) (real_mul (real_add hone (heps 1 j)) (hp0 p j)))
    (real_mul (real_add hone (heps 2 j)) (hp1 p j))) (real_mul (real_add hone (heps 3 j)) (hp2 p j))) (real_mul (real_add hone (heps 4 j)) (hp3 p j))

/-! ## The law at the programs' float words -/

/-- With the row count `100000.0` and the variance floor `1e-5` as the programs spell them, over real inputs, the
    network with the variance as the mean of squared deviations is the network with it as the mean of squares less
    the square of the mean. -/
theorem refOut_eq_kernelOut {K D₁ D₂ : ℕ}
    (x : Fin 100000 → Fin K → EReal) (W₁ : Fin K → Fin D₁ → EReal) (b₁ g₁ β₁ : Fin D₁ → EReal)
    (W₂ : Fin D₁ → Fin D₂ → EReal) (b₂ g₂ β₂ g₃ β₃ : Fin D₂ → EReal)
    (hx : Cert.Spec.Real2 x) (hW₁ : Cert.Spec.Real2 W₁) (hb₁ : Cert.Spec.Real1 b₁) (hg₁ : Cert.Spec.Real1 g₁) (hβ₁ : Cert.Spec.Real1 β₁)
    (hW₂ : Cert.Spec.Real2 W₂) (hb₂ : Cert.Spec.Real1 b₂) (hg₂ : Cert.Spec.Real1 g₂) (hβ₂ : Cert.Spec.Real1 β₂)
    (hg₃ : Cert.Spec.Real1 g₃) (hβ₃ : Cert.Spec.Real1 β₃) :
    Cert.Spec.refOut (Ideal.ofBits .f32 0x47C35000#32) (Ideal.ofBits .f32 0x3727C5AC#32) x W₁ b₁ g₁ β₁ W₂ b₂ g₂ β₂ g₃ β₃
      = Cert.Spec.kernelOut (Ideal.ofBits .f32 0x47C35000#32) (Ideal.ofBits .f32 0x3727C5AC#32) x W₁ b₁ g₁ β₁ W₂ b₂ g₂ β₂ g₃ β₃ := by
  obtain ⟨e, he0, he⟩ := Cert.Consts.ofBits_eps
  rw [Cert.Consts.ofBits_N, he]
  exact (Cert.Spec.kernelOut_eq_refOut 100000 e (by norm_num) (by norm_num) he0 x W₁ b₁ g₁ β₁ W₂ b₂ g₂ β₂ g₃ β₃
    hx hW₁ hb₁ hg₁ hβ₁ hW₂ hb₂ hg₂ hβ₂ hg₃ hβ₃).symm

/-! ## The two results -/

section Results

open Cert.ReferenceIdeal.Hand Cert.KernelIdeal.Hand Idealize.ShloMosaic.StableHlo Idealize.ShloMosaic.ValueIdx

variable (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)

/-- With the reference launched on the kernel's argument arrays (`hagree`), and those arrays finite (`hpre`), the
    reference's result array is the kernel's: entry by entry both are the network of the law above, over the same
    blend, weights and tables; the blend is real because the arguments are and the neighbour sums of real arrays are. -/
theorem result_eq (hpre : @Cert.Pre_KernelIdeal Cert.Pre_finite_inputs.Gen.facts m) (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) :
    after Cert.ReferenceIdeal.Hand.ops (launchContents m' c) (Cert.ReferenceIdeal.main_v167 : DevRef _ _)
      = Cert.KernelIdeal.Hand.o18 (F := Ideal) m c := by
  obtain ⟨a0, a1, a2, a3, a4, a5, a6, a7, a8, a9, a10, a11, a12, a13, a14, a15, a16, a17, a18, a19⟩ := hagree
  -- the reference's inputs are the kernel's, array by array
  have hX0 : rX0 (launchContents m' c) = kX0 m c := funext fun p => funext fun j => congrFun a0 (ix2 p j)
  have hEps : rEps (launchContents m' c) = kEps m c := funext fun s => funext fun j => congrFun a19 (ix2 s j)
  have hW1 : rW1 (launchContents m' c) = kW1 m c := funext fun k => funext fun j => congrFun a9 (ix2 k j)
  have hb1 : rb1 (launchContents m' c) = kb1 m c := funext fun j => congrFun a10 (ix1 j)
  have hg1 : rg1 (launchContents m' c) = kg1 m c := funext fun j => congrFun a11 (ix1 j)
  have hβ1 : rβ1 (launchContents m' c) = kβ1 m c := funext fun j => congrFun a12 (ix1 j)
  have hW2 : rW2 (launchContents m' c) = kW2 m c := funext fun k => funext fun j => congrFun a13 (ix2 k j)
  have hb2 : rb2 (launchContents m' c) = kb2 m c := funext fun j => congrFun a14 (ix1 j)
  have hg2 : rg2 (launchContents m' c) = kg2 m c := funext fun j => congrFun a15 (ix1 j)
  have hβ2 : rβ2 (launchContents m' c) = kβ2 m c := funext fun j => congrFun a16 (ix1 j)
  have hg3 : rg3 (launchContents m' c) = kg3 m c := funext fun j => congrFun a17 (ix1 j)
  have hβ3 : rβ3 (launchContents m' c) = kβ3 m c := funext fun j => congrFun a18 (ix1 j)
  -- the neighbour sums: the same function of the same arguments on both sides
  have hP0 : rP0 (launchContents m' c) = kP0 m c := by
    rw [rP0_eq]
    funext p j
    show _ = (Cert.KernelIdeal.Gen.V9 m c Cert.KernelIdeal.main_v15 : (⟨2, ![100000, 128]⟩ : Shape).Idx → EReal) (ix2 p j)
    rw [V9_main_v15]
    exact congrFun (congr (congr (congrArg Cert.Head.propE a0) a5) a4) (ix2 p j)
  have hP1 : rP1 (launchContents m' c) = kP1 m c := by
    rw [rP1_eq]
    funext p j
    show _ = (Cert.KernelIdeal.Gen.V9 m c Cert.KernelIdeal.main_v30 : (⟨2, ![100000, 128]⟩ : Shape).Idx → EReal) (ix2 p j)
    rw [V9_main_v30]
    exact congrFun (congr (congrArg Cert.Head.prop a1) a6) (ix2 p j)
  have hP2 : rP2 (launchContents m' c) = kP2 m c := by
    rw [rP2_eq]
    funext p j
    show _ = (Cert.KernelIdeal.Gen.V9 m c Cert.KernelIdeal.main_v45 : (⟨2, ![100000, 128]⟩ : Shape).Idx → EReal) (ix2 p j)
    rw [V9_main_v45]
    exact congrFun (congr (congrArg Cert.Head.prop a2) a7) (ix2 p j)
  have hP3 : rP3 (launchContents m' c) = kP3 m c := by
    rw [rP3_eq]
    funext p j
    show _ = (Cert.KernelIdeal.Gen.V9 m c Cert.KernelIdeal.main_v60 : (⟨2, ![100000, 128]⟩ : Shape).Idx → EReal) (ix2 p j)
    rw [V9_main_v60]
    exact congrFun (congr (congrArg Cert.Head.prop a3) a8) (ix2 p j)
  have hRes : rRes (launchContents m' c) = kRes m c := by
    funext p j
    unfold rRes kRes
    rw [hX0, hP0, hP1, hP2, hP3, hEps]
  -- every input is real
  have rX0' : Cert.Spec.Real2 (kX0 m c) := fun p j => Cert.Finite.real_arg0 m hpre c (ix2 p j)
  have rEps' : Cert.Spec.Real2 (kEps m c) := fun s j => Cert.Finite.real_arg19 m hpre c (ix2 s j)
  have rP0' : Cert.Spec.Real2 (kP0 m c) := fun p j => by
    show ∃ r : ℝ, (Cert.KernelIdeal.Gen.V9 m c Cert.KernelIdeal.main_v15 : (⟨2, ![100000, 128]⟩ : Shape).Idx → EReal) (ix2 p j) = (r : EReal)
    rw [V9_main_v15]
    exact Cert.Head.propE_real _ _ _ (Cert.Finite.real_arg0 m hpre c) (Cert.Finite.real_arg4 m hpre c) (ix2 p j)
  have rP1' : Cert.Spec.Real2 (kP1 m c) := fun p j => by
    show ∃ r : ℝ, (Cert.KernelIdeal.Gen.V9 m c Cert.KernelIdeal.main_v30 : (⟨2, ![100000, 128]⟩ : Shape).Idx → EReal) (ix2 p j) = (r : EReal)
    rw [V9_main_v30]
    exact Cert.Head.prop_real _ _ (Cert.Finite.real_arg1 m hpre c) (ix2 p j)
  have rP2' : Cert.Spec.Real2 (kP2 m c) := fun p j => by
    show ∃ r : ℝ, (Cert.KernelIdeal.Gen.V9 m c Cert.KernelIdeal.main_v45 : (⟨2, ![100000, 128]⟩ : Shape).Idx → EReal) (ix2 p j) = (r : EReal)
    rw [V9_main_v45]
    exact Cert.Head.prop_real _ _ (Cert.Finite.real_arg2 m hpre c) (ix2 p j)
  have rP3' : Cert.Spec.Real2 (kP3 m c) := fun p j => by
    show ∃ r : ℝ, (Cert.KernelIdeal.Gen.V9 m c Cert.KernelIdeal.main_v60 : (⟨2, ![100000, 128]⟩ : Shape).Idx → EReal) (ix2 p j) = (r : EReal)
    rw [V9_main_v60]
    exact Cert.Head.prop_real _ _ (Cert.Finite.real_arg3 m hpre c) (ix2 p j)
  have rRes' : Cert.Spec.Real2 (kRes m c) :=
    blend_real _ ⟨1, Cert.Consts.ofBits_one⟩ (kEps m c) rEps' (kX0 m c) (kP0 m c) (kP1 m c) (kP2 m c) (kP3 m c) rX0' rP0' rP1' rP2' rP3'
  -- entry by entry
  funext i
  obtain ⟨p, j, rfl⟩ : ∃ (p : Fin 100000) (j : Fin 128), i = ix2 p j := ⟨i 0, i 1, eq_ix2 i⟩
  refine (ref_value (launchContents m' c) p j).trans (Eq.trans ?_ (o18_kernelOut m c p j).symm)
  rw [hRes, hW1, hb1, hg1, hβ1, hW2, hb2, hg2, hβ2, hg3, hβ3]
  exact congrFun (congrFun (refOut_eq_kernelOut (kRes m c) (kW1 m c) (kb1 m c) (kg1 m c) (kβ1 m c) (kW2 m c) (kb2 m c) (kg2 m c) (kβ2 m c) (kg3 m c) (kβ3 m c)
    rRes' (fun k j => Cert.Finite.real_arg9 m hpre c (ix2 k j)) (fun j => Cert.Finite.real_arg10 m hpre c (ix1 j))
    (fun j => Cert.Finite.real_arg11 m hpre c (ix1 j)) (fun j => Cert.Finite.real_arg12 m hpre c (ix1 j))
    (fun k j => Cert.Finite.real_arg13 m hpre c (ix2 k j)) (fun j => Cert.Finite.real_arg14 m hpre c (ix1 j))
    (fun j => Cert.Finite.real_arg15 m hpre c (ix1 j)) (fun j => Cert.Finite.real_arg16 m hpre c (ix1 j))
    (fun j => Cert.Finite.real_arg17 m hpre c (ix1 j)) (fun j => Cert.Finite.real_arg18 m hpre c (ix1 j))) p) j

end Results

end Cert.Bridge

end
-- ==== Proof.lean ====
/-
  A k-hop message-passing block against its jnp reference, at the extended reals.

  Both programs first build four neighbour aggregates with the SAME host operations — gather the source rows,
  add the edge features on the first hop, clamp at zero, scatter-add into the destination rows — so those four
  arrays are one function of the arguments on both sides.  The kernel then runs five row-tiled passes over the
  100000 rows in 20 blocks of 5000:
    0. result = (1+ε₀)·x₀ + (1+ε₁)·p₀ + (1+ε₂)·p₁ + (1+ε₃)·p₂ + (1+ε₄)·p₃, summed left to right as the reference does;
    1. h = result·W₁ + b₁ per block, and, carried in two scratch rows across the blocks, the column sums of h and of h·h;
    2. the first normalisation with mean = Σh/N and variance = Σh²/N − mean², a clamp at zero, h₂ = (·)·W₂ + b₂, and
       again the two column sums carried across the blocks;
    3. the second normalisation and clamp, with the column sums of its result;
    4. the third normalisation and clamp.
  The reference computes each variance in two passes, Σ(h − mean)²/N.  At the extended reals the format changes
  into the matrix unit are the identity, a block's matrix product is the row's dot product, and a column sum over
  20 blocks of 5000 rows is the column sum over 100000 rows (addition is associative and commutative at the
  infinities too).  What joins the two variances is the expansion Σ(h − μ)² = Σh² − Nμ², which holds only when every
  entry of the column is a real number (Proof/LibMeanSqDev.lean): so the proof uses that the inputs are finite, that
  gathers, clamps, finite sums and products keep entries real, and that a two-pass variance is nonnegative, so
  variance + ε is positive and its reciprocal square root is a real number again — which the next layer's
  statistics need in turn.

  The three frames (each program runs to the end, faults nowhere, leaves its arguments as launched) are stated
  below one by one; the idealization rewrote nothing, so the fourth conjunct is trivial.
-/
import proofs.«164503_j82721070121701_1_alg».proof.Defs
import proofs.«164503_j82721070121701_1_alg».proof.Proof.Gen.Kernel
import proofs.«164503_j82721070121701_1_alg».proof.Proof.Gen.Kernel.Skeleton
import proofs.«164503_j82721070121701_1_alg».proof.Proof.Gen.Kernel.Launch
import proofs.«164503_j82721070121701_1_alg».proof.Proof.Gen.Kernel.Regions
import proofs.«164503_j82721070121701_1_alg».proof.Proof.Gen.Kernel.Points
import proofs.«164503_j82721070121701_1_alg».proof.Proof.Gen.KernelIdeal
import proofs.«164503_j82721070121701_1_alg».proof.Proof.Gen.KernelIdeal.Skeleton
import proofs.«164503_j82721070121701_1_alg».proof.Proof.Gen.KernelIdeal.Launch
import proofs.«164503_j82721070121701_1_alg».proof.Proof.Gen.KernelIdeal.Regions
import proofs.«164503_j82721070121701_1_alg».proof.Proof.Gen.KernelIdeal.Points
import proofs.«164503_j82721070121701_1_alg».proof.Proof.Gen.ReferenceIdeal
import proofs.«164503_j82721070121701_1_alg».proof.Proof.Gen.Pre_finite_inputs
import proofs.«164503_j82721070121701_1_alg».proof.Proof.KB.Run
import proofs.«164503_j82721070121701_1_alg».proof.Proof.KI.RunOut
import proofs.«164503_j82721070121701_1_alg».proof.Proof.Bridge
import proofs.«164503_j82721070121701_1_alg».proof.Proof.Ref.Run
import Idealize.ShloMosaic.Adequacy
import Idealize.ShloMosaic.Init

noncomputable section

namespace Cert.Proof

open Idealize.ShloMosaic Idealize.SL.Sem Cert.Kernel

/-- The word-level kernel runs to the end and leaves its twenty argument arrays as launched. -/
theorem frame_k : @Cert.frame_Kernel Cert.Kernel.Gen.facts Cert.Pre_finite_inputs.Gen.facts :=
  fun m ρ _ => Cert.Kernel.Hand.frame (F := Bits) m ρ

/-- The kernel read at the extended reals runs to the end and leaves its arguments as launched. -/
theorem frame_ki : @Cert.frame_KernelIdeal Cert.KernelIdeal.Gen.facts Cert.Pre_finite_inputs.Gen.facts :=
  fun m ρ _ => Cert.KernelIdeal.Hand.frame (F := Ideal) m ρ

/-- The reference read at the extended reals runs to the end and leaves its arguments as launched. -/
theorem frame_ri : @Cert.frame_ReferenceIdeal Cert.ReferenceIdeal.Gen.facts Cert.Pre_finite_inputs.Gen.facts :=
  Cert.ReferenceIdeal.Hand.frame

/-- From finite arguments the two programs end with the same result array, entry by entry. -/
theorem algebraic : @Cert.algebraic_KernelIdeal_ReferenceIdeal Cert.KernelIdeal.Gen.facts Cert.ReferenceIdeal.Gen.facts
    Cert.Pre_finite_inputs.Gen.facts := by
  intro m ρ m' ρ' hpre hagree
  refine ⟨fun c => Cert.KernelIdeal.Hand.o18 (F := Ideal) m c, Cert.KernelIdeal.Hand.run_out (F := Ideal) m ρ, ?_⟩
  exact (θ_run Cert.ReferenceIdeal.defs _ _).mono
    (fun r h c => ⟨(h c).1.trans (Cert.Bridge.result_eq m m' hpre c (hagree c)), (h c).2⟩)
    (Cert.ReferenceIdeal.Hand.run (F := Ideal) m' ρ')

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
